-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  reducesTo_S_S_d : S_.ReducesTo [] S_

variable [Facts]

def fn {F : FTy → Type} [FloatOps F] (main_arg0 : FVec F S16777216 .f32) (main_arg1 : IVec S_ 32) (main_arg2 : IVec S_ 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_c_0 : IVec S_ 32 := constantI S_ 32 1#32
  let main_v4 : IVec S_ 1 := cmpi .sge main_arg1 main_c_0
  let main_c_1 : IVec S_ 32 := constantI S_ 32 1#32
  let main_v5 : IVec S_ 1 := cmpi .sle main_arg1 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  let main_c_3 : IVec S_ 32 := constantI S_ 32 4096#32
  let main_v9 : IVec S_ 1 := cmpi .sge main_arg2 main_c_3
  let main_c_4 : IVec S_ 32 := constantI S_ 32 4096#32
  let main_v10 : IVec S_ 1 := cmpi .sle main_arg2 main_c_4
  let main_v11 : IVec S_ 1 := andi main_v9 main_v10
  let main_c_5 : IVec S_ 1 := constantI S_ 1 1#1
  let main_v12 : IVec S_ 1 := (fun x v => Host.reduce IntOp.andi x v reducesTo_S_S_d h_S_) main_v11 main_c_5
  let main_v13 : IVec S_ 1 := andi main_v8 main_v12
  main_v13
-- ==== Kernel.lean ====
abbrev S16777216 : Shape := ⟨1, ![16777216]⟩
abbrev S_ : Shape := ⟨0, ![]⟩
abbrev S32x32x128x128 : Shape := ⟨4, ![32, 32, 128, 128]⟩
abbrev S16 : Shape := ⟨1, ![16]⟩
abbrev S1x1 : Shape := ⟨2, ![1, 1]⟩
abbrev S4x32x128x128 : Shape := ⟨4, ![4, 32, 128, 128]⟩
abbrev S4x1x16x16 : Shape := ⟨4, ![4, 1, 16, 16]⟩
abbrev S32x8x128 : Shape := ⟨3, ![32, 8, 128]⟩
abbrev S4x16 : Shape := ⟨2, ![4, 16]⟩
abbrev S1 : Shape := ⟨1, ![1]⟩
abbrev S1x32x8x128 : Shape := ⟨4, ![1, 32, 8, 128]⟩
abbrev S1x1x16 : Shape := ⟨3, ![1, 1, 16]⟩
abbrev S1x16 : Shape := ⟨2, ![1, 16]⟩
abbrev S4x1x1x16 : Shape := ⟨4, ![4, 1, 1, 16]⟩
abbrev S4x1x16x8 : Shape := ⟨4, ![4, 1, 16, 8]⟩
abbrev S512 : Shape := ⟨1, ![512]⟩
abbrev S28x1x128 : Shape := ⟨3, ![28, 1, 128]⟩
abbrev S4x1x128 : Shape := ⟨3, ![4, 1, 128]⟩
abbrev S4x128x128 : Shape := ⟨3, ![4, 128, 128]⟩
abbrev S4x128 : Shape := ⟨2, ![4, 128]⟩
abbrev S4x1x128x1 : Shape := ⟨4, ![4, 1, 128, 1]⟩
abbrev S3584 : Shape := ⟨1, ![3584]⟩
abbrev S4096 : Shape := ⟨1, ![4096]⟩

abbrev nBuf : Table → Nat
  | .hbm => 19
  | .local .tc .vmem => 8
  | .local .tc .smem => 1
  | .local .scVector .vmem => 4
  | _ => 0

abbrev bufTy : (tb : Table) → Fin (nBuf tb) → BufTy
  | .hbm, ⟨0, _⟩ => ⟨S16777216, .f32⟩
  | .hbm, ⟨1, _⟩ => ⟨S_, .i32⟩
  | .hbm, ⟨2, _⟩ => ⟨S_, .i32⟩
  | .hbm, ⟨3, _⟩ => ⟨S32x32x128x128, .f32⟩
  | .hbm, ⟨4, _⟩ => ⟨S_, .f32⟩
  | .hbm, ⟨5, _⟩ => ⟨S16, .f32⟩
  | .hbm, ⟨6, _⟩ => ⟨S_, .f32⟩
  | .hbm, ⟨7, _⟩ => ⟨S1x1, .f32⟩
  | .hbm, ⟨8, _⟩ => ⟨S4x32x128x128, .f32⟩
  | .hbm, ⟨9, _⟩ => ⟨S4x32x128x128, .f32⟩
  | .hbm, ⟨10, _⟩ => ⟨S4x1x16x16, .f32⟩
  | .hbm, ⟨11, _⟩ => ⟨S4x1x16x8, .f32⟩
  | .hbm, ⟨12, _⟩ => ⟨S512, .f32⟩
  | .hbm, ⟨13, _⟩ => ⟨S32x32x128x128, .f32⟩
  | .hbm, ⟨14, _⟩ => ⟨S28x1x128, .f32⟩
  | .hbm, ⟨15, _⟩ => ⟨S3584, .f32⟩
  | .hbm, ⟨16, _⟩ => ⟨S32x32x128x128, .f32⟩
  | .hbm, ⟨17, _⟩ => ⟨S4096, .f32⟩
  | .hbm, ⟨18, _⟩ => ⟨S16777216, .f32⟩
  | .local .tc .vmem, ⟨0, _⟩ => ⟨S4x32x128x128, .f32⟩
  | .local .tc .vmem, ⟨1, _⟩ => ⟨S4x32x128x128, .f32⟩
  | .local .tc .vmem, ⟨2, _⟩ => ⟨S4x32x128x128, .f32⟩
  | .local .tc .vmem, ⟨3, _⟩ => ⟨S4x32x128x128, .f32⟩
  | .local .tc .vmem, ⟨4, _⟩ => ⟨S4x1x128, .f32⟩
  | .local .tc .vmem, ⟨5, _⟩ => ⟨S4x1x128, .f32⟩
  | .local .tc .vmem, ⟨6, _⟩ => ⟨S4x32x128x128, .f32⟩
  | .local .tc .vmem, ⟨7, _⟩ => ⟨S4x32x128x128, .f32⟩
  | .local .tc .smem, ⟨0, _⟩ => ⟨S1x1, .f32⟩
  | .local .scVector .vmem, ⟨0, _⟩ => ⟨S32x8x128, .f32⟩
  | .local .scVector .vmem, ⟨1, _⟩ => ⟨S32x8x128, .f32⟩
  | .local .scVector .vmem, ⟨2, _⟩ => ⟨S16, .f32⟩
  | .local .scVector .vmem, ⟨3, _⟩ => ⟨S4x16, .f32⟩
  | _, _ => ⟨S16777216, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v5_scv : Ref sig .scVector := ⟨.hbm, 8, rfl⟩
abbrev main_v2_scv : Ref sig .scVector := ⟨.hbm, 5, rfl⟩
abbrev main_v6_0_scv : Ref sig .scVector := ⟨.hbm, 9, rfl⟩
abbrev main_v6_1_scv : Ref sig .scVector := ⟨.hbm, 10, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) (c0_i32 : BitVec 32) : Fin 4 → Nat :=
  let arg0 : BitVec 32 := BitVec.ofNat 32 (i 0).val
  let v6 : BitVec 32 := Scalar.addi c0_i32 arg0
  let c0_i32_0 : BitVec 32 := 0#32
  let arg1 : BitVec 32 := BitVec.ofNat 32 (i 1).val
  let c8_i32 : BitVec 32 := 8#32
  let v0 : BitVec 32 := Scalar.muli arg1 c8_i32
  let c0_i32_1 : BitVec 32 := 0#32
  ![v6.toNat, 0, v0.toNat, 0]
@[reducible] def k0_t1_loop : Scf.Loop 32 :=
  let c0_i32_9 : BitVec 32 := 0#32
  let c2_i32 : BitVec 32 := 2#32
  let v16 : BitVec 32 := Scalar.addi c0_i32_9 c2_i32
  let c1_i32_10 : BitVec 32 := 1#32
  ⟨c0_i32_9, v16, c1_i32_10⟩
def k0_off2 (i : grid0.Coords) (k0_t1 : Fin k0_t1_loop.trips) : Fin 4 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let c1_i32_23 : BitVec 32 := 1#32
  let v29 : BitVec 32 := Scalar.muli v27 c1_i32_23
  let arg0 : BitVec 32 := BitVec.ofNat 32 (i 0).val
  let v30 : BitVec 32 := Scalar.addi v29 arg0
  let c0_i32_24 : BitVec 32 := 0#32
  let arg1 : BitVec 32 := BitVec.ofNat 32 (i 1).val
  let c8_i32 : BitVec 32 := 8#32
  let v0 : BitVec 32 := Scalar.muli arg1 c8_i32
  let c0_i32_25 : BitVec 32 := 0#32
  ![v30.toNat, 0, v0.toNat, 0]
@[reducible] def k0_t2_loop : Scf.Loop 32 :=
  let c0_i32_29 : BitVec 32 := 0#32
  let c32_i32 : BitVec 32 := 32#32
  let v37 : BitVec 32 := Scalar.addi c0_i32_29 c32_i32
  let c1_i32_30 : BitVec 32 := 1#32
  ⟨c0_i32_29, v37, c1_i32_30⟩
def k0_off3 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1122 : Index := Scalar.indexCast arg15
  let c0_i32_299 : BitVec 32 := 0#32
  let v1123 : Index := Scalar.indexCast c0_i32_299
  let c0_300 : Index := 0#32
  ![v1122.toNat, 0, 0]
def k0_off4 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1127 : Index := Scalar.indexCast arg15
  let c0_i32_301 : BitVec 32 := 0#32
  let v1128 : Index := Scalar.indexCast c0_i32_301
  let c16 : Index := 16#32
  ![v1127.toNat, 0, 16]
def k0_off5 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1132 : Index := Scalar.indexCast arg15
  let c0_i32_302 : BitVec 32 := 0#32
  let v1133 : Index := Scalar.indexCast c0_i32_302
  let c32 : Index := 32#32
  ![v1132.toNat, 0, 32]
def k0_off6 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1137 : Index := Scalar.indexCast arg15
  let c0_i32_303 : BitVec 32 := 0#32
  let v1138 : Index := Scalar.indexCast c0_i32_303
  let c48 : Index := 48#32
  ![v1137.toNat, 0, 48]
def k0_off7 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1142 : Index := Scalar.indexCast arg15
  let c0_i32_304 : BitVec 32 := 0#32
  let v1143 : Index := Scalar.indexCast c0_i32_304
  let c64 : Index := 64#32
  ![v1142.toNat, 0, 64]
def k0_off8 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1147 : Index := Scalar.indexCast arg15
  let c0_i32_305 : BitVec 32 := 0#32
  let v1148 : Index := Scalar.indexCast c0_i32_305
  let c80 : Index := 80#32
  ![v1147.toNat, 0, 80]
def k0_off9 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1152 : Index := Scalar.indexCast arg15
  let c0_i32_306 : BitVec 32 := 0#32
  let v1153 : Index := Scalar.indexCast c0_i32_306
  let c96 : Index := 96#32
  ![v1152.toNat, 0, 96]
def k0_off10 (k0_t2 : Fin k0_t2_loop.trips) : Fin 3 → Nat :=
  let c0_i32_29 : BitVec 32 := 0#32
  let c1_i32_30 : BitVec 32 := 1#32
  let arg15 : BitVec 32 := Scf.iv c0_i32_29 c1_i32_30 k0_t2
  let v1157 : Index := Scalar.indexCast arg15
  let c0_i32_307 : BitVec 32 := 0#32
  let v1158 : Index := Scalar.indexCast c0_i32_307
  let c112 : Index := 112#32
  ![v1157.toNat, 0, 112]
@[reducible] def k0_t3_loop : Scf.Loop 32 :=
  let c0_i32_39 : BitVec 32 := 0#32
  let c32_i32_40 : BitVec 32 := 32#32
  let v101 : BitVec 32 := Scalar.addi c0_i32_39 c32_i32_40
  let c1_i32_41 : BitVec 32 := 1#32
  ⟨c0_i32_39, v101, c1_i32_41⟩
def k0_off11 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1122 : Index := Scalar.indexCast arg15
  let c0_i32_299 : BitVec 32 := 0#32
  let v1123 : Index := Scalar.indexCast c0_i32_299
  let c0_300 : Index := 0#32
  ![v1122.toNat, 0, 0]
def k0_off12 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1133 : Index := Scalar.indexCast arg15
  let c0_i32_303 : BitVec 32 := 0#32
  let v1134 : Index := Scalar.indexCast c0_i32_303
  let c16 : Index := 16#32
  ![v1133.toNat, 0, 16]
def k0_off13 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1144 : Index := Scalar.indexCast arg15
  let c0_i32_306 : BitVec 32 := 0#32
  let v1145 : Index := Scalar.indexCast c0_i32_306
  let c32 : Index := 32#32
  ![v1144.toNat, 0, 32]
def k0_off14 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1155 : Index := Scalar.indexCast arg15
  let c0_i32_309 : BitVec 32 := 0#32
  let v1156 : Index := Scalar.indexCast c0_i32_309
  let c48 : Index := 48#32
  ![v1155.toNat, 0, 48]
def k0_off15 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1166 : Index := Scalar.indexCast arg15
  let c0_i32_312 : BitVec 32 := 0#32
  let v1167 : Index := Scalar.indexCast c0_i32_312
  let c64 : Index := 64#32
  ![v1166.toNat, 0, 64]
def k0_off16 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1177 : Index := Scalar.indexCast arg15
  let c0_i32_315 : BitVec 32 := 0#32
  let v1178 : Index := Scalar.indexCast c0_i32_315
  let c80 : Index := 80#32
  ![v1177.toNat, 0, 80]
def k0_off17 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1188 : Index := Scalar.indexCast arg15
  let c0_i32_318 : BitVec 32 := 0#32
  let v1189 : Index := Scalar.indexCast c0_i32_318
  let c96 : Index := 96#32
  ![v1188.toNat, 0, 96]
def k0_off18 (k0_t3 : Fin k0_t3_loop.trips) : Fin 3 → Nat :=
  let c0_i32_39 : BitVec 32 := 0#32
  let c1_i32_41 : BitVec 32 := 1#32
  let arg15 : BitVec 32 := Scf.iv c0_i32_39 c1_i32_41 k0_t3
  let v1199 : Index := Scalar.indexCast arg15
  let c0_i32_321 : BitVec 32 := 0#32
  let v1200 : Index := Scalar.indexCast c0_i32_321
  let c112 : Index := 112#32
  ![v1199.toNat, 0, 112]
@[reducible] def k0_t4_loop : Scf.Loop 32 :=
  let c0_i32_44 : BitVec 32 := 0#32
  let c32_i32_45 : BitVec 32 := 32#32
  let v103 : BitVec 32 := Scalar.addi c0_i32_44 c32_i32_45
  let c1_i32_46 : BitVec 32 := 1#32
  ⟨c0_i32_44, v103, c1_i32_46⟩
def k0_off19 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1122 : Index := Scalar.indexCast arg15
  let c1_i32_299 : BitVec 32 := 1#32
  let v1123 : Index := Scalar.indexCast c1_i32_299
  let c0_300 : Index := 0#32
  ![v1122.toNat, 1, 0]
def k0_off20 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1127 : Index := Scalar.indexCast arg15
  let c1_i32_301 : BitVec 32 := 1#32
  let v1128 : Index := Scalar.indexCast c1_i32_301
  let c16 : Index := 16#32
  ![v1127.toNat, 1, 16]
def k0_off21 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1132 : Index := Scalar.indexCast arg15
  let c1_i32_302 : BitVec 32 := 1#32
  let v1133 : Index := Scalar.indexCast c1_i32_302
  let c32 : Index := 32#32
  ![v1132.toNat, 1, 32]
def k0_off22 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1137 : Index := Scalar.indexCast arg15
  let c1_i32_303 : BitVec 32 := 1#32
  let v1138 : Index := Scalar.indexCast c1_i32_303
  let c48 : Index := 48#32
  ![v1137.toNat, 1, 48]
def k0_off23 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1142 : Index := Scalar.indexCast arg15
  let c1_i32_304 : BitVec 32 := 1#32
  let v1143 : Index := Scalar.indexCast c1_i32_304
  let c64 : Index := 64#32
  ![v1142.toNat, 1, 64]
def k0_off24 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1147 : Index := Scalar.indexCast arg15
  let c1_i32_305 : BitVec 32 := 1#32
  let v1148 : Index := Scalar.indexCast c1_i32_305
  let c80 : Index := 80#32
  ![v1147.toNat, 1, 80]
def k0_off25 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1152 : Index := Scalar.indexCast arg15
  let c1_i32_306 : BitVec 32 := 1#32
  let v1153 : Index := Scalar.indexCast c1_i32_306
  let c96 : Index := 96#32
  ![v1152.toNat, 1, 96]
def k0_off26 (k0_t4 : Fin k0_t4_loop.trips) : Fin 3 → Nat :=
  let c0_i32_44 : BitVec 32 := 0#32
  let c1_i32_46 : BitVec 32 := 1#32
  let arg15 : BitVec 32 := Scf.iv c0_i32_44 c1_i32_46 k0_t4
  let v1157 : Index := Scalar.indexCast arg15
  let c1_i32_307 : BitVec 32 := 1#32
  let v1158 : Index := Scalar.indexCast c1_i32_307
  let c112 : Index := 112#32
  ![v1157.toNat, 1, 112]
@[reducible] def k0_t5_loop : Scf.Loop 32 :=
  let c0_i32_55 : BitVec 32 := 0#32
  let c32_i32_56 : BitVec 32 := 32#32
  let v167 : BitVec 32 := Scalar.addi c0_i32_55 c32_i32_56
  let c1_i32_57 : BitVec 32 := 1#32
  ⟨c0_i32_55, v167, c1_i32_57⟩
def k0_off27 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1122 : Index := Scalar.indexCast arg15
  let c1_i32_299 : BitVec 32 := 1#32
  let v1123 : Index := Scalar.indexCast c1_i32_299
  let c0_300 : Index := 0#32
  ![v1122.toNat, 1, 0]
def k0_off28 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1133 : Index := Scalar.indexCast arg15
  let c1_i32_303 : BitVec 32 := 1#32
  let v1134 : Index := Scalar.indexCast c1_i32_303
  let c16 : Index := 16#32
  ![v1133.toNat, 1, 16]
def k0_off29 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1144 : Index := Scalar.indexCast arg15
  let c1_i32_306 : BitVec 32 := 1#32
  let v1145 : Index := Scalar.indexCast c1_i32_306
  let c32 : Index := 32#32
  ![v1144.toNat, 1, 32]
def k0_off30 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1155 : Index := Scalar.indexCast arg15
  let c1_i32_309 : BitVec 32 := 1#32
  let v1156 : Index := Scalar.indexCast c1_i32_309
  let c48 : Index := 48#32
  ![v1155.toNat, 1, 48]
def k0_off31 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1166 : Index := Scalar.indexCast arg15
  let c1_i32_312 : BitVec 32 := 1#32
  let v1167 : Index := Scalar.indexCast c1_i32_312
  let c64 : Index := 64#32
  ![v1166.toNat, 1, 64]
def k0_off32 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1177 : Index := Scalar.indexCast arg15
  let c1_i32_315 : BitVec 32 := 1#32
  let v1178 : Index := Scalar.indexCast c1_i32_315
  let c80 : Index := 80#32
  ![v1177.toNat, 1, 80]
def k0_off33 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1188 : Index := Scalar.indexCast arg15
  let c1_i32_318 : BitVec 32 := 1#32
  let v1189 : Index := Scalar.indexCast c1_i32_318
  let c96 : Index := 96#32
  ![v1188.toNat, 1, 96]
def k0_off34 (k0_t5 : Fin k0_t5_loop.trips) : Fin 3 → Nat :=
  let c0_i32_55 : BitVec 32 := 0#32
  let c1_i32_57 : BitVec 32 := 1#32
  let arg15 : BitVec 32 := Scf.iv c0_i32_55 c1_i32_57 k0_t5
  let v1199 : Index := Scalar.indexCast arg15
  let c1_i32_321 : BitVec 32 := 1#32
  let v1200 : Index := Scalar.indexCast c1_i32_321
  let c112 : Index := 112#32
  ![v1199.toNat, 1, 112]
@[reducible] def k0_t6_loop : Scf.Loop 32 :=
  let c0_i32_60 : BitVec 32 := 0#32
  let c32_i32_61 : BitVec 32 := 32#32
  let v169 : BitVec 32 := Scalar.addi c0_i32_60 c32_i32_61
  let c1_i32_62 : BitVec 32 := 1#32
  ⟨c0_i32_60, v169, c1_i32_62⟩
def k0_off35 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1122 : Index := Scalar.indexCast arg15
  let c2_i32_299 : BitVec 32 := 2#32
  let v1123 : Index := Scalar.indexCast c2_i32_299
  let c0_300 : Index := 0#32
  ![v1122.toNat, 2, 0]
def k0_off36 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1127 : Index := Scalar.indexCast arg15
  let c2_i32_301 : BitVec 32 := 2#32
  let v1128 : Index := Scalar.indexCast c2_i32_301
  let c16 : Index := 16#32
  ![v1127.toNat, 2, 16]
def k0_off37 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1132 : Index := Scalar.indexCast arg15
  let c2_i32_302 : BitVec 32 := 2#32
  let v1133 : Index := Scalar.indexCast c2_i32_302
  let c32 : Index := 32#32
  ![v1132.toNat, 2, 32]
def k0_off38 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1137 : Index := Scalar.indexCast arg15
  let c2_i32_303 : BitVec 32 := 2#32
  let v1138 : Index := Scalar.indexCast c2_i32_303
  let c48 : Index := 48#32
  ![v1137.toNat, 2, 48]
def k0_off39 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1142 : Index := Scalar.indexCast arg15
  let c2_i32_304 : BitVec 32 := 2#32
  let v1143 : Index := Scalar.indexCast c2_i32_304
  let c64 : Index := 64#32
  ![v1142.toNat, 2, 64]
def k0_off40 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1147 : Index := Scalar.indexCast arg15
  let c2_i32_305 : BitVec 32 := 2#32
  let v1148 : Index := Scalar.indexCast c2_i32_305
  let c80 : Index := 80#32
  ![v1147.toNat, 2, 80]
def k0_off41 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1152 : Index := Scalar.indexCast arg15
  let c2_i32_306 : BitVec 32 := 2#32
  let v1153 : Index := Scalar.indexCast c2_i32_306
  let c96 : Index := 96#32
  ![v1152.toNat, 2, 96]
def k0_off42 (k0_t6 : Fin k0_t6_loop.trips) : Fin 3 → Nat :=
  let c0_i32_60 : BitVec 32 := 0#32
  let c1_i32_62 : BitVec 32 := 1#32
  let arg15 : BitVec 32 := Scf.iv c0_i32_60 c1_i32_62 k0_t6
  let v1157 : Index := Scalar.indexCast arg15
  let c2_i32_307 : BitVec 32 := 2#32
  let v1158 : Index := Scalar.indexCast c2_i32_307
  let c112 : Index := 112#32
  ![v1157.toNat, 2, 112]
@[reducible] def k0_t7_loop : Scf.Loop 32 :=
  let c0_i32_71 : BitVec 32 := 0#32
  let c32_i32_72 : BitVec 32 := 32#32
  let v233 : BitVec 32 := Scalar.addi c0_i32_71 c32_i32_72
  let c1_i32_73 : BitVec 32 := 1#32
  ⟨c0_i32_71, v233, c1_i32_73⟩
def k0_off43 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1122 : Index := Scalar.indexCast arg15
  let c2_i32_299 : BitVec 32 := 2#32
  let v1123 : Index := Scalar.indexCast c2_i32_299
  let c0_300 : Index := 0#32
  ![v1122.toNat, 2, 0]
def k0_off44 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1133 : Index := Scalar.indexCast arg15
  let c2_i32_303 : BitVec 32 := 2#32
  let v1134 : Index := Scalar.indexCast c2_i32_303
  let c16 : Index := 16#32
  ![v1133.toNat, 2, 16]
def k0_off45 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1144 : Index := Scalar.indexCast arg15
  let c2_i32_306 : BitVec 32 := 2#32
  let v1145 : Index := Scalar.indexCast c2_i32_306
  let c32 : Index := 32#32
  ![v1144.toNat, 2, 32]
def k0_off46 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1155 : Index := Scalar.indexCast arg15
  let c2_i32_309 : BitVec 32 := 2#32
  let v1156 : Index := Scalar.indexCast c2_i32_309
  let c48 : Index := 48#32
  ![v1155.toNat, 2, 48]
def k0_off47 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1166 : Index := Scalar.indexCast arg15
  let c2_i32_312 : BitVec 32 := 2#32
  let v1167 : Index := Scalar.indexCast c2_i32_312
  let c64 : Index := 64#32
  ![v1166.toNat, 2, 64]
def k0_off48 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1177 : Index := Scalar.indexCast arg15
  let c2_i32_315 : BitVec 32 := 2#32
  let v1178 : Index := Scalar.indexCast c2_i32_315
  let c80 : Index := 80#32
  ![v1177.toNat, 2, 80]
def k0_off49 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1188 : Index := Scalar.indexCast arg15
  let c2_i32_318 : BitVec 32 := 2#32
  let v1189 : Index := Scalar.indexCast c2_i32_318
  let c96 : Index := 96#32
  ![v1188.toNat, 2, 96]
def k0_off50 (k0_t7 : Fin k0_t7_loop.trips) : Fin 3 → Nat :=
  let c0_i32_71 : BitVec 32 := 0#32
  let c1_i32_73 : BitVec 32 := 1#32
  let arg15 : BitVec 32 := Scf.iv c0_i32_71 c1_i32_73 k0_t7
  let v1199 : Index := Scalar.indexCast arg15
  let c2_i32_321 : BitVec 32 := 2#32
  let v1200 : Index := Scalar.indexCast c2_i32_321
  let c112 : Index := 112#32
  ![v1199.toNat, 2, 112]
@[reducible] def k0_t8_loop : Scf.Loop 32 :=
  let c0_i32_76 : BitVec 32 := 0#32
  let c32_i32_77 : BitVec 32 := 32#32
  let v235 : BitVec 32 := Scalar.addi c0_i32_76 c32_i32_77
  let c1_i32_78 : BitVec 32 := 1#32
  ⟨c0_i32_76, v235, c1_i32_78⟩
def k0_off51 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1122 : Index := Scalar.indexCast arg15
  let c3_i32_299 : BitVec 32 := 3#32
  let v1123 : Index := Scalar.indexCast c3_i32_299
  let c0_300 : Index := 0#32
  ![v1122.toNat, 3, 0]
def k0_off52 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1127 : Index := Scalar.indexCast arg15
  let c3_i32_301 : BitVec 32 := 3#32
  let v1128 : Index := Scalar.indexCast c3_i32_301
  let c16 : Index := 16#32
  ![v1127.toNat, 3, 16]
def k0_off53 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1132 : Index := Scalar.indexCast arg15
  let c3_i32_302 : BitVec 32 := 3#32
  let v1133 : Index := Scalar.indexCast c3_i32_302
  let c32 : Index := 32#32
  ![v1132.toNat, 3, 32]
def k0_off54 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1137 : Index := Scalar.indexCast arg15
  let c3_i32_303 : BitVec 32 := 3#32
  let v1138 : Index := Scalar.indexCast c3_i32_303
  let c48 : Index := 48#32
  ![v1137.toNat, 3, 48]
def k0_off55 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1142 : Index := Scalar.indexCast arg15
  let c3_i32_304 : BitVec 32 := 3#32
  let v1143 : Index := Scalar.indexCast c3_i32_304
  let c64 : Index := 64#32
  ![v1142.toNat, 3, 64]
def k0_off56 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1147 : Index := Scalar.indexCast arg15
  let c3_i32_305 : BitVec 32 := 3#32
  let v1148 : Index := Scalar.indexCast c3_i32_305
  let c80 : Index := 80#32
  ![v1147.toNat, 3, 80]
def k0_off57 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1152 : Index := Scalar.indexCast arg15
  let c3_i32_306 : BitVec 32 := 3#32
  let v1153 : Index := Scalar.indexCast c3_i32_306
  let c96 : Index := 96#32
  ![v1152.toNat, 3, 96]
def k0_off58 (k0_t8 : Fin k0_t8_loop.trips) : Fin 3 → Nat :=
  let c0_i32_76 : BitVec 32 := 0#32
  let c1_i32_78 : BitVec 32 := 1#32
  let arg15 : BitVec 32 := Scf.iv c0_i32_76 c1_i32_78 k0_t8
  let v1157 : Index := Scalar.indexCast arg15
  let c3_i32_307 : BitVec 32 := 3#32
  let v1158 : Index := Scalar.indexCast c3_i32_307
  let c112 : Index := 112#32
  ![v1157.toNat, 3, 112]
@[reducible] def k0_t9_loop : Scf.Loop 32 :=
  let c0_i32_87 : BitVec 32 := 0#32
  let c32_i32_88 : BitVec 32 := 32#32
  let v299 : BitVec 32 := Scalar.addi c0_i32_87 c32_i32_88
  let c1_i32_89 : BitVec 32 := 1#32
  ⟨c0_i32_87, v299, c1_i32_89⟩
def k0_off59 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1122 : Index := Scalar.indexCast arg15
  let c3_i32_299 : BitVec 32 := 3#32
  let v1123 : Index := Scalar.indexCast c3_i32_299
  let c0_300 : Index := 0#32
  ![v1122.toNat, 3, 0]
def k0_off60 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1133 : Index := Scalar.indexCast arg15
  let c3_i32_303 : BitVec 32 := 3#32
  let v1134 : Index := Scalar.indexCast c3_i32_303
  let c16 : Index := 16#32
  ![v1133.toNat, 3, 16]
def k0_off61 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1144 : Index := Scalar.indexCast arg15
  let c3_i32_306 : BitVec 32 := 3#32
  let v1145 : Index := Scalar.indexCast c3_i32_306
  let c32 : Index := 32#32
  ![v1144.toNat, 3, 32]
def k0_off62 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1155 : Index := Scalar.indexCast arg15
  let c3_i32_309 : BitVec 32 := 3#32
  let v1156 : Index := Scalar.indexCast c3_i32_309
  let c48 : Index := 48#32
  ![v1155.toNat, 3, 48]
def k0_off63 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1166 : Index := Scalar.indexCast arg15
  let c3_i32_312 : BitVec 32 := 3#32
  let v1167 : Index := Scalar.indexCast c3_i32_312
  let c64 : Index := 64#32
  ![v1166.toNat, 3, 64]
def k0_off64 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1177 : Index := Scalar.indexCast arg15
  let c3_i32_315 : BitVec 32 := 3#32
  let v1178 : Index := Scalar.indexCast c3_i32_315
  let c80 : Index := 80#32
  ![v1177.toNat, 3, 80]
def k0_off65 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1188 : Index := Scalar.indexCast arg15
  let c3_i32_318 : BitVec 32 := 3#32
  let v1189 : Index := Scalar.indexCast c3_i32_318
  let c96 : Index := 96#32
  ![v1188.toNat, 3, 96]
def k0_off66 (k0_t9 : Fin k0_t9_loop.trips) : Fin 3 → Nat :=
  let c0_i32_87 : BitVec 32 := 0#32
  let c1_i32_89 : BitVec 32 := 1#32
  let arg15 : BitVec 32 := Scf.iv c0_i32_87 c1_i32_89 k0_t9
  let v1199 : Index := Scalar.indexCast arg15
  let c3_i32_321 : BitVec 32 := 3#32
  let v1200 : Index := Scalar.indexCast c3_i32_321
  let c112 : Index := 112#32
  ![v1199.toNat, 3, 112]
@[reducible] def k0_t10_loop : Scf.Loop 32 :=
  let c0_i32_92 : BitVec 32 := 0#32
  let c32_i32_93 : BitVec 32 := 32#32
  let v301 : BitVec 32 := Scalar.addi c0_i32_92 c32_i32_93
  let c1_i32_94 : BitVec 32 := 1#32
  ⟨c0_i32_92, v301, c1_i32_94⟩
def k0_off67 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1122 : Index := Scalar.indexCast arg15
  let c4_i32_299 : BitVec 32 := 4#32
  let v1123 : Index := Scalar.indexCast c4_i32_299
  let c0_300 : Index := 0#32
  ![v1122.toNat, 4, 0]
def k0_off68 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1127 : Index := Scalar.indexCast arg15
  let c4_i32_301 : BitVec 32 := 4#32
  let v1128 : Index := Scalar.indexCast c4_i32_301
  let c16 : Index := 16#32
  ![v1127.toNat, 4, 16]
def k0_off69 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1132 : Index := Scalar.indexCast arg15
  let c4_i32_302 : BitVec 32 := 4#32
  let v1133 : Index := Scalar.indexCast c4_i32_302
  let c32 : Index := 32#32
  ![v1132.toNat, 4, 32]
def k0_off70 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1137 : Index := Scalar.indexCast arg15
  let c4_i32_303 : BitVec 32 := 4#32
  let v1138 : Index := Scalar.indexCast c4_i32_303
  let c48 : Index := 48#32
  ![v1137.toNat, 4, 48]
def k0_off71 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1142 : Index := Scalar.indexCast arg15
  let c4_i32_304 : BitVec 32 := 4#32
  let v1143 : Index := Scalar.indexCast c4_i32_304
  let c64 : Index := 64#32
  ![v1142.toNat, 4, 64]
def k0_off72 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1147 : Index := Scalar.indexCast arg15
  let c4_i32_305 : BitVec 32 := 4#32
  let v1148 : Index := Scalar.indexCast c4_i32_305
  let c80 : Index := 80#32
  ![v1147.toNat, 4, 80]
def k0_off73 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1152 : Index := Scalar.indexCast arg15
  let c4_i32_306 : BitVec 32 := 4#32
  let v1153 : Index := Scalar.indexCast c4_i32_306
  let c96 : Index := 96#32
  ![v1152.toNat, 4, 96]
def k0_off74 (k0_t10 : Fin k0_t10_loop.trips) : Fin 3 → Nat :=
  let c0_i32_92 : BitVec 32 := 0#32
  let c1_i32_94 : BitVec 32 := 1#32
  let arg15 : BitVec 32 := Scf.iv c0_i32_92 c1_i32_94 k0_t10
  let v1157 : Index := Scalar.indexCast arg15
  let c4_i32_307 : BitVec 32 := 4#32
  let v1158 : Index := Scalar.indexCast c4_i32_307
  let c112 : Index := 112#32
  ![v1157.toNat, 4, 112]
@[reducible] def k0_t11_loop : Scf.Loop 32 :=
  let c0_i32_102 : BitVec 32 := 0#32
  let c32_i32_103 : BitVec 32 := 32#32
  let v365 : BitVec 32 := Scalar.addi c0_i32_102 c32_i32_103
  let c1_i32_104 : BitVec 32 := 1#32
  ⟨c0_i32_102, v365, c1_i32_104⟩
def k0_off75 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1122 : Index := Scalar.indexCast arg15
  let c4_i32_299 : BitVec 32 := 4#32
  let v1123 : Index := Scalar.indexCast c4_i32_299
  let c0_300 : Index := 0#32
  ![v1122.toNat, 4, 0]
def k0_off76 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1133 : Index := Scalar.indexCast arg15
  let c4_i32_303 : BitVec 32 := 4#32
  let v1134 : Index := Scalar.indexCast c4_i32_303
  let c16 : Index := 16#32
  ![v1133.toNat, 4, 16]
def k0_off77 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1144 : Index := Scalar.indexCast arg15
  let c4_i32_306 : BitVec 32 := 4#32
  let v1145 : Index := Scalar.indexCast c4_i32_306
  let c32 : Index := 32#32
  ![v1144.toNat, 4, 32]
def k0_off78 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1155 : Index := Scalar.indexCast arg15
  let c4_i32_309 : BitVec 32 := 4#32
  let v1156 : Index := Scalar.indexCast c4_i32_309
  let c48 : Index := 48#32
  ![v1155.toNat, 4, 48]
def k0_off79 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1166 : Index := Scalar.indexCast arg15
  let c4_i32_312 : BitVec 32 := 4#32
  let v1167 : Index := Scalar.indexCast c4_i32_312
  let c64 : Index := 64#32
  ![v1166.toNat, 4, 64]
def k0_off80 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1177 : Index := Scalar.indexCast arg15
  let c4_i32_315 : BitVec 32 := 4#32
  let v1178 : Index := Scalar.indexCast c4_i32_315
  let c80 : Index := 80#32
  ![v1177.toNat, 4, 80]
def k0_off81 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1188 : Index := Scalar.indexCast arg15
  let c4_i32_318 : BitVec 32 := 4#32
  let v1189 : Index := Scalar.indexCast c4_i32_318
  let c96 : Index := 96#32
  ![v1188.toNat, 4, 96]
def k0_off82 (k0_t11 : Fin k0_t11_loop.trips) : Fin 3 → Nat :=
  let c0_i32_102 : BitVec 32 := 0#32
  let c1_i32_104 : BitVec 32 := 1#32
  let arg15 : BitVec 32 := Scf.iv c0_i32_102 c1_i32_104 k0_t11
  let v1199 : Index := Scalar.indexCast arg15
  let c4_i32_321 : BitVec 32 := 4#32
  let v1200 : Index := Scalar.indexCast c4_i32_321
  let c112 : Index := 112#32
  ![v1199.toNat, 4, 112]
@[reducible] def k0_t12_loop : Scf.Loop 32 :=
  let c0_i32_107 : BitVec 32 := 0#32
  let c32_i32_108 : BitVec 32 := 32#32
  let v367 : BitVec 32 := Scalar.addi c0_i32_107 c32_i32_108
  let c1_i32_109 : BitVec 32 := 1#32
  ⟨c0_i32_107, v367, c1_i32_109⟩
def k0_off83 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1122 : Index := Scalar.indexCast arg15
  let c5_i32_299 : BitVec 32 := 5#32
  let v1123 : Index := Scalar.indexCast c5_i32_299
  let c0_300 : Index := 0#32
  ![v1122.toNat, 5, 0]
def k0_off84 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1127 : Index := Scalar.indexCast arg15
  let c5_i32_301 : BitVec 32 := 5#32
  let v1128 : Index := Scalar.indexCast c5_i32_301
  let c16 : Index := 16#32
  ![v1127.toNat, 5, 16]
def k0_off85 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1132 : Index := Scalar.indexCast arg15
  let c5_i32_302 : BitVec 32 := 5#32
  let v1133 : Index := Scalar.indexCast c5_i32_302
  let c32 : Index := 32#32
  ![v1132.toNat, 5, 32]
def k0_off86 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1137 : Index := Scalar.indexCast arg15
  let c5_i32_303 : BitVec 32 := 5#32
  let v1138 : Index := Scalar.indexCast c5_i32_303
  let c48 : Index := 48#32
  ![v1137.toNat, 5, 48]
def k0_off87 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1142 : Index := Scalar.indexCast arg15
  let c5_i32_304 : BitVec 32 := 5#32
  let v1143 : Index := Scalar.indexCast c5_i32_304
  let c64 : Index := 64#32
  ![v1142.toNat, 5, 64]
def k0_off88 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1147 : Index := Scalar.indexCast arg15
  let c5_i32_305 : BitVec 32 := 5#32
  let v1148 : Index := Scalar.indexCast c5_i32_305
  let c80 : Index := 80#32
  ![v1147.toNat, 5, 80]
def k0_off89 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1152 : Index := Scalar.indexCast arg15
  let c5_i32_306 : BitVec 32 := 5#32
  let v1153 : Index := Scalar.indexCast c5_i32_306
  let c96 : Index := 96#32
  ![v1152.toNat, 5, 96]
def k0_off90 (k0_t12 : Fin k0_t12_loop.trips) : Fin 3 → Nat :=
  let c0_i32_107 : BitVec 32 := 0#32
  let c1_i32_109 : BitVec 32 := 1#32
  let arg15 : BitVec 32 := Scf.iv c0_i32_107 c1_i32_109 k0_t12
  let v1157 : Index := Scalar.indexCast arg15
  let c5_i32_307 : BitVec 32 := 5#32
  let v1158 : Index := Scalar.indexCast c5_i32_307
  let c112 : Index := 112#32
  ![v1157.toNat, 5, 112]
@[reducible] def k0_t13_loop : Scf.Loop 32 :=
  let c0_i32_117 : BitVec 32 := 0#32
  let c32_i32_118 : BitVec 32 := 32#32
  let v431 : BitVec 32 := Scalar.addi c0_i32_117 c32_i32_118
  let c1_i32_119 : BitVec 32 := 1#32
  ⟨c0_i32_117, v431, c1_i32_119⟩
def k0_off91 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1122 : Index := Scalar.indexCast arg15
  let c5_i32_299 : BitVec 32 := 5#32
  let v1123 : Index := Scalar.indexCast c5_i32_299
  let c0_300 : Index := 0#32
  ![v1122.toNat, 5, 0]
def k0_off92 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1133 : Index := Scalar.indexCast arg15
  let c5_i32_303 : BitVec 32 := 5#32
  let v1134 : Index := Scalar.indexCast c5_i32_303
  let c16 : Index := 16#32
  ![v1133.toNat, 5, 16]
def k0_off93 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1144 : Index := Scalar.indexCast arg15
  let c5_i32_306 : BitVec 32 := 5#32
  let v1145 : Index := Scalar.indexCast c5_i32_306
  let c32 : Index := 32#32
  ![v1144.toNat, 5, 32]
def k0_off94 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1155 : Index := Scalar.indexCast arg15
  let c5_i32_309 : BitVec 32 := 5#32
  let v1156 : Index := Scalar.indexCast c5_i32_309
  let c48 : Index := 48#32
  ![v1155.toNat, 5, 48]
def k0_off95 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1166 : Index := Scalar.indexCast arg15
  let c5_i32_312 : BitVec 32 := 5#32
  let v1167 : Index := Scalar.indexCast c5_i32_312
  let c64 : Index := 64#32
  ![v1166.toNat, 5, 64]
def k0_off96 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1177 : Index := Scalar.indexCast arg15
  let c5_i32_315 : BitVec 32 := 5#32
  let v1178 : Index := Scalar.indexCast c5_i32_315
  let c80 : Index := 80#32
  ![v1177.toNat, 5, 80]
def k0_off97 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1188 : Index := Scalar.indexCast arg15
  let c5_i32_318 : BitVec 32 := 5#32
  let v1189 : Index := Scalar.indexCast c5_i32_318
  let c96 : Index := 96#32
  ![v1188.toNat, 5, 96]
def k0_off98 (k0_t13 : Fin k0_t13_loop.trips) : Fin 3 → Nat :=
  let c0_i32_117 : BitVec 32 := 0#32
  let c1_i32_119 : BitVec 32 := 1#32
  let arg15 : BitVec 32 := Scf.iv c0_i32_117 c1_i32_119 k0_t13
  let v1199 : Index := Scalar.indexCast arg15
  let c5_i32_321 : BitVec 32 := 5#32
  let v1200 : Index := Scalar.indexCast c5_i32_321
  let c112 : Index := 112#32
  ![v1199.toNat, 5, 112]
@[reducible] def k0_t14_loop : Scf.Loop 32 :=
  let c0_i32_122 : BitVec 32 := 0#32
  let c32_i32_123 : BitVec 32 := 32#32
  let v433 : BitVec 32 := Scalar.addi c0_i32_122 c32_i32_123
  let c1_i32_124 : BitVec 32 := 1#32
  ⟨c0_i32_122, v433, c1_i32_124⟩
def k0_off99 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1122 : Index := Scalar.indexCast arg15
  let c6_i32_299 : BitVec 32 := 6#32
  let v1123 : Index := Scalar.indexCast c6_i32_299
  let c0_300 : Index := 0#32
  ![v1122.toNat, 6, 0]
def k0_off100 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1127 : Index := Scalar.indexCast arg15
  let c6_i32_301 : BitVec 32 := 6#32
  let v1128 : Index := Scalar.indexCast c6_i32_301
  let c16 : Index := 16#32
  ![v1127.toNat, 6, 16]
def k0_off101 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1132 : Index := Scalar.indexCast arg15
  let c6_i32_302 : BitVec 32 := 6#32
  let v1133 : Index := Scalar.indexCast c6_i32_302
  let c32 : Index := 32#32
  ![v1132.toNat, 6, 32]
def k0_off102 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1137 : Index := Scalar.indexCast arg15
  let c6_i32_303 : BitVec 32 := 6#32
  let v1138 : Index := Scalar.indexCast c6_i32_303
  let c48 : Index := 48#32
  ![v1137.toNat, 6, 48]
def k0_off103 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1142 : Index := Scalar.indexCast arg15
  let c6_i32_304 : BitVec 32 := 6#32
  let v1143 : Index := Scalar.indexCast c6_i32_304
  let c64 : Index := 64#32
  ![v1142.toNat, 6, 64]
def k0_off104 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1147 : Index := Scalar.indexCast arg15
  let c6_i32_305 : BitVec 32 := 6#32
  let v1148 : Index := Scalar.indexCast c6_i32_305
  let c80 : Index := 80#32
  ![v1147.toNat, 6, 80]
def k0_off105 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1152 : Index := Scalar.indexCast arg15
  let c6_i32_306 : BitVec 32 := 6#32
  let v1153 : Index := Scalar.indexCast c6_i32_306
  let c96 : Index := 96#32
  ![v1152.toNat, 6, 96]
def k0_off106 (k0_t14 : Fin k0_t14_loop.trips) : Fin 3 → Nat :=
  let c0_i32_122 : BitVec 32 := 0#32
  let c1_i32_124 : BitVec 32 := 1#32
  let arg15 : BitVec 32 := Scf.iv c0_i32_122 c1_i32_124 k0_t14
  let v1157 : Index := Scalar.indexCast arg15
  let c6_i32_307 : BitVec 32 := 6#32
  let v1158 : Index := Scalar.indexCast c6_i32_307
  let c112 : Index := 112#32
  ![v1157.toNat, 6, 112]
@[reducible] def k0_t15_loop : Scf.Loop 32 :=
  let c0_i32_132 : BitVec 32 := 0#32
  let c32_i32_133 : BitVec 32 := 32#32
  let v497 : BitVec 32 := Scalar.addi c0_i32_132 c32_i32_133
  let c1_i32_134 : BitVec 32 := 1#32
  ⟨c0_i32_132, v497, c1_i32_134⟩
def k0_off107 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1122 : Index := Scalar.indexCast arg15
  let c6_i32_299 : BitVec 32 := 6#32
  let v1123 : Index := Scalar.indexCast c6_i32_299
  let c0_300 : Index := 0#32
  ![v1122.toNat, 6, 0]
def k0_off108 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1133 : Index := Scalar.indexCast arg15
  let c6_i32_303 : BitVec 32 := 6#32
  let v1134 : Index := Scalar.indexCast c6_i32_303
  let c16 : Index := 16#32
  ![v1133.toNat, 6, 16]
def k0_off109 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1144 : Index := Scalar.indexCast arg15
  let c6_i32_306 : BitVec 32 := 6#32
  let v1145 : Index := Scalar.indexCast c6_i32_306
  let c32 : Index := 32#32
  ![v1144.toNat, 6, 32]
def k0_off110 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1155 : Index := Scalar.indexCast arg15
  let c6_i32_309 : BitVec 32 := 6#32
  let v1156 : Index := Scalar.indexCast c6_i32_309
  let c48 : Index := 48#32
  ![v1155.toNat, 6, 48]
def k0_off111 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1166 : Index := Scalar.indexCast arg15
  let c6_i32_312 : BitVec 32 := 6#32
  let v1167 : Index := Scalar.indexCast c6_i32_312
  let c64 : Index := 64#32
  ![v1166.toNat, 6, 64]
def k0_off112 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1177 : Index := Scalar.indexCast arg15
  let c6_i32_315 : BitVec 32 := 6#32
  let v1178 : Index := Scalar.indexCast c6_i32_315
  let c80 : Index := 80#32
  ![v1177.toNat, 6, 80]
def k0_off113 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1188 : Index := Scalar.indexCast arg15
  let c6_i32_318 : BitVec 32 := 6#32
  let v1189 : Index := Scalar.indexCast c6_i32_318
  let c96 : Index := 96#32
  ![v1188.toNat, 6, 96]
def k0_off114 (k0_t15 : Fin k0_t15_loop.trips) : Fin 3 → Nat :=
  let c0_i32_132 : BitVec 32 := 0#32
  let c1_i32_134 : BitVec 32 := 1#32
  let arg15 : BitVec 32 := Scf.iv c0_i32_132 c1_i32_134 k0_t15
  let v1199 : Index := Scalar.indexCast arg15
  let c6_i32_321 : BitVec 32 := 6#32
  let v1200 : Index := Scalar.indexCast c6_i32_321
  let c112 : Index := 112#32
  ![v1199.toNat, 6, 112]
@[reducible] def k0_t16_loop : Scf.Loop 32 :=
  let c0_i32_137 : BitVec 32 := 0#32
  let c32_i32_138 : BitVec 32 := 32#32
  let v499 : BitVec 32 := Scalar.addi c0_i32_137 c32_i32_138
  let c1_i32_139 : BitVec 32 := 1#32
  ⟨c0_i32_137, v499, c1_i32_139⟩
def k0_off115 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1122 : Index := Scalar.indexCast arg15
  let c7_i32_299 : BitVec 32 := 7#32
  let v1123 : Index := Scalar.indexCast c7_i32_299
  let c0_300 : Index := 0#32
  ![v1122.toNat, 7, 0]
def k0_off116 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1127 : Index := Scalar.indexCast arg15
  let c7_i32_301 : BitVec 32 := 7#32
  let v1128 : Index := Scalar.indexCast c7_i32_301
  let c16 : Index := 16#32
  ![v1127.toNat, 7, 16]
def k0_off117 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1132 : Index := Scalar.indexCast arg15
  let c7_i32_302 : BitVec 32 := 7#32
  let v1133 : Index := Scalar.indexCast c7_i32_302
  let c32 : Index := 32#32
  ![v1132.toNat, 7, 32]
def k0_off118 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1137 : Index := Scalar.indexCast arg15
  let c7_i32_303 : BitVec 32 := 7#32
  let v1138 : Index := Scalar.indexCast c7_i32_303
  let c48 : Index := 48#32
  ![v1137.toNat, 7, 48]
def k0_off119 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1142 : Index := Scalar.indexCast arg15
  let c7_i32_304 : BitVec 32 := 7#32
  let v1143 : Index := Scalar.indexCast c7_i32_304
  let c64 : Index := 64#32
  ![v1142.toNat, 7, 64]
def k0_off120 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1147 : Index := Scalar.indexCast arg15
  let c7_i32_305 : BitVec 32 := 7#32
  let v1148 : Index := Scalar.indexCast c7_i32_305
  let c80 : Index := 80#32
  ![v1147.toNat, 7, 80]
def k0_off121 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1152 : Index := Scalar.indexCast arg15
  let c7_i32_306 : BitVec 32 := 7#32
  let v1153 : Index := Scalar.indexCast c7_i32_306
  let c96 : Index := 96#32
  ![v1152.toNat, 7, 96]
def k0_off122 (k0_t16 : Fin k0_t16_loop.trips) : Fin 3 → Nat :=
  let c0_i32_137 : BitVec 32 := 0#32
  let c1_i32_139 : BitVec 32 := 1#32
  let arg15 : BitVec 32 := Scf.iv c0_i32_137 c1_i32_139 k0_t16
  let v1157 : Index := Scalar.indexCast arg15
  let c7_i32_307 : BitVec 32 := 7#32
  let v1158 : Index := Scalar.indexCast c7_i32_307
  let c112 : Index := 112#32
  ![v1157.toNat, 7, 112]
@[reducible] def k0_t17_loop : Scf.Loop 32 :=
  let c0_i32_147 : BitVec 32 := 0#32
  let c32_i32_148 : BitVec 32 := 32#32
  let v563 : BitVec 32 := Scalar.addi c0_i32_147 c32_i32_148
  let c1_i32_149 : BitVec 32 := 1#32
  ⟨c0_i32_147, v563, c1_i32_149⟩
def k0_off123 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1122 : Index := Scalar.indexCast arg15
  let c7_i32_299 : BitVec 32 := 7#32
  let v1123 : Index := Scalar.indexCast c7_i32_299
  let c0_300 : Index := 0#32
  ![v1122.toNat, 7, 0]
def k0_off124 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1133 : Index := Scalar.indexCast arg15
  let c7_i32_303 : BitVec 32 := 7#32
  let v1134 : Index := Scalar.indexCast c7_i32_303
  let c16 : Index := 16#32
  ![v1133.toNat, 7, 16]
def k0_off125 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1144 : Index := Scalar.indexCast arg15
  let c7_i32_306 : BitVec 32 := 7#32
  let v1145 : Index := Scalar.indexCast c7_i32_306
  let c32 : Index := 32#32
  ![v1144.toNat, 7, 32]
def k0_off126 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1155 : Index := Scalar.indexCast arg15
  let c7_i32_309 : BitVec 32 := 7#32
  let v1156 : Index := Scalar.indexCast c7_i32_309
  let c48 : Index := 48#32
  ![v1155.toNat, 7, 48]
def k0_off127 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1166 : Index := Scalar.indexCast arg15
  let c7_i32_312 : BitVec 32 := 7#32
  let v1167 : Index := Scalar.indexCast c7_i32_312
  let c64 : Index := 64#32
  ![v1166.toNat, 7, 64]
def k0_off128 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1177 : Index := Scalar.indexCast arg15
  let c7_i32_315 : BitVec 32 := 7#32
  let v1178 : Index := Scalar.indexCast c7_i32_315
  let c80 : Index := 80#32
  ![v1177.toNat, 7, 80]
def k0_off129 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1188 : Index := Scalar.indexCast arg15
  let c7_i32_318 : BitVec 32 := 7#32
  let v1189 : Index := Scalar.indexCast c7_i32_318
  let c96 : Index := 96#32
  ![v1188.toNat, 7, 96]
def k0_off130 (k0_t17 : Fin k0_t17_loop.trips) : Fin 3 → Nat :=
  let c0_i32_147 : BitVec 32 := 0#32
  let c1_i32_149 : BitVec 32 := 1#32
  let arg15 : BitVec 32 := Scf.iv c0_i32_147 c1_i32_149 k0_t17
  let v1199 : Index := Scalar.indexCast arg15
  let c7_i32_321 : BitVec 32 := 7#32
  let v1200 : Index := Scalar.indexCast c7_i32_321
  let c112 : Index := 112#32
  ![v1199.toNat, 7, 112]
def k0_off131 (k0_t1 : Fin k0_t1_loop.trips) : Fin 2 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let v564 : Index := Scalar.indexCast v27
  let c0_151 : Index := 0#32
  ![v564.toNat, 0]
def k0_off132 (i : grid0.Coords) (k0_t1 : Fin k0_t1_loop.trips) : Fin 4 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let c1_i32_22 : BitVec 32 := 1#32
  let v28 : BitVec 32 := Scalar.addi v27 c1_i32_22
  let c1_i32_157 : BitVec 32 := 1#32
  let v574 : BitVec 32 := Scalar.muli v28 c1_i32_157
  let arg0 : BitVec 32 := BitVec.ofNat 32 (i 0).val
  let v575 : BitVec 32 := Scalar.addi v574 arg0
  let c0_i32_158 : BitVec 32 := 0#32
  let arg1 : BitVec 32 := BitVec.ofNat 32 (i 1).val
  let c8_i32 : BitVec 32 := 8#32
  let v0 : BitVec 32 := Scalar.muli arg1 c8_i32
  let c0_i32_159 : BitVec 32 := 0#32
  ![v575.toNat, 0, v0.toNat, 0]
@[reducible] def k0_t18_loop : Scf.Loop 32 :=
  let c0_i32_164 : BitVec 32 := 0#32
  let c32_i32_165 : BitVec 32 := 32#32
  let v582 : BitVec 32 := Scalar.addi c0_i32_164 c32_i32_165
  let c1_i32_166 : BitVec 32 := 1#32
  ⟨c0_i32_164, v582, c1_i32_166⟩
def k0_off133 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1122 : Index := Scalar.indexCast arg15
  let c0_i32_299 : BitVec 32 := 0#32
  let v1123 : Index := Scalar.indexCast c0_i32_299
  let c0_300 : Index := 0#32
  ![v1122.toNat, 0, 0]
def k0_off134 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1127 : Index := Scalar.indexCast arg15
  let c0_i32_301 : BitVec 32 := 0#32
  let v1128 : Index := Scalar.indexCast c0_i32_301
  let c16 : Index := 16#32
  ![v1127.toNat, 0, 16]
def k0_off135 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1132 : Index := Scalar.indexCast arg15
  let c0_i32_302 : BitVec 32 := 0#32
  let v1133 : Index := Scalar.indexCast c0_i32_302
  let c32 : Index := 32#32
  ![v1132.toNat, 0, 32]
def k0_off136 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1137 : Index := Scalar.indexCast arg15
  let c0_i32_303 : BitVec 32 := 0#32
  let v1138 : Index := Scalar.indexCast c0_i32_303
  let c48 : Index := 48#32
  ![v1137.toNat, 0, 48]
def k0_off137 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1142 : Index := Scalar.indexCast arg15
  let c0_i32_304 : BitVec 32 := 0#32
  let v1143 : Index := Scalar.indexCast c0_i32_304
  let c64 : Index := 64#32
  ![v1142.toNat, 0, 64]
def k0_off138 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1147 : Index := Scalar.indexCast arg15
  let c0_i32_305 : BitVec 32 := 0#32
  let v1148 : Index := Scalar.indexCast c0_i32_305
  let c80 : Index := 80#32
  ![v1147.toNat, 0, 80]
def k0_off139 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1152 : Index := Scalar.indexCast arg15
  let c0_i32_306 : BitVec 32 := 0#32
  let v1153 : Index := Scalar.indexCast c0_i32_306
  let c96 : Index := 96#32
  ![v1152.toNat, 0, 96]
def k0_off140 (k0_t18 : Fin k0_t18_loop.trips) : Fin 3 → Nat :=
  let c0_i32_164 : BitVec 32 := 0#32
  let c1_i32_166 : BitVec 32 := 1#32
  let arg15 : BitVec 32 := Scf.iv c0_i32_164 c1_i32_166 k0_t18
  let v1157 : Index := Scalar.indexCast arg15
  let c0_i32_307 : BitVec 32 := 0#32
  let v1158 : Index := Scalar.indexCast c0_i32_307
  let c112 : Index := 112#32
  ![v1157.toNat, 0, 112]
@[reducible] def k0_t19_loop : Scf.Loop 32 :=
  let c0_i32_175 : BitVec 32 := 0#32
  let c32_i32_176 : BitVec 32 := 32#32
  let v646 : BitVec 32 := Scalar.addi c0_i32_175 c32_i32_176
  let c1_i32_177 : BitVec 32 := 1#32
  ⟨c0_i32_175, v646, c1_i32_177⟩
def k0_off141 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1122 : Index := Scalar.indexCast arg15
  let c0_i32_299 : BitVec 32 := 0#32
  let v1123 : Index := Scalar.indexCast c0_i32_299
  let c0_300 : Index := 0#32
  ![v1122.toNat, 0, 0]
def k0_off142 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1133 : Index := Scalar.indexCast arg15
  let c0_i32_303 : BitVec 32 := 0#32
  let v1134 : Index := Scalar.indexCast c0_i32_303
  let c16 : Index := 16#32
  ![v1133.toNat, 0, 16]
def k0_off143 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1144 : Index := Scalar.indexCast arg15
  let c0_i32_306 : BitVec 32 := 0#32
  let v1145 : Index := Scalar.indexCast c0_i32_306
  let c32 : Index := 32#32
  ![v1144.toNat, 0, 32]
def k0_off144 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1155 : Index := Scalar.indexCast arg15
  let c0_i32_309 : BitVec 32 := 0#32
  let v1156 : Index := Scalar.indexCast c0_i32_309
  let c48 : Index := 48#32
  ![v1155.toNat, 0, 48]
def k0_off145 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1166 : Index := Scalar.indexCast arg15
  let c0_i32_312 : BitVec 32 := 0#32
  let v1167 : Index := Scalar.indexCast c0_i32_312
  let c64 : Index := 64#32
  ![v1166.toNat, 0, 64]
def k0_off146 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1177 : Index := Scalar.indexCast arg15
  let c0_i32_315 : BitVec 32 := 0#32
  let v1178 : Index := Scalar.indexCast c0_i32_315
  let c80 : Index := 80#32
  ![v1177.toNat, 0, 80]
def k0_off147 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1188 : Index := Scalar.indexCast arg15
  let c0_i32_318 : BitVec 32 := 0#32
  let v1189 : Index := Scalar.indexCast c0_i32_318
  let c96 : Index := 96#32
  ![v1188.toNat, 0, 96]
def k0_off148 (k0_t19 : Fin k0_t19_loop.trips) : Fin 3 → Nat :=
  let c0_i32_175 : BitVec 32 := 0#32
  let c1_i32_177 : BitVec 32 := 1#32
  let arg15 : BitVec 32 := Scf.iv c0_i32_175 c1_i32_177 k0_t19
  let v1199 : Index := Scalar.indexCast arg15
  let c0_i32_321 : BitVec 32 := 0#32
  let v1200 : Index := Scalar.indexCast c0_i32_321
  let c112 : Index := 112#32
  ![v1199.toNat, 0, 112]
@[reducible] def k0_t20_loop : Scf.Loop 32 :=
  let c0_i32_180 : BitVec 32 := 0#32
  let c32_i32_181 : BitVec 32 := 32#32
  let v648 : BitVec 32 := Scalar.addi c0_i32_180 c32_i32_181
  let c1_i32_182 : BitVec 32 := 1#32
  ⟨c0_i32_180, v648, c1_i32_182⟩
def k0_off149 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1122 : Index := Scalar.indexCast arg15
  let c1_i32_299 : BitVec 32 := 1#32
  let v1123 : Index := Scalar.indexCast c1_i32_299
  let c0_300 : Index := 0#32
  ![v1122.toNat, 1, 0]
def k0_off150 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1127 : Index := Scalar.indexCast arg15
  let c1_i32_301 : BitVec 32 := 1#32
  let v1128 : Index := Scalar.indexCast c1_i32_301
  let c16 : Index := 16#32
  ![v1127.toNat, 1, 16]
def k0_off151 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1132 : Index := Scalar.indexCast arg15
  let c1_i32_302 : BitVec 32 := 1#32
  let v1133 : Index := Scalar.indexCast c1_i32_302
  let c32 : Index := 32#32
  ![v1132.toNat, 1, 32]
def k0_off152 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1137 : Index := Scalar.indexCast arg15
  let c1_i32_303 : BitVec 32 := 1#32
  let v1138 : Index := Scalar.indexCast c1_i32_303
  let c48 : Index := 48#32
  ![v1137.toNat, 1, 48]
def k0_off153 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1142 : Index := Scalar.indexCast arg15
  let c1_i32_304 : BitVec 32 := 1#32
  let v1143 : Index := Scalar.indexCast c1_i32_304
  let c64 : Index := 64#32
  ![v1142.toNat, 1, 64]
def k0_off154 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1147 : Index := Scalar.indexCast arg15
  let c1_i32_305 : BitVec 32 := 1#32
  let v1148 : Index := Scalar.indexCast c1_i32_305
  let c80 : Index := 80#32
  ![v1147.toNat, 1, 80]
def k0_off155 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1152 : Index := Scalar.indexCast arg15
  let c1_i32_306 : BitVec 32 := 1#32
  let v1153 : Index := Scalar.indexCast c1_i32_306
  let c96 : Index := 96#32
  ![v1152.toNat, 1, 96]
def k0_off156 (k0_t20 : Fin k0_t20_loop.trips) : Fin 3 → Nat :=
  let c0_i32_180 : BitVec 32 := 0#32
  let c1_i32_182 : BitVec 32 := 1#32
  let arg15 : BitVec 32 := Scf.iv c0_i32_180 c1_i32_182 k0_t20
  let v1157 : Index := Scalar.indexCast arg15
  let c1_i32_307 : BitVec 32 := 1#32
  let v1158 : Index := Scalar.indexCast c1_i32_307
  let c112 : Index := 112#32
  ![v1157.toNat, 1, 112]
@[reducible] def k0_t21_loop : Scf.Loop 32 :=
  let c0_i32_191 : BitVec 32 := 0#32
  let c32_i32_192 : BitVec 32 := 32#32
  let v712 : BitVec 32 := Scalar.addi c0_i32_191 c32_i32_192
  let c1_i32_193 : BitVec 32 := 1#32
  ⟨c0_i32_191, v712, c1_i32_193⟩
def k0_off157 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1122 : Index := Scalar.indexCast arg15
  let c1_i32_299 : BitVec 32 := 1#32
  let v1123 : Index := Scalar.indexCast c1_i32_299
  let c0_300 : Index := 0#32
  ![v1122.toNat, 1, 0]
def k0_off158 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1133 : Index := Scalar.indexCast arg15
  let c1_i32_303 : BitVec 32 := 1#32
  let v1134 : Index := Scalar.indexCast c1_i32_303
  let c16 : Index := 16#32
  ![v1133.toNat, 1, 16]
def k0_off159 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1144 : Index := Scalar.indexCast arg15
  let c1_i32_306 : BitVec 32 := 1#32
  let v1145 : Index := Scalar.indexCast c1_i32_306
  let c32 : Index := 32#32
  ![v1144.toNat, 1, 32]
def k0_off160 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1155 : Index := Scalar.indexCast arg15
  let c1_i32_309 : BitVec 32 := 1#32
  let v1156 : Index := Scalar.indexCast c1_i32_309
  let c48 : Index := 48#32
  ![v1155.toNat, 1, 48]
def k0_off161 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1166 : Index := Scalar.indexCast arg15
  let c1_i32_312 : BitVec 32 := 1#32
  let v1167 : Index := Scalar.indexCast c1_i32_312
  let c64 : Index := 64#32
  ![v1166.toNat, 1, 64]
def k0_off162 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1177 : Index := Scalar.indexCast arg15
  let c1_i32_315 : BitVec 32 := 1#32
  let v1178 : Index := Scalar.indexCast c1_i32_315
  let c80 : Index := 80#32
  ![v1177.toNat, 1, 80]
def k0_off163 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1188 : Index := Scalar.indexCast arg15
  let c1_i32_318 : BitVec 32 := 1#32
  let v1189 : Index := Scalar.indexCast c1_i32_318
  let c96 : Index := 96#32
  ![v1188.toNat, 1, 96]
def k0_off164 (k0_t21 : Fin k0_t21_loop.trips) : Fin 3 → Nat :=
  let c0_i32_191 : BitVec 32 := 0#32
  let c1_i32_193 : BitVec 32 := 1#32
  let arg15 : BitVec 32 := Scf.iv c0_i32_191 c1_i32_193 k0_t21
  let v1199 : Index := Scalar.indexCast arg15
  let c1_i32_321 : BitVec 32 := 1#32
  let v1200 : Index := Scalar.indexCast c1_i32_321
  let c112 : Index := 112#32
  ![v1199.toNat, 1, 112]
@[reducible] def k0_t22_loop : Scf.Loop 32 :=
  let c0_i32_196 : BitVec 32 := 0#32
  let c32_i32_197 : BitVec 32 := 32#32
  let v714 : BitVec 32 := Scalar.addi c0_i32_196 c32_i32_197
  let c1_i32_198 : BitVec 32 := 1#32
  ⟨c0_i32_196, v714, c1_i32_198⟩
def k0_off165 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1122 : Index := Scalar.indexCast arg15
  let c2_i32_299 : BitVec 32 := 2#32
  let v1123 : Index := Scalar.indexCast c2_i32_299
  let c0_300 : Index := 0#32
  ![v1122.toNat, 2, 0]
def k0_off166 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1127 : Index := Scalar.indexCast arg15
  let c2_i32_301 : BitVec 32 := 2#32
  let v1128 : Index := Scalar.indexCast c2_i32_301
  let c16 : Index := 16#32
  ![v1127.toNat, 2, 16]
def k0_off167 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1132 : Index := Scalar.indexCast arg15
  let c2_i32_302 : BitVec 32 := 2#32
  let v1133 : Index := Scalar.indexCast c2_i32_302
  let c32 : Index := 32#32
  ![v1132.toNat, 2, 32]
def k0_off168 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1137 : Index := Scalar.indexCast arg15
  let c2_i32_303 : BitVec 32 := 2#32
  let v1138 : Index := Scalar.indexCast c2_i32_303
  let c48 : Index := 48#32
  ![v1137.toNat, 2, 48]
def k0_off169 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1142 : Index := Scalar.indexCast arg15
  let c2_i32_304 : BitVec 32 := 2#32
  let v1143 : Index := Scalar.indexCast c2_i32_304
  let c64 : Index := 64#32
  ![v1142.toNat, 2, 64]
def k0_off170 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1147 : Index := Scalar.indexCast arg15
  let c2_i32_305 : BitVec 32 := 2#32
  let v1148 : Index := Scalar.indexCast c2_i32_305
  let c80 : Index := 80#32
  ![v1147.toNat, 2, 80]
def k0_off171 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1152 : Index := Scalar.indexCast arg15
  let c2_i32_306 : BitVec 32 := 2#32
  let v1153 : Index := Scalar.indexCast c2_i32_306
  let c96 : Index := 96#32
  ![v1152.toNat, 2, 96]
def k0_off172 (k0_t22 : Fin k0_t22_loop.trips) : Fin 3 → Nat :=
  let c0_i32_196 : BitVec 32 := 0#32
  let c1_i32_198 : BitVec 32 := 1#32
  let arg15 : BitVec 32 := Scf.iv c0_i32_196 c1_i32_198 k0_t22
  let v1157 : Index := Scalar.indexCast arg15
  let c2_i32_307 : BitVec 32 := 2#32
  let v1158 : Index := Scalar.indexCast c2_i32_307
  let c112 : Index := 112#32
  ![v1157.toNat, 2, 112]
@[reducible] def k0_t23_loop : Scf.Loop 32 :=
  let c0_i32_207 : BitVec 32 := 0#32
  let c32_i32_208 : BitVec 32 := 32#32
  let v778 : BitVec 32 := Scalar.addi c0_i32_207 c32_i32_208
  let c1_i32_209 : BitVec 32 := 1#32
  ⟨c0_i32_207, v778, c1_i32_209⟩
def k0_off173 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1122 : Index := Scalar.indexCast arg15
  let c2_i32_299 : BitVec 32 := 2#32
  let v1123 : Index := Scalar.indexCast c2_i32_299
  let c0_300 : Index := 0#32
  ![v1122.toNat, 2, 0]
def k0_off174 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1133 : Index := Scalar.indexCast arg15
  let c2_i32_303 : BitVec 32 := 2#32
  let v1134 : Index := Scalar.indexCast c2_i32_303
  let c16 : Index := 16#32
  ![v1133.toNat, 2, 16]
def k0_off175 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1144 : Index := Scalar.indexCast arg15
  let c2_i32_306 : BitVec 32 := 2#32
  let v1145 : Index := Scalar.indexCast c2_i32_306
  let c32 : Index := 32#32
  ![v1144.toNat, 2, 32]
def k0_off176 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1155 : Index := Scalar.indexCast arg15
  let c2_i32_309 : BitVec 32 := 2#32
  let v1156 : Index := Scalar.indexCast c2_i32_309
  let c48 : Index := 48#32
  ![v1155.toNat, 2, 48]
def k0_off177 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1166 : Index := Scalar.indexCast arg15
  let c2_i32_312 : BitVec 32 := 2#32
  let v1167 : Index := Scalar.indexCast c2_i32_312
  let c64 : Index := 64#32
  ![v1166.toNat, 2, 64]
def k0_off178 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1177 : Index := Scalar.indexCast arg15
  let c2_i32_315 : BitVec 32 := 2#32
  let v1178 : Index := Scalar.indexCast c2_i32_315
  let c80 : Index := 80#32
  ![v1177.toNat, 2, 80]
def k0_off179 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1188 : Index := Scalar.indexCast arg15
  let c2_i32_318 : BitVec 32 := 2#32
  let v1189 : Index := Scalar.indexCast c2_i32_318
  let c96 : Index := 96#32
  ![v1188.toNat, 2, 96]
def k0_off180 (k0_t23 : Fin k0_t23_loop.trips) : Fin 3 → Nat :=
  let c0_i32_207 : BitVec 32 := 0#32
  let c1_i32_209 : BitVec 32 := 1#32
  let arg15 : BitVec 32 := Scf.iv c0_i32_207 c1_i32_209 k0_t23
  let v1199 : Index := Scalar.indexCast arg15
  let c2_i32_321 : BitVec 32 := 2#32
  let v1200 : Index := Scalar.indexCast c2_i32_321
  let c112 : Index := 112#32
  ![v1199.toNat, 2, 112]
@[reducible] def k0_t24_loop : Scf.Loop 32 :=
  let c0_i32_212 : BitVec 32 := 0#32
  let c32_i32_213 : BitVec 32 := 32#32
  let v780 : BitVec 32 := Scalar.addi c0_i32_212 c32_i32_213
  let c1_i32_214 : BitVec 32 := 1#32
  ⟨c0_i32_212, v780, c1_i32_214⟩
def k0_off181 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1122 : Index := Scalar.indexCast arg15
  let c3_i32_299 : BitVec 32 := 3#32
  let v1123 : Index := Scalar.indexCast c3_i32_299
  let c0_300 : Index := 0#32
  ![v1122.toNat, 3, 0]
def k0_off182 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1127 : Index := Scalar.indexCast arg15
  let c3_i32_301 : BitVec 32 := 3#32
  let v1128 : Index := Scalar.indexCast c3_i32_301
  let c16 : Index := 16#32
  ![v1127.toNat, 3, 16]
def k0_off183 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1132 : Index := Scalar.indexCast arg15
  let c3_i32_302 : BitVec 32 := 3#32
  let v1133 : Index := Scalar.indexCast c3_i32_302
  let c32 : Index := 32#32
  ![v1132.toNat, 3, 32]
def k0_off184 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1137 : Index := Scalar.indexCast arg15
  let c3_i32_303 : BitVec 32 := 3#32
  let v1138 : Index := Scalar.indexCast c3_i32_303
  let c48 : Index := 48#32
  ![v1137.toNat, 3, 48]
def k0_off185 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1142 : Index := Scalar.indexCast arg15
  let c3_i32_304 : BitVec 32 := 3#32
  let v1143 : Index := Scalar.indexCast c3_i32_304
  let c64 : Index := 64#32
  ![v1142.toNat, 3, 64]
def k0_off186 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1147 : Index := Scalar.indexCast arg15
  let c3_i32_305 : BitVec 32 := 3#32
  let v1148 : Index := Scalar.indexCast c3_i32_305
  let c80 : Index := 80#32
  ![v1147.toNat, 3, 80]
def k0_off187 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1152 : Index := Scalar.indexCast arg15
  let c3_i32_306 : BitVec 32 := 3#32
  let v1153 : Index := Scalar.indexCast c3_i32_306
  let c96 : Index := 96#32
  ![v1152.toNat, 3, 96]
def k0_off188 (k0_t24 : Fin k0_t24_loop.trips) : Fin 3 → Nat :=
  let c0_i32_212 : BitVec 32 := 0#32
  let c1_i32_214 : BitVec 32 := 1#32
  let arg15 : BitVec 32 := Scf.iv c0_i32_212 c1_i32_214 k0_t24
  let v1157 : Index := Scalar.indexCast arg15
  let c3_i32_307 : BitVec 32 := 3#32
  let v1158 : Index := Scalar.indexCast c3_i32_307
  let c112 : Index := 112#32
  ![v1157.toNat, 3, 112]
@[reducible] def k0_t25_loop : Scf.Loop 32 :=
  let c0_i32_223 : BitVec 32 := 0#32
  let c32_i32_224 : BitVec 32 := 32#32
  let v844 : BitVec 32 := Scalar.addi c0_i32_223 c32_i32_224
  let c1_i32_225 : BitVec 32 := 1#32
  ⟨c0_i32_223, v844, c1_i32_225⟩
def k0_off189 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1122 : Index := Scalar.indexCast arg15
  let c3_i32_299 : BitVec 32 := 3#32
  let v1123 : Index := Scalar.indexCast c3_i32_299
  let c0_300 : Index := 0#32
  ![v1122.toNat, 3, 0]
def k0_off190 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1133 : Index := Scalar.indexCast arg15
  let c3_i32_303 : BitVec 32 := 3#32
  let v1134 : Index := Scalar.indexCast c3_i32_303
  let c16 : Index := 16#32
  ![v1133.toNat, 3, 16]
def k0_off191 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1144 : Index := Scalar.indexCast arg15
  let c3_i32_306 : BitVec 32 := 3#32
  let v1145 : Index := Scalar.indexCast c3_i32_306
  let c32 : Index := 32#32
  ![v1144.toNat, 3, 32]
def k0_off192 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1155 : Index := Scalar.indexCast arg15
  let c3_i32_309 : BitVec 32 := 3#32
  let v1156 : Index := Scalar.indexCast c3_i32_309
  let c48 : Index := 48#32
  ![v1155.toNat, 3, 48]
def k0_off193 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1166 : Index := Scalar.indexCast arg15
  let c3_i32_312 : BitVec 32 := 3#32
  let v1167 : Index := Scalar.indexCast c3_i32_312
  let c64 : Index := 64#32
  ![v1166.toNat, 3, 64]
def k0_off194 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1177 : Index := Scalar.indexCast arg15
  let c3_i32_315 : BitVec 32 := 3#32
  let v1178 : Index := Scalar.indexCast c3_i32_315
  let c80 : Index := 80#32
  ![v1177.toNat, 3, 80]
def k0_off195 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1188 : Index := Scalar.indexCast arg15
  let c3_i32_318 : BitVec 32 := 3#32
  let v1189 : Index := Scalar.indexCast c3_i32_318
  let c96 : Index := 96#32
  ![v1188.toNat, 3, 96]
def k0_off196 (k0_t25 : Fin k0_t25_loop.trips) : Fin 3 → Nat :=
  let c0_i32_223 : BitVec 32 := 0#32
  let c1_i32_225 : BitVec 32 := 1#32
  let arg15 : BitVec 32 := Scf.iv c0_i32_223 c1_i32_225 k0_t25
  let v1199 : Index := Scalar.indexCast arg15
  let c3_i32_321 : BitVec 32 := 3#32
  let v1200 : Index := Scalar.indexCast c3_i32_321
  let c112 : Index := 112#32
  ![v1199.toNat, 3, 112]
@[reducible] def k0_t26_loop : Scf.Loop 32 :=
  let c0_i32_228 : BitVec 32 := 0#32
  let c32_i32_229 : BitVec 32 := 32#32
  let v846 : BitVec 32 := Scalar.addi c0_i32_228 c32_i32_229
  let c1_i32_230 : BitVec 32 := 1#32
  ⟨c0_i32_228, v846, c1_i32_230⟩
def k0_off197 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1122 : Index := Scalar.indexCast arg15
  let c4_i32_299 : BitVec 32 := 4#32
  let v1123 : Index := Scalar.indexCast c4_i32_299
  let c0_300 : Index := 0#32
  ![v1122.toNat, 4, 0]
def k0_off198 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1127 : Index := Scalar.indexCast arg15
  let c4_i32_301 : BitVec 32 := 4#32
  let v1128 : Index := Scalar.indexCast c4_i32_301
  let c16 : Index := 16#32
  ![v1127.toNat, 4, 16]
def k0_off199 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1132 : Index := Scalar.indexCast arg15
  let c4_i32_302 : BitVec 32 := 4#32
  let v1133 : Index := Scalar.indexCast c4_i32_302
  let c32 : Index := 32#32
  ![v1132.toNat, 4, 32]
def k0_off200 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1137 : Index := Scalar.indexCast arg15
  let c4_i32_303 : BitVec 32 := 4#32
  let v1138 : Index := Scalar.indexCast c4_i32_303
  let c48 : Index := 48#32
  ![v1137.toNat, 4, 48]
def k0_off201 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1142 : Index := Scalar.indexCast arg15
  let c4_i32_304 : BitVec 32 := 4#32
  let v1143 : Index := Scalar.indexCast c4_i32_304
  let c64 : Index := 64#32
  ![v1142.toNat, 4, 64]
def k0_off202 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1147 : Index := Scalar.indexCast arg15
  let c4_i32_305 : BitVec 32 := 4#32
  let v1148 : Index := Scalar.indexCast c4_i32_305
  let c80 : Index := 80#32
  ![v1147.toNat, 4, 80]
def k0_off203 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1152 : Index := Scalar.indexCast arg15
  let c4_i32_306 : BitVec 32 := 4#32
  let v1153 : Index := Scalar.indexCast c4_i32_306
  let c96 : Index := 96#32
  ![v1152.toNat, 4, 96]
def k0_off204 (k0_t26 : Fin k0_t26_loop.trips) : Fin 3 → Nat :=
  let c0_i32_228 : BitVec 32 := 0#32
  let c1_i32_230 : BitVec 32 := 1#32
  let arg15 : BitVec 32 := Scf.iv c0_i32_228 c1_i32_230 k0_t26
  let v1157 : Index := Scalar.indexCast arg15
  let c4_i32_307 : BitVec 32 := 4#32
  let v1158 : Index := Scalar.indexCast c4_i32_307
  let c112 : Index := 112#32
  ![v1157.toNat, 4, 112]
@[reducible] def k0_t27_loop : Scf.Loop 32 :=
  let c0_i32_239 : BitVec 32 := 0#32
  let c32_i32_240 : BitVec 32 := 32#32
  let v910 : BitVec 32 := Scalar.addi c0_i32_239 c32_i32_240
  let c1_i32_241 : BitVec 32 := 1#32
  ⟨c0_i32_239, v910, c1_i32_241⟩
def k0_off205 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1122 : Index := Scalar.indexCast arg15
  let c4_i32_299 : BitVec 32 := 4#32
  let v1123 : Index := Scalar.indexCast c4_i32_299
  let c0_300 : Index := 0#32
  ![v1122.toNat, 4, 0]
def k0_off206 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1133 : Index := Scalar.indexCast arg15
  let c4_i32_303 : BitVec 32 := 4#32
  let v1134 : Index := Scalar.indexCast c4_i32_303
  let c16 : Index := 16#32
  ![v1133.toNat, 4, 16]
def k0_off207 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1144 : Index := Scalar.indexCast arg15
  let c4_i32_306 : BitVec 32 := 4#32
  let v1145 : Index := Scalar.indexCast c4_i32_306
  let c32 : Index := 32#32
  ![v1144.toNat, 4, 32]
def k0_off208 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1155 : Index := Scalar.indexCast arg15
  let c4_i32_309 : BitVec 32 := 4#32
  let v1156 : Index := Scalar.indexCast c4_i32_309
  let c48 : Index := 48#32
  ![v1155.toNat, 4, 48]
def k0_off209 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1166 : Index := Scalar.indexCast arg15
  let c4_i32_312 : BitVec 32 := 4#32
  let v1167 : Index := Scalar.indexCast c4_i32_312
  let c64 : Index := 64#32
  ![v1166.toNat, 4, 64]
def k0_off210 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1177 : Index := Scalar.indexCast arg15
  let c4_i32_315 : BitVec 32 := 4#32
  let v1178 : Index := Scalar.indexCast c4_i32_315
  let c80 : Index := 80#32
  ![v1177.toNat, 4, 80]
def k0_off211 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1188 : Index := Scalar.indexCast arg15
  let c4_i32_318 : BitVec 32 := 4#32
  let v1189 : Index := Scalar.indexCast c4_i32_318
  let c96 : Index := 96#32
  ![v1188.toNat, 4, 96]
def k0_off212 (k0_t27 : Fin k0_t27_loop.trips) : Fin 3 → Nat :=
  let c0_i32_239 : BitVec 32 := 0#32
  let c1_i32_241 : BitVec 32 := 1#32
  let arg15 : BitVec 32 := Scf.iv c0_i32_239 c1_i32_241 k0_t27
  let v1199 : Index := Scalar.indexCast arg15
  let c4_i32_321 : BitVec 32 := 4#32
  let v1200 : Index := Scalar.indexCast c4_i32_321
  let c112 : Index := 112#32
  ![v1199.toNat, 4, 112]
@[reducible] def k0_t28_loop : Scf.Loop 32 :=
  let c0_i32_244 : BitVec 32 := 0#32
  let c32_i32_245 : BitVec 32 := 32#32
  let v912 : BitVec 32 := Scalar.addi c0_i32_244 c32_i32_245
  let c1_i32_246 : BitVec 32 := 1#32
  ⟨c0_i32_244, v912, c1_i32_246⟩
def k0_off213 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1122 : Index := Scalar.indexCast arg15
  let c5_i32_299 : BitVec 32 := 5#32
  let v1123 : Index := Scalar.indexCast c5_i32_299
  let c0_300 : Index := 0#32
  ![v1122.toNat, 5, 0]
def k0_off214 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1127 : Index := Scalar.indexCast arg15
  let c5_i32_301 : BitVec 32 := 5#32
  let v1128 : Index := Scalar.indexCast c5_i32_301
  let c16 : Index := 16#32
  ![v1127.toNat, 5, 16]
def k0_off215 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1132 : Index := Scalar.indexCast arg15
  let c5_i32_302 : BitVec 32 := 5#32
  let v1133 : Index := Scalar.indexCast c5_i32_302
  let c32 : Index := 32#32
  ![v1132.toNat, 5, 32]
def k0_off216 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1137 : Index := Scalar.indexCast arg15
  let c5_i32_303 : BitVec 32 := 5#32
  let v1138 : Index := Scalar.indexCast c5_i32_303
  let c48 : Index := 48#32
  ![v1137.toNat, 5, 48]
def k0_off217 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1142 : Index := Scalar.indexCast arg15
  let c5_i32_304 : BitVec 32 := 5#32
  let v1143 : Index := Scalar.indexCast c5_i32_304
  let c64 : Index := 64#32
  ![v1142.toNat, 5, 64]
def k0_off218 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1147 : Index := Scalar.indexCast arg15
  let c5_i32_305 : BitVec 32 := 5#32
  let v1148 : Index := Scalar.indexCast c5_i32_305
  let c80 : Index := 80#32
  ![v1147.toNat, 5, 80]
def k0_off219 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1152 : Index := Scalar.indexCast arg15
  let c5_i32_306 : BitVec 32 := 5#32
  let v1153 : Index := Scalar.indexCast c5_i32_306
  let c96 : Index := 96#32
  ![v1152.toNat, 5, 96]
def k0_off220 (k0_t28 : Fin k0_t28_loop.trips) : Fin 3 → Nat :=
  let c0_i32_244 : BitVec 32 := 0#32
  let c1_i32_246 : BitVec 32 := 1#32
  let arg15 : BitVec 32 := Scf.iv c0_i32_244 c1_i32_246 k0_t28
  let v1157 : Index := Scalar.indexCast arg15
  let c5_i32_307 : BitVec 32 := 5#32
  let v1158 : Index := Scalar.indexCast c5_i32_307
  let c112 : Index := 112#32
  ![v1157.toNat, 5, 112]
@[reducible] def k0_t29_loop : Scf.Loop 32 :=
  let c0_i32_255 : BitVec 32 := 0#32
  let c32_i32_256 : BitVec 32 := 32#32
  let v976 : BitVec 32 := Scalar.addi c0_i32_255 c32_i32_256
  let c1_i32_257 : BitVec 32 := 1#32
  ⟨c0_i32_255, v976, c1_i32_257⟩
def k0_off221 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1122 : Index := Scalar.indexCast arg15
  let c5_i32_299 : BitVec 32 := 5#32
  let v1123 : Index := Scalar.indexCast c5_i32_299
  let c0_300 : Index := 0#32
  ![v1122.toNat, 5, 0]
def k0_off222 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1133 : Index := Scalar.indexCast arg15
  let c5_i32_303 : BitVec 32 := 5#32
  let v1134 : Index := Scalar.indexCast c5_i32_303
  let c16 : Index := 16#32
  ![v1133.toNat, 5, 16]
def k0_off223 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1144 : Index := Scalar.indexCast arg15
  let c5_i32_306 : BitVec 32 := 5#32
  let v1145 : Index := Scalar.indexCast c5_i32_306
  let c32 : Index := 32#32
  ![v1144.toNat, 5, 32]
def k0_off224 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1155 : Index := Scalar.indexCast arg15
  let c5_i32_309 : BitVec 32 := 5#32
  let v1156 : Index := Scalar.indexCast c5_i32_309
  let c48 : Index := 48#32
  ![v1155.toNat, 5, 48]
def k0_off225 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1166 : Index := Scalar.indexCast arg15
  let c5_i32_312 : BitVec 32 := 5#32
  let v1167 : Index := Scalar.indexCast c5_i32_312
  let c64 : Index := 64#32
  ![v1166.toNat, 5, 64]
def k0_off226 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1177 : Index := Scalar.indexCast arg15
  let c5_i32_315 : BitVec 32 := 5#32
  let v1178 : Index := Scalar.indexCast c5_i32_315
  let c80 : Index := 80#32
  ![v1177.toNat, 5, 80]
def k0_off227 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1188 : Index := Scalar.indexCast arg15
  let c5_i32_318 : BitVec 32 := 5#32
  let v1189 : Index := Scalar.indexCast c5_i32_318
  let c96 : Index := 96#32
  ![v1188.toNat, 5, 96]
def k0_off228 (k0_t29 : Fin k0_t29_loop.trips) : Fin 3 → Nat :=
  let c0_i32_255 : BitVec 32 := 0#32
  let c1_i32_257 : BitVec 32 := 1#32
  let arg15 : BitVec 32 := Scf.iv c0_i32_255 c1_i32_257 k0_t29
  let v1199 : Index := Scalar.indexCast arg15
  let c5_i32_321 : BitVec 32 := 5#32
  let v1200 : Index := Scalar.indexCast c5_i32_321
  let c112 : Index := 112#32
  ![v1199.toNat, 5, 112]
@[reducible] def k0_t30_loop : Scf.Loop 32 :=
  let c0_i32_260 : BitVec 32 := 0#32
  let c32_i32_261 : BitVec 32 := 32#32
  let v978 : BitVec 32 := Scalar.addi c0_i32_260 c32_i32_261
  let c1_i32_262 : BitVec 32 := 1#32
  ⟨c0_i32_260, v978, c1_i32_262⟩
def k0_off229 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1122 : Index := Scalar.indexCast arg15
  let c6_i32_299 : BitVec 32 := 6#32
  let v1123 : Index := Scalar.indexCast c6_i32_299
  let c0_300 : Index := 0#32
  ![v1122.toNat, 6, 0]
def k0_off230 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1127 : Index := Scalar.indexCast arg15
  let c6_i32_301 : BitVec 32 := 6#32
  let v1128 : Index := Scalar.indexCast c6_i32_301
  let c16 : Index := 16#32
  ![v1127.toNat, 6, 16]
def k0_off231 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1132 : Index := Scalar.indexCast arg15
  let c6_i32_302 : BitVec 32 := 6#32
  let v1133 : Index := Scalar.indexCast c6_i32_302
  let c32 : Index := 32#32
  ![v1132.toNat, 6, 32]
def k0_off232 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1137 : Index := Scalar.indexCast arg15
  let c6_i32_303 : BitVec 32 := 6#32
  let v1138 : Index := Scalar.indexCast c6_i32_303
  let c48 : Index := 48#32
  ![v1137.toNat, 6, 48]
def k0_off233 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1142 : Index := Scalar.indexCast arg15
  let c6_i32_304 : BitVec 32 := 6#32
  let v1143 : Index := Scalar.indexCast c6_i32_304
  let c64 : Index := 64#32
  ![v1142.toNat, 6, 64]
def k0_off234 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1147 : Index := Scalar.indexCast arg15
  let c6_i32_305 : BitVec 32 := 6#32
  let v1148 : Index := Scalar.indexCast c6_i32_305
  let c80 : Index := 80#32
  ![v1147.toNat, 6, 80]
def k0_off235 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1152 : Index := Scalar.indexCast arg15
  let c6_i32_306 : BitVec 32 := 6#32
  let v1153 : Index := Scalar.indexCast c6_i32_306
  let c96 : Index := 96#32
  ![v1152.toNat, 6, 96]
def k0_off236 (k0_t30 : Fin k0_t30_loop.trips) : Fin 3 → Nat :=
  let c0_i32_260 : BitVec 32 := 0#32
  let c1_i32_262 : BitVec 32 := 1#32
  let arg15 : BitVec 32 := Scf.iv c0_i32_260 c1_i32_262 k0_t30
  let v1157 : Index := Scalar.indexCast arg15
  let c6_i32_307 : BitVec 32 := 6#32
  let v1158 : Index := Scalar.indexCast c6_i32_307
  let c112 : Index := 112#32
  ![v1157.toNat, 6, 112]
@[reducible] def k0_t31_loop : Scf.Loop 32 :=
  let c0_i32_271 : BitVec 32 := 0#32
  let c32_i32_272 : BitVec 32 := 32#32
  let v1042 : BitVec 32 := Scalar.addi c0_i32_271 c32_i32_272
  let c1_i32_273 : BitVec 32 := 1#32
  ⟨c0_i32_271, v1042, c1_i32_273⟩
def k0_off237 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1122 : Index := Scalar.indexCast arg15
  let c6_i32_299 : BitVec 32 := 6#32
  let v1123 : Index := Scalar.indexCast c6_i32_299
  let c0_300 : Index := 0#32
  ![v1122.toNat, 6, 0]
def k0_off238 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1133 : Index := Scalar.indexCast arg15
  let c6_i32_303 : BitVec 32 := 6#32
  let v1134 : Index := Scalar.indexCast c6_i32_303
  let c16 : Index := 16#32
  ![v1133.toNat, 6, 16]
def k0_off239 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1144 : Index := Scalar.indexCast arg15
  let c6_i32_306 : BitVec 32 := 6#32
  let v1145 : Index := Scalar.indexCast c6_i32_306
  let c32 : Index := 32#32
  ![v1144.toNat, 6, 32]
def k0_off240 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1155 : Index := Scalar.indexCast arg15
  let c6_i32_309 : BitVec 32 := 6#32
  let v1156 : Index := Scalar.indexCast c6_i32_309
  let c48 : Index := 48#32
  ![v1155.toNat, 6, 48]
def k0_off241 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1166 : Index := Scalar.indexCast arg15
  let c6_i32_312 : BitVec 32 := 6#32
  let v1167 : Index := Scalar.indexCast c6_i32_312
  let c64 : Index := 64#32
  ![v1166.toNat, 6, 64]
def k0_off242 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1177 : Index := Scalar.indexCast arg15
  let c6_i32_315 : BitVec 32 := 6#32
  let v1178 : Index := Scalar.indexCast c6_i32_315
  let c80 : Index := 80#32
  ![v1177.toNat, 6, 80]
def k0_off243 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1188 : Index := Scalar.indexCast arg15
  let c6_i32_318 : BitVec 32 := 6#32
  let v1189 : Index := Scalar.indexCast c6_i32_318
  let c96 : Index := 96#32
  ![v1188.toNat, 6, 96]
def k0_off244 (k0_t31 : Fin k0_t31_loop.trips) : Fin 3 → Nat :=
  let c0_i32_271 : BitVec 32 := 0#32
  let c1_i32_273 : BitVec 32 := 1#32
  let arg15 : BitVec 32 := Scf.iv c0_i32_271 c1_i32_273 k0_t31
  let v1199 : Index := Scalar.indexCast arg15
  let c6_i32_321 : BitVec 32 := 6#32
  let v1200 : Index := Scalar.indexCast c6_i32_321
  let c112 : Index := 112#32
  ![v1199.toNat, 6, 112]
@[reducible] def k0_t32_loop : Scf.Loop 32 :=
  let c0_i32_276 : BitVec 32 := 0#32
  let c32_i32_277 : BitVec 32 := 32#32
  let v1044 : BitVec 32 := Scalar.addi c0_i32_276 c32_i32_277
  let c1_i32_278 : BitVec 32 := 1#32
  ⟨c0_i32_276, v1044, c1_i32_278⟩
def k0_off245 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1122 : Index := Scalar.indexCast arg15
  let c7_i32_299 : BitVec 32 := 7#32
  let v1123 : Index := Scalar.indexCast c7_i32_299
  let c0_300 : Index := 0#32
  ![v1122.toNat, 7, 0]
def k0_off246 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1127 : Index := Scalar.indexCast arg15
  let c7_i32_301 : BitVec 32 := 7#32
  let v1128 : Index := Scalar.indexCast c7_i32_301
  let c16 : Index := 16#32
  ![v1127.toNat, 7, 16]
def k0_off247 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1132 : Index := Scalar.indexCast arg15
  let c7_i32_302 : BitVec 32 := 7#32
  let v1133 : Index := Scalar.indexCast c7_i32_302
  let c32 : Index := 32#32
  ![v1132.toNat, 7, 32]
def k0_off248 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1137 : Index := Scalar.indexCast arg15
  let c7_i32_303 : BitVec 32 := 7#32
  let v1138 : Index := Scalar.indexCast c7_i32_303
  let c48 : Index := 48#32
  ![v1137.toNat, 7, 48]
def k0_off249 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1142 : Index := Scalar.indexCast arg15
  let c7_i32_304 : BitVec 32 := 7#32
  let v1143 : Index := Scalar.indexCast c7_i32_304
  let c64 : Index := 64#32
  ![v1142.toNat, 7, 64]
def k0_off250 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1147 : Index := Scalar.indexCast arg15
  let c7_i32_305 : BitVec 32 := 7#32
  let v1148 : Index := Scalar.indexCast c7_i32_305
  let c80 : Index := 80#32
  ![v1147.toNat, 7, 80]
def k0_off251 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1152 : Index := Scalar.indexCast arg15
  let c7_i32_306 : BitVec 32 := 7#32
  let v1153 : Index := Scalar.indexCast c7_i32_306
  let c96 : Index := 96#32
  ![v1152.toNat, 7, 96]
def k0_off252 (k0_t32 : Fin k0_t32_loop.trips) : Fin 3 → Nat :=
  let c0_i32_276 : BitVec 32 := 0#32
  let c1_i32_278 : BitVec 32 := 1#32
  let arg15 : BitVec 32 := Scf.iv c0_i32_276 c1_i32_278 k0_t32
  let v1157 : Index := Scalar.indexCast arg15
  let c7_i32_307 : BitVec 32 := 7#32
  let v1158 : Index := Scalar.indexCast c7_i32_307
  let c112 : Index := 112#32
  ![v1157.toNat, 7, 112]
@[reducible] def k0_t33_loop : Scf.Loop 32 :=
  let c0_i32_287 : BitVec 32 := 0#32
  let c32_i32_288 : BitVec 32 := 32#32
  let v1108 : BitVec 32 := Scalar.addi c0_i32_287 c32_i32_288
  let c1_i32_289 : BitVec 32 := 1#32
  ⟨c0_i32_287, v1108, c1_i32_289⟩
def k0_off253 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1122 : Index := Scalar.indexCast arg15
  let c7_i32_299 : BitVec 32 := 7#32
  let v1123 : Index := Scalar.indexCast c7_i32_299
  let c0_300 : Index := 0#32
  ![v1122.toNat, 7, 0]
def k0_off254 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1133 : Index := Scalar.indexCast arg15
  let c7_i32_303 : BitVec 32 := 7#32
  let v1134 : Index := Scalar.indexCast c7_i32_303
  let c16 : Index := 16#32
  ![v1133.toNat, 7, 16]
def k0_off255 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1144 : Index := Scalar.indexCast arg15
  let c7_i32_306 : BitVec 32 := 7#32
  let v1145 : Index := Scalar.indexCast c7_i32_306
  let c32 : Index := 32#32
  ![v1144.toNat, 7, 32]
def k0_off256 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1155 : Index := Scalar.indexCast arg15
  let c7_i32_309 : BitVec 32 := 7#32
  let v1156 : Index := Scalar.indexCast c7_i32_309
  let c48 : Index := 48#32
  ![v1155.toNat, 7, 48]
def k0_off257 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1166 : Index := Scalar.indexCast arg15
  let c7_i32_312 : BitVec 32 := 7#32
  let v1167 : Index := Scalar.indexCast c7_i32_312
  let c64 : Index := 64#32
  ![v1166.toNat, 7, 64]
def k0_off258 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1177 : Index := Scalar.indexCast arg15
  let c7_i32_315 : BitVec 32 := 7#32
  let v1178 : Index := Scalar.indexCast c7_i32_315
  let c80 : Index := 80#32
  ![v1177.toNat, 7, 80]
def k0_off259 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1188 : Index := Scalar.indexCast arg15
  let c7_i32_318 : BitVec 32 := 7#32
  let v1189 : Index := Scalar.indexCast c7_i32_318
  let c96 : Index := 96#32
  ![v1188.toNat, 7, 96]
def k0_off260 (k0_t33 : Fin k0_t33_loop.trips) : Fin 3 → Nat :=
  let c0_i32_287 : BitVec 32 := 0#32
  let c1_i32_289 : BitVec 32 := 1#32
  let arg15 : BitVec 32 := Scf.iv c0_i32_287 c1_i32_289 k0_t33
  let v1199 : Index := Scalar.indexCast arg15
  let c7_i32_321 : BitVec 32 := 7#32
  let v1200 : Index := Scalar.indexCast c7_i32_321
  let c112 : Index := 112#32
  ![v1199.toNat, 7, 112]
def k0_off261 (k0_t1 : Fin k0_t1_loop.trips) : Fin 2 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let c1_i32_22 : BitVec 32 := 1#32
  let v28 : BitVec 32 := Scalar.addi v27 c1_i32_22
  let v1109 : Index := Scalar.indexCast v28
  let c0_291 : Index := 0#32
  ![v1109.toNat, 0]
def k0_cond1 (k0_t1 : Fin k0_t1_loop.trips) : BitVec 1 :=
  let c0_i32_9 : BitVec 32 := 0#32
  let c1_i32_10 : BitVec 32 := 1#32
  let arg14 : BitVec 32 := Scf.iv c0_i32_9 c1_i32_10 k0_t1
  let c1_i32_297 : BitVec 32 := 1#32
  let v1119 : BitVec 1 := Scalar.cmpi .slt arg14 c1_i32_297
  let v1120 : BitVec 32 := Scalar.extui v1119
  let c0_i32_298 : BitVec 32 := 0#32
  let v1121 : BitVec 1 := Scalar.cmpi .ne v1120 c0_i32_298
  v1121

def k0_off262 (i : grid0.Coords) (k0_t1 : Fin k0_t1_loop.trips) : Fin 4 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let c1_i32_152 : BitVec 32 := 1#32
  let v568 : BitVec 32 := Scalar.muli v27 c1_i32_152
  let arg0 : BitVec 32 := BitVec.ofNat 32 (i 0).val
  let v569 : BitVec 32 := Scalar.addi v568 arg0
  let c0_i32_299 : BitVec 32 := 0#32
  let arg1 : BitVec 32 := BitVec.ofNat 32 (i 1).val
  let c8_i32 : BitVec 32 := 8#32
  let v0 : BitVec 32 := Scalar.muli arg1 c8_i32
  let c0_i32_300 : BitVec 32 := 0#32
  ![v569.toNat, 0, v0.toNat, 0]
def k0_off263 (i : grid0.Coords) (k0_t1 : Fin k0_t1_loop.trips) (c2_i32_303 : BitVec 32) : Fin 4 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let v1126 : BitVec 32 := Scalar.addi v27 c2_i32_303
  let c1_i32_304 : BitVec 32 := 1#32
  let v1127 : BitVec 32 := Scalar.muli v1126 c1_i32_304
  let arg0 : BitVec 32 := BitVec.ofNat 32 (i 0).val
  let v1128 : BitVec 32 := Scalar.addi v1127 arg0
  let c0_i32_305 : BitVec 32 := 0#32
  let arg1 : BitVec 32 := BitVec.ofNat 32 (i 1).val
  let c8_i32 : BitVec 32 := 8#32
  let v0 : BitVec 32 := Scalar.muli arg1 c8_i32
  let c0_i32_306 : BitVec 32 := 0#32
  ![v1128.toNat, 0, v0.toNat, 0]
def k0_off264 (i : grid0.Coords) (k0_t1 : Fin k0_t1_loop.trips) : Fin 4 → Nat :=
  let c0_i32_9 : BitVec 32 := 0#32
  let c1_i32_10 : BitVec 32 := 1#32
  let arg14 : BitVec 32 := Scf.iv c0_i32_9 c1_i32_10 k0_t1
  let c2_i32_21 : BitVec 32 := 2#32
  let v27 : BitVec 32 := Scalar.muli arg14 c2_i32_21
  let c1_i32_22 : BitVec 32 := 1#32
  let v28 : BitVec 32 := Scalar.addi v27 c1_i32_22
  let c2_i32_313 : BitVec 32 := 2#32
  let v1137 : BitVec 32 := Scalar.addi v28 c2_i32_313
  let c1_i32_314 : BitVec 32 := 1#32
  let v1138 : BitVec 32 := Scalar.muli v1137 c1_i32_314
  let arg0 : BitVec 32 := BitVec.ofNat 32 (i 0).val
  let v1139 : BitVec 32 := Scalar.addi v1138 arg0
  let c0_i32_315 : BitVec 32 := 0#32
  let arg1 : BitVec 32 := BitVec.ofNat 32 (i 1).val
  let c8_i32 : BitVec 32 := 8#32
  let v0 : BitVec 32 := Scalar.muli arg1 c8_i32
  let c0_i32_316 : BitVec 32 := 0#32
  ![v1139.toNat, 0, v0.toNat, 0]
def k0_off265 (i : grid0.Coords) : Fin 4 → Nat :=
  let c0_i32_21_r1 : BitVec 32 := 0#32
  let arg0 : BitVec 32 := BitVec.ofNat 32 (i 0).val
  let arg1 : BitVec 32 := BitVec.ofNat 32 (i 1).val
  let c0_i32_22_r1 : BitVec 32 := 0#32
  ![0, arg0.toNat, arg1.toNat, 0]
abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_2 (i : grid1.Coords) : Fin 4 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x32x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage2_0 : Fin 1 → Memref sig .tc .vmem S4x32x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4x32x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16777216_S32x32x128x128 : S16777216.ShapeCasts S32x32x128x128
  bcast_S_S16 : S_.BroadcastsInDim S16 (![] : Fin 0 → Fin S16.rank)
  shapeCasts_S_S1x1 : S_.ShapeCasts S1x1
  slices_S32x32x128x128_S4x32x128x128_0_0_0_0 : S32x32x128x128.Slices ![0, 0, 0, 0] S4x32x128x128
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  iota_S16_d0_w32_scVector : S16.Iotas .scVector 32 [0]
  squeezes_S1x32x8x128_S32x8x128 : S1x32x8x128.Squeezes S32x8x128
  h_S1x1x16 : 0 < S1x1x16.numel
  shapeCasts_S1x1x16_S16 : S1x1x16.ShapeCasts S16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S16_S1x1x16 : S16.ShapeCasts S1x1x16
  h_S1x16 : 0 < S1x16.numel
  shapeCasts_S1x16_S16 : S1x16.ShapeCasts S16
  shapeCasts_S16_S1x16 : S16.ShapeCasts S1x16
  squeezes_S4x1x1x16_S4x16 : S4x1x1x16.Squeezes S4x16
  slices_S4x1x16x16_S4x1x16x8_0_0_0_0 : S4x1x16x16.Slices ![0, 0, 0, 0] S4x1x16x8
  shapeCasts_S4x1x16x8_S512 : S4x1x16x8.ShapeCasts S512
  inb_S4x32x128x128_S4x32x128x128_0_0_0_0 : ∀ a, (![0, 0, 0, 0] : Fin 4 → Nat) a + S4x32x128x128.size a ≤ S4x32x128x128.size a
  h_S4x32x128x128 : 0 < S4x32x128x128.numel
  shapeCasts_S4x32x128x128_S4x32x128x128 : S4x32x128x128.ShapeCasts S4x32x128x128
  inb_S1x1_S1x1_0_0 : ∀ a, (![0, 0] : Fin 2 → Nat) a + S1x1.size a ≤ S1x1.size a
  numel1_S1x1 : S1x1.numel = 1
  reduces_S4x32x128x128_S4x128x128 : S4x32x128x128.Reduces [1] S4x128x128
  reduces_S4x128x128_S4x128 : S4x128x128.Reduces [2] S4x128
  shapeCasts_S4x128_S4x1x128x1 : S4x128.ShapeCasts S4x1x128x1
  broadcasts_S4x1x128x1_S4x32x128x128 : S4x1x128x1.Broadcasts S4x32x128x128
  inb_S4x1x128_S4x1x128_0_0_0 : ∀ a, (![0, 0, 0] : Fin 3 → Nat) a + S4x1x128.size a ≤ S4x1x128.size a
  h_S4x1x128 : 0 < S4x1x128.numel
  shapeCasts_S4x1x128_S4x128 : S4x1x128.ShapeCasts S4x128
  shapeCasts_S4x128_S4x1x128 : S4x128.ShapeCasts S4x1x128
  shapeCasts_S28x1x128_S3584 : S28x1x128.ShapeCasts S3584
  concatenates_S512_S3584_S4096_d0 : Shape.Concatenates [S512, S3584] S4096 0
  shapeCasts_S32x32x128x128_S16777216 : S32x32x128x128.ShapeCasts S16777216
  hcc0_scratch4 : 0 + S_.numel ≤ 15
  hcc0_scratch5 : 1 + S_.numel ≤ 15
  hcc0_scratch6 : 2 + S_.numel ≤ 15
  hcc0_scratch7 : 3 + S_.numel ≤ 15
  hcc0_scoped0 : 4 + S_.numel ≤ 15
  hcc0_scoped1 : 5 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 r.val)) a + S1x32x8x128.size a ≤ S4x32x128x128.size a
  k0_t1_ok : k0_t1_loop.OK
  k0_off2_inb : ∀ (i : grid0.Coords) (k0_t1 : Fin k0_t1_loop.trips), ∀ a, (k0_off2 i k0_t1) a + S1x32x8x128.size a ≤ S4x32x128x128.size a
  k0_t2_ok : k0_t2_loop.OK
  k0_off3_inb : ∀ k0_t2 : Fin k0_t2_loop.trips, ∀ a, (k0_off3 k0_t2) a + S1x1x16.size a ≤ S32x8x128.size a
  k0_off4_inb : ∀ k0_t2 : Fin k0_t2_loop.trips, ∀ a, (k0_off4 k0_t2) a + S1x1x16.size a ≤ S32x8x128.size a
  k0_off5_inb : ∀ k0_t2 : Fin k0_t2_loop.trips, ∀ a, (k0_off5 k0_t2) a + S1x1x16.size a ≤ S32x8x128.size a
  k0_off6_inb : ∀ k0_t2 : Fin k0_t2_loop.trips, ∀ a, (k0_off6 k0_t2) a + S1x1x16.size a ≤ S32x8x128.size a
  k0_off7_inb : ∀ k0_t2 : Fin k0_t2_loop.trips, ∀ a, (k0_off7 k0_t2) a + S1x1x16.size a ≤ S32x8x128.size a
  k0_off8_inb : ∀ k0_t2 : Fin k0_t2_loop.trips, ∀ a, (k0_off8 k0_t2) a + S1x1x16.size a ≤ S32x8x128.size a
  k0_off9_inb : ∀ k0_t2 : Fin k0_t2_loop.trips, ∀ a, (k0_off9 k0_t2) a + S1x1x16.size a ≤ S32x8x128.size a
  k0_off10_inb : ∀ k0_t2 : Fin k0_t2_loop.trips, ∀ a, (k0_off10 k0_t2) a + S1x1x16.size a ≤ S32x8x128.size a
  k0_t3_ok : k0_t3_loop.OK
  k0_off11_inb : ∀ k0_t3 : Fin k0_t3_loop.trips, ∀ a, (k0_off11 k0_t3) a + S1x1x16.size a ≤ S32x8x128.size a
  k0_off12_inb : ∀ k0_t3 : Fin k0_t3_loop.trips, ∀ a, (k0_off12 k0_t3) a + S1x1x16.size a ≤ S32x8x128.size a
  k0_off13_inb : ∀ k0_t3 : Fin k0_t3_loop.trips, ∀ a, (k0_off13 k0_t3) a + S1x1x16.size a ≤ S32x8x128.size a
  k0_off14_inb : ∀ k0_t3 : Fin k0_t3_loop.trips, ∀ a, (k0_off14 k0_t3) a + S1x1x16.size a ≤ S32x8x128.size a
  k0_off15_inb : ∀ k0_t3 : Fin k0_t3_loop.trips, ∀ a, (k0_off15 k0_t3) a + S1x1x16.size a ≤ S32x8x128.size a
  k0_off16_inb : ∀ k0_t3 : Fin k0_t3_loop.trips, ∀ a, (k0_off16 k0_t3) a + S1x1x16.size a ≤ S32x8x128.size a
  k0_off17_inb : ∀ k0_t3 : Fin k0_t3_loop.trips, ∀ a, (k0_off17 k0_t3) a + S1x1x16.size a ≤ S32x8x128.size a
  k0_off18_inb : ∀ k0_t3 : Fin k0_t3_loop.trips, ∀ a, (k0_off18 k0_t3) a + S1x1x16.size a ≤ S32x8x128.size a
  k0_t4_ok : k0_t4_loop.OK
  k0_off19_inb : ∀ k0_t4 : Fin k0_t4_loop.trips, ∀ a, (k0_off19 k0_t4) a + S1x1x16.size a ≤ S32x8x128.size a
  k0_off20_inb : ∀ k0_t4 : Fin k0_t4_loop.trips, ∀ a, (k0_off20 k0_t4) a + S1x1x16.size a ≤ S32x8x128.size a
  k0_off21_inb : ∀ k0_t4 : Fin k0_t4_loop.trips, ∀ a, (k0_off21 k0_t4) a + S1x1x16.size a ≤ S32x8x128.size a
  k0_off22_inb : ∀ k0_t4 : Fin k0_t4_loop.trips, ∀ a, (k0_off22 k0_t4) a + S1x1x16.size a ≤ S32x8x128.size a
  k0_off23_inb : ∀ k0_t4 : Fin k0_t4_loop.trips, ∀ a, (k0_off23 k0_t4) a + S1x1x16.size a ≤ S32x8x128.size a
  k0_off24_inb : ∀ k0_t4 : Fin k0_t4_loop.trips, ∀ a, (k0_off24 k0_t4) a + S1x1x16.size a ≤ S32x8x128.size a
  k0_off25_inb : ∀ k0_t4 : Fin k0_t4_loop.trips, ∀ a, (k0_off25 k0_t4) a + S1x1x16.size a ≤ S32x8x128.size a
  k0_off26_inb : ∀ k0_t4 : Fin k0_t4_loop.trips, ∀ a, (k0_off26 k0_t4) a + S1x1x16.size a ≤ S32x8x128.size a
  k0_t5_ok : k0_t5_loop.OK
  k0_off27_inb : ∀ k0_t5 : Fin k0_t5_loop.trips, ∀ a, (k0_off27 k0_t5) a + S1x1x16.size a ≤ S32x8x128.size a
  k0_off28_inb : ∀ k0_t5 : Fin k0_t5_loop.trips, ∀ a, (k0_off28 k0_t5) a + S1x1x16.size a ≤ S32x8x128.size a
  k0_off29_inb : ∀ k0_t5 : Fin k0_t5_loop.trips, ∀ a, (k0_off29 k0_t5) a + S1x1x16.size a ≤ S32x8x128.size a
  k0_off30_inb : ∀ k0_t5 : Fin k0_t5_loop.trips, ∀ a, (k0_off30 k0_t5) a + S1x1x16.size a ≤ S32x8x128.size a
  k0_off31_inb : ∀ k0_t5 : Fin k0_t5_loop.trips, ∀ a, (k0_off31 k0_t5) a + S1x1x16.size a ≤ S32x8x128.size a
  k0_off32_inb : ∀ k0_t5 : Fin k0_t5_loop.trips, ∀ a, (k0_off32 k0_t5) a + S1x1x16.size a ≤ S32x8x128.size a
  k0_off33_inb : ∀ k0_t5 : Fin k0_t5_loop.trips, ∀ a, (k0_off33 k0_t5) a + S1x1x16.size a ≤ S32x8x128.size a
  k0_off34_inb : ∀ k0_t5 : Fin k0_t5_loop.trips, ∀ a, (k0_off34 k0_t5) a + S1x1x16.size a ≤ S32x8x128.size a
  k0_t6_ok : k0_t6_loop.OK
  k0_off35_inb : ∀ k0_t6 : Fin k0_t6_loop.trips, ∀ a, (k0_off35 k0_t6) a + S1x1x16.size a ≤ S32x8x128.size a
  k0_off36_inb : ∀ k0_t6 : Fin k0_t6_loop.trips, ∀ a, (k0_off36 k0_t6) a + S1x1x16.size a ≤ S32x8x128.size a
  k0_off37_inb : ∀ k0_t6 : Fin k0_t6_loop.trips, ∀ a, (k0_off37 k0_t6) a + S1x1x16.size a ≤ S32x8x128.size a
  k0_off38_inb : ∀ k0_t6 : Fin k0_t6_loop.trips, ∀ a, (k0_off38 k0_t6) a + S1x1x16.size a ≤ S32x8x128.size a
  k0_off39_inb : ∀ k0_t6 : Fin k0_t6_loop.trips, ∀ a, (k0_off39 k0_t6) a + S1x1x16.size a ≤ S32x8x128.size a
  k0_off40_inb : ∀ k0_t6 : Fin k0_t6_loop.trips, ∀ a, (k0_off40 k0_t6) a + S1x1x16.size a ≤ S32x8x128.size a
  k0_off41_inb : ∀ k0_t6 : Fin k0_t6_loop.trips, ∀ a, (k0_off41 k0_t6) a + S1x1x16.size a ≤ S32x8x128.size a
  k0_off42_inb : ∀ k0_t6 : Fin k0_t6_loop.trips, ∀ a, (k0_off42 k0_t6) a + S1x1x16.size a ≤ S32x8x128.size a
  k0_t7_ok : k0_t7_loop.OK
  k0_off43_inb : ∀ k0_t7 : Fin k0_t7_loop.trips, ∀ a, (k0_off43 k0_t7) a + S1x1x16.size a ≤ S32x8x128.size a
  k0_off44_inb : ∀ k0_t7 : Fin k0_t7_loop.trips, ∀ a, (k0_off44 k0_t7) a + S1x1x16.size a ≤ S32x8x128.size a
  k0_off45_inb : ∀ k0_t7 : Fin k0_t7_loop.trips, ∀ a, (k0_off45 k0_t7) a + S1x1x16.size a ≤ S32x8x128.size a
  k0_off46_inb : ∀ k0_t7 : Fin k0_t7_loop.trips, ∀ a, (k0_off46 k0_t7) a + S1x1x16.size a ≤ S32x8x128.size a
  k0_off47_inb : ∀ k0_t7 : Fin k0_t7_loop.trips, ∀ a, (k0_off47 k0_t7) a + S1x1x16.size a ≤ S32x8x128.size a
  k0_off48_inb : ∀ k0_t7 : Fin k0_t7_loop.trips, ∀ a, (k0_off48 k0_t7) a + S1x1x16.size a ≤ S32x8x128.size a
  k0_off49_inb : ∀ k0_t7 : Fin k0_t7_loop.trips, ∀ a, (k0_off49 k0_t7) a + S1x1x16.size a ≤ S32x8x128.size a
  k0_off50_inb : ∀ k0_t7 : Fin k0_t7_loop.trips, ∀ a, (k0_off50 k0_t7) a + S1x1x16.size a ≤ S32x8x128.size a
  k0_t8_ok : k0_t8_loop.OK
  k0_off51_inb : ∀ k0_t8 : Fin k0_t8_loop.trips, ∀ a, (k0_off51 k0_t8) a + S1x1x16.size a ≤ S32x8x128.size a
  k0_off52_inb : ∀ k0_t8 : Fin k0_t8_loop.trips, ∀ a, (k0_off52 k0_t8) a + S1x1x16.size a ≤ S32x8x128.size a
  k0_off53_inb : ∀ k0_t8 : Fin k0_t8_loop.trips, ∀ a, (k0_off53 k0_t8) a + S1x1x16.size a ≤ S32x8x128.size a
  k0_off54_inb : ∀ k0_t8 : Fin k0_t8_loop.trips, ∀ a, (k0_off54 k0_t8) a + S1x1x16.size a ≤ S32x8x128.size a
  k0_off55_inb : ∀ k0_t8 : Fin k0_t8_loop.trips, ∀ a, (k0_off55 k0_t8) a + S1x1x16.size a ≤ S32x8x128.size a
  k0_off56_inb : ∀ k0_t8 : Fin k0_t8_loop.trips, ∀ a, (k0_off56 k0_t8) a + S1x1x16.size a ≤ S32x8x128.size a
  k0_off57_inb : ∀ k0_t8 : Fin k0_t8_loop.trips, ∀ a, (k0_off57 k0_t8) a + S1x1x16.size a ≤ S32x8x128.size a
  k0_off58_inb : ∀ k0_t8 : Fin k0_t8_loop.trips, ∀ a, (k0_off58 k0_t8) a + S1x1x16.size a ≤ S32x8x128.size a
  k0_t9_ok : k0_t9_loop.OK
  k0_off59_inb : ∀ k0_t9 : Fin k0_t9_loop.trips, ∀ a, (k0_off59 k0_t9) a + S1x1x16.size a ≤ S32x8x128.size a
  k0_off60_inb : ∀ k0_t9 : Fin k0_t9_loop.trips, ∀ a, (k0_off60 k0_t9) a + S1x1x16.size a ≤ S32x8x128.size a
  k0_off61_inb : ∀ k0_t9 : Fin k0_t9_loop.trips, ∀ a, (k0_off61 k0_t9) a + S1x1x16.size a ≤ S32x8x128.size a
  k0_off62_inb : ∀ k0_t9 : Fin k0_t9_loop.trips, ∀ a, (k0_off62 k0_t9) a + S1x1x16.size a ≤ S32x8x128.size a
  k0_off63_inb : ∀ k0_t9 : Fin k0_t9_loop.trips, ∀ a, (k0_off63 k0_t9) a + S1x1x16.size a ≤ S32x8x128.size a
  k0_off64_inb : ∀ k0_t9 : Fin k0_t9_loop.trips, ∀ a, (k0_off64 k0_t9) a + S1x1x16.size a ≤ S32x8x128.size a
  k0_off65_inb : ∀ k0_t9 : Fin k0_t9_loop.trips, ∀ a, (k0_off65 k0_t9) a + S1x1x16.size a ≤ S32x8x128.size a
  k0_off66_inb : ∀ k0_t9 : Fin k0_t9_loop.trips, ∀ a, (k0_off66 k0_t9) a + S1x1x16.size a ≤ S32x8x128.size a
  k0_t10_ok : k0_t10_loop.OK
  k0_off67_inb : ∀ k0_t10 : Fin k0_t10_loop.trips, ∀ a, (k0_off67 k0_t10) a + S1x1x16.size a ≤ S32x8x128.size a
  k0_off68_inb : ∀ k0_t10 : Fin k0_t10_loop.trips, ∀ a, (k0_off68 k0_t10) a + S1x1x16.size a ≤ S32x8x128.size a
  k0_off69_inb : ∀ k0_t10 : Fin k0_t10_loop.trips, ∀ a, (k0_off69 k0_t10) a + S1x1x16.size a ≤ S32x8x128.size a
  k0_off70_inb : ∀ k0_t10 : Fin k0_t10_loop.trips, ∀ a, (k0_off70 k0_t10) a + S1x1x16.size a ≤ S32x8x128.size a
  k0_off71_inb : ∀ k0_t10 : Fin k0_t10_loop.trips, ∀ a, (k0_off71 k0_t10) a + S1x1x16.size a ≤ S32x8x128.size a
  k0_off72_inb : ∀ k0_t10 : Fin k0_t10_loop.trips, ∀ a, (k0_off72 k0_t10) a + S1x1x16.size a ≤ S32x8x128.size a
  k0_off73_inb : ∀ k0_t10 : Fin k0_t10_loop.trips, ∀ a, (k0_off73 k0_t10) a + S1x1x16.size a ≤ S32x8x128.size a
  k0_off74_inb : ∀ k0_t10 : Fin k0_t10_loop.trips, ∀ a, (k0_off74 k0_t10) a + S1x1x16.size a ≤ S32x8x128.size a
  k0_t11_ok : k0_t11_loop.OK
  k0_off75_inb : ∀ k0_t11 : Fin k0_t11_loop.trips, ∀ a, (k0_off75 k0_t11) a + S1x1x16.size a ≤ S32x8x128.size a
  k0_off76_inb : ∀ k0_t11 : Fin k0_t11_loop.trips, ∀ a, (k0_off76 k0_t11) a + S1x1x16.size a ≤ S32x8x128.size a
  k0_off77_inb : ∀ k0_t11 : Fin k0_t11_loop.trips, ∀ a, (k0_off77 k0_t11) a + S1x1x16.size a ≤ S32x8x128.size a
  k0_off78_inb : ∀ k0_t11 : Fin k0_t11_loop.trips, ∀ a, (k0_off78 k0_t11) a + S1x1x16.size a ≤ S32x8x128.size a
  k0_off79_inb : ∀ k0_t11 : Fin k0_t11_loop.trips, ∀ a, (k0_off79 k0_t11) a + S1x1x16.size a ≤ S32x8x128.size a
  k0_off80_inb : ∀ k0_t11 : Fin k0_t11_loop.trips, ∀ a, (k0_off80 k0_t11) a + S1x1x16.size a ≤ S32x8x128.size a
  k0_off81_inb : ∀ k0_t11 : Fin k0_t11_loop.trips, ∀ a, (k0_off81 k0_t11) a + S1x1x16.size a ≤ S32x8x128.size a
  k0_off82_inb : ∀ k0_t11 : Fin k0_t11_loop.trips, ∀ a, (k0_off82 k0_t11) a + S1x1x16.size a ≤ S32x8x128.size a
  k0_t12_ok : k0_t12_loop.OK
  k0_off83_inb : ∀ k0_t12 : Fin k0_t12_loop.trips, ∀ a, (k0_off83 k0_t12) a + S1x1x16.size a ≤ S32x8x128.size a
  k0_off84_inb : ∀ k0_t12 : Fin k0_t12_loop.trips, ∀ a, (k0_off84 k0_t12) a + S1x1x16.size a ≤ S32x8x128.size a
  k0_off85_inb : ∀ k0_t12 : Fin k0_t12_loop.trips, ∀ a, (k0_off85 k0_t12) a + S1x1x16.size a ≤ S32x8x128.size a
  k0_off86_inb : ∀ k0_t12 : Fin k0_t12_loop.trips, ∀ a, (k0_off86 k0_t12) a + S1x1x16.size a ≤ S32x8x128.size a
  k0_off87_inb : ∀ k0_t12 : Fin k0_t12_loop.trips, ∀ a, (k0_off87 k0_t12) a + S1x1x16.size a ≤ S32x8x128.size a
  k0_off88_inb : ∀ k0_t12 : Fin k0_t12_loop.trips, ∀ a, (k0_off88 k0_t12) a + S1x1x16.size a ≤ S32x8x128.size a
  k0_off89_inb : ∀ k0_t12 : Fin k0_t12_loop.trips, ∀ a, (k0_off89 k0_t12) a + S1x1x16.size a ≤ S32x8x128.size a
  k0_off90_inb : ∀ k0_t12 : Fin k0_t12_loop.trips, ∀ a, (k0_off90 k0_t12) a + S1x1x16.size a ≤ S32x8x128.size a
  k0_t13_ok : k0_t13_loop.OK
  k0_off91_inb : ∀ k0_t13 : Fin k0_t13_loop.trips, ∀ a, (k0_off91 k0_t13) a + S1x1x16.size a ≤ S32x8x128.size a
  k0_off92_inb : ∀ k0_t13 : Fin k0_t13_loop.trips, ∀ a, (k0_off92 k0_t13) a + S1x1x16.size a ≤ S32x8x128.size a
  k0_off93_inb : ∀ k0_t13 : Fin k0_t13_loop.trips, ∀ a, (k0_off93 k0_t13) a + S1x1x16.size a ≤ S32x8x128.size a
  k0_off94_inb : ∀ k0_t13 : Fin k0_t13_loop.trips, ∀ a, (k0_off94 k0_t13) a + S1x1x16.size a ≤ S32x8x128.size a
  k0_off95_inb : ∀ k0_t13 : Fin k0_t13_loop.trips, ∀ a, (k0_off95 k0_t13) a + S1x1x16.size a ≤ S32x8x128.size a
  k0_off96_inb : ∀ k0_t13 : Fin k0_t13_loop.trips, ∀ a, (k0_off96 k0_t13) a + S1x1x16.size a ≤ S32x8x128.size a
  k0_off97_inb : ∀ k0_t13 : Fin k0_t13_loop.trips, ∀ a, (k0_off97 k0_t13) a + S1x1x16.size a ≤ S32x8x128.size a
  k0_off98_inb : ∀ k0_t13 : Fin k0_t13_loop.trips, ∀ a, (k0_off98 k0_t13) a + S1x1x16.size a ≤ S32x8x128.size a
  k0_t14_ok : k0_t14_loop.OK
  k0_off99_inb : ∀ k0_t14 : Fin k0_t14_loop.trips, ∀ a, (k0_off99 k0_t14) a + S1x1x16.size a ≤ S32x8x128.size a
  k0_off100_inb : ∀ k0_t14 : Fin k0_t14_loop.trips, ∀ a, (k0_off100 k0_t14) a + S1x1x16.size a ≤ S32x8x128.size a
  k0_off101_inb : ∀ k0_t14 : Fin k0_t14_loop.trips, ∀ a, (k0_off101 k0_t14) a + S1x1x16.size a ≤ S32x8x128.size a
  k0_off102_inb : ∀ k0_t14 : Fin k0_t14_loop.trips, ∀ a, (k0_off102 k0_t14) a + S1x1x16.size a ≤ S32x8x128.size a
  k0_off103_inb : ∀ k0_t14 : Fin k0_t14_loop.trips, ∀ a, (k0_off103 k0_t14) a + S1x1x16.size a ≤ S32x8x128.size a
  k0_off104_inb : ∀ k0_t14 : Fin k0_t14_loop.trips, ∀ a, (k0_off104 k0_t14) a + S1x1x16.size a ≤ S32x8x128.size a
  k0_off105_inb : ∀ k0_t14 : Fin k0_t14_loop.trips, ∀ a, (k0_off105 k0_t14) a + S1x1x16.size a ≤ S32x8x128.size a
  k0_off106_inb : ∀ k0_t14 : Fin k0_t14_loop.trips, ∀ a, (k0_off106 k0_t14) a + S1x1x16.size a ≤ S32x8x128.size a
  k0_t15_ok : k0_t15_loop.OK
  k0_off107_inb : ∀ k0_t15 : Fin k0_t15_loop.trips, ∀ a, (k0_off107 k0_t15) a + S1x1x16.size a ≤ S32x8x128.size a
  k0_off108_inb : ∀ k0_t15 : Fin k0_t15_loop.trips, ∀ a, (k0_off108 k0_t15) a + S1x1x16.size a ≤ S32x8x128.size a
  k0_off109_inb : ∀ k0_t15 : Fin k0_t15_loop.trips, ∀ a, (k0_off109 k0_t15) a + S1x1x16.size a ≤ S32x8x128.size a
  k0_off110_inb : ∀ k0_t15 : Fin k0_t15_loop.trips, ∀ a, (k0_off110 k0_t15) a + S1x1x16.size a ≤ S32x8x128.size a
  k0_off111_inb : ∀ k0_t15 : Fin k0_t15_loop.trips, ∀ a, (k0_off111 k0_t15) a + S1x1x16.size a ≤ S32x8x128.size a
  k0_off112_inb : ∀ k0_t15 : Fin k0_t15_loop.trips, ∀ a, (k0_off112 k0_t15) a + S1x1x16.size a ≤ S32x8x128.size a
  k0_off113_inb : ∀ k0_t15 : Fin k0_t15_loop.trips, ∀ a, (k0_off113 k0_t15) a + S1x1x16.size a ≤ S32x8x128.size a
  k0_off114_inb : ∀ k0_t15 : Fin k0_t15_loop.trips, ∀ a, (k0_off114 k0_t15) a + S1x1x16.size a ≤ S32x8x128.size a
  k0_t16_ok : k0_t16_loop.OK
  k0_off115_inb : ∀ k0_t16 : Fin k0_t16_loop.trips, ∀ a, (k0_off115 k0_t16) a + S1x1x16.size a ≤ S32x8x128.size a
  k0_off116_inb : ∀ k0_t16 : Fin k0_t16_loop.trips, ∀ a, (k0_off116 k0_t16) a + S1x1x16.size a ≤ S32x8x128.size a
  k0_off117_inb : ∀ k0_t16 : Fin k0_t16_loop.trips, ∀ a, (k0_off117 k0_t16) a + S1x1x16.size a ≤ S32x8x128.size a
  k0_off118_inb : ∀ k0_t16 : Fin k0_t16_loop.trips, ∀ a, (k0_off118 k0_t16) a + S1x1x16.size a ≤ S32x8x128.size a
  k0_off119_inb : ∀ k0_t16 : Fin k0_t16_loop.trips, ∀ a, (k0_off119 k0_t16) a + S1x1x16.size a ≤ S32x8x128.size a
  k0_off120_inb : ∀ k0_t16 : Fin k0_t16_loop.trips, ∀ a, (k0_off120 k0_t16) a + S1x1x16.size a ≤ S32x8x128.size a
  k0_off121_inb : ∀ k0_t16 : Fin k0_t16_loop.trips, ∀ a, (k0_off121 k0_t16) a + S1x1x16.size a ≤ S32x8x128.size a
  k0_off122_inb : ∀ k0_t16 : Fin k0_t16_loop.trips, ∀ a, (k0_off122 k0_t16) a + S1x1x16.size a ≤ S32x8x128.size a
  k0_t17_ok : k0_t17_loop.OK
  k0_off123_inb : ∀ k0_t17 : Fin k0_t17_loop.trips, ∀ a, (k0_off123 k0_t17) a + S1x1x16.size a ≤ S32x8x128.size a
  k0_off124_inb : ∀ k0_t17 : Fin k0_t17_loop.trips, ∀ a, (k0_off124 k0_t17) a + S1x1x16.size a ≤ S32x8x128.size a
  k0_off125_inb : ∀ k0_t17 : Fin k0_t17_loop.trips, ∀ a, (k0_off125 k0_t17) a + S1x1x16.size a ≤ S32x8x128.size a
  k0_off126_inb : ∀ k0_t17 : Fin k0_t17_loop.trips, ∀ a, (k0_off126 k0_t17) a + S1x1x16.size a ≤ S32x8x128.size a
  k0_off127_inb : ∀ k0_t17 : Fin k0_t17_loop.trips, ∀ a, (k0_off127 k0_t17) a + S1x1x16.size a ≤ S32x8x128.size a
  k0_off128_inb : ∀ k0_t17 : Fin k0_t17_loop.trips, ∀ a, (k0_off128 k0_t17) a + S1x1x16.size a ≤ S32x8x128.size a
  k0_off129_inb : ∀ k0_t17 : Fin k0_t17_loop.trips, ∀ a, (k0_off129 k0_t17) a + S1x1x16.size a ≤ S32x8x128.size a
  k0_off130_inb : ∀ k0_t17 : Fin k0_t17_loop.trips, ∀ a, (k0_off130 k0_t17) a + S1x1x16.size a ≤ S32x8x128.size a
  k0_off131_inb : ∀ k0_t1 : Fin k0_t1_loop.trips, ∀ a, (k0_off131 k0_t1) a + S1x16.size a ≤ S4x16.size a
  k0_off132_inb : ∀ (i : grid0.Coords) (k0_t1 : Fin k0_t1_loop.trips), ∀ a, (k0_off132 i k0_t1) a + S1x32x8x128.size a ≤ S4x32x128x128.size a
  k0_t18_ok : k0_t18_loop.OK
  k0_off133_inb : ∀ k0_t18 : Fin k0_t18_loop.trips, ∀ a, (k0_off133 k0_t18) a + S1x1x16.size a ≤ S32x8x128.size a
  k0_off134_inb : ∀ k0_t18 : Fin k0_t18_loop.trips, ∀ a, (k0_off134 k0_t18) a + S1x1x16.size a ≤ S32x8x128.size a
  k0_off135_inb : ∀ k0_t18 : Fin k0_t18_loop.trips, ∀ a, (k0_off135 k0_t18) a + S1x1x16.size a ≤ S32x8x128.size a
  k0_off136_inb : ∀ k0_t18 : Fin k0_t18_loop.trips, ∀ a, (k0_off136 k0_t18) a + S1x1x16.size a ≤ S32x8x128.size a
  k0_off137_inb : ∀ k0_t18 : Fin k0_t18_loop.trips, ∀ a, (k0_off137 k0_t18) a + S1x1x16.size a ≤ S32x8x128.size a
  k0_off138_inb : ∀ k0_t18 : Fin k0_t18_loop.trips, ∀ a, (k0_off138 k0_t18) a + S1x1x16.size a ≤ S32x8x128.size a
  k0_off139_inb : ∀ k0_t18 : Fin k0_t18_loop.trips, ∀ a, (k0_off139 k0_t18) a + S1x1x16.size a ≤ S32x8x128.size a
  k0_off140_inb : ∀ k0_t18 : Fin k0_t18_loop.trips, ∀ a, (k0_off140 k0_t18) a + S1x1x16.size a ≤ S32x8x128.size a
  k0_t19_ok : k0_t19_loop.OK
  k0_off141_inb : ∀ k0_t19 : Fin k0_t19_loop.trips, ∀ a, (k0_off141 k0_t19) a + S1x1x16.size a ≤ S32x8x128.size a
  k0_off142_inb : ∀ k0_t19 : Fin k0_t19_loop.trips, ∀ a, (k0_off142 k0_t19) a + S1x1x16.size a ≤ S32x8x128.size a
  k0_off143_inb : ∀ k0_t19 : Fin k0_t19_loop.trips, ∀ a, (k0_off143 k0_t19) a + S1x1x16.size a ≤ S32x8x128.size a
  k0_off144_inb : ∀ k0_t19 : Fin k0_t19_loop.trips, ∀ a, (k0_off144 k0_t19) a + S1x1x16.size a ≤ S32x8x128.size a
  k0_off145_inb : ∀ k0_t19 : Fin k0_t19_loop.trips, ∀ a, (k0_off145 k0_t19) a + S1x1x16.size a ≤ S32x8x128.size a
  k0_off146_inb : ∀ k0_t19 : Fin k0_t19_loop.trips, ∀ a, (k0_off146 k0_t19) a + S1x1x16.size a ≤ S32x8x128.size a
  k0_off147_inb : ∀ k0_t19 : Fin k0_t19_loop.trips, ∀ a, (k0_off147 k0_t19) a + S1x1x16.size a ≤ S32x8x128.size a
  k0_off148_inb : ∀ k0_t19 : Fin k0_t19_loop.trips, ∀ a, (k0_off148 k0_t19) a + S1x1x16.size a ≤ S32x8x128.size a
  k0_t20_ok : k0_t20_loop.OK
  k0_off149_inb : ∀ k0_t20 : Fin k0_t20_loop.trips, ∀ a, (k0_off149 k0_t20) a + S1x1x16.size a ≤ S32x8x128.size a
  k0_off150_inb : ∀ k0_t20 : Fin k0_t20_loop.trips, ∀ a, (k0_off150 k0_t20) a + S1x1x16.size a ≤ S32x8x128.size a
  k0_off151_inb : ∀ k0_t20 : Fin k0_t20_loop.trips, ∀ a, (k0_off151 k0_t20) a + S1x1x16.size a ≤ S32x8x128.size a
  k0_off152_inb : ∀ k0_t20 : Fin k0_t20_loop.trips, ∀ a, (k0_off152 k0_t20) a + S1x1x16.size a ≤ S32x8x128.size a
  k0_off153_inb : ∀ k0_t20 : Fin k0_t20_loop.trips, ∀ a, (k0_off153 k0_t20) a + S1x1x16.size a ≤ S32x8x128.size a
  k0_off154_inb : ∀ k0_t20 : Fin k0_t20_loop.trips, ∀ a, (k0_off154 k0_t20) a + S1x1x16.size a ≤ S32x8x128.size a
  k0_off155_inb : ∀ k0_t20 : Fin k0_t20_loop.trips, ∀ a, (k0_off155 k0_t20) a + S1x1x16.size a ≤ S32x8x128.size a
  k0_off156_inb : ∀ k0_t20 : Fin k0_t20_loop.trips, ∀ a, (k0_off156 k0_t20) a + S1x1x16.size a ≤ S32x8x128.size a
  k0_t21_ok : k0_t21_loop.OK
  k0_off157_inb : ∀ k0_t21 : Fin k0_t21_loop.trips, ∀ a, (k0_off157 k0_t21) a + S1x1x16.size a ≤ S32x8x128.size a
  k0_off158_inb : ∀ k0_t21 : Fin k0_t21_loop.trips, ∀ a, (k0_off158 k0_t21) a + S1x1x16.size a ≤ S32x8x128.size a
  k0_off159_inb : ∀ k0_t21 : Fin k0_t21_loop.trips, ∀ a, (k0_off159 k0_t21) a + S1x1x16.size a ≤ S32x8x128.size a
  k0_off160_inb : ∀ k0_t21 : Fin k0_t21_loop.trips, ∀ a, (k0_off160 k0_t21) a + S1x1x16.size a ≤ S32x8x128.size a
  k0_off161_inb : ∀ k0_t21 : Fin k0_t21_loop.trips, ∀ a, (k0_off161 k0_t21) a + S1x1x16.size a ≤ S32x8x128.size a
  k0_off162_inb : ∀ k0_t21 : Fin k0_t21_loop.trips, ∀ a, (k0_off162 k0_t21) a + S1x1x16.size a ≤ S32x8x128.size a
  k0_off163_inb : ∀ k0_t21 : Fin k0_t21_loop.trips, ∀ a, (k0_off163 k0_t21) a + S1x1x16.size a ≤ S32x8x128.size a
  k0_off164_inb : ∀ k0_t21 : Fin k0_t21_loop.trips, ∀ a, (k0_off164 k0_t21) a + S1x1x16.size a ≤ S32x8x128.size a
  k0_t22_ok : k0_t22_loop.OK
  k0_off165_inb : ∀ k0_t22 : Fin k0_t22_loop.trips, ∀ a, (k0_off165 k0_t22) a + S1x1x16.size a ≤ S32x8x128.size a
  k0_off166_inb : ∀ k0_t22 : Fin k0_t22_loop.trips, ∀ a, (k0_off166 k0_t22) a + S1x1x16.size a ≤ S32x8x128.size a
  k0_off167_inb : ∀ k0_t22 : Fin k0_t22_loop.trips, ∀ a, (k0_off167 k0_t22) a + S1x1x16.size a ≤ S32x8x128.size a
  k0_off168_inb : ∀ k0_t22 : Fin k0_t22_loop.trips, ∀ a, (k0_off168 k0_t22) a + S1x1x16.size a ≤ S32x8x128.size a
  k0_off169_inb : ∀ k0_t22 : Fin k0_t22_loop.trips, ∀ a, (k0_off169 k0_t22) a + S1x1x16.size a ≤ S32x8x128.size a
  k0_off170_inb : ∀ k0_t22 : Fin k0_t22_loop.trips, ∀ a, (k0_off170 k0_t22) a + S1x1x16.size a ≤ S32x8x128.size a
  k0_off171_inb : ∀ k0_t22 : Fin k0_t22_loop.trips, ∀ a, (k0_off171 k0_t22) a + S1x1x16.size a ≤ S32x8x128.size a
  k0_off172_inb : ∀ k0_t22 : Fin k0_t22_loop.trips, ∀ a, (k0_off172 k0_t22) a + S1x1x16.size a ≤ S32x8x128.size a
  k0_t23_ok : k0_t23_loop.OK
  k0_off173_inb : ∀ k0_t23 : Fin k0_t23_loop.trips, ∀ a, (k0_off173 k0_t23) a + S1x1x16.size a ≤ S32x8x128.size a
  k0_off174_inb : ∀ k0_t23 : Fin k0_t23_loop.trips, ∀ a, (k0_off174 k0_t23) a + S1x1x16.size a ≤ S32x8x128.size a
  k0_off175_inb : ∀ k0_t23 : Fin k0_t23_loop.trips, ∀ a, (k0_off175 k0_t23) a + S1x1x16.size a ≤ S32x8x128.size a
  k0_off176_inb : ∀ k0_t23 : Fin k0_t23_loop.trips, ∀ a, (k0_off176 k0_t23) a + S1x1x16.size a ≤ S32x8x128.size a
  k0_off177_inb : ∀ k0_t23 : Fin k0_t23_loop.trips, ∀ a, (k0_off177 k0_t23) a + S1x1x16.size a ≤ S32x8x128.size a
  k0_off178_inb : ∀ k0_t23 : Fin k0_t23_loop.trips, ∀ a, (k0_off178 k0_t23) a + S1x1x16.size a ≤ S32x8x128.size a
  k0_off179_inb : ∀ k0_t23 : Fin k0_t23_loop.trips, ∀ a, (k0_off179 k0_t23) a + S1x1x16.size a ≤ S32x8x128.size a
  k0_off180_inb : ∀ k0_t23 : Fin k0_t23_loop.trips, ∀ a, (k0_off180 k0_t23) a + S1x1x16.size a ≤ S32x8x128.size a
  k0_t24_ok : k0_t24_loop.OK
  k0_off181_inb : ∀ k0_t24 : Fin k0_t24_loop.trips, ∀ a, (k0_off181 k0_t24) a + S1x1x16.size a ≤ S32x8x128.size a
  k0_off182_inb : ∀ k0_t24 : Fin k0_t24_loop.trips, ∀ a, (k0_off182 k0_t24) a + S1x1x16.size a ≤ S32x8x128.size a
  k0_off183_inb : ∀ k0_t24 : Fin k0_t24_loop.trips, ∀ a, (k0_off183 k0_t24) a + S1x1x16.size a ≤ S32x8x128.size a
  k0_off184_inb : ∀ k0_t24 : Fin k0_t24_loop.trips, ∀ a, (k0_off184 k0_t24) a + S1x1x16.size a ≤ S32x8x128.size a
  k0_off185_inb : ∀ k0_t24 : Fin k0_t24_loop.trips, ∀ a, (k0_off185 k0_t24) a + S1x1x16.size a ≤ S32x8x128.size a
  k0_off186_inb : ∀ k0_t24 : Fin k0_t24_loop.trips, ∀ a, (k0_off186 k0_t24) a + S1x1x16.size a ≤ S32x8x128.size a
  k0_off187_inb : ∀ k0_t24 : Fin k0_t24_loop.trips, ∀ a, (k0_off187 k0_t24) a + S1x1x16.size a ≤ S32x8x128.size a
  k0_off188_inb : ∀ k0_t24 : Fin k0_t24_loop.trips, ∀ a, (k0_off188 k0_t24) a + S1x1x16.size a ≤ S32x8x128.size a
  k0_t25_ok : k0_t25_loop.OK
  k0_off189_inb : ∀ k0_t25 : Fin k0_t25_loop.trips, ∀ a, (k0_off189 k0_t25) a + S1x1x16.size a ≤ S32x8x128.size a
  k0_off190_inb : ∀ k0_t25 : Fin k0_t25_loop.trips, ∀ a, (k0_off190 k0_t25) a + S1x1x16.size a ≤ S32x8x128.size a
  k0_off191_inb : ∀ k0_t25 : Fin k0_t25_loop.trips, ∀ a, (k0_off191 k0_t25) a + S1x1x16.size a ≤ S32x8x128.size a
  k0_off192_inb : ∀ k0_t25 : Fin k0_t25_loop.trips, ∀ a, (k0_off192 k0_t25) a + S1x1x16.size a ≤ S32x8x128.size a
  k0_off193_inb : ∀ k0_t25 : Fin k0_t25_loop.trips, ∀ a, (k0_off193 k0_t25) a + S1x1x16.size a ≤ S32x8x128.size a
  k0_off194_inb : ∀ k0_t25 : Fin k0_t25_loop.trips, ∀ a, (k0_off194 k0_t25) a + S1x1x16.size a ≤ S32x8x128.size a
  k0_off195_inb : ∀ k0_t25 : Fin k0_t25_loop.trips, ∀ a, (k0_off195 k0_t25) a + S1x1x16.size a ≤ S32x8x128.size a
  k0_off196_inb : ∀ k0_t25 : Fin k0_t25_loop.trips, ∀ a, (k0_off196 k0_t25) a + S1x1x16.size a ≤ S32x8x128.size a
  k0_t26_ok : k0_t26_loop.OK
  k0_off197_inb : ∀ k0_t26 : Fin k0_t26_loop.trips, ∀ a, (k0_off197 k0_t26) a + S1x1x16.size a ≤ S32x8x128.size a
  k0_off198_inb : ∀ k0_t26 : Fin k0_t26_loop.trips, ∀ a, (k0_off198 k0_t26) a + S1x1x16.size a ≤ S32x8x128.size a
  k0_off199_inb : ∀ k0_t26 : Fin k0_t26_loop.trips, ∀ a, (k0_off199 k0_t26) a + S1x1x16.size a ≤ S32x8x128.size a
  k0_off200_inb : ∀ k0_t26 : Fin k0_t26_loop.trips, ∀ a, (k0_off200 k0_t26) a + S1x1x16.size a ≤ S32x8x128.size a
  k0_off201_inb : ∀ k0_t26 : Fin k0_t26_loop.trips, ∀ a, (k0_off201 k0_t26) a + S1x1x16.size a ≤ S32x8x128.size a
  k0_off202_inb : ∀ k0_t26 : Fin k0_t26_loop.trips, ∀ a, (k0_off202 k0_t26) a + S1x1x16.size a ≤ S32x8x128.size a
  k0_off203_inb : ∀ k0_t26 : Fin k0_t26_loop.trips, ∀ a, (k0_off203 k0_t26) a + S1x1x16.size a ≤ S32x8x128.size a
  k0_off204_inb : ∀ k0_t26 : Fin k0_t26_loop.trips, ∀ a, (k0_off204 k0_t26) a + S1x1x16.size a ≤ S32x8x128.size a
  k0_t27_ok : k0_t27_loop.OK
  k0_off205_inb : ∀ k0_t27 : Fin k0_t27_loop.trips, ∀ a, (k0_off205 k0_t27) a + S1x1x16.size a ≤ S32x8x128.size a
  k0_off206_inb : ∀ k0_t27 : Fin k0_t27_loop.trips, ∀ a, (k0_off206 k0_t27) a + S1x1x16.size a ≤ S32x8x128.size a
  k0_off207_inb : ∀ k0_t27 : Fin k0_t27_loop.trips, ∀ a, (k0_off207 k0_t27) a + S1x1x16.size a ≤ S32x8x128.size a
  k0_off208_inb : ∀ k0_t27 : Fin k0_t27_loop.trips, ∀ a, (k0_off208 k0_t27) a + S1x1x16.size a ≤ S32x8x128.size a
  k0_off209_inb : ∀ k0_t27 : Fin k0_t27_loop.trips, ∀ a, (k0_off209 k0_t27) a + S1x1x16.size a ≤ S32x8x128.size a
  k0_off210_inb : ∀ k0_t27 : Fin k0_t27_loop.trips, ∀ a, (k0_off210 k0_t27) a + S1x1x16.size a ≤ S32x8x128.size a
  k0_off211_inb : ∀ k0_t27 : Fin k0_t27_loop.trips, ∀ a, (k0_off211 k0_t27) a + S1x1x16.size a ≤ S32x8x128.size a
  k0_off212_inb : ∀ k0_t27 : Fin k0_t27_loop.trips, ∀ a, (k0_off212 k0_t27) a + S1x1x16.size a ≤ S32x8x128.size a
  k0_t28_ok : k0_t28_loop.OK
  k0_off213_inb : ∀ k0_t28 : Fin k0_t28_loop.trips, ∀ a, (k0_off213 k0_t28) a + S1x1x16.size a ≤ S32x8x128.size a
  k0_off214_inb : ∀ k0_t28 : Fin k0_t28_loop.trips, ∀ a, (k0_off214 k0_t28) a + S1x1x16.size a ≤ S32x8x128.size a
  k0_off215_inb : ∀ k0_t28 : Fin k0_t28_loop.trips, ∀ a, (k0_off215 k0_t28) a + S1x1x16.size a ≤ S32x8x128.size a
  k0_off216_inb : ∀ k0_t28 : Fin k0_t28_loop.trips, ∀ a, (k0_off216 k0_t28) a + S1x1x16.size a ≤ S32x8x128.size a
  k0_off217_inb : ∀ k0_t28 : Fin k0_t28_loop.trips, ∀ a, (k0_off217 k0_t28) a + S1x1x16.size a ≤ S32x8x128.size a
  k0_off218_inb : ∀ k0_t28 : Fin k0_t28_loop.trips, ∀ a, (k0_off218 k0_t28) a + S1x1x16.size a ≤ S32x8x128.size a
  k0_off219_inb : ∀ k0_t28 : Fin k0_t28_loop.trips, ∀ a, (k0_off219 k0_t28) a + S1x1x16.size a ≤ S32x8x128.size a
  k0_off220_inb : ∀ k0_t28 : Fin k0_t28_loop.trips, ∀ a, (k0_off220 k0_t28) a + S1x1x16.size a ≤ S32x8x128.size a
  k0_t29_ok : k0_t29_loop.OK
  k0_off221_inb : ∀ k0_t29 : Fin k0_t29_loop.trips, ∀ a, (k0_off221 k0_t29) a + S1x1x16.size a ≤ S32x8x128.size a
  k0_off222_inb : ∀ k0_t29 : Fin k0_t29_loop.trips, ∀ a, (k0_off222 k0_t29) a + S1x1x16.size a ≤ S32x8x128.size a
  k0_off223_inb : ∀ k0_t29 : Fin k0_t29_loop.trips, ∀ a, (k0_off223 k0_t29) a + S1x1x16.size a ≤ S32x8x128.size a
  k0_off224_inb : ∀ k0_t29 : Fin k0_t29_loop.trips, ∀ a, (k0_off224 k0_t29) a + S1x1x16.size a ≤ S32x8x128.size a
  k0_off225_inb : ∀ k0_t29 : Fin k0_t29_loop.trips, ∀ a, (k0_off225 k0_t29) a + S1x1x16.size a ≤ S32x8x128.size a
  k0_off226_inb : ∀ k0_t29 : Fin k0_t29_loop.trips, ∀ a, (k0_off226 k0_t29) a + S1x1x16.size a ≤ S32x8x128.size a
  k0_off227_inb : ∀ k0_t29 : Fin k0_t29_loop.trips, ∀ a, (k0_off227 k0_t29) a + S1x1x16.size a ≤ S32x8x128.size a
  k0_off228_inb : ∀ k0_t29 : Fin k0_t29_loop.trips, ∀ a, (k0_off228 k0_t29) a + S1x1x16.size a ≤ S32x8x128.size a
  k0_t30_ok : k0_t30_loop.OK
  k0_off229_inb : ∀ k0_t30 : Fin k0_t30_loop.trips, ∀ a, (k0_off229 k0_t30) a + S1x1x16.size a ≤ S32x8x128.size a
  k0_off230_inb : ∀ k0_t30 : Fin k0_t30_loop.trips, ∀ a, (k0_off230 k0_t30) a + S1x1x16.size a ≤ S32x8x128.size a
  k0_off231_inb : ∀ k0_t30 : Fin k0_t30_loop.trips, ∀ a, (k0_off231 k0_t30) a + S1x1x16.size a ≤ S32x8x128.size a
  k0_off232_inb : ∀ k0_t30 : Fin k0_t30_loop.trips, ∀ a, (k0_off232 k0_t30) a + S1x1x16.size a ≤ S32x8x128.size a
  k0_off233_inb : ∀ k0_t30 : Fin k0_t30_loop.trips, ∀ a, (k0_off233 k0_t30) a + S1x1x16.size a ≤ S32x8x128.size a
  k0_off234_inb : ∀ k0_t30 : Fin k0_t30_loop.trips, ∀ a, (k0_off234 k0_t30) a + S1x1x16.size a ≤ S32x8x128.size a
  k0_off235_inb : ∀ k0_t30 : Fin k0_t30_loop.trips, ∀ a, (k0_off235 k0_t30) a + S1x1x16.size a ≤ S32x8x128.size a
  k0_off236_inb : ∀ k0_t30 : Fin k0_t30_loop.trips, ∀ a, (k0_off236 k0_t30) a + S1x1x16.size a ≤ S32x8x128.size a
  k0_t31_ok : k0_t31_loop.OK
  k0_off237_inb : ∀ k0_t31 : Fin k0_t31_loop.trips, ∀ a, (k0_off237 k0_t31) a + S1x1x16.size a ≤ S32x8x128.size a
  k0_off238_inb : ∀ k0_t31 : Fin k0_t31_loop.trips, ∀ a, (k0_off238 k0_t31) a + S1x1x16.size a ≤ S32x8x128.size a
  k0_off239_inb : ∀ k0_t31 : Fin k0_t31_loop.trips, ∀ a, (k0_off239 k0_t31) a + S1x1x16.size a ≤ S32x8x128.size a
  k0_off240_inb : ∀ k0_t31 : Fin k0_t31_loop.trips, ∀ a, (k0_off240 k0_t31) a + S1x1x16.size a ≤ S32x8x128.size a
  k0_off241_inb : ∀ k0_t31 : Fin k0_t31_loop.trips, ∀ a, (k0_off241 k0_t31) a + S1x1x16.size a ≤ S32x8x128.size a
  k0_off242_inb : ∀ k0_t31 : Fin k0_t31_loop.trips, ∀ a, (k0_off242 k0_t31) a + S1x1x16.size a ≤ S32x8x128.size a
  k0_off243_inb : ∀ k0_t31 : Fin k0_t31_loop.trips, ∀ a, (k0_off243 k0_t31) a + S1x1x16.size a ≤ S32x8x128.size a
  k0_off244_inb : ∀ k0_t31 : Fin k0_t31_loop.trips, ∀ a, (k0_off244 k0_t31) a + S1x1x16.size a ≤ S32x8x128.size a
  k0_t32_ok : k0_t32_loop.OK
  k0_off245_inb : ∀ k0_t32 : Fin k0_t32_loop.trips, ∀ a, (k0_off245 k0_t32) a + S1x1x16.size a ≤ S32x8x128.size a
  k0_off246_inb : ∀ k0_t32 : Fin k0_t32_loop.trips, ∀ a, (k0_off246 k0_t32) a + S1x1x16.size a ≤ S32x8x128.size a
  k0_off247_inb : ∀ k0_t32 : Fin k0_t32_loop.trips, ∀ a, (k0_off247 k0_t32) a + S1x1x16.size a ≤ S32x8x128.size a
  k0_off248_inb : ∀ k0_t32 : Fin k0_t32_loop.trips, ∀ a, (k0_off248 k0_t32) a + S1x1x16.size a ≤ S32x8x128.size a
  k0_off249_inb : ∀ k0_t32 : Fin k0_t32_loop.trips, ∀ a, (k0_off249 k0_t32) a + S1x1x16.size a ≤ S32x8x128.size a
  k0_off250_inb : ∀ k0_t32 : Fin k0_t32_loop.trips, ∀ a, (k0_off250 k0_t32) a + S1x1x16.size a ≤ S32x8x128.size a
  k0_off251_inb : ∀ k0_t32 : Fin k0_t32_loop.trips, ∀ a, (k0_off251 k0_t32) a + S1x1x16.size a ≤ S32x8x128.size a
  k0_off252_inb : ∀ k0_t32 : Fin k0_t32_loop.trips, ∀ a, (k0_off252 k0_t32) a + S1x1x16.size a ≤ S32x8x128.size a
  k0_t33_ok : k0_t33_loop.OK
  k0_off253_inb : ∀ k0_t33 : Fin k0_t33_loop.trips, ∀ a, (k0_off253 k0_t33) a + S1x1x16.size a ≤ S32x8x128.size a
  k0_off254_inb : ∀ k0_t33 : Fin k0_t33_loop.trips, ∀ a, (k0_off254 k0_t33) a + S1x1x16.size a ≤ S32x8x128.size a
  k0_off255_inb : ∀ k0_t33 : Fin k0_t33_loop.trips, ∀ a, (k0_off255 k0_t33) a + S1x1x16.size a ≤ S32x8x128.size a
  k0_off256_inb : ∀ k0_t33 : Fin k0_t33_loop.trips, ∀ a, (k0_off256 k0_t33) a + S1x1x16.size a ≤ S32x8x128.size a
  k0_off257_inb : ∀ k0_t33 : Fin k0_t33_loop.trips, ∀ a, (k0_off257 k0_t33) a + S1x1x16.size a ≤ S32x8x128.size a
  k0_off258_inb : ∀ k0_t33 : Fin k0_t33_loop.trips, ∀ a, (k0_off258 k0_t33) a + S1x1x16.size a ≤ S32x8x128.size a
  k0_off259_inb : ∀ k0_t33 : Fin k0_t33_loop.trips, ∀ a, (k0_off259 k0_t33) a + S1x1x16.size a ≤ S32x8x128.size a
  k0_off260_inb : ∀ k0_t33 : Fin k0_t33_loop.trips, ∀ a, (k0_off260 k0_t33) a + S1x1x16.size a ≤ S32x8x128.size a
  k0_off261_inb : ∀ k0_t1 : Fin k0_t1_loop.trips, ∀ a, (k0_off261 k0_t1) a + S1x16.size a ≤ S4x16.size a
  k0_off262_inb : ∀ (i : grid0.Coords) (k0_t1 : Fin k0_t1_loop.trips), ∀ (k0_h1 : k0_cond1 k0_t1 = 1#1), ∀ a, (k0_off262 i k0_t1) a + S1x32x8x128.size a ≤ S4x32x128x128.size a
  k0_off263_inb : ∀ (i : grid0.Coords) (k0_t1 : Fin k0_t1_loop.trips), ∀ (k0_h1 : k0_cond1 k0_t1 = 1#1), ∀ (r : Fin 2), ∀ a, (k0_off263 i k0_t1 (BitVec.ofNat 32 (1 + r.val))) a + S1x32x8x128.size a ≤ S4x32x128x128.size a
  k0_off264_inb : ∀ (i : grid0.Coords) (k0_t1 : Fin k0_t1_loop.trips), ∀ (k0_h1 : k0_cond1 k0_t1 = 1#1), ∀ a, (k0_off264 i k0_t1) a + S1x32x8x128.size a ≤ S4x32x128x128.size a
  k0_off265_inb : ∀ i : grid0.Coords, ∀ a, (k0_off265 i) a + S4x1x1x16.size a ≤ S4x1x16x16.size a
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x32x128x128.size a ≤ S32x32x128x128.size a
  hwx1_1 : ∀ i : grid1.Coords, EltTy.bits .f32 = 32 ∨ (Rect.block (s := S32x32x128x128) S4x32x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x32x128x128.size a ≤ S32x32x128x128.size a
  hwx1_2 : ∀ i : grid1.Coords, EltTy.bits .f32 = 32 ∨ (Rect.block (s := S32x32x128x128) S4x32x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1x128.size a ≤ S28x1x128.size a
  hwx1_3 : ∀ i : grid1.Coords, EltTy.bits .f32 = 32 ∨ (Rect.block (s := S28x1x128) S4x1x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4x32x128x128.size a ≤ S4x32x128x128.size a
  hwx2_0 : ∀ i : grid2.Coords, EltTy.bits .f32 = 32 ∨ (Rect.block (s := S4x32x128x128) S4x32x128x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_2 i = cc2_transform_2 i'
  hinb2_1 : ∀ (i : grid2.Coords) a, (cc2_transform_2 i a + 1) * S4x32x128x128.size a ≤ S32x32x128x128.size a
  hwx2_1 : ∀ i : grid2.Coords, EltTy.bits .f32 = 32 ∨ (Rect.block (s := S32x32x128x128) S4x32x128x128.size (cc2_transform_2 i) (hinb2_1 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1

abbrev win1_0 : Pipeline.Window sig grid1 :=
  Pipeline.Window.ofSpec (Memref.whole main_v4) S1x1.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x32x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S4x32x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S4x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_0) S4x32x128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4x32x128x128.size cc2_transform_2 reads2_1 true false 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16777216 : Shape := ⟨1, ![16777216]⟩
abbrev S_ : Shape := ⟨0, ![]⟩
abbrev S32x32x128x128 : Shape := ⟨4, ![32, 32, 128, 128]⟩
abbrev S32x128 : Shape := ⟨2, ![32, 128]⟩
abbrev S32x1x128x1 : Shape := ⟨4, ![32, 1, 128, 1]⟩
abbrev S4096 : Shape := ⟨1, ![4096]⟩

abbrev nBuf : Space → Nat
  | .hbm => 20
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S_, .i32⟩
  | .hbm, ⟨2, _⟩ => ⟨S_, .i32⟩
  | .hbm, ⟨3, _⟩ => ⟨S32x32x128x128, .f32⟩
  | .hbm, ⟨4, _⟩ => ⟨S_, .f32⟩
  | .hbm, ⟨5, _⟩ => ⟨S32x32x128x128, .f32⟩
  | .hbm, ⟨6, _⟩ => ⟨S32x32x128x128, .f32⟩
  | .hbm, ⟨7, _⟩ => ⟨S_, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .i1⟩
  | .hbm, ⟨12, _⟩ => ⟨S_, .f32⟩
  | .hbm, ⟨13, _⟩ => ⟨S32x128, .f32⟩
  | .hbm, ⟨14, _⟩ => ⟨S32x128, .f32⟩
  | .hbm, ⟨15, _⟩ => ⟨S32x1x128x1, .f32⟩
  | .hbm, ⟨16, _⟩ => ⟨S32x32x128x128, .f32⟩
  | .hbm, ⟨17, _⟩ => ⟨S32x32x128x128, .f32⟩
  | .hbm, ⟨18, _⟩ => ⟨S16777216, .f32⟩
  | .hbm, ⟨19, _⟩ => ⟨S4096, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S16777216_S32x32x128x128 : S16777216.ShapeCasts S32x32x128x128
  bcast_S_S32x32x128x128 : S_.BroadcastsInDim S32x32x128x128 (![] : Fin 0 → Fin S32x32x128x128.rank)
  reducesTo_S32x32x128x128_S32x128_d1_3 : S32x32x128x128.ReducesTo [1, 3] S32x128
  h_S_ : 0 < S_.numel
  bcast_S_S32x128 : S_.BroadcastsInDim S32x128 (![] : Fin 0 → Fin S32x128.rank)
  bcast_S32x128_S32x1x128x1_0_2 : S32x128.BroadcastsInDim S32x1x128x1 (![0, 2] : Fin 2 → Fin S32x1x128x1.rank)
  bcast_S32x1x128x1_S32x32x128x128_0_1_2_3 : S32x1x128x1.BroadcastsInDim S32x32x128x128 (![0, 1, 2, 3] : Fin 4 → Fin S32x32x128x128.rank)
  shapeCasts_S32x32x128x128_S16777216 : S32x32x128x128.ShapeCasts S16777216
  shapeCasts_S32x128_S4096 : S32x128.ShapeCasts S4096

variable [Facts₀]

class Facts : Prop extends Facts₀ where

variable [Facts]
-- ==== Proof.RefFrame.lean ====
/-
  The reference program's frame: every weakly fair execution of the reference ends, faults nowhere and leaves its
  three argument arrays as they were.  It is the reference's run with the two results forgotten.
-/
import proofs.«216181_g9861244912407_cont_9to1_m_1073_40_alg».proof.Defs
import proofs.«216181_g9861244912407_cont_9to1_m_1073_40_alg».proof.Proof.Gen.ReferenceIdeal
import proofs.«216181_g9861244912407_cont_9to1_m_1073_40_alg».proof.Proof.Gen.ReferenceIdeal.Run
import proofs.«216181_g9861244912407_cont_9to1_m_1073_40_alg».proof.Proof.Gen.Pre_input_domain

noncomputable section

open Idealize.ShloMosaic Idealize.SL.Sem

namespace Cert.Proof.RefFrame

/-- The reference runs to the end and keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.KI.Common.lean ====
/-
  Shared vocabulary of the kernel's frame proof: the program as the SparseCore launch theorem sees it, the ghost
  state (the launch handshakes' rounds beside the transfer counters), and what the handshakes of the one SparseCore
  call carry.  The call works on the first four source tokens: tile `s` of the sixteen owns, for each round
  `r < 4`, the rows `[8 s, 8 s + 8)` of token `r` — a `[1, 32, 8, 128]` box of the `[4, 32, 128, 128]` input and of
  the output — and row `s` of the `[4, 1, 16, 16]` row-sum array; the sixteen-lane pseudocount vector is read by every
  tile under a read share.  The boxes of the sixteen tiles and four rounds are pairwise disjoint and cover the arrays.
-/
import proofs.«216181_g9861244912407_cont_9to1_m_1073_40_alg».proof.Defs
import Idealize.ShloMosaic.Lib.SparseCore.Launch
import Idealize.ShloMosaic.Lib.StableHlo.Run
import Idealize.ShloMosaic.Lib.Pipeline.Kit
import Idealize.ShloMosaic.Lib.Tactic
import proofs.«216181_g9861244912407_cont_9to1_m_1073_40_alg».proof.Proof.Gen.KernelIdeal
import proofs.«216181_g9861244912407_cont_9to1_m_1073_40_alg».proof.Proof.Gen.KernelIdeal.Skeleton
import proofs.«216181_g9861244912407_cont_9to1_m_1073_40_alg».proof.Proof.Gen.KernelIdeal.Launch
import proofs.«216181_g9861244912407_cont_9to1_m_1073_40_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the two pipelines' staging cells' rounds, the transfer counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The arrays of the SparseCore call -/

abbrev inLoc (d : Dev nD) : Loc nD τ sig := (SparseCore.T d).loc main_v5
abbrev pcLoc (d : Dev nD) : Loc nD τ sig := (SparseCore.T d).loc main_v2
abbrev outLoc (d : Dev nD) : Loc nD τ sig := (SparseCore.T d).loc main_v6_0
abbrev rsLoc (d : Dev nD) : Loc nD τ sig := (SparseCore.T d).loc main_v6_1

theorem tileOff_inb (s : Fin 16) (r : Fin 4) : ∀ a, (![r.val, 0, 8 * s.val, 0] : Fin 4 → Nat) a + S1x32x8x128.size a ≤ S4x32x128x128.size a := by
  revert s r; decide
/-- Rows `[8 s, 8 s + 8)` of token `r`: the box tile `s` reads and writes in round `r`. -/
abbrev tileRect (s : Fin 16) (r : Fin 4) : Rect S4x32x128x128 := Rect.unit (s := S4x32x128x128) ![r.val, 0, 8 * s.val, 0] S1x32x8x128.size (tileOff_inb s r)
abbrev tileSet (s : Fin 16) (r : Fin 4) : Finset S4x32x128x128.Idx := (tileRect s r).set

theorem rsOff_inb (s : Fin 16) : ∀ a, (![0, 0, s.val, 0] : Fin 4 → Nat) a + S4x1x1x16.size a ≤ S4x1x16x16.size a := by
  revert s; decide
/-- Row `s` of the row-sum array, all four rounds. -/
abbrev rsRect (s : Fin 16) : Rect S4x1x16x16 := Rect.unit (s := S4x1x16x16) ![0, 0, s.val, 0] S4x1x1x16.size (rsOff_inb s)
abbrev rsSet (s : Fin 16) : Finset S4x1x16x16.Idx := (rsRect s).set

/-! ## What the handshakes carry -/

section Pay

variable [FloatOps F]
variable (vin : (d : Dev nD) → Buf (Elt F) (inLoc d)) (vpc : (d : Dev nD) → Buf (Elt F) (pcLoc d))

/-- What tile `s` is handed for its task and hands back: its four input boxes at the input's contents, a read share of
    the pseudocount vector, its four output boxes and its row of the row sums at whatever they hold. -/
def tileRes (d : Dev nD) (s : Fin 16) : sProp 𝕄 :=
  iprop((bigSep Finset.univ fun r : Fin 4 => inLoc d ↦[tileSet s r]{fullShare} vin d)
    ∗ (pcLoc d ↦{shareTok fullShare 16 s} vpc d)
    ∗ (bigSep Finset.univ fun r : Fin 4 => iprop(∃ f, outLoc d ↦[tileSet s r]{fullShare} f))
    ∗ (∃ f, rsLoc d ↦[rsSet s]{fullShare} f))

/-- What the call takes from the TensorCore and brings back: the input and the pseudocount vector whole at their
    contents, the two results whole at whatever they hold. -/
def callRes (d : Dev nD) : sProp 𝕄 :=
  iprop((inLoc d ↦{fullShare} vin d) ∗ (pcLoc d ↦{fullShare} vpc d) ∗ (∃ f, outLoc d ↦{fullShare} f) ∗ (∃ f, rsLoc d ↦{fullShare} f))

def P : (K (F := F)).Pay (nD := nD) (Val := Elt F) (Name := ℕ) (U := UU) where
  st := fun _ d _ => callRes vin vpc d
  dn := fun _ d _ => callRes vin vpc d
  go := fun q d _ i => match q with | 0 => tileRes vin vpc d (Fin.cast nSub_zero i)
  td := fun q d _ i => match q with | 0 => tileRes vin vpc d (Fin.cast nSub_zero i)
  x := fun _ _ => iprop(emp)

instance tileRes_storable (d : Dev nD) (s : Fin 16) : BI.Storable (upEmb : UEmb _ 𝕄) (tileRes vin vpc d s) := by
  unfold tileRes; infer_instance
instance callRes_storable (d : Dev nD) : BI.Storable (upEmb : UEmb _ 𝕄) (callRes vin vpc d) := by
  unfold callRes; infer_instance

instance P_storable : (P (F := F) vin vpc).IsStorable where
  st _ d c := by unfold P; infer_instance
  dn _ d c := by unfold P; infer_instance
  go q d _ i := match q with | 0 => (inferInstance : BI.Storable (upEmb : UEmb _ 𝕄) (tileRes vin vpc d (Fin.cast nSub_zero i)))
  td q d _ i := match q with | 0 => (inferInstance : BI.Storable (upEmb : UEmb _ 𝕄) (tileRes vin vpc d (Fin.cast nSub_zero i)))

end Pay

end Cert.Proof.KI

end
-- ==== Proof.KI.MainOps.lean ====
/-
  @main of the kernel's program cut into its straight lines of host operations, the SparseCore call and the two
  TensorCore kernel regions between them; and the TensorCore's arrays, all nineteen, as one held set.
-/
import proofs.«216181_g9861244912407_cont_9to1_m_1073_40_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-- Before the SparseCore call: the input reshaped, the pseudocount converted and spread over sixteen lanes and as a
    one-by-one array, the first four source tokens cut out. -/
abbrev ops0 : List (HloOp τ sig (Elt F)) :=
  [ reshape main_arg0 main_v0 rfl shapeCasts_S16777216_S32x32x128x128,
    unary main_arg1 main_v1 (sitofp .f32 : (⟨S_, .i32⟩ : BufTy).Contents (Elt F) → (⟨S_, .f32⟩ : BufTy).Contents (Elt F)),
    unary main_v1 main_v2 (broadcastInDim S16 ![] bcast_S_S16 : (⟨S_, .f32⟩ : BufTy).Contents (Elt F) → (⟨S16, .f32⟩ : BufTy).Contents (Elt F)),
    unary main_arg1 main_v3 (sitofp .f32 : (⟨S_, .i32⟩ : BufTy).Contents (Elt F) → (⟨S_, .f32⟩ : BufTy).Contents (Elt F)),
    reshape main_v3 main_v4 rfl shapeCasts_S_S1x1,
    unary main_v0 main_v5 ((extractStridedSlice S4x32x128x128 ![0, 0, 0, 0] · slices_S32x32x128x128_S4x32x128x128_0_0_0_0) : (⟨S32x32x128x128, .f32⟩ : BufTy).Contents (Elt F) → (⟨S4x32x128x128, .f32⟩ : BufTy).Contents (Elt F)) ]

/-- After the SparseCore call: the first eight lanes of its row sums, flattened. -/
abbrev ops1 : List (HloOp τ sig (Elt F)) :=
  [ unary main_v6_1 main_v7 ((extractStridedSlice S4x1x16x8 ![0, 0, 0, 0] · slices_S4x1x16x16_S4x1x16x8_0_0_0_0) : (⟨S4x1x16x16, .f32⟩ : BufTy).Contents (Elt F) → (⟨S4x1x16x8, .f32⟩ : BufTy).Contents (Elt F)),
    reshape main_v7 main_v8 rfl shapeCasts_S4x1x16x8_S512 ]

/-- After the first TensorCore region: its row sums flattened, and its output copied into the merge's result buffer. -/
abbrev ops2 : List (HloOp τ sig (Elt F)) :=
  [ reshape main_v9_1 main_v10 rfl shapeCasts_S28x1x128_S3584,
    unary main_v9_0 main_v11 id ]

/-- After the merge: the two row-sum pieces joined, the output flattened. -/
abbrev ops3 : List (HloOp τ sig (Elt F)) :=
  [ binary main_v8 main_v10 main_v12 ((fun a b => concatenate S4096 0 [⟨S512, a⟩, ⟨S3584, b⟩] concatenates_S512_S3584_S4096_d0) : (⟨S512, .f32⟩ : BufTy).Contents (Elt F) → (⟨S3584, .f32⟩ : BufTy).Contents (Elt F) → (⟨S4096, .f32⟩ : BufTy).Contents (Elt F)),
    reshape main_v11 main_v13 rfl shapeCasts_S32x32x128x128_S16777216 ]

abbrev region0 : Prog (TpuEff nD τ sig (Elt F) (SparseCore.Sig (ΛP (F := F)) 1) .tc) PUnit :=
  Prog.lift (.customCall (SparseCore.inner (Pipeline.entry 0)) ())
abbrev region1 : Prog (TpuEff nD τ sig (Elt F) (SparseCore.Sig (ΛP (F := F)) 1) .tc) PUnit :=
  Prog.lift (.customCall (SparseCore.inner (Pipeline.entry 1)) ())

theorem main_eq (d : Dev nD) :
    main (F := F) d = (seq ops0 >>= fun _ => (sc (F := F)).run d 0 >>= fun _ => seq ops1 >>= fun _ => region0 >>= fun _ => seq ops2 >>= fun _ => region1 >>= fun _ => seq ops3) := rfl

end Cert.Proof.KI

end
-- ==== Proof.KI.Split.lean ====
/-
  How the SparseCore call's operands split among the sixteen tiles and gather back: the input and the output array
  are the disjoint union of the sixty-four boxes (tile `s`, round `r`), the row-sum array of the sixteen rows, and the
  pseudocount vector is dealt as sixteen read shares, the remainder waiting for their return.
-/
import proofs.«216181_g9861244912407_cont_9to1_m_1073_40_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-! ## The boxes tile the two big arrays -/

abbrev boxSet (t : Fin 16 × Fin 4) : Finset S4x32x128x128.Idx := tileSet t.1 t.2

theorem boxes_disjoint : ∀ t ∈ (Finset.univ : Finset (Fin 16 × Fin 4)), ∀ t' ∈ (Finset.univ : Finset (Fin 16 × Fin 4)), t ≠ t' → Disjoint (boxSet t) (boxSet t') := by
  rintro ⟨s, r⟩ - ⟨s', r'⟩ - h
  by_cases hr : r = r'
  · subst hr
    have hs : s.val ≠ s'.val := fun e => h (by rw [Fin.ext e])
    exact Rect.unit_disjoint (2 : Fin 4) (by show 8 * s.val + 8 ≤ 8 * s'.val ∨ 8 * s'.val + 8 ≤ 8 * s.val; omega)
  · have hr' : r.val ≠ r'.val := fun e => hr (Fin.ext e)
    exact Rect.unit_disjoint (0 : Fin 4) (by show r.val + 1 ≤ r'.val ∨ r'.val + 1 ≤ r.val; omega)

theorem boxes_cover : (Finset.univ : Finset (Fin 16 × Fin 4)).biUnion boxSet = Finset.univ := by
  ext i
  simp only [Finset.mem_biUnion, Finset.mem_univ, true_and, iff_true]
  have h0 : (i 0).val < 4 := (i 0).isLt
  have h1 : (i 1).val < 32 := (i 1).isLt
  have h2 : (i 2).val < 128 := (i 2).isLt
  have h3 : (i 3).val < 128 := (i 3).isLt
  refine ⟨(⟨(i 2).val / 8, by omega⟩, ⟨(i 0).val, h0⟩), Rect.mem_set_unit.mpr fun a => ?_⟩
  match a with
  | ⟨0, _⟩ => exact ⟨Nat.le_refl _, Nat.lt_succ_self _⟩
  | ⟨1, _⟩ => exact ⟨Nat.zero_le _, by show (i 1).val < 0 + 32; omega⟩
  | ⟨2, _⟩ => exact ⟨by show 8 * ((i 2).val / 8) ≤ (i 2).val; omega, by show (i 2).val < 8 * ((i 2).val / 8) + 8; omega⟩
  | ⟨3, _⟩ => exact ⟨Nat.zero_le _, by show (i 3).val < 0 + 128; omega⟩

theorem rows_disjoint : ∀ s ∈ (Finset.univ : Finset (Fin 16)), ∀ s' ∈ (Finset.univ : Finset (Fin 16)), s ≠ s' → Disjoint (rsSet s) (rsSet s') := by
  intro s _ s' _ h
  have hs : s.val ≠ s'.val := fun e => h (Fin.ext e)
  exact Rect.unit_disjoint (2 : Fin 4) (by show s.val + 1 ≤ s'.val ∨ s'.val + 1 ≤ s.val; omega)

theorem rows_cover : (Finset.univ : Finset (Fin 16)).biUnion rsSet = Finset.univ := by
  ext i
  simp only [Finset.mem_biUnion, Finset.mem_univ, true_and, iff_true]
  have h0 : (i 0).val < 4 := (i 0).isLt
  have h1 : (i 1).val < 1 := (i 1).isLt
  have h2 : (i 2).val < 16 := (i 2).isLt
  have h3 : (i 3).val < 16 := (i 3).isLt
  refine ⟨⟨(i 2).val, h2⟩, Rect.mem_set_unit.mpr fun a => ?_⟩
  match a with
  | ⟨0, _⟩ => exact ⟨Nat.zero_le _, by show (i 0).val < 0 + 4; omega⟩
  | ⟨1, _⟩ => exact ⟨Nat.zero_le _, by show (i 1).val < 0 + 1; omega⟩
  | ⟨2, _⟩ => exact ⟨Nat.le_refl _, Nat.lt_succ_self _⟩
  | ⟨3, _⟩ => exact ⟨Nat.zero_le _, by show (i 3).val < 0 + 16; omega⟩

/-! ## Whole arrays as their boxes -/

theorem in_boxes (d : Dev nD) (f : Buf (Elt F) (inLoc d)) :
    (inLoc d ↦{fullShare} f : sProp 𝕄) = bigSep Finset.univ fun s : Fin 16 => bigSep Finset.univ fun r : Fin 4 => inLoc d ↦[tileSet s r]{fullShare} f := by
  rw [← bigSep_univ_prod (fun t : Fin 16 × Fin 4 => (inLoc d ↦[tileSet t.1 t.2]{fullShare} f : sProp 𝕄)),
    ← pointsTo_biUnion Finset.univ (ℓ := inLoc d) boxSet boxes_disjoint, boxes_cover]; try rfl

theorem out_boxes (d : Dev nD) (f : Buf (Elt F) (outLoc d)) :
    (outLoc d ↦{fullShare} f : sProp 𝕄) = bigSep Finset.univ fun s : Fin 16 => bigSep Finset.univ fun r : Fin 4 => outLoc d ↦[tileSet s r]{fullShare} f := by
  rw [← bigSep_univ_prod (fun t : Fin 16 × Fin 4 => (outLoc d ↦[tileSet t.1 t.2]{fullShare} f : sProp 𝕄)),
    ← pointsTo_biUnion Finset.univ (ℓ := outLoc d) boxSet boxes_disjoint, boxes_cover]; try rfl

theorem rs_rows (d : Dev nD) (f : Buf (Elt F) (rsLoc d)) :
    (rsLoc d ↦{fullShare} f : sProp 𝕄) = bigSep Finset.univ fun s : Fin 16 => rsLoc d ↦[rsSet s]{fullShare} f := by
  rw [← pointsTo_biUnion Finset.univ (ℓ := rsLoc d) rsSet rows_disjoint, rows_cover]; try rfl

/-! ## The split -/

section VecSplit

variable [FloatOps F]
variable (vin : (d : Dev nD) → Buf (Elt F) (inLoc d)) (vpc : (d : Dev nD) → Buf (Elt F) (pcLoc d))

omit [FloatOps F] in
theorem bigSep_tasks [FloatOps F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixty-four output boxes, each at what it holds, are the output array at what it holds. -/
theorem out_join (d : Dev nD) :
    (bigSep Finset.univ fun s : Fin 16 => bigSep Finset.univ fun r : Fin 4 => iprop(∃ f, outLoc d ↦[tileSet s r]{fullShare} f))
      ⊢ (iprop(∃ f, outLoc d ↦{fullShare} f) : sProp 𝕄) := by
  rw [← bigSep_univ_prod (fun t : Fin 16 × Fin 4 => (iprop(∃ f, outLoc d ↦[tileSet t.1 t.2]{fullShare} f) : sProp 𝕄))]
  refine (bigSep_exists_pi Finset.univ (fun (t : Fin 16 × Fin 4) (f : Buf (Elt F) (outLoc d)) => (outLoc d ↦[tileSet t.1 t.2]{fullShare} f : sProp 𝕄))).trans ?_
  iintro ⟨%fs, H⟩
  ihave H' := (pointsTo_biUnion_join Finset.univ boxSet fs (fs (0, 0)) boxes_disjoint) $$ H
  icases H' with ⟨%g, -, Hg⟩
  rw [boxes_cover]
  iexists g; iexact Hg

/-- The sixteen rows of the row sums, each at what it holds, are the array at what it holds. -/
theorem rs_join (d : Dev nD) :
    (bigSep Finset.univ fun s : Fin 16 => iprop(∃ f, rsLoc d ↦[rsSet s]{fullShare} f)) ⊢ (iprop(∃ f, rsLoc d ↦{fullShare} f) : sProp 𝕄) := by
  refine (bigSep_exists_pi Finset.univ (fun (s : Fin 16) (f : Buf (Elt F) (rsLoc d)) => (rsLoc d ↦[rsSet s]{fullShare} f : sProp 𝕄))).trans ?_
  iintro ⟨%fs, H⟩
  ihave H' := (pointsTo_biUnion_join Finset.univ rsSet fs (fs 0) rows_disjoint) $$ H
  icases H' with ⟨%g, -, Hg⟩
  rw [rows_cover]
  iexists g; iexact Hg

omit [FloatOps F] in
theorem out_some (d : Dev nD) (fo : Buf (Elt F) (outLoc d)) :
    (bigSep Finset.univ fun s : Fin 16 => bigSep Finset.univ fun r : Fin 4 => (outLoc d ↦[tileSet s r]{fullShare} fo : sProp 𝕄))
      ⊢ bigSep Finset.univ fun s : Fin 16 => bigSep Finset.univ fun r : Fin 4 => (iprop(∃ f, outLoc d ↦[tileSet s r]{fullShare} f) : sProp 𝕄) :=
  bigSep_mono fun s _ => bigSep_mono fun r _ => exists_intro (Φ := fun f => (outLoc d ↦[tileSet s r]{fullShare} f : sProp 𝕄)) fo

omit [FloatOps F] in
theorem rs_some (d : Dev nD) (fr : Buf (Elt F) (rsLoc d)) :
    (bigSep Finset.univ fun s : Fin 16 => (rsLoc d ↦[rsSet s]{fullShare} fr : sProp 𝕄))
      ⊢ bigSep Finset.univ fun s : Fin 16 => (iprop(∃ f, rsLoc d ↦[rsSet s]{fullShare} f) : sProp 𝕄) :=
  bigSep_mono fun s _ => exists_intro (Φ := fun f => (rsLoc d ↦[rsSet s]{fullShare} f : sProp 𝕄)) fr

theorem vecSplit : (K (F := F)).VecSplit' (P vin vpc) 0 := by
  intro d c
  show callRes vin vpc d ⊢ |={Set.univ}=> iprop(
      (bigSep Finset.univ fun i : Fin ((K (F := F)).nSub 0) => tileRes vin vpc d (Fin.cast nSub_zero i))
      ∗ ((bigSep Finset.univ fun i : Fin ((K (F := F)).nSub 0) => tileRes vin vpc d (Fin.cast nSub_zero i)) -∗ callRes vin vpc d))
  rw [bigSep_tasks (F := F) (fun s => tileRes vin vpc d s)]
  unfold callRes tileRes
  rw [bigSep_sep', bigSep_sep', bigSep_sep']
  iintro ⟨Hin, Hpc, ⟨%fo, Hout⟩, ⟨%fr, Hrs⟩⟩
  ihave Hin' := (Entails.of_eq (in_boxes (F := F) d (vin d))) $$ Hin
  ihave Hout' := (Entails.of_eq (out_boxes (F := F) d fo)) $$ Hout
  ihave Hrs' := (Entails.of_eq (rs_rows (F := F) d fr)) $$ Hrs
  ihave Hpc' := (pointsTo_toks_split (ℓ := pcLoc d) (S := Finset.univ) (f := vpc d) fullShare 16) $$ Hpc
  icases Hpc' with ⟨Hdrop, Htoks⟩
  imodintro
  isplitl [Hin' Htoks Hout' Hrs']
  · isplitl [Hin']; · iexact Hin'
    isplitl [Htoks]; · iexact Htoks
    isplitl [Hout']
    · iapply (out_some (F := F) d fo); iexact Hout'
    · iapply (rs_some (F := F) d fr); iexact Hrs'
  iintro ⟨Hin, Htoks, Hout, Hrs⟩
  isplitl [Hin]; · iapply (Entails.of_eq (in_boxes (F := F) d (vin d)).symm); iexact Hin
  isplitl [Hdrop Htoks]
  · iapply (pointsTo_toks_join (ℓ := pcLoc d) (S := Finset.univ) (f := vpc d) fullShare 16)
    isplitl [Hdrop] <;> iassumption
  isplitl [Hout]; · iapply (out_join (F := F) d); iexact Hout
  iapply (rs_join (F := F) d); iexact Hrs

end VecSplit

end Cert.Proof.KI

end
-- ==== Proof.KI.Main.lean ====
/-
  @main on the TensorCore: the host lines by the straight-line rule over the nineteen arrays held as one set, the
  SparseCore call by the call rule (the four arrays of the call lent and taken back), the arguments untouched
  throughout.
-/
import proofs.«216181_g9861244912407_cont_9to1_m_1073_40_alg».proof.Proof.KI.MainOps
import proofs.«216181_g9861244912407_cont_9to1_m_1073_40_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-! ## The TensorCore's arrays as one held set -/

/-- @main's arrays: the TensorCore's references that are not scoped, as device buffers. -/
abbrev Sall : Finset (DevRef τ sig) :=
  (Finset.univ.filter fun b : Ref sig .tc => ¬ b.isScoped).map ⟨Proc.devRef (sig := sig) (.tc : Proc τ), Proc.devRef_injective _⟩

variable (m : (ℓ : Loc nD τ sig) → Buf (Elt F) ℓ) (ρ : Dev nD → PrngReg)

/-- The launch valuation of device `d`. -/
abbrev V0 (d : Dev nD) : Valuation τ sig (Elt F) := fun b => m (d, b)

omit [FloatOps F] in
theorem unscoped_held (d : Dev nD) : (unscopedBufs d (fun b => m ((SparseCore.T d).loc b)) : sProp 𝕄) = held (T d) Sall (V0 m d) := by
  unfold unscopedBufs held
  rw [bigSep_map]
  rfl

theorem ops0_sub : ∀ op ∈ (ops0 : List (HloOp τ sig (Elt F))), op.bufs ⊆ Sall := by
  intro op hop
  simp only [List.mem_cons, List.mem_nil_iff, or_false] at hop
  rcases hop with rfl | rfl | rfl | rfl | rfl | rfl <;> first | (rw [reshape_bufs]; decide) | (rw [unary_bufs]; decide)

theorem ops1_sub : ∀ op ∈ (ops1 : List (HloOp τ sig (Elt F))), op.bufs ⊆ Sall := by
  intro op hop
  simp only [List.mem_cons, List.mem_nil_iff, or_false] at hop
  rcases hop with rfl | rfl <;> first | (rw [reshape_bufs]; decide) | (rw [unary_bufs]; decide)
theorem ops2_sub : ∀ op ∈ (ops2 : List (HloOp τ sig (Elt F))), op.bufs ⊆ Sall := by
  intro op hop
  simp only [List.mem_cons, List.mem_nil_iff, or_false] at hop
  rcases hop with rfl | rfl <;> first | (rw [reshape_bufs]; decide) | (rw [unary_bufs]; decide)
theorem ops3_sub : ∀ op ∈ (ops3 : List (HloOp τ sig (Elt F))), op.bufs ⊆ Sall := by
  intro op hop
  simp only [List.mem_cons, List.mem_nil_iff, or_false] at hop
  rcases hop with rfl | rfl <;> first | (rw [reshape_bufs]; decide) | (rw [binary_bufs]; decide)
theorem ops0_fresh : ∀ op ∈ (ops0 : List (HloOp τ sig (Elt F))), op.fresh = ∅ := by
  intro op hop
  simp only [List.mem_cons, List.mem_nil_iff, or_false] at hop
  rcases hop with rfl | rfl | rfl | rfl | rfl | rfl <;> rfl
theorem ops1_fresh : ∀ op ∈ (ops1 : List (HloOp τ sig (Elt F))), op.fresh = ∅ := by
  intro op hop
  simp only [List.mem_cons, List.mem_nil_iff, or_false] at hop
  rcases hop with rfl | rfl <;> rfl
theorem ops2_fresh : ∀ op ∈ (ops2 : List (HloOp τ sig (Elt F))), op.fresh = ∅ := by
  intro op hop
  simp only [List.mem_cons, List.mem_nil_iff, or_false] at hop
  rcases hop with rfl | rfl <;> rfl
theorem ops3_fresh : ∀ op ∈ (ops3 : List (HloOp τ sig (Elt F))), op.fresh = ∅ := by
  intro op hop
  simp only [List.mem_cons, List.mem_nil_iff, or_false] at hop
  rcases hop with rfl | rfl <;> rfl

/-! ## The SparseCore call's four arrays -/

abbrev in' : DevRef τ sig := Proc.devRef .tc (main_v5 : Ref sig .tc)
abbrev pc' : DevRef τ sig := Proc.devRef .tc (main_v2 : Ref sig .tc)
abbrev out' : DevRef τ sig := Proc.devRef .tc (main_v6_0 : Ref sig .tc)
abbrev rs' : DevRef τ sig := Proc.devRef .tc (main_v6_1 : Ref sig .tc)
abbrev Scall : Finset (DevRef τ sig) := {in', pc', out', rs'}

theorem Scall_sub : Scall ⊆ Sall := by decide

omit [FloatOps F] in
theorem held_Scall (d : Dev nD) (W : Valuation τ sig (Elt F)) :
    (held (T d) Scall W : sProp 𝕄) = iprop((inLoc d ↦{fullShare} W in') ∗ (pcLoc d ↦{fullShare} W pc') ∗ (outLoc d ↦{fullShare} W out') ∗ (rsLoc d ↦{fullShare} W rs')) := by
  unfold held Scall
  rw [SparseCore.bigSep_insert' (by decide), SparseCore.bigSep_insert' (by decide), SparseCore.bigSep_insert' (by decide), bigSep_singleton]

omit [FloatOps F] in
theorem held_call_split (d : Dev nD) (W : Valuation τ sig (Elt F)) :
    (held (d.tc : Thread nD τ) Sall W : sProp 𝕄) = iprop(((inLoc d ↦{fullShare} W in') ∗ (pcLoc d ↦{fullShare} W pc') ∗ (outLoc d ↦{fullShare} W out') ∗ (rsLoc d ↦{fullShare} W rs')) ∗ held (d.tc : Thread nD τ) (Sall \ Scall) W) := by
  rw [held_sub_split (d.tc : Thread nD τ) Scall_sub W]; exact congrArg (fun X => iprop(X ∗ _)) (held_Scall d W)

/-- The valuation when the call is made, and the two arrays the call reads. -/
abbrev V1 (d : Dev nD) : Valuation τ sig (Elt F) := after ops0 (V0 m d)
abbrev vin (d : Dev nD) : Buf (Elt F) (inLoc d) := V1 m d in'
abbrev vpc (d : Dev nD) : Buf (Elt F) (pcLoc d) := V1 m d pc'
/-- After the call: the two results at what the call left. -/
def V2 (d : Dev nD) (fo : Buf (Elt F) (outLoc d)) (fr : Buf (Elt F) (rsLoc d)) : Valuation τ sig (Elt F) :=
  Function.update (Function.update (V1 m d) out' fo) rs' fr

theorem st0_eq (d : Dev nD) : (bigSep Finset.univ fun c : Fin ((K (F := F)).nCore 0) => (P (vin m) (vpc m)).st 0 d c) = callRes (vin m) (vpc m) d := by
  show (bigSep (Finset.univ : Finset (Fin 1)) fun _ => callRes (vin m) (vpc m) d) = _
  rw [show (Finset.univ : Finset (Fin 1)) = {0} by decide, bigSep_singleton]
theorem dn0_eq (d : Dev nD) : (bigSep Finset.univ fun c : Fin ((K (F := F)).nCore 0) => (P (vin m) (vpc m)).dn 0 d c) = callRes (vin m) (vpc m) d := by
  show (bigSep (Finset.univ : Finset (Fin 1)) fun _ => callRes (vin m) (vpc m) d) = _
  rw [show (Finset.univ : Finset (Fin 1)) = {0} by decide, bigSep_singleton]

/-- What @main leaves the claim: the three arguments at their launch contents. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev FIN (d : Dev nD) : sProp 𝕄 := iprop((a0Loc d ↦{fullShare} m (a0Loc d)) ∗ (a1Loc d ↦{fullShare} m (a1Loc d)) ∗ (a2Loc d ↦{fullShare} m (a2Loc d)))

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)

omit [FloatOps F] in
theorem hfin (d : Dev nD) (s' : Phys nD τ sig (Elt F)) : iprop(FIN m d ∗ SI s') ⊢ (⌜fq m d s'⌝ : sProp 𝕄) := by
  iintro ⟨⟨H0, H1, H2⟩, HSI⟩
  icombine HSI H0 gives %h0
  icombine HSI H1 gives %h1
  icombine HSI H2 gives %h2
  ipureintro
  exact ⟨funext fun i => h0 i (Finset.mem_univ i), funext fun i => h1 i (Finset.mem_univ i), funext fun i => h2 i (Finset.mem_univ i)⟩

abbrev ops0_W : List (Ref sig .tc) := [main_v0, main_v1, main_v2, main_v3, main_v4, main_v5]
theorem ops0_writes : (ops0 : List (HloOp τ sig (Elt F))).Forall fun op => op.writes ⊆ (ops0_W.map (Proc.devRef (τ := τ) .tc)).toFinset := by
  simp only [List.Forall]; exact (by simp only [StableHlo.unary_writes, StableHlo.reshape_writes, Finset.singleton_subset_iff, List.mem_toFinset]; refine ⟨?_, ?_, ?_, ?_, ?_, ?_⟩ <;> exact List.mem_map_of_mem (by decide))
theorem V1_of (d : Dev nD) (r : Ref sig .tc) (h : r ∉ ops0_W) : V1 m d (Proc.devRef .tc r) = V0 m d (Proc.devRef .tc r) :=
  StableHlo.after_of_writes_sub ops0 _ ops0_writes h

/-! ## Lending some of the arrays and taking them back -/

omit [FloatOps F] in
/-- The held set at `W'` is a subset at `W'` beside the rest at any `W` that agrees with `W'` there. -/
theorem held_upd (d : Dev nD) {T : Finset (DevRef τ sig)} (hT : T ⊆ Sall) (W W' : Valuation τ sig (Elt F)) (h : ∀ b ∈ Sall \ T, W' b = W b) :
    (held (d.tc : Thread nD τ) Sall W' : sProp 𝕄) = iprop(held (d.tc : Thread nD τ) T W' ∗ held (d.tc : Thread nD τ) (Sall \ T) W) := by
  rw [held_sub_split (d.tc : Thread nD τ) hT W', held_congr (d.tc : Thread nD τ) h]

/-- After the call: the two results at what the call left. -/
abbrev V2' (W : Valuation τ sig (Elt F)) (d : Dev nD) (fo : Buf (Elt F) (outLoc d)) (fr : Buf (Elt F) (rsLoc d)) : Valuation τ sig (Elt F) :=
  Function.update (Function.update W out' fo) rs' fr

omit [FloatOps F] in
theorem held_call_join (d : Dev nD) (W : Valuation τ sig (Elt F)) (fo : Buf (Elt F) (outLoc d)) (fr : Buf (Elt F) (rsLoc d)) :
    (iprop(((inLoc d ↦{fullShare} W in') ∗ (pcLoc d ↦{fullShare} W pc') ∗ (outLoc d ↦{fullShare} fo) ∗ (rsLoc d ↦{fullShare} fr)) ∗ held (d.tc : Thread nD τ) (Sall \ Scall) W) : sProp 𝕄)
      = held (d.tc : Thread nD τ) Sall (V2' W d fo fr) := by
  rw [held_upd d Scall_sub W (V2' W d fo fr) (fun b hb => by
    have hb' := (Finset.mem_sdiff.mp hb).2
    simp only [Scall, Finset.mem_insert, Finset.mem_singleton, not_or] at hb'
    rw [V2', Function.update_of_ne hb'.2.2.2, Function.update_of_ne hb'.2.2.1]), held_Scall]
  have e1 : V2' W d fo fr in' = W in' := by rw [V2', Function.update_of_ne (by decide), Function.update_of_ne (by decide)]
  have e2 : V2' W d fo fr pc' = W pc' := by rw [V2', Function.update_of_ne (by decide), Function.update_of_ne (by decide)]
  have e3 : V2' W d fo fr out' = fo := by rw [V2', Function.update_of_ne (by decide), Function.update_self]
  have e4 : V2' W d fo fr rs' = fr := by rw [V2', Function.update_self]
  rw [e1, e2, e3, e4]

/-! ## The two TensorCore regions' arrays -/

abbrev v4' : DevRef τ sig := Proc.devRef .tc (main_v4 : Ref sig .tc)
abbrev v0' : DevRef τ sig := Proc.devRef .tc (main_v0 : Ref sig .tc)
abbrev v90' : DevRef τ sig := Proc.devRef .tc (main_v9_0 : Ref sig .tc)
abbrev v91' : DevRef τ sig := Proc.devRef .tc (main_v9_1 : Ref sig .tc)
abbrev v11' : DevRef τ sig := Proc.devRef .tc (main_v11 : Ref sig .tc)
abbrev v4Loc (d : Dev nD) : Loc nD τ sig := (SparseCore.T d).loc main_v4
abbrev v0Loc (d : Dev nD) : Loc nD τ sig := (SparseCore.T d).loc main_v0
abbrev v90Loc (d : Dev nD) : Loc nD τ sig := (SparseCore.T d).loc main_v9_0
abbrev v91Loc (d : Dev nD) : Loc nD τ sig := (SparseCore.T d).loc main_v9_1
abbrev v11Loc (d : Dev nD) : Loc nD τ sig := (SparseCore.T d).loc main_v11
abbrev Sr0 : Finset (DevRef τ sig) := {v4', v0', v90', v91'}
abbrev Sr1 : Finset (DevRef τ sig) := {out', v11'}
theorem Sr0_sub : Sr0 ⊆ Sall := by decide
theorem Sr1_sub : Sr1 ⊆ Sall := by decide

omit [FloatOps F] in
theorem held_Sr0 (d : Dev nD) (W : Valuation τ sig (Elt F)) :
    (held (d.tc : Thread nD τ) Sr0 W : sProp 𝕄) = iprop((v4Loc d ↦{fullShare} W v4') ∗ (v0Loc d ↦{fullShare} W v0') ∗ (v90Loc d ↦{fullShare} W v90') ∗ (v91Loc d ↦{fullShare} W v91')) := by
  unfold held Sr0
  rw [SparseCore.bigSep_insert' (by decide), SparseCore.bigSep_insert' (by decide), SparseCore.bigSep_insert' (by decide), bigSep_singleton]
omit [FloatOps F] in
theorem held_Sr1 (d : Dev nD) (W : Valuation τ sig (Elt F)) :
    (held (d.tc : Thread nD τ) Sr1 W : sProp 𝕄) = iprop((outLoc d ↦{fullShare} W out') ∗ (v11Loc d ↦{fullShare} W v11')) := by
  unfold held Sr1
  rw [SparseCore.bigSep_insert' (by decide), bigSep_singleton]

omit [FloatOps F] in
theorem held_r0_split (d : Dev nD) (W : Valuation τ sig (Elt F)) :
    (held (d.tc : Thread nD τ) Sall W : sProp 𝕄) = iprop(((v4Loc d ↦{fullShare} W v4') ∗ (v0Loc d ↦{fullShare} W v0') ∗ (v90Loc d ↦{fullShare} W v90') ∗ (v91Loc d ↦{fullShare} W v91')) ∗ held (d.tc : Thread nD τ) (Sall \ Sr0) W) := by
  rw [held_sub_split (d.tc : Thread nD τ) Sr0_sub W]; exact congrArg (fun X => iprop(X ∗ _)) (held_Sr0 d W)
omit [FloatOps F] in
theorem held_r1_split (d : Dev nD) (W : Valuation τ sig (Elt F)) :
    (held (d.tc : Thread nD τ) Sall W : sProp 𝕄) = iprop(((outLoc d ↦{fullShare} W out') ∗ (v11Loc d ↦{fullShare} W v11')) ∗ held (d.tc : Thread nD τ) (Sall \ Sr1) W) := by
  rw [held_sub_split (d.tc : Thread nD τ) Sr1_sub W]; exact congrArg (fun X => iprop(X ∗ _)) (held_Sr1 d W)

abbrev V4' (W : Valuation τ sig (Elt F)) (d : Dev nD) (g0 : Buf (Elt F) (v90Loc d)) (g1 : Buf (Elt F) (v91Loc d)) : Valuation τ sig (Elt F) :=
  Function.update (Function.update W v90' g0) v91' g1
abbrev V6' (W : Valuation τ sig (Elt F)) (d : Dev nD) (g : Buf (Elt F) (v11Loc d)) : Valuation τ sig (Elt F) :=
  Function.update W v11' g

omit [FloatOps F] in
theorem held_r0_join (d : Dev nD) (W : Valuation τ sig (Elt F)) (g0 : Buf (Elt F) (v90Loc d)) (g1 : Buf (Elt F) (v91Loc d)) :
    (iprop(((v4Loc d ↦{fullShare} W v4') ∗ (v0Loc d ↦{fullShare} W v0') ∗ (v90Loc d ↦{fullShare} g0) ∗ (v91Loc d ↦{fullShare} g1)) ∗ held (d.tc : Thread nD τ) (Sall \ Sr0) W) : sProp 𝕄)
      = held (d.tc : Thread nD τ) Sall (V4' W d g0 g1) := by
  rw [held_upd d Sr0_sub W (V4' W d g0 g1) (fun b hb => by
    have hb' := (Finset.mem_sdiff.mp hb).2
    simp only [Sr0, Finset.mem_insert, Finset.mem_singleton, not_or] at hb'
    rw [V4', Function.update_of_ne hb'.2.2.2, Function.update_of_ne hb'.2.2.1]), held_Sr0]
  have e1 : V4' W d g0 g1 v4' = W v4' := by rw [V4', Function.update_of_ne (by decide), Function.update_of_ne (by decide)]
  have e2 : V4' W d g0 g1 v0' = W v0' := by rw [V4', Function.update_of_ne (by decide), Function.update_of_ne (by decide)]
  have e3 : V4' W d g0 g1 v90' = g0 := by rw [V4', Function.update_of_ne (by decide), Function.update_self]
  have e4 : V4' W d g0 g1 v91' = g1 := by rw [V4', Function.update_self]
  rw [e1, e2, e3, e4]

omit [FloatOps F] in
theorem held_r1_join (d : Dev nD) (W : Valuation τ sig (Elt F)) (g : Buf (Elt F) (v11Loc d)) :
    (iprop(((outLoc d ↦{fullShare} W out') ∗ (v11Loc d ↦{fullShare} g)) ∗ held (d.tc : Thread nD τ) (Sall \ Sr1) W) : sProp 𝕄)
      = held (d.tc : Thread nD τ) Sall (V6' W d g) := by
  rw [held_upd d Sr1_sub W (V6' W d g) (fun b hb => by
    have hb' := (Finset.mem_sdiff.mp hb).2
    simp only [Sr1, Finset.mem_insert, Finset.mem_singleton, not_or] at hb'
    rw [V6', Function.update_of_ne hb'.2]), held_Sr1]
  have e1 : V6' W d g out' = W out' := by rw [V6', Function.update_of_ne (by decide)]
  have e2 : V6' W d g v11' = g := by rw [V6', Function.update_self]
  rw [e1, e2]

/-! ## The arguments are never written -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev Sarg : Finset (DevRef τ sig) := {a0', a1', a2'}
theorem Sarg_sub : Sarg ⊆ Sall := by decide

omit [FloatOps F] in
theorem held_Sarg (d : Dev nD) (W : Valuation τ sig (Elt F)) :
    (held (d.tc : Thread nD τ) Sarg W : sProp 𝕄) = iprop((a0Loc d ↦{fullShare} W a0') ∗ (a1Loc d ↦{fullShare} W a1') ∗ (a2Loc d ↦{fullShare} W a2')) := by
  unfold held Sarg
  rw [SparseCore.bigSep_insert' (by decide), SparseCore.bigSep_insert' (by decide), bigSep_singleton]

/-- A valuation that still has the three arguments at their launch contents. -/
def Keeps (d : Dev nD) (W : Valuation τ sig (Elt F)) : Prop := W a0' = V0 m d a0' ∧ W a1' = V0 m d a1' ∧ W a2' = V0 m d a2'

abbrev ops1_W : List (Ref sig .tc) := [main_v7, main_v8]
abbrev ops2_W : List (Ref sig .tc) := [main_v10, main_v11]
abbrev ops3_W : List (Ref sig .tc) := [main_v12, main_v13]
theorem ops1_writes : (ops1 : List (HloOp τ sig (Elt F))).Forall fun op => op.writes ⊆ (ops1_W.map (Proc.devRef (τ := τ) .tc)).toFinset := by
  simp only [List.Forall]; exact (by simp only [StableHlo.unary_writes, StableHlo.reshape_writes, Finset.singleton_subset_iff, List.mem_toFinset]; refine ⟨?_, ?_⟩ <;> exact List.mem_map_of_mem (by decide))
theorem ops2_writes : (ops2 : List (HloOp τ sig (Elt F))).Forall fun op => op.writes ⊆ (ops2_W.map (Proc.devRef (τ := τ) .tc)).toFinset := by
  simp only [List.Forall]; exact (by simp only [StableHlo.unary_writes, StableHlo.reshape_writes, Finset.singleton_subset_iff, List.mem_toFinset]; refine ⟨?_, ?_⟩ <;> exact List.mem_map_of_mem (by decide))
theorem ops3_writes : (ops3 : List (HloOp τ sig (Elt F))).Forall fun op => op.writes ⊆ (ops3_W.map (Proc.devRef (τ := τ) .tc)).toFinset := by
  simp only [List.Forall]; exact (by simp only [StableHlo.binary_writes, StableHlo.reshape_writes, Finset.singleton_subset_iff, List.mem_toFinset]; refine ⟨?_, ?_⟩ <;> exact List.mem_map_of_mem (by decide))

theorem keeps_V0 (d : Dev nD) : Keeps m d (V0 m d) := ⟨rfl, rfl, rfl⟩
theorem keeps_after {d : Dev nD} {W : Valuation τ sig (Elt F)} (ops : List (HloOp τ sig (Elt F))) (Wl : List (Ref sig .tc))
    (hW : ops.Forall fun op => op.writes ⊆ (Wl.map (Proc.devRef (τ := τ) .tc)).toFinset)
    (h0 : main_arg0 ∉ Wl) (h1 : main_arg1 ∉ Wl) (h2 : main_arg2 ∉ Wl) (h : Keeps m d W) : Keeps m d (after ops W) :=
  ⟨(after_of_writes_sub ops W hW h0).trans h.1, (after_of_writes_sub ops W hW h1).trans h.2.1, (after_of_writes_sub ops W hW h2).trans h.2.2⟩
theorem keeps_update {d : Dev nD} {W : Valuation τ sig (Elt F)} (b : DevRef τ sig) (x : Buf (Elt F) (d, b)) (hb0 : a0' ≠ b) (hb1 : a1' ≠ b) (hb2 : a2' ≠ b)
    (h : Keeps m d W) : Keeps m d (Function.update W b x) :=
  ⟨(Function.update_of_ne hb0 _ _).trans h.1, (Function.update_of_ne hb1 _ _).trans h.2.1, (Function.update_of_ne hb2 _ _).trans h.2.2⟩

/-! ## @main -/

section Main

/-- What stepping over the first TensorCore region takes and gives: its four arrays in, the two results back at some
    contents, the TensorCore's debts untouched. -/
def Region0 (RG : Fin 2 → Dev nD → sProp 𝕄) : Prop :=
  ∀ (d : Dev nD) (b : ℕ) (O : CellTallies nD τ sig (HIx 1)) (_ : ∀ g, O g none = 0)
    (f4 : Buf (Elt F) (v4Loc d)) (f0 : Buf (Elt F) (v0Loc d)) (f90 : Buf (Elt F) (v90Loc d)) (f91 : Buf (Elt F) (v91Loc d))
    {α : Type} (k : PUnit → Prog (TpuEff nD τ sig (Elt F) (SparseCore.Sig (ΛP (F := F)) 1) .tc) α) (Φ : α → sProp 𝕄),
    iprop(levAts (K (F := F)).L (K (F := F)).lev ∗ boundary (T d) ∗ RG 0 d ∗ (∃ W, ⌜(K (F := F)).WBelow (T d) W b⌝ ∗ owes (T d) O W)
        ∗ (v4Loc d ↦{fullShare} f4) ∗ (v0Loc d ↦{fullShare} f0) ∗ (v90Loc d ↦{fullShare} f90) ∗ (v91Loc d ↦{fullShare} f91)
        ∗ (iprop(boundary (T d) ∗ (∃ W, ⌜(K (F := F)).WBelow (T d) W b⌝ ∗ owes (T d) O W) ∗ (v4Loc d ↦{fullShare} f4) ∗ (v0Loc d ↦{fullShare} f0)
              ∗ (∃ g, v90Loc d ↦{fullShare} g) ∗ (∃ g, v91Loc d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ (region0 >>= k) Φ

/-- The same for the merge region: the SparseCore call's output in, the merged array back at some contents. -/
def Region1 (RG : Fin 2 → Dev nD → sProp 𝕄) : Prop :=
  ∀ (d : Dev nD) (b : ℕ) (O : CellTallies nD τ sig (HIx 1)) (_ : ∀ g, O g none = 0)
    (f60 : Buf (Elt F) (outLoc d)) (f11 : Buf (Elt F) (v11Loc d))
    {α : Type} (k : PUnit → Prog (TpuEff nD τ sig (Elt F) (SparseCore.Sig (ΛP (F := F)) 1) .tc) α) (Φ : α → sProp 𝕄),
    iprop(levAts (K (F := F)).L (K (F := F)).lev ∗ boundary (T d) ∗ RG 1 d ∗ (∃ W, ⌜(K (F := F)).WBelow (T d) W b⌝ ∗ owes (T d) O W)
        ∗ (outLoc d ↦{fullShare} f60) ∗ (v11Loc d ↦{fullShare} f11)
        ∗ (iprop(boundary (T d) ∗ (∃ W, ⌜(K (F := F)).WBelow (T d) W b⌝ ∗ owes (T d) O W) ∗ (outLoc d ↦{fullShare} f60) ∗ (∃ g, v11Loc d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ (region1 >>= k) Φ

omit [FloatOps F] in
/-- The TensorCore's state between calls opens on what it owes. -/
theorem tcSt_owes [FloatOps F] (d : Dev nD) (n : ℕ) :
    ∃ R : sProp 𝕄, ((K (F := F)).tcSt EH d n : sProp 𝕄)
      = iprop((∃ W, ⌜(K (F := F)).WBelow (T d) W (8 * n)⌝ ∗ owes (T d) ((K (F := F)).Otc d n) W) ∗ R) := ⟨_, rfl⟩

theorem keeps_final (d : Dev nD) (fo : Buf (Elt F) (outLoc d)) (fr : Buf (Elt F) (rsLoc d)) (g90 : Buf (Elt F) (v90Loc d)) (g91 : Buf (Elt F) (v91Loc d)) (g11 : Buf (Elt F) (v11Loc d)) :
    Keeps m d (after ops3 (V6' (after ops2 (V4' (after ops1 (V2' (after ops0 (V0 m d)) d fo fr)) d g90 g91)) d g11)) :=
  keeps_after m ops3 ops3_W ops3_writes (by decide) (by decide) (by decide)
    (keeps_update m v11' g11 (by decide) (by decide) (by decide)
      (keeps_after m ops2 ops2_W ops2_writes (by decide) (by decide) (by decide)
        (keeps_update m v91' g91 (by decide) (by decide) (by decide)
          (keeps_update m v90' g90 (by decide) (by decide) (by decide)
            (keeps_after m ops1 ops1_W ops1_writes (by decide) (by decide) (by decide)
              (keeps_update m rs' fr (by decide) (by decide) (by decide)
                (keeps_update m out' fo (by decide) (by decide) (by decide)
                  (keeps_after m ops0 ops0_W ops0_writes (by decide) (by decide) (by decide) (keeps_V0 m d)))))))))

omit [FloatOps F] in
theorem fin_of_keeps (d : Dev nD) (W : Valuation τ sig (Elt F)) (h : Keeps m d W) : (held (d.tc : Thread nD τ) Sall W : sProp 𝕄) ⊢ FIN m d := by
  rw [held_sub_split (d.tc : Thread nD τ) Sarg_sub W, held_Sarg, h.1, h.2.1, h.2.2]; exact sep_elim_left

/-- @main with its last line followed by the return. -/
theorem main_eq' (d : Dev nD) :
    main (F := F) d = (seq ops0 >>= fun _ => (sc (F := F)).run d 0 >>= fun _ => seq ops1 >>= fun _ => region0 >>= fun _ => seq ops2 >>= fun _ => region1 >>= fun _ => seq ops3 >>= fun _ => pure ⟨⟩) := rfl

theorem hmain (RG : Fin 2 → Dev nD → sProp 𝕄) (hr0 : Region0 (F := F) RG) (hr1 : Region1 (F := F) RG) (κ : GSem nD τ sig → ℕ) (d : Dev nD) :
    iprop((K (F := F)).ctx EH (P (vin m) (vpc m)) κ ∗ (K (F := F)).tcSt EH d 0 ∗ (K (F := F)).tcRes m ρ d ∗ (RG 0 d ∗ RG 1 d))
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d ((0 : Fin 1).val + 1)
  have hO : ∀ g, (K (F := F)).Otc d ((0 : Fin 1).val + 1) g none = 0 := fun g => by rw [(K (F := F)).Otc_end d (n := (0 : Fin 1).val + 1) (Nat.le_refl 1)]; rfl
  unfold SparseCore.Cfg.tcRes
  rw [unscoped_held, main_eq']
  iintro ⟨#Hctx, Hst, ⟨Hb, Hheld, Hsems, Hprng⟩, HG0, HG1⟩
  iapply (wp_seq 𝒱 none Set.univ d Sall _ ops0 ops0_sub ops0_fresh (V0 m d)) $$ [Hb Hheld]
  · isplitl [Hb] <;> iassumption
  iintro ⟨Hb, Hheld⟩
  -- the SparseCore call: its four arrays lent and taken back
  ihave Hh := (Entails.of_eq (held_call_split (F := F) d (after ops0 (V0 m d)))) $$ Hheld
  icases Hh with ⟨⟨Hin, Hpc, Hout, Hrs⟩, Hrest⟩
  rw [wp_bind]
  iapply ((K (F := F)).wp_run (D (F := F)) 𝒱 (EH := EH) (P := P (vin m) (vpc m)) κ d 0) $$ [Hst Hin Hpc Hout Hrs Hb Hrest Hsems Hprng HG0 HG1]
  isplitr; · iexact Hctx
  isplitl [Hst]; · iexact Hst
  isplitl [Hin Hpc Hout Hrs]
  · rw [st0_eq]; unfold callRes
    isplitl [Hin]; · iexact Hin
    isplitl [Hpc]; · iexact Hpc
    isplitl [Hout]; · iexists _; iexact Hout
    iexists _; iexact Hrs
  iintro ⟨Hst, Hdn⟩
  ihave Hdn' := (Entails.of_eq ((dn0_eq m d).trans (by unfold callRes; rfl))) $$ Hdn
  icases Hdn' with ⟨Hin, Hpc, ⟨%fo, Hout⟩, ⟨%fr, Hrs⟩⟩
  ihave Hheld := (Entails.of_eq (held_call_join (F := F) d (after ops0 (V0 m d)) fo fr)) $$ [Hin Hpc Hout Hrs Hrest]
  · isplitl [Hin Hpc Hout Hrs]
    · isplitl [Hin]; · iexact Hin
      isplitl [Hpc]; · iexact Hpc
      isplitl [Hout] <;> iassumption
    · iexact Hrest
  -- the row sums' slice and reshape
  iapply (wp_seq 𝒱 none Set.univ d Sall _ ops1 ops1_sub ops1_fresh _) $$ [Hb Hheld]
  · isplitl [Hb] <;> iassumption
  iintro ⟨Hb, Hheld⟩
  -- the first TensorCore region: its four arrays lent, the two results taken back
  ihave Hh := (Entails.of_eq (held_r0_split (F := F) d _)) $$ Hheld
  icases Hh with ⟨⟨H4, H0, H90, H91⟩, Hrest⟩
  ihave #Hlev := ((K (F := F)).ctx_levAts (EH := EH) (P := P (vin m) (vpc m)) κ) $$ Hctx
  ihave Hst' := (Entails.of_eq hR) $$ Hst
  icases Hst' with ⟨Howes, HR⟩
  iapply (hr0 d (8 * ((0 : Fin 1).val + 1)) ((K (F := F)).Otc d ((0 : Fin 1).val + 1)) hO _ _ _ _ _ _) $$ [Hb HG0 Howes H4 H0 H90 H91 Hrest HR Hsems Hprng HG1]
  isplitr; · iexact Hlev
  isplitl [Hb]; · iexact Hb
  isplitl [HG0]; · iexact HG0
  isplitl [Howes]; · iexact Howes
  isplitl [H4]; · iexact H4
  isplitl [H0]; · iexact H0
  isplitl [H90]; · iexact H90
  isplitl [H91]; · iexact H91
  iintro ⟨Hb, Howes, H4, H0, ⟨%g90, H90⟩, ⟨%g91, H91⟩⟩
  ihave Hheld := (Entails.of_eq (held_r0_join (F := F) d _ g90 g91)) $$ [H4 H0 H90 H91 Hrest]
  · isplitl [H4 H0 H90 H91]
    · isplitl [H4]; · iexact H4
      isplitl [H0]; · iexact H0
      isplitl [H90] <;> iassumption
    · iexact Hrest
  -- the first region's row sums flattened, its output copied into the merge's buffer
  iapply (wp_seq 𝒱 none Set.univ d Sall _ ops2 ops2_sub ops2_fresh _) $$ [Hb Hheld]
  · isplitl [Hb] <;> iassumption
  iintro ⟨Hb, Hheld⟩
  -- the merge region: the SparseCore call's output lent, the merged array taken back
  ihave Hh := (Entails.of_eq (held_r1_split (F := F) d _)) $$ Hheld
  icases Hh with ⟨⟨H60, H11⟩, Hrest⟩
  iapply (hr1 d (8 * ((0 : Fin 1).val + 1)) ((K (F := F)).Otc d ((0 : Fin 1).val + 1)) hO _ _ _ _) $$ [Hb HG1 Howes H60 H11 Hrest HR Hsems Hprng]
  isplitr; · iexact Hlev
  isplitl [Hb]; · iexact Hb
  isplitl [HG1]; · iexact HG1
  isplitl [Howes]; · iexact Howes
  isplitl [H60]; · iexact H60
  isplitl [H11]; · iexact H11
  iintro ⟨Hb, Howes, H60, ⟨%g11, H11⟩⟩
  ihave Hheld := (Entails.of_eq (held_r1_join (F := F) d _ g11)) $$ [H60 H11 Hrest]
  · isplitl [H60 H11]
    · isplitl [H60] <;> iassumption
    · iexact Hrest
  -- the last line
  iapply (wp_seq 𝒱 none Set.univ d Sall _ ops3 ops3_sub ops3_fresh _) $$ [Hb Hheld]
  · isplitl [Hb] <;> iassumption
  iintro ⟨Hb, Hheld⟩
  rw [wp_pure]
  imodintro
  isplitl [Howes HR]
  · iapply (Entails.of_eq (hR.symm.trans (rfl : (K (F := F)).tcSt EH d ((0 : Fin 1).val + 1) = (K (F := F)).tcSt EH d 1)))
    isplitl [Howes] <;> iassumption
  · iapply (fin_of_keeps m d _ (keeps_final m d fo fr g90 g91 g11)); iexact Hheld

end Main

end Cert.Proof.KI

end
-- ==== Proof.KI.RegionsGhost.lean ====
/-
  The rounds component the two TensorCore pipelines' staging cells live in, beside the launch handshakes' and the
  transfer counters: its embedding, the launch element's share of it, and what the launch deals each device from it —
  per pipeline, its staging cells' launch ghost state and the duty tokens of the transfers its loop issues.
-/
import proofs.«216181_g9861244912407_cont_9to1_m_1073_40_alg».proof.Proof.KI.Common
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin)

variable {F : FTy → Type} [FloatOps F]

local notation "𝕄" => MT nD τ sig (HIx 1) (Elt F) ℕ UU ℕ

/-! ## The pipelines' rounds component -/

abbrev ER : Emb (UR sig nD τ) (MT nD τ sig (HIx 1) (Elt F) ℕ UU ℕ) :=
  (Emb.inl : Emb (UR sig nD τ) (UR sig nD τ × Counters)).trans embR

instance ER_landsIn : (ER : Emb (UR sig nD τ) 𝕄).LandsIn (upEmb : UEmb _ 𝕄) := by unfold ER embR; infer_instance

abbrev adm : (p : Fin 2) → (pcfgs (F := F) p).Adm := fun p => (cfgs p).toPCfg_adm

theorem hinj : Function.Injective (cellOf (nD := nD) (τ := τ) (pin (pcfgs (F := F)) adm)) := cellOf_inj

/-- The staging cells' ghost state and the duty tokens of pipeline `p` on device `d`. -/
def regionGhost (p : Fin 2) (d : Dev nD) : sProp 𝕄 :=
  iprop(Pipeline.cellsGhost (pin (pcfgs (F := F)) adm) ER p d ∗ Pipeline.toksInit (pin (pcfgs (F := F)) adm) ER p d)

abbrev uR : UR sig nD τ := initOf (Pipeline.cells (pin (pcfgs (F := F)) adm) hinj) (Pipeline.launchToks (pin (pcfgs (F := F)) adm) hinj)

theorem regions_fund : (BI.own (ER (F := F) (uR (F := F))) : sProp 𝕄) ⊢ iprop(|==> bigSep Finset.univ fun d : Dev nD => iprop(regionGhost (F := F) 0 d ∗ regionGhost (F := F) 1 d)) := by
  refine (Pipeline.fund_ghost (pin (pcfgs (F := F)) adm) ER hinj).trans (BI.bupd_mono ?_)
  rw [← bigSep_sep']
  refine Entails.of_eq (bigSep_congr fun d _ => ?_)
  rw [← bigSep_sep', bigSep_W2]; rfl

end Cert.Proof.KI

end
-- ==== Proof.KI.Launch.lean ====
/-
  The launch: the certificate's element of the ghost state dealt into the handshakes' rounds and the two pipelines'
  staging cells, and the launch theorem applied — every weakly fair execution of the TensorCore's @main, the sequencers
  and the sixteen tiles ends, faults nowhere, and leaves the three arguments as they were.
-/
import proofs.«216181_g9861244912407_cont_9to1_m_1073_40_alg».proof.Proof.KI.Main
import proofs.«216181_g9861244912407_cont_9to1_m_1073_40_alg».proof.Proof.KI.RegionsGhost

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-- The launch element: the handshakes' rounds, the pipelines' staging cells' rounds, no transfer counted yet. -/
def u₀ : UU := (initOf (K (F := F)).hsCells (K (F := F)).hsToks, (uR (F := F), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks))
        ∗ (bigSep Finset.univ fun d : Dev nD => iprop(regionGhost (F := F) 0 d ∗ regionGhost (F := F) 1 d))
        ∗ bigSep Finset.univ fun thr : Thread nD τ => bigSep Finset.univ fun q : Fin 1 => (P (vin m) (vpc m)).x q thr) := by
  unfold u₀
  iintro Hu
  ihave H := (ownU_pair _ _) $$ Hu
  icases H with ⟨HH, HR⟩
  ihave H2 := (own_pair_emb embR (uR (F := F)) (1 : Counters)) $$ HR
  icases H2 with ⟨HER, -⟩
  imod (regions_fund (F := F)) $$ HER with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the frame claims of the final memory. -/
def QC : PUnit × MemSt nD τ sig (Elt F) → Prop := fun r =>
  ∀ c : Dev nD, r.2.mem (a0Loc c) = m (a0Loc c) ∧ r.2.mem (a1Loc c) = m (a1Loc c) ∧ r.2.mem (a2Loc c) = m (a2Loc c)

theorem run_main [∀ e, Nonempty (Elt F e)]
    (htile : (K (F := F)).TileObl (D (F := F)) 𝒱 (P (vin m) (vpc m)) v₀ 0)
    (hr0 : Region0 (F := F) (regionGhost (F := F))) (hr1 : Region1 (F := F) (regionGhost (F := F))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (vin m) (vpc m)) facts v₀
    (fun q hq => match q with | 0 => nomatch hq)
    (fun q _ => match q with | 0 => htile)
    (fun q _ => match q with | 0 => SparseCore.Cfg.VecSplit.of_plain (vecSplit (vin m) (vpc m)))
    m ρ main (fun d => iprop(regionGhost (F := F) 0 d ∗ regionGhost (F := F) 1 d)) (FIN m) (u₀ (F := F)) (sep_elim_left.trans (hu₀ m))
    (hmain m ρ (regionGhost (F := F)) hr0 hr1) (fq m) (hfin m) (QC m) (fun _ h => h)

end Cert.Proof.KI

end
-- ==== Proof.KI.Trip.lean ====
/-
  One trip of the SparseCore kernel's round loop at a symbolic vector subcore and a symbolic trip, with what it needs:
  the boxes of the input and the output as the program slices them and their sets as the launch hands them out, the
  subcore's own semaphores and scratch buffers, the loop's invariant `inv`. Per scratch buffer a trip awaits the
  round's box, normalises it in place — sixteen counted loops whose invariant is the buffer at some contents — and
  copies it out; in the first trip (the printed condition holds exactly there) it awaits the two copies out and requests
  the boxes of the next two rounds, in the last it leaves the two copies out outstanding.
-/
import proofs.«216181_g9861244912407_cont_9to1_m_1073_40_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

/-! ## The tile's names -/

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
abbrev thrV (d : Dev nD) (L : grid0.Coords) : Thread nD τ := V d (cV L) (jV L)

local notation "inW" => (Memref.whole Cert.KernelIdeal.main_v5_scv : Memref Cert.KernelIdeal.sig Kind.scVector Space.hbm Cert.KernelIdeal.S4x32x128x128 EltTy.f32)
local notation "pcW" => (Memref.whole Cert.KernelIdeal.main_v2_scv : Memref Cert.KernelIdeal.sig Kind.scVector Space.hbm Cert.KernelIdeal.S16 EltTy.f32)
local notation "outW" => (Memref.whole Cert.KernelIdeal.main_v6_0_scv : Memref Cert.KernelIdeal.sig Kind.scVector Space.hbm Cert.KernelIdeal.S4x32x128x128 EltTy.f32)
local notation "rsW" => (Memref.whole Cert.KernelIdeal.main_v6_1_scv : Memref Cert.KernelIdeal.sig Kind.scVector Space.hbm Cert.KernelIdeal.S4x1x16x16 EltTy.f32)
local notation "bA" => (Memref.whole Cert.KernelIdeal.cc0_scratch0 : Memref Cert.KernelIdeal.sig Kind.scVector Space.vmem Cert.KernelIdeal.S32x8x128 EltTy.f32)
local notation "bB" => (Memref.whole Cert.KernelIdeal.cc0_scratch1 : Memref Cert.KernelIdeal.sig Kind.scVector Space.vmem Cert.KernelIdeal.S32x8x128 EltTy.f32)
local notation "bPc" => (Memref.whole Cert.KernelIdeal.cc0_scratch2 : Memref Cert.KernelIdeal.sig Kind.scVector Space.vmem Cert.KernelIdeal.S16 EltTy.f32)
local notation "bRs" => (Memref.whole Cert.KernelIdeal.cc0_scratch3 : Memref Cert.KernelIdeal.sig Kind.scVector Space.vmem Cert.KernelIdeal.S4x16 EltTy.f32)

abbrev cellOf (d : Dev nD) (L : grid0.Coords) (s : DmaSems sig S_) : GSem nD τ sig := (thrV d L, .dma s.sem)

omit [FloatOps F] in
theorem unit_congr {s : Shape} {o o' sz : Fin s.rank → Nat} (h : ∀ a, o a + sz a ≤ s.size a) (h' : ∀ a, o' a + sz a ≤ s.size a) (e : o = o') :
    Rect.unit (s := s) o sz h = Rect.unit (s := s) o' sz h' := by subst e; rfl

omit [FloatOps F] in
theorem L0_zero (L : grid0.Coords) : (L 0).val = 0 := Nat.lt_one_iff.mp (show (L 0).val < 1 from (L 0).isLt)

/-- A `[1, 32, 8, 128]` box of an HBM array at the offsets `o`, squeezed, as the program slices it. -/
abbrev slc (m : Memref sig .scVector .hbm S4x32x128x128 .f32) (o : Fin 4 → Nat) (h : ∀ a, o a + S1x32x8x128.size a ≤ S4x32x128x128.size a) :
    Memref sig .scVector .hbm S32x8x128 .f32 :=
  (m.slice (Rect.unit (s := S4x32x128x128) o S1x32x8x128.size h) (fun _ => rfl)).squeeze S32x8x128 squeezes_S1x32x8x128_S32x8x128

omit [FloatOps F] in
theorem set_slc_in (o : Fin 4 → Nat) (h : ∀ a, o a + S1x32x8x128.size a ≤ S4x32x128x128.size a) (s : Fin 16) (r : Fin 4)
    (e : o = ![r.val, 0, 8 * s.val, 0]) : (slc inW o h).view.set = tileSet s r := by
  show (((inW).view.slice (Rect.unit (s := S4x32x128x128) o S1x32x8x128.size h)).reshape S32x8x128 squeezes_S1x32x8x128_S32x8x128.numel_eq).set = (tileRect s r).set
  rw [View.set_reshape]
  exact (View.set_slice_whole _ _).trans (congrArg (fun R : Rect S4x32x128x128 => R.set) (unit_congr _ _ e))
omit [FloatOps F] in
theorem set_slc_out (o : Fin 4 → Nat) (h : ∀ a, o a + S1x32x8x128.size a ≤ S4x32x128x128.size a) (s : Fin 16) (r : Fin 4)
    (e : o = ![r.val, 0, 8 * s.val, 0]) : (slc outW o h).view.set = tileSet s r := by
  show (((outW).view.slice (Rect.unit (s := S4x32x128x128) o S1x32x8x128.size h)).reshape S32x8x128 squeezes_S1x32x8x128_S32x8x128.numel_eq).set = (tileRect s r).set
  rw [View.set_reshape]
  exact (View.set_slice_whole _ _).trans (congrArg (fun R : Rect S4x32x128x128 => R.set) (unit_congr _ _ e))

/-- The two rounds of trip `k`, and the other trip. -/
abbrev r0 (k : Fin k0_t1_loop.trips) : Fin 4 := ⟨2 * k.val, by have h : k.val < 2 := k.isLt; omega⟩
abbrev r1 (k : Fin k0_t1_loop.trips) : Fin 4 := ⟨2 * k.val + 1, by have h : k.val < 2 := k.isLt; omega⟩
abbrev oth (k : Fin k0_t1_loop.trips) : Fin k0_t1_loop.trips := ⟨1 - k.val, show 1 - k.val < 2 by omega⟩

omit [FloatOps F] in
theorem off1_eq (L : grid0.Coords) (r : Fin 4) : k0_off1 L (BitVec.ofNat 32 r.val) = ![r.val, 0, 8 * (jL L).val, 0] := by
  rw [k0_off1_eq, L0_zero]; rfl
omit [FloatOps F] in
theorem off2_eq (L : grid0.Coords) (k : Fin k0_t1_loop.trips) : k0_off2 L k = ![(r0 k).val, 0, 8 * (jL L).val, 0] := by
  rw [k0_off2_eq, L0_zero]; rfl
omit [FloatOps F] in
theorem off132_eq (L : grid0.Coords) (k : Fin k0_t1_loop.trips) : k0_off132 L k = ![(r1 k).val, 0, 8 * (jL L).val, 0] := by
  rw [k0_off132_eq, L0_zero]; rfl

omit [FloatOps F] in
theorem cond_zero : ∀ k : Fin k0_t1_loop.trips, k0_cond1 k = 1#1 → k = ⟨0, by decide⟩ := by decide
omit [FloatOps F] in
theorem cond_one : ∀ k : Fin k0_t1_loop.trips, ¬ k0_cond1 k = 1#1 → k = ⟨1, by decide⟩ := by decide
omit [FloatOps F] in
theorem off263_eq (L : grid0.Coords) (k : Fin k0_t1_loop.trips) (hc : k0_cond1 k = 1#1) :
    k0_off263 L k 2#32 = ![(r0 (oth k)).val, 0, 8 * (jL L).val, 0] := by
  obtain rfl := cond_zero k hc
  rw [show (2#32 : BitVec 32) = BitVec.ofNat 32 (1 + (1 : Fin 2).val) from rfl, k0_off263_eq, L0_zero]; rfl
omit [FloatOps F] in
theorem off264_eq (L : grid0.Coords) (k : Fin k0_t1_loop.trips) (hc : k0_cond1 k = 1#1) :
    k0_off264 L k = ![(r1 (oth k)).val, 0, 8 * (jL L).val, 0] := by
  obtain rfl := cond_zero k hc
  rw [k0_off264_eq, L0_zero]; rfl

/-- The tile's row of the row sums, as the program slices it. -/
abbrev rsSl (L : grid0.Coords) : Memref sig .scVector .hbm S4x16 .f32 :=
  ((rsW).slice (Rect.unit (s := S4x1x16x16) (k0_off265 L) S4x1x1x16.size (k0_off265_inb L)) (fun _ => rfl)).squeeze S4x16 squeezes_S4x1x1x16_S4x16
omit [FloatOps F] in
theorem off265_eq (L : grid0.Coords) : k0_off265 L = ![0, 0, (jL L).val, 0] := by
  rw [k0_off265_eq, L0_zero]; rfl
omit [FloatOps F] in
theorem set_rsSl (L : grid0.Coords) : (rsSl L).view.set = rsSet (jL L) := by
  show (((rsW).view.slice (Rect.unit (s := S4x1x16x16) (k0_off265 L) S4x1x1x16.size (k0_off265_inb L))).reshape S4x16 squeezes_S4x1x1x16_S4x16.numel_eq).set = (rsRect (jL L)).set
  rw [View.set_reshape]
  exact (View.set_slice_whole _ _).trans (congrArg (fun R : Rect S4x1x16x16 => R.set) (unit_congr _ _ (off265_eq L)))

section Tile
variable (vin : (d : Dev nD) → Buf (Elt F) (inLoc d)) (vpc : (d : Dev nD) → Buf (Elt F) (pcLoc d))
variable (d : Dev nD) (L : grid0.Coords)

omit [FloatOps F] in
theorem cell_ne {s s' : DmaSems sig S_} (h : s.sem ≠ s'.sem) : cellOf d L s ≠ cellOf d L s' :=
  fun e => h (SemLoc.dma.inj (Prod.mk.inj e).2)
omit [FloatOps F] in
theorem cell_mem (s : DmaSems sig S_) (h : (SemLoc.dma s.sem : SemLoc sig).isScoped .scVector = true) : cellOf d L s ∈ ownCells (thrV d L) :=
  (mem_ownCells (g := cellOf d L s)).mpr ⟨rfl, h⟩

omit [FloatOps F] in
theorem ownSems0_V :
    (ownSems0 (thrV d L) : sProp 𝕄)
      = iprop(semVal (cellOf d L cc0_scratch4) 0 ∗ semVal (cellOf d L cc0_scratch5) 0 ∗ semVal (cellOf d L cc0_scratch6) 0
          ∗ semVal (cellOf d L cc0_scratch7) 0 ∗ semVal (cellOf d L cc0_scoped0) 0 ∗ semVal (cellOf d L cc0_scoped1) 0
          ∗ bigSep ((((((((ownCells (thrV d L)).erase (cellOf d L cc0_scratch4)).erase (cellOf d L cc0_scratch5)).erase (cellOf d L cc0_scratch6)).erase
              (cellOf d L cc0_scratch7)).erase (cellOf d L cc0_scoped0)).erase (cellOf d L cc0_scoped1)))
              fun g => semVal g 0) := by
  unfold SparseCore.Cfg.ownSems0
  rw [SparseCore.bigSep_erase' (cell_mem d L cc0_scratch4 (by decide)),
    SparseCore.bigSep_erase' (Finset.mem_erase.mpr ⟨cell_ne d L (show (cc0_scratch5 : DmaSems sig S_).sem ≠ (cc0_scratch4 : DmaSems sig S_).sem by decide), cell_mem d L cc0_scratch5 (by decide)⟩),
    SparseCore.bigSep_erase' (Finset.mem_erase.mpr ⟨cell_ne d L (show (cc0_scratch6 : DmaSems sig S_).sem ≠ (cc0_scratch5 : DmaSems sig S_).sem by decide), Finset.mem_erase.mpr ⟨cell_ne d L (show (cc0_scratch6 : DmaSems sig S_).sem ≠ (cc0_scratch4 : DmaSems sig S_).sem by decide), cell_mem d L cc0_scratch6 (by decide)⟩⟩),
    SparseCore.bigSep_erase' (Finset.mem_erase.mpr ⟨cell_ne d L (show (cc0_scratch7 : DmaSems sig S_).sem ≠ (cc0_scratch6 : DmaSems sig S_).sem by decide), Finset.mem_erase.mpr ⟨cell_ne d L (show (cc0_scratch7 : DmaSems sig S_).sem ≠ (cc0_scratch5 : DmaSems sig S_).sem by decide), Finset.mem_erase.mpr ⟨cell_ne d L (show (cc0_scratch7 : DmaSems sig S_).sem ≠ (cc0_scratch4 : DmaSems sig S_).sem by decide), cell_mem d L cc0_scratch7 (by decide)⟩⟩⟩),
    SparseCore.bigSep_erase' (Finset.mem_erase.mpr ⟨cell_ne d L (show (cc0_scoped0 : DmaSems sig S_).sem ≠ (cc0_scratch7 : DmaSems sig S_).sem by decide), Finset.mem_erase.mpr ⟨cell_ne d L (show (cc0_scoped0 : DmaSems sig S_).sem ≠ (cc0_scratch6 : DmaSems sig S_).sem by decide), Finset.mem_erase.mpr ⟨cell_ne d L (show (cc0_scoped0 : DmaSems sig S_).sem ≠ (cc0_scratch5 : DmaSems sig S_).sem by decide), Finset.mem_erase.mpr ⟨cell_ne d L (show (cc0_scoped0 : DmaSems sig S_).sem ≠ (cc0_scratch4 : DmaSems sig S_).sem by decide), cell_mem d L cc0_scoped0 (by decide)⟩⟩⟩⟩),
    SparseCore.bigSep_erase' (Finset.mem_erase.mpr ⟨cell_ne d L (show (cc0_scoped1 : DmaSems sig S_).sem ≠ (cc0_scoped0 : DmaSems sig S_).sem by decide), Finset.mem_erase.mpr ⟨cell_ne d L (show (cc0_scoped1 : DmaSems sig S_).sem ≠ (cc0_scratch7 : DmaSems sig S_).sem by decide), Finset.mem_erase.mpr ⟨cell_ne d L (show (cc0_scoped1 : DmaSems sig S_).sem ≠ (cc0_scratch6 : DmaSems sig S_).sem by decide), Finset.mem_erase.mpr ⟨cell_ne d L (show (cc0_scoped1 : DmaSems sig S_).sem ≠ (cc0_scratch5 : DmaSems sig S_).sem by decide), Finset.mem_erase.mpr ⟨cell_ne d L (show (cc0_scoped1 : DmaSems sig S_).sem ≠ (cc0_scratch4 : DmaSems sig S_).sem by decide), cell_mem d L cc0_scoped1 (by decide)⟩⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

omit [FloatOps F] in
theorem pts_in (o : Fin 4 → Nat) (h : ∀ a, o a + S1x32x8x128.size a ≤ S4x32x128x128.size a) (r : Fin 4)
    (e : o = ![r.val, 0, 8 * (jL L).val, 0]) (f : Buf (Elt F) (inLoc d)) :
    ((slc inW o h).view.loc (thrV d L) ↦[(slc inW o h).view.set]{fullShare} f : sProp 𝕄) = inLoc d ↦[tileSet (jL L) r]{fullShare} f := by
  rw [set_slc_in o h (jL L) r e]
omit [FloatOps F] in
theorem pts_out (o : Fin 4 → Nat) (h : ∀ a, o a + S1x32x8x128.size a ≤ S4x32x128x128.size a) (r : Fin 4)
    (e : o = ![r.val, 0, 8 * (jL L).val, 0]) (f : Buf (Elt F) (outLoc d)) :
    ((slc outW o h).view.loc (thrV d L) ↦[(slc outW o h).view.set]{fullShare} f : sProp 𝕄) = outLoc d ↦[tileSet (jL L) r]{fullShare} f := by
  rw [set_slc_out o h (jL L) r e]
omit [FloatOps F] in
theorem pts_pc (q : PosShare TreeShare) (f : Buf (Elt F) (pcLoc d)) :
    ((pcW).view.loc (thrV d L) ↦{q} f : sProp 𝕄) = pcLoc d ↦{q} f := rfl
omit [FloatOps F] in
theorem pts_bA (f : Buf (Elt F) ((thrV d L).loc cc0_scratch0)) :
    ((bA).view.loc (thrV d L) ↦{fullShare} f : sProp 𝕄) = (thrV d L).loc cc0_scratch0 ↦{fullShare} f := rfl
omit [FloatOps F] in
theorem pts_bB (f : Buf (Elt F) ((thrV d L).loc cc0_scratch1)) :
    ((bB).view.loc (thrV d L) ↦{fullShare} f : sProp 𝕄) = (thrV d L).loc cc0_scratch1 ↦{fullShare} f := rfl
omit [FloatOps F] in
theorem pts_bPc (f : Buf (Elt F) ((thrV d L).loc cc0_scratch2)) :
    ((bPc).view.loc (thrV d L) ↦{fullShare} f : sProp 𝕄) = (thrV d L).loc cc0_scratch2 ↦{fullShare} f := rfl
omit [FloatOps F] in
theorem pts_bRs (f : Buf (Elt F) ((thrV d L).loc cc0_scratch3)) :
    ((bRs).view.loc (thrV d L) ↦{fullShare} f : sProp 𝕄) = (thrV d L).loc cc0_scratch3 ↦{fullShare} f := rfl

/-! ## The outer loop's invariant -/

/-- A copy into the scratch buffer `b` from round `r`'s input box, outstanding on `sm`. -/
def FlIn (sm : DmaSems sig S_) (b : Ref sig .scVector) (r : Fin 4) : sProp 𝕄 :=
  Transfers.Flight countersEmb (thrV d L) (SemLoc.dma sm.sem) (default : HIx 1) 1048576
    iprop((∃ f, (Memref.whole b).view.loc (thrV d L) ↦{fullShare} f) ∗ inLoc d ↦[tileSet (jL L) r]{fullShare} vin d)
/-- A copy out of the scratch buffer `b` into round `r`'s output box, outstanding on `sm`. -/
def FlOut (sm : DmaSems sig S_) (b : Ref sig .scVector) (r : Fin 4) : sProp 𝕄 :=
  iprop(∃ fs, Transfers.Flight countersEmb (thrV d L) (SemLoc.dma sm.sem) (default : HIx 1) 1048576
    iprop((∃ f, outLoc d ↦[tileSet (jL L) r]{fullShare} f) ∗ (Memref.whole b).view.loc (thrV d L) ↦{fullShare} fs))

def Shared (O : CellTallies nD τ sig (HIx 1)) (W : Waits sig (HIx 1)) : sProp 𝕄 :=
  iprop(Transfers.MayWaits (thrV d L) (none : HIx 1) O
    ∗ ((pcW).view.loc (thrV d L) ↦{shareTok fullShare 16 (jL L)} vpc d)
    ∗ (∃ f, (thrV d L).loc cc0_scratch2 ↦{fullShare} f) ∗ (∃ f, (thrV d L).loc cc0_scratch3 ↦{fullShare} f)
    ∗ ∃ W', ⌜∀ p ∈ W', p ∈ W ∨ p.2 = none⌝ ∗ owes (thrV d L) O W')

/-- Before trip `k`: the two input copies of its rounds outstanding, the output semaphores idle, every other box held. -/
def Pre (k : Fin k0_t1_loop.trips) : sProp 𝕄 :=
  iprop(FlIn vin d L cc0_scratch4 cc0_scratch0 (r0 k) ∗ FlIn vin d L cc0_scratch5 cc0_scratch1 (r1 k)
    ∗ semVal (cellOf d L cc0_scratch6) 0 ∗ semVal (cellOf d L cc0_scratch7) 0
    ∗ (inLoc d ↦[tileSet (jL L) (r0 (oth k))]{fullShare} vin d) ∗ (inLoc d ↦[tileSet (jL L) (r1 (oth k))]{fullShare} vin d)
    ∗ (∃ f, outLoc d ↦[tileSet (jL L) (r0 k)]{fullShare} f) ∗ (∃ f, outLoc d ↦[tileSet (jL L) (r1 k)]{fullShare} f)
    ∗ (∃ f, outLoc d ↦[tileSet (jL L) (r0 (oth k))]{fullShare} f) ∗ (∃ f, outLoc d ↦[tileSet (jL L) (r1 (oth k))]{fullShare} f))

/-- After the last trip: the two output copies of the last rounds outstanding, the input semaphores idle. -/
def Post : sProp 𝕄 :=
  iprop(semVal (cellOf d L cc0_scratch4) 0 ∗ semVal (cellOf d L cc0_scratch5) 0
    ∗ FlOut d L cc0_scratch6 cc0_scratch0 2 ∗ FlOut d L cc0_scratch7 cc0_scratch1 3
    ∗ (inLoc d ↦[tileSet (jL L) 0]{fullShare} vin d) ∗ (inLoc d ↦[tileSet (jL L) 1]{fullShare} vin d)
    ∗ (inLoc d ↦[tileSet (jL L) 2]{fullShare} vin d) ∗ (inLoc d ↦[tileSet (jL L) 3]{fullShare} vin d)
    ∗ (∃ f, outLoc d ↦[tileSet (jL L) 0]{fullShare} f) ∗ (∃ f, outLoc d ↦[tileSet (jL L) 1]{fullShare} f))

def inv (O : CellTallies nD τ sig (HIx 1)) (W : Waits sig (HIx 1)) (k : ℕ) (_ : Unit) : sProp 𝕄 :=
  iprop(Shared vpc d L O W ∗ if h : k < k0_t1_loop.trips then Pre vin d L ⟨k, h⟩ else Post vin d L)

omit [FloatOps F] in
theorem pts_own (b : Ref sig .scVector) (f : Buf (Elt F) ((Memref.whole b).view.loc (thrV d L))) :
    ((Memref.whole b).view.loc (thrV d L) ↦[(Memref.whole b).view.set]{fullShare} f : sProp 𝕄) = (Memref.whole b).view.loc (thrV d L) ↦{fullShare} f := by
  rw [show (Memref.whole b).view.set = Finset.univ from View.set_whole b]

theorem flIn_intro (sm : DmaSems sig S_) (b : Ref sig .scVector) (o : Fin 4 → Nat) (h : ∀ a, o a + S1x32x8x128.size a ≤ S4x32x128x128.size a) (r : Fin 4)
    (e : o = ![r.val, 0, 8 * (jL L).val, 0]) (fd : Buf (Elt F) ((Memref.whole b).view.loc (thrV d L))) :
    (Transfers.Flight countersEmb (thrV d L) (SemLoc.dma sm.sem) (default : HIx 1) 1048576
      iprop(((Memref.whole b).view.loc (thrV d L) ↦[(Memref.whole b).view.set]{fullShare} fd)
        ∗ (slc inW o h).view.loc (thrV d L) ↦[(slc inW o h).view.set]{fullShare} vin d) : sProp 𝕄) ⊢ FlIn vin d L sm b r := by
  unfold FlIn
  rw [pts_own, pts_in d L o h r e]
  refine Transfers.Flight_mono (countersEmb : UEmb Counters 𝕄) (thrV d L) ?_
  iintro ⟨Hd, Hs⟩
  isplitl [Hd]; · iexists _; iexact Hd
  iexact Hs

theorem flOut_intro (sm : DmaSems sig S_) (b : Ref sig .scVector) (o : Fin 4 → Nat) (h : ∀ a, o a + S1x32x8x128.size a ≤ S4x32x128x128.size a) (r : Fin 4)
    (e : o = ![r.val, 0, 8 * (jL L).val, 0]) (fd : Buf (Elt F) (outLoc d)) (fs : Buf (Elt F) ((Memref.whole b).view.loc (thrV d L))) :
    (Transfers.Flight countersEmb (thrV d L) (SemLoc.dma sm.sem) (default : HIx 1) 1048576
      iprop(((slc outW o h).view.loc (thrV d L) ↦[(slc outW o h).view.set]{fullShare} fd)
        ∗ (Memref.whole b).view.loc (thrV d L) ↦[(Memref.whole b).view.set]{fullShare} fs) : sProp 𝕄) ⊢ FlOut d L sm b r := by
  unfold FlOut
  rw [pts_own, pts_out d L o h r e]
  iintro H
  iexists fs
  iapply (Transfers.Flight_mono (countersEmb : UEmb Counters 𝕄) (thrV d L) ?_) $$ H
  iintro ⟨Hd, Hs⟩
  isplitl [Hd]; · iexists _; iexact Hd
  iexact Hs

omit [FloatOps F] in
theorem owes_none {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

theorem inv_enter (O : CellTallies nD τ sig (HIx 1)) (W : Waits sig (HIx 1)) (n : ℕ) (hn : n < k0_t1_loop.trips) (u : Unit) :
    inv vin vpc d L O W n u = iprop(Shared vpc d L O W ∗ Pre vin d L ⟨n, hn⟩) := by
  unfold inv; rw [dif_pos hn]
theorem inv_exit (O : CellTallies nD τ sig (HIx 1)) (W : Waits sig (HIx 1)) (n : ℕ) (hn : ¬ n < k0_t1_loop.trips) (u : Unit) :
    inv vin vpc d L O W n u = iprop(Shared vpc d L O W ∗ Post vin d L) := by
  unfold inv; rw [dif_neg hn]

omit [FloatOps F] in
theorem pts_rs (f : Buf (Elt F) (rsLoc d)) :
    ((rsSl L).view.loc (thrV d L) ↦[(rsSl L).view.set]{fullShare} f : sProp 𝕄) = rsLoc d ↦[rsSet (jL L)]{fullShare} f := by
  rw [set_rsSl]
omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

set_option hygiene false in
/-- One of the compute's counted loops over the first scratch buffer, held as `HA`: its invariant is the buffer at some contents. -/
macro "loopA" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩
  sl_exec))
set_option hygiene false in
/-- The last loop over the first buffer before it is copied out: the run resumes once the buffer is held by its own elements. -/
macro "loopA_last" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩))
set_option hygiene false in
/-- The same over the second scratch buffer, held as `HB`. -/
macro "loopB" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩
  sl_exec))
set_option hygiene false in
macro "loopB_last" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩))

set_option maxHeartbeats 1000000 in
theorem trip (arg0 : BitVec 32) (v1 : Vec F S16 .f32) (v5 : IVec S16 32) (O : CellTallies nD τ sig (HIx 1)) (W : Waits sig (HIx 1))
    (k : Fin k0_t1_loop.trips) :
    inv vin vpc d L O W k.val ⟨⟩
      ⊢ wp frame (wpE (defs₀ (F := F)) 𝒱₀ (thrV d L) none) Set.univ
          (k0_t1_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1 arg0 v1 v5 k ⟨⟩)
          fun _ => inv vin vpc d L O W (k.val + 1) ⟨⟩ := by
  unfold k0_t1_body
  rw [inv_enter vin vpc d L O W k.val k.isLt]
  unfold Shared Pre FlIn
  iintro ⟨⟨Hmw, Hpc, ⟨%fP, HP⟩, ⟨%fR, HR⟩, %W', %hW', HO⟩, Hs4, Hs5, Hs6, Hs7, Hi2, Hi3, ⟨%fo0, Ho0⟩, ⟨%fo1, Ho1⟩, Ho2, Ho3⟩
  ihave HP' := (Entails.of_eq (pts_bPc (F := F) d L _).symm) $$ HP
  ihave HR' := (Entails.of_eq (pts_bRs (F := F) d L _).symm) $$ HR
  ihave Ho0' := (Entails.of_eq (pts_out (F := F) d L (k0_off2 L k) (k0_off2_inb L k) (r0 k) (off2_eq L k) _).symm) $$ Ho0
  ihave Ho1' := (Entails.of_eq (pts_out (F := F) d L (k0_off132 L k) (k0_off132_inb L k) (r1 k) (off132_eq L k) _).symm) $$ Ho1
  sl_exec
  icases Hs4_dst with ⟨%fA, HA⟩
  loopA
  loopA
  loopA
  loopA
  loopA
  loopA
  loopA
  loopA
  loopA
  loopA
  loopA
  loopA
  loopA
  loopA
  loopA
  loopA_last
  ihave HA := (Entails.of_eq (pts_own (F := F) d L cc0_scratch0 _).symm) $$ HA
  sl_exec
  icases Hs5_dst with ⟨%fB, HB⟩
  loopB
  loopB
  loopB
  loopB
  loopB
  loopB
  loopB
  loopB
  loopB
  loopB
  loopB
  loopB
  loopB
  loopB
  loopB
  loopB_last
  ihave HB := (Entails.of_eq (pts_own (F := F) d L cc0_scratch1 _).symm) $$ HB

  by_cases hc : k0_cond1 k = 1#1
  · -- the first trip: the conditional copies of rounds 2 and 3 are issued, from their boxes as the program slices them
    ihave Hi2' := (Entails.of_eq (pts_in (F := F) d L (k0_off263 L k 2#32) (k0_off263_inb L k hc 1) (r0 (oth k)) (off263_eq L k hc) _).symm) $$ Hi2
    ihave Hi3' := (Entails.of_eq (pts_in (F := F) d L (k0_off264 L k) (k0_off264_inb L k hc) (r1 (oth k)) (off264_eq L k hc) _).symm) $$ Hi3
    sl_exec
    sl_step
    obtain rfl := cond_zero k hc
    iapply (Entails.of_eq (inv_enter vin vpc d L O W 1 (by decide) ()).symm)
    unfold Shared Pre
    isplitl [Hmw Hpc HP' HR' HO]
    · isplitl [Hmw]; · iexact Hmw
      isplitl [Hpc]; · iexact Hpc
      isplitl [HP']; · iexists _; iapply (Entails.of_eq (pts_bPc (F := F) d L _)); iexact HP'
      isplitl [HR']; · iexists _; iapply (Entails.of_eq (pts_bRs (F := F) d L _)); iexact HR'
      iexists _; isplitr
      rotate_left
      · iexact HO
      ipureintro; exact owes_none (owes_none (owes_none (owes_none hW' _) _) _) _
    isplitl [Hs4]; · iapply (flIn_intro vin d L cc0_scratch4 cc0_scratch0 _ _ 2 (off263_eq L ⟨0, by decide⟩ hc) _); iexact Hs4
    isplitl [Hs5]; · iapply (flIn_intro vin d L cc0_scratch5 cc0_scratch1 _ _ 3 (off264_eq L ⟨0, by decide⟩ hc) _); iexact Hs5
    isplitl [Hs6]; · iexact Hs6
    isplitl [Hs7]; · iexact Hs7
    isplitl [Hs4_src]; · iexact Hs4_src
    isplitl [Hs5_src]; · iexact Hs5_src
    isplitl [Ho2]; · iexact Ho2
    isplitl [Ho3]; · iexact Ho3
    isplitl [Ho0']; · iexists _; iapply (Entails.of_eq (pts_out (F := F) d L _ _ 0 (off2_eq L ⟨0, by decide⟩) _)); iexact Ho0'
    iexists _; iapply (Entails.of_eq (pts_out (F := F) d L _ _ 1 (off132_eq L ⟨0, by decide⟩) _)); iexact Ho1'
  · -- the last trip: the two copies out stay outstanding
    sl_exec
    sl_step
    obtain rfl := cond_one k hc
    iapply (Entails.of_eq (inv_exit vin vpc d L O W 2 (by decide) ()).symm)
    unfold Shared Post
    isplitl [Hmw Hpc HP' HR' HO]
    · isplitl [Hmw]; · iexact Hmw
      isplitl [Hpc]; · iexact Hpc
      isplitl [HP']; · iexists _; iapply (Entails.of_eq (pts_bPc (F := F) d L _)); iexact HP'
      isplitl [HR']; · iexists _; iapply (Entails.of_eq (pts_bRs (F := F) d L _)); iexact HR'
      iexists _; isplitr
      rotate_left
      · iexact HO
      ipureintro; exact owes_none (owes_none hW' _) _
    isplitl [Hs4]; · iexact Hs4
    isplitl [Hs5]; · iexact Hs5
    isplitl [Hs6]; · iapply (flOut_intro d L cc0_scratch6 cc0_scratch0 _ _ 2 (off2_eq L ⟨1, by decide⟩) _ _); iexact Hs6
    isplitl [Hs7]; · iapply (flOut_intro d L cc0_scratch7 cc0_scratch1 _ _ 3 (off132_eq L ⟨1, by decide⟩) _ _); iexact Hs7
    isplitl [Hi2]; · iexact Hi2
    isplitl [Hi3]; · iexact Hi3
    isplitl [Hs4_src]; · iexact Hs4_src
    isplitl [Hs5_src]; · iexact Hs5_src
    isplitl [Ho2]; · iexact Ho2
    iexact Ho3

end Tile

end Cert.Proof.KI

end
-- ==== Proof.KI.Tile.lean ====
/-
  The body obligation of the program's one SparseCore call: what each of the sixteen vector subcores does with the
  boxes the launch hands it, proved once at a symbolic subcore. The subcore fetches the pseudocount vector, requests
  the boxes of rounds 0 and 1 of the input into its two scratch buffers, and goes twice round a loop that, per buffer,
  awaits the box, normalises it in place (eight column groups, each a summing loop and a scaling loop over the 32 rows,
  and one row of the row-sum scratch written), and copies it out to the same box of the output — requesting, in the first
  trip only, the boxes of rounds 2 and 3 once the copies out have landed —; it then awaits the last two copies out and
  writes its row of the row sums out. One copy is outstanding per semaphore at a time and no buffer is touched while a
  copy involving it is outstanding, so the copies and waits are the schedule-free protocol of the transfer counters. At
  this level the claim is the frame: every copy's source and destination are held when it is issued and when it is
  awaited, the input boxes and the pseudocount share come back at their contents, everything written at some contents.
-/
import proofs.«216181_g9861244912407_cont_9to1_m_1073_40_alg».proof.Proof.KI.Trip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ
local notation "inW" => (Memref.whole Cert.KernelIdeal.main_v5_scv : Memref Cert.KernelIdeal.sig Kind.scVector Space.hbm Cert.KernelIdeal.S4x32x128x128 EltTy.f32)
local notation "pcW" => (Memref.whole Cert.KernelIdeal.main_v2_scv : Memref Cert.KernelIdeal.sig Kind.scVector Space.hbm Cert.KernelIdeal.S16 EltTy.f32)
local notation "outW" => (Memref.whole Cert.KernelIdeal.main_v6_0_scv : Memref Cert.KernelIdeal.sig Kind.scVector Space.hbm Cert.KernelIdeal.S4x32x128x128 EltTy.f32)
local notation "rsW" => (Memref.whole Cert.KernelIdeal.main_v6_1_scv : Memref Cert.KernelIdeal.sig Kind.scVector Space.hbm Cert.KernelIdeal.S4x1x16x16 EltTy.f32)
local notation "bA" => (Memref.whole Cert.KernelIdeal.cc0_scratch0 : Memref Cert.KernelIdeal.sig Kind.scVector Space.vmem Cert.KernelIdeal.S32x8x128 EltTy.f32)
local notation "bB" => (Memref.whole Cert.KernelIdeal.cc0_scratch1 : Memref Cert.KernelIdeal.sig Kind.scVector Space.vmem Cert.KernelIdeal.S32x8x128 EltTy.f32)
local notation "bPc" => (Memref.whole Cert.KernelIdeal.cc0_scratch2 : Memref Cert.KernelIdeal.sig Kind.scVector Space.vmem Cert.KernelIdeal.S16 EltTy.f32)
local notation "bRs" => (Memref.whole Cert.KernelIdeal.cc0_scratch3 : Memref Cert.KernelIdeal.sig Kind.scVector Space.vmem Cert.KernelIdeal.S4x16 EltTy.f32)

section Tile
variable (vin : (d : Dev nD) → Buf (Elt F) (inLoc d)) (vpc : (d : Dev nD) → Buf (Elt F) (pcLoc d))
variable (d : Dev nD) (L : grid0.Coords)

set_option maxHeartbeats 1000000 in
/-- The task on vector subcore `(L 0, L 1)` of device `d`: the pseudocount vector fetched, the first two rounds' boxes
    requested, the two trips of the round loop by `inv`, the last two copies out awaited, the row of row sums written out. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes vin vpc d (jL L)
        ∗ scopedBufs (thrV d L) ∗ scopedSems0 (thrV d L) ∗ owes (thrV d L) O W)
      ⊢ wp frame (wpE (defs₀ (F := F)) 𝒱₀ (thrV d L) none) Set.univ
          (cc0__sc_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1)
          fun _ => iprop(tileRes vin vpc d (jL L) ∗ scopedBufs (thrV d L) ∗ scopedSems0 (thrV d L)
            ∗ ∃ W', ⌜∀ p ∈ W', p ∈ W ∨ p.2 = none⌝ ∗ owes (thrV d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileRes
  rw [bigSep_fin4, bigSep_fin4]
  iintro ⟨#Hlv, -, ⟨⟨Hin0, Hin1, Hin2, Hin3⟩, Hpc, ⟨Hout0, Hout1, Hout2, Hout3⟩, ⟨%frs, Hrs⟩⟩,
    ⟨⟨%fA, HA⟩, ⟨%fB, HB⟩, ⟨%fP, HP⟩, HR, Hbufs⟩, ⟨Hs4, Hs5, Hs6, Hs7, Hsc0, Hsc1, Hsems⟩, HO⟩
  ihave Hmw := ((K (F := F)).mayWaits_none (thr := thrV d L) hO) $$ Hlv
  ihave Hpc' := (Entails.of_eq (pts_pc (F := F) d L _ _).symm) $$ Hpc
  ihave HA' := (Entails.of_eq ((pts_own (F := F) d L cc0_scratch0 _).trans (pts_bA (F := F) d L _)).symm) $$ HA
  ihave HB' := (Entails.of_eq ((pts_own (F := F) d L cc0_scratch1 _).trans (pts_bB (F := F) d L _)).symm) $$ HB
  ihave HP' := (Entails.of_eq (pts_bPc (F := F) d L _).symm) $$ HP
  ihave Hi0 := (Entails.of_eq (pts_in (F := F) d L (k0_off1 L 0#32) (k0_off1_inb L 0) 0 (off1_eq L 0) _).symm) $$ Hin0
  ihave Hi1 := (Entails.of_eq (pts_in (F := F) d L (k0_off1 L 1#32) (k0_off1_inb L 1) 1 (off1_eq L 1) _).symm) $$ Hin1
  -- the pseudocount vector's fetch and the first two requests
  sl_exec
  -- the round loop
  sl_for (inv vin vpc d L O W) $$ [Hmw Hpc' HP' HR Hs4 Hs5 Hs6 Hs7 Hin2 Hin3 Hout0 Hout1 Hout2 Hout3 HO]
  case region =>
    intro k acc
    exact trip vin vpc d L _ _ _ O W k
  · iapply (Entails.of_eq (inv_enter vin vpc d L O W 0 (by decide) ()).symm)
    unfold Shared Pre
    isplitl [Hmw Hpc' HP' HR HO]
    · isplitl [Hmw]; · iexact Hmw
      isplitl [Hpc']; · iexact Hpc'
      isplitl [HP']; · iexists _; iapply (Entails.of_eq (pts_bPc (F := F) d L _)); iexact HP'
      isplitl [HR]; · iexact HR
      iexists _; isplitr
      rotate_left
      · iexact HO
      ipureintro; exact owes_none (fun p hp => .inl hp) _
    isplitl [Hs4]; · iapply (flIn_intro vin d L cc0_scratch4 cc0_scratch0 _ _ 0 (off1_eq L 0) _); iexact Hs4
    isplitl [Hs5]; · iapply (flIn_intro vin d L cc0_scratch5 cc0_scratch1 _ _ 1 (off1_eq L 1) _); iexact Hs5
    isplitl [Hs6]; · iexact Hs6
    isplitl [Hs7]; · iexact Hs7
    isplitl [Hin2]; · iexact Hin2
    isplitl [Hin3]; · iexact Hin3
    isplitl [Hout0]; · iexact Hout0
    isplitl [Hout1]; · iexact Hout1
    isplitl [Hout2]; · iexact Hout2
    iexact Hout3
  iintro %u HI
  ihave HI' := (Entails.of_eq (inv_exit vin vpc d L O W _ (by decide) _)) $$ HI
  unfold Shared Post FlOut
  icases HI' with ⟨⟨Hmw, Hpc', ⟨%fP', HP⟩, ⟨%fR', HR⟩, %W', %hW', HO⟩, Hs4, Hs5, ⟨%fsA, Hs6⟩, ⟨%fsB, Hs7⟩, Hin0, Hin1, Hin2, Hin3, Hout0, Hout1⟩
  ihave HR' := (Entails.of_eq (pts_bRs (F := F) d L _).symm) $$ HR
  ihave Hrs' := (Entails.of_eq (pts_rs (F := F) d L _).symm) $$ Hrs
  -- the last two copies out awaited, the row of row sums written out and awaited
  sl_exec
  sl_step
  isplitl [Hin0 Hin1 Hin2 Hin3 Hpc' Hout0 Hout1 Hs6_dst Hs7_dst Hrs']
  · isplitl [Hin0 Hin1 Hin2 Hin3]
    · isplitl [Hin0]; · iexact Hin0
      isplitl [Hin1]; · iexact Hin1
      isplitl [Hin2]; · iexact Hin2
      iexact Hin3
    isplitl [Hpc']; · iexact Hpc'
    isplitl [Hout0 Hout1 Hs6_dst Hs7_dst]
    · isplitl [Hout0]; · iexact Hout0
      isplitl [Hout1]; · iexact Hout1
      isplitl [Hs6_dst]; · iexact Hs6_dst
      iexact Hs7_dst
    iexists _; iapply (Entails.of_eq (pts_rs (F := F) d L _)); iexact Hrs'
  isplitl [Hs6_src Hs7_src HP HR' Hbufs]
  · isplitl [Hs6_src]; · iexists _; iexact Hs6_src
    isplitl [Hs7_src]; · iexists _; iexact Hs7_src
    isplitl [HP]; · iexists _; iexact HP
    isplitl [HR']; · iexists _; iapply (Entails.of_eq (pts_bRs (F := F) d L _)); iexact HR'
    iexact Hbufs
  isplitl [Hs4 Hs5 Hs6 Hs7 Hsc0 Hsc1 Hsems]
  · isplitl [Hs4]; · iexact Hs4
    isplitl [Hs5]; · iexact Hs5
    isplitl [Hs6]; · iexact Hs6
    isplitl [Hs7]; · iexact Hs7
    isplitl [Hsc0]; · iexact Hsc0
    isplitl [Hsc1]; · iexact Hsc1
    iexact Hsems
  iexists _; isplitr
  rotate_left
  · iexact HO
  ipureintro; exact owes_none (owes_none (owes_none hW' _) _) _

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          inW (Memref.isWhole_whole _) pcW (Memref.isWhole_whole _) outW (Memref.isWhole_whole _) rsW (Memref.isWhole_whole _)
          bA (Memref.isWhole_whole _) bB (Memref.isWhole_whole _) bPc (Memref.isWhole_whole _) bRs (Memref.isWhole_whole _)
          cc0_scratch4 cc0_scratch5 cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (vin : (d : Dev nD) → Buf (Elt F) (inLoc d)) (vpc : (d : Dev nD) → Buf (Elt F) (pcLoc d)) :
    (K (F := F)).TileObl (D (F := F)) 𝒱 (P vin vpc) v₀ 0 := by
  intro d c i O W hO _ _
  -- this kernel owes nothing for a protocol of its own
  simp only [show (P vin vpc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body vin vpc d (coordsV ⟨_, hc.1⟩ ⟨_, hc.2⟩) facts O W hO).trans (wp_mono frame _ _ fun _ => obl_post)

end Cert.Proof.KI

end
-- ==== Proof.KI.Regions.lean ====
/-
  The two TensorCore pipelines that run inside the SparseCore program's @main, stepped over from the TensorCore's own
  proof state. Each is entered from the region boundary (the scoped buffers at contents not chosen, the scoped
  semaphores at zero, the idle operation slot), its staging cells' launch ghost state and duty tokens, what the
  TensorCore owes with its recorded pairs bounded in level, and its windows' arrays held whole at named contents; it
  hands back the boundary, the same debts under the same bound, every input array at its contents and every result
  array at some contents. Nothing is said of what a body leaves in a staging buffer: the relation between what a body
  finds there and what it leaves is `True` for every window, so the only facts kept are that an input array is never
  written and that each body touches nothing but the staging memrefs it is called with. The waits of a pipeline's loop
  are at the index no SparseCore call uses, whose level is 0, below everything the TensorCore may owe.
-/
import proofs.«216181_g9861244912407_cont_9to1_m_1073_40_alg».proof.Proof.KI.RegionsGhost

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin)

variable {F : FTy → Type} [FloatOps F]

local notation "𝕄" => MT nD τ sig (HIx 1) (Elt F) ℕ UU ℕ

/-! ## The proof data: every window's staging contents unconstrained -/

section Data

variable [∀ e, Nonempty (Elt F e)]

/-- Contents nobody reads. -/
def arbBuf (ℓ : Loc nD τ sig) : Buf (Elt F) ℓ := fun _ => Classical.arbitrary _

/-- A family over the devices that is `x` at device `d`. -/
def atDev {β : Dev nD → Type} (d : Dev nD) (x : β d) (dflt : (c : Dev nD) → β c) (c : Dev nD) : β c :=
  if h : c = d then h ▸ x else dflt c
theorem atDev_self {β : Dev nD → Type} (d : Dev nD) (x : β d) (dflt : (c : Dev nD) → β c) : atDev d x dflt d = x := by
  unfold atDev; rw [dif_pos rfl]

/-- The recorded pairs a thread may hold below level `b`. -/
abbrev below (c : Dev nD) (b : ℕ) : Set (SemLoc sig × HIx 1) := {p | (K (F := F)).lev ((c.tc : Thread nD τ), p.1) p.2 ≤ b}

/-- What a TensorCore owes, its recorded pairs all at levels at most `b`. -/
abbrev owesB (c : Dev nD) (b : ℕ) (O : CellTallies nD τ sig (HIx 1)) : sProp 𝕄 :=
  iprop(∃ W, ⌜(K (F := F)).WBelow (T c) W b⌝ ∗ owes (T c) O W)

variable (b : ℕ) (O : CellTallies nD τ sig (HIx 1))

/-- Call 0's proof data on core `c`: the arrays at entry contents `A`; nothing said of what the body leaves in any staging
    buffer; the invariant is the scoped buffers no window stages; what the core owes is constant. -/
def rdat0 (c : Dev nD) (A : (w : Fin cfg1.W) → Buf (Elt F) ((cfg1.win w).arr.view.loc (c.tc : Thread nD τ))) :
    RDat τ (Elt F) (HIx 1) ℕ UU ℕ cfg1 c where
  A := A
  after _ _ _ _ := True
  Φ _ := Pipeline.scopedRest (Ix := HIx 1) (Name := ℕ) (U := UU) (Lvl := ℕ) (Val := Elt F) spec1 c
  q _ := fullShare
  owed _ := O
  recorded _ := below (F := F) c b

/-- Call 1's, alike. -/
def rdat1 (c : Dev nD) (A : (w : Fin cfg2.W) → Buf (Elt F) ((cfg2.win w).arr.view.loc (c.tc : Thread nD τ))) :
    RDat τ (Elt F) (HIx 1) ℕ UU ℕ cfg2 c where
  A := A
  after _ _ _ _ := True
  Φ _ := Pipeline.scopedRest (Ix := HIx 1) (Name := ℕ) (U := UU) (Lvl := ℕ) (Val := Elt F) spec2 c
  q _ := fullShare
  owed _ := O
  recorded _ := below (F := F) c b

variable (d : Dev nD)
  (A0 : (w : Fin cfg1.W) → Buf (Elt F) ((cfg1.win w).arr.view.loc (d.tc : Thread nD τ)))
  (A1 : (w : Fin cfg2.W) → Buf (Elt F) ((cfg2.win w).arr.view.loc (d.tc : Thread nD τ)))

/-- Both calls' proof data, the arrays' entry contents given on device `d`. -/
def rdats : (p : Fin 2) → (c : Dev nD) → RDat τ (Elt F) (HIx 1) ℕ UU ℕ (pin (pcfgs (F := F)) adm p) c
  | ⟨0, _⟩ => fun c => rdat0 b O c (atDev (β := fun c => (w : Fin cfg1.W) → Buf (Elt F) ((cfg1.win w).arr.view.loc (c.tc : Thread nD τ))) d A0 (fun _ _ => arbBuf _) c)
  | ⟨1, _⟩ => fun c => rdat1 b O c (atDev (β := fun c => (w : Fin cfg2.W) → Buf (Elt F) ((cfg2.win w).arr.view.loc (c.tc : Thread nD τ))) d A1 (fun _ _ => arbBuf _) c)

theorem rdats_A0 : (rdats b O d A0 A1 0 d).A = A0 :=
  atDev_self (β := fun c => (w : Fin cfg1.W) → Buf (Elt F) ((cfg1.win w).arr.view.loc (c.tc : Thread nD τ))) d A0 (fun _ _ => arbBuf _)
theorem rdats_A1 : (rdats b O d A0 A1 1 d).A = A1 :=
  atDev_self (β := fun c => (w : Fin cfg2.W) → Buf (Elt F) ((cfg2.win w).arr.view.loc (c.tc : Thread nD τ))) d A1 (fun _ _ => arbBuf _)

end Data

/-! ## The two bodies, on whole staging memrefs at any contents -/

set_option maxHeartbeats 1000000 in
/-- Call 0's body reads and writes only its four staging memrefs, and returns them held whole. -/
theorem sound_k1 (c : Dev nD) (E : Set ℕ) (i : grid1.Coords)
    (a1 : Memref sig .tc .smem S1x1 .f32) (h1 : a1.IsWhole) (a2 : Memref sig .tc .vmem S4x32x128x128 .f32) (h2 : a2.IsWhole)
    (a3 : Memref sig .tc .vmem S4x32x128x128 .f32) (h3 : a3.IsWhole) (a4 : Memref sig .tc .vmem S4x1x128 .f32) (h4 : a4.IsWhole)
    (y1 : S1x1.Idx → Elt F .f32) (y2 y3 : S4x32x128x128.Idx → Elt F .f32) (y4 : S4x1x128.Idx → Elt F .f32) (Kp : PUnit → sProp 𝕄) :
    iprop(owns (c : Thread nD τ) a1 fullShare y1 ∗ owns (c : Thread nD τ) a2 fullShare y2 ∗ owns (c : Thread nD τ) a3 fullShare y3
        ∗ owns (c : Thread nD τ) a4 fullShare y4
        ∗ (iprop((∃ x, owns (c : Thread nD τ) a1 fullShare x) ∗ (∃ x, owns (c : Thread nD τ) a2 fullShare x)
            ∗ (∃ x, owns (c : Thread nD τ) a3 fullShare x) ∗ (∃ x, owns (c : Thread nD τ) a4 fullShare x)) -∗ Kp ⟨⟩))
      ⊢ wp frame (wpE (defs₀ (F := F)) Variants.none c none) E (cc1__tc_block i a1 h1 a2 h2 a3 h3 a4 h4) Kp := by
  simp only [cc1__tc_block_eq_skeleton]; unfold cc1__tc_block_skel
  unfold owns
  iintro ⟨⟨%f1, -, H1⟩, ⟨%f2, -, H2⟩, ⟨%f3, -, H3⟩, ⟨%f4, -, H4⟩, Hk⟩
  sl_exec
  rw [wp_ret]; imodintro
  iapply Hk
  isplitl [H1]; · iexists _; iexists _; isplitr; swap; · iexact H1
                  ipureintro; rfl
  isplitl [H2]; · iexists _; iexists _; isplitr; swap; · iexact H2
                  ipureintro; rfl
  isplitl [H3]; · iexists _; iexists _; isplitr; swap; · iexact H3
                  ipureintro; rfl
  iexists _; iexists _; isplitr; swap; · iexact H4
  ipureintro; rfl

set_option maxHeartbeats 1000000 in
/-- Call 1's body reads and writes only its two staging memrefs, and returns them held whole. -/
theorem sound_k2 (c : Dev nD) (E : Set ℕ) (i : grid2.Coords)
    (a1 : Memref sig .tc .vmem S4x32x128x128 .f32) (h1 : a1.IsWhole) (a2 : Memref sig .tc .hbm S32x32x128x128 .f32) (h2 : a2.IsWhole)
    (a3 : Memref sig .tc .vmem S4x32x128x128 .f32) (h3 : a3.IsWhole)
    (y1 y3 : S4x32x128x128.Idx → Elt F .f32) (Kp : PUnit → sProp 𝕄) :
    iprop(owns (c : Thread nD τ) a1 fullShare y1 ∗ owns (c : Thread nD τ) a3 fullShare y3
        ∗ (iprop((∃ x, owns (c : Thread nD τ) a1 fullShare x) ∗ (∃ x, owns (c : Thread nD τ) a3 fullShare x)) -∗ Kp ⟨⟩))
      ⊢ wp frame (wpE (defs₀ (F := F)) Variants.none c none) E (cc2__copy_block i a1 h1 a2 h2 a3 h3) Kp := by
  simp only [cc2__copy_block_eq_skeleton]; unfold cc2__copy_block_skel
  unfold owns
  iintro ⟨⟨%f1, -, H1⟩, ⟨%f3, -, H3⟩, Hk⟩
  sl_exec
  rw [wp_ret]; imodintro
  iapply Hk
  isplitl [H1]; · iexists _; iexists _; isplitr; swap; · iexact H1
                  ipureintro; rfl
  iexists _; iexists _; isplitr; swap; · iexact H3
  ipureintro; rfl

/-! ## The body obligations -/

section Obl

variable [∀ e, Nonempty (Elt F e)] (b : ℕ) (O : CellTallies nD τ sig (HIx 1))

theorem sound_body0 (c : Dev nD) (A : (w : Fin cfg1.W) → Buf (Elt F) ((cfg1.win w).arr.view.loc (c.tc : Thread nD τ)))
    (t : Fin cfg1.N) (Y : (w : Fin cfg1.W) → (cfg1.win w).block.Idx → Elt F (cfg1.win w).elt) :
    iprop((rdat0 (F := F) b O c A).Φ t.castSucc ∗ (rdat0 (F := F) b O c A).owesAt none t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) fun _ =>
          iprop((rdat0 (F := F) b O c A).Φ t.succ ∗ (rdat0 (F := F) b O c A).owesAt none t.succ
            ∗ (∃ X, ⌜(rdat0 (F := F) b O c A).after 0 t (Y 0) X⌝ ∗ owns (c : Thread nD τ) (st1_0 t) fullShare X)
            ∗ (∃ X, ⌜(rdat0 (F := F) b O c A).after 1 t (Y 1) X⌝ ∗ owns (c : Thread nD τ) (st1_1 t) fullShare X)
            ∗ (∃ X, ⌜(rdat0 (F := F) b O c A).after 2 t (Y 2) X⌝ ∗ owns (c : Thread nD τ) (st1_2 t) fullShare X)
            ∗ (∃ X, ⌜(rdat0 (F := F) b O c A).after 3 t (Y 3) X⌝ ∗ owns (c : Thread nD τ) (st1_3 t) fullShare X)) := by
  rw [show (rdat0 (F := F) b O c A).Φ t.succ = (rdat0 (F := F) b O c A).Φ t.castSucc from rfl,
    show (rdat0 (F := F) b O c A).owesAt none t.succ = (rdat0 (F := F) b O c A).owesAt none t.castSucc from rfl]
  iintro ⟨HΦ, HO, H0, H1, H2, H3⟩
  iapply (sound_k1 c Set.univ (grid1.coords t) _ _ _ _ _ _ _ _ (Y 0) (Y 1) (Y 2) (Y 3) _)
  isplitl [H0]; · iexact H0
  isplitl [H1]; · iexact H1
  isplitl [H2]; · iexact H2
  isplitl [H3]; · iexact H3
  iintro ⟨⟨%x0, H0⟩, ⟨%x1, H1⟩, ⟨%x2, H2⟩, ⟨%x3, H3⟩⟩
  isplitl [HΦ]; · iexact HΦ
  isplitl [HO]; · iexact HO
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

theorem body_obl0 (c : Dev nD) (A : (w : Fin cfg1.W) → Buf (Elt F) ((cfg1.win w).arr.view.loc (c.tc : Thread nD τ))) :
    (rdat0 (F := F) b O c A).BodyObligation defs₀ 𝒱₀ none Set.univ := fun t Y _ => by
  rw [bigSep_W1, bigSep_W1]
  exact sound_body0 b O c A t Y

theorem sound_body1 (c : Dev nD) (A : (w : Fin cfg2.W) → Buf (Elt F) ((cfg2.win w).arr.view.loc (c.tc : Thread nD τ)))
    (t : Fin cfg2.N) (Y : (w : Fin cfg2.W) → (cfg2.win w).block.Idx → Elt F (cfg2.win w).elt) :
    iprop((rdat1 (F := F) b O c A).Φ t.castSucc ∗ (rdat1 (F := F) b O c A).owesAt none t.castSucc
        ∗ owns (c : Thread nD τ) (st2_0 t) fullShare (Y 0) ∗ owns (c : Thread nD τ) (st2_1 t) fullShare (Y 1))
      ⊢ wp frame (wpE (defs₀ (F := F)) Variants.none c none) Set.univ (bodyAt2 t) fun _ =>
          iprop((rdat1 (F := F) b O c A).Φ t.succ ∗ (rdat1 (F := F) b O c A).owesAt none t.succ
            ∗ (∃ X, ⌜(rdat1 (F := F) b O c A).after 0 t (Y 0) X⌝ ∗ owns (c : Thread nD τ) (st2_0 t) fullShare X)
            ∗ (∃ X, ⌜(rdat1 (F := F) b O c A).after 1 t (Y 1) X⌝ ∗ owns (c : Thread nD τ) (st2_1 t) fullShare X)) := by
  rw [show (rdat1 (F := F) b O c A).Φ t.succ = (rdat1 (F := F) b O c A).Φ t.castSucc from rfl,
    show (rdat1 (F := F) b O c A).owesAt none t.succ = (rdat1 (F := F) b O c A).owesAt none t.castSucc from rfl]
  iintro ⟨HΦ, HO, H0, H1⟩
  iapply (sound_k2 c Set.univ (grid2.coords t) _ _ _ _ _ _ (Y 0) (Y 1) _)
  isplitl [H0]; · iexact H0
  isplitl [H1]; · iexact H1
  iintro ⟨⟨%x0, H0⟩, ⟨%x1, H1⟩⟩
  isplitl [HΦ]; · iexact HΦ
  isplitl [HO]; · iexact HO
  isplitl [H0]; · iexists x0; isplitr; · ipureintro; trivial
                  iexact H0
  iexists x1; isplitr; · ipureintro; trivial
  iexact H1

theorem body_obl1 (c : Dev nD) (A : (w : Fin cfg2.W) → Buf (Elt F) ((cfg2.win w).arr.view.loc (c.tc : Thread nD τ))) :
    (rdat1 (F := F) b O c A).BodyObligation defs₀ 𝒱₀ none Set.univ := fun t Y _ => by
  rw [bigSep_W2, bigSep_W2]
  exact sound_body1 b O c A t Y

end Obl

/-! ## The two regions as the launch library's records -/

section Regions

variable [∀ e, Nonempty (Elt F e)] (b : ℕ) (O : CellTallies nD τ sig (HIx 1)) (hO : ∀ g, O g none = 0) (d : Dev nD)
  (A0 : (w : Fin cfg1.W) → Buf (Elt F) ((cfg1.win w).arr.view.loc (d.tc : Thread nD τ)))
  (A1 : (w : Fin cfg2.W) → Buf (Elt F) ((cfg2.win w).arr.view.loc (d.tc : Thread nD τ)))

set_option backward.isDefEq.respectTransparency.types false in
def reg0 : Pipeline.RDat.RegionSeg (pcfgs (F := F)) adm (rdats b O d A0 A1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl0 b O c _
  hwaits c := Pipeline.RDat.cellsWaits_intro _ _ _ 0 c fun w s t => (K (F := F)).mayWait_none _ hO
  pre c := iprop((rdats b O d A0 A1 0 c).arrays (rdats b O d A0 A1 0 c).A ∗ owesB (F := F) c b O)
  post c := iprop((rdats b O d A0 A1 0 c).arraysAt cfg1.N ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (rdats b O d A0 A1 0 c).Φ 0 = Pipeline.scopedRest (Ix := HIx 1) (Name := ℕ) (U := UU) (Lvl := ℕ) (Val := Elt F) spec1 c from rfl]
    iintro ⟨-, -, H⟩; iexact H
  hout c := by
    rw [Pipeline.ownSems0_none, show (rdats b O d A0 A1 0 c).Φ (Fin.last (pin (pcfgs (F := F)) adm 0).N) = Pipeline.scopedRest (Ix := HIx 1) (Name := ℕ) (U := UU) (Lvl := ℕ) (Val := Elt F) spec1 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

set_option backward.isDefEq.respectTransparency.types false in
def reg1 : Pipeline.RDat.RegionSeg (pcfgs (F := F)) adm (rdats b O d A0 A1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obl1 b O c _
  hwaits c := Pipeline.RDat.cellsWaits_intro _ _ _ 1 c fun w s t => (K (F := F)).mayWait_none _ hO
  pre c := iprop((rdats b O d A0 A1 1 c).arrays (rdats b O d A0 A1 1 c).A ∗ owesB (F := F) c b O)
  post c := iprop((rdats b O d A0 A1 1 c).arraysAt cfg2.N ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (rdats b O d A0 A1 1 c).Φ 0 = Pipeline.scopedRest (Ix := HIx 1) (Name := ℕ) (U := UU) (Lvl := ℕ) (Val := Elt F) spec2 c from rfl]
    iintro ⟨-, -, H⟩; iexact H
  hout c := by
    rw [Pipeline.ownSems0_none, show (rdats b O d A0 A1 1 c).Φ (Fin.last (pin (pcfgs (F := F)) adm 1).N) = Pipeline.scopedRest (Ix := HIx 1) (Name := ℕ) (U := UU) (Lvl := ℕ) (Val := Elt F) spec2 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

end Regions

/-! ## Stepping over a region inside the SparseCore program's @main -/

section Entry

/-- The arrays the two calls' windows move, on device `d`'s TensorCore. -/
abbrev l4 (d : Dev nD) : Loc nD τ sig := (SparseCore.T d).loc main_v4
abbrev l0 (d : Dev nD) : Loc nD τ sig := (SparseCore.T d).loc main_v0
abbrev l90 (d : Dev nD) : Loc nD τ sig := (SparseCore.T d).loc main_v9_0
abbrev l91 (d : Dev nD) : Loc nD τ sig := (SparseCore.T d).loc main_v9_1
abbrev l60 (d : Dev nD) : Loc nD τ sig := (SparseCore.T d).loc main_v6_0
abbrev l11 (d : Dev nD) : Loc nD τ sig := (SparseCore.T d).loc main_v11

variable [∀ e, Nonempty (Elt F e)] (b : ℕ) (O : CellTallies nD τ sig (HIx 1)) (d : Dev nD)

/-- Call 0's arrays on device `d`, window by window. -/
def mkA0 (f4 : Buf (Elt F) (l4 d)) (f0 : Buf (Elt F) (l0 d)) (f90 : Buf (Elt F) (l90 d))
    (f91 : Buf (Elt F) (l91 d)) : (w : Fin cfg1.W) → Buf (Elt F) ((cfg1.win w).arr.view.loc (d.tc : Thread nD τ))
  | ⟨0, _⟩ => f4
  | ⟨1, _⟩ => f0
  | ⟨2, _⟩ => f90
  | ⟨3, _⟩ => f91

/-- Call 1's. -/
def mkA1 (f60 : Buf (Elt F) (l60 d)) (f11 : Buf (Elt F) (l11 d)) :
    (w : Fin cfg2.W) → Buf (Elt F) ((cfg2.win w).arr.view.loc (d.tc : Thread nD τ))
  | ⟨0, _⟩ => f60
  | ⟨1, _⟩ => f11

omit [∀ e, Nonempty (Elt F e)] in
/-- Arrays that are whole buffers held at the full share: the exit assertion without the views. -/
theorem arraysAt_full {cfg : Cfg sig Λ₀} {c : Dev nD} (rd : RDat τ (Elt F) (HIx 1) ℕ UU ℕ cfg c) (hq : ∀ w, rd.q w = fullShare)
    (harr : ∀ w, (cfg.spec w).arr.IsWhole) (n : ℕ) :
    rd.arraysAt n = (bigSep Finset.univ fun w : Fin cfg.W =>
      iprop(∃ G, ⌜rd.ArrAt w n G⌝ ∗ ((cfg.win w).arr.view.loc (c.tc : Thread nD τ) ↦{fullShare} G)) : sProp 𝕄) := by
  unfold RDat.arraysAt
  exact bigSep_congr fun w _ => by rw [(harr w).set_eq_univ, Pipeline.RDat.share_full rd hq w]

theorem reg0_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg0 b O hO d A0 A1).pre d = iprop((rdats b O d A0 A1 0 d).arrays (rdats b O d A0 A1 0 d).A ∗ owesB (F := F) d b O) := rfl
theorem reg0_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg0 b O hO d A0 A1).post d = iprop((rdats b O d A0 A1 0 d).arraysAt cfg1.N ∗ owesB (F := F) d b O) := rfl
theorem reg1_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg1 b O hO d A0 A1).pre d = iprop((rdats b O d A0 A1 1 d).arrays (rdats b O d A0 A1 1 d).A ∗ owesB (F := F) d b O) := rfl
theorem reg1_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg1 b O hO d A0 A1).post d = iprop((rdats b O d A0 A1 1 d).arraysAt cfg2.N ∗ owesB (F := F) d b O) := rfl

variable (f4 : Buf (Elt F) (l4 d)) (f0 : Buf (Elt F) (l0 d)) (f90 : Buf (Elt F) (l90 d))
    (f91 : Buf (Elt F) (l91 d)) (f60 : Buf (Elt F) (l60 d)) (f11 : Buf (Elt F) (l11 d))

theorem arrays0_eq (A1 : (w : Fin cfg2.W) → Buf (Elt F) ((cfg2.win w).arr.view.loc (d.tc : Thread nD τ))) :
    (rdats b O d (mkA0 d f4 f0 f90 f91) A1 0 d).arrays (rdats b O d (mkA0 d f4 f0 f90 f91) A1 0 d).A
      = (iprop((l4 d ↦{fullShare} f4) ∗ (l0 d ↦{fullShare} f0) ∗ (l90 d ↦{fullShare} f90)
          ∗ (l91 d ↦{fullShare} f91)) : sProp 𝕄) := by
  rw [Pipeline.RDat.arrays_eq (pcfgs (F := F)) adm (rdats b O d (mkA0 d f4 f0 f90 f91) A1) 0 d launch1.arr_whole
    (Pipeline.RDat.share_full _ fun _ => rfl), rdats_A0, bigSep_W1]
  rfl

theorem arraysAt0_out (A1 : (w : Fin cfg2.W) → Buf (Elt F) ((cfg2.win w).arr.view.loc (d.tc : Thread nD τ))) :
    (rdats b O d (mkA0 d f4 f0 f90 f91) A1 0 d).arraysAt cfg1.N
      ⊢ (iprop((l4 d ↦{fullShare} f4) ∗ (l0 d ↦{fullShare} f0) ∗ (∃ g, l90 d ↦{fullShare} g)
          ∗ (∃ g, l91 d ↦{fullShare} g)) : sProp 𝕄) := by
  rw [arraysAt_full _ (fun _ => rfl) launch1.arr_whole, bigSep_W1]
  iintro ⟨⟨%F0, %h0, H0⟩, ⟨%F1, %h1, H1⟩, ⟨%F2, -, H2⟩, ⟨%F3, -, H3⟩⟩
  rw [RDat.ArrAt_in _ 0 rfl, rdats_A0] at h0
  rw [RDat.ArrAt_in _ 1 rfl, rdats_A0] at h1
  rw [h0]; rw [h1]
  isplitl [H0]; · iexact H0
  isplitl [H1]; · iexact H1
  isplitl [H2]; · iexists F2; iexact H2
  iexists F3; iexact H3

set_option backward.isDefEq.respectTransparency.types false in
/-- TensorCore call 0 inside @main: from the region boundary, the pipeline's ghost state, what the TensorCore owes, and its
    four arrays whole, the call runs and hands back the same with the two results at some contents. -/
theorem region_0 (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 0 d ∗ owesB (F := F) d b O
        ∗ (l4 d ↦{fullShare} f4) ∗ (l0 d ↦{fullShare} f0) ∗ (l90 d ↦{fullShare} f90)
        ∗ (l91 d ↦{fullShare} f91)
        ∗ (iprop(boundary (T d) ∗ owesB (F := F) d b O ∗ (l4 d ↦{fullShare} f4) ∗ (l0 d ↦{fullShare} f0)
              ∗ (∃ g, l90 d ↦{fullShare} g) ∗ (∃ g, l91 d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  have hR := Pipeline.RDat.RegionSeg.wp (pcfgs (F := F)) adm (rdats b O d (mkA0 d f4 f0 f90 f91) (fun _ => arbBuf _)) (none : HIx 1) hinj ER defs₀ 𝒱₀
    (K (F := F)).L (K (F := F)).lev (reg0 b O hO d (mkA0 d f4 f0 f90 f91) (fun _ => arbBuf _)) d none (fun _ h => nomatch h) (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (SparseCore.T d) Set.univ none (.op (.customCall (Pipeline.entry 0) ()) fun _ => Prog.ret PUnit.unit)
    (fun _ => wp frame (wpE ((K (F := F)).defs (D (F := F))) 𝒱 (T d) none) Set.univ (k ⟨⟩) Φ)
  rw [reg0_pre, reg0_post] at hR
  rw [wp_bind]
  refine .trans ?_ hL
  refine .trans ?_ hR
  unfold regionGhost
  iintro ⟨#Hla, Hb, ⟨Hcg, Htk⟩, HO, H4, H0, H90, H91, Hk⟩
  isplitl [Hk]
  · iintro ⟨Hb, Hpost⟩
    rw [wp_ret]; imodintro
    iapply Hk
    icases Hpost with ⟨Ha, HO⟩
    ihave Ha' := (arraysAt0_out b O d f4 f0 f90 f91 _) $$ Ha
    icases Ha' with ⟨H4, H0, H90, H91⟩
    isplitl [Hb]; · iexact Hb
    isplitl [HO]; · iexact HO
    isplitl [H4]; · iexact H4
    isplitl [H0]; · iexact H0
    isplitl [H90]; · iexact H90
    iexact H91
  isplitl [Hb]; · iexact Hb
  isplitl [HO H4 H0 H90 H91]
  · isplitr [HO]
    · iapply (Entails.of_eq (arrays0_eq b O d f4 f0 f90 f91 _).symm)
      isplitl [H4]; · iexact H4
      isplitl [H0]; · iexact H0
      isplitl [H90]; · iexact H90
      iexact H91
    · iexact HO
  isplitr; · iexact Hla
  isplitl [Hcg]; · iexact Hcg
  iexact Htk

theorem arrays1_eq (A0 : (w : Fin cfg1.W) → Buf (Elt F) ((cfg1.win w).arr.view.loc (d.tc : Thread nD τ))) :
    (rdats b O d A0 (mkA1 d f60 f11) 1 d).arrays (rdats b O d A0 (mkA1 d f60 f11) 1 d).A
      = (iprop((l60 d ↦{fullShare} f60) ∗ (l11 d ↦{fullShare} f11)) : sProp 𝕄) := by
  rw [Pipeline.RDat.arrays_eq (pcfgs (F := F)) adm (rdats b O d A0 (mkA1 d f60 f11)) 1 d launch2.arr_whole
    (Pipeline.RDat.share_full _ fun _ => rfl), rdats_A1, bigSep_W2]
  rfl

theorem arraysAt1_out (A0 : (w : Fin cfg1.W) → Buf (Elt F) ((cfg1.win w).arr.view.loc (d.tc : Thread nD τ))) :
    (rdats b O d A0 (mkA1 d f60 f11) 1 d).arraysAt cfg2.N
      ⊢ (iprop((l60 d ↦{fullShare} f60) ∗ (∃ g, l11 d ↦{fullShare} g)) : sProp 𝕄) := by
  rw [arraysAt_full _ (fun _ => rfl) launch2.arr_whole, bigSep_W2]
  iintro ⟨⟨%F0, %h0, H0⟩, ⟨%F1, -, H1⟩⟩
  rw [RDat.ArrAt_in _ 0 rfl, rdats_A1] at h0
  rw [h0]
  isplitl [H0]; · iexact H0
  iexists F1; iexact H1

set_option backward.isDefEq.respectTransparency.types false in
/-- TensorCore call 1 inside @main: from the region boundary, the pipeline's ghost state, what the TensorCore owes, and its
    two arrays whole, the call runs and hands back the same with the result at some contents. -/
theorem region_1 (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 1 d ∗ owesB (F := F) d b O
        ∗ (l60 d ↦{fullShare} f60) ∗ (l11 d ↦{fullShare} f11)
        ∗ (iprop(boundary (T d) ∗ owesB (F := F) d b O ∗ (l60 d ↦{fullShare} f60) ∗ (∃ g, l11 d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  have hR := Pipeline.RDat.RegionSeg.wp (pcfgs (F := F)) adm (rdats b O d (fun _ => arbBuf _) (mkA1 d f60 f11)) (none : HIx 1) hinj ER defs₀ 𝒱₀
    (K (F := F)).L (K (F := F)).lev (reg1 b O hO d (fun _ => arbBuf _) (mkA1 d f60 f11)) d none (fun _ h => nomatch h) (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (T d) Set.univ none (.op (.customCall (Pipeline.entry 1) ()) fun _ => Prog.ret PUnit.unit)
    (fun _ => wp frame (wpE ((K (F := F)).defs (D (F := F))) 𝒱 (T d) none) Set.univ (k ⟨⟩) Φ)
  rw [reg1_pre, reg1_post] at hR
  rw [wp_bind]
  refine .trans ?_ hL
  refine .trans ?_ hR
  unfold regionGhost
  iintro ⟨#Hla, Hb, ⟨Hcg, Htk⟩, HO, H60, H11, Hk⟩
  isplitl [Hk]
  · iintro ⟨Hb, Hpost⟩
    rw [wp_ret]; imodintro
    iapply Hk
    icases Hpost with ⟨Ha, HO⟩
    ihave Ha' := (arraysAt1_out b O d f60 f11 _) $$ Ha
    icases Ha' with ⟨H60, H11⟩
    isplitl [Hb]; · iexact Hb
    isplitl [HO]; · iexact HO
    isplitl [H60]; · iexact H60
    iexact H11
  isplitl [Hb]; · iexact Hb
  isplitl [HO H60 H11]
  · isplitr [HO]
    · iapply (Entails.of_eq (arrays1_eq b O d f60 f11 _).symm)
      isplitl [H60]; · iexact H60
      iexact H11
    · iexact HO
  isplitr; · iexact Hla
  isplitl [Hcg]; · iexact Hcg
  iexact Htk

end Entry

end Cert.Proof.KI

end
-- ==== Proof.KI.RegionSteps.lean ====
/-
  The two TensorCore regions' steps in the form @main's proof takes them.
-/
import proofs.«216181_g9861244912407_cont_9to1_m_1073_40_alg».proof.Proof.KI.Main
import proofs.«216181_g9861244912407_cont_9to1_m_1073_40_alg».proof.Proof.KI.Regions

noncomputable section

namespace Cert.Proof.KI

open Cert.KernelIdeal Cert.KernelIdeal.Gen
open Idealize.ShloMosaic

variable {F : FTy → Type} [FloatOps F] [∀ e, Nonempty (Elt F e)]

theorem region_0_R : Region0 (F := F) regionGhost := fun d b O hO f4 f0 f90 f91 _ k Φ => region_0 b O d f4 f0 f90 f91 hO k Φ
theorem region_1_R : Region1 (F := F) regionGhost := fun d b O hO f60 f11 _ k Φ => region_1 b O d f60 f11 hO k Φ

end Cert.Proof.KI

end
-- ==== Proof.KI.Frame.lean ====
/-
  The frame of the idealized kernel: the launch's run with the tile's body obligation and the two TensorCore regions'
  steps supplied.
-/
import proofs.«216181_g9861244912407_cont_9to1_m_1073_40_alg».proof.Proof.KI.Launch
import proofs.«216181_g9861244912407_cont_9to1_m_1073_40_alg».proof.Proof.KI.Tile
import proofs.«216181_g9861244912407_cont_9to1_m_1073_40_alg».proof.Proof.KI.RegionSteps
import proofs.«216181_g9861244912407_cont_9to1_m_1073_40_alg».proof.Proof.Gen.Pre_input_domain

noncomputable section

namespace Cert.Proof.KI

open Idealize.ShloMosaic Idealize.SL.Sem

/-- Every weakly fair execution of the program's threads ends, faults nowhere, and keeps the three arguments. -/
theorem frame_run : Cert.frame_KernelIdeal := fun m ρ _ =>
  (θ_run Cert.KernelIdeal.defs _ _).mono (fun _ h c => h c)
    (run_main (F := Ideal) m ρ (tileObl (F := Ideal) (vin m) (vpc m)) (region_0_R (F := Ideal)) (region_1_R (F := Ideal)))

end Cert.Proof.KI

end
-- ==== Proof.KB.Common.lean ====
/-
  Shared vocabulary of the kernel's frame proof: the program as the SparseCore launch theorem sees it, the ghost
  state (the launch handshakes' rounds beside the transfer counters), and what the handshakes of the one SparseCore
  call carry.  The call works on the first four source tokens: tile `s` of the sixteen owns, for each round
  `r < 4`, the rows `[8 s, 8 s + 8)` of token `r` — a `[1, 32, 8, 128]` box of the `[4, 32, 128, 128]` input and of
  the output — and row `s` of the `[4, 1, 16, 16]` row-sum array; the sixteen-lane pseudocount vector is read by every
  tile under a read share.  The boxes of the sixteen tiles and four rounds are pairwise disjoint and cover the arrays.
-/
import proofs.«216181_g9861244912407_cont_9to1_m_1073_40_alg».proof.Defs
import Idealize.ShloMosaic.Lib.SparseCore.Launch
import Idealize.ShloMosaic.Lib.StableHlo.Run
import Idealize.ShloMosaic.Lib.Pipeline.Kit
import Idealize.ShloMosaic.Lib.Tactic
import proofs.«216181_g9861244912407_cont_9to1_m_1073_40_alg».proof.Proof.Gen.Kernel
import proofs.«216181_g9861244912407_cont_9to1_m_1073_40_alg».proof.Proof.Gen.Kernel.Skeleton
import proofs.«216181_g9861244912407_cont_9to1_m_1073_40_alg».proof.Proof.Gen.Kernel.Launch
import proofs.«216181_g9861244912407_cont_9to1_m_1073_40_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the two pipelines' staging cells' rounds, the transfer counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The arrays of the SparseCore call -/

abbrev inLoc (d : Dev nD) : Loc nD τ sig := (SparseCore.T d).loc main_v5
abbrev pcLoc (d : Dev nD) : Loc nD τ sig := (SparseCore.T d).loc main_v2
abbrev outLoc (d : Dev nD) : Loc nD τ sig := (SparseCore.T d).loc main_v6_0
abbrev rsLoc (d : Dev nD) : Loc nD τ sig := (SparseCore.T d).loc main_v6_1

theorem tileOff_inb (s : Fin 16) (r : Fin 4) : ∀ a, (![r.val, 0, 8 * s.val, 0] : Fin 4 → Nat) a + S1x32x8x128.size a ≤ S4x32x128x128.size a := by
  revert s r; decide
/-- Rows `[8 s, 8 s + 8)` of token `r`: the box tile `s` reads and writes in round `r`. -/
abbrev tileRect (s : Fin 16) (r : Fin 4) : Rect S4x32x128x128 := Rect.unit (s := S4x32x128x128) ![r.val, 0, 8 * s.val, 0] S1x32x8x128.size (tileOff_inb s r)
abbrev tileSet (s : Fin 16) (r : Fin 4) : Finset S4x32x128x128.Idx := (tileRect s r).set

theorem rsOff_inb (s : Fin 16) : ∀ a, (![0, 0, s.val, 0] : Fin 4 → Nat) a + S4x1x1x16.size a ≤ S4x1x16x16.size a := by
  revert s; decide
/-- Row `s` of the row-sum array, all four rounds. -/
abbrev rsRect (s : Fin 16) : Rect S4x1x16x16 := Rect.unit (s := S4x1x16x16) ![0, 0, s.val, 0] S4x1x1x16.size (rsOff_inb s)
abbrev rsSet (s : Fin 16) : Finset S4x1x16x16.Idx := (rsRect s).set

/-! ## What the handshakes carry -/

section Pay

variable [FloatOps F]
variable (vin : (d : Dev nD) → Buf (Elt F) (inLoc d)) (vpc : (d : Dev nD) → Buf (Elt F) (pcLoc d))

/-- What tile `s` is handed for its task and hands back: its four input boxes at the input's contents, a read share of
    the pseudocount vector, its four output boxes and its row of the row sums at whatever they hold. -/
def tileRes (d : Dev nD) (s : Fin 16) : sProp 𝕄 :=
  iprop((bigSep Finset.univ fun r : Fin 4 => inLoc d ↦[tileSet s r]{fullShare} vin d)
    ∗ (pcLoc d ↦{shareTok fullShare 16 s} vpc d)
    ∗ (bigSep Finset.univ fun r : Fin 4 => iprop(∃ f, outLoc d ↦[tileSet s r]{fullShare} f))
    ∗ (∃ f, rsLoc d ↦[rsSet s]{fullShare} f))

/-- What the call takes from the TensorCore and brings back: the input and the pseudocount vector whole at their
    contents, the two results whole at whatever they hold. -/
def callRes (d : Dev nD) : sProp 𝕄 :=
  iprop((inLoc d ↦{fullShare} vin d) ∗ (pcLoc d ↦{fullShare} vpc d) ∗ (∃ f, outLoc d ↦{fullShare} f) ∗ (∃ f, rsLoc d ↦{fullShare} f))

def P : (K (F := F)).Pay (nD := nD) (Val := Elt F) (Name := ℕ) (U := UU) where
  st := fun _ d _ => callRes vin vpc d
  dn := fun _ d _ => callRes vin vpc d
  go := fun q d _ i => match q with | 0 => tileRes vin vpc d (Fin.cast nSub_zero i)
  td := fun q d _ i => match q with | 0 => tileRes vin vpc d (Fin.cast nSub_zero i)
  x := fun _ _ => iprop(emp)

instance tileRes_storable (d : Dev nD) (s : Fin 16) : BI.Storable (upEmb : UEmb _ 𝕄) (tileRes vin vpc d s) := by
  unfold tileRes; infer_instance
instance callRes_storable (d : Dev nD) : BI.Storable (upEmb : UEmb _ 𝕄) (callRes vin vpc d) := by
  unfold callRes; infer_instance

instance P_storable : (P (F := F) vin vpc).IsStorable where
  st _ d c := by unfold P; infer_instance
  dn _ d c := by unfold P; infer_instance
  go q d _ i := match q with | 0 => (inferInstance : BI.Storable (upEmb : UEmb _ 𝕄) (tileRes vin vpc d (Fin.cast nSub_zero i)))
  td q d _ i := match q with | 0 => (inferInstance : BI.Storable (upEmb : UEmb _ 𝕄) (tileRes vin vpc d (Fin.cast nSub_zero i)))

end Pay

end Cert.Proof.KB

end
-- ==== Proof.KB.MainOps.lean ====
/-
  @main of the kernel's program cut into its straight lines of host operations, the SparseCore call and the two
  TensorCore kernel regions between them; and the TensorCore's arrays, all nineteen, as one held set.
-/
import proofs.«216181_g9861244912407_cont_9to1_m_1073_40_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-- Before the SparseCore call: the input reshaped, the pseudocount converted and spread over sixteen lanes and as a
    one-by-one array, the first four source tokens cut out. -/
abbrev ops0 : List (HloOp τ sig (Elt F)) :=
  [ reshape main_arg0 main_v0 rfl shapeCasts_S16777216_S32x32x128x128,
    unary main_arg1 main_v1 (sitofp .f32 : (⟨S_, .i32⟩ : BufTy).Contents (Elt F) → (⟨S_, .f32⟩ : BufTy).Contents (Elt F)),
    unary main_v1 main_v2 (broadcastInDim S16 ![] bcast_S_S16 : (⟨S_, .f32⟩ : BufTy).Contents (Elt F) → (⟨S16, .f32⟩ : BufTy).Contents (Elt F)),
    unary main_arg1 main_v3 (sitofp .f32 : (⟨S_, .i32⟩ : BufTy).Contents (Elt F) → (⟨S_, .f32⟩ : BufTy).Contents (Elt F)),
    reshape main_v3 main_v4 rfl shapeCasts_S_S1x1,
    unary main_v0 main_v5 ((extractStridedSlice S4x32x128x128 ![0, 0, 0, 0] · slices_S32x32x128x128_S4x32x128x128_0_0_0_0) : (⟨S32x32x128x128, .f32⟩ : BufTy).Contents (Elt F) → (⟨S4x32x128x128, .f32⟩ : BufTy).Contents (Elt F)) ]

/-- After the SparseCore call: the first eight lanes of its row sums, flattened. -/
abbrev ops1 : List (HloOp τ sig (Elt F)) :=
  [ unary main_v6_1 main_v7 ((extractStridedSlice S4x1x16x8 ![0, 0, 0, 0] · slices_S4x1x16x16_S4x1x16x8_0_0_0_0) : (⟨S4x1x16x16, .f32⟩ : BufTy).Contents (Elt F) → (⟨S4x1x16x8, .f32⟩ : BufTy).Contents (Elt F)),
    reshape main_v7 main_v8 rfl shapeCasts_S4x1x16x8_S512 ]

/-- After the first TensorCore region: its row sums flattened, and its output copied into the merge's result buffer. -/
abbrev ops2 : List (HloOp τ sig (Elt F)) :=
  [ reshape main_v9_1 main_v10 rfl shapeCasts_S28x1x128_S3584,
    unary main_v9_0 main_v11 id ]

/-- After the merge: the two row-sum pieces joined, the output flattened. -/
abbrev ops3 : List (HloOp τ sig (Elt F)) :=
  [ binary main_v8 main_v10 main_v12 ((fun a b => concatenate S4096 0 [⟨S512, a⟩, ⟨S3584, b⟩] concatenates_S512_S3584_S4096_d0) : (⟨S512, .f32⟩ : BufTy).Contents (Elt F) → (⟨S3584, .f32⟩ : BufTy).Contents (Elt F) → (⟨S4096, .f32⟩ : BufTy).Contents (Elt F)),
    reshape main_v11 main_v13 rfl shapeCasts_S32x32x128x128_S16777216 ]

abbrev region0 : Prog (TpuEff nD τ sig (Elt F) (SparseCore.Sig (ΛP (F := F)) 1) .tc) PUnit :=
  Prog.lift (.customCall (SparseCore.inner (Pipeline.entry 0)) ())
abbrev region1 : Prog (TpuEff nD τ sig (Elt F) (SparseCore.Sig (ΛP (F := F)) 1) .tc) PUnit :=
  Prog.lift (.customCall (SparseCore.inner (Pipeline.entry 1)) ())

theorem main_eq (d : Dev nD) :
    main (F := F) d = (seq ops0 >>= fun _ => (sc (F := F)).run d 0 >>= fun _ => seq ops1 >>= fun _ => region0 >>= fun _ => seq ops2 >>= fun _ => region1 >>= fun _ => seq ops3) := rfl

end Cert.Proof.KB

end
-- ==== Proof.KB.Split.lean ====
/-
  How the SparseCore call's operands split among the sixteen tiles and gather back: the input and the output array
  are the disjoint union of the sixty-four boxes (tile `s`, round `r`), the row-sum array of the sixteen rows, and the
  pseudocount vector is dealt as sixteen read shares, the remainder waiting for their return.
-/
import proofs.«216181_g9861244912407_cont_9to1_m_1073_40_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-! ## The boxes tile the two big arrays -/

abbrev boxSet (t : Fin 16 × Fin 4) : Finset S4x32x128x128.Idx := tileSet t.1 t.2

theorem boxes_disjoint : ∀ t ∈ (Finset.univ : Finset (Fin 16 × Fin 4)), ∀ t' ∈ (Finset.univ : Finset (Fin 16 × Fin 4)), t ≠ t' → Disjoint (boxSet t) (boxSet t') := by
  rintro ⟨s, r⟩ - ⟨s', r'⟩ - h
  by_cases hr : r = r'
  · subst hr
    have hs : s.val ≠ s'.val := fun e => h (by rw [Fin.ext e])
    exact Rect.unit_disjoint (2 : Fin 4) (by show 8 * s.val + 8 ≤ 8 * s'.val ∨ 8 * s'.val + 8 ≤ 8 * s.val; omega)
  · have hr' : r.val ≠ r'.val := fun e => hr (Fin.ext e)
    exact Rect.unit_disjoint (0 : Fin 4) (by show r.val + 1 ≤ r'.val ∨ r'.val + 1 ≤ r.val; omega)

theorem boxes_cover : (Finset.univ : Finset (Fin 16 × Fin 4)).biUnion boxSet = Finset.univ := by
  ext i
  simp only [Finset.mem_biUnion, Finset.mem_univ, true_and, iff_true]
  have h0 : (i 0).val < 4 := (i 0).isLt
  have h1 : (i 1).val < 32 := (i 1).isLt
  have h2 : (i 2).val < 128 := (i 2).isLt
  have h3 : (i 3).val < 128 := (i 3).isLt
  refine ⟨(⟨(i 2).val / 8, by omega⟩, ⟨(i 0).val, h0⟩), Rect.mem_set_unit.mpr fun a => ?_⟩
  match a with
  | ⟨0, _⟩ => exact ⟨Nat.le_refl _, Nat.lt_succ_self _⟩
  | ⟨1, _⟩ => exact ⟨Nat.zero_le _, by show (i 1).val < 0 + 32; omega⟩
  | ⟨2, _⟩ => exact ⟨by show 8 * ((i 2).val / 8) ≤ (i 2).val; omega, by show (i 2).val < 8 * ((i 2).val / 8) + 8; omega⟩
  | ⟨3, _⟩ => exact ⟨Nat.zero_le _, by show (i 3).val < 0 + 128; omega⟩

theorem rows_disjoint : ∀ s ∈ (Finset.univ : Finset (Fin 16)), ∀ s' ∈ (Finset.univ : Finset (Fin 16)), s ≠ s' → Disjoint (rsSet s) (rsSet s') := by
  intro s _ s' _ h
  have hs : s.val ≠ s'.val := fun e => h (Fin.ext e)
  exact Rect.unit_disjoint (2 : Fin 4) (by show s.val + 1 ≤ s'.val ∨ s'.val + 1 ≤ s.val; omega)

theorem rows_cover : (Finset.univ : Finset (Fin 16)).biUnion rsSet = Finset.univ := by
  ext i
  simp only [Finset.mem_biUnion, Finset.mem_univ, true_and, iff_true]
  have h0 : (i 0).val < 4 := (i 0).isLt
  have h1 : (i 1).val < 1 := (i 1).isLt
  have h2 : (i 2).val < 16 := (i 2).isLt
  have h3 : (i 3).val < 16 := (i 3).isLt
  refine ⟨⟨(i 2).val, h2⟩, Rect.mem_set_unit.mpr fun a => ?_⟩
  match a with
  | ⟨0, _⟩ => exact ⟨Nat.zero_le _, by show (i 0).val < 0 + 4; omega⟩
  | ⟨1, _⟩ => exact ⟨Nat.zero_le _, by show (i 1).val < 0 + 1; omega⟩
  | ⟨2, _⟩ => exact ⟨Nat.le_refl _, Nat.lt_succ_self _⟩
  | ⟨3, _⟩ => exact ⟨Nat.zero_le _, by show (i 3).val < 0 + 16; omega⟩

/-! ## Whole arrays as their boxes -/

theorem in_boxes (d : Dev nD) (f : Buf (Elt F) (inLoc d)) :
    (inLoc d ↦{fullShare} f : sProp 𝕄) = bigSep Finset.univ fun s : Fin 16 => bigSep Finset.univ fun r : Fin 4 => inLoc d ↦[tileSet s r]{fullShare} f := by
  rw [← bigSep_univ_prod (fun t : Fin 16 × Fin 4 => (inLoc d ↦[tileSet t.1 t.2]{fullShare} f : sProp 𝕄)),
    ← pointsTo_biUnion Finset.univ (ℓ := inLoc d) boxSet boxes_disjoint, boxes_cover]; try rfl

theorem out_boxes (d : Dev nD) (f : Buf (Elt F) (outLoc d)) :
    (outLoc d ↦{fullShare} f : sProp 𝕄) = bigSep Finset.univ fun s : Fin 16 => bigSep Finset.univ fun r : Fin 4 => outLoc d ↦[tileSet s r]{fullShare} f := by
  rw [← bigSep_univ_prod (fun t : Fin 16 × Fin 4 => (outLoc d ↦[tileSet t.1 t.2]{fullShare} f : sProp 𝕄)),
    ← pointsTo_biUnion Finset.univ (ℓ := outLoc d) boxSet boxes_disjoint, boxes_cover]; try rfl

theorem rs_rows (d : Dev nD) (f : Buf (Elt F) (rsLoc d)) :
    (rsLoc d ↦{fullShare} f : sProp 𝕄) = bigSep Finset.univ fun s : Fin 16 => rsLoc d ↦[rsSet s]{fullShare} f := by
  rw [← pointsTo_biUnion Finset.univ (ℓ := rsLoc d) rsSet rows_disjoint, rows_cover]; try rfl

/-! ## The split -/

section VecSplit

variable [FloatOps F]
variable (vin : (d : Dev nD) → Buf (Elt F) (inLoc d)) (vpc : (d : Dev nD) → Buf (Elt F) (pcLoc d))

omit [FloatOps F] in
theorem bigSep_tasks [FloatOps F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixty-four output boxes, each at what it holds, are the output array at what it holds. -/
theorem out_join (d : Dev nD) :
    (bigSep Finset.univ fun s : Fin 16 => bigSep Finset.univ fun r : Fin 4 => iprop(∃ f, outLoc d ↦[tileSet s r]{fullShare} f))
      ⊢ (iprop(∃ f, outLoc d ↦{fullShare} f) : sProp 𝕄) := by
  rw [← bigSep_univ_prod (fun t : Fin 16 × Fin 4 => (iprop(∃ f, outLoc d ↦[tileSet t.1 t.2]{fullShare} f) : sProp 𝕄))]
  refine (bigSep_exists_pi Finset.univ (fun (t : Fin 16 × Fin 4) (f : Buf (Elt F) (outLoc d)) => (outLoc d ↦[tileSet t.1 t.2]{fullShare} f : sProp 𝕄))).trans ?_
  iintro ⟨%fs, H⟩
  ihave H' := (pointsTo_biUnion_join Finset.univ boxSet fs (fs (0, 0)) boxes_disjoint) $$ H
  icases H' with ⟨%g, -, Hg⟩
  rw [boxes_cover]
  iexists g; iexact Hg

/-- The sixteen rows of the row sums, each at what it holds, are the array at what it holds. -/
theorem rs_join (d : Dev nD) :
    (bigSep Finset.univ fun s : Fin 16 => iprop(∃ f, rsLoc d ↦[rsSet s]{fullShare} f)) ⊢ (iprop(∃ f, rsLoc d ↦{fullShare} f) : sProp 𝕄) := by
  refine (bigSep_exists_pi Finset.univ (fun (s : Fin 16) (f : Buf (Elt F) (rsLoc d)) => (rsLoc d ↦[rsSet s]{fullShare} f : sProp 𝕄))).trans ?_
  iintro ⟨%fs, H⟩
  ihave H' := (pointsTo_biUnion_join Finset.univ rsSet fs (fs 0) rows_disjoint) $$ H
  icases H' with ⟨%g, -, Hg⟩
  rw [rows_cover]
  iexists g; iexact Hg

omit [FloatOps F] in
theorem out_some (d : Dev nD) (fo : Buf (Elt F) (outLoc d)) :
    (bigSep Finset.univ fun s : Fin 16 => bigSep Finset.univ fun r : Fin 4 => (outLoc d ↦[tileSet s r]{fullShare} fo : sProp 𝕄))
      ⊢ bigSep Finset.univ fun s : Fin 16 => bigSep Finset.univ fun r : Fin 4 => (iprop(∃ f, outLoc d ↦[tileSet s r]{fullShare} f) : sProp 𝕄) :=
  bigSep_mono fun s _ => bigSep_mono fun r _ => exists_intro (Φ := fun f => (outLoc d ↦[tileSet s r]{fullShare} f : sProp 𝕄)) fo

omit [FloatOps F] in
theorem rs_some (d : Dev nD) (fr : Buf (Elt F) (rsLoc d)) :
    (bigSep Finset.univ fun s : Fin 16 => (rsLoc d ↦[rsSet s]{fullShare} fr : sProp 𝕄))
      ⊢ bigSep Finset.univ fun s : Fin 16 => (iprop(∃ f, rsLoc d ↦[rsSet s]{fullShare} f) : sProp 𝕄) :=
  bigSep_mono fun s _ => exists_intro (Φ := fun f => (rsLoc d ↦[rsSet s]{fullShare} f : sProp 𝕄)) fr

theorem vecSplit : (K (F := F)).VecSplit' (P vin vpc) 0 := by
  intro d c
  show callRes vin vpc d ⊢ |={Set.univ}=> iprop(
      (bigSep Finset.univ fun i : Fin ((K (F := F)).nSub 0) => tileRes vin vpc d (Fin.cast nSub_zero i))
      ∗ ((bigSep Finset.univ fun i : Fin ((K (F := F)).nSub 0) => tileRes vin vpc d (Fin.cast nSub_zero i)) -∗ callRes vin vpc d))
  rw [bigSep_tasks (F := F) (fun s => tileRes vin vpc d s)]
  unfold callRes tileRes
  rw [bigSep_sep', bigSep_sep', bigSep_sep']
  iintro ⟨Hin, Hpc, ⟨%fo, Hout⟩, ⟨%fr, Hrs⟩⟩
  ihave Hin' := (Entails.of_eq (in_boxes (F := F) d (vin d))) $$ Hin
  ihave Hout' := (Entails.of_eq (out_boxes (F := F) d fo)) $$ Hout
  ihave Hrs' := (Entails.of_eq (rs_rows (F := F) d fr)) $$ Hrs
  ihave Hpc' := (pointsTo_toks_split (ℓ := pcLoc d) (S := Finset.univ) (f := vpc d) fullShare 16) $$ Hpc
  icases Hpc' with ⟨Hdrop, Htoks⟩
  imodintro
  isplitl [Hin' Htoks Hout' Hrs']
  · isplitl [Hin']; · iexact Hin'
    isplitl [Htoks]; · iexact Htoks
    isplitl [Hout']
    · iapply (out_some (F := F) d fo); iexact Hout'
    · iapply (rs_some (F := F) d fr); iexact Hrs'
  iintro ⟨Hin, Htoks, Hout, Hrs⟩
  isplitl [Hin]; · iapply (Entails.of_eq (in_boxes (F := F) d (vin d)).symm); iexact Hin
  isplitl [Hdrop Htoks]
  · iapply (pointsTo_toks_join (ℓ := pcLoc d) (S := Finset.univ) (f := vpc d) fullShare 16)
    isplitl [Hdrop] <;> iassumption
  isplitl [Hout]; · iapply (out_join (F := F) d); iexact Hout
  iapply (rs_join (F := F) d); iexact Hrs

end VecSplit

end Cert.Proof.KB

end
-- ==== Proof.KB.Main.lean ====
/-
  @main on the TensorCore: the host lines by the straight-line rule over the nineteen arrays held as one set, the
  SparseCore call by the call rule (the four arrays of the call lent and taken back), the arguments untouched
  throughout.
-/
import proofs.«216181_g9861244912407_cont_9to1_m_1073_40_alg».proof.Proof.KB.MainOps
import proofs.«216181_g9861244912407_cont_9to1_m_1073_40_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-! ## The TensorCore's arrays as one held set -/

/-- @main's arrays: the TensorCore's references that are not scoped, as device buffers. -/
abbrev Sall : Finset (DevRef τ sig) :=
  (Finset.univ.filter fun b : Ref sig .tc => ¬ b.isScoped).map ⟨Proc.devRef (sig := sig) (.tc : Proc τ), Proc.devRef_injective _⟩

variable (m : (ℓ : Loc nD τ sig) → Buf (Elt F) ℓ) (ρ : Dev nD → PrngReg)

/-- The launch valuation of device `d`. -/
abbrev V0 (d : Dev nD) : Valuation τ sig (Elt F) := fun b => m (d, b)

omit [FloatOps F] in
theorem unscoped_held (d : Dev nD) : (unscopedBufs d (fun b => m ((SparseCore.T d).loc b)) : sProp 𝕄) = held (T d) Sall (V0 m d) := by
  unfold unscopedBufs held
  rw [bigSep_map]
  rfl

theorem ops0_sub : ∀ op ∈ (ops0 : List (HloOp τ sig (Elt F))), op.bufs ⊆ Sall := by
  intro op hop
  simp only [List.mem_cons, List.mem_nil_iff, or_false] at hop
  rcases hop with rfl | rfl | rfl | rfl | rfl | rfl <;> first | (rw [reshape_bufs]; decide) | (rw [unary_bufs]; decide)

theorem ops1_sub : ∀ op ∈ (ops1 : List (HloOp τ sig (Elt F))), op.bufs ⊆ Sall := by
  intro op hop
  simp only [List.mem_cons, List.mem_nil_iff, or_false] at hop
  rcases hop with rfl | rfl <;> first | (rw [reshape_bufs]; decide) | (rw [unary_bufs]; decide)
theorem ops2_sub : ∀ op ∈ (ops2 : List (HloOp τ sig (Elt F))), op.bufs ⊆ Sall := by
  intro op hop
  simp only [List.mem_cons, List.mem_nil_iff, or_false] at hop
  rcases hop with rfl | rfl <;> first | (rw [reshape_bufs]; decide) | (rw [unary_bufs]; decide)
theorem ops3_sub : ∀ op ∈ (ops3 : List (HloOp τ sig (Elt F))), op.bufs ⊆ Sall := by
  intro op hop
  simp only [List.mem_cons, List.mem_nil_iff, or_false] at hop
  rcases hop with rfl | rfl <;> first | (rw [reshape_bufs]; decide) | (rw [binary_bufs]; decide)
theorem ops0_fresh : ∀ op ∈ (ops0 : List (HloOp τ sig (Elt F))), op.fresh = ∅ := by
  intro op hop
  simp only [List.mem_cons, List.mem_nil_iff, or_false] at hop
  rcases hop with rfl | rfl | rfl | rfl | rfl | rfl <;> rfl
theorem ops1_fresh : ∀ op ∈ (ops1 : List (HloOp τ sig (Elt F))), op.fresh = ∅ := by
  intro op hop
  simp only [List.mem_cons, List.mem_nil_iff, or_false] at hop
  rcases hop with rfl | rfl <;> rfl
theorem ops2_fresh : ∀ op ∈ (ops2 : List (HloOp τ sig (Elt F))), op.fresh = ∅ := by
  intro op hop
  simp only [List.mem_cons, List.mem_nil_iff, or_false] at hop
  rcases hop with rfl | rfl <;> rfl
theorem ops3_fresh : ∀ op ∈ (ops3 : List (HloOp τ sig (Elt F))), op.fresh = ∅ := by
  intro op hop
  simp only [List.mem_cons, List.mem_nil_iff, or_false] at hop
  rcases hop with rfl | rfl <;> rfl

/-! ## The SparseCore call's four arrays -/

abbrev in' : DevRef τ sig := Proc.devRef .tc (main_v5 : Ref sig .tc)
abbrev pc' : DevRef τ sig := Proc.devRef .tc (main_v2 : Ref sig .tc)
abbrev out' : DevRef τ sig := Proc.devRef .tc (main_v6_0 : Ref sig .tc)
abbrev rs' : DevRef τ sig := Proc.devRef .tc (main_v6_1 : Ref sig .tc)
abbrev Scall : Finset (DevRef τ sig) := {in', pc', out', rs'}

theorem Scall_sub : Scall ⊆ Sall := by decide

omit [FloatOps F] in
theorem held_Scall (d : Dev nD) (W : Valuation τ sig (Elt F)) :
    (held (T d) Scall W : sProp 𝕄) = iprop((inLoc d ↦{fullShare} W in') ∗ (pcLoc d ↦{fullShare} W pc') ∗ (outLoc d ↦{fullShare} W out') ∗ (rsLoc d ↦{fullShare} W rs')) := by
  unfold held Scall
  rw [SparseCore.bigSep_insert' (by decide), SparseCore.bigSep_insert' (by decide), SparseCore.bigSep_insert' (by decide), bigSep_singleton]

omit [FloatOps F] in
theorem held_call_split (d : Dev nD) (W : Valuation τ sig (Elt F)) :
    (held (d.tc : Thread nD τ) Sall W : sProp 𝕄) = iprop(((inLoc d ↦{fullShare} W in') ∗ (pcLoc d ↦{fullShare} W pc') ∗ (outLoc d ↦{fullShare} W out') ∗ (rsLoc d ↦{fullShare} W rs')) ∗ held (d.tc : Thread nD τ) (Sall \ Scall) W) := by
  rw [held_sub_split (d.tc : Thread nD τ) Scall_sub W]; exact congrArg (fun X => iprop(X ∗ _)) (held_Scall d W)

/-- The valuation when the call is made, and the two arrays the call reads. -/
abbrev V1 (d : Dev nD) : Valuation τ sig (Elt F) := after ops0 (V0 m d)
abbrev vin (d : Dev nD) : Buf (Elt F) (inLoc d) := V1 m d in'
abbrev vpc (d : Dev nD) : Buf (Elt F) (pcLoc d) := V1 m d pc'
/-- After the call: the two results at what the call left. -/
def V2 (d : Dev nD) (fo : Buf (Elt F) (outLoc d)) (fr : Buf (Elt F) (rsLoc d)) : Valuation τ sig (Elt F) :=
  Function.update (Function.update (V1 m d) out' fo) rs' fr

theorem st0_eq (d : Dev nD) : (bigSep Finset.univ fun c : Fin ((K (F := F)).nCore 0) => (P (vin m) (vpc m)).st 0 d c) = callRes (vin m) (vpc m) d := by
  show (bigSep (Finset.univ : Finset (Fin 1)) fun _ => callRes (vin m) (vpc m) d) = _
  rw [show (Finset.univ : Finset (Fin 1)) = {0} by decide, bigSep_singleton]
theorem dn0_eq (d : Dev nD) : (bigSep Finset.univ fun c : Fin ((K (F := F)).nCore 0) => (P (vin m) (vpc m)).dn 0 d c) = callRes (vin m) (vpc m) d := by
  show (bigSep (Finset.univ : Finset (Fin 1)) fun _ => callRes (vin m) (vpc m) d) = _
  rw [show (Finset.univ : Finset (Fin 1)) = {0} by decide, bigSep_singleton]

/-- What @main leaves the claim: the three arguments at their launch contents. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev FIN (d : Dev nD) : sProp 𝕄 := iprop((a0Loc d ↦{fullShare} m (a0Loc d)) ∗ (a1Loc d ↦{fullShare} m (a1Loc d)) ∗ (a2Loc d ↦{fullShare} m (a2Loc d)))

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)

omit [FloatOps F] in
theorem hfin (d : Dev nD) (s' : Phys nD τ sig (Elt F)) : iprop(FIN m d ∗ SI s') ⊢ (⌜fq m d s'⌝ : sProp 𝕄) := by
  iintro ⟨⟨H0, H1, H2⟩, HSI⟩
  icombine HSI H0 gives %h0
  icombine HSI H1 gives %h1
  icombine HSI H2 gives %h2
  ipureintro
  exact ⟨funext fun i => h0 i (Finset.mem_univ i), funext fun i => h1 i (Finset.mem_univ i), funext fun i => h2 i (Finset.mem_univ i)⟩

abbrev ops0_W : List (Ref sig .tc) := [main_v0, main_v1, main_v2, main_v3, main_v4, main_v5]
theorem ops0_writes : (ops0 : List (HloOp τ sig (Elt F))).Forall fun op => op.writes ⊆ (ops0_W.map (Proc.devRef (τ := τ) .tc)).toFinset := by
  simp only [List.Forall]; exact (by simp only [StableHlo.unary_writes, StableHlo.reshape_writes, Finset.singleton_subset_iff, List.mem_toFinset]; refine ⟨?_, ?_, ?_, ?_, ?_, ?_⟩ <;> exact List.mem_map_of_mem (by decide))
theorem V1_of (d : Dev nD) (r : Ref sig .tc) (h : r ∉ ops0_W) : V1 m d (Proc.devRef .tc r) = V0 m d (Proc.devRef .tc r) :=
  StableHlo.after_of_writes_sub ops0 _ ops0_writes h

/-! ## Lending some of the arrays and taking them back -/

omit [FloatOps F] in
/-- The held set at `W'` is a subset at `W'` beside the rest at any `W` that agrees with `W'` there. -/
theorem held_upd (d : Dev nD) {T : Finset (DevRef τ sig)} (hT : T ⊆ Sall) (W W' : Valuation τ sig (Elt F)) (h : ∀ b ∈ Sall \ T, W' b = W b) :
    (held (d.tc : Thread nD τ) Sall W' : sProp 𝕄) = iprop(held (d.tc : Thread nD τ) T W' ∗ held (d.tc : Thread nD τ) (Sall \ T) W) := by
  rw [held_sub_split (d.tc : Thread nD τ) hT W', held_congr (d.tc : Thread nD τ) h]

/-- After the call: the two results at what the call left. -/
abbrev V2' (W : Valuation τ sig (Elt F)) (d : Dev nD) (fo : Buf (Elt F) (outLoc d)) (fr : Buf (Elt F) (rsLoc d)) : Valuation τ sig (Elt F) :=
  Function.update (Function.update W out' fo) rs' fr

omit [FloatOps F] in
theorem held_call_join (d : Dev nD) (W : Valuation τ sig (Elt F)) (fo : Buf (Elt F) (outLoc d)) (fr : Buf (Elt F) (rsLoc d)) :
    (iprop(((inLoc d ↦{fullShare} W in') ∗ (pcLoc d ↦{fullShare} W pc') ∗ (outLoc d ↦{fullShare} fo) ∗ (rsLoc d ↦{fullShare} fr)) ∗ held (d.tc : Thread nD τ) (Sall \ Scall) W) : sProp 𝕄)
      = held (d.tc : Thread nD τ) Sall (V2' W d fo fr) := by
  rw [held_upd d Scall_sub W (V2' W d fo fr) (fun b hb => by
    have hb' := (Finset.mem_sdiff.mp hb).2
    simp only [Scall, Finset.mem_insert, Finset.mem_singleton, not_or] at hb'
    rw [V2', Function.update_of_ne hb'.2.2.2, Function.update_of_ne hb'.2.2.1]), held_Scall]
  have e1 : V2' W d fo fr in' = W in' := by rw [V2', Function.update_of_ne (by decide), Function.update_of_ne (by decide)]
  have e2 : V2' W d fo fr pc' = W pc' := by rw [V2', Function.update_of_ne (by decide), Function.update_of_ne (by decide)]
  have e3 : V2' W d fo fr out' = fo := by rw [V2', Function.update_of_ne (by decide), Function.update_self]
  have e4 : V2' W d fo fr rs' = fr := by rw [V2', Function.update_self]
  rw [e1, e2, e3, e4]

/-! ## The two TensorCore regions' arrays -/

abbrev v4' : DevRef τ sig := Proc.devRef .tc (main_v4 : Ref sig .tc)
abbrev v0' : DevRef τ sig := Proc.devRef .tc (main_v0 : Ref sig .tc)
abbrev v90' : DevRef τ sig := Proc.devRef .tc (main_v9_0 : Ref sig .tc)
abbrev v91' : DevRef τ sig := Proc.devRef .tc (main_v9_1 : Ref sig .tc)
abbrev v11' : DevRef τ sig := Proc.devRef .tc (main_v11 : Ref sig .tc)
abbrev v4Loc (d : Dev nD) : Loc nD τ sig := (SparseCore.T d).loc main_v4
abbrev v0Loc (d : Dev nD) : Loc nD τ sig := (SparseCore.T d).loc main_v0
abbrev v90Loc (d : Dev nD) : Loc nD τ sig := (SparseCore.T d).loc main_v9_0
abbrev v91Loc (d : Dev nD) : Loc nD τ sig := (SparseCore.T d).loc main_v9_1
abbrev v11Loc (d : Dev nD) : Loc nD τ sig := (SparseCore.T d).loc main_v11
abbrev Sr0 : Finset (DevRef τ sig) := {v4', v0', v90', v91'}
abbrev Sr1 : Finset (DevRef τ sig) := {out', v11'}
theorem Sr0_sub : Sr0 ⊆ Sall := by decide
theorem Sr1_sub : Sr1 ⊆ Sall := by decide

omit [FloatOps F] in
theorem held_Sr0 (d : Dev nD) (W : Valuation τ sig (Elt F)) :
    (held (d.tc : Thread nD τ) Sr0 W : sProp 𝕄) = iprop((v4Loc d ↦{fullShare} W v4') ∗ (v0Loc d ↦{fullShare} W v0') ∗ (v90Loc d ↦{fullShare} W v90') ∗ (v91Loc d ↦{fullShare} W v91')) := by
  unfold held Sr0
  rw [SparseCore.bigSep_insert' (by decide), SparseCore.bigSep_insert' (by decide), SparseCore.bigSep_insert' (by decide), bigSep_singleton]
omit [FloatOps F] in
theorem held_Sr1 (d : Dev nD) (W : Valuation τ sig (Elt F)) :
    (held (d.tc : Thread nD τ) Sr1 W : sProp 𝕄) = iprop((outLoc d ↦{fullShare} W out') ∗ (v11Loc d ↦{fullShare} W v11')) := by
  unfold held Sr1
  rw [SparseCore.bigSep_insert' (by decide), bigSep_singleton]

omit [FloatOps F] in
theorem held_r0_split (d : Dev nD) (W : Valuation τ sig (Elt F)) :
    (held (d.tc : Thread nD τ) Sall W : sProp 𝕄) = iprop(((v4Loc d ↦{fullShare} W v4') ∗ (v0Loc d ↦{fullShare} W v0') ∗ (v90Loc d ↦{fullShare} W v90') ∗ (v91Loc d ↦{fullShare} W v91')) ∗ held (d.tc : Thread nD τ) (Sall \ Sr0) W) := by
  rw [held_sub_split (d.tc : Thread nD τ) Sr0_sub W]; exact congrArg (fun X => iprop(X ∗ _)) (held_Sr0 d W)
omit [FloatOps F] in
theorem held_r1_split (d : Dev nD) (W : Valuation τ sig (Elt F)) :
    (held (d.tc : Thread nD τ) Sall W : sProp 𝕄) = iprop(((outLoc d ↦{fullShare} W out') ∗ (v11Loc d ↦{fullShare} W v11')) ∗ held (d.tc : Thread nD τ) (Sall \ Sr1) W) := by
  rw [held_sub_split (d.tc : Thread nD τ) Sr1_sub W]; exact congrArg (fun X => iprop(X ∗ _)) (held_Sr1 d W)

abbrev V4' (W : Valuation τ sig (Elt F)) (d : Dev nD) (g0 : Buf (Elt F) (v90Loc d)) (g1 : Buf (Elt F) (v91Loc d)) : Valuation τ sig (Elt F) :=
  Function.update (Function.update W v90' g0) v91' g1
abbrev V6' (W : Valuation τ sig (Elt F)) (d : Dev nD) (g : Buf (Elt F) (v11Loc d)) : Valuation τ sig (Elt F) :=
  Function.update W v11' g

omit [FloatOps F] in
theorem held_r0_join (d : Dev nD) (W : Valuation τ sig (Elt F)) (g0 : Buf (Elt F) (v90Loc d)) (g1 : Buf (Elt F) (v91Loc d)) :
    (iprop(((v4Loc d ↦{fullShare} W v4') ∗ (v0Loc d ↦{fullShare} W v0') ∗ (v90Loc d ↦{fullShare} g0) ∗ (v91Loc d ↦{fullShare} g1)) ∗ held (d.tc : Thread nD τ) (Sall \ Sr0) W) : sProp 𝕄)
      = held (d.tc : Thread nD τ) Sall (V4' W d g0 g1) := by
  rw [held_upd d Sr0_sub W (V4' W d g0 g1) (fun b hb => by
    have hb' := (Finset.mem_sdiff.mp hb).2
    simp only [Sr0, Finset.mem_insert, Finset.mem_singleton, not_or] at hb'
    rw [V4', Function.update_of_ne hb'.2.2.2, Function.update_of_ne hb'.2.2.1]), held_Sr0]
  have e1 : V4' W d g0 g1 v4' = W v4' := by rw [V4', Function.update_of_ne (by decide), Function.update_of_ne (by decide)]
  have e2 : V4' W d g0 g1 v0' = W v0' := by rw [V4', Function.update_of_ne (by decide), Function.update_of_ne (by decide)]
  have e3 : V4' W d g0 g1 v90' = g0 := by rw [V4', Function.update_of_ne (by decide), Function.update_self]
  have e4 : V4' W d g0 g1 v91' = g1 := by rw [V4', Function.update_self]
  rw [e1, e2, e3, e4]

omit [FloatOps F] in
theorem held_r1_join (d : Dev nD) (W : Valuation τ sig (Elt F)) (g : Buf (Elt F) (v11Loc d)) :
    (iprop(((outLoc d ↦{fullShare} W out') ∗ (v11Loc d ↦{fullShare} g)) ∗ held (d.tc : Thread nD τ) (Sall \ Sr1) W) : sProp 𝕄)
      = held (d.tc : Thread nD τ) Sall (V6' W d g) := by
  rw [held_upd d Sr1_sub W (V6' W d g) (fun b hb => by
    have hb' := (Finset.mem_sdiff.mp hb).2
    simp only [Sr1, Finset.mem_insert, Finset.mem_singleton, not_or] at hb'
    rw [V6', Function.update_of_ne hb'.2]), held_Sr1]
  have e1 : V6' W d g out' = W out' := by rw [V6', Function.update_of_ne (by decide)]
  have e2 : V6' W d g v11' = g := by rw [V6', Function.update_self]
  rw [e1, e2]

/-! ## The arguments are never written -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev Sarg : Finset (DevRef τ sig) := {a0', a1', a2'}
theorem Sarg_sub : Sarg ⊆ Sall := by decide

omit [FloatOps F] in
theorem held_Sarg (d : Dev nD) (W : Valuation τ sig (Elt F)) :
    (held (d.tc : Thread nD τ) Sarg W : sProp 𝕄) = iprop((a0Loc d ↦{fullShare} W a0') ∗ (a1Loc d ↦{fullShare} W a1') ∗ (a2Loc d ↦{fullShare} W a2')) := by
  unfold held Sarg
  rw [SparseCore.bigSep_insert' (by decide), SparseCore.bigSep_insert' (by decide), bigSep_singleton]

/-- A valuation that still has the three arguments at their launch contents. -/
def Keeps (d : Dev nD) (W : Valuation τ sig (Elt F)) : Prop := W a0' = V0 m d a0' ∧ W a1' = V0 m d a1' ∧ W a2' = V0 m d a2'

abbrev ops1_W : List (Ref sig .tc) := [main_v7, main_v8]
abbrev ops2_W : List (Ref sig .tc) := [main_v10, main_v11]
abbrev ops3_W : List (Ref sig .tc) := [main_v12, main_v13]
theorem ops1_writes : (ops1 : List (HloOp τ sig (Elt F))).Forall fun op => op.writes ⊆ (ops1_W.map (Proc.devRef (τ := τ) .tc)).toFinset := by
  simp only [List.Forall]; exact (by simp only [StableHlo.unary_writes, StableHlo.reshape_writes, Finset.singleton_subset_iff, List.mem_toFinset]; refine ⟨?_, ?_⟩ <;> exact List.mem_map_of_mem (by decide))
theorem ops2_writes : (ops2 : List (HloOp τ sig (Elt F))).Forall fun op => op.writes ⊆ (ops2_W.map (Proc.devRef (τ := τ) .tc)).toFinset := by
  simp only [List.Forall]; exact (by simp only [StableHlo.unary_writes, StableHlo.reshape_writes, Finset.singleton_subset_iff, List.mem_toFinset]; refine ⟨?_, ?_⟩ <;> exact List.mem_map_of_mem (by decide))
theorem ops3_writes : (ops3 : List (HloOp τ sig (Elt F))).Forall fun op => op.writes ⊆ (ops3_W.map (Proc.devRef (τ := τ) .tc)).toFinset := by
  simp only [List.Forall]; exact (by simp only [StableHlo.binary_writes, StableHlo.reshape_writes, Finset.singleton_subset_iff, List.mem_toFinset]; refine ⟨?_, ?_⟩ <;> exact List.mem_map_of_mem (by decide))

theorem keeps_V0 (d : Dev nD) : Keeps m d (V0 m d) := ⟨rfl, rfl, rfl⟩
theorem keeps_after {d : Dev nD} {W : Valuation τ sig (Elt F)} (ops : List (HloOp τ sig (Elt F))) (Wl : List (Ref sig .tc))
    (hW : ops.Forall fun op => op.writes ⊆ (Wl.map (Proc.devRef (τ := τ) .tc)).toFinset)
    (h0 : main_arg0 ∉ Wl) (h1 : main_arg1 ∉ Wl) (h2 : main_arg2 ∉ Wl) (h : Keeps m d W) : Keeps m d (after ops W) :=
  ⟨(after_of_writes_sub ops W hW h0).trans h.1, (after_of_writes_sub ops W hW h1).trans h.2.1, (after_of_writes_sub ops W hW h2).trans h.2.2⟩
theorem keeps_update {d : Dev nD} {W : Valuation τ sig (Elt F)} (b : DevRef τ sig) (x : Buf (Elt F) (d, b)) (hb0 : a0' ≠ b) (hb1 : a1' ≠ b) (hb2 : a2' ≠ b)
    (h : Keeps m d W) : Keeps m d (Function.update W b x) :=
  ⟨(Function.update_of_ne hb0 _ _).trans h.1, (Function.update_of_ne hb1 _ _).trans h.2.1, (Function.update_of_ne hb2 _ _).trans h.2.2⟩

/-! ## @main -/

section Main

/-- What stepping over the first TensorCore region takes and gives: its four arrays in, the two results back at some
    contents, the TensorCore's debts untouched. -/
def Region0 (RG : Fin 2 → Dev nD → sProp 𝕄) : Prop :=
  ∀ (d : Dev nD) (b : ℕ) (O : CellTallies nD τ sig (HIx 1)) (_ : ∀ g, O g none = 0)
    (f4 : Buf (Elt F) (v4Loc d)) (f0 : Buf (Elt F) (v0Loc d)) (f90 : Buf (Elt F) (v90Loc d)) (f91 : Buf (Elt F) (v91Loc d))
    {α : Type} (k : PUnit → Prog (TpuEff nD τ sig (Elt F) (SparseCore.Sig (ΛP (F := F)) 1) .tc) α) (Φ : α → sProp 𝕄),
    iprop(levAts (K (F := F)).L (K (F := F)).lev ∗ boundary (T d) ∗ RG 0 d ∗ (∃ W, ⌜(K (F := F)).WBelow (T d) W b⌝ ∗ owes (T d) O W)
        ∗ (v4Loc d ↦{fullShare} f4) ∗ (v0Loc d ↦{fullShare} f0) ∗ (v90Loc d ↦{fullShare} f90) ∗ (v91Loc d ↦{fullShare} f91)
        ∗ (iprop(boundary (T d) ∗ (∃ W, ⌜(K (F := F)).WBelow (T d) W b⌝ ∗ owes (T d) O W) ∗ (v4Loc d ↦{fullShare} f4) ∗ (v0Loc d ↦{fullShare} f0)
              ∗ (∃ g, v90Loc d ↦{fullShare} g) ∗ (∃ g, v91Loc d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ (region0 >>= k) Φ

/-- The same for the merge region: the SparseCore call's output in, the merged array back at some contents. -/
def Region1 (RG : Fin 2 → Dev nD → sProp 𝕄) : Prop :=
  ∀ (d : Dev nD) (b : ℕ) (O : CellTallies nD τ sig (HIx 1)) (_ : ∀ g, O g none = 0)
    (f60 : Buf (Elt F) (outLoc d)) (f11 : Buf (Elt F) (v11Loc d))
    {α : Type} (k : PUnit → Prog (TpuEff nD τ sig (Elt F) (SparseCore.Sig (ΛP (F := F)) 1) .tc) α) (Φ : α → sProp 𝕄),
    iprop(levAts (K (F := F)).L (K (F := F)).lev ∗ boundary (T d) ∗ RG 1 d ∗ (∃ W, ⌜(K (F := F)).WBelow (T d) W b⌝ ∗ owes (T d) O W)
        ∗ (outLoc d ↦{fullShare} f60) ∗ (v11Loc d ↦{fullShare} f11)
        ∗ (iprop(boundary (T d) ∗ (∃ W, ⌜(K (F := F)).WBelow (T d) W b⌝ ∗ owes (T d) O W) ∗ (outLoc d ↦{fullShare} f60) ∗ (∃ g, v11Loc d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ (region1 >>= k) Φ

omit [FloatOps F] in
/-- The TensorCore's state between calls opens on what it owes. -/
theorem tcSt_owes [FloatOps F] (d : Dev nD) (n : ℕ) :
    ∃ R : sProp 𝕄, ((K (F := F)).tcSt EH d n : sProp 𝕄)
      = iprop((∃ W, ⌜(K (F := F)).WBelow (T d) W (8 * n)⌝ ∗ owes (T d) ((K (F := F)).Otc d n) W) ∗ R) := ⟨_, rfl⟩

theorem keeps_final (d : Dev nD) (fo : Buf (Elt F) (outLoc d)) (fr : Buf (Elt F) (rsLoc d)) (g90 : Buf (Elt F) (v90Loc d)) (g91 : Buf (Elt F) (v91Loc d)) (g11 : Buf (Elt F) (v11Loc d)) :
    Keeps m d (after ops3 (V6' (after ops2 (V4' (after ops1 (V2' (after ops0 (V0 m d)) d fo fr)) d g90 g91)) d g11)) :=
  keeps_after m ops3 ops3_W ops3_writes (by decide) (by decide) (by decide)
    (keeps_update m v11' g11 (by decide) (by decide) (by decide)
      (keeps_after m ops2 ops2_W ops2_writes (by decide) (by decide) (by decide)
        (keeps_update m v91' g91 (by decide) (by decide) (by decide)
          (keeps_update m v90' g90 (by decide) (by decide) (by decide)
            (keeps_after m ops1 ops1_W ops1_writes (by decide) (by decide) (by decide)
              (keeps_update m rs' fr (by decide) (by decide) (by decide)
                (keeps_update m out' fo (by decide) (by decide) (by decide)
                  (keeps_after m ops0 ops0_W ops0_writes (by decide) (by decide) (by decide) (keeps_V0 m d)))))))))

omit [FloatOps F] in
theorem fin_of_keeps (d : Dev nD) (W : Valuation τ sig (Elt F)) (h : Keeps m d W) : (held (d.tc : Thread nD τ) Sall W : sProp 𝕄) ⊢ FIN m d := by
  rw [held_sub_split (d.tc : Thread nD τ) Sarg_sub W, held_Sarg, h.1, h.2.1, h.2.2]; exact sep_elim_left

/-- @main with its last line followed by the return. -/
theorem main_eq' (d : Dev nD) :
    main (F := F) d = (seq ops0 >>= fun _ => (sc (F := F)).run d 0 >>= fun _ => seq ops1 >>= fun _ => region0 >>= fun _ => seq ops2 >>= fun _ => region1 >>= fun _ => seq ops3 >>= fun _ => pure ⟨⟩) := rfl

theorem hmain (RG : Fin 2 → Dev nD → sProp 𝕄) (hr0 : Region0 (F := F) RG) (hr1 : Region1 (F := F) RG) (κ : GSem nD τ sig → ℕ) (d : Dev nD) :
    iprop((K (F := F)).ctx EH (P (vin m) (vpc m)) κ ∗ (K (F := F)).tcSt EH d 0 ∗ (K (F := F)).tcRes m ρ d ∗ (RG 0 d ∗ RG 1 d))
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d ((0 : Fin 1).val + 1)
  have hO : ∀ g, (K (F := F)).Otc d ((0 : Fin 1).val + 1) g none = 0 := fun g => by rw [(K (F := F)).Otc_end d (n := (0 : Fin 1).val + 1) (Nat.le_refl 1)]; rfl
  unfold SparseCore.Cfg.tcRes
  rw [unscoped_held, main_eq']
  iintro ⟨#Hctx, Hst, ⟨Hb, Hheld, Hsems, Hprng⟩, HG0, HG1⟩
  iapply (wp_seq 𝒱 none Set.univ d Sall _ ops0 ops0_sub ops0_fresh (V0 m d)) $$ [Hb Hheld]
  · isplitl [Hb] <;> iassumption
  iintro ⟨Hb, Hheld⟩
  -- the SparseCore call: its four arrays lent and taken back
  ihave Hh := (Entails.of_eq (held_call_split (F := F) d (after ops0 (V0 m d)))) $$ Hheld
  icases Hh with ⟨⟨Hin, Hpc, Hout, Hrs⟩, Hrest⟩
  rw [wp_bind]
  iapply ((K (F := F)).wp_run (D (F := F)) 𝒱 (EH := EH) (P := P (vin m) (vpc m)) κ d 0) $$ [Hst Hin Hpc Hout Hrs Hb Hrest Hsems Hprng HG0 HG1]
  isplitr; · iexact Hctx
  isplitl [Hst]; · iexact Hst
  isplitl [Hin Hpc Hout Hrs]
  · rw [st0_eq]; unfold callRes
    isplitl [Hin]; · iexact Hin
    isplitl [Hpc]; · iexact Hpc
    isplitl [Hout]; · iexists _; iexact Hout
    iexists _; iexact Hrs
  iintro ⟨Hst, Hdn⟩
  ihave Hdn' := (Entails.of_eq ((dn0_eq m d).trans (by unfold callRes; rfl))) $$ Hdn
  icases Hdn' with ⟨Hin, Hpc, ⟨%fo, Hout⟩, ⟨%fr, Hrs⟩⟩
  ihave Hheld := (Entails.of_eq (held_call_join (F := F) d (after ops0 (V0 m d)) fo fr)) $$ [Hin Hpc Hout Hrs Hrest]
  · isplitl [Hin Hpc Hout Hrs]
    · isplitl [Hin]; · iexact Hin
      isplitl [Hpc]; · iexact Hpc
      isplitl [Hout] <;> iassumption
    · iexact Hrest
  -- the row sums' slice and reshape
  iapply (wp_seq 𝒱 none Set.univ d Sall _ ops1 ops1_sub ops1_fresh _) $$ [Hb Hheld]
  · isplitl [Hb] <;> iassumption
  iintro ⟨Hb, Hheld⟩
  -- the first TensorCore region: its four arrays lent, the two results taken back
  ihave Hh := (Entails.of_eq (held_r0_split (F := F) d _)) $$ Hheld
  icases Hh with ⟨⟨H4, H0, H90, H91⟩, Hrest⟩
  ihave #Hlev := ((K (F := F)).ctx_levAts (EH := EH) (P := P (vin m) (vpc m)) κ) $$ Hctx
  ihave Hst' := (Entails.of_eq hR) $$ Hst
  icases Hst' with ⟨Howes, HR⟩
  iapply (hr0 d (8 * ((0 : Fin 1).val + 1)) ((K (F := F)).Otc d ((0 : Fin 1).val + 1)) hO _ _ _ _ _ _) $$ [Hb HG0 Howes H4 H0 H90 H91 Hrest HR Hsems Hprng HG1]
  isplitr; · iexact Hlev
  isplitl [Hb]; · iexact Hb
  isplitl [HG0]; · iexact HG0
  isplitl [Howes]; · iexact Howes
  isplitl [H4]; · iexact H4
  isplitl [H0]; · iexact H0
  isplitl [H90]; · iexact H90
  isplitl [H91]; · iexact H91
  iintro ⟨Hb, Howes, H4, H0, ⟨%g90, H90⟩, ⟨%g91, H91⟩⟩
  ihave Hheld := (Entails.of_eq (held_r0_join (F := F) d _ g90 g91)) $$ [H4 H0 H90 H91 Hrest]
  · isplitl [H4 H0 H90 H91]
    · isplitl [H4]; · iexact H4
      isplitl [H0]; · iexact H0
      isplitl [H90] <;> iassumption
    · iexact Hrest
  -- the first region's row sums flattened, its output copied into the merge's buffer
  iapply (wp_seq 𝒱 none Set.univ d Sall _ ops2 ops2_sub ops2_fresh _) $$ [Hb Hheld]
  · isplitl [Hb] <;> iassumption
  iintro ⟨Hb, Hheld⟩
  -- the merge region: the SparseCore call's output lent, the merged array taken back
  ihave Hh := (Entails.of_eq (held_r1_split (F := F) d _)) $$ Hheld
  icases Hh with ⟨⟨H60, H11⟩, Hrest⟩
  iapply (hr1 d (8 * ((0 : Fin 1).val + 1)) ((K (F := F)).Otc d ((0 : Fin 1).val + 1)) hO _ _ _ _) $$ [Hb HG1 Howes H60 H11 Hrest HR Hsems Hprng]
  isplitr; · iexact Hlev
  isplitl [Hb]; · iexact Hb
  isplitl [HG1]; · iexact HG1
  isplitl [Howes]; · iexact Howes
  isplitl [H60]; · iexact H60
  isplitl [H11]; · iexact H11
  iintro ⟨Hb, Howes, H60, ⟨%g11, H11⟩⟩
  ihave Hheld := (Entails.of_eq (held_r1_join (F := F) d _ g11)) $$ [H60 H11 Hrest]
  · isplitl [H60 H11]
    · isplitl [H60] <;> iassumption
    · iexact Hrest
  -- the last line
  iapply (wp_seq 𝒱 none Set.univ d Sall _ ops3 ops3_sub ops3_fresh _) $$ [Hb Hheld]
  · isplitl [Hb] <;> iassumption
  iintro ⟨Hb, Hheld⟩
  rw [wp_pure]
  imodintro
  isplitl [Howes HR]
  · iapply (Entails.of_eq (hR.symm.trans (rfl : (K (F := F)).tcSt EH d ((0 : Fin 1).val + 1) = (K (F := F)).tcSt EH d 1)))
    isplitl [Howes] <;> iassumption
  · iapply (fin_of_keeps m d _ (keeps_final m d fo fr g90 g91 g11)); iexact Hheld

end Main

end Cert.Proof.KB

end
-- ==== Proof.KB.RegionsGhost.lean ====
/-
  The rounds component the two TensorCore pipelines' staging cells live in, beside the launch handshakes' and the
  transfer counters: its embedding, the launch element's share of it, and what the launch deals each device from it —
  per pipeline, its staging cells' launch ghost state and the duty tokens of the transfers its loop issues.
-/
import proofs.«216181_g9861244912407_cont_9to1_m_1073_40_alg».proof.Proof.KB.Common
import Idealize.ShloMosaic.Lib.Pipeline.Regions

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin)

variable {F : FTy → Type} [FloatOps F]

local notation "𝕄" => MT nD τ sig (HIx 1) (Elt F) ℕ UU ℕ

/-! ## The pipelines' rounds component -/

abbrev ER : Emb (UR sig nD τ) (MT nD τ sig (HIx 1) (Elt F) ℕ UU ℕ) :=
  (Emb.inl : Emb (UR sig nD τ) (UR sig nD τ × Counters)).trans embR

instance ER_landsIn : (ER : Emb (UR sig nD τ) 𝕄).LandsIn (upEmb : UEmb _ 𝕄) := by unfold ER embR; infer_instance

abbrev adm : (p : Fin 2) → (pcfgs (F := F) p).Adm := fun p => (cfgs p).toPCfg_adm

theorem hinj : Function.Injective (cellOf (nD := nD) (τ := τ) (pin (pcfgs (F := F)) adm)) := cellOf_inj

/-- The staging cells' ghost state and the duty tokens of pipeline `p` on device `d`. -/
def regionGhost (p : Fin 2) (d : Dev nD) : sProp 𝕄 :=
  iprop(Pipeline.cellsGhost (pin (pcfgs (F := F)) adm) ER p d ∗ Pipeline.toksInit (pin (pcfgs (F := F)) adm) ER p d)

abbrev uR : UR sig nD τ := initOf (Pipeline.cells (pin (pcfgs (F := F)) adm) hinj) (Pipeline.launchToks (pin (pcfgs (F := F)) adm) hinj)

theorem regions_fund : (BI.own (ER (F := F) (uR (F := F))) : sProp 𝕄) ⊢ iprop(|==> bigSep Finset.univ fun d : Dev nD => iprop(regionGhost (F := F) 0 d ∗ regionGhost (F := F) 1 d)) := by
  refine (Pipeline.fund_ghost (pin (pcfgs (F := F)) adm) ER hinj).trans (BI.bupd_mono ?_)
  rw [← bigSep_sep']
  refine Entails.of_eq (bigSep_congr fun d _ => ?_)
  rw [← bigSep_sep', bigSep_W2]; rfl

end Cert.Proof.KB

end
-- ==== Proof.KB.Launch.lean ====
/-
  The launch: the certificate's element of the ghost state dealt into the handshakes' rounds and the two pipelines'
  staging cells, and the launch theorem applied — every weakly fair execution of the TensorCore's @main, the sequencers
  and the sixteen tiles ends, faults nowhere, and leaves the three arguments as they were.
-/
import proofs.«216181_g9861244912407_cont_9to1_m_1073_40_alg».proof.Proof.KB.Main
import proofs.«216181_g9861244912407_cont_9to1_m_1073_40_alg».proof.Proof.KB.RegionsGhost

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-- The launch element: the handshakes' rounds, the pipelines' staging cells' rounds, no transfer counted yet. -/
def u₀ : UU := (initOf (K (F := F)).hsCells (K (F := F)).hsToks, (uR (F := F), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks))
        ∗ (bigSep Finset.univ fun d : Dev nD => iprop(regionGhost (F := F) 0 d ∗ regionGhost (F := F) 1 d))
        ∗ bigSep Finset.univ fun thr : Thread nD τ => bigSep Finset.univ fun q : Fin 1 => (P (vin m) (vpc m)).x q thr) := by
  unfold u₀
  iintro Hu
  ihave H := (ownU_pair _ _) $$ Hu
  icases H with ⟨HH, HR⟩
  ihave H2 := (own_pair_emb embR (uR (F := F)) (1 : Counters)) $$ HR
  icases H2 with ⟨HER, -⟩
  imod (regions_fund (F := F)) $$ HER with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the frame claims of the final memory. -/
def QC : PUnit × MemSt nD τ sig (Elt F) → Prop := fun r =>
  ∀ c : Dev nD, r.2.mem (a0Loc c) = m (a0Loc c) ∧ r.2.mem (a1Loc c) = m (a1Loc c) ∧ r.2.mem (a2Loc c) = m (a2Loc c)

theorem run_main [∀ e, Nonempty (Elt F e)]
    (htile : (K (F := F)).TileObl (D (F := F)) 𝒱 (P (vin m) (vpc m)) v₀ 0)
    (hr0 : Region0 (F := F) (regionGhost (F := F))) (hr1 : Region1 (F := F) (regionGhost (F := F))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (vin m) (vpc m)) facts v₀
    (fun q hq => match q with | 0 => nomatch hq)
    (fun q _ => match q with | 0 => htile)
    (fun q _ => match q with | 0 => SparseCore.Cfg.VecSplit.of_plain (vecSplit (vin m) (vpc m)))
    m ρ main (fun d => iprop(regionGhost (F := F) 0 d ∗ regionGhost (F := F) 1 d)) (FIN m) (u₀ (F := F)) (sep_elim_left.trans (hu₀ m))
    (hmain m ρ (regionGhost (F := F)) hr0 hr1) (fq m) (hfin m) (QC m) (fun _ h => h)

end Cert.Proof.KB

end
-- ==== Proof.KB.Trip.lean ====
/-
  One trip of the SparseCore kernel's round loop at a symbolic vector subcore and a symbolic trip, with what it needs:
  the boxes of the input and the output as the program slices them and their sets as the launch hands them out, the
  subcore's own semaphores and scratch buffers, the loop's invariant `inv`. Per scratch buffer a trip awaits the
  round's box, normalises it in place — sixteen counted loops whose invariant is the buffer at some contents — and
  copies it out; in the first trip (the printed condition holds exactly there) it awaits the two copies out and requests
  the boxes of the next two rounds, in the last it leaves the two copies out outstanding.
-/
import proofs.«216181_g9861244912407_cont_9to1_m_1073_40_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

/-! ## The tile's names -/

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
abbrev thrV (d : Dev nD) (L : grid0.Coords) : Thread nD τ := V d (cV L) (jV L)

local notation "inW" => (Memref.whole Cert.Kernel.main_v5_scv : Memref Cert.Kernel.sig Kind.scVector Space.hbm Cert.Kernel.S4x32x128x128 EltTy.f32)
local notation "pcW" => (Memref.whole Cert.Kernel.main_v2_scv : Memref Cert.Kernel.sig Kind.scVector Space.hbm Cert.Kernel.S16 EltTy.f32)
local notation "outW" => (Memref.whole Cert.Kernel.main_v6_0_scv : Memref Cert.Kernel.sig Kind.scVector Space.hbm Cert.Kernel.S4x32x128x128 EltTy.f32)
local notation "rsW" => (Memref.whole Cert.Kernel.main_v6_1_scv : Memref Cert.Kernel.sig Kind.scVector Space.hbm Cert.Kernel.S4x1x16x16 EltTy.f32)
local notation "bA" => (Memref.whole Cert.Kernel.cc0_scratch0 : Memref Cert.Kernel.sig Kind.scVector Space.vmem Cert.Kernel.S32x8x128 EltTy.f32)
local notation "bB" => (Memref.whole Cert.Kernel.cc0_scratch1 : Memref Cert.Kernel.sig Kind.scVector Space.vmem Cert.Kernel.S32x8x128 EltTy.f32)
local notation "bPc" => (Memref.whole Cert.Kernel.cc0_scratch2 : Memref Cert.Kernel.sig Kind.scVector Space.vmem Cert.Kernel.S16 EltTy.f32)
local notation "bRs" => (Memref.whole Cert.Kernel.cc0_scratch3 : Memref Cert.Kernel.sig Kind.scVector Space.vmem Cert.Kernel.S4x16 EltTy.f32)

abbrev cellOf (d : Dev nD) (L : grid0.Coords) (s : DmaSems sig S_) : GSem nD τ sig := (thrV d L, .dma s.sem)

omit [FloatOps F] in
theorem unit_congr {s : Shape} {o o' sz : Fin s.rank → Nat} (h : ∀ a, o a + sz a ≤ s.size a) (h' : ∀ a, o' a + sz a ≤ s.size a) (e : o = o') :
    Rect.unit (s := s) o sz h = Rect.unit (s := s) o' sz h' := by subst e; rfl

omit [FloatOps F] in
theorem L0_zero (L : grid0.Coords) : (L 0).val = 0 := Nat.lt_one_iff.mp (show (L 0).val < 1 from (L 0).isLt)

/-- A `[1, 32, 8, 128]` box of an HBM array at the offsets `o`, squeezed, as the program slices it. -/
abbrev slc (m : Memref sig .scVector .hbm S4x32x128x128 .f32) (o : Fin 4 → Nat) (h : ∀ a, o a + S1x32x8x128.size a ≤ S4x32x128x128.size a) :
    Memref sig .scVector .hbm S32x8x128 .f32 :=
  (m.slice (Rect.unit (s := S4x32x128x128) o S1x32x8x128.size h) (fun _ => rfl)).squeeze S32x8x128 squeezes_S1x32x8x128_S32x8x128

omit [FloatOps F] in
theorem set_slc_in (o : Fin 4 → Nat) (h : ∀ a, o a + S1x32x8x128.size a ≤ S4x32x128x128.size a) (s : Fin 16) (r : Fin 4)
    (e : o = ![r.val, 0, 8 * s.val, 0]) : (slc inW o h).view.set = tileSet s r := by
  show (((inW).view.slice (Rect.unit (s := S4x32x128x128) o S1x32x8x128.size h)).reshape S32x8x128 squeezes_S1x32x8x128_S32x8x128.numel_eq).set = (tileRect s r).set
  rw [View.set_reshape]
  exact (View.set_slice_whole _ _).trans (congrArg (fun R : Rect S4x32x128x128 => R.set) (unit_congr _ _ e))
omit [FloatOps F] in
theorem set_slc_out (o : Fin 4 → Nat) (h : ∀ a, o a + S1x32x8x128.size a ≤ S4x32x128x128.size a) (s : Fin 16) (r : Fin 4)
    (e : o = ![r.val, 0, 8 * s.val, 0]) : (slc outW o h).view.set = tileSet s r := by
  show (((outW).view.slice (Rect.unit (s := S4x32x128x128) o S1x32x8x128.size h)).reshape S32x8x128 squeezes_S1x32x8x128_S32x8x128.numel_eq).set = (tileRect s r).set
  rw [View.set_reshape]
  exact (View.set_slice_whole _ _).trans (congrArg (fun R : Rect S4x32x128x128 => R.set) (unit_congr _ _ e))

/-- The two rounds of trip `k`, and the other trip. -/
abbrev r0 (k : Fin k0_t1_loop.trips) : Fin 4 := ⟨2 * k.val, by have h : k.val < 2 := k.isLt; omega⟩
abbrev r1 (k : Fin k0_t1_loop.trips) : Fin 4 := ⟨2 * k.val + 1, by have h : k.val < 2 := k.isLt; omega⟩
abbrev oth (k : Fin k0_t1_loop.trips) : Fin k0_t1_loop.trips := ⟨1 - k.val, show 1 - k.val < 2 by omega⟩

omit [FloatOps F] in
theorem off1_eq (L : grid0.Coords) (r : Fin 4) : k0_off1 L (BitVec.ofNat 32 r.val) = ![r.val, 0, 8 * (jL L).val, 0] := by
  rw [k0_off1_eq, L0_zero]; rfl
omit [FloatOps F] in
theorem off2_eq (L : grid0.Coords) (k : Fin k0_t1_loop.trips) : k0_off2 L k = ![(r0 k).val, 0, 8 * (jL L).val, 0] := by
  rw [k0_off2_eq, L0_zero]; rfl
omit [FloatOps F] in
theorem off132_eq (L : grid0.Coords) (k : Fin k0_t1_loop.trips) : k0_off132 L k = ![(r1 k).val, 0, 8 * (jL L).val, 0] := by
  rw [k0_off132_eq, L0_zero]; rfl

omit [FloatOps F] in
theorem cond_zero : ∀ k : Fin k0_t1_loop.trips, k0_cond1 k = 1#1 → k = ⟨0, by decide⟩ := by decide
omit [FloatOps F] in
theorem cond_one : ∀ k : Fin k0_t1_loop.trips, ¬ k0_cond1 k = 1#1 → k = ⟨1, by decide⟩ := by decide
omit [FloatOps F] in
theorem off263_eq (L : grid0.Coords) (k : Fin k0_t1_loop.trips) (hc : k0_cond1 k = 1#1) :
    k0_off263 L k 2#32 = ![(r0 (oth k)).val, 0, 8 * (jL L).val, 0] := by
  obtain rfl := cond_zero k hc
  rw [show (2#32 : BitVec 32) = BitVec.ofNat 32 (1 + (1 : Fin 2).val) from rfl, k0_off263_eq, L0_zero]; rfl
omit [FloatOps F] in
theorem off264_eq (L : grid0.Coords) (k : Fin k0_t1_loop.trips) (hc : k0_cond1 k = 1#1) :
    k0_off264 L k = ![(r1 (oth k)).val, 0, 8 * (jL L).val, 0] := by
  obtain rfl := cond_zero k hc
  rw [k0_off264_eq, L0_zero]; rfl

/-- The tile's row of the row sums, as the program slices it. -/
abbrev rsSl (L : grid0.Coords) : Memref sig .scVector .hbm S4x16 .f32 :=
  ((rsW).slice (Rect.unit (s := S4x1x16x16) (k0_off265 L) S4x1x1x16.size (k0_off265_inb L)) (fun _ => rfl)).squeeze S4x16 squeezes_S4x1x1x16_S4x16
omit [FloatOps F] in
theorem off265_eq (L : grid0.Coords) : k0_off265 L = ![0, 0, (jL L).val, 0] := by
  rw [k0_off265_eq, L0_zero]; rfl
omit [FloatOps F] in
theorem set_rsSl (L : grid0.Coords) : (rsSl L).view.set = rsSet (jL L) := by
  show (((rsW).view.slice (Rect.unit (s := S4x1x16x16) (k0_off265 L) S4x1x1x16.size (k0_off265_inb L))).reshape S4x16 squeezes_S4x1x1x16_S4x16.numel_eq).set = (rsRect (jL L)).set
  rw [View.set_reshape]
  exact (View.set_slice_whole _ _).trans (congrArg (fun R : Rect S4x1x16x16 => R.set) (unit_congr _ _ (off265_eq L)))

section Tile
variable (vin : (d : Dev nD) → Buf (Elt F) (inLoc d)) (vpc : (d : Dev nD) → Buf (Elt F) (pcLoc d))
variable (d : Dev nD) (L : grid0.Coords)

omit [FloatOps F] in
theorem cell_ne {s s' : DmaSems sig S_} (h : s.sem ≠ s'.sem) : cellOf d L s ≠ cellOf d L s' :=
  fun e => h (SemLoc.dma.inj (Prod.mk.inj e).2)
omit [FloatOps F] in
theorem cell_mem (s : DmaSems sig S_) (h : (SemLoc.dma s.sem : SemLoc sig).isScoped .scVector = true) : cellOf d L s ∈ ownCells (thrV d L) :=
  (mem_ownCells (g := cellOf d L s)).mpr ⟨rfl, h⟩

omit [FloatOps F] in
theorem ownSems0_V :
    (ownSems0 (thrV d L) : sProp 𝕄)
      = iprop(semVal (cellOf d L cc0_scratch4) 0 ∗ semVal (cellOf d L cc0_scratch5) 0 ∗ semVal (cellOf d L cc0_scratch6) 0
          ∗ semVal (cellOf d L cc0_scratch7) 0 ∗ semVal (cellOf d L cc0_scoped0) 0 ∗ semVal (cellOf d L cc0_scoped1) 0
          ∗ bigSep ((((((((ownCells (thrV d L)).erase (cellOf d L cc0_scratch4)).erase (cellOf d L cc0_scratch5)).erase (cellOf d L cc0_scratch6)).erase
              (cellOf d L cc0_scratch7)).erase (cellOf d L cc0_scoped0)).erase (cellOf d L cc0_scoped1)))
              fun g => semVal g 0) := by
  unfold SparseCore.Cfg.ownSems0
  rw [SparseCore.bigSep_erase' (cell_mem d L cc0_scratch4 (by decide)),
    SparseCore.bigSep_erase' (Finset.mem_erase.mpr ⟨cell_ne d L (show (cc0_scratch5 : DmaSems sig S_).sem ≠ (cc0_scratch4 : DmaSems sig S_).sem by decide), cell_mem d L cc0_scratch5 (by decide)⟩),
    SparseCore.bigSep_erase' (Finset.mem_erase.mpr ⟨cell_ne d L (show (cc0_scratch6 : DmaSems sig S_).sem ≠ (cc0_scratch5 : DmaSems sig S_).sem by decide), Finset.mem_erase.mpr ⟨cell_ne d L (show (cc0_scratch6 : DmaSems sig S_).sem ≠ (cc0_scratch4 : DmaSems sig S_).sem by decide), cell_mem d L cc0_scratch6 (by decide)⟩⟩),
    SparseCore.bigSep_erase' (Finset.mem_erase.mpr ⟨cell_ne d L (show (cc0_scratch7 : DmaSems sig S_).sem ≠ (cc0_scratch6 : DmaSems sig S_).sem by decide), Finset.mem_erase.mpr ⟨cell_ne d L (show (cc0_scratch7 : DmaSems sig S_).sem ≠ (cc0_scratch5 : DmaSems sig S_).sem by decide), Finset.mem_erase.mpr ⟨cell_ne d L (show (cc0_scratch7 : DmaSems sig S_).sem ≠ (cc0_scratch4 : DmaSems sig S_).sem by decide), cell_mem d L cc0_scratch7 (by decide)⟩⟩⟩),
    SparseCore.bigSep_erase' (Finset.mem_erase.mpr ⟨cell_ne d L (show (cc0_scoped0 : DmaSems sig S_).sem ≠ (cc0_scratch7 : DmaSems sig S_).sem by decide), Finset.mem_erase.mpr ⟨cell_ne d L (show (cc0_scoped0 : DmaSems sig S_).sem ≠ (cc0_scratch6 : DmaSems sig S_).sem by decide), Finset.mem_erase.mpr ⟨cell_ne d L (show (cc0_scoped0 : DmaSems sig S_).sem ≠ (cc0_scratch5 : DmaSems sig S_).sem by decide), Finset.mem_erase.mpr ⟨cell_ne d L (show (cc0_scoped0 : DmaSems sig S_).sem ≠ (cc0_scratch4 : DmaSems sig S_).sem by decide), cell_mem d L cc0_scoped0 (by decide)⟩⟩⟩⟩),
    SparseCore.bigSep_erase' (Finset.mem_erase.mpr ⟨cell_ne d L (show (cc0_scoped1 : DmaSems sig S_).sem ≠ (cc0_scoped0 : DmaSems sig S_).sem by decide), Finset.mem_erase.mpr ⟨cell_ne d L (show (cc0_scoped1 : DmaSems sig S_).sem ≠ (cc0_scratch7 : DmaSems sig S_).sem by decide), Finset.mem_erase.mpr ⟨cell_ne d L (show (cc0_scoped1 : DmaSems sig S_).sem ≠ (cc0_scratch6 : DmaSems sig S_).sem by decide), Finset.mem_erase.mpr ⟨cell_ne d L (show (cc0_scoped1 : DmaSems sig S_).sem ≠ (cc0_scratch5 : DmaSems sig S_).sem by decide), Finset.mem_erase.mpr ⟨cell_ne d L (show (cc0_scoped1 : DmaSems sig S_).sem ≠ (cc0_scratch4 : DmaSems sig S_).sem by decide), cell_mem d L cc0_scoped1 (by decide)⟩⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

omit [FloatOps F] in
theorem pts_in (o : Fin 4 → Nat) (h : ∀ a, o a + S1x32x8x128.size a ≤ S4x32x128x128.size a) (r : Fin 4)
    (e : o = ![r.val, 0, 8 * (jL L).val, 0]) (f : Buf (Elt F) (inLoc d)) :
    ((slc inW o h).view.loc (thrV d L) ↦[(slc inW o h).view.set]{fullShare} f : sProp 𝕄) = inLoc d ↦[tileSet (jL L) r]{fullShare} f := by
  rw [set_slc_in o h (jL L) r e]
omit [FloatOps F] in
theorem pts_out (o : Fin 4 → Nat) (h : ∀ a, o a + S1x32x8x128.size a ≤ S4x32x128x128.size a) (r : Fin 4)
    (e : o = ![r.val, 0, 8 * (jL L).val, 0]) (f : Buf (Elt F) (outLoc d)) :
    ((slc outW o h).view.loc (thrV d L) ↦[(slc outW o h).view.set]{fullShare} f : sProp 𝕄) = outLoc d ↦[tileSet (jL L) r]{fullShare} f := by
  rw [set_slc_out o h (jL L) r e]
omit [FloatOps F] in
theorem pts_pc (q : PosShare TreeShare) (f : Buf (Elt F) (pcLoc d)) :
    ((pcW).view.loc (thrV d L) ↦{q} f : sProp 𝕄) = pcLoc d ↦{q} f := rfl
omit [FloatOps F] in
theorem pts_bA (f : Buf (Elt F) ((thrV d L).loc cc0_scratch0)) :
    ((bA).view.loc (thrV d L) ↦{fullShare} f : sProp 𝕄) = (thrV d L).loc cc0_scratch0 ↦{fullShare} f := rfl
omit [FloatOps F] in
theorem pts_bB (f : Buf (Elt F) ((thrV d L).loc cc0_scratch1)) :
    ((bB).view.loc (thrV d L) ↦{fullShare} f : sProp 𝕄) = (thrV d L).loc cc0_scratch1 ↦{fullShare} f := rfl
omit [FloatOps F] in
theorem pts_bPc (f : Buf (Elt F) ((thrV d L).loc cc0_scratch2)) :
    ((bPc).view.loc (thrV d L) ↦{fullShare} f : sProp 𝕄) = (thrV d L).loc cc0_scratch2 ↦{fullShare} f := rfl
omit [FloatOps F] in
theorem pts_bRs (f : Buf (Elt F) ((thrV d L).loc cc0_scratch3)) :
    ((bRs).view.loc (thrV d L) ↦{fullShare} f : sProp 𝕄) = (thrV d L).loc cc0_scratch3 ↦{fullShare} f := rfl

/-! ## The outer loop's invariant -/

/-- A copy into the scratch buffer `b` from round `r`'s input box, outstanding on `sm`. -/
def FlIn (sm : DmaSems sig S_) (b : Ref sig .scVector) (r : Fin 4) : sProp 𝕄 :=
  Transfers.Flight countersEmb (thrV d L) (SemLoc.dma sm.sem) (default : HIx 1) 1048576
    iprop((∃ f, (Memref.whole b).view.loc (thrV d L) ↦{fullShare} f) ∗ inLoc d ↦[tileSet (jL L) r]{fullShare} vin d)
/-- A copy out of the scratch buffer `b` into round `r`'s output box, outstanding on `sm`. -/
def FlOut (sm : DmaSems sig S_) (b : Ref sig .scVector) (r : Fin 4) : sProp 𝕄 :=
  iprop(∃ fs, Transfers.Flight countersEmb (thrV d L) (SemLoc.dma sm.sem) (default : HIx 1) 1048576
    iprop((∃ f, outLoc d ↦[tileSet (jL L) r]{fullShare} f) ∗ (Memref.whole b).view.loc (thrV d L) ↦{fullShare} fs))

def Shared (O : CellTallies nD τ sig (HIx 1)) (W : Waits sig (HIx 1)) : sProp 𝕄 :=
  iprop(Transfers.MayWaits (thrV d L) (none : HIx 1) O
    ∗ ((pcW).view.loc (thrV d L) ↦{shareTok fullShare 16 (jL L)} vpc d)
    ∗ (∃ f, (thrV d L).loc cc0_scratch2 ↦{fullShare} f) ∗ (∃ f, (thrV d L).loc cc0_scratch3 ↦{fullShare} f)
    ∗ ∃ W', ⌜∀ p ∈ W', p ∈ W ∨ p.2 = none⌝ ∗ owes (thrV d L) O W')

/-- Before trip `k`: the two input copies of its rounds outstanding, the output semaphores idle, every other box held. -/
def Pre (k : Fin k0_t1_loop.trips) : sProp 𝕄 :=
  iprop(FlIn vin d L cc0_scratch4 cc0_scratch0 (r0 k) ∗ FlIn vin d L cc0_scratch5 cc0_scratch1 (r1 k)
    ∗ semVal (cellOf d L cc0_scratch6) 0 ∗ semVal (cellOf d L cc0_scratch7) 0
    ∗ (inLoc d ↦[tileSet (jL L) (r0 (oth k))]{fullShare} vin d) ∗ (inLoc d ↦[tileSet (jL L) (r1 (oth k))]{fullShare} vin d)
    ∗ (∃ f, outLoc d ↦[tileSet (jL L) (r0 k)]{fullShare} f) ∗ (∃ f, outLoc d ↦[tileSet (jL L) (r1 k)]{fullShare} f)
    ∗ (∃ f, outLoc d ↦[tileSet (jL L) (r0 (oth k))]{fullShare} f) ∗ (∃ f, outLoc d ↦[tileSet (jL L) (r1 (oth k))]{fullShare} f))

/-- After the last trip: the two output copies of the last rounds outstanding, the input semaphores idle. -/
def Post : sProp 𝕄 :=
  iprop(semVal (cellOf d L cc0_scratch4) 0 ∗ semVal (cellOf d L cc0_scratch5) 0
    ∗ FlOut d L cc0_scratch6 cc0_scratch0 2 ∗ FlOut d L cc0_scratch7 cc0_scratch1 3
    ∗ (inLoc d ↦[tileSet (jL L) 0]{fullShare} vin d) ∗ (inLoc d ↦[tileSet (jL L) 1]{fullShare} vin d)
    ∗ (inLoc d ↦[tileSet (jL L) 2]{fullShare} vin d) ∗ (inLoc d ↦[tileSet (jL L) 3]{fullShare} vin d)
    ∗ (∃ f, outLoc d ↦[tileSet (jL L) 0]{fullShare} f) ∗ (∃ f, outLoc d ↦[tileSet (jL L) 1]{fullShare} f))

def inv (O : CellTallies nD τ sig (HIx 1)) (W : Waits sig (HIx 1)) (k : ℕ) (_ : Unit) : sProp 𝕄 :=
  iprop(Shared vpc d L O W ∗ if h : k < k0_t1_loop.trips then Pre vin d L ⟨k, h⟩ else Post vin d L)

omit [FloatOps F] in
theorem pts_own (b : Ref sig .scVector) (f : Buf (Elt F) ((Memref.whole b).view.loc (thrV d L))) :
    ((Memref.whole b).view.loc (thrV d L) ↦[(Memref.whole b).view.set]{fullShare} f : sProp 𝕄) = (Memref.whole b).view.loc (thrV d L) ↦{fullShare} f := by
  rw [show (Memref.whole b).view.set = Finset.univ from View.set_whole b]

theorem flIn_intro (sm : DmaSems sig S_) (b : Ref sig .scVector) (o : Fin 4 → Nat) (h : ∀ a, o a + S1x32x8x128.size a ≤ S4x32x128x128.size a) (r : Fin 4)
    (e : o = ![r.val, 0, 8 * (jL L).val, 0]) (fd : Buf (Elt F) ((Memref.whole b).view.loc (thrV d L))) :
    (Transfers.Flight countersEmb (thrV d L) (SemLoc.dma sm.sem) (default : HIx 1) 1048576
      iprop(((Memref.whole b).view.loc (thrV d L) ↦[(Memref.whole b).view.set]{fullShare} fd)
        ∗ (slc inW o h).view.loc (thrV d L) ↦[(slc inW o h).view.set]{fullShare} vin d) : sProp 𝕄) ⊢ FlIn vin d L sm b r := by
  unfold FlIn
  rw [pts_own, pts_in d L o h r e]
  refine Transfers.Flight_mono (countersEmb : UEmb Counters 𝕄) (thrV d L) ?_
  iintro ⟨Hd, Hs⟩
  isplitl [Hd]; · iexists _; iexact Hd
  iexact Hs

theorem flOut_intro (sm : DmaSems sig S_) (b : Ref sig .scVector) (o : Fin 4 → Nat) (h : ∀ a, o a + S1x32x8x128.size a ≤ S4x32x128x128.size a) (r : Fin 4)
    (e : o = ![r.val, 0, 8 * (jL L).val, 0]) (fd : Buf (Elt F) (outLoc d)) (fs : Buf (Elt F) ((Memref.whole b).view.loc (thrV d L))) :
    (Transfers.Flight countersEmb (thrV d L) (SemLoc.dma sm.sem) (default : HIx 1) 1048576
      iprop(((slc outW o h).view.loc (thrV d L) ↦[(slc outW o h).view.set]{fullShare} fd)
        ∗ (Memref.whole b).view.loc (thrV d L) ↦[(Memref.whole b).view.set]{fullShare} fs) : sProp 𝕄) ⊢ FlOut d L sm b r := by
  unfold FlOut
  rw [pts_own, pts_out d L o h r e]
  iintro H
  iexists fs
  iapply (Transfers.Flight_mono (countersEmb : UEmb Counters 𝕄) (thrV d L) ?_) $$ H
  iintro ⟨Hd, Hs⟩
  isplitl [Hd]; · iexists _; iexact Hd
  iexact Hs

omit [FloatOps F] in
theorem owes_none {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

theorem inv_enter (O : CellTallies nD τ sig (HIx 1)) (W : Waits sig (HIx 1)) (n : ℕ) (hn : n < k0_t1_loop.trips) (u : Unit) :
    inv vin vpc d L O W n u = iprop(Shared vpc d L O W ∗ Pre vin d L ⟨n, hn⟩) := by
  unfold inv; rw [dif_pos hn]
theorem inv_exit (O : CellTallies nD τ sig (HIx 1)) (W : Waits sig (HIx 1)) (n : ℕ) (hn : ¬ n < k0_t1_loop.trips) (u : Unit) :
    inv vin vpc d L O W n u = iprop(Shared vpc d L O W ∗ Post vin d L) := by
  unfold inv; rw [dif_neg hn]

omit [FloatOps F] in
theorem pts_rs (f : Buf (Elt F) (rsLoc d)) :
    ((rsSl L).view.loc (thrV d L) ↦[(rsSl L).view.set]{fullShare} f : sProp 𝕄) = rsLoc d ↦[rsSet (jL L)]{fullShare} f := by
  rw [set_rsSl]
omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

set_option hygiene false in
/-- One of the compute's counted loops over the first scratch buffer, held as `HA`: its invariant is the buffer at some contents. -/
macro "loopA" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩
  sl_exec))
set_option hygiene false in
/-- The last loop over the first buffer before it is copied out: the run resumes once the buffer is held by its own elements. -/
macro "loopA_last" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩))
set_option hygiene false in
/-- The same over the second scratch buffer, held as `HB`. -/
macro "loopB" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩
  sl_exec))
set_option hygiene false in
macro "loopB_last" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩))

set_option maxHeartbeats 1000000 in
theorem trip (arg0 : BitVec 32) (v1 : Vec F S16 .f32) (v5 : IVec S16 32) (O : CellTallies nD τ sig (HIx 1)) (W : Waits sig (HIx 1))
    (k : Fin k0_t1_loop.trips) :
    inv vin vpc d L O W k.val ⟨⟩
      ⊢ wp frame (wpE (defs₀ (F := F)) 𝒱₀ (thrV d L) none) Set.univ
          (k0_t1_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1 arg0 v1 v5 k ⟨⟩)
          fun _ => inv vin vpc d L O W (k.val + 1) ⟨⟩ := by
  unfold k0_t1_body
  rw [inv_enter vin vpc d L O W k.val k.isLt]
  unfold Shared Pre FlIn
  iintro ⟨⟨Hmw, Hpc, ⟨%fP, HP⟩, ⟨%fR, HR⟩, %W', %hW', HO⟩, Hs4, Hs5, Hs6, Hs7, Hi2, Hi3, ⟨%fo0, Ho0⟩, ⟨%fo1, Ho1⟩, Ho2, Ho3⟩
  ihave HP' := (Entails.of_eq (pts_bPc (F := F) d L _).symm) $$ HP
  ihave HR' := (Entails.of_eq (pts_bRs (F := F) d L _).symm) $$ HR
  ihave Ho0' := (Entails.of_eq (pts_out (F := F) d L (k0_off2 L k) (k0_off2_inb L k) (r0 k) (off2_eq L k) _).symm) $$ Ho0
  ihave Ho1' := (Entails.of_eq (pts_out (F := F) d L (k0_off132 L k) (k0_off132_inb L k) (r1 k) (off132_eq L k) _).symm) $$ Ho1
  sl_exec
  icases Hs4_dst with ⟨%fA, HA⟩
  loopA
  loopA
  loopA
  loopA
  loopA
  loopA
  loopA
  loopA
  loopA
  loopA
  loopA
  loopA
  loopA
  loopA
  loopA
  loopA_last
  ihave HA := (Entails.of_eq (pts_own (F := F) d L cc0_scratch0 _).symm) $$ HA
  sl_exec
  icases Hs5_dst with ⟨%fB, HB⟩
  loopB
  loopB
  loopB
  loopB
  loopB
  loopB
  loopB
  loopB
  loopB
  loopB
  loopB
  loopB
  loopB
  loopB
  loopB
  loopB_last
  ihave HB := (Entails.of_eq (pts_own (F := F) d L cc0_scratch1 _).symm) $$ HB

  by_cases hc : k0_cond1 k = 1#1
  · -- the first trip: the conditional copies of rounds 2 and 3 are issued, from their boxes as the program slices them
    ihave Hi2' := (Entails.of_eq (pts_in (F := F) d L (k0_off263 L k 2#32) (k0_off263_inb L k hc 1) (r0 (oth k)) (off263_eq L k hc) _).symm) $$ Hi2
    ihave Hi3' := (Entails.of_eq (pts_in (F := F) d L (k0_off264 L k) (k0_off264_inb L k hc) (r1 (oth k)) (off264_eq L k hc) _).symm) $$ Hi3
    sl_exec
    sl_step
    obtain rfl := cond_zero k hc
    iapply (Entails.of_eq (inv_enter vin vpc d L O W 1 (by decide) ()).symm)
    unfold Shared Pre
    isplitl [Hmw Hpc HP' HR' HO]
    · isplitl [Hmw]; · iexact Hmw
      isplitl [Hpc]; · iexact Hpc
      isplitl [HP']; · iexists _; iapply (Entails.of_eq (pts_bPc (F := F) d L _)); iexact HP'
      isplitl [HR']; · iexists _; iapply (Entails.of_eq (pts_bRs (F := F) d L _)); iexact HR'
      iexists _; isplitr
      rotate_left
      · iexact HO
      ipureintro; exact owes_none (owes_none (owes_none (owes_none hW' _) _) _) _
    isplitl [Hs4]; · iapply (flIn_intro vin d L cc0_scratch4 cc0_scratch0 _ _ 2 (off263_eq L ⟨0, by decide⟩ hc) _); iexact Hs4
    isplitl [Hs5]; · iapply (flIn_intro vin d L cc0_scratch5 cc0_scratch1 _ _ 3 (off264_eq L ⟨0, by decide⟩ hc) _); iexact Hs5
    isplitl [Hs6]; · iexact Hs6
    isplitl [Hs7]; · iexact Hs7
    isplitl [Hs4_src]; · iexact Hs4_src
    isplitl [Hs5_src]; · iexact Hs5_src
    isplitl [Ho2]; · iexact Ho2
    isplitl [Ho3]; · iexact Ho3
    isplitl [Ho0']; · iexists _; iapply (Entails.of_eq (pts_out (F := F) d L _ _ 0 (off2_eq L ⟨0, by decide⟩) _)); iexact Ho0'
    iexists _; iapply (Entails.of_eq (pts_out (F := F) d L _ _ 1 (off132_eq L ⟨0, by decide⟩) _)); iexact Ho1'
  · -- the last trip: the two copies out stay outstanding
    sl_exec
    sl_step
    obtain rfl := cond_one k hc
    iapply (Entails.of_eq (inv_exit vin vpc d L O W 2 (by decide) ()).symm)
    unfold Shared Post
    isplitl [Hmw Hpc HP' HR' HO]
    · isplitl [Hmw]; · iexact Hmw
      isplitl [Hpc]; · iexact Hpc
      isplitl [HP']; · iexists _; iapply (Entails.of_eq (pts_bPc (F := F) d L _)); iexact HP'
      isplitl [HR']; · iexists _; iapply (Entails.of_eq (pts_bRs (F := F) d L _)); iexact HR'
      iexists _; isplitr
      rotate_left
      · iexact HO
      ipureintro; exact owes_none (owes_none hW' _) _
    isplitl [Hs4]; · iexact Hs4
    isplitl [Hs5]; · iexact Hs5
    isplitl [Hs6]; · iapply (flOut_intro d L cc0_scratch6 cc0_scratch0 _ _ 2 (off2_eq L ⟨1, by decide⟩) _ _); iexact Hs6
    isplitl [Hs7]; · iapply (flOut_intro d L cc0_scratch7 cc0_scratch1 _ _ 3 (off132_eq L ⟨1, by decide⟩) _ _); iexact Hs7
    isplitl [Hi2]; · iexact Hi2
    isplitl [Hi3]; · iexact Hi3
    isplitl [Hs4_src]; · iexact Hs4_src
    isplitl [Hs5_src]; · iexact Hs5_src
    isplitl [Ho2]; · iexact Ho2
    iexact Ho3

end Tile

end Cert.Proof.KB

end
-- ==== Proof.KB.Tile.lean ====
/-
  The body obligation of the program's one SparseCore call: what each of the sixteen vector subcores does with the
  boxes the launch hands it, proved once at a symbolic subcore. The subcore fetches the pseudocount vector, requests
  the boxes of rounds 0 and 1 of the input into its two scratch buffers, and goes twice round a loop that, per buffer,
  awaits the box, normalises it in place (eight column groups, each a summing loop and a scaling loop over the 32 rows,
  and one row of the row-sum scratch written), and copies it out to the same box of the output — requesting, in the first
  trip only, the boxes of rounds 2 and 3 once the copies out have landed —; it then awaits the last two copies out and
  writes its row of the row sums out. One copy is outstanding per semaphore at a time and no buffer is touched while a
  copy involving it is outstanding, so the copies and waits are the schedule-free protocol of the transfer counters. At
  this level the claim is the frame: every copy's source and destination are held when it is issued and when it is
  awaited, the input boxes and the pseudocount share come back at their contents, everything written at some contents.
-/
import proofs.«216181_g9861244912407_cont_9to1_m_1073_40_alg».proof.Proof.KB.Trip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ
local notation "inW" => (Memref.whole Cert.Kernel.main_v5_scv : Memref Cert.Kernel.sig Kind.scVector Space.hbm Cert.Kernel.S4x32x128x128 EltTy.f32)
local notation "pcW" => (Memref.whole Cert.Kernel.main_v2_scv : Memref Cert.Kernel.sig Kind.scVector Space.hbm Cert.Kernel.S16 EltTy.f32)
local notation "outW" => (Memref.whole Cert.Kernel.main_v6_0_scv : Memref Cert.Kernel.sig Kind.scVector Space.hbm Cert.Kernel.S4x32x128x128 EltTy.f32)
local notation "rsW" => (Memref.whole Cert.Kernel.main_v6_1_scv : Memref Cert.Kernel.sig Kind.scVector Space.hbm Cert.Kernel.S4x1x16x16 EltTy.f32)
local notation "bA" => (Memref.whole Cert.Kernel.cc0_scratch0 : Memref Cert.Kernel.sig Kind.scVector Space.vmem Cert.Kernel.S32x8x128 EltTy.f32)
local notation "bB" => (Memref.whole Cert.Kernel.cc0_scratch1 : Memref Cert.Kernel.sig Kind.scVector Space.vmem Cert.Kernel.S32x8x128 EltTy.f32)
local notation "bPc" => (Memref.whole Cert.Kernel.cc0_scratch2 : Memref Cert.Kernel.sig Kind.scVector Space.vmem Cert.Kernel.S16 EltTy.f32)
local notation "bRs" => (Memref.whole Cert.Kernel.cc0_scratch3 : Memref Cert.Kernel.sig Kind.scVector Space.vmem Cert.Kernel.S4x16 EltTy.f32)

section Tile
variable (vin : (d : Dev nD) → Buf (Elt F) (inLoc d)) (vpc : (d : Dev nD) → Buf (Elt F) (pcLoc d))
variable (d : Dev nD) (L : grid0.Coords)

set_option maxHeartbeats 1000000 in
/-- The task on vector subcore `(L 0, L 1)` of device `d`: the pseudocount vector fetched, the first two rounds' boxes
    requested, the two trips of the round loop by `inv`, the last two copies out awaited, the row of row sums written out. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes vin vpc d (jL L)
        ∗ scopedBufs (thrV d L) ∗ scopedSems0 (thrV d L) ∗ owes (thrV d L) O W)
      ⊢ wp frame (wpE (defs₀ (F := F)) 𝒱₀ (thrV d L) none) Set.univ
          (cc0__sc_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1)
          fun _ => iprop(tileRes vin vpc d (jL L) ∗ scopedBufs (thrV d L) ∗ scopedSems0 (thrV d L)
            ∗ ∃ W', ⌜∀ p ∈ W', p ∈ W ∨ p.2 = none⌝ ∗ owes (thrV d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileRes
  rw [bigSep_fin4, bigSep_fin4]
  iintro ⟨#Hlv, -, ⟨⟨Hin0, Hin1, Hin2, Hin3⟩, Hpc, ⟨Hout0, Hout1, Hout2, Hout3⟩, ⟨%frs, Hrs⟩⟩,
    ⟨⟨%fA, HA⟩, ⟨%fB, HB⟩, ⟨%fP, HP⟩, HR, Hbufs⟩, ⟨Hs4, Hs5, Hs6, Hs7, Hsc0, Hsc1, Hsems⟩, HO⟩
  ihave Hmw := ((K (F := F)).mayWaits_none (thr := thrV d L) hO) $$ Hlv
  ihave Hpc' := (Entails.of_eq (pts_pc (F := F) d L _ _).symm) $$ Hpc
  ihave HA' := (Entails.of_eq ((pts_own (F := F) d L cc0_scratch0 _).trans (pts_bA (F := F) d L _)).symm) $$ HA
  ihave HB' := (Entails.of_eq ((pts_own (F := F) d L cc0_scratch1 _).trans (pts_bB (F := F) d L _)).symm) $$ HB
  ihave HP' := (Entails.of_eq (pts_bPc (F := F) d L _).symm) $$ HP
  ihave Hi0 := (Entails.of_eq (pts_in (F := F) d L (k0_off1 L 0#32) (k0_off1_inb L 0) 0 (off1_eq L 0) _).symm) $$ Hin0
  ihave Hi1 := (Entails.of_eq (pts_in (F := F) d L (k0_off1 L 1#32) (k0_off1_inb L 1) 1 (off1_eq L 1) _).symm) $$ Hin1
  -- the pseudocount vector's fetch and the first two requests
  sl_exec
  -- the round loop
  sl_for (inv vin vpc d L O W) $$ [Hmw Hpc' HP' HR Hs4 Hs5 Hs6 Hs7 Hin2 Hin3 Hout0 Hout1 Hout2 Hout3 HO]
  case region =>
    intro k acc
    exact trip vin vpc d L _ _ _ O W k
  · iapply (Entails.of_eq (inv_enter vin vpc d L O W 0 (by decide) ()).symm)
    unfold Shared Pre
    isplitl [Hmw Hpc' HP' HR HO]
    · isplitl [Hmw]; · iexact Hmw
      isplitl [Hpc']; · iexact Hpc'
      isplitl [HP']; · iexists _; iapply (Entails.of_eq (pts_bPc (F := F) d L _)); iexact HP'
      isplitl [HR]; · iexact HR
      iexists _; isplitr
      rotate_left
      · iexact HO
      ipureintro; exact owes_none (fun p hp => .inl hp) _
    isplitl [Hs4]; · iapply (flIn_intro vin d L cc0_scratch4 cc0_scratch0 _ _ 0 (off1_eq L 0) _); iexact Hs4
    isplitl [Hs5]; · iapply (flIn_intro vin d L cc0_scratch5 cc0_scratch1 _ _ 1 (off1_eq L 1) _); iexact Hs5
    isplitl [Hs6]; · iexact Hs6
    isplitl [Hs7]; · iexact Hs7
    isplitl [Hin2]; · iexact Hin2
    isplitl [Hin3]; · iexact Hin3
    isplitl [Hout0]; · iexact Hout0
    isplitl [Hout1]; · iexact Hout1
    isplitl [Hout2]; · iexact Hout2
    iexact Hout3
  iintro %u HI
  ihave HI' := (Entails.of_eq (inv_exit vin vpc d L O W _ (by decide) _)) $$ HI
  unfold Shared Post FlOut
  icases HI' with ⟨⟨Hmw, Hpc', ⟨%fP', HP⟩, ⟨%fR', HR⟩, %W', %hW', HO⟩, Hs4, Hs5, ⟨%fsA, Hs6⟩, ⟨%fsB, Hs7⟩, Hin0, Hin1, Hin2, Hin3, Hout0, Hout1⟩
  ihave HR' := (Entails.of_eq (pts_bRs (F := F) d L _).symm) $$ HR
  ihave Hrs' := (Entails.of_eq (pts_rs (F := F) d L _).symm) $$ Hrs
  -- the last two copies out awaited, the row of row sums written out and awaited
  sl_exec
  sl_step
  isplitl [Hin0 Hin1 Hin2 Hin3 Hpc' Hout0 Hout1 Hs6_dst Hs7_dst Hrs']
  · isplitl [Hin0 Hin1 Hin2 Hin3]
    · isplitl [Hin0]; · iexact Hin0
      isplitl [Hin1]; · iexact Hin1
      isplitl [Hin2]; · iexact Hin2
      iexact Hin3
    isplitl [Hpc']; · iexact Hpc'
    isplitl [Hout0 Hout1 Hs6_dst Hs7_dst]
    · isplitl [Hout0]; · iexact Hout0
      isplitl [Hout1]; · iexact Hout1
      isplitl [Hs6_dst]; · iexact Hs6_dst
      iexact Hs7_dst
    iexists _; iapply (Entails.of_eq (pts_rs (F := F) d L _)); iexact Hrs'
  isplitl [Hs6_src Hs7_src HP HR' Hbufs]
  · isplitl [Hs6_src]; · iexists _; iexact Hs6_src
    isplitl [Hs7_src]; · iexists _; iexact Hs7_src
    isplitl [HP]; · iexists _; iexact HP
    isplitl [HR']; · iexists _; iapply (Entails.of_eq (pts_bRs (F := F) d L _)); iexact HR'
    iexact Hbufs
  isplitl [Hs4 Hs5 Hs6 Hs7 Hsc0 Hsc1 Hsems]
  · isplitl [Hs4]; · iexact Hs4
    isplitl [Hs5]; · iexact Hs5
    isplitl [Hs6]; · iexact Hs6
    isplitl [Hs7]; · iexact Hs7
    isplitl [Hsc0]; · iexact Hsc0
    isplitl [Hsc1]; · iexact Hsc1
    iexact Hsems
  iexists _; isplitr
  rotate_left
  · iexact HO
  ipureintro; exact owes_none (owes_none (owes_none hW' _) _) _

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          inW (Memref.isWhole_whole _) pcW (Memref.isWhole_whole _) outW (Memref.isWhole_whole _) rsW (Memref.isWhole_whole _)
          bA (Memref.isWhole_whole _) bB (Memref.isWhole_whole _) bPc (Memref.isWhole_whole _) bRs (Memref.isWhole_whole _)
          cc0_scratch4 cc0_scratch5 cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (vin : (d : Dev nD) → Buf (Elt F) (inLoc d)) (vpc : (d : Dev nD) → Buf (Elt F) (pcLoc d)) :
    (K (F := F)).TileObl (D (F := F)) 𝒱 (P vin vpc) v₀ 0 := by
  intro d c i O W hO _ _
  -- this kernel owes nothing for a protocol of its own
  simp only [show (P vin vpc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body vin vpc d (coordsV ⟨_, hc.1⟩ ⟨_, hc.2⟩) facts O W hO).trans (wp_mono frame _ _ fun _ => obl_post)

end Cert.Proof.KB

end
-- ==== Proof.KB.Regions.lean ====
/-
  The two TensorCore pipelines that run inside the SparseCore program's @main, stepped over from the TensorCore's own
  proof state. Each is entered from the region boundary (the scoped buffers at contents not chosen, the scoped
  semaphores at zero, the idle operation slot), its staging cells' launch ghost state and duty tokens, what the
  TensorCore owes with its recorded pairs bounded in level, and its windows' arrays held whole at named contents; it
  hands back the boundary, the same debts under the same bound, every input array at its contents and every result
  array at some contents. Nothing is said of what a body leaves in a staging buffer: the relation between what a body
  finds there and what it leaves is `True` for every window, so the only facts kept are that an input array is never
  written and that each body touches nothing but the staging memrefs it is called with. The waits of a pipeline's loop
  are at the index no SparseCore call uses, whose level is 0, below everything the TensorCore may owe.
-/
import proofs.«216181_g9861244912407_cont_9to1_m_1073_40_alg».proof.Proof.KB.RegionsGhost

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf pin)

variable {F : FTy → Type} [FloatOps F]

local notation "𝕄" => MT nD τ sig (HIx 1) (Elt F) ℕ UU ℕ

/-! ## The proof data: every window's staging contents unconstrained -/

section Data

variable [∀ e, Nonempty (Elt F e)]

/-- Contents nobody reads. -/
def arbBuf (ℓ : Loc nD τ sig) : Buf (Elt F) ℓ := fun _ => Classical.arbitrary _

/-- A family over the devices that is `x` at device `d`. -/
def atDev {β : Dev nD → Type} (d : Dev nD) (x : β d) (dflt : (c : Dev nD) → β c) (c : Dev nD) : β c :=
  if h : c = d then h ▸ x else dflt c
theorem atDev_self {β : Dev nD → Type} (d : Dev nD) (x : β d) (dflt : (c : Dev nD) → β c) : atDev d x dflt d = x := by
  unfold atDev; rw [dif_pos rfl]

/-- The recorded pairs a thread may hold below level `b`. -/
abbrev below (c : Dev nD) (b : ℕ) : Set (SemLoc sig × HIx 1) := {p | (K (F := F)).lev ((c.tc : Thread nD τ), p.1) p.2 ≤ b}

/-- What a TensorCore owes, its recorded pairs all at levels at most `b`. -/
abbrev owesB (c : Dev nD) (b : ℕ) (O : CellTallies nD τ sig (HIx 1)) : sProp 𝕄 :=
  iprop(∃ W, ⌜(K (F := F)).WBelow (T c) W b⌝ ∗ owes (T c) O W)

variable (b : ℕ) (O : CellTallies nD τ sig (HIx 1))

/-- Call 0's proof data on core `c`: the arrays at entry contents `A`; nothing said of what the body leaves in any staging
    buffer; the invariant is the scoped buffers no window stages; what the core owes is constant. -/
def rdat0 (c : Dev nD) (A : (w : Fin cfg1.W) → Buf (Elt F) ((cfg1.win w).arr.view.loc (c.tc : Thread nD τ))) :
    RDat τ (Elt F) (HIx 1) ℕ UU ℕ cfg1 c where
  A := A
  after _ _ _ _ := True
  Φ _ := Pipeline.scopedRest (Ix := HIx 1) (Name := ℕ) (U := UU) (Lvl := ℕ) (Val := Elt F) spec1 c
  q _ := fullShare
  owed _ := O
  recorded _ := below (F := F) c b

/-- Call 1's, alike. -/
def rdat1 (c : Dev nD) (A : (w : Fin cfg2.W) → Buf (Elt F) ((cfg2.win w).arr.view.loc (c.tc : Thread nD τ))) :
    RDat τ (Elt F) (HIx 1) ℕ UU ℕ cfg2 c where
  A := A
  after _ _ _ _ := True
  Φ _ := Pipeline.scopedRest (Ix := HIx 1) (Name := ℕ) (U := UU) (Lvl := ℕ) (Val := Elt F) spec2 c
  q _ := fullShare
  owed _ := O
  recorded _ := below (F := F) c b

variable (d : Dev nD)
  (A0 : (w : Fin cfg1.W) → Buf (Elt F) ((cfg1.win w).arr.view.loc (d.tc : Thread nD τ)))
  (A1 : (w : Fin cfg2.W) → Buf (Elt F) ((cfg2.win w).arr.view.loc (d.tc : Thread nD τ)))

/-- Both calls' proof data, the arrays' entry contents given on device `d`. -/
def rdats : (p : Fin 2) → (c : Dev nD) → RDat τ (Elt F) (HIx 1) ℕ UU ℕ (pin (pcfgs (F := F)) adm p) c
  | ⟨0, _⟩ => fun c => rdat0 b O c (atDev (β := fun c => (w : Fin cfg1.W) → Buf (Elt F) ((cfg1.win w).arr.view.loc (c.tc : Thread nD τ))) d A0 (fun _ _ => arbBuf _) c)
  | ⟨1, _⟩ => fun c => rdat1 b O c (atDev (β := fun c => (w : Fin cfg2.W) → Buf (Elt F) ((cfg2.win w).arr.view.loc (c.tc : Thread nD τ))) d A1 (fun _ _ => arbBuf _) c)

theorem rdats_A0 : (rdats b O d A0 A1 0 d).A = A0 :=
  atDev_self (β := fun c => (w : Fin cfg1.W) → Buf (Elt F) ((cfg1.win w).arr.view.loc (c.tc : Thread nD τ))) d A0 (fun _ _ => arbBuf _)
theorem rdats_A1 : (rdats b O d A0 A1 1 d).A = A1 :=
  atDev_self (β := fun c => (w : Fin cfg2.W) → Buf (Elt F) ((cfg2.win w).arr.view.loc (c.tc : Thread nD τ))) d A1 (fun _ _ => arbBuf _)

end Data

/-! ## The two bodies, on whole staging memrefs at any contents -/

set_option maxHeartbeats 1000000 in
/-- Call 0's body reads and writes only its four staging memrefs, and returns them held whole. -/
theorem sound_k1 (c : Dev nD) (E : Set ℕ) (i : grid1.Coords)
    (a1 : Memref sig .tc .smem S1x1 .f32) (h1 : a1.IsWhole) (a2 : Memref sig .tc .vmem S4x32x128x128 .f32) (h2 : a2.IsWhole)
    (a3 : Memref sig .tc .vmem S4x32x128x128 .f32) (h3 : a3.IsWhole) (a4 : Memref sig .tc .vmem S4x1x128 .f32) (h4 : a4.IsWhole)
    (y1 : S1x1.Idx → Elt F .f32) (y2 y3 : S4x32x128x128.Idx → Elt F .f32) (y4 : S4x1x128.Idx → Elt F .f32) (Kp : PUnit → sProp 𝕄) :
    iprop(owns (c : Thread nD τ) a1 fullShare y1 ∗ owns (c : Thread nD τ) a2 fullShare y2 ∗ owns (c : Thread nD τ) a3 fullShare y3
        ∗ owns (c : Thread nD τ) a4 fullShare y4
        ∗ (iprop((∃ x, owns (c : Thread nD τ) a1 fullShare x) ∗ (∃ x, owns (c : Thread nD τ) a2 fullShare x)
            ∗ (∃ x, owns (c : Thread nD τ) a3 fullShare x) ∗ (∃ x, owns (c : Thread nD τ) a4 fullShare x)) -∗ Kp ⟨⟩))
      ⊢ wp frame (wpE (defs₀ (F := F)) Variants.none c none) E (cc1__tc_block i a1 h1 a2 h2 a3 h3 a4 h4) Kp := by
  simp only [cc1__tc_block_eq_skeleton]; unfold cc1__tc_block_skel
  unfold owns
  iintro ⟨⟨%f1, -, H1⟩, ⟨%f2, -, H2⟩, ⟨%f3, -, H3⟩, ⟨%f4, -, H4⟩, Hk⟩
  sl_exec
  rw [wp_ret]; imodintro
  iapply Hk
  isplitl [H1]; · iexists _; iexists _; isplitr; swap; · iexact H1
                  ipureintro; rfl
  isplitl [H2]; · iexists _; iexists _; isplitr; swap; · iexact H2
                  ipureintro; rfl
  isplitl [H3]; · iexists _; iexists _; isplitr; swap; · iexact H3
                  ipureintro; rfl
  iexists _; iexists _; isplitr; swap; · iexact H4
  ipureintro; rfl

set_option maxHeartbeats 1000000 in
/-- Call 1's body reads and writes only its two staging memrefs, and returns them held whole. -/
theorem sound_k2 (c : Dev nD) (E : Set ℕ) (i : grid2.Coords)
    (a1 : Memref sig .tc .vmem S4x32x128x128 .f32) (h1 : a1.IsWhole) (a2 : Memref sig .tc .hbm S32x32x128x128 .f32) (h2 : a2.IsWhole)
    (a3 : Memref sig .tc .vmem S4x32x128x128 .f32) (h3 : a3.IsWhole)
    (y1 y3 : S4x32x128x128.Idx → Elt F .f32) (Kp : PUnit → sProp 𝕄) :
    iprop(owns (c : Thread nD τ) a1 fullShare y1 ∗ owns (c : Thread nD τ) a3 fullShare y3
        ∗ (iprop((∃ x, owns (c : Thread nD τ) a1 fullShare x) ∗ (∃ x, owns (c : Thread nD τ) a3 fullShare x)) -∗ Kp ⟨⟩))
      ⊢ wp frame (wpE (defs₀ (F := F)) Variants.none c none) E (cc2__copy_block i a1 h1 a2 h2 a3 h3) Kp := by
  simp only [cc2__copy_block_eq_skeleton]; unfold cc2__copy_block_skel
  unfold owns
  iintro ⟨⟨%f1, -, H1⟩, ⟨%f3, -, H3⟩, Hk⟩
  sl_exec
  rw [wp_ret]; imodintro
  iapply Hk
  isplitl [H1]; · iexists _; iexists _; isplitr; swap; · iexact H1
                  ipureintro; rfl
  iexists _; iexists _; isplitr; swap; · iexact H3
  ipureintro; rfl

/-! ## The body obligations -/

section Obl

variable [∀ e, Nonempty (Elt F e)] (b : ℕ) (O : CellTallies nD τ sig (HIx 1))

theorem sound_body0 (c : Dev nD) (A : (w : Fin cfg1.W) → Buf (Elt F) ((cfg1.win w).arr.view.loc (c.tc : Thread nD τ)))
    (t : Fin cfg1.N) (Y : (w : Fin cfg1.W) → (cfg1.win w).block.Idx → Elt F (cfg1.win w).elt) :
    iprop((rdat0 (F := F) b O c A).Φ t.castSucc ∗ (rdat0 (F := F) b O c A).owesAt none t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) fun _ =>
          iprop((rdat0 (F := F) b O c A).Φ t.succ ∗ (rdat0 (F := F) b O c A).owesAt none t.succ
            ∗ (∃ X, ⌜(rdat0 (F := F) b O c A).after 0 t (Y 0) X⌝ ∗ owns (c : Thread nD τ) (st1_0 t) fullShare X)
            ∗ (∃ X, ⌜(rdat0 (F := F) b O c A).after 1 t (Y 1) X⌝ ∗ owns (c : Thread nD τ) (st1_1 t) fullShare X)
            ∗ (∃ X, ⌜(rdat0 (F := F) b O c A).after 2 t (Y 2) X⌝ ∗ owns (c : Thread nD τ) (st1_2 t) fullShare X)
            ∗ (∃ X, ⌜(rdat0 (F := F) b O c A).after 3 t (Y 3) X⌝ ∗ owns (c : Thread nD τ) (st1_3 t) fullShare X)) := by
  rw [show (rdat0 (F := F) b O c A).Φ t.succ = (rdat0 (F := F) b O c A).Φ t.castSucc from rfl,
    show (rdat0 (F := F) b O c A).owesAt none t.succ = (rdat0 (F := F) b O c A).owesAt none t.castSucc from rfl]
  iintro ⟨HΦ, HO, H0, H1, H2, H3⟩
  iapply (sound_k1 c Set.univ (grid1.coords t) _ _ _ _ _ _ _ _ (Y 0) (Y 1) (Y 2) (Y 3) _)
  isplitl [H0]; · iexact H0
  isplitl [H1]; · iexact H1
  isplitl [H2]; · iexact H2
  isplitl [H3]; · iexact H3
  iintro ⟨⟨%x0, H0⟩, ⟨%x1, H1⟩, ⟨%x2, H2⟩, ⟨%x3, H3⟩⟩
  isplitl [HΦ]; · iexact HΦ
  isplitl [HO]; · iexact HO
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

theorem body_obl0 (c : Dev nD) (A : (w : Fin cfg1.W) → Buf (Elt F) ((cfg1.win w).arr.view.loc (c.tc : Thread nD τ))) :
    (rdat0 (F := F) b O c A).BodyObligation defs₀ 𝒱₀ none Set.univ := fun t Y _ => by
  rw [bigSep_W1, bigSep_W1]
  exact sound_body0 b O c A t Y

theorem sound_body1 (c : Dev nD) (A : (w : Fin cfg2.W) → Buf (Elt F) ((cfg2.win w).arr.view.loc (c.tc : Thread nD τ)))
    (t : Fin cfg2.N) (Y : (w : Fin cfg2.W) → (cfg2.win w).block.Idx → Elt F (cfg2.win w).elt) :
    iprop((rdat1 (F := F) b O c A).Φ t.castSucc ∗ (rdat1 (F := F) b O c A).owesAt none t.castSucc
        ∗ owns (c : Thread nD τ) (st2_0 t) fullShare (Y 0) ∗ owns (c : Thread nD τ) (st2_1 t) fullShare (Y 1))
      ⊢ wp frame (wpE (defs₀ (F := F)) Variants.none c none) Set.univ (bodyAt2 t) fun _ =>
          iprop((rdat1 (F := F) b O c A).Φ t.succ ∗ (rdat1 (F := F) b O c A).owesAt none t.succ
            ∗ (∃ X, ⌜(rdat1 (F := F) b O c A).after 0 t (Y 0) X⌝ ∗ owns (c : Thread nD τ) (st2_0 t) fullShare X)
            ∗ (∃ X, ⌜(rdat1 (F := F) b O c A).after 1 t (Y 1) X⌝ ∗ owns (c : Thread nD τ) (st2_1 t) fullShare X)) := by
  rw [show (rdat1 (F := F) b O c A).Φ t.succ = (rdat1 (F := F) b O c A).Φ t.castSucc from rfl,
    show (rdat1 (F := F) b O c A).owesAt none t.succ = (rdat1 (F := F) b O c A).owesAt none t.castSucc from rfl]
  iintro ⟨HΦ, HO, H0, H1⟩
  iapply (sound_k2 c Set.univ (grid2.coords t) _ _ _ _ _ _ (Y 0) (Y 1) _)
  isplitl [H0]; · iexact H0
  isplitl [H1]; · iexact H1
  iintro ⟨⟨%x0, H0⟩, ⟨%x1, H1⟩⟩
  isplitl [HΦ]; · iexact HΦ
  isplitl [HO]; · iexact HO
  isplitl [H0]; · iexists x0; isplitr; · ipureintro; trivial
                  iexact H0
  iexists x1; isplitr; · ipureintro; trivial
  iexact H1

theorem body_obl1 (c : Dev nD) (A : (w : Fin cfg2.W) → Buf (Elt F) ((cfg2.win w).arr.view.loc (c.tc : Thread nD τ))) :
    (rdat1 (F := F) b O c A).BodyObligation defs₀ 𝒱₀ none Set.univ := fun t Y _ => by
  rw [bigSep_W2, bigSep_W2]
  exact sound_body1 b O c A t Y

end Obl

/-! ## The two regions as the launch library's records -/

section Regions

variable [∀ e, Nonempty (Elt F e)] (b : ℕ) (O : CellTallies nD τ sig (HIx 1)) (hO : ∀ g, O g none = 0) (d : Dev nD)
  (A0 : (w : Fin cfg1.W) → Buf (Elt F) ((cfg1.win w).arr.view.loc (d.tc : Thread nD τ)))
  (A1 : (w : Fin cfg2.W) → Buf (Elt F) ((cfg2.win w).arr.view.loc (d.tc : Thread nD τ)))

set_option backward.isDefEq.respectTransparency.types false in
def reg0 : Pipeline.RDat.RegionSeg (pcfgs (F := F)) adm (rdats b O d A0 A1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl0 b O c _
  hwaits c := Pipeline.RDat.cellsWaits_intro _ _ _ 0 c fun w s t => (K (F := F)).mayWait_none _ hO
  pre c := iprop((rdats b O d A0 A1 0 c).arrays (rdats b O d A0 A1 0 c).A ∗ owesB (F := F) c b O)
  post c := iprop((rdats b O d A0 A1 0 c).arraysAt cfg1.N ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (rdats b O d A0 A1 0 c).Φ 0 = Pipeline.scopedRest (Ix := HIx 1) (Name := ℕ) (U := UU) (Lvl := ℕ) (Val := Elt F) spec1 c from rfl]
    iintro ⟨-, -, H⟩; iexact H
  hout c := by
    rw [Pipeline.ownSems0_none, show (rdats b O d A0 A1 0 c).Φ (Fin.last (pin (pcfgs (F := F)) adm 0).N) = Pipeline.scopedRest (Ix := HIx 1) (Name := ℕ) (U := UU) (Lvl := ℕ) (Val := Elt F) spec1 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

set_option backward.isDefEq.respectTransparency.types false in
def reg1 : Pipeline.RDat.RegionSeg (pcfgs (F := F)) adm (rdats b O d A0 A1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obl1 b O c _
  hwaits c := Pipeline.RDat.cellsWaits_intro _ _ _ 1 c fun w s t => (K (F := F)).mayWait_none _ hO
  pre c := iprop((rdats b O d A0 A1 1 c).arrays (rdats b O d A0 A1 1 c).A ∗ owesB (F := F) c b O)
  post c := iprop((rdats b O d A0 A1 1 c).arraysAt cfg2.N ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (rdats b O d A0 A1 1 c).Φ 0 = Pipeline.scopedRest (Ix := HIx 1) (Name := ℕ) (U := UU) (Lvl := ℕ) (Val := Elt F) spec2 c from rfl]
    iintro ⟨-, -, H⟩; iexact H
  hout c := by
    rw [Pipeline.ownSems0_none, show (rdats b O d A0 A1 1 c).Φ (Fin.last (pin (pcfgs (F := F)) adm 1).N) = Pipeline.scopedRest (Ix := HIx 1) (Name := ℕ) (U := UU) (Lvl := ℕ) (Val := Elt F) spec2 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

end Regions

/-! ## Stepping over a region inside the SparseCore program's @main -/

section Entry

/-- The arrays the two calls' windows move, on device `d`'s TensorCore. -/
abbrev l4 (d : Dev nD) : Loc nD τ sig := (SparseCore.T d).loc main_v4
abbrev l0 (d : Dev nD) : Loc nD τ sig := (SparseCore.T d).loc main_v0
abbrev l90 (d : Dev nD) : Loc nD τ sig := (SparseCore.T d).loc main_v9_0
abbrev l91 (d : Dev nD) : Loc nD τ sig := (SparseCore.T d).loc main_v9_1
abbrev l60 (d : Dev nD) : Loc nD τ sig := (SparseCore.T d).loc main_v6_0
abbrev l11 (d : Dev nD) : Loc nD τ sig := (SparseCore.T d).loc main_v11

variable [∀ e, Nonempty (Elt F e)] (b : ℕ) (O : CellTallies nD τ sig (HIx 1)) (d : Dev nD)

/-- Call 0's arrays on device `d`, window by window. -/
def mkA0 (f4 : Buf (Elt F) (l4 d)) (f0 : Buf (Elt F) (l0 d)) (f90 : Buf (Elt F) (l90 d))
    (f91 : Buf (Elt F) (l91 d)) : (w : Fin cfg1.W) → Buf (Elt F) ((cfg1.win w).arr.view.loc (d.tc : Thread nD τ))
  | ⟨0, _⟩ => f4
  | ⟨1, _⟩ => f0
  | ⟨2, _⟩ => f90
  | ⟨3, _⟩ => f91

/-- Call 1's. -/
def mkA1 (f60 : Buf (Elt F) (l60 d)) (f11 : Buf (Elt F) (l11 d)) :
    (w : Fin cfg2.W) → Buf (Elt F) ((cfg2.win w).arr.view.loc (d.tc : Thread nD τ))
  | ⟨0, _⟩ => f60
  | ⟨1, _⟩ => f11

omit [∀ e, Nonempty (Elt F e)] in
/-- Arrays that are whole buffers held at the full share: the exit assertion without the views. -/
theorem arraysAt_full {cfg : Cfg sig Λ₀} {c : Dev nD} (rd : RDat τ (Elt F) (HIx 1) ℕ UU ℕ cfg c) (hq : ∀ w, rd.q w = fullShare)
    (harr : ∀ w, (cfg.spec w).arr.IsWhole) (n : ℕ) :
    rd.arraysAt n = (bigSep Finset.univ fun w : Fin cfg.W =>
      iprop(∃ G, ⌜rd.ArrAt w n G⌝ ∗ ((cfg.win w).arr.view.loc (c.tc : Thread nD τ) ↦{fullShare} G)) : sProp 𝕄) := by
  unfold RDat.arraysAt
  exact bigSep_congr fun w _ => by rw [(harr w).set_eq_univ, Pipeline.RDat.share_full rd hq w]

theorem reg0_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg0 b O hO d A0 A1).pre d = iprop((rdats b O d A0 A1 0 d).arrays (rdats b O d A0 A1 0 d).A ∗ owesB (F := F) d b O) := rfl
theorem reg0_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg0 b O hO d A0 A1).post d = iprop((rdats b O d A0 A1 0 d).arraysAt cfg1.N ∗ owesB (F := F) d b O) := rfl
theorem reg1_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg1 b O hO d A0 A1).pre d = iprop((rdats b O d A0 A1 1 d).arrays (rdats b O d A0 A1 1 d).A ∗ owesB (F := F) d b O) := rfl
theorem reg1_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (reg1 b O hO d A0 A1).post d = iprop((rdats b O d A0 A1 1 d).arraysAt cfg2.N ∗ owesB (F := F) d b O) := rfl

variable (f4 : Buf (Elt F) (l4 d)) (f0 : Buf (Elt F) (l0 d)) (f90 : Buf (Elt F) (l90 d))
    (f91 : Buf (Elt F) (l91 d)) (f60 : Buf (Elt F) (l60 d)) (f11 : Buf (Elt F) (l11 d))

theorem arrays0_eq (A1 : (w : Fin cfg2.W) → Buf (Elt F) ((cfg2.win w).arr.view.loc (d.tc : Thread nD τ))) :
    (rdats b O d (mkA0 d f4 f0 f90 f91) A1 0 d).arrays (rdats b O d (mkA0 d f4 f0 f90 f91) A1 0 d).A
      = (iprop((l4 d ↦{fullShare} f4) ∗ (l0 d ↦{fullShare} f0) ∗ (l90 d ↦{fullShare} f90)
          ∗ (l91 d ↦{fullShare} f91)) : sProp 𝕄) := by
  rw [Pipeline.RDat.arrays_eq (pcfgs (F := F)) adm (rdats b O d (mkA0 d f4 f0 f90 f91) A1) 0 d launch1.arr_whole
    (Pipeline.RDat.share_full _ fun _ => rfl), rdats_A0, bigSep_W1]
  rfl

theorem arraysAt0_out (A1 : (w : Fin cfg2.W) → Buf (Elt F) ((cfg2.win w).arr.view.loc (d.tc : Thread nD τ))) :
    (rdats b O d (mkA0 d f4 f0 f90 f91) A1 0 d).arraysAt cfg1.N
      ⊢ (iprop((l4 d ↦{fullShare} f4) ∗ (l0 d ↦{fullShare} f0) ∗ (∃ g, l90 d ↦{fullShare} g)
          ∗ (∃ g, l91 d ↦{fullShare} g)) : sProp 𝕄) := by
  rw [arraysAt_full _ (fun _ => rfl) launch1.arr_whole, bigSep_W1]
  iintro ⟨⟨%F0, %h0, H0⟩, ⟨%F1, %h1, H1⟩, ⟨%F2, -, H2⟩, ⟨%F3, -, H3⟩⟩
  rw [RDat.ArrAt_in _ 0 rfl, rdats_A0] at h0
  rw [RDat.ArrAt_in _ 1 rfl, rdats_A0] at h1
  rw [h0]; rw [h1]
  isplitl [H0]; · iexact H0
  isplitl [H1]; · iexact H1
  isplitl [H2]; · iexists F2; iexact H2
  iexists F3; iexact H3

set_option backward.isDefEq.respectTransparency.types false in
/-- TensorCore call 0 inside @main: from the region boundary, the pipeline's ghost state, what the TensorCore owes, and its
    four arrays whole, the call runs and hands back the same with the two results at some contents. -/
theorem region_0 (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 0 d ∗ owesB (F := F) d b O
        ∗ (l4 d ↦{fullShare} f4) ∗ (l0 d ↦{fullShare} f0) ∗ (l90 d ↦{fullShare} f90)
        ∗ (l91 d ↦{fullShare} f91)
        ∗ (iprop(boundary (T d) ∗ owesB (F := F) d b O ∗ (l4 d ↦{fullShare} f4) ∗ (l0 d ↦{fullShare} f0)
              ∗ (∃ g, l90 d ↦{fullShare} g) ∗ (∃ g, l91 d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  have hR := Pipeline.RDat.RegionSeg.wp (pcfgs (F := F)) adm (rdats b O d (mkA0 d f4 f0 f90 f91) (fun _ => arbBuf _)) (none : HIx 1) hinj ER defs₀ 𝒱₀
    (K (F := F)).L (K (F := F)).lev (reg0 b O hO d (mkA0 d f4 f0 f90 f91) (fun _ => arbBuf _)) d none (fun _ h => nomatch h) (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (SparseCore.T d) Set.univ none (.op (.customCall (Pipeline.entry 0) ()) fun _ => Prog.ret PUnit.unit)
    (fun _ => wp frame (wpE ((K (F := F)).defs (D (F := F))) 𝒱 (T d) none) Set.univ (k ⟨⟩) Φ)
  rw [reg0_pre, reg0_post] at hR
  rw [wp_bind]
  refine .trans ?_ hL
  refine .trans ?_ hR
  unfold regionGhost
  iintro ⟨#Hla, Hb, ⟨Hcg, Htk⟩, HO, H4, H0, H90, H91, Hk⟩
  isplitl [Hk]
  · iintro ⟨Hb, Hpost⟩
    rw [wp_ret]; imodintro
    iapply Hk
    icases Hpost with ⟨Ha, HO⟩
    ihave Ha' := (arraysAt0_out b O d f4 f0 f90 f91 _) $$ Ha
    icases Ha' with ⟨H4, H0, H90, H91⟩
    isplitl [Hb]; · iexact Hb
    isplitl [HO]; · iexact HO
    isplitl [H4]; · iexact H4
    isplitl [H0]; · iexact H0
    isplitl [H90]; · iexact H90
    iexact H91
  isplitl [Hb]; · iexact Hb
  isplitl [HO H4 H0 H90 H91]
  · isplitr [HO]
    · iapply (Entails.of_eq (arrays0_eq b O d f4 f0 f90 f91 _).symm)
      isplitl [H4]; · iexact H4
      isplitl [H0]; · iexact H0
      isplitl [H90]; · iexact H90
      iexact H91
    · iexact HO
  isplitr; · iexact Hla
  isplitl [Hcg]; · iexact Hcg
  iexact Htk

theorem arrays1_eq (A0 : (w : Fin cfg1.W) → Buf (Elt F) ((cfg1.win w).arr.view.loc (d.tc : Thread nD τ))) :
    (rdats b O d A0 (mkA1 d f60 f11) 1 d).arrays (rdats b O d A0 (mkA1 d f60 f11) 1 d).A
      = (iprop((l60 d ↦{fullShare} f60) ∗ (l11 d ↦{fullShare} f11)) : sProp 𝕄) := by
  rw [Pipeline.RDat.arrays_eq (pcfgs (F := F)) adm (rdats b O d A0 (mkA1 d f60 f11)) 1 d launch2.arr_whole
    (Pipeline.RDat.share_full _ fun _ => rfl), rdats_A1, bigSep_W2]
  rfl

theorem arraysAt1_out (A0 : (w : Fin cfg1.W) → Buf (Elt F) ((cfg1.win w).arr.view.loc (d.tc : Thread nD τ))) :
    (rdats b O d A0 (mkA1 d f60 f11) 1 d).arraysAt cfg2.N
      ⊢ (iprop((l60 d ↦{fullShare} f60) ∗ (∃ g, l11 d ↦{fullShare} g)) : sProp 𝕄) := by
  rw [arraysAt_full _ (fun _ => rfl) launch2.arr_whole, bigSep_W2]
  iintro ⟨⟨%F0, %h0, H0⟩, ⟨%F1, -, H1⟩⟩
  rw [RDat.ArrAt_in _ 0 rfl, rdats_A1] at h0
  rw [h0]
  isplitl [H0]; · iexact H0
  iexists F1; iexact H1

set_option backward.isDefEq.respectTransparency.types false in
/-- TensorCore call 1 inside @main: from the region boundary, the pipeline's ghost state, what the TensorCore owes, and its
    two arrays whole, the call runs and hands back the same with the result at some contents. -/
theorem region_1 (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 1 d ∗ owesB (F := F) d b O
        ∗ (l60 d ↦{fullShare} f60) ∗ (l11 d ↦{fullShare} f11)
        ∗ (iprop(boundary (T d) ∗ owesB (F := F) d b O ∗ (l60 d ↦{fullShare} f60) ∗ (∃ g, l11 d ↦{fullShare} g))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  have hR := Pipeline.RDat.RegionSeg.wp (pcfgs (F := F)) adm (rdats b O d (fun _ => arbBuf _) (mkA1 d f60 f11)) (none : HIx 1) hinj ER defs₀ 𝒱₀
    (K (F := F)).L (K (F := F)).lev (reg1 b O hO d (fun _ => arbBuf _) (mkA1 d f60 f11)) d none (fun _ h => nomatch h) (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (T d) Set.univ none (.op (.customCall (Pipeline.entry 1) ()) fun _ => Prog.ret PUnit.unit)
    (fun _ => wp frame (wpE ((K (F := F)).defs (D (F := F))) 𝒱 (T d) none) Set.univ (k ⟨⟩) Φ)
  rw [reg1_pre, reg1_post] at hR
  rw [wp_bind]
  refine .trans ?_ hL
  refine .trans ?_ hR
  unfold regionGhost
  iintro ⟨#Hla, Hb, ⟨Hcg, Htk⟩, HO, H60, H11, Hk⟩
  isplitl [Hk]
  · iintro ⟨Hb, Hpost⟩
    rw [wp_ret]; imodintro
    iapply Hk
    icases Hpost with ⟨Ha, HO⟩
    ihave Ha' := (arraysAt1_out b O d f60 f11 _) $$ Ha
    icases Ha' with ⟨H60, H11⟩
    isplitl [Hb]; · iexact Hb
    isplitl [HO]; · iexact HO
    isplitl [H60]; · iexact H60
    iexact H11
  isplitl [Hb]; · iexact Hb
  isplitl [HO H60 H11]
  · isplitr [HO]
    · iapply (Entails.of_eq (arrays1_eq b O d f60 f11 _).symm)
      isplitl [H60]; · iexact H60
      iexact H11
    · iexact HO
  isplitr; · iexact Hla
  isplitl [Hcg]; · iexact Hcg
  iexact Htk

end Entry

end Cert.Proof.KB

end
-- ==== Proof.KB.RegionSteps.lean ====
/-
  The two TensorCore regions' steps in the form @main's proof takes them.
-/
import proofs.«216181_g9861244912407_cont_9to1_m_1073_40_alg».proof.Proof.KB.Main
import proofs.«216181_g9861244912407_cont_9to1_m_1073_40_alg».proof.Proof.KB.Regions

noncomputable section

namespace Cert.Proof.KB

open Cert.Kernel Cert.Kernel.Gen
open Idealize.ShloMosaic

variable {F : FTy → Type} [FloatOps F] [∀ e, Nonempty (Elt F e)]

theorem region_0_R : Region0 (F := F) regionGhost := fun d b O hO f4 f0 f90 f91 _ k Φ => region_0 b O d f4 f0 f90 f91 hO k Φ
theorem region_1_R : Region1 (F := F) regionGhost := fun d b O hO f60 f11 _ k Φ => region_1 b O d f60 f11 hO k Φ

end Cert.Proof.KB

end
-- ==== Proof.KB.Frame.lean ====
/-
  The frame of the idealized kernel: the launch's run with the tile's body obligation and the two TensorCore regions'
  steps supplied.
-/
import proofs.«216181_g9861244912407_cont_9to1_m_1073_40_alg».proof.Proof.KB.Launch
import proofs.«216181_g9861244912407_cont_9to1_m_1073_40_alg».proof.Proof.KB.Tile
import proofs.«216181_g9861244912407_cont_9to1_m_1073_40_alg».proof.Proof.KB.RegionSteps
import proofs.«216181_g9861244912407_cont_9to1_m_1073_40_alg».proof.Proof.Gen.Pre_input_domain

noncomputable section

namespace Cert.Proof.KB

open Idealize.ShloMosaic Idealize.SL.Sem

/-- Every weakly fair execution of the program's threads ends, faults nowhere, and keeps the three arguments. -/
theorem frame_run : Cert.frame_Kernel := fun m ρ _ =>
  (θ_run Cert.Kernel.defs _ _).mono (fun _ h c => h c)
    (run_main (F := Bits) m ρ (tileObl (F := Bits) (vin m) (vpc m)) (region_0_R (F := Bits)) (region_1_R (F := Bits)))

end Cert.Proof.KB

end
-- ==== Proof.KI.SpecSC.lean ====
/-
  What the SparseCore call computes, as extended reals.  For the first four source tokens `r` and every source clone
  `c`: the row sum is the sum of the counts over the destination token and clone plus 4096 pseudocounts, the
  denominator is that sum where it is positive and one elsewhere, and every count is scaled by the denominator's
  reciprocal and shifted by the scaled pseudocount.  The row-sum array holds, for tile `s` and lane `l < 8`, the row
  sum of clone `8 s + l`; its upper eight lanes hold zero.
-/
import proofs.«216181_g9861244912407_cont_9to1_m_1073_40_alg».proof.Proof.KI.Common
import Idealize.ShloMosaic.PureOps.Ideal
import Idealize.ShloMosaic.Lib.ValueIdx

noncomputable section

namespace Cert.Proof.KI

open Cert.KernelIdeal Cert.KernelIdeal.Gen
open Idealize.ShloMosaic Idealize.ShloMosaic.ValueIdx

/-- The sixteen-lane pseudocount vector's first lane. -/
abbrev pc0 (p : S16.Idx → EReal) : EReal := p (ix1 (0 : Fin 16))

/-- The row sum of source token `r`, source clone `c`. -/
def scRs (x : S4x32x128x128.Idx → EReal) (p : S16.Idx → EReal) (r : Fin 4) (c : Fin 128) : EReal :=
  (∑ j : Fin 32, ∑ e : Fin 128, x (ix4 r j c e)) + pc0 p * Ideal.ofBits .f32 0x45800000#32

/-- The denominator: the row sum where positive, one elsewhere. -/
def scDen (x : S4x32x128x128.Idx → EReal) (p : S16.Idx → EReal) (r : Fin 4) (c : Fin 128) : EReal :=
  if 0 < scRs x p r c then scRs x p r c else Ideal.ofBits .f32 0x3F800000#32

/-- Its reciprocal, as the kernel forms it: one divided by the denominator. -/
def scRcp (x : S4x32x128x128.Idx → EReal) (p : S16.Idx → EReal) (r : Fin 4) (c : Fin 128) : EReal :=
  Ideal.div (Ideal.ofBits .f32 0x3F800000#32) (scDen x p r c)

/-- The call's output array. -/
def scOut (x : S4x32x128x128.Idx → EReal) (p : S16.Idx → EReal) : S4x32x128x128.Idx → EReal := fun i =>
  x i * scRcp x p (i 0) (i 2) + p (ix1 (⟨(i 3).val % 16, Nat.mod_lt _ (by decide)⟩ : Fin 16)) * scRcp x p (i 0) (i 2)

/-- The call's row-sum array. -/
def scRsArr (x : S4x32x128x128.Idx → EReal) (p : S16.Idx → EReal) : S4x1x16x16.Idx → EReal := fun i =>
  if h : (i 3).val < 8 then scRs x p (i 0) ⟨8 * (i 2).val + (i 3).val, by have h2 : (i 2).val < 16 := (i 2).isLt; show 8 * (i 2).val + (i 3).val < 128; omega⟩ else 0

end Cert.Proof.KI

end
-- ==== Proof.KI.PayV.lean ====
/-
  What the handshakes of the SparseCore call carry when the call's results are named: the tiles hand their output
  boxes and their rows of the row sums back at the values the specification gives them, and the call hands the two
  arrays back whole at those values.
-/
import proofs.«216181_g9861244912407_cont_9to1_m_1073_40_alg».proof.Proof.KI.SpecSC
import proofs.«216181_g9861244912407_cont_9to1_m_1073_40_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

local notation "𝕄" => MT nD τ sig (HIx 1) (Elt Ideal) ℕ UU ℕ

variable (vin : (d : Dev nD) → Buf (Elt Ideal) (inLoc d)) (vpc : (d : Dev nD) → Buf (Elt Ideal) (pcLoc d))

/-- The call's two results, as the specification names them. -/
def gout (d : Dev nD) : Buf (Elt Ideal) (outLoc d) := scOut (vin d) (vpc d)
def grs (d : Dev nD) : Buf (Elt Ideal) (rsLoc d) := scRsArr (vin d) (vpc d)

/-- What tile `s` hands back: its input boxes and its read share as it got them, its output boxes and its row of the
    row sums at the specification's values. -/
def tileResV (d : Dev nD) (s : Fin 16) : sProp 𝕄 :=
  iprop((bigSep Finset.univ fun r : Fin 4 => inLoc d ↦[tileSet s r]{fullShare} vin d)
    ∗ (pcLoc d ↦{shareTok fullShare 16 s} vpc d)
    ∗ (bigSep Finset.univ fun r : Fin 4 => outLoc d ↦[tileSet s r]{fullShare} gout vin vpc d)
    ∗ (rsLoc d ↦[rsSet s]{fullShare} grs vin vpc d))

/-- What the call brings back. -/
def callResV (d : Dev nD) : sProp 𝕄 :=
  iprop((inLoc d ↦{fullShare} vin d) ∗ (pcLoc d ↦{fullShare} vpc d) ∗ (outLoc d ↦{fullShare} gout vin vpc d) ∗ (rsLoc d ↦{fullShare} grs vin vpc d))

def PV : (K (F := Ideal)).Pay (nD := nD) (Val := Elt Ideal) (Name := ℕ) (U := UU) where
  st := fun _ d _ => callRes vin vpc d
  dn := fun _ d _ => callResV vin vpc d
  go := fun q d _ i => match q with | 0 => tileRes vin vpc d (Fin.cast nSub_zero i)
  td := fun q d _ i => match q with | 0 => tileResV vin vpc d (Fin.cast nSub_zero i)
  x := fun _ _ => iprop(emp)

instance tileResV_storable (d : Dev nD) (s : Fin 16) : BI.Storable (upEmb : UEmb _ 𝕄) (tileResV vin vpc d s) := by
  unfold tileResV; infer_instance
instance callResV_storable (d : Dev nD) : BI.Storable (upEmb : UEmb _ 𝕄) (callResV vin vpc d) := by
  unfold callResV; infer_instance

instance PV_storable : (PV vin vpc).IsStorable where
  st _ d c := by unfold PV; infer_instance
  dn _ d c := by unfold PV; infer_instance
  go q d _ i := match q with | 0 => (inferInstance : BI.Storable (upEmb : UEmb _ 𝕄) (tileRes vin vpc d (Fin.cast nSub_zero i)))
  td q d _ i := match q with | 0 => (inferInstance : BI.Storable (upEmb : UEmb _ 𝕄) (tileResV vin vpc d (Fin.cast nSub_zero i)))

theorem vecSplitV : (K (F := Ideal)).VecSplit' (PV vin vpc) 0 := by
  intro d c
  show callRes vin vpc d ⊢ |={Set.univ}=> iprop(
      (bigSep Finset.univ fun i : Fin ((K (F := Ideal)).nSub 0) => tileRes vin vpc d (Fin.cast nSub_zero i))
      ∗ ((bigSep Finset.univ fun i : Fin ((K (F := Ideal)).nSub 0) => tileResV vin vpc d (Fin.cast nSub_zero i)) -∗ callResV vin vpc d))
  rw [bigSep_tasks (F := Ideal) (fun s => tileRes vin vpc d s), bigSep_tasks (F := Ideal) (fun s => tileResV vin vpc d s)]
  unfold callRes callResV tileRes tileResV
  rw [bigSep_sep', bigSep_sep', bigSep_sep', bigSep_sep', bigSep_sep', bigSep_sep']
  iintro ⟨Hin, Hpc, ⟨%fo, Hout⟩, ⟨%fr, Hrs⟩⟩
  ihave Hin' := (Entails.of_eq (in_boxes (F := Ideal) d (vin d))) $$ Hin
  ihave Hout' := (Entails.of_eq (out_boxes (F := Ideal) d fo)) $$ Hout
  ihave Hrs' := (Entails.of_eq (rs_rows (F := Ideal) d fr)) $$ Hrs
  ihave Hpc' := (pointsTo_toks_split (ℓ := pcLoc d) (S := Finset.univ) (f := vpc d) fullShare 16) $$ Hpc
  icases Hpc' with ⟨Hdrop, Htoks⟩
  imodintro
  isplitl [Hin' Htoks Hout' Hrs']
  · isplitl [Hin']; · iexact Hin'
    isplitl [Htoks]; · iexact Htoks
    isplitl [Hout']
    · iapply (out_some (F := Ideal) d fo); iexact Hout'
    · iapply (rs_some (F := Ideal) d fr); iexact Hrs'
  iintro ⟨Hin, Htoks, Hout, Hrs⟩
  isplitl [Hin]; · iapply (Entails.of_eq (in_boxes (F := Ideal) d (vin d)).symm); iexact Hin
  isplitl [Hdrop Htoks]
  · iapply (pointsTo_toks_join (ℓ := pcLoc d) (S := Finset.univ) (f := vpc d) fullShare 16)
    isplitl [Hdrop] <;> iassumption
  isplitl [Hout]; · iapply (Entails.of_eq (out_boxes (F := Ideal) d (gout vin vpc d)).symm); iexact Hout
  iapply (Entails.of_eq (rs_rows (F := Ideal) d (grs vin vpc d)).symm); iexact Hrs

end Cert.Proof.KI

end
-- ==== Proof.KI.MainV.lean ====
/-
  @main on the TensorCore with every result named: the same walk as the frame's, the SparseCore call's two arrays
  coming back at the specification's values and each TensorCore region's results at the values its step names, so
  that the final memory's two result arrays are explicit terms of the arguments.
-/
import proofs.«216181_g9861244912407_cont_9to1_m_1073_40_alg».proof.Proof.KI.Main
import proofs.«216181_g9861244912407_cont_9to1_m_1073_40_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

local notation "𝕄" => MT nD τ sig (HIx 1) (Elt Ideal) ℕ UU ℕ

variable (m : (ℓ : Loc nD τ sig) → Buf (Elt Ideal) ℓ) (ρ : Dev nD → PrngReg)

/-- What the first region's step names its two results, from the four arrays it is entered with. -/
abbrev G0Ty : Type := (d : Dev nD) → Buf (Elt Ideal) (v4Loc d) → Buf (Elt Ideal) (v0Loc d) → Buf (Elt Ideal) (v90Loc d) → Buf (Elt Ideal) (v91Loc d) → Buf (Elt Ideal) (v90Loc d) × Buf (Elt Ideal) (v91Loc d)
/-- What the merge's step names its result. -/
abbrev G1Ty : Type := (d : Dev nD) → Buf (Elt Ideal) (outLoc d) → Buf (Elt Ideal) (v11Loc d) → Buf (Elt Ideal) (v11Loc d)

def Region0V (RG : Fin 2 → Dev nD → sProp 𝕄) (G0 : G0Ty) : Prop :=
  ∀ (d : Dev nD) (b : ℕ) (O : CellTallies nD τ sig (HIx 1)) (_ : ∀ g, O g none = 0)
    (f4 : Buf (Elt Ideal) (v4Loc d)) (f0 : Buf (Elt Ideal) (v0Loc d)) (f90 : Buf (Elt Ideal) (v90Loc d)) (f91 : Buf (Elt Ideal) (v91Loc d))
    {α : Type} (k : PUnit → Prog (TpuEff nD τ sig (Elt Ideal) (SparseCore.Sig (ΛP (F := Ideal)) 1) .tc) α) (Φ : α → sProp 𝕄),
    iprop(levAts (K (F := Ideal)).L (K (F := Ideal)).lev ∗ boundary (T d) ∗ RG 0 d ∗ (∃ W, ⌜(K (F := Ideal)).WBelow (T d) W b⌝ ∗ owes (T d) O W)
        ∗ (v4Loc d ↦{fullShare} f4) ∗ (v0Loc d ↦{fullShare} f0) ∗ (v90Loc d ↦{fullShare} f90) ∗ (v91Loc d ↦{fullShare} f91)
        ∗ (iprop(boundary (T d) ∗ (∃ W, ⌜(K (F := Ideal)).WBelow (T d) W b⌝ ∗ owes (T d) O W) ∗ (v4Loc d ↦{fullShare} f4) ∗ (v0Loc d ↦{fullShare} f0)
              ∗ (v90Loc d ↦{fullShare} (G0 d f4 f0 f90 f91).1) ∗ (v91Loc d ↦{fullShare} (G0 d f4 f0 f90 f91).2))
            -∗ wp frame (wpE ((K (F := Ideal)).defs (D (F := Ideal))) 𝒱 (T d) none) Set.univ (k ⟨⟩) Φ))
      ⊢ wp frame (wpE ((K (F := Ideal)).defs (D (F := Ideal))) 𝒱 (T d) none) Set.univ (region0 >>= k) Φ

def Region1V (RG : Fin 2 → Dev nD → sProp 𝕄) (G1 : G1Ty) : Prop :=
  ∀ (d : Dev nD) (b : ℕ) (O : CellTallies nD τ sig (HIx 1)) (_ : ∀ g, O g none = 0)
    (f60 : Buf (Elt Ideal) (outLoc d)) (f11 : Buf (Elt Ideal) (v11Loc d))
    {α : Type} (k : PUnit → Prog (TpuEff nD τ sig (Elt Ideal) (SparseCore.Sig (ΛP (F := Ideal)) 1) .tc) α) (Φ : α → sProp 𝕄),
    iprop(levAts (K (F := Ideal)).L (K (F := Ideal)).lev ∗ boundary (T d) ∗ RG 1 d ∗ (∃ W, ⌜(K (F := Ideal)).WBelow (T d) W b⌝ ∗ owes (T d) O W)
        ∗ (outLoc d ↦{fullShare} f60) ∗ (v11Loc d ↦{fullShare} f11)
        ∗ (iprop(boundary (T d) ∗ (∃ W, ⌜(K (F := Ideal)).WBelow (T d) W b⌝ ∗ owes (T d) O W) ∗ (outLoc d ↦{fullShare} f60) ∗ (v11Loc d ↦{fullShare} G1 d f60 f11))
            -∗ wp frame (wpE ((K (F := Ideal)).defs (D (F := Ideal))) 𝒱 (T d) none) Set.univ (k ⟨⟩) Φ))
      ⊢ wp frame (wpE ((K (F := Ideal)).defs (D (F := Ideal))) 𝒱 (T d) none) Set.univ (region1 >>= k) Φ

section

variable (G0 : G0Ty) (G1 : G1Ty)

/-- The valuations along @main, each named from the one before. -/
abbrev W1 (d : Dev nD) : Valuation τ sig (Elt Ideal) := after ops0 (V0 m d)
abbrev W2 (d : Dev nD) : Valuation τ sig (Elt Ideal) := V2' (W1 m d) d (gout (vin m) (vpc m) d) (grs (vin m) (vpc m) d)
abbrev W3 (d : Dev nD) : Valuation τ sig (Elt Ideal) := after ops1 (W2 m d)
abbrev W4 (d : Dev nD) : Valuation τ sig (Elt Ideal) :=
  V4' (W3 m d) d (G0 d (W3 m d v4') (W3 m d v0') (W3 m d v90') (W3 m d v91')).1 (G0 d (W3 m d v4') (W3 m d v0') (W3 m d v90') (W3 m d v91')).2
abbrev W5 (d : Dev nD) : Valuation τ sig (Elt Ideal) := after ops2 (W4 m G0 d)
abbrev W6 (d : Dev nD) : Valuation τ sig (Elt Ideal) := V6' (W5 m G0 d) d (G1 d (W5 m G0 d out') (W5 m G0 d v11'))
abbrev W7 (d : Dev nD) : Valuation τ sig (Elt Ideal) := after ops3 (W6 m G0 G1 d)

theorem keeps_W7 (d : Dev nD) : Keeps m d (W7 m G0 G1 d) :=
  keeps_after m ops3 ops3_W ops3_writes (by decide) (by decide) (by decide)
    (keeps_update m v11' _ (by decide) (by decide) (by decide)
      (keeps_after m ops2 ops2_W ops2_writes (by decide) (by decide) (by decide)
        (keeps_update m v91' _ (by decide) (by decide) (by decide)
          (keeps_update m v90' _ (by decide) (by decide) (by decide)
            (keeps_after m ops1 ops1_W ops1_writes (by decide) (by decide) (by decide)
              (keeps_update m rs' _ (by decide) (by decide) (by decide)
                (keeps_update m out' _ (by decide) (by decide) (by decide)
                  (keeps_after m ops0 ops0_W ops0_writes (by decide) (by decide) (by decide) (keeps_V0 m d)))))))))

abbrev v13' : DevRef τ sig := Proc.devRef .tc (main_v13 : Ref sig .tc)
abbrev v12' : DevRef τ sig := Proc.devRef .tc (main_v12 : Ref sig .tc)
abbrev v13Loc (d : Dev nD) : Loc nD τ sig := (SparseCore.T d).loc main_v13
abbrev v12Loc (d : Dev nD) : Loc nD τ sig := (SparseCore.T d).loc main_v12
abbrev Sfin : Finset (DevRef τ sig) := {v13', v12', a0', a1', a2'}
theorem Sfin_sub : Sfin ⊆ Sall := by decide

theorem held_Sfin (d : Dev nD) (W : Valuation τ sig (Elt Ideal)) :
    (held (d.tc : Thread nD τ) Sfin W : sProp 𝕄) = iprop((v13Loc d ↦{fullShare} W v13') ∗ (v12Loc d ↦{fullShare} W v12') ∗ (a0Loc d ↦{fullShare} W a0') ∗ (a1Loc d ↦{fullShare} W a1') ∗ (a2Loc d ↦{fullShare} W a2')) := by
  unfold held Sfin
  rw [SparseCore.bigSep_insert' (by decide), SparseCore.bigSep_insert' (by decide), SparseCore.bigSep_insert' (by decide), SparseCore.bigSep_insert' (by decide), bigSep_singleton]

/-- What @main leaves the value claim: the two results at their named values, the three arguments at their launch contents. -/
abbrev FINV (d : Dev nD) : sProp 𝕄 :=
  iprop((v13Loc d ↦{fullShare} W7 m G0 G1 d v13') ∗ (v12Loc d ↦{fullShare} W7 m G0 G1 d v12')
    ∗ (a0Loc d ↦{fullShare} m (a0Loc d)) ∗ (a1Loc d ↦{fullShare} m (a1Loc d)) ∗ (a2Loc d ↦{fullShare} m (a2Loc d)))

theorem finV_of_held (d : Dev nD) : (held (d.tc : Thread nD τ) Sall (W7 m G0 G1 d) : sProp 𝕄) ⊢ FINV m G0 G1 d := by
  have h := keeps_W7 m G0 G1 d
  rw [held_sub_split (d.tc : Thread nD τ) Sfin_sub (W7 m G0 G1 d), held_Sfin, h.1, h.2.1, h.2.2]; exact sep_elim_left

theorem st0V_eq (d : Dev nD) : (bigSep Finset.univ fun c : Fin ((K (F := Ideal)).nCore 0) => (PV (vin m) (vpc m)).st 0 d c) = callRes (vin m) (vpc m) d := by
  show (bigSep (Finset.univ : Finset (Fin 1)) fun _ => callRes (vin m) (vpc m) d) = _
  rw [show (Finset.univ : Finset (Fin 1)) = {0} by decide, bigSep_singleton]
theorem dn0V_eq (d : Dev nD) : (bigSep Finset.univ fun c : Fin ((K (F := Ideal)).nCore 0) => (PV (vin m) (vpc m)).dn 0 d c) = callResV (vin m) (vpc m) d := by
  show (bigSep (Finset.univ : Finset (Fin 1)) fun _ => callResV (vin m) (vpc m) d) = _
  rw [show (Finset.univ : Finset (Fin 1)) = {0} by decide, bigSep_singleton]

theorem hmainV (RG : Fin 2 → Dev nD → sProp 𝕄) (hr0 : Region0V RG G0) (hr1 : Region1V RG G1) (κ : GSem nD τ sig → ℕ) (d : Dev nD) :
    iprop((K (F := Ideal)).ctx EH (PV (vin m) (vpc m)) κ ∗ (K (F := Ideal)).tcSt EH d 0 ∗ (K (F := Ideal)).tcRes m ρ d ∗ (RG 0 d ∗ RG 1 d))
      ⊢ wp frame (wpE ((K (F := Ideal)).defs (D (F := Ideal))) 𝒱 (SparseCore.T d) none) Set.univ (main d)
          fun _ => iprop((K (F := Ideal)).tcSt EH d 1 ∗ FINV m G0 G1 d) := by
  obtain ⟨R, hR⟩ := tcSt_owes (F := Ideal) d ((0 : Fin 1).val + 1)
  have hO : ∀ g, (K (F := Ideal)).Otc d ((0 : Fin 1).val + 1) g none = 0 := fun g => by rw [(K (F := Ideal)).Otc_end d (n := (0 : Fin 1).val + 1) (Nat.le_refl 1)]; rfl
  unfold SparseCore.Cfg.tcRes
  rw [unscoped_held, main_eq']
  iintro ⟨#Hctx, Hst, ⟨Hb, Hheld, Hsems, Hprng⟩, HG0, HG1⟩
  iapply (wp_seq 𝒱 none Set.univ d Sall _ ops0 ops0_sub ops0_fresh (V0 m d)) $$ [Hb Hheld]
  · isplitl [Hb] <;> iassumption
  iintro ⟨Hb, Hheld⟩
  ihave Hh := (Entails.of_eq (held_call_split (F := Ideal) d (after ops0 (V0 m d)))) $$ Hheld
  icases Hh with ⟨⟨Hin, Hpc, Hout, Hrs⟩, Hrest⟩
  rw [wp_bind]
  iapply ((K (F := Ideal)).wp_run (D (F := Ideal)) 𝒱 (EH := EH) (P := PV (vin m) (vpc m)) κ d 0) $$ [Hst Hin Hpc Hout Hrs Hb Hrest Hsems Hprng HG0 HG1]
  isplitr; · iexact Hctx
  isplitl [Hst]; · iexact Hst
  isplitl [Hin Hpc Hout Hrs]
  · rw [st0V_eq]; unfold callRes
    isplitl [Hin]; · iexact Hin
    isplitl [Hpc]; · iexact Hpc
    isplitl [Hout]; · iexists _; iexact Hout
    iexists _; iexact Hrs
  iintro ⟨Hst, Hdn⟩
  ihave Hdn' := (Entails.of_eq ((dn0V_eq m d).trans (by unfold callResV; rfl))) $$ Hdn
  icases Hdn' with ⟨Hin, Hpc, Hout, Hrs⟩
  ihave Hheld := (Entails.of_eq (held_call_join (F := Ideal) d (after ops0 (V0 m d)) (gout (vin m) (vpc m) d) (grs (vin m) (vpc m) d))) $$ [Hin Hpc Hout Hrs Hrest]
  · isplitl [Hin Hpc Hout Hrs]
    · isplitl [Hin]; · iexact Hin
      isplitl [Hpc]; · iexact Hpc
      isplitl [Hout] <;> iassumption
    · iexact Hrest
  iapply (wp_seq 𝒱 none Set.univ d Sall _ ops1 ops1_sub ops1_fresh _) $$ [Hb Hheld]
  · isplitl [Hb] <;> iassumption
  iintro ⟨Hb, Hheld⟩
  ihave Hh := (Entails.of_eq (held_r0_split (F := Ideal) d _)) $$ Hheld
  icases Hh with ⟨⟨H4, H0, H90, H91⟩, Hrest⟩
  ihave #Hlev := ((K (F := Ideal)).ctx_levAts (EH := EH) (P := PV (vin m) (vpc m)) κ) $$ Hctx
  ihave Hst' := (Entails.of_eq hR) $$ Hst
  icases Hst' with ⟨Howes, HR⟩
  iapply (hr0 d (8 * ((0 : Fin 1).val + 1)) ((K (F := Ideal)).Otc d ((0 : Fin 1).val + 1)) hO _ _ _ _ _ _) $$ [Hb HG0 Howes H4 H0 H90 H91 Hrest HR Hsems Hprng HG1]
  isplitr; · iexact Hlev
  isplitl [Hb]; · iexact Hb
  isplitl [HG0]; · iexact HG0
  isplitl [Howes]; · iexact Howes
  isplitl [H4]; · iexact H4
  isplitl [H0]; · iexact H0
  isplitl [H90]; · iexact H90
  isplitl [H91]; · iexact H91
  iintro ⟨Hb, Howes, H4, H0, H90, H91⟩
  ihave Hheld := (Entails.of_eq (held_r0_join (F := Ideal) d _ _ _)) $$ [H4 H0 H90 H91 Hrest]
  · isplitl [H4 H0 H90 H91]
    · isplitl [H4]; · iexact H4
      isplitl [H0]; · iexact H0
      isplitl [H90] <;> iassumption
    · iexact Hrest
  iapply (wp_seq 𝒱 none Set.univ d Sall _ ops2 ops2_sub ops2_fresh _) $$ [Hb Hheld]
  · isplitl [Hb] <;> iassumption
  iintro ⟨Hb, Hheld⟩
  ihave Hh := (Entails.of_eq (held_r1_split (F := Ideal) d _)) $$ Hheld
  icases Hh with ⟨⟨H60, H11⟩, Hrest⟩
  iapply (hr1 d (8 * ((0 : Fin 1).val + 1)) ((K (F := Ideal)).Otc d ((0 : Fin 1).val + 1)) hO _ _ _ _) $$ [Hb HG1 Howes H60 H11 Hrest HR Hsems Hprng]
  isplitr; · iexact Hlev
  isplitl [Hb]; · iexact Hb
  isplitl [HG1]; · iexact HG1
  isplitl [Howes]; · iexact Howes
  isplitl [H60]; · iexact H60
  isplitl [H11]; · iexact H11
  iintro ⟨Hb, Howes, H60, H11⟩
  ihave Hheld := (Entails.of_eq (held_r1_join (F := Ideal) d _ _)) $$ [H60 H11 Hrest]
  · isplitl [H60 H11]
    · isplitl [H60] <;> iassumption
    · iexact Hrest
  iapply (wp_seq 𝒱 none Set.univ d Sall _ ops3 ops3_sub ops3_fresh _) $$ [Hb Hheld]
  · isplitl [Hb] <;> iassumption
  iintro ⟨Hb, Hheld⟩
  rw [wp_pure]
  imodintro
  isplitl [Howes HR]
  · iapply (Entails.of_eq (hR.symm.trans (rfl : (K (F := Ideal)).tcSt EH d ((0 : Fin 1).val + 1) = (K (F := Ideal)).tcSt EH d 1)))
    isplitl [Howes] <;> iassumption
  · iapply (finV_of_held m G0 G1 d); iexact Hheld

end

end Cert.Proof.KI

end
-- ==== Proof.KI.LaunchV.lean ====
/-
  The launch with every result named: the launch theorem applied to the tile's body obligation, the split and @main's
  proof at the value level — every weakly fair execution ends with the two result arrays at their named values and
  the three arguments as they were.
-/
import proofs.«216181_g9861244912407_cont_9to1_m_1073_40_alg».proof.Proof.KI.MainV
import proofs.«216181_g9861244912407_cont_9to1_m_1073_40_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

local notation "𝕄" => MT nD τ sig (HIx 1) (Elt Ideal) ℕ UU ℕ

variable (m : (ℓ : Loc nD τ sig) → Buf (Elt Ideal) ℓ) (ρ : Dev nD → PrngReg) (G0 : G0Ty) (G1 : G1Ty)

theorem hu₀V : (ownU (u₀ (F := Ideal)) : sProp 𝕄)
    ⊢ |={Set.univ}=> iprop(BI.own (EH (initOf (K (F := Ideal)).hsCells (K (F := Ideal)).hsToks))
        ∗ (bigSep Finset.univ fun d : Dev nD => iprop(regionGhost (F := Ideal) 0 d ∗ regionGhost (F := Ideal) 1 d))
        ∗ bigSep Finset.univ fun thr : Thread nD τ => bigSep Finset.univ fun q : Fin 1 => (PV (vin m) (vpc m)).x q thr) :=
  hu₀ (F := Ideal) m

def fqV (d : Dev nD) (s' : Phys nD τ sig (Elt Ideal)) : Prop :=
  s'.mem.mem (v13Loc d) = W7 m G0 G1 d v13' ∧ s'.mem.mem (v12Loc d) = W7 m G0 G1 d v12'
    ∧ s'.mem.mem (a0Loc d) = m (a0Loc d) ∧ s'.mem.mem (a1Loc d) = m (a1Loc d) ∧ s'.mem.mem (a2Loc d) = m (a2Loc d)

theorem hfinV (d : Dev nD) (s' : Phys nD τ sig (Elt Ideal)) : iprop(FINV m G0 G1 d ∗ SI s') ⊢ (⌜fqV m G0 G1 d s'⌝ : sProp 𝕄) := by
  iintro ⟨⟨H13, H12, H0, H1, H2⟩, HSI⟩
  icombine HSI H13 gives %h13
  icombine HSI H12 gives %h12
  icombine HSI H0 gives %h0
  icombine HSI H1 gives %h1
  icombine HSI H2 gives %h2
  ipureintro
  exact ⟨funext fun i => h13 i (Finset.mem_univ i), funext fun i => h12 i (Finset.mem_univ i), funext fun i => h0 i (Finset.mem_univ i),
    funext fun i => h1 i (Finset.mem_univ i), funext fun i => h2 i (Finset.mem_univ i)⟩

/-- What the value run claims of the final memory. -/
def QCV : PUnit × MemSt nD τ sig (Elt Ideal) → Prop := fun r =>
  ∀ c : Dev nD, r.2.mem (v13Loc c) = W7 m G0 G1 c v13' ∧ r.2.mem (v12Loc c) = W7 m G0 G1 c v12'
    ∧ r.2.mem (a0Loc c) = m (a0Loc c) ∧ r.2.mem (a1Loc c) = m (a1Loc c) ∧ r.2.mem (a2Loc c) = m (a2Loc c)

theorem run_mainV
    (htile : (K (F := Ideal)).TileObl (D (F := Ideal)) 𝒱 (PV (vin m) (vpc m)) v₀ 0)
    (hr0 : Region0V (regionGhost (F := Ideal)) G0) (hr1 : Region1V (regionGhost (F := Ideal)) G1) :
    θ_run (Cert.KernelIdeal.defs (F := Ideal)) (Cert.KernelIdeal.threads (F := Ideal)) ⟨m, fun _ => 0, ρ⟩ (QCV m G0 G1) :=
  SparseCore.Cfg.θ_run_sc (K := K (F := Ideal)) (D := D (F := Ideal)) (𝒱 := 𝒱) (EH := EH) (P := PV (vin m) (vpc m)) facts v₀
    (fun q hq => match q with | 0 => nomatch hq)
    (fun q _ => match q with | 0 => htile)
    (fun q _ => match q with | 0 => SparseCore.Cfg.VecSplit.of_plain (vecSplitV (vin m) (vpc m)))
    m ρ main (fun d => iprop(regionGhost (F := Ideal) 0 d ∗ regionGhost (F := Ideal) 1 d)) (FINV m G0 G1) (u₀ (F := Ideal)) (sep_elim_left.trans (hu₀V m))
    (hmainV m ρ G0 G1 (regionGhost (F := Ideal)) hr0 hr1) (fqV m G0 G1) (hfinV m G0 G1) (QCV m G0 G1) (fun _ h => h)

end Cert.Proof.KI

end
-- ==== Proof.KI.RegionsValue.lean ====
/-
  The two TensorCore pipelines inside @main again, now with the results named. The proof data are exact: at every
  grid point an input window's staging buffer holds that window's block of its array (fetched there or not), and a
  result window's holds what the body's one whole-block store leaves, a function of the operand's block and, for the
  first call, of the pseudocount's one element. What a result array holds after the run is its entry contents with each
  point's block overwritten, in point order, by what that point wrote back (the library's fold). The blocks of distinct
  points are pairwise disjoint (their first coordinates lie in disjoint ranges of four), so under point `t`'s block the
  array holds exactly what `t` wrote back, and off every block the entry contents: the first call's first result keeps its
  first four leading indices, the second call's result everything from the fourth leading index on. The closing lemmas read
  the three result arrays index by index, an index given by its coordinates: the leading one is the block's offset plus the
  block coordinate, the others are the block's.
-/
import proofs.«216181_g9861244912407_cont_9to1_m_1073_40_alg».proof.Proof.KI.Regions
import Idealize.ShloMosaic.Lib.Pipeline.FrameBody
import Idealize.ShloMosaic.Lib.Pipeline.Value

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf pin BodyObligation)

variable {F : FTy → Type} [FloatOps F]

local notation "𝕄" => MT nD τ sig (HIx 1) (Elt F) ℕ UU ℕ

/-! ## What the two bodies leave, as functions of what they read -/

section Bodies

variable [∀ e, Nonempty (Elt F e)]

abbrev r4 : Rect S4x32x128x128 := Rect.unit (s := S4x32x128x128) ![0, 0, 0, 0] S4x32x128x128.size inb_S4x32x128x128_S4x32x128x128_0_0_0_0
abbrev r3 : Rect S4x1x128 := Rect.unit (s := S4x1x128) ![0, 0, 0] S4x1x128.size inb_S4x1x128_S4x1x128_0_0_0
abbrev r11 : Rect S1x1 := Rect.unit (s := S1x1) ![0, 0] S1x1.size inb_S1x1_S1x1_0_0

/-- The one element of the pseudocount's block. -/
def pcOf (y : S1x1.Idx → Elt F .f32) : Elt F .f32 := View.ld y r11 (Shape.Idx.first (numel1_S1x1.symm ▸ Nat.one_pos))

/-- Call 0's result block of result 0, from the operand's block and the pseudocount. -/
def out0_2 (x : Vec F S4x32x128x128 .f32) (s : Elt F .f32) : Vec F S4x32x128x128 .f32 := View.canon [⟨r4, k1_pay3 (View.ld x r4) s⟩]
/-- Call 0's block of result 1. -/
def out0_3 (x : Vec F S4x32x128x128 .f32) (s : Elt F .f32) : Vec F S4x1x128 .f32 := View.canon [⟨r3, k1_pay4 (View.ld x r4) s⟩]
/-- Call 1's result block, from the operand's block. -/
def out1_1 (x : Vec F S4x32x128x128 .f32) : Vec F S4x32x128x128 .f32 := View.canon [⟨r4, k2_pay1 (View.ld x r4)⟩]

theorem cover4 (p : Vec F S4x32x128x128 .f32) (y : S4x32x128x128.Idx) :
    ∃ pc ∈ ([⟨r4, p⟩] : List (View.Piece (Elt F) S4x32x128x128 .f32)), y ∈ pc.1.set :=
  View.cover_of_tiled [⟨r4, p⟩] S4x32x128x128.size (by rfl) y
theorem cover3 (p : Vec F S4x1x128 .f32) (y : S4x1x128.Idx) :
    ∃ pc ∈ ([⟨r3, p⟩] : List (View.Piece (Elt F) S4x1x128 .f32)), y ∈ pc.1.set :=
  View.cover_of_tiled [⟨r3, p⟩] S4x1x128.size (by rfl) y

set_option maxHeartbeats 1000000 in
theorem sound_k1v (c : Dev nD) (E : Set ℕ) (i : grid1.Coords)
    (a1 : Memref sig .tc .smem S1x1 .f32) (h1 : a1.IsWhole) (a2 : Memref sig .tc .vmem S4x32x128x128 .f32) (h2 : a2.IsWhole)
    (a3 : Memref sig .tc .vmem S4x32x128x128 .f32) (h3 : a3.IsWhole) (a4 : Memref sig .tc .vmem S4x1x128 .f32) (h4 : a4.IsWhole)
    (y1 : S1x1.Idx → Elt F .f32) (y2 : S4x32x128x128.Idx → Elt F .f32) (Kp : PUnit → sProp 𝕄) :
    iprop(owns (c : Thread nD τ) a1 fullShare y1 ∗ owns (c : Thread nD τ) a2 fullShare y2 ∗ (∃ y, owns (c : Thread nD τ) a3 fullShare y)
        ∗ (∃ y, owns (c : Thread nD τ) a4 fullShare y)
        ∗ (iprop(owns (c : Thread nD τ) a1 fullShare y1 ∗ owns (c : Thread nD τ) a2 fullShare y2
            ∗ owns (c : Thread nD τ) a3 fullShare (out0_2 y2 (pcOf y1)) ∗ owns (c : Thread nD τ) a4 fullShare (out0_3 y2 (pcOf y1))) -∗ Kp ⟨⟩))
      ⊢ wp frame (wpE (defs₀ (F := F)) Variants.none c none) E (cc1__tc_block i a1 h1 a2 h2 a3 h3 a4 h4) Kp := by
  simp only [cc1__tc_block_eq_skeleton]; unfold cc1__tc_block_skel
  unfold owns
  iintro ⟨⟨%f1, %hf1, H1⟩, ⟨%f2, %hf2, H2⟩, ⟨%y3, %f3, -, H3⟩, ⟨%y4, %f4, -, H4⟩, Hk⟩
  subst hf1; subst hf2
  sl_exec
  rw [wp_ret]; imodintro
  iapply Hk
  isplitl [H1]; · iexists f1; isplitr; · ipureintro; rfl
                  iexact H1
  isplitl [H2]; · iexists f2; isplitr; · ipureintro; rfl
                  iexact H2
  isplitl [H3]
  · iexists _; isplitr; swap; · iexact H3
    ipureintro; exact View.read_writes_eq_canon _ _ _ (cover4 _)
  iexists _; isplitr; swap; · iexact H4
  ipureintro; exact View.read_writes_eq_canon _ _ _ (cover3 _)

set_option maxHeartbeats 1000000 in
theorem sound_k2v (c : Dev nD) (E : Set ℕ) (i : grid2.Coords)
    (a1 : Memref sig .tc .vmem S4x32x128x128 .f32) (h1 : a1.IsWhole) (a2 : Memref sig .tc .hbm S32x32x128x128 .f32) (h2 : a2.IsWhole)
    (a3 : Memref sig .tc .vmem S4x32x128x128 .f32) (h3 : a3.IsWhole)
    (y1 : S4x32x128x128.Idx → Elt F .f32) (Kp : PUnit → sProp 𝕄) :
    iprop(owns (c : Thread nD τ) a1 fullShare y1 ∗ (∃ y, owns (c : Thread nD τ) a3 fullShare y)
        ∗ (iprop(owns (c : Thread nD τ) a1 fullShare y1 ∗ owns (c : Thread nD τ) a3 fullShare (out1_1 y1)) -∗ Kp ⟨⟩))
      ⊢ wp frame (wpE (defs₀ (F := F)) Variants.none c none) E (cc2__copy_block i a1 h1 a2 h2 a3 h3) Kp := by
  simp only [cc2__copy_block_eq_skeleton]; unfold cc2__copy_block_skel
  unfold owns
  iintro ⟨⟨%f1, %hf1, H1⟩, ⟨%y3, %f3, -, H3⟩, Hk⟩
  subst hf1
  sl_exec
  rw [wp_ret]; imodintro
  iapply Hk
  isplitl [H1]; · iexists f1; isplitr; · ipureintro; rfl
                  iexact H1
  iexists _; isplitr; swap; · iexact H3
  ipureintro; exact View.read_writes_eq_canon _ _ _ (cover4 _)

end Bodies

/-! ## The exact proof data: what each body leaves, named -/

section DataV

variable [∀ e, Nonempty (Elt F e)] (b : ℕ) (O : CellTallies nD τ sig (HIx 1))

/-- Window `w`'s block at point `t` of call 0, read off its array as the region finds it. -/
def iblk0 (c : Dev nD) (A : (w : Fin cfg1.W) → Buf (Elt F) ((cfg1.win w).arr.view.loc (c.tc : Thread nD τ))) (w : Fin cfg1.W) (t : Fin cfg1.N) :
    ((cfg1.win w).xblock (cfg1.grid.coords t)).Idx → Elt F (cfg1.win w).elt :=
  ((cfg1.win w).blk t).view.read (Elt F) (A w)

/-- The same for call 1. -/
def iblk1 (c : Dev nD) (A : (w : Fin cfg2.W) → Buf (Elt F) ((cfg2.win w).arr.view.loc (c.tc : Thread nD τ))) (w : Fin cfg2.W) (t : Fin cfg2.N) :
    ((cfg2.win w).xblock (cfg2.grid.coords t)).Idx → Elt F (cfg2.win w).elt :=
  ((cfg2.win w).blk t).view.read (Elt F) (A w)

/-- Call 0's exact proof data: each input's staging buffer holds its block, each result's what the body's store leaves. -/
def vdat0 (c : Dev nD) (A : (w : Fin cfg1.W) → Buf (Elt F) ((cfg1.win w).arr.view.loc (c.tc : Thread nD τ))) :
    Dat τ (Elt F) (HIx 1) ℕ UU ℕ cfg1 c where
  A := A
  after w t := match w with
    | ⟨0, _⟩ => iblk0 c A 0 t
    | ⟨1, _⟩ => iblk0 c A 1 t
    | ⟨2, _⟩ => out0_2 (iblk0 c A 1 t) (pcOf (iblk0 c A 0 t))
    | ⟨3, _⟩ => out0_3 (iblk0 c A 1 t) (pcOf (iblk0 c A 0 t))
  Φ _ := Pipeline.scopedRest (Ix := HIx 1) (Name := ℕ) (U := UU) (Lvl := ℕ) (Val := Elt F) spec1 c
  q _ := fullShare
  owed _ := O
  recorded _ := below (F := F) c b

/-- Call 1's. -/
def vdat1 (c : Dev nD) (A : (w : Fin cfg2.W) → Buf (Elt F) ((cfg2.win w).arr.view.loc (c.tc : Thread nD τ))) :
    Dat τ (Elt F) (HIx 1) ℕ UU ℕ cfg2 c where
  A := A
  after w t := match w with
    | ⟨0, _⟩ => iblk1 c A 0 t
    | ⟨1, _⟩ => out1_1 (iblk1 c A 0 t)
  Φ _ := Pipeline.scopedRest (Ix := HIx 1) (Name := ℕ) (U := UU) (Lvl := ℕ) (Val := Elt F) spec2 c
  q _ := fullShare
  owed _ := O
  recorded _ := below (F := F) c b

variable (c : Dev nD) (A : (w : Fin cfg1.W) → Buf (Elt F) ((cfg1.win w).arr.view.loc (c.tc : Thread nD τ)))
  (B : (w : Fin cfg2.W) → Buf (Elt F) ((cfg2.win w).arr.view.loc (c.tc : Thread nD τ)))

theorem vafter0_0 (t : Fin cfg1.N) : (vdat0 b O c A).after 0 t = iblk0 c A 0 t := by dsimp only [vdat0]
theorem vafter0_1 (t : Fin cfg1.N) : (vdat0 b O c A).after 1 t = iblk0 c A 1 t := by dsimp only [vdat0]
theorem vafter0_2 (t : Fin cfg1.N) : (vdat0 b O c A).after 2 t = out0_2 (iblk0 c A 1 t) (pcOf (iblk0 c A 0 t)) := by dsimp only [vdat0]
theorem vafter0_3 (t : Fin cfg1.N) : (vdat0 b O c A).after 3 t = out0_3 (iblk0 c A 1 t) (pcOf (iblk0 c A 0 t)) := by dsimp only [vdat0]
theorem vafter1_0 (t : Fin cfg2.N) : (vdat1 b O c B).after 0 t = iblk1 c B 0 t := by dsimp only [vdat1]
theorem vafter1_1 (t : Fin cfg2.N) : (vdat1 b O c B).after 1 t = out1_1 (iblk1 c B 0 t) := by dsimp only [vdat1]

/-- Each input's current staging buffer holds its block at every point, fetched there or not. -/
theorem vbefore0_0 (t : Fin cfg1.N) (d) : (vdat0 b O c A).before 0 t d = iblk0 c A 0 t :=
  ((vdat0 b O c A).before_in_eq_fetched 0 rfl (fun _ => rfl) (fun _ _ _ => rfl) (fun t => by rw [vafter0_0]; unfold Dat.blockOf iblk0; try rfl) t d).trans
    (by unfold Dat.fetched Dat.blockOf iblk0; try rfl)
theorem vbefore0_1 (t : Fin cfg1.N) (d) : (vdat0 b O c A).before 1 t d = iblk0 c A 1 t :=
  ((vdat0 b O c A).before_in_eq_fetched 1 rfl (fun _ => rfl) (fun _ _ _ => rfl) (fun t => by rw [vafter0_1]; unfold Dat.blockOf iblk0; try rfl) t d).trans
    (by unfold Dat.fetched Dat.blockOf iblk0; try rfl)
theorem vbefore1_0 (t : Fin cfg2.N) (d) : (vdat1 b O c B).before 0 t d = iblk1 c B 0 t :=
  ((vdat1 b O c B).before_in_eq_fetched 0 rfl (fun _ => rfl) (fun _ _ _ => rfl) (fun t => by rw [vafter1_0]; unfold Dat.blockOf iblk1; try rfl) t d).trans
    (by unfold Dat.fetched Dat.blockOf iblk1; try rfl)

theorem vsound_body0 (t : Fin cfg1.N) :
    iprop((vdat0 b O c A).Φ t.castSucc ∗ (vdat0 b O c A).owesAt none t.castSucc
        ∗ (∃ d, owns (c : Thread nD τ) (st1_0 t) fullShare ((vdat0 b O c A).before 0 t d))
        ∗ (∃ d, owns (c : Thread nD τ) (st1_1 t) fullShare ((vdat0 b O c A).before 1 t d))
        ∗ (∃ d, owns (c : Thread nD τ) (st1_2 t) fullShare ((vdat0 b O c A).before 2 t d))
        ∗ (∃ d, owns (c : Thread nD τ) (st1_3 t) fullShare ((vdat0 b O c A).before 3 t d)))
      ⊢ wp frame (wpE (defs₀ (F := F)) Variants.none c none) Set.univ (bodyAt1 t) fun _ =>
          iprop((vdat0 b O c A).Φ t.succ ∗ (vdat0 b O c A).owesAt none t.succ
            ∗ owns (c : Thread nD τ) (st1_0 t) fullShare ((vdat0 b O c A).after 0 t)
            ∗ owns (c : Thread nD τ) (st1_1 t) fullShare ((vdat0 b O c A).after 1 t)
            ∗ owns (c : Thread nD τ) (st1_2 t) fullShare ((vdat0 b O c A).after 2 t)
            ∗ owns (c : Thread nD τ) (st1_3 t) fullShare ((vdat0 b O c A).after 3 t)) := by
  simp only [vbefore0_0, vbefore0_1]
  rw [show (vdat0 b O c A).Φ t.succ = (vdat0 b O c A).Φ t.castSucc from rfl,
    show (vdat0 b O c A).owesAt none t.succ = (vdat0 b O c A).owesAt none t.castSucc from rfl,
    vafter0_0, vafter0_1, vafter0_2, vafter0_3]
  iintro ⟨HΦ, Ho, ⟨%d0, H0⟩, ⟨%d1, H1⟩, ⟨%d2, H2⟩, ⟨%d3, H3⟩⟩
  iapply (sound_k1v c Set.univ (grid1.coords t) _ _ _ _ _ _ _ _ (iblk0 c A 0 t) (iblk0 c A 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem vbody_obl0 : BodyObligation (vdat0 (F := F) b O c A) (defs₀ (F := F)) Variants.none none Set.univ := fun t => by
  rw [bigSep_W1, bigSep_W1]
  exact vsound_body0 b O c A t

theorem vsound_body1 (t : Fin cfg2.N) :
    iprop((vdat1 b O c B).Φ t.castSucc ∗ (vdat1 b O c B).owesAt none t.castSucc
        ∗ (∃ d, owns (c : Thread nD τ) (st2_0 t) fullShare ((vdat1 b O c B).before 0 t d))
        ∗ (∃ d, owns (c : Thread nD τ) (st2_1 t) fullShare ((vdat1 b O c B).before 1 t d)))
      ⊢ wp frame (wpE (defs₀ (F := F)) Variants.none c none) Set.univ (bodyAt2 t) fun _ =>
          iprop((vdat1 b O c B).Φ t.succ ∗ (vdat1 b O c B).owesAt none t.succ
            ∗ owns (c : Thread nD τ) (st2_0 t) fullShare ((vdat1 b O c B).after 0 t)
            ∗ owns (c : Thread nD τ) (st2_1 t) fullShare ((vdat1 b O c B).after 1 t)) := by
  simp only [vbefore1_0]
  rw [show (vdat1 b O c B).Φ t.succ = (vdat1 b O c B).Φ t.castSucc from rfl,
    show (vdat1 b O c B).owesAt none t.succ = (vdat1 b O c B).owesAt none t.castSucc from rfl,
    vafter1_0, vafter1_1]
  iintro ⟨HΦ, Ho, ⟨%d0, H0⟩, ⟨%d1, H1⟩⟩
  iapply (sound_k2v c Set.univ (grid2.coords t) _ _ _ _ _ _ (iblk1 c B 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem vbody_obl1 : BodyObligation (vdat1 (F := F) b O c B) (defs₀ (F := F)) Variants.none none Set.univ := fun t => by
  rw [bigSep_W2, bigSep_W2]
  exact vsound_body1 b O c B t

end DataV

/-! ## The two regions over the exact proof data -/

section RegionsV

variable [∀ e, Nonempty (Elt F e)] (b : ℕ) (O : CellTallies nD τ sig (HIx 1)) (hO : ∀ g, O g none = 0) (d : Dev nD)
  (A0 : (w : Fin cfg1.W) → Buf (Elt F) ((cfg1.win w).arr.view.loc (d.tc : Thread nD τ)))
  (A1 : (w : Fin cfg2.W) → Buf (Elt F) ((cfg2.win w).arr.view.loc (d.tc : Thread nD τ)))

/-- Both calls' exact proof data, the arrays' entry contents given on device `d`. -/
def vdats : (p : Fin 2) → (c : Dev nD) → Dat τ (Elt F) (HIx 1) ℕ UU ℕ (pin (pcfgs (F := F)) adm p) c
  | ⟨0, _⟩ => fun c => vdat0 b O c (atDev (β := fun c => (w : Fin cfg1.W) → Buf (Elt F) ((cfg1.win w).arr.view.loc (c.tc : Thread nD τ))) d A0 (fun _ _ => arbBuf _) c)
  | ⟨1, _⟩ => fun c => vdat1 b O c (atDev (β := fun c => (w : Fin cfg2.W) → Buf (Elt F) ((cfg2.win w).arr.view.loc (c.tc : Thread nD τ))) d A1 (fun _ _ => arbBuf _) c)

theorem vdats_0 : vdats b O d A0 A1 0 d = vdat0 b O d A0 :=
  congrArg (vdat0 b O d) (atDev_self (β := fun c => (w : Fin cfg1.W) → Buf (Elt F) ((cfg1.win w).arr.view.loc (c.tc : Thread nD τ))) d A0 (fun _ _ => arbBuf _))
theorem vdats_1 : vdats b O d A0 A1 1 d = vdat1 b O d A1 :=
  congrArg (vdat1 b O d) (atDev_self (β := fun c => (w : Fin cfg2.W) → Buf (Elt F) ((cfg2.win w).arr.view.loc (c.tc : Thread nD τ))) d A1 (fun _ _ => arbBuf _))

set_option backward.isDefEq.respectTransparency.types false in
def vreg0 : Pipeline.RegionSeg (pcfgs (F := F)) adm (vdats b O d A0 A1) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (vbody_obl0 b O c _).loose
  hwaits c := Pipeline.cellsWaits_intro _ _ _ 0 c fun w s t => (K (F := F)).mayWait_none _ hO
  pre c := iprop((vdats b O d A0 A1 0 c).arrays ((vdats b O d A0 A1 0 c).arrAt · 0) ∗ owesB (F := F) c b O)
  post c := iprop((vdats b O d A0 A1 0 c).arrays ((vdats b O d A0 A1 0 c).arrAt · cfg1.N) ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (vdats b O d A0 A1 0 c).Φ 0 = Pipeline.scopedRest (Ix := HIx 1) (Name := ℕ) (U := UU) (Lvl := ℕ) (Val := Elt F) spec1 c from rfl]
    iintro ⟨-, -, H⟩; iexact H
  hout c := by
    rw [Pipeline.ownSems0_none, show (vdats b O d A0 A1 0 c).Φ (Fin.last (pin (pcfgs (F := F)) adm 0).N) = Pipeline.scopedRest (Ix := HIx 1) (Name := ℕ) (U := UU) (Lvl := ℕ) (Val := Elt F) spec1 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

set_option backward.isDefEq.respectTransparency.types false in
def vreg1 : Pipeline.RegionSeg (pcfgs (F := F)) adm (vdats b O d A0 A1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (vbody_obl1 b O c _).loose
  hwaits c := Pipeline.cellsWaits_intro _ _ _ 1 c fun w s t => (K (F := F)).mayWait_none _ hO
  pre c := iprop((vdats b O d A0 A1 1 c).arrays ((vdats b O d A0 A1 1 c).arrAt · 0) ∗ owesB (F := F) c b O)
  post c := iprop((vdats b O d A0 A1 1 c).arrays ((vdats b O d A0 A1 1 c).arrAt · cfg2.N) ∗ owesB (F := F) c b O)
  X _ := iprop(emp)
  Y _ := iprop(emp)
  Z _ := iprop(emp)
  hentry c := by
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p (Finset.mem_coe.mp hp))
      iexact HO
    isplitl; · iempintro
    iempintro
  hin c := by
    rw [show (vdats b O d A0 A1 1 c).Φ 0 = Pipeline.scopedRest (Ix := HIx 1) (Name := ℕ) (U := UU) (Lvl := ℕ) (Val := Elt F) spec2 c from rfl]
    iintro ⟨-, -, H⟩; iexact H
  hout c := by
    rw [Pipeline.ownSems0_none, show (vdats b O d A0 A1 1 c).Φ (Fin.last (pin (pcfgs (F := F)) adm 1).N) = Pipeline.scopedRest (Ix := HIx 1) (Name := ℕ) (U := UU) (Lvl := ℕ) (Val := Elt F) spec2 c from rfl]
    iintro H
    isplitr; · iempintro
    isplitr; · iempintro
    iexact H
  hexit c := by
    iintro ⟨Ha, ⟨%W, %hW, HO⟩, -, -⟩
    imodintro
    isplitl [Ha]; · iexact Ha
    iexists W; isplitr
    · ipureintro; intro p hp
      rcases hW (Finset.mem_coe.mpr hp) with h | ⟨w, s, rfl⟩
      · exact h
      · exact Nat.zero_le _
    iexact HO

end RegionsV

/-! ## The results, index by index -/

section Index

variable [∀ e, Nonempty (Elt F e)]

theorem z4 : (![0, 0, 0, 0] : Fin 4 → ℕ) = fun _ => 0 := by funext a; fin_cases a <;> rfl
theorem z3 : (![0, 0, 0] : Fin 3 → ℕ) = fun _ => 0 := by funext a; fin_cases a <;> rfl

/-- One store through the whole block leaves its payload; the load through the whole block reads the block. -/
theorem out0_2_eq (x : Vec F S4x32x128x128 .f32) (s : Elt F .f32) : out0_2 x s = k1_pay3 x s := by
  unfold out0_2; rw [View.canon_unit_zero z4, View.ld_unit_zero z4]
theorem out0_3_eq (x : Vec F S4x32x128x128 .f32) (s : Elt F .f32) : out0_3 x s = k1_pay4 x s := by
  unfold out0_3; rw [View.canon_unit_zero z3, View.ld_unit_zero z4]
theorem out1_1_eq (x : Vec F S4x32x128x128 .f32) : out1_1 x = k2_pay1 x := by
  unfold out1_1; rw [View.canon_unit_zero z4, View.ld_unit_zero z4]

/-- What the write-backs leave does not depend on the debts the proof data carry. -/
theorem arrAt_indep0 (b : ℕ) (O : CellTallies nD τ sig (HIx 1)) (c : Dev nD)
    (A : (w : Fin cfg1.W) → Buf (Elt F) ((cfg1.win w).arr.view.loc (c.tc : Thread nD τ))) (w : Fin cfg1.W) :
    ∀ n, (vdat0 b O c A).arrAt w n = (vdat0 0 0 c A).arrAt w n
  | 0 => rfl
  | n + 1 => by
    funext i
    rw [Dat.arrAt_succ_apply, Dat.arrAt_succ_apply, arrAt_indep0 b O c A w n]; rfl
theorem arrAt_indep1 (b : ℕ) (O : CellTallies nD τ sig (HIx 1)) (c : Dev nD)
    (A : (w : Fin cfg2.W) → Buf (Elt F) ((cfg2.win w).arr.view.loc (c.tc : Thread nD τ))) (w : Fin cfg2.W) :
    ∀ n, (vdat1 b O c A).arrAt w n = (vdat1 0 0 c A).arrAt w n
  | 0 => rfl
  | n + 1 => by
    funext i
    rw [Dat.arrAt_succ_apply, Dat.arrAt_succ_apply, arrAt_indep1 b O c A w n]; rfl

/-! ### Where the blocks sit -/

theorem rect0_2 : ∀ t : Fin cfg1.N, ((cfg1.win 2).rect t).off (0 : Fin 4) = 4 * (t.val + 1)
    ∧ (∀ a, ((cfg1.win 2).rect t).stride a = 1) ∧ ((cfg1.win 2).rect t).size (0 : Fin 4) = 4 := by decide +kernel
theorem rect0_3 : ∀ t : Fin cfg1.N, ((cfg1.win 3).rect t).off (0 : Fin 3) = 4 * t.val
    ∧ (∀ a, ((cfg1.win 3).rect t).stride a = 1) ∧ ((cfg1.win 3).rect t).size (0 : Fin 3) = 4 := by decide +kernel
theorem rect1_1 : ∀ t : Fin cfg2.N, ((cfg2.win 1).rect t).off (0 : Fin 4) = 0
    ∧ (∀ a, ((cfg2.win 1).rect t).stride a = 1) ∧ ((cfg2.win 1).rect t).size (0 : Fin 4) = 4 := by decide +kernel

/-- An index under point `t`'s block of call 0's first result has its token in `[4 (t + 1), 4 (t + 1) + 4)`. -/
theorem mem_blk0_2 (t : Fin cfg1.N) (i : S32x32x128x128.Idx) (hi : i ∈ ((cfg1.win 2).blk t).view.set) :
    4 * (t.val + 1) ≤ (i 0 : ℕ) ∧ (i 0 : ℕ) < 4 * (t.val + 1) + 4 := by
  obtain ⟨o0, hs, z0⟩ := rect0_2 t
  have hm : i ∈ ((View.whole main_v9_0).slice ((cfg1.win 2).rect t)).set := hi
  rw [View.set_slice_whole, LoadRect.mem_set] at hm
  obtain ⟨j, hj, ej⟩ := hm (0 : Fin 4)
  change j < ((cfg1.win 2).rect t).size (0 : Fin 4) at hj
  change (i 0 : ℕ) = ((cfg1.win 2).rect t).off (0 : Fin 4) + ((cfg1.win 2).rect t).stride (0 : Fin 4) * j at ej
  rw [z0] at hj; rw [o0, hs] at ej; omega

/-- Of its second result: in `[4 t, 4 t + 4)`. -/
theorem mem_blk0_3 (t : Fin cfg1.N) (i : S28x1x128.Idx) (hi : i ∈ ((cfg1.win 3).blk t).view.set) :
    4 * t.val ≤ (i 0 : ℕ) ∧ (i 0 : ℕ) < 4 * t.val + 4 := by
  obtain ⟨o0, hs, z0⟩ := rect0_3 t
  have hm : i ∈ ((View.whole main_v9_1).slice ((cfg1.win 3).rect t)).set := hi
  rw [View.set_slice_whole, LoadRect.mem_set] at hm
  obtain ⟨j, hj, ej⟩ := hm (0 : Fin 3)
  change j < ((cfg1.win 3).rect t).size (0 : Fin 3) at hj
  change (i 0 : ℕ) = ((cfg1.win 3).rect t).off (0 : Fin 3) + ((cfg1.win 3).rect t).stride (0 : Fin 3) * j at ej
  rw [z0] at hj; rw [o0, hs] at ej; omega

/-- Of call 1's result: its token is below 4. -/
theorem mem_blk1_1 (t : Fin cfg2.N) (i : S32x32x128x128.Idx) (hi : i ∈ ((cfg2.win 1).blk t).view.set) : (i 0 : ℕ) < 4 := by
  obtain ⟨o0, hs, z0⟩ := rect1_1 t
  have hm : i ∈ ((View.whole main_v11).slice ((cfg2.win 1).rect t)).set := hi
  rw [View.set_slice_whole, LoadRect.mem_set] at hm
  obtain ⟨j, hj, ej⟩ := hm (0 : Fin 4)
  change j < ((cfg2.win 1).rect t).size (0 : Fin 4) at hj
  change (i 0 : ℕ) = ((cfg2.win 1).rect t).off (0 : Fin 4) + ((cfg2.win 1).rect t).stride (0 : Fin 4) * j at ej
  rw [z0] at hj; rw [o0, hs] at ej; omega

theorem disj0_2 : ∀ t t' : Fin cfg1.N, (cfg1.win 2).flush t = true → (cfg1.win 2).flush t' = true → t ≠ t' →
    Disjoint ((cfg1.win 2).blk t).view.set ((cfg1.win 2).blk t').view.set := by
  intro t t' _ _ hne
  refine Finset.disjoint_left.mpr fun {i} hi hi' => hne (Fin.ext ?_)
  have g := mem_blk0_2 t i hi; have g' := mem_blk0_2 t' i hi'
  omega
theorem disj0_3 : ∀ t t' : Fin cfg1.N, (cfg1.win 3).flush t = true → (cfg1.win 3).flush t' = true → t ≠ t' →
    Disjoint ((cfg1.win 3).blk t).view.set ((cfg1.win 3).blk t').view.set := by
  intro t t' _ _ hne
  refine Finset.disjoint_left.mpr fun {i} hi hi' => hne (Fin.ext ?_)
  have g := mem_blk0_3 t i hi; have g' := mem_blk0_3 t' i hi'
  omega
theorem disj1_1 : ∀ t t' : Fin cfg2.N, (cfg2.win 1).flush t = true → (cfg2.win 1).flush t' = true → t ≠ t' →
    Disjoint ((cfg2.win 1).blk t).view.set ((cfg2.win 1).blk t').view.set := by
  intro t t' _ _ hne
  exact absurd ((fin_N2 t).trans (fin_N2 t').symm) hne

/-- An element of a block sits in its array at the block's offset plus its own coordinate. -/
theorem emb0_2_val : ∀ (t : Fin cfg1.N) (y : S4x32x128x128.Idx) (a : Fin 4),
    ((((cfg1.win 2).blk t).view.emb y) a : ℕ) = (if a = 0 then 4 * (t.val + 1) else 0) + (y a : ℕ) := by
  intro t y a
  have h : ∀ (t : Fin cfg1.N) (a : Fin 4), (cfg1.win 2).index t a * (cfg1.win 2).size a = if a = 0 then 4 * (t.val + 1) else 0 := by decide +kernel
  show (((cfg1.win 2).rect t).emb y a : ℕ) = _
  rw [Window.rect_emb_val, h]
theorem emb0_1_val : ∀ (t : Fin cfg1.N) (y : S4x32x128x128.Idx) (a : Fin 4),
    ((((cfg1.win 1).blk t).view.emb y) a : ℕ) = (if a = 0 then 4 * (t.val + 1) else 0) + (y a : ℕ) := by
  intro t y a
  have h : ∀ (t : Fin cfg1.N) (a : Fin 4), (cfg1.win 1).index t a * (cfg1.win 1).size a = if a = 0 then 4 * (t.val + 1) else 0 := by decide +kernel
  show (((cfg1.win 1).rect t).emb y a : ℕ) = _
  rw [Window.rect_emb_val, h]
theorem emb0_3_val : ∀ (t : Fin cfg1.N) (y : S4x1x128.Idx) (a : Fin 3),
    ((((cfg1.win 3).blk t).view.emb y) a : ℕ) = (if a = 0 then 4 * t.val else 0) + (y a : ℕ) := by
  intro t y a
  have h : ∀ (t : Fin cfg1.N) (a : Fin 3), (cfg1.win 3).index t a * (cfg1.win 3).size a = if a = 0 then 4 * t.val else 0 := by decide +kernel
  show (((cfg1.win 3).rect t).emb y a : ℕ) = _
  rw [Window.rect_emb_val, h]
theorem emb1_1_val : ∀ (t : Fin cfg2.N) (y : S4x32x128x128.Idx) (a : Fin 4), ((((cfg2.win 1).blk t).view.emb y) a : ℕ) = (y a : ℕ) := by
  intro t y a
  have h : ∀ (t : Fin cfg2.N) (a : Fin 4), (cfg2.win 1).index t a * (cfg2.win 1).size a = 0 := by decide +kernel
  show (((cfg2.win 1).rect t).emb y a : ℕ) = _
  rw [Window.rect_emb_val, h]; omega
theorem emb1_0_val : ∀ (t : Fin cfg2.N) (y : S4x32x128x128.Idx) (a : Fin 4), ((((cfg2.win 0).blk t).view.emb y) a : ℕ) = (y a : ℕ) := by
  intro t y a
  have h : ∀ (t : Fin cfg2.N) (a : Fin 4), (cfg2.win 0).index t a * (cfg2.win 0).size a = 0 := by decide +kernel
  show (((cfg2.win 0).rect t).emb y a : ℕ) = _
  rw [Window.rect_emb_val, h]; omega

end Index

/-! ## Stepping over a region, the results at named contents -/

section EntryV

variable [∀ e, Nonempty (Elt F e)] (b : ℕ) (O : CellTallies nD τ sig (HIx 1)) (d : Dev nD)

theorem vdats_A0 (A0 : (w : Fin cfg1.W) → Buf (Elt F) ((cfg1.win w).arr.view.loc (d.tc : Thread nD τ)))
    (A1 : (w : Fin cfg2.W) → Buf (Elt F) ((cfg2.win w).arr.view.loc (d.tc : Thread nD τ))) : (vdats b O d A0 A1 0 d).A = A0 :=
  atDev_self (β := fun c => (w : Fin cfg1.W) → Buf (Elt F) ((cfg1.win w).arr.view.loc (c.tc : Thread nD τ))) d A0 (fun _ _ => arbBuf _)
theorem vdats_A1 (A0 : (w : Fin cfg1.W) → Buf (Elt F) ((cfg1.win w).arr.view.loc (d.tc : Thread nD τ)))
    (A1 : (w : Fin cfg2.W) → Buf (Elt F) ((cfg2.win w).arr.view.loc (d.tc : Thread nD τ))) : (vdats b O d A0 A1 1 d).A = A1 :=
  atDev_self (β := fun c => (w : Fin cfg2.W) → Buf (Elt F) ((cfg2.win w).arr.view.loc (c.tc : Thread nD τ))) d A1 (fun _ _ => arbBuf _)
theorem vdats_arrAt0 (A0 : (w : Fin cfg1.W) → Buf (Elt F) ((cfg1.win w).arr.view.loc (d.tc : Thread nD τ)))
    (A1 : (w : Fin cfg2.W) → Buf (Elt F) ((cfg2.win w).arr.view.loc (d.tc : Thread nD τ))) (w : Fin cfg1.W) (n : ℕ) :
    (vdats b O d A0 A1 0 d).arrAt w n = (vdat0 b O d A0).arrAt w n :=
  congrArg (fun D : Dat τ (Elt F) (HIx 1) ℕ UU ℕ cfg1 d => D.arrAt w n) (vdats_0 b O d A0 A1)
theorem vdats_arrAt1 (A0 : (w : Fin cfg1.W) → Buf (Elt F) ((cfg1.win w).arr.view.loc (d.tc : Thread nD τ)))
    (A1 : (w : Fin cfg2.W) → Buf (Elt F) ((cfg2.win w).arr.view.loc (d.tc : Thread nD τ))) (w : Fin cfg2.W) (n : ℕ) :
    (vdats b O d A0 A1 1 d).arrAt w n = (vdat1 b O d A1).arrAt w n :=
  congrArg (fun D : Dat τ (Elt F) (HIx 1) ℕ UU ℕ cfg2 d => D.arrAt w n) (vdats_1 b O d A0 A1)

theorem vreg0_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (vreg0 b O hO d A0 A1).pre d = iprop((vdats b O d A0 A1 0 d).arrays ((vdats b O d A0 A1 0 d).arrAt · 0) ∗ owesB (F := F) d b O) := rfl
theorem vreg0_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (vreg0 b O hO d A0 A1).post d = iprop((vdats b O d A0 A1 0 d).arrays ((vdats b O d A0 A1 0 d).arrAt · cfg1.N) ∗ owesB (F := F) d b O) := rfl
theorem vreg1_pre (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (vreg1 b O hO d A0 A1).pre d = iprop((vdats b O d A0 A1 1 d).arrays ((vdats b O d A0 A1 1 d).arrAt · 0) ∗ owesB (F := F) d b O) := rfl
theorem vreg1_post (hO : ∀ g, O g none = 0) (A0 : (w : Fin cfg1.W) → Buf (Elt F) ((cfg1.win w).arr.view.loc (d.tc : Thread nD τ)))
    (A1 : (w : Fin cfg2.W) → Buf (Elt F) ((cfg2.win w).arr.view.loc (d.tc : Thread nD τ))) :
    (vreg1 b O hO d A0 A1).post d = iprop((vdats b O d A0 A1 1 d).arrays ((vdats b O d A0 A1 1 d).arrAt · cfg2.N) ∗ owesB (F := F) d b O) := rfl

variable (f4 : Buf (Elt F) (l4 d)) (f0 : Buf (Elt F) (l0 d)) (f90 : Buf (Elt F) (l90 d))
    (f91 : Buf (Elt F) (l91 d)) (f60 : Buf (Elt F) (l60 d)) (f11 : Buf (Elt F) (l11 d))

/-- What call 0 leaves in its first result's array: the entry contents, each point's block overwritten by what the body stored. -/
def G90 : Buf (Elt F) (l90 d) := (vdat0 0 0 d (mkA0 d f4 f0 f90 f91)).arrAt 2 cfg1.N
/-- What it leaves in its second result's array. -/
def G91 : Buf (Elt F) (l91 d) := (vdat0 0 0 d (mkA0 d f4 f0 f90 f91)).arrAt 3 cfg1.N
/-- What call 1 leaves in its result's array. -/
def G11 : Buf (Elt F) (l11 d) := (vdat1 0 0 d (mkA1 d f60 f11)).arrAt 1 cfg2.N

theorem varrays0_in (A1 : (w : Fin cfg2.W) → Buf (Elt F) ((cfg2.win w).arr.view.loc (d.tc : Thread nD τ))) :
    (vdats b O d (mkA0 d f4 f0 f90 f91) A1 0 d).arrays ((vdats b O d (mkA0 d f4 f0 f90 f91) A1 0 d).arrAt · 0)
      = (iprop((l4 d ↦{fullShare} f4) ∗ (l0 d ↦{fullShare} f0) ∗ (l90 d ↦{fullShare} f90) ∗ (l91 d ↦{fullShare} f91)) : sProp 𝕄) := by
  rw [Pipeline.arrays_eq (pin (pcfgs (F := F)) adm) (vdats b O d (mkA0 d f4 f0 f90 f91) A1) 0 d launch1.arr_whole
    (Pipeline.Dat.share_full _ fun _ => rfl)]
  simp only [show ∀ w, (vdats b O d (mkA0 d f4 f0 f90 f91) A1 0 d).arrAt w 0 = (vdats b O d (mkA0 d f4 f0 f90 f91) A1 0 d).A w from fun _ => rfl]
  rw [vdats_A0, bigSep_W1]
  rfl

theorem varrays0_out (A1 : (w : Fin cfg2.W) → Buf (Elt F) ((cfg2.win w).arr.view.loc (d.tc : Thread nD τ))) :
    (vdats b O d (mkA0 d f4 f0 f90 f91) A1 0 d).arrays ((vdats b O d (mkA0 d f4 f0 f90 f91) A1 0 d).arrAt · cfg1.N)
      = (iprop((l4 d ↦{fullShare} f4) ∗ (l0 d ↦{fullShare} f0) ∗ (l90 d ↦{fullShare} G90 d f4 f0 f90 f91)
          ∗ (l91 d ↦{fullShare} G91 d f4 f0 f90 f91)) : sProp 𝕄) := by
  rw [Pipeline.arrays_eq (pin (pcfgs (F := F)) adm) (vdats b O d (mkA0 d f4 f0 f90 f91) A1) 0 d launch1.arr_whole
    (Pipeline.Dat.share_full _ fun _ => rfl), bigSep_W1]
  simp only [vdats_arrAt0]
  rw [Pipeline.Dat.arrAt_in _ 0 rfl, Pipeline.Dat.arrAt_in _ 1 rfl, arrAt_indep0 b O d _ 2, arrAt_indep0 b O d _ 3]
  rfl

theorem varrays1_in (A0 : (w : Fin cfg1.W) → Buf (Elt F) ((cfg1.win w).arr.view.loc (d.tc : Thread nD τ))) :
    (vdats b O d A0 (mkA1 d f60 f11) 1 d).arrays ((vdats b O d A0 (mkA1 d f60 f11) 1 d).arrAt · 0)
      = (iprop((l60 d ↦{fullShare} f60) ∗ (l11 d ↦{fullShare} f11)) : sProp 𝕄) := by
  rw [Pipeline.arrays_eq (pin (pcfgs (F := F)) adm) (vdats b O d A0 (mkA1 d f60 f11)) 1 d launch2.arr_whole
    (Pipeline.Dat.share_full _ fun _ => rfl)]
  simp only [show ∀ w, (vdats b O d A0 (mkA1 d f60 f11) 1 d).arrAt w 0 = (vdats b O d A0 (mkA1 d f60 f11) 1 d).A w from fun _ => rfl]
  rw [vdats_A1, bigSep_W2]
  rfl

theorem varrays1_out (A0 : (w : Fin cfg1.W) → Buf (Elt F) ((cfg1.win w).arr.view.loc (d.tc : Thread nD τ))) :
    (vdats b O d A0 (mkA1 d f60 f11) 1 d).arrays ((vdats b O d A0 (mkA1 d f60 f11) 1 d).arrAt · cfg2.N)
      = (iprop((l60 d ↦{fullShare} f60) ∗ (l11 d ↦{fullShare} G11 d f60 f11)) : sProp 𝕄) := by
  rw [Pipeline.arrays_eq (pin (pcfgs (F := F)) adm) (vdats b O d A0 (mkA1 d f60 f11)) 1 d launch2.arr_whole
    (Pipeline.Dat.share_full _ fun _ => rfl), bigSep_W2]
  simp only [vdats_arrAt1]
  rw [Pipeline.Dat.arrAt_in _ 0 rfl, arrAt_indep1 b O d _ 1]
  rfl

set_option backward.isDefEq.respectTransparency.types false in
/-- TensorCore call 0 inside @main, the two results handed back at what the pipeline's write-backs leave. -/
theorem region_0v (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 0 d ∗ owesB (F := F) d b O
        ∗ (l4 d ↦{fullShare} f4) ∗ (l0 d ↦{fullShare} f0) ∗ (l90 d ↦{fullShare} f90) ∗ (l91 d ↦{fullShare} f91)
        ∗ (iprop(boundary (T d) ∗ owesB (F := F) d b O ∗ (l4 d ↦{fullShare} f4) ∗ (l0 d ↦{fullShare} f0)
              ∗ (l90 d ↦{fullShare} G90 d f4 f0 f90 f91) ∗ (l91 d ↦{fullShare} G91 d f4 f0 f90 f91))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  have hR := Pipeline.RegionSeg.wp (pcfgs (F := F)) adm (vdats b O d (mkA0 d f4 f0 f90 f91) (fun _ => arbBuf _)) (none : HIx 1) hinj ER defs₀ 𝒱₀
    (K (F := F)).L (K (F := F)).lev (vreg0 b O hO d (mkA0 d f4 f0 f90 f91) (fun _ => arbBuf _)) d none (fun _ h => nomatch h)
    (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (T d) Set.univ none (.op (.customCall (Pipeline.entry 0) ()) fun _ => Prog.ret PUnit.unit)
    (fun _ => wp frame (wpE ((K (F := F)).defs (D (F := F))) 𝒱 (T d) none) Set.univ (k ⟨⟩) Φ)
  rw [vreg0_pre, vreg0_post, varrays0_in, varrays0_out] at hR
  rw [wp_bind]
  refine .trans ?_ hL
  refine .trans ?_ hR
  unfold regionGhost
  iintro ⟨#Hla, Hb, ⟨Hcg, Htk⟩, HO, H4, H0, H90, H91, Hk⟩
  isplitl [Hk]
  · iintro ⟨Hb, ⟨H4, H0, H90, H91⟩, HO⟩
    rw [wp_ret]; imodintro
    iapply Hk
    isplitl [Hb]; · iexact Hb
    isplitl [HO]; · iexact HO
    isplitl [H4]; · iexact H4
    isplitl [H0]; · iexact H0
    isplitl [H90]; · iexact H90
    iexact H91
  isplitl [Hb]; · iexact Hb
  isplitl [HO H4 H0 H90 H91]
  · isplitr [HO]
    · isplitl [H4]; · iexact H4
      isplitl [H0]; · iexact H0
      isplitl [H90]; · iexact H90
      iexact H91
    · iexact HO
  isplitr; · iexact Hla
  isplitl [Hcg]; · iexact Hcg
  iexact Htk

set_option backward.isDefEq.respectTransparency.types false in
/-- TensorCore call 1 inside @main, the result handed back at what the pipeline's write-back leaves. -/
theorem region_1v (hO : ∀ g, O g none = 0) {α : Type} (k : PUnit → Prog (TpuEff nD τ sig (Elt F) (SparseCore.Sig (ΛP (F := F)) 1) .tc) α) (Φ : α → sProp 𝕄) :
    iprop(levAts (K (F := F)).L (K (F := F)).lev ∗ boundary (T d) ∗ regionGhost (F := F) 1 d ∗ owesB (F := F) d b O
        ∗ (l60 d ↦{fullShare} f60) ∗ (l11 d ↦{fullShare} f11)
        ∗ (iprop(boundary (T d) ∗ owesB (F := F) d b O ∗ (l60 d ↦{fullShare} f60) ∗ (l11 d ↦{fullShare} G11 d f60 f11))
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  have hR := Pipeline.RegionSeg.wp (pcfgs (F := F)) adm (vdats b O d (fun _ => arbBuf _) (mkA1 d f60 f11)) (none : HIx 1) hinj ER defs₀ 𝒱₀
    (K (F := F)).L (K (F := F)).lev (vreg1 b O hO d (fun _ => arbBuf _) (mkA1 d f60 f11)) d none (fun _ h => nomatch h)
    (fun _ => (Prog.ret PUnit.unit : Prog (TpuEff nD τ sig (Elt F) (ΛP (F := F)) .tc) PUnit))
    (fun _ => wp frame (wpE ((K (F := F)).defs (D (F := F))) 𝒱 (T d) none) Set.univ (k ⟨⟩) Φ)
  have hL := (K (F := F)).wp_liftProg (D (F := F)) 𝒱 (T d) Set.univ none (.op (.customCall (Pipeline.entry 1) ()) fun _ => Prog.ret PUnit.unit)
    (fun _ => wp frame (wpE ((K (F := F)).defs (D (F := F))) 𝒱 (T d) none) Set.univ (k ⟨⟩) Φ)
  rw [vreg1_pre, vreg1_post, varrays1_in, varrays1_out] at hR
  rw [wp_bind]
  refine .trans ?_ hL
  refine .trans ?_ hR
  unfold regionGhost
  iintro ⟨#Hla, Hb, ⟨Hcg, Htk⟩, HO, H60, H11, Hk⟩
  isplitl [Hk]
  · iintro ⟨Hb, ⟨H60, H11⟩, HO⟩
    rw [wp_ret]; imodintro
    iapply Hk
    isplitl [Hb]; · iexact Hb
    isplitl [HO]; · iexact HO
    isplitl [H60]; · iexact H60
    iexact H11
  isplitl [Hb]; · iexact Hb
  isplitl [HO H60 H11]
  · isplitr [HO]
    · isplitl [H60]; · iexact H60
      iexact H11
    · iexact HO
  isplitr; · iexact Hla
  isplitl [Hcg]; · iexact Hcg
  iexact Htk

end EntryV

section Index2

variable [∀ e, Nonempty (Elt F e)]

variable (d : Dev nD) (f4 : Buf (Elt F) (l4 d)) (f0 : Buf (Elt F) (l0 d)) (f90 : Buf (Elt F) (l90 d))
    (f91 : Buf (Elt F) (l91 d)) (f60 : Buf (Elt F) (l60 d)) (f11 : Buf (Elt F) (l11 d))

/-- The operand's block at point `t` of call 0, and the pseudocount. -/
abbrev blkAt (t : Fin cfg1.N) : Vec F S4x32x128x128 .f32 := ((cfg1.win 1).blk t).view.read (Elt F) f0
abbrev pcAt (t : Fin cfg1.N) : Elt F .f32 := pcOf (((cfg1.win 0).blk t).view.read (Elt F) f4)

/-- Under point `t`'s block, call 0's first result holds what the body stored from the operand's block at `t`. -/
theorem G90_block (t : Fin cfg1.N) (y : S4x32x128x128.Idx) :
    G90 d f4 f0 f90 f91 (((cfg1.win 2).blk t).view.emb y) = k1_pay3 (blkAt d f0 t) (pcAt d f4 t) y := by
  unfold G90
  rw [Dat.arrAt_emb_eq_flushed _ 2 disj0_2 t (flush1_2 t) y]
  refine (cast_eq _ _).trans ?_
  show (vdat0 0 0 d (mkA0 d f4 f0 f90 f91)).after 2 t y = _
  rw [vafter0_2, out0_2_eq]; rfl

/-- Its first four tokens keep the entry contents. -/
theorem G90_lt (i : S32x32x128x128.Idx) (h : (i 0 : ℕ) < 4) : G90 d f4 f0 f90 f91 i = f90 i := by
  unfold G90
  exact (vdat0 0 0 d (mkA0 d f4 f0 f90 f91)).arrAt_apply_of_forall_not_mem 2 cfg1.N i fun t _ _ hi => by have := mem_blk0_2 t i hi; omega

theorem G91_block (t : Fin cfg1.N) (y : S4x1x128.Idx) :
    G91 d f4 f0 f90 f91 (((cfg1.win 3).blk t).view.emb y) = k1_pay4 (blkAt d f0 t) (pcAt d f4 t) y := by
  unfold G91
  rw [Dat.arrAt_emb_eq_flushed _ 3 disj0_3 t (flush1_3 t) y]
  refine (cast_eq _ _).trans ?_
  show (vdat0 0 0 d (mkA0 d f4 f0 f90 f91)).after 3 t y = _
  rw [vafter0_3, out0_3_eq]; rfl

/-- Call 1's result holds the operand under its one block, -/
theorem G11_block (t : Fin cfg2.N) (y : S4x32x128x128.Idx) :
    G11 d f60 f11 (((cfg2.win 1).blk t).view.emb y) = k2_pay1 (((cfg2.win 0).blk t).view.read (Elt F) f60) y := by
  unfold G11
  rw [Dat.arrAt_emb_eq_flushed _ 1 disj1_1 t (flush2_1 t) y]
  refine (cast_eq _ _).trans ?_
  show (vdat1 0 0 d (mkA1 d f60 f11)).after 1 t y = _
  rw [vafter1_1, out1_1_eq]; rfl

/-- and the entry contents from token 4 on. -/
theorem G11_ge (i : S32x32x128x128.Idx) (h : 4 ≤ (i 0 : ℕ)) : G11 d f60 f11 i = f11 i := by
  unfold G11
  exact (vdat1 0 0 d (mkA1 d f60 f11)).arrAt_apply_of_forall_not_mem 1 cfg2.N i fun t _ _ hi => by have := mem_blk1_1 t i hi; omega

/-- A block read at an element is the array at the element's place. -/
theorem blkAt_apply (t : Fin cfg1.N) (x : S4x32x128x128.Idx) : blkAt d f0 t x = f0 (((cfg1.win 1).blk t).view.emb x) := by
  show ((cfg1.win 1).blk t).view.read (Elt F) f0 x = _
  rw [View.read_apply]; exact cast_eq _ _
theorem blk1_apply (t : Fin cfg2.N) (x : S4x32x128x128.Idx) :
    ((cfg2.win 0).blk t).view.read (Elt F) f60 x = f60 (((cfg2.win 0).blk t).view.emb x) := by
  rw [View.read_apply]; exact cast_eq _ _

end Index2

/-! ### The same at an index given by its coordinates -/

section At

variable [∀ e, Nonempty (Elt F e)] (d : Dev nD) (f4 : Buf (Elt F) (l4 d)) (f0 : Buf (Elt F) (l0 d)) (f90 : Buf (Elt F) (l90 d))
    (f91 : Buf (Elt F) (l91 d)) (f60 : Buf (Elt F) (l60 d)) (f11 : Buf (Elt F) (l11 d))

/-- Call 0's first result at the index whose token is `4 (t + 1) + y 0` and whose other coordinates are `y`'s. -/
theorem G90_at (t : Fin cfg1.N) (y : S4x32x128x128.Idx) (i : S32x32x128x128.Idx)
    (hi : ∀ a : Fin 4, (i a : ℕ) = (if a = 0 then 4 * (t.val + 1) else 0) + (y a : ℕ)) :
    G90 d f4 f0 f90 f91 i = k1_pay3 (blkAt d f0 t) (pcAt d f4 t) y := by
  have e : ((cfg1.win 2).blk t).view.emb y = i := funext fun a => Fin.ext ((emb0_2_val t y a).trans (hi a).symm)
  rw [← e]; exact G90_block d f4 f0 f90 f91 t y

/-- Its second result at the index whose row is `4 t + y 0`. -/
theorem G91_at (t : Fin cfg1.N) (y : S4x1x128.Idx) (j : S28x1x128.Idx)
    (hj : ∀ a : Fin 3, (j a : ℕ) = (if a = 0 then 4 * t.val else 0) + (y a : ℕ)) :
    G91 d f4 f0 f90 f91 j = k1_pay4 (blkAt d f0 t) (pcAt d f4 t) y := by
  have e : ((cfg1.win 3).blk t).view.emb y = j := funext fun a => Fin.ext ((emb0_3_val t y a).trans (hj a).symm)
  rw [← e]; exact G91_block d f4 f0 f90 f91 t y

/-- The operand's block at `t`, element `x`: the operand at token `4 (t + 1) + x 0`. -/
theorem blkAt_at (t : Fin cfg1.N) (x : S4x32x128x128.Idx) (i : S32x32x128x128.Idx)
    (hi : ∀ a : Fin 4, (i a : ℕ) = (if a = 0 then 4 * (t.val + 1) else 0) + (x a : ℕ)) : blkAt d f0 t x = f0 i := by
  have e : ((cfg1.win 1).blk t).view.emb x = i := funext fun a => Fin.ext ((emb0_1_val t x a).trans (hi a).symm)
  rw [← e]; exact blkAt_apply d f0 t x

/-- Call 1's result below token 4: the operand at the same coordinates. -/
theorem G11_lt (i : S32x32x128x128.Idx) (y : S4x32x128x128.Idx) (hi : ∀ a : Fin 4, (i a : ℕ) = (y a : ℕ)) :
    G11 d f60 f11 i = k2_pay1 (((cfg2.win 0).blk t2_0).view.read (Elt F) f60) y := by
  have e : ((cfg2.win 1).blk t2_0).view.emb y = i := funext fun a => Fin.ext ((emb1_1_val t2_0 y a).trans (hi a).symm)
  rw [← e]; exact G11_block d f60 f11 t2_0 y

/-- The operand's one block is the operand. -/
theorem blk1_at (x : S4x32x128x128.Idx) : ((cfg2.win 0).blk t2_0).view.read (Elt F) f60 x = f60 x := by
  rw [blk1_apply]
  exact congrArg f60 (funext fun a => Fin.ext (emb1_0_val t2_0 x a))

end At

/-! ### The pseudocount's block -/

section PC

variable [∀ e, Nonempty (Elt F e)] (d : Dev nD) (f4 : Buf (Elt F) (l4 d))

/-- The `[1, 1]` shape has one index. -/
theorem idx11_eq (i j : S1x1.Idx) : i = j := by
  funext a
  apply Fin.ext
  have hi : (i a : ℕ) < 1 := by fin_cases a <;> exact (i _).isLt
  have hj : (j a : ℕ) < 1 := by fin_cases a <;> exact (j _).isLt
  omega

/-- The pseudocount's block is the pseudocount: its one element, at every point. -/
theorem pcAt_eq (t : Fin cfg1.N) (i : S1x1.Idx) : pcAt d f4 t = f4 i := by
  show ((cfg1.win 0).blk t).view.read (Elt F) f4 _ = f4 i
  rw [View.read_apply]
  refine (cast_eq _ _).trans ?_
  exact congrArg f4 (idx11_eq _ _)

end PC

end Cert.Proof.KI

end
-- ==== Proof.KI.RegionStepsV.lean ====
/-
  The two TensorCore regions' value-level steps in the form @main's value proof takes them, and the results they name.
-/
import proofs.«216181_g9861244912407_cont_9to1_m_1073_40_alg».proof.Proof.KI.MainV
import proofs.«216181_g9861244912407_cont_9to1_m_1073_40_alg».proof.Proof.KI.RegionsValue

noncomputable section

namespace Cert.Proof.KI

open Cert.KernelIdeal Cert.KernelIdeal.Gen
open Idealize.ShloMosaic

/-- What the first region leaves in its two result arrays. -/
abbrev G0i : G0Ty := fun d f4 f0 f90 f91 => (G90 (F := Ideal) d f4 f0 f90 f91, G91 (F := Ideal) d f4 f0 f90 f91)
/-- What the merge leaves in its result array. -/
abbrev G1i : G1Ty := fun d f60 f11 => G11 (F := Ideal) d f60 f11

theorem region_0v_R : Region0V (regionGhost (F := Ideal)) G0i := fun d b O hO f4 f0 f90 f91 _ k Φ => region_0v b O d f4 f0 f90 f91 hO k Φ
theorem region_1v_R : Region1V (regionGhost (F := Ideal)) G1i := fun d b O hO f60 f11 _ k Φ => region_1v b O d f60 f11 hO k Φ

end Cert.Proof.KI

end
-- ==== Proof.KI.Vals.lean ====
/-
  The arrays along @main, read back: which operation wrote each array that the two results depend on, and from what.
-/
import proofs.«216181_g9861244912407_cont_9to1_m_1073_40_alg».proof.Proof.KI.RegionStepsV
import Idealize.ShloMosaic.Lib.StableHlo.Run

noncomputable section

namespace Cert.Proof.KI

open Cert.KernelIdeal Cert.KernelIdeal.Gen
open Idealize.ShloMosaic Idealize.ShloMosaic.TcCoe
open Idealize.ShloMosaic.SparseCore (S V T)
open Idealize.SL.Sem
open Idealize.ShloMosaic.StableHlo

variable (m : (ℓ : Loc nD τ sig) → Buf (Elt Ideal) ℓ)

abbrev v8' : DevRef τ sig := Proc.devRef .tc (main_v8 : Ref sig .tc)
abbrev v10' : DevRef τ sig := Proc.devRef .tc (main_v10 : Ref sig .tc)

/-! ## Before the SparseCore call -/

theorem W1_v0 (d : Dev nD) : (W1 m d v0' : S32x32x128x128.Idx → EReal) = shapeCast _ (m (a0Loc d)) shapeCasts_S16777216_S32x32x128x128 := by
  show after ops0 (V0 m d) (Proc.devRef .tc main_v0) = _
  after_results <;> rfl

theorem W1_in (d : Dev nD) : (W1 m d in' : S4x32x128x128.Idx → EReal) = extractStridedSlice S4x32x128x128 ![0, 0, 0, 0] (shapeCast _ (m (a0Loc d)) shapeCasts_S16777216_S32x32x128x128) slices_S32x32x128x128_S4x32x128x128_0_0_0_0 := by
  show after ops0 (V0 m d) (Proc.devRef .tc main_v5) = _
  after_results <;> rfl

theorem W1_pc (d : Dev nD) : (W1 m d pc' : S16.Idx → EReal) = (broadcastInDim S16 ![] bcast_S_S16 (sitofp (F := Ideal) .f32 (m (a1Loc d)) : FVec Ideal S_ .f32) : FVec Ideal S16 .f32) := by
  show after ops0 (V0 m d) (Proc.devRef .tc main_v2) = _
  after_results <;> rfl

theorem W1_v4 (d : Dev nD) : (W1 m d v4' : S1x1.Idx → EReal) = (shapeCast _ (sitofp (F := Ideal) .f32 (m (a1Loc d)) : FVec Ideal S_ .f32) shapeCasts_S_S1x1 : FVec Ideal S1x1 .f32) := by
  show after ops0 (V0 m d) (Proc.devRef .tc main_v4) = _
  after_results <;> rfl

/-! ## After the call, through the first region -/

theorem W2_out (d : Dev nD) : W2 m d out' = gout (vin m) (vpc m) d := by
  show V2' (W1 m d) d _ _ out' = _
  rw [V2', Function.update_of_ne (by decide), Function.update_self]
theorem W2_rs (d : Dev nD) : W2 m d rs' = grs (vin m) (vpc m) d := by
  show V2' (W1 m d) d _ _ rs' = _
  rw [V2', Function.update_self]

theorem W3_of (d : Dev nD) (r : Ref sig .tc) (h : r ∉ ops1_W) : W3 m d (Proc.devRef .tc r) = W2 m d (Proc.devRef .tc r) :=
  after_of_writes_sub ops1 _ ops1_writes h
theorem W2_of (d : Dev nD) (b : DevRef τ sig) (h1 : b ≠ out') (h2 : b ≠ rs') : W2 m d b = W1 m d b := by
  show V2' (W1 m d) d _ _ b = _
  rw [V2', Function.update_of_ne h2, Function.update_of_ne h1]

theorem W3_v4 (d : Dev nD) : W3 m d v4' = W1 m d v4' := (W3_of m d main_v4 (by decide)).trans (W2_of m d v4' (by decide) (by decide))
theorem W3_v0 (d : Dev nD) : W3 m d v0' = W1 m d v0' := (W3_of m d main_v0 (by decide)).trans (W2_of m d v0' (by decide) (by decide))
theorem W3_out (d : Dev nD) : W3 m d out' = gout (vin m) (vpc m) d := (W3_of m d main_v6_0 (by decide)).trans (W2_out m d)

theorem W3_v8 (d : Dev nD) : (W3 m d v8' : S512.Idx → EReal)
    = shapeCast _ (extractStridedSlice S4x1x16x8 ![0, 0, 0, 0] (grs (vin m) (vpc m) d : S4x1x16x16.Idx → EReal) slices_S4x1x16x16_S4x1x16x8_0_0_0_0) shapeCasts_S4x1x16x8_S512 := by
  show after ops1 (W2 m d) (Proc.devRef .tc main_v8) = _
  after_results
  all_goals first | rfl | (rw [W2_rs]; rfl)

/-! ## Through the first region, the copy, the merge and the last line -/

theorem W4_v90 (d : Dev nD) : W4 m G0i d v90' = G90 (F := Ideal) d (W3 m d v4') (W3 m d v0') (W3 m d v90') (W3 m d v91') := by
  show V4' (W3 m d) d _ _ v90' = _
  rw [V4', Function.update_of_ne (by decide), Function.update_self]
theorem W4_v91 (d : Dev nD) : W4 m G0i d v91' = G91 (F := Ideal) d (W3 m d v4') (W3 m d v0') (W3 m d v90') (W3 m d v91') := by
  show V4' (W3 m d) d _ _ v91' = _
  rw [V4', Function.update_self]
theorem W4_of (d : Dev nD) (b : DevRef τ sig) (h1 : b ≠ v90') (h2 : b ≠ v91') : W4 m G0i d b = W3 m d b := by
  show V4' (W3 m d) d _ _ b = _
  rw [V4', Function.update_of_ne h2, Function.update_of_ne h1]

theorem W5_of (d : Dev nD) (r : Ref sig .tc) (h : r ∉ ops2_W) : W5 m G0i d (Proc.devRef .tc r) = W4 m G0i d (Proc.devRef .tc r) :=
  after_of_writes_sub ops2 _ ops2_writes h
theorem W5_v11 (d : Dev nD) : W5 m G0i d v11' = W4 m G0i d v90' := by
  show after ops2 (W4 m G0i d) (Proc.devRef .tc main_v11) = _
  after_results <;> rfl
theorem W5_v10 (d : Dev nD) : (W5 m G0i d v10' : S3584.Idx → EReal) = shapeCast _ (W4 m G0i d v91' : S28x1x128.Idx → EReal) shapeCasts_S28x1x128_S3584 := by
  show after ops2 (W4 m G0i d) (Proc.devRef .tc main_v10) = _
  after_results <;> rfl

theorem W6_v11 (d : Dev nD) : W6 m G0i G1i d v11' = G11 (F := Ideal) d (W5 m G0i d out') (W5 m G0i d v11') := by
  show V6' (W5 m G0i d) d _ v11' = _
  rw [V6', Function.update_self]
theorem W6_of (d : Dev nD) (b : DevRef τ sig) (h : b ≠ v11') : W6 m G0i G1i d b = W5 m G0i d b := by
  show V6' (W5 m G0i d) d _ b = _
  rw [V6', Function.update_of_ne h]

theorem W7_v13 (d : Dev nD) : (W7 m G0i G1i d v13' : S16777216.Idx → EReal) = shapeCast _ (W6 m G0i G1i d v11' : S32x32x128x128.Idx → EReal) shapeCasts_S32x32x128x128_S16777216 := by
  show after ops3 (W6 m G0i G1i d) (Proc.devRef .tc main_v13) = _
  after_results <;> rfl
theorem W7_v12 (d : Dev nD) : (W7 m G0i G1i d v12' : S4096.Idx → EReal)
    = concatenate S4096 0 [⟨S512, (W6 m G0i G1i d v8' : S512.Idx → EReal)⟩, ⟨S3584, (W6 m G0i G1i d v10' : S3584.Idx → EReal)⟩] concatenates_S512_S3584_S4096_d0 := by
  show after ops3 (W6 m G0i G1i d) (Proc.devRef .tc main_v12) = _
  after_results <;> rfl

/-- The SparseCore call's output reaches the merge untouched. -/
theorem W5_out (d : Dev nD) : W5 m G0i d out' = gout (vin m) (vpc m) d :=
  (W5_of m d main_v6_0 (by decide)).trans ((W4_of m d out' (by decide) (by decide)).trans (W3_out m d))
/-- The row sums' first piece reaches the last line untouched. -/
theorem W6_v8 (d : Dev nD) : W6 m G0i G1i d v8' = W3 m d v8' :=
  (W6_of m d v8' (by decide)).trans ((W5_of m d main_v8 (by decide)).trans (W4_of m d v8' (by decide) (by decide)))
theorem W6_v10 (d : Dev nD) : W6 m G0i G1i d v10' = W5 m G0i d v10' := W6_of m d v10' (by decide)

end Cert.Proof.KI

end
-- ==== Proof.Canon.lean ====
/-
  The mathematics both programs compute, over the reals.  A table of counts `X s d c e` (source token, destination
  token, source clone, destination clone) and a pseudocount `pc`: the row sum of the source state `(s, c)` adds the
  pseudocount to every count and sums over the destination token and clone; the denominator is the row sum where it
  is positive and one elsewhere; every smoothed count is divided by its source state's denominator.  The kernels form
  the row sum as the sum of the counts plus 4096 pseudocounts and scale by the reciprocal: the same numbers.
-/
import Idealize.ShloMosaic.PureOps.Ideal

noncomputable section

namespace Cert.Proof.Canon

variable (X : Fin 32 → Fin 32 → Fin 128 → Fin 128 → ℝ) (pc : ℝ)

/-- The row sum as the reference forms it. -/
def rs (s : Fin 32) (c : Fin 128) : ℝ := ∑ d : Fin 32, ∑ e : Fin 128, (X s d c e + pc)
/-- The denominator. -/
def den (s : Fin 32) (c : Fin 128) : ℝ := if 0 < rs X pc s c then rs X pc s c else 1
/-- The normalised value. -/
def out (s d : Fin 32) (c e : Fin 128) : ℝ := (X s d c e + pc) / den X pc s c

/-- The row sum as the kernels form it: the counts' sum plus 4096 pseudocounts. -/
theorem rs_eq (s : Fin 32) (c : Fin 128) : rs X pc s c = (∑ d : Fin 32, ∑ e : Fin 128, X s d c e) + pc * 4096 := by
  unfold rs
  simp only [Finset.sum_add_distrib, Finset.sum_const, Finset.card_univ, Fintype.card_fin, nsmul_eq_mul]
  push_cast; ring

theorem den_pos (s : Fin 32) (c : Fin 128) : 0 < den X pc s c := by
  unfold den; split
  · assumption
  · exact one_pos

theorem den_ne (s : Fin 32) (c : Fin 128) : den X pc s c ≠ 0 := (den_pos X pc s c).ne'

/-- The kernels' scaling by the reciprocal is the reference's division. -/
theorem out_eq (s d : Fin 32) (c e : Fin 128) :
    out X pc s d c e = X s d c e * (1 / den X pc s c) + pc * (1 / den X pc s c) := by
  unfold out; field_simp [den_ne X pc s c]

end Cert.Proof.Canon

end
-- ==== Proof.Consts.lean ====
/-
  The float constants the programs spell, as the extended reals their patterns denote: zero, one and 4096.
-/
import Idealize.ShloMosaic.PureOps.Ideal

noncomputable section

namespace Cert.Proof.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

end Cert.Proof.Consts

end
-- ==== Proof.KI.SCCanon.lean ====
/-
  The SparseCore call's specification in the canonical mathematics: where the input's entries and the pseudocount
  are reals, the call's output is the canonical normalised value of the first four source tokens and its row-sum array
  the canonical row sums.
-/
import proofs.«216181_g9861244912407_cont_9to1_m_1073_40_alg».proof.Proof.KI.SpecSC
import proofs.«216181_g9861244912407_cont_9to1_m_1073_40_alg».proof.Proof.Canon
import proofs.«216181_g9861244912407_cont_9to1_m_1073_40_alg».proof.Proof.Consts

noncomputable section

namespace Cert.Proof.KI

open Cert.KernelIdeal Cert.KernelIdeal.Gen
open Idealize.ShloMosaic Idealize.ShloMosaic.ValueIdx

/-- The image of a finite real sum is the sum of the images. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Source token `r < 4` among the thirty-two. -/
abbrev tok (r : Fin 4) : Fin 32 := ⟨r.val, by have := r.isLt; omega⟩

section

variable (x : S4x32x128x128.Idx → EReal) (p : S16.Idx → EReal) (X : Fin 32 → Fin 32 → Fin 128 → Fin 128 → ℝ) (pc : ℝ)
  (hx : ∀ (r : Fin 4) (j : Fin 32) (c e : Fin 128), x (ix4 r j c e) = ((X (tok r) j c e : ℝ) : EReal))
  (hp : ∀ l : Fin 16, p (ix1 l) = ((pc : ℝ) : EReal))

include hx hp

theorem scRs_coe (r : Fin 4) (c : Fin 128) : scRs x p r c = ((Canon.rs X pc (tok r) c : ℝ) : EReal) := by
  have h1 : (∑ j : Fin 32, ∑ e : Fin 128, x (ix4 r j c e)) = (((∑ j : Fin 32, ∑ e : Fin 128, X (tok r) j c e : ℝ)) : EReal) := by
    rw [coe_sum]; refine Finset.sum_congr rfl fun j _ => ?_
    rw [coe_sum]; exact Finset.sum_congr rfl fun e _ => hx r j c e
  unfold scRs pc0
  rw [h1, hp, Consts.ofBits_4096, ← EReal.coe_mul, ← EReal.coe_add, Canon.rs_eq]

theorem scDen_coe (r : Fin 4) (c : Fin 128) : scDen x p r c = ((Canon.den X pc (tok r) c : ℝ) : EReal) := by
  unfold scDen Canon.den
  rw [scRs_coe x p X pc hx hp, Consts.ofBits_one]
  by_cases h : 0 < Canon.rs X pc (tok r) c
  · rw [if_pos (EReal.coe_pos.mpr h), if_pos h]
  · rw [if_neg (fun h' => h (EReal.coe_pos.mp h')), if_neg h]; rfl

theorem scRcp_coe (r : Fin 4) (c : Fin 128) : scRcp x p r c = ((1 / Canon.den X pc (tok r) c : ℝ) : EReal) := by
  unfold scRcp
  rw [scDen_coe x p X pc hx hp, Consts.ofBits_one, Ideal.div_coe (Canon.den_ne X pc (tok r) c), one_mul]

theorem scOut_coe (r : Fin 4) (d : Fin 32) (c e : Fin 128) : scOut x p (ix4 r d c e) = ((Canon.out X pc (tok r) d c e : ℝ) : EReal) := by
  unfold scOut
  show x (ix4 r d c e) * scRcp x p r c + p (ix1 _) * scRcp x p r c = _
  rw [scRcp_coe x p X pc hx hp, hx, hp, ← EReal.coe_mul, ← EReal.coe_mul, ← EReal.coe_add, Canon.out_eq]

theorem scRsArr_lo (r : Fin 4) (s : Fin 16) (l : Fin 16) (hl : l.val < 8) :
    scRsArr x p (ix4 r (0 : Fin 1) s l) = ((Canon.rs X pc (tok r) ⟨8 * s.val + l.val, by have := s.isLt; omega⟩ : ℝ) : EReal) := by
  unfold scRsArr
  rw [dif_pos (show ((ix4 r (0 : Fin 1) s l : S4x1x16x16.Idx) 3).val < 8 from hl)]
  exact scRs_coe x p X pc hx hp r _

end

end Cert.Proof.KI

end
-- ==== Proof.RefCanon.lean ====
/-
  The reference program read at the ideal instance, index by index, as the canonical real-number formulas: its row
  sums are the canonical row sums, its quotients the canonical normalised values.
-/
import proofs.«216181_g9861244912407_cont_9to1_m_1073_40_alg».proof.Proof.Canon
import proofs.«216181_g9861244912407_cont_9to1_m_1073_40_alg».proof.Proof.Consts
import proofs.«216181_g9861244912407_cont_9to1_m_1073_40_alg».proof.Proof.Gen.ReferenceIdeal.Read
import Idealize.ShloMosaic.Lib.ValueIdx
import Idealize.ShloMosaic.PureOps.Ideal.Laws

noncomputable section

namespace Cert.Proof.RefCanon

open Idealize.ShloMosaic Idealize.ShloMosaic.ValueIdx Cert.ReferenceIdeal Cert.ReferenceIdeal.Gen Cert.ReferenceIdeal.Read
open Cert.Proof

/-- The coercion of the reals into the extended reals passes through a finite sum. -/
theorem coe_sum {ι : Type*} (S : Finset ι) (f : ι → ℝ) : ((∑ i ∈ S, f i : ℝ) : EReal) = ∑ i ∈ S, ((f i : ℝ) : EReal) := by
  induction S using Finset.cons_induction with
  | empty => simp
  | cons a S ha ih => rw [Finset.sum_cons, Finset.sum_cons, EReal.coe_add, ih]

/-- Dropping the destination token and clone of a table index leaves the source state (s, c) exactly when the
    index's source token is s and its source clone is c. -/
theorem drop_iff (h : S32x32x128x128.ReducesTo [1, 3] S32x128) (i : S32x32x128x128.Idx) (s : Fin 32) (c : Fin 128) :
    h.drop i = ix2 s c ↔ (i 0 = s ∧ i 2 = c) := by
  constructor
  · intro hh
    have h0 := congrArg Fin.val (congrFun hh 0)
    have h1 := congrArg Fin.val (congrFun hh 1)
    rw [Shape.ReducesTo.drop_apply_val_of_eq h i 0 0] at h0
    rw [Shape.ReducesTo.drop_apply_val_of_eq h i 1 2] at h1
    exact ⟨Fin.ext h0, Fin.ext h1⟩
  · rintro ⟨h0, h1⟩
    funext b
    match b with
    | ⟨0, _⟩ => exact Fin.ext ((Shape.ReducesTo.drop_apply_val_of_eq h i 0 0).trans (congrArg Fin.val h0))
    | ⟨1, _⟩ => exact Fin.ext ((Shape.ReducesTo.drop_apply_val_of_eq h i 1 2).trans (congrArg Fin.val h1))

/-- The sum over the table indices of source state (s, c) is the double sum over the destination token and the
    destination clone. -/
theorem sum_filter_drop (h : S32x32x128x128.ReducesTo [1, 3] S32x128) (x : S32x32x128x128.Idx → EReal) (s : Fin 32) (c : Fin 128) :
    ∑ i ∈ Finset.univ.filter (fun i => h.drop i = ix2 s c), x i = ∑ d : Fin 32, ∑ e : Fin 128, x (ix4 s d c e) := by
  refine Eq.trans ?_ (Fintype.sum_prod_type' (fun (d : Fin 32) (e : Fin 128) => x (ix4 s d c e)))
  refine Finset.sum_nbij' (fun i => ((i 1, i 3) : Fin 32 × Fin 128)) (fun p => ix4 s p.1 c p.2) ?_ ?_ ?_ ?_ ?_
  · intro i _; exact Finset.mem_univ _
  · intro p _
    rw [Finset.mem_filter]
    exact ⟨Finset.mem_univ _, (drop_iff h _ s c).2 ⟨rfl, rfl⟩⟩
  · intro i hi
    rw [Finset.mem_filter] at hi
    obtain ⟨h0, h2⟩ := (drop_iff h i s c).1 hi.2
    subst h0 h2
    exact (eq_ix4 i).symm
  · intro p _; rfl
  · intro i hi
    rw [Finset.mem_filter] at hi
    obtain ⟨h0, h2⟩ := (drop_iff h i s c).1 hi.2
    subst h0 h2
    exact congrArg x (eq_ix4 i)

/-- The flat position of the table entry (s, d, c, e), row-major. -/
abbrev flat4 (s d : Fin 32) (c e : Fin 128) : S16777216.Idx :=
  ix1 ⟨((s.val * 32 + d.val) * 128 + c.val) * 128 + e.val, by
    have := s.isLt; have := d.isLt; have := c.isLt; have := e.isLt; omega⟩
/-- The flat position of the source state (s, c), row-major. -/
abbrev flat2 (s : Fin 32) (c : Fin 128) : S4096.Idx :=
  ix1 ⟨s.val * 128 + c.val, by have := s.isLt; have := c.isLt; omega⟩

/-- The table of counts a flat array of reals holds. -/
def Xof (Xr : S16777216.Idx → ℝ) : Fin 32 → Fin 32 → Fin 128 → Fin 128 → ℝ := fun s d c e => Xr (flat4 s d c e)

/-- The pseudocount: the integer argument, read signed, as a real. -/
def pcOf (a1 : (⟨S_, .i32⟩ : BufTy).Contents (Elt Ideal)) : ℝ := (((a1 ix0).toInt : ℤ) : ℝ)

/-- The converted pseudocount is that real. -/
theorem pc_eq (a1 : (⟨S_, .i32⟩ : BufTy).Contents (Elt Ideal)) :
    val_main_v1 (F := Ideal) a1 ix0 = ((pcOf a1 : ℝ) : EReal) := rfl

/-- The smoothed count at a table index. -/
theorem v3_at (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) (s d : Fin 32) (c e : Fin 128) :
    val_main_v3 (F := Ideal) a0 a1 (ix4 s d c e) = ((Xof Xr s d c e + pcOf a1 : ℝ) : EReal) := by
  have hi : idx_main_v0 (ix4 s d c e) = flat4 s d c e := by
    funext a; match a with | ⟨0, _⟩ => rfl
  rw [val_main_v3_apply, val_main_v0_apply, val_main_v2_apply, Ideal.addf_def, EReal.coe_add, hi, h]
  rfl

/-- The reference's row sum is the canonical one. -/
theorem ref_rs (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) (s : Fin 32) (c : Fin 128) :
    val_main_v4 (F := Ideal) a0 a1 (ix2 s c) = ((Canon.rs (Xof Xr) (pcOf a1) s c : ℝ) : EReal) := by
  unfold val_main_v4 Host.reduceAdd
  rw [Ideal.hostReduceAdd_def]
  unfold Ideal.hostReduceAdd
  rw [sum_filter_drop, val_main_cst_apply, Ideal.ofBits_def, Consts.ofBits_zero, zero_add]
  unfold Canon.rs
  rw [coe_sum]
  refine Finset.sum_congr rfl fun d _ => ?_
  rw [coe_sum]
  exact Finset.sum_congr rfl fun e _ => v3_at a0 a1 Xr h s d c e

/-- The flattened row sums are the canonical row sums. -/
theorem ref_v12 (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) (s : Fin 32) (c : Fin 128) :
    val_main_v12 (F := Ideal) a0 a1 (flat2 s c) = ((Canon.rs (Xof Xr) (pcOf a1) s c : ℝ) : EReal) := by
  have hi : idx_main_v12 (flat2 s c) = ix2 s c := by
    funext b
    match b with
    | ⟨0, _⟩ => exact Fin.ext (by have := c.isLt; show (s.val * 128 + c.val) / 128 = s.val; omega)
    | ⟨1, _⟩ => exact Fin.ext (by have := c.isLt; show (s.val * 128 + c.val) % 128 = c.val; omega)
  rw [val_main_v12_apply, hi, ref_rs a0 a1 Xr h]

/-- Selecting a real where it is positive and one elsewhere, on the extended reals. -/
theorem select_pos (r : ℝ) :
    Scalar.select (FloatOps.cmpf (F := Ideal) (φ := .f32) .ogt ((r : ℝ) : EReal) (0 : EReal)) ((r : ℝ) : EReal) (1 : EReal)
      = (((if 0 < r then r else 1 : ℝ)) : EReal) := by
  rw [Ideal.cmpf_def]
  unfold Ideal.cmp
  by_cases hr : 0 < r
  · have hr' : (0 : EReal) < ((r : ℝ) : EReal) := EReal.coe_pos.2 hr
    rw [if_pos hr]
    simp only [hr', decide_true, BitVec.ofBool_true]
    exact select_one _ _
  · have hr' : ¬ (0 : EReal) < ((r : ℝ) : EReal) := fun hh => hr (EReal.coe_pos.1 hh)
    rw [if_neg hr]
    simp only [hr', decide_false, BitVec.ofBool_false]
    exact (select_zero _ _).trans EReal.coe_one.symm

/-- The reference's denominator is the canonical one. -/
theorem v7_at (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) (s : Fin 32) (c : Fin 128) :
    val_main_v7 (F := Ideal) a0 a1 (ix2 s c) = ((Canon.den (Xof Xr) (pcOf a1) s c : ℝ) : EReal) := by
  rw [val_main_v7_apply, val_main_v6_apply, val_main_v5_apply, val_main_cst_0_apply, val_main_call0_v0_apply,
    val_main_cst_1_apply, ref_rs a0 a1 Xr h, Ideal.ofBits_def, Ideal.ofBits_def, Consts.ofBits_zero, Consts.ofBits_one]
  exact select_pos _

/-- The reference's quotients are the canonical normalised values. -/
theorem ref_v11 (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) (s d : Fin 32) (c e : Fin 128) :
    val_main_v11 (F := Ideal) a0 a1 (flat4 s d c e) = ((Canon.out (Xof Xr) (pcOf a1) s d c e : ℝ) : EReal) := by
  have hi : idx_main_v11 (flat4 s d c e) = ix4 s d c e := by
    funext b
    have := s.isLt; have := d.isLt; have := c.isLt; have := e.isLt
    match b with
    | ⟨0, _⟩ => exact Fin.ext (by show (((s.val * 32 + d.val) * 128 + c.val) * 128 + e.val) / 524288 = s.val; omega)
    | ⟨1, _⟩ => exact Fin.ext (by show (((s.val * 32 + d.val) * 128 + c.val) * 128 + e.val) / 16384 % 32 = d.val; omega)
    | ⟨2, _⟩ => exact Fin.ext (by show (((s.val * 32 + d.val) * 128 + c.val) * 128 + e.val) / 128 % 128 = c.val; omega)
    | ⟨3, _⟩ => exact Fin.ext (by show (((s.val * 32 + d.val) * 128 + c.val) * 128 + e.val) % 128 = e.val; omega)
  have hj : idx_main_v8 (idx_main_v9 (ix4 s d c e)) = ix2 s c := by
    funext b
    match b with
    | ⟨0, _⟩ => rfl
    | ⟨1, _⟩ => rfl
  rw [val_main_v11_apply, hi, val_main_v10_apply, val_main_v9_apply, val_main_v8_apply, hj, v3_at a0 a1 Xr h,
    v7_at a0 a1 Xr h, Ideal.hostDivf_def, Ideal.div_coe (Canon.den_ne _ _ s c), ← EReal.coe_mul]
  unfold Canon.out
  rw [mul_one_div]

/-! ## Every flat position is the position of its coordinates -/

/-- The source token of a flat table position. -/
abbrev s4 (i : S16777216.Idx) : Fin 32 := ⟨(i 0).val / 524288, by have h0 : (i 0).val < 16777216 := (i 0).isLt; omega⟩
/-- The destination token of a flat table position. -/
abbrev d4 (i : S16777216.Idx) : Fin 32 := ⟨(i 0).val / 16384 % 32, by omega⟩
/-- The source clone of a flat table position. -/
abbrev c4 (i : S16777216.Idx) : Fin 128 := ⟨(i 0).val / 128 % 128, by omega⟩
/-- The destination clone of a flat table position. -/
abbrev e4 (i : S16777216.Idx) : Fin 128 := ⟨(i 0).val % 128, by omega⟩

theorem flat4_coords (i : S16777216.Idx) : flat4 (s4 i) (d4 i) (c4 i) (e4 i) = i := by
  funext a
  match a with
  | ⟨0, _⟩ =>
    exact Fin.ext (by
      have h0 : (i 0).val < 16777216 := (i 0).isLt
      show (((i 0).val / 524288 * 32 + (i 0).val / 16384 % 32) * 128 + (i 0).val / 128 % 128) * 128 + (i 0).val % 128 = (i 0).val
      omega)

/-- The source token of a flat source-state position. -/
abbrev s2 (j : S4096.Idx) : Fin 32 := ⟨(j 0).val / 128, by have h0 : (j 0).val < 4096 := (j 0).isLt; omega⟩
/-- The source clone of a flat source-state position. -/
abbrev c2 (j : S4096.Idx) : Fin 128 := ⟨(j 0).val % 128, by omega⟩

theorem flat2_coords (j : S4096.Idx) : flat2 (s2 j) (c2 j) = j := by
  funext a
  match a with
  | ⟨0, _⟩ =>
    exact Fin.ext (by
      show (j 0).val / 128 * 128 + (j 0).val % 128 = (j 0).val
      omega)

/-- The reference's first result, whole: at every flat position the canonical normalised value of its coordinates. -/
theorem ref_v11_fun (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) :
    val_main_v11 (F := Ideal) a0 a1
      = fun i => ((Canon.out (Xof Xr) (pcOf a1) (s4 i) (d4 i) (c4 i) (e4 i) : ℝ) : EReal) := by
  funext i
  have hh := ref_v11 a0 a1 Xr h (s4 i) (d4 i) (c4 i) (e4 i)
  rwa [flat4_coords] at hh

/-- The reference's second result, whole: at every flat position the canonical row sum of its coordinates. -/
theorem ref_v12_fun (a0 : (⟨S16777216, .f32⟩ : BufTy).Contents (Elt Ideal)) (a1 : (⟨S_, .i32⟩ : BufTy).Contents (Elt Ideal))
    (Xr : S16777216.Idx → ℝ) (h : ∀ i, a0 i = ((Xr i : ℝ) : EReal)) :
    val_main_v12 (F := Ideal) a0 a1
      = fun j => ((Canon.rs (Xof Xr) (pcOf a1) (s2 j) (c2 j) : ℝ) : EReal) := by
  funext j
  have hh := ref_v12 a0 a1 Xr h (s2 j) (c2 j)
  rwa [flat2_coords] at hh

end Cert.Proof.RefCanon

end
-- ==== Proof.KI.TCCanon.lean ====
/-
  The first TensorCore call's payloads in the canonical mathematics, at the ideal values: where a block's entries are the
  reals `X (σ b) d c e` (`σ` names the block's four source tokens) and the pseudocount is the real `pc`, the block's row
  sums are the canonical row sums — the sum over the destination token and clone plus 4096 pseudocounts —, the
  denominator the row sum where it is positive and one elsewhere, and the stored value the entry scaled by the
  denominator's reciprocal plus the pseudocount scaled likewise: the canonical normalised value.
-/
import proofs.«216181_g9861244912407_cont_9to1_m_1073_40_alg».proof.Proof.KI.SCCanon
import Idealize.ShloMosaic.PureOps.Ideal.Laws
import Idealize.ShloMosaic.Lib.Pipeline.Value

noncomputable section

namespace Cert.Proof.KI

open Cert.KernelIdeal Cert.KernelIdeal.Gen
open Idealize.ShloMosaic Idealize.ShloMosaic.ValueIdx

/-- The denominator as the payload forms it: the row sum where it is above zero, one elsewhere. -/
abbrev tcDen (v0 : FVec Ideal S4x32x128x128 .f32) (v2 : Elt Ideal .f32) : FVec Ideal S4x128 .f32 :=
  select (cmpf .ogt (k1_pay2 (F := Ideal) v0 v2) (broadcast S4x128 (Scalar.ofBits .f32 0x00000000#32))) (k1_pay2 (F := Ideal) v0 v2)
    (broadcast S4x128 (Scalar.ofBits .f32 0x3F800000#32))
/-- Its reciprocal. -/
abbrev tcRcp (v0 : FVec Ideal S4x32x128x128 .f32) (v2 : Elt Ideal .f32) : FVec Ideal S4x128 .f32 :=
  divf (broadcast S4x128 (Scalar.ofBits .f32 0x3F800000#32)) (tcDen v0 v2)

/-- A per-row value laid along the destination token and clone: at an index it is the row's value. -/
theorem col_apply (x : FVec Ideal S4x128 .f32) (b : Fin 4) (d : Fin 32) (c e : Fin 128) :
    (broadcastTo S4x32x128x128 (shapeCast S4x1x128x1 x shapeCasts_S4x128_S4x1x128x1) broadcasts_S4x1x128x1_S4x32x128x128 : FVec Ideal S4x32x128x128 .f32)
      (ix4 b d c e) = x (ix2 b c) := by
  rw [broadcastTo_apply _ _ (ix4 b d c e) (ix4 b (0 : Fin 1) c (0 : Fin 1)) (fun a => by fin_cases a <;> rfl),
    shapeCast_apply x _ (ix4 b (0 : Fin 1) c (0 : Fin 1)) (ix2 b c) (by
      rw [Shape.rowMajor_val_two, Shape.rowMajor_val_four]
      show b.val * 128 + c.val = ((b.val * 1 + 0) * 128 + c.val) * 1 + 0
      omega)]

theorem pay3_shape (v0 : FVec Ideal S4x32x128x128 .f32) (v2 : Elt Ideal .f32) :
    k1_pay3 (F := Ideal) v0 v2
      = addf (mulf (k1_pay1 (F := Ideal) v0) (broadcastTo S4x32x128x128 (shapeCast S4x1x128x1 (tcRcp v0 v2) shapeCasts_S4x128_S4x1x128x1) broadcasts_S4x1x128x1_S4x32x128x128))
          (broadcastTo S4x32x128x128 (shapeCast S4x1x128x1 (mulf (broadcast S4x128 v2) (tcRcp v0 v2)) shapeCasts_S4x128_S4x1x128x1) broadcasts_S4x1x128x1_S4x32x128x128) := rfl

section

variable (v0 : FVec Ideal S4x32x128x128 .f32) (v2 : Elt Ideal .f32) (X : Fin 32 → Fin 32 → Fin 128 → Fin 128 → ℝ) (pc : ℝ) (σ : Fin 4 → Fin 32)
  (h0 : ∀ (b : Fin 4) (d : Fin 32) (c e : Fin 128), v0 (ValueIdx.ix4 b d c e) = ((X (σ b) d c e : ℝ) : EReal)) (h2 : v2 = ((pc : ℝ) : EReal))

/-- The two lane sums, at a row: the sum of the block's entries over the destination clone and token. -/
theorem tcSum_eq (b : Fin 4) (c : Fin 128) :
    (multiReduction (F := Ideal) .add [2] S4x128 (multiReduction (F := Ideal) .add [1] S4x128x128 (k1_pay1 (F := Ideal) v0) 0x00000000#32 reduces_S4x32x128x128_S4x128x128 (.inl rfl) rfl)
        0x00000000#32 reduces_S4x128x128_S4x128 (.inl rfl) rfl) (ix2 b c)
      = ∑ e : Fin 128, ∑ d : Fin 32, v0 (ix4 b d c e) := by
  refine (Ideal.multiReduction_add_single (s := S4x128x128) (t := S4x128) (a := (2 : Fin 3)) _ 0x00000000#32 reduces_S4x128x128_S4x128 (.inl rfl) rfl (ix2 b c)).trans ?_
  refine Finset.sum_congr rfl fun e _ => ?_
  refine (Ideal.multiReduction_add_single (s := S4x32x128x128) (t := S4x128x128) (a := (1 : Fin 4)) _ 0x00000000#32 reduces_S4x32x128x128_S4x128x128 (.inl rfl) rfl _).trans ?_
  refine Finset.sum_congr rfl fun d _ => ?_
  unfold k1_pay1
  rw [shapeCast_self]
  exact congrArg v0 (funext fun a => by fin_cases a <;> rfl)

include h0 h2

theorem pay2_coe (b : Fin 4) (c : Fin 128) : k1_pay2 (F := Ideal) v0 v2 (ValueIdx.ix2 b c) = ((Canon.rs X pc (σ b) c : ℝ) : EReal) := by
  have h1 : (∑ d : Fin 32, ∑ e : Fin 128, v0 (ix4 b d c e)) = (((∑ d : Fin 32, ∑ e : Fin 128, X (σ b) d c e : ℝ)) : EReal) := by
    rw [coe_sum]; refine Finset.sum_congr rfl fun d _ => ?_
    rw [coe_sum]; exact Finset.sum_congr rfl fun e _ => h0 b d c e
  unfold k1_pay2
  show (multiReduction (F := Ideal) .add [2] S4x128 _ 0x00000000#32 reduces_S4x128x128_S4x128 (.inl rfl) rfl) (ix2 b c) + v2 * Ideal.ofBits .f32 0x45800000#32 = _
  rw [tcSum_eq, Finset.sum_comm, h1, h2, Consts.ofBits_4096, ← EReal.coe_mul, ← EReal.coe_add, Canon.rs_eq]

theorem tcDen_coe (b : Fin 4) (c : Fin 128) : tcDen v0 v2 (ix2 b c) = ((Canon.den X pc (σ b) c : ℝ) : EReal) := by
  show Scalar.select (Ideal.cmp .ogt (k1_pay2 (F := Ideal) v0 v2 (ix2 b c)) (Ideal.ofBits .f32 0x00000000#32)) (k1_pay2 (F := Ideal) v0 v2 (ix2 b c))
    (Ideal.ofBits .f32 0x3F800000#32) = _
  rw [pay2_coe v0 v2 X pc σ h0 h2, Consts.ofBits_zero, Consts.ofBits_one]
  unfold Canon.den Scalar.select Ideal.cmp
  by_cases h : 0 < Canon.rs X pc (σ b) c
  · have h' : (0 : EReal) < ((Canon.rs X pc (σ b) c : ℝ) : EReal) := EReal.coe_pos.mpr h
    simp [h, h']
  · have h' : ¬ (0 : EReal) < ((Canon.rs X pc (σ b) c : ℝ) : EReal) := fun h' => h (EReal.coe_pos.mp h')
    simp [h, h']

theorem tcRcp_coe (b : Fin 4) (c : Fin 128) : tcRcp v0 v2 (ix2 b c) = ((1 / Canon.den X pc (σ b) c : ℝ) : EReal) := by
  show Ideal.div (Ideal.ofBits .f32 0x3F800000#32) (tcDen v0 v2 (ix2 b c)) = _
  rw [tcDen_coe v0 v2 X pc σ h0 h2, Consts.ofBits_one, Ideal.div_coe (Canon.den_ne X pc (σ b) c), one_mul]

theorem pay3_coe (b : Fin 4) (d : Fin 32) (c e : Fin 128) :
    k1_pay3 (F := Ideal) v0 v2 (ValueIdx.ix4 b d c e) = ((Canon.out X pc (σ b) d c e : ℝ) : EReal) := by
  rw [pay3_shape]
  show k1_pay1 (F := Ideal) v0 (ix4 b d c e) * (broadcastTo S4x32x128x128 (shapeCast S4x1x128x1 (tcRcp v0 v2) shapeCasts_S4x128_S4x1x128x1) broadcasts_S4x1x128x1_S4x32x128x128 : FVec Ideal S4x32x128x128 .f32) (ix4 b d c e)
      + (broadcastTo S4x32x128x128 (shapeCast S4x1x128x1 (mulf (broadcast S4x128 v2) (tcRcp v0 v2)) shapeCasts_S4x128_S4x1x128x1) broadcasts_S4x1x128x1_S4x32x128x128 : FVec Ideal S4x32x128x128 .f32) (ix4 b d c e) = _
  rw [col_apply, col_apply]
  show k1_pay1 (F := Ideal) v0 (ix4 b d c e) * tcRcp v0 v2 (ix2 b c) + v2 * tcRcp v0 v2 (ix2 b c) = _
  unfold k1_pay1
  rw [shapeCast_self, tcRcp_coe v0 v2 X pc σ h0 h2, h0, h2, ← EReal.coe_mul, ← EReal.coe_mul, ← EReal.coe_add, Canon.out_eq]

theorem pay4_coe (b : Fin 4) (c : Fin 128) :
    k1_pay4 (F := Ideal) v0 v2 (ValueIdx.ix3 b (0 : Fin 1) c) = ((Canon.rs X pc (σ b) c : ℝ) : EReal) := by
  unfold k1_pay4
  rw [shapeCast_apply (k1_pay2 (F := Ideal) v0 v2) shapeCasts_S4x128_S4x1x128 (ix3 b (0 : Fin 1) c) (ix2 b c) (by
    rw [Shape.rowMajor_val_two, Shape.rowMajor_val_three]
    show b.val * 128 + c.val = (b.val * 1 + 0) * 128 + c.val
    omega)]
  exact pay2_coe v0 v2 X pc σ h0 h2 b c

end

end Cert.Proof.KI

end
-- ==== Proof.KI.KernelOut.lean ====
/-
  The kernel's two results in the canonical mathematics, index by index.
-/
import proofs.«216181_g9861244912407_cont_9to1_m_1073_40_alg».proof.Proof.KI.Vals
import proofs.«216181_g9861244912407_cont_9to1_m_1073_40_alg».proof.Proof.KI.SCCanon
import proofs.«216181_g9861244912407_cont_9to1_m_1073_40_alg».proof.Proof.RefCanon
import proofs.«216181_g9861244912407_cont_9to1_m_1073_40_alg».proof.Proof.KI.TCCanon
import Idealize.ShloMosaic.Lib.Pipeline.Value

noncomputable section

namespace Cert.Proof.KI

open Cert.KernelIdeal Cert.KernelIdeal.Gen
open Idealize.ShloMosaic Idealize.ShloMosaic.TcCoe Idealize.ShloMosaic.ValueIdx
open Idealize.ShloMosaic.SparseCore (S V T)
open Idealize.SL.Sem
open Idealize.ShloMosaic.StableHlo
open Cert.Proof.RefCanon (flat4 flat2 Xof)

variable (m : (ℓ : Loc nD τ sig) → Buf (Elt Ideal) ℓ) (d : Dev nD) (Xr : S16777216.Idx → ℝ)
  (hX : ∀ i, m (a0Loc d) i = ((Xr i : ℝ) : EReal))

/-- The pseudocount as a real. -/
abbrev pcR : ℝ := Cert.Proof.RefCanon.pcOf (m (a1Loc d))

include hX

/-- The reshaped counts at four coordinates. -/
theorem v0_at (s j : Fin 32) (c e : Fin 128) : (W1 m d v0' : S32x32x128x128.Idx → EReal) (ix4 s j c e) = ((Xof Xr s j c e : ℝ) : EReal) := by
  rw [W1_v0]
  rw [shapeCast_apply (m (a0Loc d) : S16777216.Idx → EReal) shapeCasts_S16777216_S32x32x128x128 (ix4 s j c e) (flat4 s j c e)
    (by show ((S16777216 : Shape).rowMajor (flat4 s j c e)).val = (S32x32x128x128.rowMajor (ix4 s j c e)).val
        rewrite [Shape.rowMajor_val_one, Shape.rowMajor_val_four]; rfl), hX]
  rfl

/-- The SparseCore call's input — the first four source tokens — at four coordinates. -/
theorem vin_at (r : Fin 4) (j : Fin 32) (c e : Fin 128) : (vin m d : S4x32x128x128.Idx → EReal) (ix4 r j c e) = ((Xof Xr (tok r) j c e : ℝ) : EReal) := by
  show (W1 m d in' : S4x32x128x128.Idx → EReal) (ix4 r j c e) = _
  rw [W1_in, extractStridedSlice_apply (![0, 0, 0, 0] : Fin 4 → ℕ) _ slices_S32x32x128x128_S4x32x128x128_0_0_0_0 (ix4 r j c e) (ix4 (tok r) j c e)
    (fun a => by match a with
      | ⟨0, _⟩ => exact (Nat.zero_add _).symm
      | ⟨1, _⟩ => exact (Nat.zero_add _).symm
      | ⟨2, _⟩ => exact (Nat.zero_add _).symm
      | ⟨3, _⟩ => exact (Nat.zero_add _).symm), ← W1_v0]
  exact v0_at m d Xr hX (tok r) j c e

omit hX in
/-- The sixteen-lane pseudocount vector: every lane the pseudocount. -/
theorem vpc_at (l : Fin 16) : (vpc m d : S16.Idx → EReal) (ix1 l) = ((pcR m d : ℝ) : EReal) := by
  show (W1 m d pc' : S16.Idx → EReal) (ix1 l) = _
  rw [W1_pc, broadcastInDim_apply (![] : Fin 0 → Fin 1) bcast_S_S16 _ (ix1 l) ix0 (fun a => a.elim0)]
  exact Cert.Proof.RefCanon.pc_eq (m (a1Loc d))

/-- The first four source tokens of the output: the SparseCore call's. -/
theorem out_lt (s d' : Fin 32) (c e : Fin 128) (hs : s.val < 4) :
    (W6 m G0i G1i d v11' : S32x32x128x128.Idx → EReal) (ix4 s d' c e) = ((Canon.out (Xof Xr) (pcR m d) s d' c e : ℝ) : EReal) := by
  rw [W6_v11, G11_lt (F := Ideal) d _ _ (ix4 s d' c e) (ix4 (⟨s.val, hs⟩ : Fin 4) d' c e) (fun a => by match a with
      | ⟨0, _⟩ => rfl
      | ⟨1, _⟩ => rfl
      | ⟨2, _⟩ => rfl
      | ⟨3, _⟩ => rfl)]
  unfold k2_pay1
  rw [shapeCast_self, blk1_at (F := Ideal) d, W5_out]
  show scOut (vin m d) (vpc m d) (ix4 (⟨s.val, hs⟩ : Fin 4) d' c e) = _
  rw [scOut_coe (vin m d) (vpc m d) (Xof Xr) (pcR m d) (vin_at m d Xr hX) (vpc_at m d)]

/-- The source token of row `b` of the block the TensorCore region's point `t` works on. -/
abbrev tokT (t : Fin cfg1.N) (b : Fin 4) : Fin 32 := ⟨4 * (t.val + 1) + b.val, by
  have ht : t.val < 7 := lt_of_lt_of_eq t.isLt N_1
  have hb : b.val < 4 := b.isLt
  omega⟩

/-- The block the first region's point `t` reads, at four coordinates. -/
theorem blk_at (t : Fin cfg1.N) (b : Fin 4) (j : Fin 32) (c e : Fin 128) :
    blkAt (F := Ideal) d (W3 m d v0') t (ix4 b j c e) = ((Xof Xr (tokT t b) j c e : ℝ) : EReal) := by
  rw [blkAt_at (F := Ideal) d (W3 m d v0') t (ix4 b j c e) (ix4 (tokT t b) j c e) (fun a => by match a with
      | ⟨0, _⟩ => exact (if_pos rfl).symm ▸ rfl
      | ⟨1, _⟩ => exact (Nat.zero_add _).symm
      | ⟨2, _⟩ => exact (Nat.zero_add _).symm
      | ⟨3, _⟩ => exact (Nat.zero_add _).symm), W3_v0]
  exact v0_at m d Xr hX (tokT t b) j c e

omit hX in
/-- The pseudocount the first region's body reads. -/
theorem pc_at (t : Fin cfg1.N) : pcAt (F := Ideal) d (W3 m d v4') t = ((pcR m d : ℝ) : EReal) := by
  rw [pcAt_eq (F := Ideal) d (W3 m d v4') t (ix2 (0 : Fin 1) (0 : Fin 1)), W3_v4, W1_v4,
    shapeCast_apply (sitofp (F := Ideal) .f32 (m (a1Loc d)) : S_.Idx → EReal) shapeCasts_S_S1x1 (ix2 (0 : Fin 1) (0 : Fin 1)) ix0 (by decide)]
  exact Cert.Proof.RefCanon.pc_eq (m (a1Loc d))

/-- The other twenty-eight source tokens of the output: the first TensorCore region's, copied into the merge's array. -/
theorem out_ge (s d' : Fin 32) (c e : Fin 128) (hs : 4 ≤ s.val) :
    (W6 m G0i G1i d v11' : S32x32x128x128.Idx → EReal) (ix4 s d' c e) = ((Canon.out (Xof Xr) (pcR m d) s d' c e : ℝ) : EReal) := by
  have hs32 : s.val < 32 := s.isLt
  have hN : cfg1.N = 7 := N_1
  let t : Fin cfg1.N := ⟨s.val / 4 - 1, by rw [hN]; omega⟩
  let b : Fin 4 := ⟨s.val % 4, Nat.mod_lt _ (by decide)⟩
  have hσ : tokT t b = s := Fin.ext (by show 4 * (s.val / 4 - 1 + 1) + s.val % 4 = s.val; omega)
  rw [W6_v11, G11_ge (F := Ideal) d _ _ (ix4 s d' c e) hs, W5_v11, W4_v90,
    G90_at (F := Ideal) d _ _ _ _ t (ix4 b d' c e) (ix4 s d' c e) (fun a => by match a with
      | ⟨0, _⟩ => exact ((if_pos rfl).symm ▸ (by show s.val = 4 * (s.val / 4 - 1 + 1) + s.val % 4; omega))
      | ⟨1, _⟩ => exact (Nat.zero_add _).symm
      | ⟨2, _⟩ => exact (Nat.zero_add _).symm
      | ⟨3, _⟩ => exact (Nat.zero_add _).symm),
    pay3_coe (blkAt (F := Ideal) d (W3 m d v0') t) (pcAt (F := Ideal) d (W3 m d v4') t) (Xof Xr) (pcR m d) (tokT t)
      (blk_at m d Xr hX t) (pc_at m d t) b d' c e, hσ]

/-- The output array, read at four coordinates, is the canonical normalised value. -/
theorem ker_v13 (s d' : Fin 32) (c e : Fin 128) :
    (W7 m G0i G1i d v13' : S16777216.Idx → EReal) (flat4 s d' c e) = ((Canon.out (Xof Xr) (pcR m d) s d' c e : ℝ) : EReal) := by
  rw [W7_v13, shapeCast_apply (W6 m G0i G1i d v11' : S32x32x128x128.Idx → EReal) shapeCasts_S32x32x128x128_S16777216 (flat4 s d' c e) (ix4 s d' c e)
    (by show (S32x32x128x128.rowMajor (ix4 s d' c e)).val = ((S16777216 : Shape).rowMajor (flat4 s d' c e)).val
        rewrite [Shape.rowMajor_val_one, Shape.rowMajor_val_four]; rfl)]
  by_cases hs : s.val < 4
  · exact out_lt m d Xr hX s d' c e hs
  · exact out_ge m d Xr hX s d' c e (Nat.le_of_not_lt hs)

end Cert.Proof.KI

end
-- ==== Proof.KI.KernelRs.lean ====
/-
  The kernel's row-sum result in the canonical mathematics: at the flat position of every source state it holds that
  state's canonical row sum. The first four source tokens' sums come from the SparseCore call's row-sum array, the
  others from the first TensorCore call's second result.
-/
import proofs.«216181_g9861244912407_cont_9to1_m_1073_40_alg».proof.Proof.KI.Vals
import proofs.«216181_g9861244912407_cont_9to1_m_1073_40_alg».proof.Proof.KI.SCCanon
import proofs.«216181_g9861244912407_cont_9to1_m_1073_40_alg».proof.Proof.KI.TCCanon
import proofs.«216181_g9861244912407_cont_9to1_m_1073_40_alg».proof.Proof.RefCanon

noncomputable section

namespace Cert.Proof.KI

open Cert.KernelIdeal Cert.KernelIdeal.Gen
open Idealize.ShloMosaic Idealize.ShloMosaic.TcCoe Idealize.ShloMosaic.ValueIdx
open Idealize.ShloMosaic.SparseCore (S V T)
open Idealize.SL.Sem
open Idealize.ShloMosaic.StableHlo
open Cert.Proof.RefCanon (flat4 flat2 Xof)

variable (m : (ℓ : Loc nD τ sig) → Buf (Elt Ideal) ℓ) (d : Dev nD) (Xr : S16777216.Idx → ℝ)
  (hX : ∀ i, m (a0Loc d) i = ((Xr i : ℝ) : EReal))

include hX in
/-- The SparseCore call's input at four coordinates: the counts of the first four source tokens. -/
private theorem rs_in_at (r : Fin 4) (j : Fin 32) (c e : Fin 128) :
    (vin m d : S4x32x128x128.Idx → EReal) (ix4 r j c e) = ((Xof Xr (tok r) j c e : ℝ) : EReal) := by
  show (W1 m d in' : S4x32x128x128.Idx → EReal) (ix4 r j c e) = _
  rw [W1_in]
  rw [extractStridedSlice_apply _ _ slices_S32x32x128x128_S4x32x128x128_0_0_0_0 (ix4 r j c e) (ix4 (tok r) j c e)
    (fun a => by fin_cases a <;> exact (Nat.zero_add _).symm)]
  rw [shapeCast_apply (m (a0Loc d) : S16777216.Idx → EReal) shapeCasts_S16777216_S32x32x128x128 (ix4 (tok r) j c e) (flat4 (tok r) j c e)
    (by show ((S16777216 : Shape).rowMajor (flat4 (tok r) j c e)).val = (S32x32x128x128.rowMajor (ix4 (tok r) j c e)).val
        rewrite [Shape.rowMajor_val_one, Shape.rowMajor_val_four]; rfl), hX]
  rfl

/-- The SparseCore call's pseudocount vector: the pseudocount on every lane. -/
private theorem rs_pc_at (l : Fin 16) :
    (vpc m d : S16.Idx → EReal) (ix1 l) = ((Cert.Proof.RefCanon.pcOf (m (a1Loc d)) : ℝ) : EReal) := by
  show (W1 m d pc' : S16.Idx → EReal) (ix1 l) = _
  rw [W1_pc]
  rw [broadcastInDim_apply _ bcast_S_S16 _ (ix1 l) ix0 (fun a => a.elim0)]
  rfl

/-- Equal source states have equal canonical row sums. -/
private theorem rs_congr (X : Fin 32 → Fin 32 → Fin 128 → Fin 128 → ℝ) (pc : ℝ) (s' s : Fin 32) (c' c : Fin 128)
    (hs : s' = s) (hc : c' = c) : ((Canon.rs X pc s' c' : ℝ) : EReal) = ((Canon.rs X pc s c : ℝ) : EReal) := by
  subst hs hc; rfl

include hX in
/-- The first four source tokens: the SparseCore call's row-sum array, its lower eight lanes tile by tile. -/
private theorem rs_lo (s : Fin 32) (c : Fin 128) (hs : s.val < 4) :
    (W7 m G0i G1i d v12' : S4096.Idx → EReal) (flat2 s c)
      = ((Canon.rs (Xof Xr) (Cert.Proof.RefCanon.pcOf (m (a1Loc d))) s c : ℝ) : EReal) := by
  have hc := c.isLt
  rw [W7_v12]
  rw [concatenate_apply_piece (t := S4096) (0 : Fin 1)
    [⟨S512, (W6 m G0i G1i d v8' : S512.Idx → EReal)⟩, ⟨S3584, (W6 m G0i G1i d v10' : S3584.Idx → EReal)⟩]
    concatenates_S512_S3584_S4096_d0 (flat2 s c) 0 (by simp) S512 (W6 m G0i G1i d v8' : S512.Idx → EReal) rfl rfl 0 rfl
    (ix1 (⟨s.val * 128 + c.val, by omega⟩ : Fin 512))
    (fun b hb => absurd (Fin.ext (by show b.val = 0; have hb1 : b.val < 1 := b.isLt; omega)) hb)
    (by show 0 + (s.val * 128 + c.val) = s.val * 128 + c.val; omega)]
  rw [W6_v8, W3_v8]
  rw [shapeCast_apply _ shapeCasts_S4x1x16x8_S512 _
    (ix4 (⟨s.val, hs⟩ : Fin 4) (0 : Fin 1) (⟨c.val / 8, by omega⟩ : Fin 16) (⟨c.val % 8, by omega⟩ : Fin 8))
    (by show (S4x1x16x8.rowMajor _).val = ((S512 : Shape).rowMajor _).val
        rewrite [Shape.rowMajor_val_four, Shape.rowMajor_val_one]
        show ((s.val * 1 + 0) * 16 + c.val / 8) * 8 + c.val % 8 = s.val * 128 + c.val
        omega)]
  rw [extractStridedSlice_apply _ _ slices_S4x1x16x16_S4x1x16x8_0_0_0_0 _
    (ix4 (⟨s.val, hs⟩ : Fin 4) (0 : Fin 1) (⟨c.val / 8, by omega⟩ : Fin 16) (⟨c.val % 8, by omega⟩ : Fin 16))
    (fun a => by fin_cases a <;> exact (Nat.zero_add _).symm)]
  show scRsArr (vin m d) (vpc m d) _ = _
  rw [scRsArr_lo (vin m d) (vpc m d) (Xof Xr) (Cert.Proof.RefCanon.pcOf (m (a1Loc d))) (rs_in_at m d Xr hX) (rs_pc_at m d)
    ⟨s.val, hs⟩ ⟨c.val / 8, by omega⟩ ⟨c.val % 8, by omega⟩ (by show c.val % 8 < 8; omega)]
  exact rs_congr _ _ _ s _ c (Fin.ext rfl) (Fin.ext (by show 8 * (c.val / 8) + c.val % 8 = c.val; omega))

include hX in
/-- The reshaped counts at four coordinates. -/
private theorem rs_v0_at (s j : Fin 32) (c e : Fin 128) :
    (W1 m d v0' : S32x32x128x128.Idx → EReal) (ix4 s j c e) = ((Xof Xr s j c e : ℝ) : EReal) := by
  rw [W1_v0]
  rw [shapeCast_apply (m (a0Loc d) : S16777216.Idx → EReal) shapeCasts_S16777216_S32x32x128x128 (ix4 s j c e) (flat4 s j c e)
    (by show ((S16777216 : Shape).rowMajor (flat4 s j c e)).val = (S32x32x128x128.rowMajor (ix4 s j c e)).val
        rewrite [Shape.rowMajor_val_one, Shape.rowMajor_val_four]; rfl), hX]
  rfl

/-- The pseudocount as the first TensorCore call reads it: the one element of its array. -/
private theorem rs_v4_at (i : S1x1.Idx) :
    (W1 m d v4' : S1x1.Idx → EReal) i = ((Cert.Proof.RefCanon.pcOf (m (a1Loc d)) : ℝ) : EReal) := by
  rw [W1_v4]
  rw [shapeCast_apply _ shapeCasts_S_S1x1 i ix0 (by
    have h1 := ((S_ : Shape).rowMajor ix0).isLt
    have h2 := (S1x1.rowMajor i).isLt
    have e1 : (S_ : Shape).numel = 1 := by decide
    have e2 : S1x1.numel = 1 := by decide
    omega)]
  rfl

private theorem cfg1_N : cfg1.N = 7 := by decide

include hX in
/-- The other source tokens: the first TensorCore call's second result, four tokens to a grid point. -/
private theorem rs_hi (s : Fin 32) (c : Fin 128) (hs : 4 ≤ s.val) :
    (W7 m G0i G1i d v12' : S4096.Idx → EReal) (flat2 s c)
      = ((Canon.rs (Xof Xr) (Cert.Proof.RefCanon.pcOf (m (a1Loc d))) s c : ℝ) : EReal) := by
  have hc := c.isLt
  have hs32 := s.isLt
  rw [W7_v12]
  rw [concatenate_apply_piece (t := S4096) (0 : Fin 1)
    [⟨S512, (W6 m G0i G1i d v8' : S512.Idx → EReal)⟩, ⟨S3584, (W6 m G0i G1i d v10' : S3584.Idx → EReal)⟩]
    concatenates_S512_S3584_S4096_d0 (flat2 s c) 1 (by simp) S3584 (W6 m G0i G1i d v10' : S3584.Idx → EReal) rfl rfl 512 rfl
    (ix1 (⟨s.val * 128 + c.val - 512, by omega⟩ : Fin 3584))
    (fun b hb => absurd (Fin.ext (by show b.val = 0; have hb1 : b.val < 1 := b.isLt; omega)) hb)
    (by show 512 + (s.val * 128 + c.val - 512) = s.val * 128 + c.val; omega)]
  rw [W6_v10, W5_v10]
  rw [shapeCast_apply _ shapeCasts_S28x1x128_S3584 _ (ix3 (⟨s.val - 4, by omega⟩ : Fin 28) (0 : Fin 1) c)
    (by show (S28x1x128.rowMajor _).val = ((S3584 : Shape).rowMajor _).val
        rewrite [Shape.rowMajor_val_three, Shape.rowMajor_val_one]
        show ((s.val - 4) * 1 + 0) * 128 + c.val = s.val * 128 + c.val - 512
        omega)]
  rw [W4_v91]
  have ht : (s.val - 4) / 4 < cfg1.N := by rw [cfg1_N]; omega
  rw [G91_at d _ _ _ _ (⟨(s.val - 4) / 4, ht⟩ : Fin cfg1.N) (ix3 (⟨(s.val - 4) % 4, by omega⟩ : Fin 4) (0 : Fin 1) c) _
    (fun a => match a with
      | ⟨0, _⟩ => by show s.val - 4 = 4 * ((s.val - 4) / 4) + (s.val - 4) % 4; omega
      | ⟨1, _⟩ => by show (0 : ℕ) = 0 + 0; rfl
      | ⟨2, _⟩ => by show c.val = 0 + c.val; omega)]
  rw [pay4_coe _ _ (Xof Xr) (Cert.Proof.RefCanon.pcOf (m (a1Loc d)))
    (fun b : Fin 4 => (⟨4 * ((s.val - 4) / 4 + 1) + b.val, by have := b.isLt; omega⟩ : Fin 32))
    (fun b j c' e => by
      rw [blkAt_at d _ (⟨(s.val - 4) / 4, ht⟩ : Fin cfg1.N) (ix4 b j c' e)
        (ix4 (⟨4 * ((s.val - 4) / 4 + 1) + b.val, by have := b.isLt; omega⟩ : Fin 32) j c' e)
        (fun a => match a with
          | ⟨0, _⟩ => by show 4 * ((s.val - 4) / 4 + 1) + b.val = 4 * ((s.val - 4) / 4 + 1) + b.val; rfl
          | ⟨1, _⟩ => by show j.val = 0 + j.val; omega
          | ⟨2, _⟩ => by show c'.val = 0 + c'.val; omega
          | ⟨3, _⟩ => by show e.val = 0 + e.val; omega), W3_v0]
      exact rs_v0_at m d Xr hX _ j c' e)
    (by rw [pcAt_eq d _ _ (ix2 (0 : Fin 1) (0 : Fin 1)), W3_v4]; exact rs_v4_at m d _)
    ⟨(s.val - 4) % 4, by omega⟩ c]
  exact rs_congr _ _ _ s _ c (Fin.ext (by show 4 * ((s.val - 4) / 4 + 1) + (s.val - 4) % 4 = s.val; omega)) rfl

include hX in
/-- The kernel's row-sum result at the flat position of the source state (s, c) is that state's canonical row sum. -/
theorem ker_v12 (s : Fin 32) (c : Fin 128) :
    (W7 m G0i G1i d v12' : S4096.Idx → EReal) (flat2 s c)
      = ((Canon.rs (Xof Xr) (Cert.Proof.RefCanon.pcOf (m (a1Loc d))) s c : ℝ) : EReal) := by
  by_cases hs : s.val < 4
  · exact rs_lo m d Xr hX s c hs
  · exact rs_hi m d Xr hX s c (not_lt.mp hs)

end Cert.Proof.KI

end
-- ==== Proof.RefRun.lean ====
/-
  The reference's run, read as mathematics: from a memory whose counts are reals it ends with the canonical normalised
  values and the canonical row sums, its arguments unchanged.
-/
import proofs.«216181_g9861244912407_cont_9to1_m_1073_40_alg».proof.Proof.RefCanon

noncomputable section

namespace Cert.Proof.RefRun

open Idealize.ShloMosaic Idealize.ShloMosaic.TcCoe Idealize.SL.Sem Idealize.ShloMosaic.ValueIdx
open Cert.ReferenceIdeal Cert.ReferenceIdeal.Gen Cert.ReferenceIdeal.Read
open Cert.Proof Cert.Proof.RefCanon

/-- Every weakly fair execution of the reference from a memory whose counts are the reals Xr ends with, at every flat
    position, the canonical normalised value and the canonical row sum of that position's coordinates. -/
theorem ref_run (m : (ℓ : Loc nD τ sig) → Buf (Elt Ideal) ℓ) (ρ : Dev nD → PrngReg)
    (Xr : Dev nD → S16777216.Idx → ℝ)
    (h : ∀ (c : Dev nD) (i : S16777216.Idx), m ((c.tc : Thread nD τ).loc main_arg0) i = ((Xr c i : ℝ) : EReal)) :
    θ_run (defs (F := Ideal)) (onTc (τ := τ) (main (F := Ideal))) ⟨m, fun _ => 0, ρ⟩ fun r => ∀ c : Dev nD,
      r.2.mem ((c.tc : Thread nD τ).loc main_v11)
          = (fun i => ((Canon.out (Xof (Xr c)) (pcOf (m ((c.tc : Thread nD τ).loc main_arg1))) (s4 i) (d4 i) (c4 i) (e4 i) : ℝ) : EReal))
      ∧ r.2.mem ((c.tc : Thread nD τ).loc main_v12)
          = (fun j => ((Canon.rs (Xof (Xr c)) (pcOf (m ((c.tc : Thread nD τ).loc main_arg1))) (s2 j) (c2 j) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c => by
    obtain ⟨h11, h12, h0, h1, h2⟩ := hr c
    refine ⟨?_, ?_, h0, h1, h2⟩
    · rw [h11, val_main_v11_eq]; exact ref_v11_fun _ _ (Xr c) (h c)
    · rw [h12, val_main_v12_eq]; exact ref_v12_fun _ _ (Xr c) (h c)) (Cert.ReferenceIdeal.Value.run m ρ)

end Cert.Proof.RefRun

end
-- ==== Proof.PreReal.lean ====
/-
  The input domain read back: under it every count is a real number (finite), which is what lets the two programs'
  results be compared as real-number formulas.
-/
import proofs.«216181_g9861244912407_cont_9to1_m_1073_40_alg».proof.Pre_input_domain
import proofs.«216181_g9861244912407_cont_9to1_m_1073_40_alg».proof.Proof.Gen.Pre_input_domain
import Idealize.ShloMosaic.Lib.ValueIdx
import Idealize.ShloMosaic.Lib.ReduceAll
import Idealize.ShloMosaic.PureOps.Ideal.Laws

noncomputable section

namespace Cert.Proof.PreReal

open Idealize.ShloMosaic Idealize.ShloMosaic.ValueIdx Cert.Pre_input_domain Cert.Pre_input_domain.Gen

/-- The scalar shape has one index. -/
instance : Subsingleton S_.Idx := ⟨fun a b => funext fun d => d.elim0⟩

/-- The infinity pattern denotes the top extended real. -/
theorem ofBits_inf : Ideal.ofBits .f32 0x7F800000#32 = ⊤ := by simp [Ideal.ofBits, Ideal.ieee]

/-- Under the input domain every count is a real: its absolute value is below infinity, so it is neither infinity. -/
theorem finite_of_pre (a0 : FVec Ideal S16777216 .f32) (a1 a2 : IVec S_ 32)
    (h : Cert.Pre_input_domain.fn (F := Ideal) a0 a1 a2 = fun _ => 1#1) (i : S16777216.Idx) :
    ∃ r : ℝ, a0 i = ((r : ℝ) : EReal) := by
  have h0 := congrFun h ix0
  dsimp only [Cert.Pre_input_domain.fn] at h0
  have h1 := (IntOp.andi_eq_one.1 (IntOp.andi_eq_one.1 h0).1).1
  have h2 := Host.reduce_andi_all _ _ _ _ _ h1 i
  have h3 : Ideal.cmp .olt (max (a0 i) (-(a0 i))) (Ideal.ofBits .f32 0x7F800000#32) = 1#1 := h2
  rw [ofBits_inf] at h3
  have h4 : max (a0 i) (-(a0 i)) < ⊤ := by
    by_contra hn
    simp [Ideal.cmp, hn] at h3
  rw [max_lt_iff] at h4
  have hne_top : a0 i ≠ ⊤ := fun hh => by rw [hh] at h4; exact absurd h4.1 (lt_irrefl _)
  have hne_bot : a0 i ≠ ⊥ := fun hh => by rw [hh] at h4; exact absurd h4.2 (by simp)
  exact ⟨(a0 i).toReal, (EReal.coe_toReal hne_top hne_bot).symm⟩

end Cert.Proof.PreReal

end
-- ==== Proof.PreFinite.lean ====
/-
  Under the precondition the counts argument of the kernel's memory is, on every device, a table of reals.
-/
import proofs.«216181_g9861244912407_cont_9to1_m_1073_40_alg».proof.Defs
import proofs.«216181_g9861244912407_cont_9to1_m_1073_40_alg».proof.Proof.Gen.Pre_input_domain
import proofs.«216181_g9861244912407_cont_9to1_m_1073_40_alg».proof.Proof.PreReal

noncomputable section

namespace Cert.Proof.PreFinite

open Idealize.ShloMosaic Idealize.SL.Sem Cert.Pre_input_domain.Gen

/-- The reals the counts argument holds, chosen entry by entry from the finiteness the precondition states. -/
theorem pre_finite (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ Xr : Cert.ReferenceIdeal.S16777216.Idx → ℝ, ∀ i,
      m ((c.tc : Thread Cert.KernelIdeal.nD Cert.KernelIdeal.τ).loc Cert.KernelIdeal.main_arg0) i = ((Xr i : ℝ) : EReal) := by
  have h := fun i => Cert.Proof.PreReal.finite_of_pre _ _ _ (hpre c) i
  exact ⟨fun i => Classical.choose (h i), fun i => Classical.choose_spec (h i)⟩

end Cert.Proof.PreFinite

end
-- ==== Proof.KI.Algebraic.lean ====
/-
  The value conjunct from the tiles' value-level body obligation: the idealized kernel's run names its two results,
  index by index they are the canonical normalised values and row sums, and so are the reference's.
-/
import proofs.«216181_g9861244912407_cont_9to1_m_1073_40_alg».proof.Proof.KI.LaunchV
import proofs.«216181_g9861244912407_cont_9to1_m_1073_40_alg».proof.Proof.KI.KernelOut
import proofs.«216181_g9861244912407_cont_9to1_m_1073_40_alg».proof.Proof.KI.KernelRs
import proofs.«216181_g9861244912407_cont_9to1_m_1073_40_alg».proof.Proof.RefRun
import proofs.«216181_g9861244912407_cont_9to1_m_1073_40_alg».proof.Proof.PreFinite

noncomputable section

namespace Cert.Proof.KI

open Cert.KernelIdeal Cert.KernelIdeal.Gen
open Idealize.ShloMosaic Idealize.ShloMosaic.TcCoe
open Idealize.SL.Sem
open Cert.Proof.RefCanon (flat4 flat2 Xof s4 d4 c4 e4 s2 c2 flat4_coords flat2_coords)

/-- If every tile hands its boxes back at the specification's values, the two programs end with equal results. -/
theorem algebraic_of_tile
    (htile : ∀ (vi : (d : Dev nD) → Buf (Elt Ideal) (inLoc d)) (vp : (d : Dev nD) → Buf (Elt Ideal) (pcLoc d)),
      (K (F := Ideal)).TileObl (D (F := Ideal)) 𝒱 (PV vi vp) v₀ 0) :
    Cert.algebraic_KernelIdeal_ReferenceIdeal := by
  intro m ρ m' ρ' hpre hagree
  choose Xr hXr using fun c => Cert.Proof.PreFinite.pre_finite m hpre c
  refine ⟨fun c i => ((Canon.out (Xof (Xr c)) (pcR m c) (s4 i) (d4 i) (c4 i) (e4 i) : ℝ) : EReal),
    fun c j => ((Canon.rs (Xof (Xr c)) (pcR m c) (s2 j) (c2 j) : ℝ) : EReal), ?_, ?_⟩
  · refine (θ_run Cert.KernelIdeal.defs _ _).mono (fun r h c => ?_) (run_mainV m ρ G0i G1i (htile _ _) region_0v_R region_1v_R)
    obtain ⟨h13, h12, h0, h1, h2⟩ := h c
    refine ⟨h13.trans (funext fun i => ?_), h12.trans (funext fun j => ?_), h0, h1, h2⟩
    · have e := ker_v13 m c (Xr c) (hXr c) (s4 i) (d4 i) (c4 i) (e4 i)
      rw [flat4_coords] at e; exact e
    · have e := ker_v12 m c (Xr c) (hXr c) (s2 j) (c2 j)
      rw [flat2_coords] at e; exact e
  · refine (θ_run Cert.ReferenceIdeal.defs _ _).mono (fun r h c => ?_)
      (Cert.Proof.RefRun.ref_run m' ρ' Xr (fun c i => by rw [(hagree c).1]; exact hXr c i))
    obtain ⟨h11, h12, h0, h1, h2⟩ := h c
    have hp : Cert.Proof.RefCanon.pcOf (m' ((c.tc : Thread Cert.ReferenceIdeal.nD Cert.ReferenceIdeal.τ).loc Cert.ReferenceIdeal.main_arg1)) = pcR m c := by
      rw [(hagree c).2.1]
    exact ⟨h11.trans (by rw [hp]; rfl), h12.trans (by rw [hp]; rfl), h0, h1, h2⟩

end Cert.Proof.KI

end
-- ==== Proof.KI.TileSpec.lean ====
/-
  What one vector subcore of the SparseCore call computes, as pure functions of the call's two operands — the
  `[4, 32, 128, 128]` input `x` and the sixteen-lane pseudocount vector `p` — written in the kernel's own order of
  operations at any float instance: per source token `r` and source clone `c` the sixteen lane sums over the
  thirty-two destination tokens (eight sixteen-lane pieces a token, added in order from zero), their total by the
  pairwise tree, the row sum (that total and 4096 pseudocounts), the reciprocal of the row sum where it is positive and
  of one elsewhere, every count scaled by it and shifted by the scaled pseudocount of its lane; the row-sum array's
  lower eight lanes a row sum each, the upper eight zero.  At the idealized instance these are the specification's
  values: sums in an additive commutative monoid do not depend on order or grouping, and clone index `e` splits as
  `16 v + l` over piece `v` and lane `l`.
-/
import proofs.«216181_g9861244912407_cont_9to1_m_1073_40_alg».proof.Proof.KI.SpecSC
import Idealize.ShloMosaic.PureOps.Ideal.Laws

noncomputable section

namespace Cert.Proof.KI

open Cert.KernelIdeal Cert.KernelIdeal.Gen
open Idealize.ShloMosaic Idealize.ShloMosaic.ValueIdx

/-! ## What a vector subcore computes, in the kernel's own order of operations, at any float instance -/

section Generic

variable {F : FTy → Type} [FloatOps F]

/-- Lanes `[16 v, 16 v + 16)` of destination token `j` of source token `r`, source clone `c`, as a sixteen-lane vector. -/
def tLanes (x : S4x32x128x128.Idx → F .f32) (r : Fin 4) (c : Fin 128) (j : Fin 32) (v : Fin 8) : FVec F S16 .f32 :=
  fun l => x (ix4 r j c ⟨16 * v.val + (l 0).val, by have h : (l 0).val < 16 := (l 0).isLt; have := v.isLt; omega⟩)

/-- One destination token added to the running lane sums: its eight sixteen-lane pieces, in order. -/
def tStep (x : S4x32x128x128.Idx → F .f32) (r : Fin 4) (c : Fin 128) (acc : FVec F S16 .f32) (j : Fin 32) : FVec F S16 .f32 :=
  addf (addf (addf (addf (addf (addf (addf (addf acc (tLanes x r c j 0)) (tLanes x r c j 1)) (tLanes x r c j 2)) (tLanes x r c j 3))
    (tLanes x r c j 4)) (tLanes x r c j 5)) (tLanes x r c j 6)) (tLanes x r c j 7)

/-- The lane sums over the thirty-two destination tokens, from zero. -/
def tAcc (x : S4x32x128x128.Idx → F .f32) (r : Fin 4) (c : Fin 128) : FVec F S16 .f32 :=
  Fin.foldl 32 (tStep x r c) (broadcast S16 (Scalar.ofBits .f32 0x00000000#32))

/-- The sixteen lanes added pairwise, then the pairs pairwise, to one number. -/
def tTree (a : FVec F S16 .f32) : F .f32 :=
  Scalar.addf
    (Scalar.addf (Scalar.addf (Scalar.addf (a (ix1 (0 : Fin 16))) (a (ix1 (1 : Fin 16)))) (Scalar.addf (a (ix1 (2 : Fin 16))) (a (ix1 (3 : Fin 16)))))
      (Scalar.addf (Scalar.addf (a (ix1 (4 : Fin 16))) (a (ix1 (5 : Fin 16)))) (Scalar.addf (a (ix1 (6 : Fin 16))) (a (ix1 (7 : Fin 16))))))
    (Scalar.addf (Scalar.addf (Scalar.addf (a (ix1 (8 : Fin 16))) (a (ix1 (9 : Fin 16)))) (Scalar.addf (a (ix1 (10 : Fin 16))) (a (ix1 (11 : Fin 16)))))
      (Scalar.addf (Scalar.addf (a (ix1 (12 : Fin 16))) (a (ix1 (13 : Fin 16)))) (Scalar.addf (a (ix1 (14 : Fin 16))) (a (ix1 (15 : Fin 16))))))

/-- The row sum: the lane sums' total and 4096 pseudocounts (the pseudocount vector's first lane). -/
def tRs (x : S4x32x128x128.Idx → F .f32) (p : S16.Idx → F .f32) (r : Fin 4) (c : Fin 128) : F .f32 :=
  Scalar.addf (tTree (tAcc x r c)) (Scalar.mulf (p (ix1 (0 : Fin 16))) (Scalar.ofBits .f32 0x45800000#32))

/-- One over the row sum where it is positive, over one elsewhere, on sixteen lanes. -/
def tRcp (x : S4x32x128x128.Idx → F .f32) (p : S16.Idx → F .f32) (r : Fin 4) (c : Fin 128) : FVec F S16 .f32 :=
  divf (broadcast S16 (Scalar.ofBits .f32 0x3F800000#32))
    (select (cmpf .ogt (broadcast S16 (tRs x p r c)) (broadcast S16 (Scalar.ofBits .f32 0x00000000#32)))
      (broadcast S16 (tRs x p r c)) (broadcast S16 (Scalar.ofBits .f32 0x3F800000#32)))

/-- The output array: every count scaled by its row's reciprocal and shifted by the scaled pseudocount of its lane. -/
def tOutF (x : S4x32x128x128.Idx → F .f32) (p : S16.Idx → F .f32) : S4x32x128x128.Idx → F .f32 := fun i =>
  addf (mulf (tLanes x (i 0) (i 2) (i 1) ⟨(i 3).val / 16, by have h : (i 3).val < 128 := (i 3).isLt; omega⟩) (tRcp x p (i 0) (i 2)))
    (mulf p (tRcp x p (i 0) (i 2))) (ix1 (⟨(i 3).val % 16, Nat.mod_lt _ (by decide)⟩ : Fin 16))

/-- The row-sum array: lane `l < 8` of subcore `s`'s row holds the row sum of clone `8 s + l`, the upper lanes zero. -/
def tRsRowF (x : S4x32x128x128.Idx → F .f32) (p : S16.Idx → F .f32) : S4x1x16x16.Idx → F .f32 := fun i =>
  if h : (i 3).val < 8 then tRs x p (i 0) ⟨8 * (i 2).val + (i 3).val, by have h2 : (i 2).val < 16 := (i 2).isLt; show 8 * (i 2).val + (i 3).val < 128; omega⟩
  else Scalar.ofBits .f32 0x00000000#32

end Generic

/-! ## At the idealized instance these are the specification's values -/

theorem foldl_add {M : Type} [AddCommMonoid M] (n : ℕ) (g : Fin n → M) (a : M) :
    Fin.foldl n (fun acc j => acc + g j) a = a + ∑ j, g j := by
  induction n with
  | zero => simp
  | succ n ih => rw [Fin.foldl_succ_last, ih, Fin.sum_univ_castSucc, add_assoc]

theorem tStep_ideal (x : S4x32x128x128.Idx → EReal) (r : Fin 4) (c : Fin 128) (acc : S16.Idx → EReal) (j : Fin 32) :
    tStep (F := Ideal) x r c acc j = acc + fun l => ∑ v : Fin 8, tLanes (F := Ideal) x r c j v l := by
  funext l
  simp only [tStep, addf, Ideal.addf_def, Pi.add_apply, Fin.sum_univ_eight, add_assoc]

theorem sadd_ideal (x y : EReal) : Scalar.addf (F := Ideal) (φ := .f32) x y = x + y := rfl
theorem smul_ideal (x y : EReal) : Scalar.mulf (F := Ideal) (φ := .f32) x y = x * y := rfl

theorem sum16 (f : Fin 16 → EReal) :
    ∑ l, f l = ((((f 0 + f 1) + (f 2 + f 3)) + ((f 4 + f 5) + (f 6 + f 7))) + (((f 8 + f 9) + (f 10 + f 11)) + ((f 12 + f 13) + (f 14 + f 15)))) := by
  simp only [Fin.sum_univ_succ, Fin.sum_univ_zero, add_zero]
  simp only [add_assoc]
  rfl

theorem tAcc_ideal (x : S4x32x128x128.Idx → EReal) (r : Fin 4) (c : Fin 128) :
    tAcc (F := Ideal) x r c = fun l => ∑ j : Fin 32, ∑ v : Fin 8, tLanes (F := Ideal) x r c j v l := by
  unfold tAcc
  rw [show tStep (F := Ideal) x r c = fun acc j => acc + (fun l => ∑ v : Fin 8, tLanes (F := Ideal) x r c j v l) from
    funext fun acc => funext fun j => tStep_ideal x r c acc j, foldl_add]
  funext l
  simp [broadcast, Finset.sum_apply, Ideal.ofBits_zero_f32]

theorem tTree_ideal (a : S16.Idx → EReal) : tTree (F := Ideal) a = ∑ l : Fin 16, a (ix1 l) := by
  rw [sum16]; rfl

theorem sum128 (g : Fin 128 → EReal) :
    ∑ l : Fin 16, ∑ v : Fin 8, g ⟨16 * v.val + l.val, by omega⟩ = ∑ e, g e := by
  rw [Finset.sum_comm, ← (finProdFinEquiv (m := 8) (n := 16)).sum_comp g, Fintype.sum_prod_type]
  refine Finset.sum_congr rfl fun v _ => Finset.sum_congr rfl fun l _ => ?_
  congr 1; apply Fin.ext
  show 16 * v.val + l.val = l.val + 16 * v.val
  omega

theorem tRs_ideal (x : S4x32x128x128.Idx → EReal) (p : S16.Idx → EReal) (r : Fin 4) (c : Fin 128) :
    tRs (F := Ideal) x p r c = scRs x p r c := by
  unfold tRs scRs
  rw [sadd_ideal, smul_ideal, tTree_ideal, tAcc_ideal]
  congr 1
  rw [Finset.sum_comm]
  refine Finset.sum_congr rfl fun j _ => ?_
  exact sum128 fun e => x (ix4 r j c e)

theorem tRcp_ideal (x : S4x32x128x128.Idx → EReal) (p : S16.Idx → EReal) (r : Fin 4) (c : Fin 128) (l : S16.Idx) :
    tRcp (F := Ideal) x p r c l = scRcp x p r c := by
  unfold tRcp scRcp scDen
  simp only [divf, select, cmpf, broadcast, Scalar.select, Ideal.divf_def, Ideal.cmpf_def, Ideal.cmp, Ideal.ofBits_def, Ideal.ofBits_zero_f32, tRs_ideal]
  by_cases h : 0 < scRs x p r c <;> simp [h]

theorem tOutF_ideal (x : S4x32x128x128.Idx → EReal) (p : S16.Idx → EReal) : tOutF (F := Ideal) x p = scOut x p := by
  funext i
  unfold tOutF scOut
  simp only [addf, mulf, Ideal.addf_def, Ideal.mulf_def, tRcp_ideal, tLanes]
  have h3 : ∀ hlt : 16 * ((i 3).val / 16) + (i 3).val % 16 < 128, (⟨16 * ((i 3).val / 16) + (i 3).val % 16, hlt⟩ : Fin 128) = i 3 :=
    fun _ => Fin.ext (Nat.div_add_mod (i 3).val 16)
  congr 2
  all_goals first
    | exact tRcp_ideal x p _ _ _
    | (conv_rhs => rw [eq_ix4 i]
       exact congrArg (fun e => x (ix4 (i 0) (i 1) (i 2) e)) (h3 _))

theorem tRsRowF_ideal (x : S4x32x128x128.Idx → EReal) (p : S16.Idx → EReal) : tRsRowF (F := Ideal) x p = scRsArr x p := by
  funext i
  unfold tRsRowF scRsArr
  split
  · exact tRs_ideal x p _ _
  · simp [Ideal.ofBits_zero_f32]

end Cert.Proof.KI

end
-- ==== Proof.KI.TileV.lean ====
/-
  The SparseCore call's body obligation with its results named.  `BodyV F` states, at any float instance, that a vector
  subcore's task hands its four output boxes back at `tOutF` of the call's operands and its row of the row sums at
  `tRsRowF` of them (the kernel's own order of operations, TileSpec.lean).  At the idealized instance those are the
  specification's arrays, so that statement gives the launch theorem's obligation at the payloads that name the results.
-/
import proofs.«216181_g9861244912407_cont_9to1_m_1073_40_alg».proof.Proof.KI.Tile
import proofs.«216181_g9861244912407_cont_9to1_m_1073_40_alg».proof.Proof.KI.TileSpec
import proofs.«216181_g9861244912407_cont_9to1_m_1073_40_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
local notation "inW" => (Memref.whole Cert.KernelIdeal.main_v5_scv : Memref Cert.KernelIdeal.sig Kind.scVector Space.hbm Cert.KernelIdeal.S4x32x128x128 EltTy.f32)
local notation "pcW" => (Memref.whole Cert.KernelIdeal.main_v2_scv : Memref Cert.KernelIdeal.sig Kind.scVector Space.hbm Cert.KernelIdeal.S16 EltTy.f32)
local notation "outW" => (Memref.whole Cert.KernelIdeal.main_v6_0_scv : Memref Cert.KernelIdeal.sig Kind.scVector Space.hbm Cert.KernelIdeal.S4x32x128x128 EltTy.f32)
local notation "rsW" => (Memref.whole Cert.KernelIdeal.main_v6_1_scv : Memref Cert.KernelIdeal.sig Kind.scVector Space.hbm Cert.KernelIdeal.S4x1x16x16 EltTy.f32)
local notation "bA" => (Memref.whole Cert.KernelIdeal.cc0_scratch0 : Memref Cert.KernelIdeal.sig Kind.scVector Space.vmem Cert.KernelIdeal.S32x8x128 EltTy.f32)
local notation "bB" => (Memref.whole Cert.KernelIdeal.cc0_scratch1 : Memref Cert.KernelIdeal.sig Kind.scVector Space.vmem Cert.KernelIdeal.S32x8x128 EltTy.f32)
local notation "bPc" => (Memref.whole Cert.KernelIdeal.cc0_scratch2 : Memref Cert.KernelIdeal.sig Kind.scVector Space.vmem Cert.KernelIdeal.S16 EltTy.f32)
local notation "bRs" => (Memref.whole Cert.KernelIdeal.cc0_scratch3 : Memref Cert.KernelIdeal.sig Kind.scVector Space.vmem Cert.KernelIdeal.S4x16 EltTy.f32)

section Statement

variable (F : FTy → Type) [FloatOps F]

local notation "𝕄" => MT nD τ sig (HIx 1) (Elt F) ℕ UU ℕ

variable {F} in
/-- The call's two results as the kernel computes them. -/
def fout (vin : (d : Dev nD) → Buf (Elt F) (inLoc d)) (vpc : (d : Dev nD) → Buf (Elt F) (pcLoc d)) (d : Dev nD) : Buf (Elt F) (outLoc d) :=
  tOutF (vin d) (vpc d)
variable {F} in
def frs (vin : (d : Dev nD) → Buf (Elt F) (inLoc d)) (vpc : (d : Dev nD) → Buf (Elt F) (pcLoc d)) (d : Dev nD) : Buf (Elt F) (rsLoc d) :=
  tRsRowF (vin d) (vpc d)

variable {F} in
/-- What subcore `s` hands back when its results are named: its input boxes and its read share as it got them, its
    output boxes and its row of the row sums at what the kernel computes. -/
def tileResF (vin : (d : Dev nD) → Buf (Elt F) (inLoc d)) (vpc : (d : Dev nD) → Buf (Elt F) (pcLoc d)) (d : Dev nD) (s : Fin 16) : sProp 𝕄 :=
  iprop((bigSep Finset.univ fun r : Fin 4 => inLoc d ↦[tileSet s r]{fullShare} vin d)
    ∗ (pcLoc d ↦{shareTok fullShare 16 s} vpc d)
    ∗ (bigSep Finset.univ fun r : Fin 4 => outLoc d ↦[tileSet s r]{fullShare} fout vin vpc d)
    ∗ (rsLoc d ↦[rsSet s]{fullShare} frs vin vpc d))

/-- The body obligation with the results named, at a symbolic vector subcore. -/
def BodyV : Prop :=
  ∀ (vin : (d : Dev nD) → Buf (Elt F) (inLoc d)) (vpc : (d : Dev nD) → Buf (Elt F) (pcLoc d)) (d : Dev nD) (L : grid0.Coords)
    (O : CellTallies nD τ sig (HIx 1)) (W : Waits sig (HIx 1)), (∀ g, O g none = 0) →
    iprop(levAts (K (F := F)).L (K (F := F)).lev ∗ emp ∗ tileRes vin vpc d (jL L)
        ∗ scopedBufs (thrV d L) ∗ scopedSems0 (thrV d L) ∗ owes (thrV d L) O W)
      ⊢ wp frame (wpE (defs₀ (F := F)) 𝒱₀ (thrV d L) none) Set.univ
          (cc0__sc_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1)
          fun _ => iprop(tileResF vin vpc d (jL L) ∗ scopedBufs (thrV d L) ∗ scopedSems0 (thrV d L)
            ∗ ∃ W', ⌜∀ p ∈ W', p ∈ W ∨ p.2 = none⌝ ∗ owes (thrV d L) O W')

end Statement

/-! ## From the body to the launch theorem's obligation, at the idealized instance -/

theorem tileResF_ideal (vin : (d : Dev nD) → Buf (Elt Ideal) (inLoc d)) (vpc : (d : Dev nD) → Buf (Elt Ideal) (pcLoc d)) (d : Dev nD) (s : Fin 16) :
    tileResF (F := Ideal) vin vpc d s = tileResV vin vpc d s := by
  unfold tileResF tileResV fout frs gout grs
  rw [tOutF_ideal, tRsRowF_ideal]

theorem tileOblV_of_body (hb : BodyV Ideal) (vin : (d : Dev nD) → Buf (Elt Ideal) (inLoc d)) (vpc : (d : Dev nD) → Buf (Elt Ideal) (pcLoc d)) :
    (K (F := Ideal)).TileObl (D (F := Ideal)) 𝒱 (PV vin vpc) v₀ 0 := by
  intro d c i O W hO _ _
  simp only [show (PV vin vpc).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  refine (hb vin vpc d (coordsV ⟨_, hc.1⟩ ⟨_, hc.2⟩) O W hO).trans (wp_mono frame _ _ fun _ => ?_)
  rw [tileResF_ideal]
  exact obl_post

end Cert.Proof.KI

end
-- ==== Proof.KI.BoxSpec.lean ====
/-
  What the kernel does to ONE scratch buffer — a `[32, 8, 128]` box of the input — written in its own order of
  operations at any float instance, as recursions the loop invariants of the body can cite trip by trip: for column
  group `kc` the sixteen lane sums over the rows (`accB`, a row a step), the row sum, reciprocal and scaled pseudocount
  vectors formed from them, the rows of the group scaled one by one (`scaleUpTo`), the eight groups in turn (`blkB`),
  and the sixteen-lane row of row sums the eight groups leave (`rsVecB`).
-/
import proofs.«216181_g9861244912407_cont_9to1_m_1073_40_alg».proof.Proof.KI.TileSpec

noncomputable section

namespace Cert.Proof.KI

open Cert.KernelIdeal Cert.KernelIdeal.Gen
open Idealize.ShloMosaic Idealize.ShloMosaic.ValueIdx

variable {F : FTy → Type} [FloatOps F]

/-- Lanes `[16 v, 16 v + 16)` of row `j`, column group `kc` of a box. -/
def lanesB (f : S32x8x128.Idx → F .f32) (j : Fin 32) (kc : Fin 8) (v : Fin 8) : FVec F S16 .f32 :=
  fun l => f (ix3 j kc ⟨16 * v.val + (l 0).val, by have h : (l 0).val < 16 := (l 0).isLt; have := v.isLt; omega⟩)

/-- One row added to the running lane sums. -/
def sumB (f : S32x8x128.Idx → F .f32) (kc : Fin 8) (acc : FVec F S16 .f32) (j : Fin 32) : FVec F S16 .f32 :=
  addf (addf (addf (addf (addf (addf (addf (addf acc (lanesB f j kc 0)) (lanesB f j kc 1)) (lanesB f j kc 2)) (lanesB f j kc 3))
    (lanesB f j kc 4)) (lanesB f j kc 5)) (lanesB f j kc 6)) (lanesB f j kc 7)

/-- The lane sums of the first `n` rows, from zero. -/
def accB (f : S32x8x128.Idx → F .f32) (kc : Fin 8) : ℕ → FVec F S16 .f32
  | 0 => broadcast S16 (Scalar.ofBits .f32 0x00000000#32)
  | n + 1 => if h : n < 32 then sumB f kc (accB f kc n) ⟨n, h⟩ else accB f kc n

/-- The sixteen lanes taken out one by one and added pairwise, then the pairs pairwise, as the kernel spells it. -/
def treeP (a : FVec F S16 .f32) : F .f32 :=
  (Scalar.addf (Scalar.addf (Scalar.addf (Scalar.addf (extractAt ![0] (extractStridedSlice S1 ![0] a slices_S16_o0_S1) inpos_S1_p0) (extractAt ![0] (extractStridedSlice S1 ![1] a slices_S16_o1_S1) inpos_S1_p0)) (Scalar.addf (extractAt ![0] (extractStridedSlice S1 ![2] a slices_S16_o2_S1) inpos_S1_p0) (extractAt ![0] (extractStridedSlice S1 ![3] a slices_S16_o3_S1) inpos_S1_p0))) (Scalar.addf (Scalar.addf (extractAt ![0] (extractStridedSlice S1 ![4] a slices_S16_o4_S1) inpos_S1_p0) (extractAt ![0] (extractStridedSlice S1 ![5] a slices_S16_o5_S1) inpos_S1_p0)) (Scalar.addf (extractAt ![0] (extractStridedSlice S1 ![6] a slices_S16_o6_S1) inpos_S1_p0) (extractAt ![0] (extractStridedSlice S1 ![7] a slices_S16_o7_S1) inpos_S1_p0)))) (Scalar.addf (Scalar.addf (Scalar.addf (extractAt ![0] (extractStridedSlice S1 ![8] a slices_S16_o8_S1) inpos_S1_p0) (extractAt ![0] (extractStridedSlice S1 ![9] a slices_S16_o9_S1) inpos_S1_p0)) (Scalar.addf (extractAt ![0] (extractStridedSlice S1 ![10] a slices_S16_o10_S1) inpos_S1_p0) (extractAt ![0] (extractStridedSlice S1 ![11] a slices_S16_o11_S1) inpos_S1_p0))) (Scalar.addf (Scalar.addf (extractAt ![0] (extractStridedSlice S1 ![12] a slices_S16_o12_S1) inpos_S1_p0) (extractAt ![0] (extractStridedSlice S1 ![13] a slices_S16_o13_S1) inpos_S1_p0)) (Scalar.addf (extractAt ![0] (extractStridedSlice S1 ![14] a slices_S16_o14_S1) inpos_S1_p0) (extractAt ![0] (extractStridedSlice S1 ![15] a slices_S16_o15_S1) inpos_S1_p0)))))

/-- The row sum from the lane sums and the pseudocount. -/
def rsOf (pc0 : F .f32) (acc : FVec F S16 .f32) : F .f32 :=
  Scalar.addf (treeP acc) (Scalar.mulf pc0 (Scalar.ofBits .f32 0x45800000#32))

/-- One more lane of the row of row sums: lane `kc` takes the row sum, the others keep what they had. -/
def selRs (v5 : IVec S16 32) (kc : ℕ) (rsv prev : FVec F S16 .f32) : FVec F S16 .f32 :=
  select (cmpi .eq v5 (broadcast S16 (BitVec.ofNat 32 kc))) rsv prev

/-- The row sum on sixteen lanes. -/
def rsVOf (pc0 : F .f32) (acc : FVec F S16 .f32) : FVec F S16 .f32 := broadcast S16 (rsOf pc0 acc)

/-- One over the row sum where it is positive, over one elsewhere, on sixteen lanes. -/
def rcpOf (pc0 : F .f32) (acc : FVec F S16 .f32) : FVec F S16 .f32 :=
  divf (broadcast S16 (Scalar.ofBits .f32 0x3F800000#32))
    (select (cmpf .ogt (rsVOf pc0 acc) (broadcast S16 (Scalar.ofBits .f32 0x00000000#32))) (rsVOf pc0 acc) (broadcast S16 (Scalar.ofBits .f32 0x3F800000#32)))

/-- The pseudocount vector scaled. -/
def prOf (pc0 : F .f32) (acc : FVec F S16 .f32) (pcv : FVec F S16 .f32) : FVec F S16 .f32 := mulf pcv (rcpOf pc0 acc)

/-- Row `j` of column group `kc` scaled and shifted, everything else as it was. -/
def scaleRow (f : S32x8x128.Idx → F .f32) (j : Fin 32) (kc : Fin 8) (rcp pr : FVec F S16 .f32) : S32x8x128.Idx → F .f32 := fun i =>
  if (i 0).val = j.val ∧ (i 1).val = kc.val then
    FloatOps.addf (FloatOps.mulf (f i) (rcp (ix1 (⟨(i 2).val % 16, Nat.mod_lt _ (by decide)⟩ : Fin 16)))) (pr (ix1 (⟨(i 2).val % 16, Nat.mod_lt _ (by decide)⟩ : Fin 16)))
  else f i

/-- The first `n` rows of column group `kc` scaled. -/
def scaleUpTo (f : S32x8x128.Idx → F .f32) (kc : Fin 8) (rcp pr : FVec F S16 .f32) : ℕ → S32x8x128.Idx → F .f32
  | 0 => f
  | n + 1 => if h : n < 32 then scaleRow (scaleUpTo f kc rcp pr n) ⟨n, h⟩ kc rcp pr else scaleUpTo f kc rcp pr n

/-- The box after its first `n` column groups. -/
def blkB (f : S32x8x128.Idx → F .f32) (pc0 : F .f32) (pcv : FVec F S16 .f32) : ℕ → S32x8x128.Idx → F .f32
  | 0 => f
  | n + 1 => if h : n < 8 then
      scaleUpTo (blkB f pc0 pcv n) ⟨n, h⟩ (rcpOf pc0 (accB (blkB f pc0 pcv n) ⟨n, h⟩ 32)) (prOf pc0 (accB (blkB f pc0 pcv n) ⟨n, h⟩ 32) pcv) 32
    else blkB f pc0 pcv n

end Cert.Proof.KI

end
-- ==== Proof.KI.BoxSpecB.lean ====
/-
  The row of row sums a scratch buffer's eight column groups leave, lane by lane as the kernel selects it, and what it
  means for the row-sum scratch to hold the first rounds' rows.
-/
import proofs.«216181_g9861244912407_cont_9to1_m_1073_40_alg».proof.Proof.KI.BoxSpec

noncomputable section

namespace Cert.Proof.KI

open Cert.KernelIdeal Cert.KernelIdeal.Gen
open Idealize.ShloMosaic Idealize.ShloMosaic.ValueIdx

variable {F : FTy → Type} [FloatOps F]

/-- The sixteen-lane row of row sums after the eight column groups: lane `kc` selected to column group `kc`'s row sum. -/
def rowVec (f : S32x8x128.Idx → F .f32) (pc0 : F .f32) (pcv : FVec F S16 .f32) (v5 : IVec S16 32) : FVec F S16 .f32 :=
  (selRs v5 7 (rsVOf pc0 (accB (blkB f pc0 pcv 7) 7 32)) (selRs v5 6 (rsVOf pc0 (accB (blkB f pc0 pcv 6) 6 32)) (selRs v5 5 (rsVOf pc0 (accB (blkB f pc0 pcv 5) 5 32)) (selRs v5 4 (rsVOf pc0 (accB (blkB f pc0 pcv 4) 4 32)) (selRs v5 3 (rsVOf pc0 (accB (blkB f pc0 pcv 3) 3 32)) (selRs v5 2 (rsVOf pc0 (accB (blkB f pc0 pcv 2) 2 32)) (selRs v5 1 (rsVOf pc0 (accB (blkB f pc0 pcv 1) 1 32)) (selRs v5 0 (rsVOf pc0 (accB (blkB f pc0 pcv 0) 0 32)) (broadcast S16 (Scalar.ofBits .f32 0x00000000#32))))))))))

/-- The row-sum scratch holds the rows of the first `n` rounds. -/
def RsOK (frow : Fin 4 → Fin 16 → F .f32) (n : ℕ) (g : S4x16.Idx → F .f32) : Prop :=
  ∀ ρ : Fin 4, ρ.val < n → ∀ l : Fin 16, g (ix2 ρ l) = frow ρ l

end Cert.Proof.KI

end
-- ==== Proof.KI.BoxLemmas.lean ====
/-
  The recursions that describe one scratch buffer's treatment, read in closed form: scaling the thirty-two rows of a
  column group scales exactly that group's entries; the lane sums of a group read only that group, so the groups
  already treated do not disturb the later ones' sums; the lane sums by recursion are the fold over the rows; and the
  buffer after its eight groups holds, at every place, the whole-array specification's value for the box's place in the
  input — the same operations on the same entries, so this holds at any float instance.
-/
import proofs.«216181_g9861244912407_cont_9to1_m_1073_40_alg».proof.Proof.KI.BoxSpec

noncomputable section

namespace Cert.Proof.KI

open Cert.KernelIdeal Cert.KernelIdeal.Gen
open Idealize.ShloMosaic Idealize.ShloMosaic.ValueIdx

variable {F : FTy → Type} [FloatOps F]

/-- A lane taken out as the kernel spells it — a one-element slice at the lane, then its element — is the vector at the lane. -/
theorem leafP (a : FVec F S16 .f32) (n : ℕ) (hn : n < 16) (h : S16.Slices ![n] S1) (h' : ∀ d, (![0] : Fin 1 → ℕ) d < S1.size d) :
    extractAt ![0] (extractStridedSlice S1 ![n] a h) h' = a (ix1 (⟨n, hn⟩ : Fin 16)) := by
  unfold extractAt extractStridedSlice
  exact congrArg a (funext fun d => Fin.ext (by fin_cases d; rfl))

/-- The kernel's spelling of the sixteen-lane tree is the tree. -/
theorem treeP_eq (a : FVec F S16 .f32) : treeP a = tTree a := by
  unfold treeP tTree
  rw [leafP a 0 (by decide), leafP a 1 (by decide), leafP a 2 (by decide), leafP a 3 (by decide), leafP a 4 (by decide), leafP a 5 (by decide),
    leafP a 6 (by decide), leafP a 7 (by decide), leafP a 8 (by decide), leafP a 9 (by decide), leafP a 10 (by decide), leafP a 11 (by decide),
    leafP a 12 (by decide), leafP a 13 (by decide), leafP a 14 (by decide), leafP a 15 (by decide)]
  rfl

/-- The lane of a clone index. -/
abbrev laneOf (i : S32x8x128.Idx) : S16.Idx := ix1 (⟨(i 2).val % 16, Nat.mod_lt _ (by decide)⟩ : Fin 16)

/-- An entry scaled and shifted. -/
abbrev scaled (f : S32x8x128.Idx → F .f32) (rcp pr : FVec F S16 .f32) (i : S32x8x128.Idx) : F .f32 :=
  FloatOps.addf (FloatOps.mulf (f i) (rcp (laneOf i))) (pr (laneOf i))

/-- (E1, at any number of rows) The first `n` rows of group `kc` scaled: exactly the entries of those rows in that group. -/
theorem scaleUpTo_rows (f : S32x8x128.Idx → F .f32) (kc : Fin 8) (rcp pr : FVec F S16 .f32) :
    ∀ (n : ℕ), n ≤ 32 → ∀ i : S32x8x128.Idx,
      scaleUpTo f kc rcp pr n i = if (i 1).val = kc.val ∧ (i 0).val < n then scaled f rcp pr i else f i
  | 0, _, i => by
    rw [if_neg (fun h => absurd h.2 (Nat.not_lt_zero _))]; rfl
  | n + 1, hn, i => by
    have hlt : n < 32 := by omega
    show (if h : n < 32 then scaleRow (scaleUpTo f kc rcp pr n) ⟨n, h⟩ kc rcp pr else scaleUpTo f kc rcp pr n) i = _
    rw [dif_pos hlt]
    unfold scaleRow
    by_cases hrow : (i 0).val = (⟨n, hlt⟩ : Fin 32).val ∧ (i 1).val = kc.val
    · have h0 : (i 0).val = n := hrow.1
      rw [if_pos hrow, if_pos ⟨hrow.2, by omega⟩, scaleUpTo_rows f kc rcp pr n (by omega) i,
        if_neg (fun h => by have := h.2; omega)]
    · rw [if_neg hrow, scaleUpTo_rows f kc rcp pr n (by omega) i]
      by_cases hk : (i 1).val = kc.val
      · have hne : (i 0).val ≠ n := fun e => hrow ⟨e, hk⟩
        by_cases hl : (i 0).val < n
        · rw [if_pos ⟨hk, hl⟩, if_pos ⟨hk, by omega⟩]
        · rw [if_neg (fun h => hl h.2), if_neg (fun h => by have := h.2; omega)]
      · rw [if_neg (fun h => hk h.1), if_neg (fun h => hk h.1)]

/-- (E1) All thirty-two rows. -/
theorem scaleUpTo_all (f : S32x8x128.Idx → F .f32) (kc : Fin 8) (rcp pr : FVec F S16 .f32) (i : S32x8x128.Idx) :
    scaleUpTo f kc rcp pr 32 i = if (i 1).val = kc.val then scaled f rcp pr i else f i := by
  rw [scaleUpTo_rows f kc rcp pr 32 (le_refl _) i]
  by_cases hk : (i 1).val = kc.val
  · rw [if_pos ⟨hk, (i 0).isLt⟩, if_pos hk]
  · rw [if_neg (fun h => hk h.1), if_neg hk]

/-- (E2) The lane sums of group `kc` read only group `kc`. -/
theorem accB_congr (f g : S32x8x128.Idx → F .f32) (kc : Fin 8) (h : ∀ i : S32x8x128.Idx, (i 1).val = kc.val → f i = g i) :
    ∀ n, accB f kc n = accB g kc n
  | 0 => rfl
  | n + 1 => by
    show (if h : n < 32 then sumB f kc (accB f kc n) ⟨n, h⟩ else accB f kc n) = (if h : n < 32 then sumB g kc (accB g kc n) ⟨n, h⟩ else accB g kc n)
    have hl : ∀ (j : Fin 32) (v : Fin 8), lanesB f j kc v = lanesB g j kc v := fun j v => funext fun l => h _ rfl
    by_cases hn : n < 32
    · rw [dif_pos hn, dif_pos hn, accB_congr f g kc h n]
      unfold sumB
      simp only [hl]
    · rw [dif_neg hn, dif_neg hn, accB_congr f g kc h n]

/-- The box after `n` groups is untouched from group `n` on. -/
theorem blkB_off (f : S32x8x128.Idx → F .f32) (pc0 : F .f32) (pcv : FVec F S16 .f32) :
    ∀ (n : ℕ) (i : S32x8x128.Idx), n ≤ (i 1).val → blkB f pc0 pcv n i = f i
  | 0, _, _ => rfl
  | n + 1, i, hi => by
    show (if h : n < 8 then scaleUpTo (blkB f pc0 pcv n) ⟨n, h⟩ (rcpOf pc0 (accB (blkB f pc0 pcv n) ⟨n, h⟩ 32))
      (prOf pc0 (accB (blkB f pc0 pcv n) ⟨n, h⟩ 32) pcv) 32 else blkB f pc0 pcv n) i = _
    by_cases hn : n < 8
    · rw [dif_pos hn, scaleUpTo_all, if_neg (fun e : (i 1).val = (⟨n, hn⟩ : Fin 8).val => by have : (i 1).val = n := e; omega)]
      exact blkB_off f pc0 pcv n i (by omega)
    · rw [dif_neg hn]; exact blkB_off f pc0 pcv n i (by omega)

/-- (E2, used) The lane sums of group `kc` of the box after the groups before it are those of the box as loaded. -/
theorem accB_blkB (f : S32x8x128.Idx → F .f32) (pc0 : F .f32) (pcv : FVec F S16 .f32) (kc : Fin 8) (n : ℕ) :
    accB (blkB f pc0 pcv kc.val) kc n = accB f kc n :=
  accB_congr _ _ kc (fun i hi => blkB_off f pc0 pcv kc.val i (by omega)) n

/-- The box after `n` groups: the groups below `n` scaled by their own reciprocals, the rest as loaded. -/
theorem blkB_apply (f : S32x8x128.Idx → F .f32) (pc0 : F .f32) (pcv : FVec F S16 .f32) :
    ∀ (n : ℕ), n ≤ 8 → ∀ i : S32x8x128.Idx,
      blkB f pc0 pcv n i = if (i 1).val < n then scaled f (rcpOf pc0 (accB f (i 1) 32)) (prOf pc0 (accB f (i 1) 32) pcv) i else f i
  | 0, _, i => by
    rw [if_neg (Nat.not_lt_zero _)]; rfl
  | n + 1, hn, i => by
    have hlt : n < 8 := by omega
    show (if h : n < 8 then scaleUpTo (blkB f pc0 pcv n) ⟨n, h⟩ (rcpOf pc0 (accB (blkB f pc0 pcv n) ⟨n, h⟩ 32))
      (prOf pc0 (accB (blkB f pc0 pcv n) ⟨n, h⟩ 32) pcv) 32 else blkB f pc0 pcv n) i = _
    rw [dif_pos hlt, scaleUpTo_all, accB_blkB f pc0 pcv ⟨n, hlt⟩ 32]
    by_cases hk : (i 1).val = (⟨n, hlt⟩ : Fin 8).val
    · have hk' : (i 1).val = n := hk
      have hi1 : i 1 = (⟨n, hlt⟩ : Fin 8) := Fin.ext hk
      rw [if_pos hk, if_pos (by omega)]
      show FloatOps.addf (FloatOps.mulf (blkB f pc0 pcv n i) _) _ = FloatOps.addf (FloatOps.mulf (f i) _) _
      rw [blkB_off f pc0 pcv n i (by omega), hi1]
    · have hk' : (i 1).val ≠ n := hk
      rw [if_neg hk, blkB_apply f pc0 pcv n (by omega) i]
      by_cases hl : (i 1).val < n
      · rw [if_pos hl, if_pos (by omega)]
      · rw [if_neg hl, if_neg (by omega)]

/-- The lane sums by recursion are the fold over the rows. -/
theorem accB_foldl (f : S32x8x128.Idx → F .f32) (kc : Fin 8) :
    ∀ (n : ℕ) (hn : n ≤ 32), accB f kc n
      = Fin.foldl n (fun acc (j : Fin n) => sumB f kc acc ⟨j.val, by have := j.isLt; omega⟩) (broadcast S16 (Scalar.ofBits .f32 0x00000000#32))
  | 0, _ => by simp [accB]
  | n + 1, hn => by
    have hlt : n < 32 := by omega
    show (if h : n < 32 then sumB f kc (accB f kc n) ⟨n, h⟩ else accB f kc n) = _
    rw [dif_pos hlt, Fin.foldl_succ_last, accB_foldl f kc n (by omega)]
    rfl

section Spec

variable (x : S4x32x128x128.Idx → F .f32) (p : S16.Idx → F .f32) (r : Fin 4) (s : Fin 16)

/-- Column group `k` of subcore `s`'s box is source clone `8 s + k`. -/
abbrev colOf (s : Fin 16) (k : Fin 8) : Fin 128 := ⟨8 * s.val + k.val, by have := s.isLt; have := k.isLt; omega⟩

/-- Subcore `s`'s box of round `r` of the input. -/
abbrev boxOf (x : S4x32x128x128.Idx → F .f32) (r : Fin 4) (s : Fin 16) : S32x8x128.Idx → F .f32 :=
  fun i => x (ix4 r (i 0) (colOf s (i 1)) (i 2))

theorem lanesB_box (j : Fin 32) (k : Fin 8) (v : Fin 8) : lanesB (boxOf x r s) j k v = tLanes x r (colOf s k) j v := rfl

theorem sumB_box (k : Fin 8) (acc : FVec F S16 .f32) (j : Fin 32) : sumB (boxOf x r s) k acc j = tStep x r (colOf s k) acc j := rfl

/-- The box's lane sums are the specification's. -/
theorem accB_box (k : Fin 8) : accB (boxOf x r s) k 32 = tAcc x r (colOf s k) := by
  rw [accB_foldl (boxOf x r s) k 32 (le_refl _)]
  rfl

/-- (E4) The box's row sums are the specification's. -/
theorem rsOf_box (k : Fin 8) : rsOf (p (ix1 (0 : Fin 16))) (accB (boxOf x r s) k 32) = tRs x p r (colOf s k) := by
  unfold rsOf tRs; rw [treeP_eq, accB_box]

theorem rcpOf_box (k : Fin 8) : rcpOf (p (ix1 (0 : Fin 16))) (accB (boxOf x r s) k 32) = tRcp x p r (colOf s k) := by
  unfold rcpOf rsVOf tRcp; rw [rsOf_box]

/-- (E3) The box after its eight groups holds the specification's output at the box's place. -/
theorem blkB_box (j : Fin 32) (k : Fin 8) (e : Fin 128) :
    blkB (boxOf x r s) (p (ix1 (0 : Fin 16))) p 8 (ix3 j k e) = tOutF x p (ix4 r j (colOf s k) e) := by
  rw [blkB_apply (boxOf x r s) (p (ix1 (0 : Fin 16))) p 8 (le_refl _) (ix3 j k e), if_pos (show ((ix3 j k e : S32x8x128.Idx) 1).val < 8 from k.isLt)]
  show FloatOps.addf (FloatOps.mulf (x (ix4 r j (colOf s k) e)) (rcpOf (p (ix1 (0 : Fin 16))) (accB (boxOf x r s) k 32) (laneOf (ix3 j k e))))
      (FloatOps.mulf (p (laneOf (ix3 j k e))) (rcpOf (p (ix1 (0 : Fin 16))) (accB (boxOf x r s) k 32) (laneOf (ix3 j k e))))
    = FloatOps.addf (FloatOps.mulf (x (ix4 r j (colOf s k) ⟨16 * (e.val / 16) + e.val % 16, by have := e.isLt; omega⟩)) (tRcp x p r (colOf s k) (laneOf (ix3 j k e))))
      (FloatOps.mulf (p (laneOf (ix3 j k e))) (tRcp x p r (colOf s k) (laneOf (ix3 j k e))))
  rw [rcpOf_box, show (⟨16 * (e.val / 16) + e.val % 16, by have := e.isLt; omega⟩ : Fin 128) = e from Fin.ext (Nat.div_add_mod e.val 16)]

end Spec

end Cert.Proof.KI

end
-- ==== Proof.Scale.lean ====
/-
  One trip of a scaling loop, read back in closed form: eight sixteen-lane stores through one row of a
  [32, 8, 128] buffer, each storing what it loaded from the same place scaled lane by lane and shifted lane by lane,
  leave that row scaled and shifted and every other element as it was.
-/
import Idealize.ShloMosaic.Lib.WritesUnit
import Idealize.ShloMosaic.Lib.Pipeline.Value
import Idealize.ShloMosaic.Lib.ValueIdx

noncomputable section

namespace Cert.Proof.Scale

open Idealize.ShloMosaic Idealize.ShloMosaic.ValueIdx

abbrev B : Shape := ⟨3, ![32, 8, 128]⟩
abbrev T : Shape := ⟨3, ![1, 1, 16]⟩
abbrev L16 : Shape := ⟨1, ![16]⟩

variable {F : FTy → Type} [FloatOps F]

/-- The lane of a buffer index: its last coordinate modulo sixteen. -/
abbrev lane (y : B.Idx) : L16.Idx := ix1 (⟨(y 2).val % 16, Nat.mod_lt _ (by decide)⟩ : Fin 16)

section Pieces

variable {sig : RefSig} {κ : Kind} {sp : Space} {s : Shape} {e : EltTy} {Val : EltTy → Type} {NT : ℕ}

/-- Every piece of a list of tile stores is one of the tiles' stores. -/
theorem mem_tilePieces (tsz : Fin s.rank → ℕ) (off : Fin NT → Fin s.rank → ℕ) (inb : ∀ i a, off i a + tsz a ≤ s.size a)
    (P : Fin NT → (⟨s.rank, tsz⟩ : Shape).Idx → Val e) :
    ∀ (n : ℕ) (hn : n ≤ NT) (p : View.Piece Val s e), p ∈ View.tilePieces tsz off inb P n hn →
      ∃ i : Fin NT, p = ⟨Rect.unit (off i) tsz (inb i), P i⟩
  | 0, _, p, hp => absurd hp List.not_mem_nil
  | n + 1, hn, p, hp => by
    rw [View.tilePieces_succ] at hp
    rcases List.mem_cons.mp hp with rfl | hp
    · exact ⟨⟨n, hn⟩, rfl⟩
    · exact mem_tilePieces tsz off inb P n (Nat.le_of_succ_le hn) p hp

end Pieces

section Trip

variable {sig : RefSig} {κ : Kind} {sp : Space} (v : View sig κ sp B .f32) (f : v.ty.Contents (Elt F))
  (j : Fin 32) (kc : Fin 8) (rcp pr : FVec F L16 .f32) (o : Fin 8 → Fin 3 → ℕ)
  (h : ∀ w a, o w a + T.size a ≤ B.size a) (e : ∀ w, o w = ![j.val, kc.val, 16 * w.val])
  (hc1 : T.ShapeCasts L16) (hc2 : L16.ShapeCasts T)

/-- What store w of the trip stores: the sixteen lanes it loaded from its own place, scaled and shifted. -/
def tripPay (w : Fin 8) : T.Idx → F .f32 :=
  shapeCast T (addf (mulf (shapeCast L16 (v.readAt (Elt F) (Rect.unit (s := B) (o w) T.size (h w)).toLoadRect f) hc1) rcp) pr) hc2

include e in
/-- The buffer after the trip's eight stores, read at an index: row (j, kc) scaled and shifted, the rest kept. -/
theorem trip_read (y : B.Idx) :
    v.read (Elt F) (v.writes (Elt F) f
      [⟨Rect.unit (s := B) (o 7) T.size (h 7), tripPay v f rcp pr o h hc1 hc2 7⟩, ⟨Rect.unit (s := B) (o 6) T.size (h 6), tripPay v f rcp pr o h hc1 hc2 6⟩,
       ⟨Rect.unit (s := B) (o 5) T.size (h 5), tripPay v f rcp pr o h hc1 hc2 5⟩, ⟨Rect.unit (s := B) (o 4) T.size (h 4), tripPay v f rcp pr o h hc1 hc2 4⟩,
       ⟨Rect.unit (s := B) (o 3) T.size (h 3), tripPay v f rcp pr o h hc1 hc2 3⟩, ⟨Rect.unit (s := B) (o 2) T.size (h 2), tripPay v f rcp pr o h hc1 hc2 2⟩,
       ⟨Rect.unit (s := B) (o 1) T.size (h 1), tripPay v f rcp pr o h hc1 hc2 1⟩, ⟨Rect.unit (s := B) (o 0) T.size (h 0), tripPay v f rcp pr o h hc1 hc2 0⟩]) y
      = if (y 0).val = j.val ∧ (y 1).val = kc.val then
          FloatOps.addf (FloatOps.mulf (v.read (Elt F) f y) (rcp (lane y))) (pr (lane y))
        else v.read (Elt F) f y := by
  have hy0 : (y 0).val < 32 := (y 0).isLt
  have hy1 : (y 1).val < 8 := (y 1).isLt
  have hy2 : (y 2).val < 128 := (y 2).isLt
  show v.read (Elt F) (v.writes (Elt F) f (View.tilePieces T.size o h (tripPay v f rcp pr o h hc1 hc2) 8 (le_refl 8))) y = _
  by_cases hrow : (y 0).val = j.val ∧ (y 1).val = kc.val
  · rw [if_pos hrow]
    have hw : (y 2).val / 16 < 8 := by omega
    have hidx : (Rect.unit (s := B) (o ⟨(y 2).val / 16, hw⟩) T.size (h ⟨(y 2).val / 16, hw⟩)).toLoadRect.idx
        (ix3 (0 : Fin 1) (0 : Fin 1) (⟨(y 2).val % 16, Nat.mod_lt _ (by decide)⟩ : Fin 16)) = y := by
      have e0 : o ⟨(y 2).val / 16, hw⟩ 0 = j.val := by rw [e]; rfl
      have e1 : o ⟨(y 2).val / 16, hw⟩ 1 = kc.val := by rw [e]; rfl
      have e2 : o ⟨(y 2).val / 16, hw⟩ 2 = 16 * ((y 2).val / 16) := by rw [e]; rfl
      funext a
      apply Fin.ext
      rw [LoadRect.idx_apply]
      match a with
      | ⟨0, _⟩ => show o ⟨(y 2).val / 16, hw⟩ 0 + 1 * 0 = (y 0).val; omega
      | ⟨1, _⟩ => show o ⟨(y 2).val / 16, hw⟩ 1 + 1 * 0 = (y 1).val; omega
      | ⟨2, _⟩ => show o ⟨(y 2).val / 16, hw⟩ 2 + 1 * ((y 2).val % 16) = (y 2).val; omega
    rw [View.read_tilePieces v f T.size o h _ 8 (le_refl 8) y ⟨(y 2).val / 16, hw⟩ hw
      (ix3 (0 : Fin 1) (0 : Fin 1) (⟨(y 2).val % 16, Nat.mod_lt _ (by decide)⟩ : Fin 16))
      (fun a => by
        rw [e]
        match a with
        | ⟨0, _⟩ => show (y 0).val = j.val + 0; omega
        | ⟨1, _⟩ => show (y 1).val = kc.val + 0; omega
        | ⟨2, _⟩ => show (y 2).val = 16 * ((y 2).val / 16) + (y 2).val % 16; omega)
      (2 : Fin 3)
      (fun i' hi' => by
        rw [e]
        have hne : i'.val ≠ (y 2).val / 16 := fun hh => hi' (Fin.ext hh)
        have hi8 := i'.isLt
        show (y 2).val < 16 * i'.val ∨ 16 * i'.val + 16 ≤ (y 2).val
        omega)]
    unfold tripPay
    rw [shapeCast_apply _ hc2 _ (lane y) (by
      rewrite [Shape.rowMajor_val_one, Shape.rowMajor_val_three]
      show (y 2).val % 16 = (0 * 1 + 0) * 16 + (y 2).val % 16
      omega)]
    show FloatOps.addf (FloatOps.mulf (shapeCast L16 _ hc1 (lane y)) (rcp (lane y))) (pr (lane y)) = _
    rw [shapeCast_apply _ hc1 (lane y) (ix3 (0 : Fin 1) (0 : Fin 1) (⟨(y 2).val % 16, Nat.mod_lt _ (by decide)⟩ : Fin 16)) (by
      rewrite [Shape.rowMajor_val_one, Shape.rowMajor_val_three]
      show (0 * 1 + 0) * 16 + (y 2).val % 16 = (y 2).val % 16
      omega)]
    rw [View.readAt_apply, hidx]
  · rw [if_neg hrow]
    refine View.read_writes_apply_of_forall_not_mem v f y _ fun p hp => ?_
    obtain ⟨i, rfl⟩ := mem_tilePieces (s := B) T.size o h _ 8 (le_refl 8) p hp
    show y ∉ (Rect.unit (s := B) (o i) T.size (h i)).set
    rw [Rect.mem_set_unit]
    intro hall
    have h0 : j.val ≤ (y 0).val ∧ (y 0).val < j.val + 1 := by have := hall 0; rw [e] at this; exact this
    have h1 : kc.val ≤ (y 1).val ∧ (y 1).val < kc.val + 1 := by have := hall 1; rw [e] at this; exact this
    exact hrow ⟨by omega, by omega⟩

end Trip

end Cert.Proof.Scale

end
-- ==== Proof.KI.ScaleLemmas.lean ====
/-
  The scaling loops of the kernel read back in closed form. One trip: the eight sixteen-lane stores through row
  (j, kc) of a scratch box, each storing what it loaded from its own place scaled and shifted lane by lane, leave that
  row scaled and shifted and the rest of the box as it was. Thirty-two trips: column group kc of every row scaled and
  shifted.
-/
import proofs.«216181_g9861244912407_cont_9to1_m_1073_40_alg».proof.Proof.KI.BoxSpec
import proofs.«216181_g9861244912407_cont_9to1_m_1073_40_alg».proof.Proof.Scale

noncomputable section

namespace Cert.Proof.KI

open Cert.KernelIdeal Cert.KernelIdeal.Gen
open Idealize.ShloMosaic Idealize.ShloMosaic.ValueIdx

variable {F : FTy → Type} [FloatOps F]

section Trip

variable (f : S32x8x128.Idx → F .f32) (j : Fin 32) (kc : Fin 8) (rcp pr : FVec F S16 .f32) (o : Fin 8 → Fin 3 → ℕ)
  (h : ∀ v a, o v a + S1x1x16.size a ≤ S32x8x128.size a) (e : ∀ v, o v = ![j.val, kc.val, 16 * v.val])

include e in
/-- One trip of a scaling loop over the first scratch box. -/
theorem scale_trip0 :
    (Memref.whole cc0_scratch0).view.writes (Elt F) f
      [⟨Rect.unit (s := S32x8x128) (o 7) S1x1x16.size (h 7), shapeCast S1x1x16 (addf (mulf (shapeCast S16 (View.readAt (Elt F) (Memref.whole cc0_scratch0).view (Rect.unit (s := S32x8x128) (o 7) S1x1x16.size (h 7)).toLoadRect f) shapeCasts_S1x1x16_S16) rcp) pr) shapeCasts_S16_S1x1x16⟩,
       ⟨Rect.unit (s := S32x8x128) (o 6) S1x1x16.size (h 6), shapeCast S1x1x16 (addf (mulf (shapeCast S16 (View.readAt (Elt F) (Memref.whole cc0_scratch0).view (Rect.unit (s := S32x8x128) (o 6) S1x1x16.size (h 6)).toLoadRect f) shapeCasts_S1x1x16_S16) rcp) pr) shapeCasts_S16_S1x1x16⟩,
       ⟨Rect.unit (s := S32x8x128) (o 5) S1x1x16.size (h 5), shapeCast S1x1x16 (addf (mulf (shapeCast S16 (View.readAt (Elt F) (Memref.whole cc0_scratch0).view (Rect.unit (s := S32x8x128) (o 5) S1x1x16.size (h 5)).toLoadRect f) shapeCasts_S1x1x16_S16) rcp) pr) shapeCasts_S16_S1x1x16⟩,
       ⟨Rect.unit (s := S32x8x128) (o 4) S1x1x16.size (h 4), shapeCast S1x1x16 (addf (mulf (shapeCast S16 (View.readAt (Elt F) (Memref.whole cc0_scratch0).view (Rect.unit (s := S32x8x128) (o 4) S1x1x16.size (h 4)).toLoadRect f) shapeCasts_S1x1x16_S16) rcp) pr) shapeCasts_S16_S1x1x16⟩,
       ⟨Rect.unit (s := S32x8x128) (o 3) S1x1x16.size (h 3), shapeCast S1x1x16 (addf (mulf (shapeCast S16 (View.readAt (Elt F) (Memref.whole cc0_scratch0).view (Rect.unit (s := S32x8x128) (o 3) S1x1x16.size (h 3)).toLoadRect f) shapeCasts_S1x1x16_S16) rcp) pr) shapeCasts_S16_S1x1x16⟩,
       ⟨Rect.unit (s := S32x8x128) (o 2) S1x1x16.size (h 2), shapeCast S1x1x16 (addf (mulf (shapeCast S16 (View.readAt (Elt F) (Memref.whole cc0_scratch0).view (Rect.unit (s := S32x8x128) (o 2) S1x1x16.size (h 2)).toLoadRect f) shapeCasts_S1x1x16_S16) rcp) pr) shapeCasts_S16_S1x1x16⟩,
       ⟨Rect.unit (s := S32x8x128) (o 1) S1x1x16.size (h 1), shapeCast S1x1x16 (addf (mulf (shapeCast S16 (View.readAt (Elt F) (Memref.whole cc0_scratch0).view (Rect.unit (s := S32x8x128) (o 1) S1x1x16.size (h 1)).toLoadRect f) shapeCasts_S1x1x16_S16) rcp) pr) shapeCasts_S16_S1x1x16⟩,
       ⟨Rect.unit (s := S32x8x128) (o 0) S1x1x16.size (h 0), shapeCast S1x1x16 (addf (mulf (shapeCast S16 (View.readAt (Elt F) (Memref.whole cc0_scratch0).view (Rect.unit (s := S32x8x128) (o 0) S1x1x16.size (h 0)).toLoadRect f) shapeCasts_S1x1x16_S16) rcp) pr) shapeCasts_S16_S1x1x16⟩]
      = scaleRow f j kc rcp pr :=
  funext fun y => Cert.Proof.Scale.trip_read (Memref.whole cc0_scratch0).view f j kc rcp pr o h e shapeCasts_S1x1x16_S16 shapeCasts_S16_S1x1x16 y

include e in
/-- One trip of a scaling loop over the second scratch box. -/
theorem scale_trip1 :
    (Memref.whole cc0_scratch1).view.writes (Elt F) f
      [⟨Rect.unit (s := S32x8x128) (o 7) S1x1x16.size (h 7), shapeCast S1x1x16 (addf (mulf (shapeCast S16 (View.readAt (Elt F) (Memref.whole cc0_scratch1).view (Rect.unit (s := S32x8x128) (o 7) S1x1x16.size (h 7)).toLoadRect f) shapeCasts_S1x1x16_S16) rcp) pr) shapeCasts_S16_S1x1x16⟩,
       ⟨Rect.unit (s := S32x8x128) (o 6) S1x1x16.size (h 6), shapeCast S1x1x16 (addf (mulf (shapeCast S16 (View.readAt (Elt F) (Memref.whole cc0_scratch1).view (Rect.unit (s := S32x8x128) (o 6) S1x1x16.size (h 6)).toLoadRect f) shapeCasts_S1x1x16_S16) rcp) pr) shapeCasts_S16_S1x1x16⟩,
       ⟨Rect.unit (s := S32x8x128) (o 5) S1x1x16.size (h 5), shapeCast S1x1x16 (addf (mulf (shapeCast S16 (View.readAt (Elt F) (Memref.whole cc0_scratch1).view (Rect.unit (s := S32x8x128) (o 5) S1x1x16.size (h 5)).toLoadRect f) shapeCasts_S1x1x16_S16) rcp) pr) shapeCasts_S16_S1x1x16⟩,
       ⟨Rect.unit (s := S32x8x128) (o 4) S1x1x16.size (h 4), shapeCast S1x1x16 (addf (mulf (shapeCast S16 (View.readAt (Elt F) (Memref.whole cc0_scratch1).view (Rect.unit (s := S32x8x128) (o 4) S1x1x16.size (h 4)).toLoadRect f) shapeCasts_S1x1x16_S16) rcp) pr) shapeCasts_S16_S1x1x16⟩,
       ⟨Rect.unit (s := S32x8x128) (o 3) S1x1x16.size (h 3), shapeCast S1x1x16 (addf (mulf (shapeCast S16 (View.readAt (Elt F) (Memref.whole cc0_scratch1).view (Rect.unit (s := S32x8x128) (o 3) S1x1x16.size (h 3)).toLoadRect f) shapeCasts_S1x1x16_S16) rcp) pr) shapeCasts_S16_S1x1x16⟩,
       ⟨Rect.unit (s := S32x8x128) (o 2) S1x1x16.size (h 2), shapeCast S1x1x16 (addf (mulf (shapeCast S16 (View.readAt (Elt F) (Memref.whole cc0_scratch1).view (Rect.unit (s := S32x8x128) (o 2) S1x1x16.size (h 2)).toLoadRect f) shapeCasts_S1x1x16_S16) rcp) pr) shapeCasts_S16_S1x1x16⟩,
       ⟨Rect.unit (s := S32x8x128) (o 1) S1x1x16.size (h 1), shapeCast S1x1x16 (addf (mulf (shapeCast S16 (View.readAt (Elt F) (Memref.whole cc0_scratch1).view (Rect.unit (s := S32x8x128) (o 1) S1x1x16.size (h 1)).toLoadRect f) shapeCasts_S1x1x16_S16) rcp) pr) shapeCasts_S16_S1x1x16⟩,
       ⟨Rect.unit (s := S32x8x128) (o 0) S1x1x16.size (h 0), shapeCast S1x1x16 (addf (mulf (shapeCast S16 (View.readAt (Elt F) (Memref.whole cc0_scratch1).view (Rect.unit (s := S32x8x128) (o 0) S1x1x16.size (h 0)).toLoadRect f) shapeCasts_S1x1x16_S16) rcp) pr) shapeCasts_S16_S1x1x16⟩]
      = scaleRow f j kc rcp pr :=
  funext fun y => Cert.Proof.Scale.trip_read (Memref.whole cc0_scratch1).view f j kc rcp pr o h e shapeCasts_S1x1x16_S16 shapeCasts_S16_S1x1x16 y

end Trip

section Unrolled

/-- The same with the eight offsets as eight separate names. -/
theorem scale_trip0u (f : S32x8x128.Idx → F .f32) (j : Fin 32) (kc : Fin 8) (rcp pr : FVec F S16 .f32)
    (o0 o1 o2 o3 o4 o5 o6 o7 : Fin 3 → ℕ) (h0 : ∀ a, o0 a + S1x1x16.size a ≤ S32x8x128.size a) (h1 : ∀ a, o1 a + S1x1x16.size a ≤ S32x8x128.size a) (h2 : ∀ a, o2 a + S1x1x16.size a ≤ S32x8x128.size a) (h3 : ∀ a, o3 a + S1x1x16.size a ≤ S32x8x128.size a) (h4 : ∀ a, o4 a + S1x1x16.size a ≤ S32x8x128.size a) (h5 : ∀ a, o5 a + S1x1x16.size a ≤ S32x8x128.size a) (h6 : ∀ a, o6 a + S1x1x16.size a ≤ S32x8x128.size a) (h7 : ∀ a, o7 a + S1x1x16.size a ≤ S32x8x128.size a)
    (e0 : o0 = ![j.val, kc.val, 16 * (0 : Fin 8).val]) (e1 : o1 = ![j.val, kc.val, 16 * (1 : Fin 8).val]) (e2 : o2 = ![j.val, kc.val, 16 * (2 : Fin 8).val]) (e3 : o3 = ![j.val, kc.val, 16 * (3 : Fin 8).val]) (e4 : o4 = ![j.val, kc.val, 16 * (4 : Fin 8).val]) (e5 : o5 = ![j.val, kc.val, 16 * (5 : Fin 8).val]) (e6 : o6 = ![j.val, kc.val, 16 * (6 : Fin 8).val]) (e7 : o7 = ![j.val, kc.val, 16 * (7 : Fin 8).val]) :
    (Memref.whole cc0_scratch0).view.writes (Elt F) f
      [⟨Rect.unit (s := S32x8x128) o7 S1x1x16.size h7, (shapeCast S1x1x16 (addf (mulf (shapeCast S16 (View.readAt (Elt F) (Memref.whole cc0_scratch0).view (Rect.unit (s := S32x8x128) o7 S1x1x16.size h7).toLoadRect f) shapeCasts_S1x1x16_S16) rcp) pr) shapeCasts_S16_S1x1x16)⟩,
        ⟨Rect.unit (s := S32x8x128) o6 S1x1x16.size h6, (shapeCast S1x1x16 (addf (mulf (shapeCast S16 (View.readAt (Elt F) (Memref.whole cc0_scratch0).view (Rect.unit (s := S32x8x128) o6 S1x1x16.size h6).toLoadRect f) shapeCasts_S1x1x16_S16) rcp) pr) shapeCasts_S16_S1x1x16)⟩,
        ⟨Rect.unit (s := S32x8x128) o5 S1x1x16.size h5, (shapeCast S1x1x16 (addf (mulf (shapeCast S16 (View.readAt (Elt F) (Memref.whole cc0_scratch0).view (Rect.unit (s := S32x8x128) o5 S1x1x16.size h5).toLoadRect f) shapeCasts_S1x1x16_S16) rcp) pr) shapeCasts_S16_S1x1x16)⟩,
        ⟨Rect.unit (s := S32x8x128) o4 S1x1x16.size h4, (shapeCast S1x1x16 (addf (mulf (shapeCast S16 (View.readAt (Elt F) (Memref.whole cc0_scratch0).view (Rect.unit (s := S32x8x128) o4 S1x1x16.size h4).toLoadRect f) shapeCasts_S1x1x16_S16) rcp) pr) shapeCasts_S16_S1x1x16)⟩,
        ⟨Rect.unit (s := S32x8x128) o3 S1x1x16.size h3, (shapeCast S1x1x16 (addf (mulf (shapeCast S16 (View.readAt (Elt F) (Memref.whole cc0_scratch0).view (Rect.unit (s := S32x8x128) o3 S1x1x16.size h3).toLoadRect f) shapeCasts_S1x1x16_S16) rcp) pr) shapeCasts_S16_S1x1x16)⟩,
        ⟨Rect.unit (s := S32x8x128) o2 S1x1x16.size h2, (shapeCast S1x1x16 (addf (mulf (shapeCast S16 (View.readAt (Elt F) (Memref.whole cc0_scratch0).view (Rect.unit (s := S32x8x128) o2 S1x1x16.size h2).toLoadRect f) shapeCasts_S1x1x16_S16) rcp) pr) shapeCasts_S16_S1x1x16)⟩,
        ⟨Rect.unit (s := S32x8x128) o1 S1x1x16.size h1, (shapeCast S1x1x16 (addf (mulf (shapeCast S16 (View.readAt (Elt F) (Memref.whole cc0_scratch0).view (Rect.unit (s := S32x8x128) o1 S1x1x16.size h1).toLoadRect f) shapeCasts_S1x1x16_S16) rcp) pr) shapeCasts_S16_S1x1x16)⟩,
        ⟨Rect.unit (s := S32x8x128) o0 S1x1x16.size h0, (shapeCast S1x1x16 (addf (mulf (shapeCast S16 (View.readAt (Elt F) (Memref.whole cc0_scratch0).view (Rect.unit (s := S32x8x128) o0 S1x1x16.size h0).toLoadRect f) shapeCasts_S1x1x16_S16) rcp) pr) shapeCasts_S16_S1x1x16)⟩]
      = scaleRow f j kc rcp pr := by
  subst e0 e1 e2 e3 e4 e5 e6 e7
  have hh : ∀ (v : Fin 8) (a : Fin 3), (![j.val, kc.val, 16 * v.val] : Fin 3 → ℕ) a + S1x1x16.size a ≤ S32x8x128.size a := by
    intro v a
    have hj := j.isLt
    have hk := kc.isLt
    have hv := v.isLt
    match a with
    | ⟨0, _⟩ => show j.val + 1 ≤ 32; omega
    | ⟨1, _⟩ => show kc.val + 1 ≤ 8; omega
    | ⟨2, _⟩ => show 16 * v.val + 16 ≤ 128; omega
  exact scale_trip0 f j kc rcp pr (fun v => ![j.val, kc.val, 16 * v.val]) hh (fun _ => rfl)

/-- The same with the eight offsets as eight separate names. -/
theorem scale_trip1u (f : S32x8x128.Idx → F .f32) (j : Fin 32) (kc : Fin 8) (rcp pr : FVec F S16 .f32)
    (o0 o1 o2 o3 o4 o5 o6 o7 : Fin 3 → ℕ) (h0 : ∀ a, o0 a + S1x1x16.size a ≤ S32x8x128.size a) (h1 : ∀ a, o1 a + S1x1x16.size a ≤ S32x8x128.size a) (h2 : ∀ a, o2 a + S1x1x16.size a ≤ S32x8x128.size a) (h3 : ∀ a, o3 a + S1x1x16.size a ≤ S32x8x128.size a) (h4 : ∀ a, o4 a + S1x1x16.size a ≤ S32x8x128.size a) (h5 : ∀ a, o5 a + S1x1x16.size a ≤ S32x8x128.size a) (h6 : ∀ a, o6 a + S1x1x16.size a ≤ S32x8x128.size a) (h7 : ∀ a, o7 a + S1x1x16.size a ≤ S32x8x128.size a)
    (e0 : o0 = ![j.val, kc.val, 16 * (0 : Fin 8).val]) (e1 : o1 = ![j.val, kc.val, 16 * (1 : Fin 8).val]) (e2 : o2 = ![j.val, kc.val, 16 * (2 : Fin 8).val]) (e3 : o3 = ![j.val, kc.val, 16 * (3 : Fin 8).val]) (e4 : o4 = ![j.val, kc.val, 16 * (4 : Fin 8).val]) (e5 : o5 = ![j.val, kc.val, 16 * (5 : Fin 8).val]) (e6 : o6 = ![j.val, kc.val, 16 * (6 : Fin 8).val]) (e7 : o7 = ![j.val, kc.val, 16 * (7 : Fin 8).val]) :
    (Memref.whole cc0_scratch1).view.writes (Elt F) f
      [⟨Rect.unit (s := S32x8x128) o7 S1x1x16.size h7, (shapeCast S1x1x16 (addf (mulf (shapeCast S16 (View.readAt (Elt F) (Memref.whole cc0_scratch1).view (Rect.unit (s := S32x8x128) o7 S1x1x16.size h7).toLoadRect f) shapeCasts_S1x1x16_S16) rcp) pr) shapeCasts_S16_S1x1x16)⟩,
        ⟨Rect.unit (s := S32x8x128) o6 S1x1x16.size h6, (shapeCast S1x1x16 (addf (mulf (shapeCast S16 (View.readAt (Elt F) (Memref.whole cc0_scratch1).view (Rect.unit (s := S32x8x128) o6 S1x1x16.size h6).toLoadRect f) shapeCasts_S1x1x16_S16) rcp) pr) shapeCasts_S16_S1x1x16)⟩,
        ⟨Rect.unit (s := S32x8x128) o5 S1x1x16.size h5, (shapeCast S1x1x16 (addf (mulf (shapeCast S16 (View.readAt (Elt F) (Memref.whole cc0_scratch1).view (Rect.unit (s := S32x8x128) o5 S1x1x16.size h5).toLoadRect f) shapeCasts_S1x1x16_S16) rcp) pr) shapeCasts_S16_S1x1x16)⟩,
        ⟨Rect.unit (s := S32x8x128) o4 S1x1x16.size h4, (shapeCast S1x1x16 (addf (mulf (shapeCast S16 (View.readAt (Elt F) (Memref.whole cc0_scratch1).view (Rect.unit (s := S32x8x128) o4 S1x1x16.size h4).toLoadRect f) shapeCasts_S1x1x16_S16) rcp) pr) shapeCasts_S16_S1x1x16)⟩,
        ⟨Rect.unit (s := S32x8x128) o3 S1x1x16.size h3, (shapeCast S1x1x16 (addf (mulf (shapeCast S16 (View.readAt (Elt F) (Memref.whole cc0_scratch1).view (Rect.unit (s := S32x8x128) o3 S1x1x16.size h3).toLoadRect f) shapeCasts_S1x1x16_S16) rcp) pr) shapeCasts_S16_S1x1x16)⟩,
        ⟨Rect.unit (s := S32x8x128) o2 S1x1x16.size h2, (shapeCast S1x1x16 (addf (mulf (shapeCast S16 (View.readAt (Elt F) (Memref.whole cc0_scratch1).view (Rect.unit (s := S32x8x128) o2 S1x1x16.size h2).toLoadRect f) shapeCasts_S1x1x16_S16) rcp) pr) shapeCasts_S16_S1x1x16)⟩,
        ⟨Rect.unit (s := S32x8x128) o1 S1x1x16.size h1, (shapeCast S1x1x16 (addf (mulf (shapeCast S16 (View.readAt (Elt F) (Memref.whole cc0_scratch1).view (Rect.unit (s := S32x8x128) o1 S1x1x16.size h1).toLoadRect f) shapeCasts_S1x1x16_S16) rcp) pr) shapeCasts_S16_S1x1x16)⟩,
        ⟨Rect.unit (s := S32x8x128) o0 S1x1x16.size h0, (shapeCast S1x1x16 (addf (mulf (shapeCast S16 (View.readAt (Elt F) (Memref.whole cc0_scratch1).view (Rect.unit (s := S32x8x128) o0 S1x1x16.size h0).toLoadRect f) shapeCasts_S1x1x16_S16) rcp) pr) shapeCasts_S16_S1x1x16)⟩]
      = scaleRow f j kc rcp pr := by
  subst e0 e1 e2 e3 e4 e5 e6 e7
  have hh : ∀ (v : Fin 8) (a : Fin 3), (![j.val, kc.val, 16 * v.val] : Fin 3 → ℕ) a + S1x1x16.size a ≤ S32x8x128.size a := by
    intro v a
    have hj := j.isLt
    have hk := kc.isLt
    have hv := v.isLt
    match a with
    | ⟨0, _⟩ => show j.val + 1 ≤ 32; omega
    | ⟨1, _⟩ => show kc.val + 1 ≤ 8; omega
    | ⟨2, _⟩ => show 16 * v.val + 16 ≤ 128; omega
  exact scale_trip1 f j kc rcp pr (fun v => ![j.val, kc.val, 16 * v.val]) hh (fun _ => rfl)

end Unrolled

section UpTo

variable (f : S32x8x128.Idx → F .f32) (kc : Fin 8) (rcp pr : FVec F S16 .f32)

/-- After n trips: column group kc of the first n rows scaled and shifted, the rest as it was. -/
theorem scaleUpTo_apply (n : ℕ) (hn : n ≤ 32) (i : S32x8x128.Idx) :
    scaleUpTo f kc rcp pr n i
      = if (i 0).val < n ∧ (i 1).val = kc.val then
          FloatOps.addf (FloatOps.mulf (f i) (rcp (ix1 (⟨(i 2).val % 16, Nat.mod_lt _ (by decide)⟩ : Fin 16)))) (pr (ix1 (⟨(i 2).val % 16, Nat.mod_lt _ (by decide)⟩ : Fin 16)))
        else f i := by
  induction n with
  | zero => rw [if_neg (fun hh => Nat.not_lt_zero _ hh.1)]; rfl
  | succ n ih =>
    have hlt : n < 32 := hn
    show (if h : n < 32 then scaleRow (scaleUpTo f kc rcp pr n) ⟨n, h⟩ kc rcp pr else scaleUpTo f kc rcp pr n) i = _
    rw [dif_pos hlt]
    unfold scaleRow
    show (if (i 0).val = n ∧ (i 1).val = kc.val then _ else scaleUpTo f kc rcp pr n i) = _
    rw [ih (Nat.le_of_succ_le hn)]
    by_cases h1 : (i 0).val = n ∧ (i 1).val = kc.val
    · rw [if_pos h1, if_neg (fun hh => by omega), if_pos ⟨by omega, h1.2⟩]
    · rw [if_neg h1]
      by_cases h2 : (i 0).val < n ∧ (i 1).val = kc.val
      · rw [if_pos h2, if_pos ⟨by omega, h2.2⟩]
      · rw [if_neg h2, if_neg (fun hh => by
          rcases Nat.lt_succ_iff_lt_or_eq.mp hh.1 with h3 | h3
          · exact h2 ⟨h3, hh.2⟩
          · exact h1 ⟨h3, hh.2⟩)]

/-- After all thirty-two trips: column group kc of every row scaled and shifted. -/
theorem scaleUpTo_32 :
    scaleUpTo f kc rcp pr 32
      = fun i => if (i 1).val = kc.val then
          FloatOps.addf (FloatOps.mulf (f i) (rcp (ix1 (⟨(i 2).val % 16, Nat.mod_lt _ (by decide)⟩ : Fin 16)))) (pr (ix1 (⟨(i 2).val % 16, Nat.mod_lt _ (by decide)⟩ : Fin 16)))
        else f i := by
  funext i
  rw [scaleUpTo_apply f kc rcp pr 32 (le_refl _) i]
  have h0 : (i 0).val < 32 := (i 0).isLt
  by_cases h : (i 1).val = kc.val
  · rw [if_pos ⟨h0, h⟩, if_pos h]
  · rw [if_neg (fun hh => h hh.2), if_neg h]

end UpTo

end Cert.Proof.KI

end
-- ==== Proof.KI.ViewLemmas.lean ====
/-
  Reads through the views the SparseCore body makes of the call's arrays, index by index: a `[1, 32, 8, 128]` box of a
  `[4, 32, 128, 128]` array at the offsets `(r, 0, 8 s, 0)`, squeezed to `[32, 8, 128]`, reads at `(j, k, e)` what the array
  reads at `(r, j, 8 s + k, e)`: squeezing matches indices by row-major position, and the box's leading axis has one
  index; a unit-stride rectangle places an index at its offset plus the index.
-/
import proofs.«216181_g9861244912407_cont_9to1_m_1073_40_alg».proof.Proof.KI.TileSpec
import Idealize.ShloMosaic.Lib.Pipeline.Value

noncomputable section

namespace Cert.Proof.KI

open Cert.KernelIdeal Cert.KernelIdeal.Gen
open Idealize.ShloMosaic Idealize.ShloMosaic.ValueIdx

variable {Val : EltTy → Type}

/-- Squeezing the box's unit axis: `(j, k, e)` is the box's `(0, j, k, e)`. -/
theorem squeeze_box (hn : S32x8x128.numel = S1x32x8x128.numel) (j : Fin 32) (k : Fin 8) (e : Fin 128) :
    Shape.reshapeEquiv hn (ix3 j k e : S32x8x128.Idx) = (ix4 (0 : Fin 1) j k e : S1x32x8x128.Idx) :=
  Shape.reshapeEquiv_eq_of_rowMajor hn (by
    rw [Shape.rowMajor_val_three, Shape.rowMajor_val_four]
    show (((0 : ℕ) * 32 + j.val) * 8 + k.val) * 128 + e.val = (j.val * 8 + k.val) * 128 + e.val
    omega)

/-- The box at `(r, 0, 8 s, 0)` places its `(0, j, k, e)` at `(r, j, 8 s + k, e)`. -/
theorem box_emb (o : Fin 4 → ℕ) (h : ∀ a, o a + S1x32x8x128.size a ≤ S4x32x128x128.size a) (r : Fin 4) (s : Fin 16)
    (eo : o = ![r.val, 0, 8 * s.val, 0]) (j : Fin 32) (k : Fin 8) (e : Fin 128) :
    (Rect.unit (s := S4x32x128x128) o S1x32x8x128.size h).emb (ix4 (0 : Fin 1) j k e : S1x32x8x128.Idx)
      = (ix4 r j ⟨8 * s.val + k.val, by have := s.isLt; have := k.isLt; omega⟩ e : S4x32x128x128.Idx) := by
  subst eo
  funext a
  apply Fin.ext
  rw [Rect.emb_apply]
  fin_cases a <;> simp [Rect.unit] <;> rfl

/-- A read through the squeezed box of a view of the array is the view's read at the box's place. -/
theorem read_box {sig : RefSig} {κ : Kind} {sp : Space} {el : EltTy} (v : View sig κ sp S4x32x128x128 el)
    (o : Fin 4 → ℕ) (h : ∀ a, o a + S1x32x8x128.size a ≤ S4x32x128x128.size a) (hn : S32x8x128.numel = S1x32x8x128.numel)
    (r : Fin 4) (s : Fin 16) (eo : o = ![r.val, 0, 8 * s.val, 0]) (f : v.ty.Contents Val) (j : Fin 32) (k : Fin 8) (e : Fin 128) :
    ((v.slice (Rect.unit (s := S4x32x128x128) o S1x32x8x128.size h)).reshape S32x8x128 hn).read Val f (ix3 j k e)
      = v.read Val f (ix4 r j ⟨8 * s.val + k.val, by have := s.isLt; have := k.isLt; omega⟩ e) := by
  rw [View.read_apply, View.read_apply]
  show _root_.cast _ (f (v.emb ((Rect.unit (s := S4x32x128x128) o S1x32x8x128.size h).emb (Shape.reshapeEquiv hn (ix3 j k e))))) = _
  rw [squeeze_box hn j k e, box_emb o h r s eo j k e]

/-- The squeezed box's index `(j, k, e)` sits in the array where the view puts `(r, j, 8 s + k, e)`. -/
theorem emb_box {sig : RefSig} {κ : Kind} {sp : Space} {el : EltTy} (v : View sig κ sp S4x32x128x128 el)
    (o : Fin 4 → ℕ) (h : ∀ a, o a + S1x32x8x128.size a ≤ S4x32x128x128.size a) (hn : S32x8x128.numel = S1x32x8x128.numel)
    (r : Fin 4) (s : Fin 16) (eo : o = ![r.val, 0, 8 * s.val, 0]) (j : Fin 32) (k : Fin 8) (e : Fin 128) :
    ((v.slice (Rect.unit (s := S4x32x128x128) o S1x32x8x128.size h)).reshape S32x8x128 hn).emb (ix3 j k e)
      = v.emb (ix4 r j ⟨8 * s.val + k.val, by have := s.isLt; have := k.isLt; omega⟩ e) := by
  show v.emb ((Rect.unit (s := S4x32x128x128) o S1x32x8x128.size h).emb (Shape.reshapeEquiv hn (ix3 j k e))) = _
  rw [squeeze_box hn j k e, box_emb o h r s eo j k e]

/-- What is written through the whole squeezed box lands at the box's places. -/
theorem write_box {sig : RefSig} {κ : Kind} {sp : Space} {el : EltTy} (v : View sig κ sp S4x32x128x128 el)
    (o : Fin 4 → ℕ) (h : ∀ a, o a + S1x32x8x128.size a ≤ S4x32x128x128.size a) (hn : S32x8x128.numel = S1x32x8x128.numel)
    (r : Fin 4) (s : Fin 16) (eo : o = ![r.val, 0, 8 * s.val, 0]) (f : v.ty.Contents Val) (w : S32x8x128.Idx → Val el)
    (j : Fin 32) (k : Fin 8) (e : Fin 128) :
    ((v.slice (Rect.unit (s := S4x32x128x128) o S1x32x8x128.size h)).reshape S32x8x128 hn).write Val f w Finset.univ
        (v.emb (ix4 r j ⟨8 * s.val + k.val, by have := s.isLt; have := k.isLt; omega⟩ e))
      = _root_.cast (congrArg Val v.elt_eq.symm) (w (ix3 j k e)) := by
  rw [← emb_box v o h hn r s eo j k e, View.write_emb, if_pos (Finset.mem_univ _)]

/-! ### Sixteen lanes of a row -/

/-- A `[1, 1, 16]` piece of a `[32, 8, 128]` buffer at `(j, k, 16 v)`: lane `l` is the buffer's `(j, k, 16 v + l)`. -/
theorem ld_row {α : Type} (X : S32x8x128.Idx → α) (o : Fin 3 → ℕ) (inb : ∀ a, o a + S1x1x16.size a ≤ S32x8x128.size a)
    (j : Fin 32) (k : Fin 8) (v : Fin 8) (eo : o = ![j.val, k.val, 16 * v.val]) (l : Fin 16) :
    X ((Rect.unit (s := S32x8x128) o S1x1x16.size inb).emb (ix3 (0 : Fin 1) (0 : Fin 1) l : S1x1x16.Idx))
      = X (ix3 j k ⟨16 * v.val + l.val, by have := v.isLt; have := l.isLt; omega⟩) := by
  subst eo
  refine congrArg X (funext fun a => Fin.ext ?_)
  rw [Rect.emb_apply]
  fin_cases a <;> simp [Rect.unit] <;> rfl

/-- The sixteen-lane vector and the `[1, 1, 16]` piece name the same lanes. -/
theorem cast16_apply {α : Type} (y : S1x1x16.Idx → α) (h : S1x1x16.ShapeCasts S16) (l : Fin 16) :
    shapeCast S16 y h (ix1 l) = y (ix3 (0 : Fin 1) (0 : Fin 1) l) :=
  shapeCast_apply y h (ix1 l) (ix3 (0 : Fin 1) (0 : Fin 1) l) (by
    rw [Shape.rowMajor_val_one, Shape.rowMajor_val_three]
    show ((0 : ℕ) * 1 + 0) * 16 + l.val = l.val
    omega)
theorem cast1x1x16_apply {α : Type} (a : S16.Idx → α) (h : S16.ShapeCasts S1x1x16) (l : Fin 16) :
    shapeCast S1x1x16 a h (ix3 (0 : Fin 1) (0 : Fin 1) l) = a (ix1 l) :=
  shapeCast_apply a h (ix3 (0 : Fin 1) (0 : Fin 1) l) (ix1 l) (by
    rw [Shape.rowMajor_val_one, Shape.rowMajor_val_three]
    show l.val = ((0 : ℕ) * 1 + 0) * 16 + l.val
    omega)

/-- A sixteen-lane load of row `(j, k)` at lane offset `16 v` of a buffer holding the box of `x` at `(r, ·, 8 s + ·, ·)`, as a
    sixteen-lane vector, is `tLanes x r (8 s + k) j v`. -/
theorem load_lanes {F : FTy → Type} (x : S4x32x128x128.Idx → F .f32) (X : S32x8x128.Idx → Elt F .f32) (r : Fin 4) (s : Fin 16)
    (hX : ∀ (j : Fin 32) (k : Fin 8) (e : Fin 128), X (ix3 j k e) = x (ix4 r j ⟨8 * s.val + k.val, by have := s.isLt; have := k.isLt; omega⟩ e))
    (o : Fin 3 → ℕ) (inb : ∀ a, o a + S1x1x16.size a ≤ S32x8x128.size a) (j : Fin 32) (k : Fin 8) (v : Fin 8)
    (eo : o = ![j.val, k.val, 16 * v.val]) (h : S1x1x16.ShapeCasts S16) :
    shapeCast S16 (View.ld (Val := Elt F) (e' := .f32) X (Rect.unit (s := S32x8x128) o S1x1x16.size inb) : S1x1x16.Idx → F .f32) h
      = tLanes x r ⟨8 * s.val + k.val, by have := s.isLt; have := k.isLt; omega⟩ j v := by
  funext l
  have hl : l = ix1 (n := 16) (l 0) := eq_ix1 (n := 16) l
  refine (congrArg (shapeCast S16 _ h) hl).trans ((cast16_apply _ h (l 0)).trans ?_)
  exact (ld_row X o inb j k v eo (l 0)).trans ((hX _ _ _).trans rfl)

/-! ### A row of a buffer written sixteen lanes at a time -/

section Row

variable {sig : RefSig} {κ : Kind} {sp : Space} {el : EltTy} (v : View sig κ sp S32x8x128 el) (f : v.ty.Contents Val)

/-- Under the last write, a `[1, 1, 16]` piece at `(j, k, 16 lv)`, lane `l` reads the piece's payload at `l`. -/
theorem read_piece_hit (o : Fin 3 → ℕ) (inb : ∀ a, o a + S1x1x16.size a ≤ S32x8x128.size a) (j : Fin 32) (k : Fin 8) (lv : Fin 8)
    (eo : o = ![j.val, k.val, 16 * lv.val]) (w : S1x1x16.Idx → Val el) (L : List (View.Piece Val S32x8x128 el)) (l : Fin 16) :
    v.read Val (v.writes Val f (⟨Rect.unit (s := S32x8x128) o S1x1x16.size inb, w⟩ :: L))
        (ix3 j k ⟨16 * lv.val + l.val, by have := lv.isLt; have := l.isLt; omega⟩)
      = w (ix3 (0 : Fin 1) (0 : Fin 1) l) := by
  have he : (Rect.unit (s := S32x8x128) o S1x1x16.size inb).emb (ix3 (0 : Fin 1) (0 : Fin 1) l : S1x1x16.Idx)
      = (ix3 j k ⟨16 * lv.val + l.val, by have := lv.isLt; have := l.isLt; omega⟩ : S32x8x128.Idx) := by
    subst eo
    refine funext fun a => Fin.ext ?_
    rw [Rect.emb_apply]
    fin_cases a <;> simp [Rect.unit] <;> rfl
  rw [← he]
  exact View.read_writes_cons_emb v f (Rect.unit (s := S32x8x128) o S1x1x16.size inb) w L (ix3 (0 : Fin 1) (0 : Fin 1) l)

/-- Off the last write's piece, the earlier writes are read. -/
theorem read_piece_miss (o : Fin 3 → ℕ) (inb : ∀ a, o a + S1x1x16.size a ≤ S32x8x128.size a) (j k lv : ℕ)
    (eo : o = ![j, k, 16 * lv]) (w : S1x1x16.Idx → Val el) (L : List (View.Piece Val S32x8x128 el)) (i : S32x8x128.Idx)
    (hi : ¬((i 0).val = j ∧ (i 1).val = k ∧ (i 2).val / 16 = lv)) :
    v.read Val (v.writes Val f (⟨Rect.unit (s := S32x8x128) o S1x1x16.size inb, w⟩ :: L)) i = v.read Val (v.writes Val f L) i := by
  rw [View.writes_cons]
  refine View.read_slice_write_of_not_mem _ _ _ _ ?_
  rw [Rect.map_emb_univ, Rect.mem_set_unit]
  intro hall
  apply hi
  subst eo
  have h0 := hall (0 : Fin 3); have h1 := hall (1 : Fin 3); have h2 := hall (2 : Fin 3)
  change j ≤ (i 0).val ∧ (i 0).val < j + 1 at h0
  change k ≤ (i 1).val ∧ (i 1).val < k + 1 at h1
  change 16 * lv ≤ (i 2).val ∧ (i 2).val < 16 * lv + 16 at h2
  refine ⟨by omega, by omega, by omega⟩

/-- The first `n` pieces of a row, the last written first. -/
def rowPieces (o : ℕ → Fin 3 → ℕ) (inb : ∀ m a, o m a + S1x1x16.size a ≤ S32x8x128.size a) (P : ℕ → S1x1x16.Idx → Val el) :
    ℕ → List (View.Piece Val S32x8x128 el)
  | 0 => []
  | n + 1 => ⟨Rect.unit (s := S32x8x128) (o n) S1x1x16.size (inb n), P n⟩ :: rowPieces o inb P n

/-- A buffer after the first `n` sixteen-lane pieces of row `(j, k)` were written: in the row, below lane `16 n`, the piece's
    payload at the lane; everywhere else what it held. -/
theorem read_rowPieces (o : ℕ → Fin 3 → ℕ) (inb : ∀ m a, o m a + S1x1x16.size a ≤ S32x8x128.size a) (P : ℕ → S1x1x16.Idx → Val el)
    (j : Fin 32) (k : Fin 8) (ho : ∀ m, m < 8 → o m = ![j.val, k.val, 16 * m]) :
    ∀ (n : ℕ), n ≤ 8 → ∀ (i : S32x8x128.Idx),
      v.read Val (v.writes Val f (rowPieces o inb P n)) i
        = if (i 0).val = j.val ∧ (i 1).val = k.val ∧ (i 2).val / 16 < n
          then P ((i 2).val / 16) (ix3 (0 : Fin 1) (0 : Fin 1) ⟨(i 2).val % 16, Nat.mod_lt _ (by decide)⟩) else v.read Val f i
  | 0, _, i => by
    rw [if_neg (fun h => absurd h.2.2 (Nat.not_lt_zero _))]; rfl
  | n + 1, hn, i => by
    have hi2 : (i 2).val < 128 := (i 2).isLt
    by_cases hit : (i 0).val = j.val ∧ (i 1).val = k.val ∧ (i 2).val / 16 = n
    · obtain ⟨h0, h1, h2⟩ := hit
      rw [if_pos ⟨h0, h1, by omega⟩]
      have hi : i = (ix3 j k ⟨16 * (⟨n, by omega⟩ : Fin 8).val + (⟨(i 2).val % 16, Nat.mod_lt _ (by decide)⟩ : Fin 16).val, by
          show 16 * n + (i 2).val % 16 < 128; omega⟩ : S32x8x128.Idx) := by
        refine funext fun a => Fin.ext ?_
        fin_cases a
        · exact h0
        · exact h1
        · show (i 2).val = 16 * n + (i 2).val % 16; omega
      show v.read Val (v.writes Val f (⟨Rect.unit (s := S32x8x128) (o n) S1x1x16.size (inb n), P n⟩ :: rowPieces o inb P n)) i = _
      conv_lhs => rw [hi]
      rw [read_piece_hit v f (o n) (inb n) j k ⟨n, by omega⟩ (ho n (by omega)) (P n) _ ⟨(i 2).val % 16, Nat.mod_lt _ (by decide)⟩, h2]
    · show v.read Val (v.writes Val f (⟨Rect.unit (s := S32x8x128) (o n) S1x1x16.size (inb n), P n⟩ :: rowPieces o inb P n)) i = _
      rw [read_piece_miss v f (o n) (inb n) j.val k.val n (ho n (by omega)) (P n) _ i hit, read_rowPieces o inb P j k ho n (by omega) i]
      by_cases hr : (i 0).val = j.val ∧ (i 1).val = k.val
      · have hne : (i 2).val / 16 ≠ n := fun e => hit ⟨hr.1, hr.2, e⟩
        by_cases hlt : (i 2).val / 16 < n
        · rw [if_pos ⟨hr.1, hr.2, hlt⟩, if_pos ⟨hr.1, hr.2, by omega⟩]
        · rw [if_neg (fun h => hlt h.2.2), if_neg (fun h => by have := h.2.2; omega)]
      · rw [if_neg (fun h => hr ⟨h.1, h.2.1⟩), if_neg (fun h => hr ⟨h.1, h.2.1⟩)]

end Row

/-! ### The shapes the body's own views take -/

section Body

variable {F : FTy → Type} [FloatOps F]

/-- A copy in from the squeezed box of the input array moves, to `(j, k, e)`, the array's `(r, j, 8 s + k, e)`. -/
theorem in_box_read' (o : Fin 4 → ℕ) (h : ∀ a, o a + S1x32x8x128.size a ≤ S4x32x128x128.size a) (r : Fin 4) (s : Fin 16)
    (e : o = ![r.val, 0, 8 * s.val, 0]) (x : S4x32x128x128.Idx → F .f32) (j : Fin 32) (k : Fin 8) (c : Fin 128) :
    ReadAs.same.apply (View.read (Elt F) (((Memref.whole main_v5_scv : Memref sig .scVector .hbm S4x32x128x128 .f32).slice
        (Rect.unit (s := S4x32x128x128) o S1x32x8x128.size h) (fun _ => rfl)).squeeze S32x8x128 squeezes_S1x32x8x128_S32x8x128).view x) (ix3 j k c)
      = x (ix4 r j ⟨8 * s.val + k.val, by have := s.isLt; have := k.isLt; omega⟩ c) :=
  read_box (Val := Elt F) (View.whole main_v5_scv) o h squeezes_S1x32x8x128_S32x8x128.numel_eq r s e x j k c

theorem in_box_read (o : Fin 4 → ℕ) (h : ∀ a, o a + S1x32x8x128.size a ≤ S4x32x128x128.size a) (r : Fin 4) (s : Fin 16)
    (e : o = ![r.val, 0, 8 * s.val, 0]) (x : S4x32x128x128.Idx → F .f32) (i : S32x8x128.Idx) :
    ReadAs.same.apply (View.read (Elt F) (((Memref.whole main_v5_scv : Memref sig .scVector .hbm S4x32x128x128 .f32).slice
        (Rect.unit (s := S4x32x128x128) o S1x32x8x128.size h) (fun _ => rfl)).squeeze S32x8x128 squeezes_S1x32x8x128_S32x8x128).view x) i
      = x (ix4 r (i 0) ⟨8 * s.val + (i 1).val, by have := s.isLt; have : (i 1).val < 8 := (i 1).isLt; omega⟩ (i 2)) := by
  have hi : i = ix3 (n0 := 32) (n1 := 8) (n2 := 128) (i 0) (i 1) (i 2) := eq_ix3 (n0 := 32) (n1 := 8) (n2 := 128) i
  conv_lhs => rw [hi]
  exact in_box_read' (F := F) o h r s e x (i 0) (i 1) (i 2)

/-- A sixteen-lane load of a whole `[32, 8, 128]` scratch buffer at offsets `o`, as a sixteen-lane vector: lane `l` is the
    buffer's `(o 0, o 1, o 2 + l)`. -/
theorem load_lanes0 (o : Fin 3 → ℕ) (h : ∀ a, o a + S1x1x16.size a ≤ S32x8x128.size a) (f : S32x8x128.Idx → F .f32) (l : S16.Idx) :
    shapeCast S16 (View.readAt (Elt F) (Memref.whole cc0_scratch0).view (Rect.unit (s := S32x8x128) o S1x1x16.size h).toLoadRect f) shapeCasts_S1x1x16_S16 l
      = f (ix3 ⟨o 0, by have := h (0 : Fin 3); change o 0 + 1 ≤ 32 at this; omega⟩ ⟨o 1, by have := h (1 : Fin 3); change o 1 + 1 ≤ 8 at this; omega⟩
          ⟨o 2 + (l 0).val, by have := h (2 : Fin 3); change o 2 + 16 ≤ 128 at this; have : (l 0).val < 16 := (l 0).isLt; omega⟩) := by
  have hl : l = ix1 (n := 16) (l 0) := eq_ix1 (n := 16) l
  refine (congrArg (shapeCast S16 _ shapeCasts_S1x1x16_S16) hl).trans ((cast16_apply _ shapeCasts_S1x1x16_S16 (l 0)).trans ?_)
  show f ((Rect.unit (s := S32x8x128) o S1x1x16.size h).idx (ix3 (0 : Fin 1) (0 : Fin 1) (l 0))) = _
  refine congrArg f (funext fun a => Fin.ext ?_)
  rw [LoadRect.idx_apply]
  fin_cases a <;> simp [Rect.unit, Rect.toLoadRect]

theorem load_lanes1 (o : Fin 3 → ℕ) (h : ∀ a, o a + S1x1x16.size a ≤ S32x8x128.size a) (f : S32x8x128.Idx → F .f32) (l : S16.Idx) :
    shapeCast S16 (View.readAt (Elt F) (Memref.whole cc0_scratch1).view (Rect.unit (s := S32x8x128) o S1x1x16.size h).toLoadRect f) shapeCasts_S1x1x16_S16 l
      = f (ix3 ⟨o 0, by have := h (0 : Fin 3); change o 0 + 1 ≤ 32 at this; omega⟩ ⟨o 1, by have := h (1 : Fin 3); change o 1 + 1 ≤ 8 at this; omega⟩
          ⟨o 2 + (l 0).val, by have := h (2 : Fin 3); change o 2 + 16 ≤ 128 at this; have : (l 0).val < 16 := (l 0).isLt; omega⟩) := by
  have hl : l = ix1 (n := 16) (l 0) := eq_ix1 (n := 16) l
  refine (congrArg (shapeCast S16 _ shapeCasts_S1x1x16_S16) hl).trans ((cast16_apply _ shapeCasts_S1x1x16_S16 (l 0)).trans ?_)
  show f ((Rect.unit (s := S32x8x128) o S1x1x16.size h).idx (ix3 (0 : Fin 1) (0 : Fin 1) (l 0))) = _
  refine congrArg f (funext fun a => Fin.ext ?_)
  rw [LoadRect.idx_apply]
  fin_cases a <;> simp [Rect.unit, Rect.toLoadRect]

/-- A whole buffer written whole holds what was written. -/
theorem whole_writes_whole (b : Ref sig .scVector) (f w : b.ty.Contents (Elt F)) :
    (Memref.whole b).view.writes (Elt F) f [⟨Rect.whole b.ty.shape, w⟩] = w := by
  funext i
  have hw := View.write_emb (Val := Elt F) (v := (View.whole b).slice (Rect.whole b.ty.shape)) f w Finset.univ i
  rw [if_pos (Finset.mem_univ _)] at hw
  have he : ((View.whole b).slice (Rect.whole b.ty.shape)).emb i = i := by
    show (Rect.whole b.ty.shape).emb i = i
    rw [Rect.emb_whole_apply]
  rw [he] at hw
  exact hw

/-- Membership in a tile's box, coordinate by coordinate. -/
theorem mem_tileSet (s : Fin 16) (r : Fin 4) (i : S4x32x128x128.Idx) (hi : i ∈ tileSet s r) :
    (i 0).val = r.val ∧ 8 * s.val ≤ (i 2).val ∧ (i 2).val < 8 * s.val + 8 := by
  have hm : i ∈ (tileRect s r).set := hi
  rw [LoadRect.mem_set] at hm
  obtain ⟨j0, hj0, e0⟩ := hm (0 : Fin 4)
  obtain ⟨j2, hj2, e2⟩ := hm (2 : Fin 4)
  change j0 < 1 at hj0
  change j2 < 8 at hj2
  change (i 0).val = r.val + 1 * j0 at e0
  change (i 2).val = 8 * s.val + 1 * j2 at e2
  omega

/-- A copy out through the squeezed box of the output array puts the buffer's `(j, k, c)` at the array's
    `(r, j, 8 s + k, c)`. -/
theorem out_box_writes (o : Fin 4 → ℕ) (h : ∀ a, o a + S1x32x8x128.size a ≤ S4x32x128x128.size a) (r : Fin 4) (s : Fin 16)
    (e : o = ![r.val, 0, 8 * s.val, 0]) (fo : S4x32x128x128.Idx → F .f32) (w : S32x8x128.Idx → F .f32) (j : Fin 32) (k : Fin 8) (c : Fin 128) :
    (((Memref.whole main_v6_0_scv : Memref sig .scVector .hbm S4x32x128x128 .f32).slice
        (Rect.unit (s := S4x32x128x128) o S1x32x8x128.size h) (fun _ => rfl)).squeeze S32x8x128 squeezes_S1x32x8x128_S32x8x128).view.writes (Elt F) fo
        [⟨Rect.whole S32x8x128, w⟩] (ix4 r j ⟨8 * s.val + k.val, by have := s.isLt; have := k.isLt; omega⟩ c)
      = w (ix3 j k c) := by
  have he := emb_box (View.whole main_v6_0_scv) o h squeezes_S1x32x8x128_S32x8x128.numel_eq r s e j k c
  rw [View.writes_singleton]
  have hw := View.write_emb (Val := Elt F) (v := ((((View.whole main_v6_0_scv).slice (Rect.unit (s := S4x32x128x128) o S1x32x8x128.size h)).reshape S32x8x128
      squeezes_S1x32x8x128_S32x8x128.numel_eq).slice (Rect.whole S32x8x128))) fo w Finset.univ (ix3 j k c)
  rw [if_pos (Finset.mem_univ _)] at hw
  have he2 : ((((View.whole main_v6_0_scv).slice (Rect.unit (s := S4x32x128x128) o S1x32x8x128.size h)).reshape S32x8x128
      squeezes_S1x32x8x128_S32x8x128.numel_eq).slice (Rect.whole S32x8x128)).emb (ix3 j k c)
      = (ix4 r j ⟨8 * s.val + k.val, by have := s.isLt; have := k.isLt; omega⟩ c : S4x32x128x128.Idx) := by
    show (((View.whole main_v6_0_scv).slice (Rect.unit (s := S4x32x128x128) o S1x32x8x128.size h)).reshape S32x8x128
      squeezes_S1x32x8x128_S32x8x128.numel_eq).emb ((Rect.whole S32x8x128).emb (ix3 j k c)) = _
    rw [Rect.emb_whole_apply]; exact he
  rw [he2] at hw
  exact hw

/-- The same at any index of the tile's box. -/
theorem out_box_at (o : Fin 4 → ℕ) (h : ∀ a, o a + S1x32x8x128.size a ≤ S4x32x128x128.size a) (r : Fin 4) (s : Fin 16)
    (e : o = ![r.val, 0, 8 * s.val, 0]) (fo : S4x32x128x128.Idx → F .f32) (w : S32x8x128.Idx → F .f32) (i : S4x32x128x128.Idx)
    (hi : i ∈ tileSet s r) :
    (((Memref.whole main_v6_0_scv : Memref sig .scVector .hbm S4x32x128x128 .f32).slice
        (Rect.unit (s := S4x32x128x128) o S1x32x8x128.size h) (fun _ => rfl)).squeeze S32x8x128 squeezes_S1x32x8x128_S32x8x128).view.writes (Elt F) fo
        [⟨Rect.whole S32x8x128, w⟩] i
      = w (ix3 (i 1) ⟨(i 2).val - 8 * s.val, by have := mem_tileSet s r i hi; omega⟩ (i 3)) := by
  obtain ⟨h0, h2, h2'⟩ := mem_tileSet s r i hi
  have hi' : i = (ix4 r (i 1) ⟨8 * s.val + ((i 2).val - 8 * s.val), by omega⟩ (i 3) : S4x32x128x128.Idx) := by
    funext a
    apply Fin.ext
    fin_cases a
    · exact h0
    · rfl
    · show (i 2).val = 8 * s.val + ((i 2).val - 8 * s.val); omega
    · rfl
  conv_lhs => rw [hi']
  exact out_box_writes o h r s e fo w (i 1) ⟨(i 2).val - 8 * s.val, by omega⟩ (i 3)

end Body

end Cert.Proof.KI

end
-- ==== Proof.Lanes.lean ====
/-
  A sixteen-lane vector assembled lane by lane: selecting, for k = 0 … 7 in turn, the k-th value on the lane whose
  number is k and the vector built so far elsewhere leaves, on lane l, the l-th value when l is below eight and the
  starting vector's lane otherwise.
-/
import Idealize.ShloMosaic.Lib.Pipeline.Value
import Idealize.ShloMosaic.Lib.ValueIdx
import Idealize.ShloMosaic.Lib.Affine

noncomputable section

namespace Cert.Proof.Lanes

open Idealize.ShloMosaic Idealize.ShloMosaic.ValueIdx

abbrev L16 : Shape := ⟨1, ![16]⟩

variable {α : Type}

/-- One step: on the lane whose number is k the new value, elsewhere the vector so far. -/
theorem select_lane_step (h : L16.Iotas .scVector 32 [0]) (k : Nat) (hk : k < 16) (a prev : L16.Idx → α) (l : Fin 16) :
    select (cmpi .eq (iota .scVector L16 32 [0] h) (broadcast L16 (BitVec.ofNat 32 k))) a prev (ix1 l)
      = if l.val = k then a (ix1 l) else prev (ix1 l) := by
  show Scalar.select (IntOp.cmpi .eq (iota .scVector L16 32 [0] h (ix1 l)) (BitVec.ofNat 32 k)) (a (ix1 l)) (prev (ix1 l)) = _
  rw [iota_single_apply]
  have hl := l.isLt
  by_cases e : l.val = k
  · rw [if_pos e]
    have h1 : IntOp.cmpi .eq (BitVec.ofNat 32 ((ix1 l : L16.Idx) 0).val) (BitVec.ofNat 32 k) = 1#1 :=
      IntOp.cmpi_eq.2 (by show BitVec.ofNat 32 l.val = BitVec.ofNat 32 k; rw [e])
    rw [h1]; exact select_one _ _
  · rw [if_neg e]
    have h0 : IntOp.cmpi .eq (BitVec.ofNat 32 ((ix1 l : L16.Idx) 0).val) (BitVec.ofNat 32 k) = 0#1 :=
      eq_zero_of_ne_one fun h1 => e (by
        have h2 : BitVec.ofNat 32 l.val = BitVec.ofNat 32 k := IntOp.cmpi_eq.1 h1
        have h3 := congrArg BitVec.toNat h2
        rw [BitVec.toNat_ofNat, BitVec.toNat_ofNat] at h3
        omega)
    rw [h0]; exact select_zero _ _

/-- Eight steps, from lane number 0 to lane number 7. -/
theorem select_lanes8 (h : L16.Iotas .scVector 32 [0]) (z : L16.Idx → α) (r : Fin 8 → L16.Idx → α) (l : Fin 16) :
    select (cmpi .eq (iota .scVector L16 32 [0] h) (broadcast L16 7#32)) (r 7)
      (select (cmpi .eq (iota .scVector L16 32 [0] h) (broadcast L16 6#32)) (r 6)
      (select (cmpi .eq (iota .scVector L16 32 [0] h) (broadcast L16 5#32)) (r 5)
      (select (cmpi .eq (iota .scVector L16 32 [0] h) (broadcast L16 4#32)) (r 4)
      (select (cmpi .eq (iota .scVector L16 32 [0] h) (broadcast L16 3#32)) (r 3)
      (select (cmpi .eq (iota .scVector L16 32 [0] h) (broadcast L16 2#32)) (r 2)
      (select (cmpi .eq (iota .scVector L16 32 [0] h) (broadcast L16 1#32)) (r 1)
      (select (cmpi .eq (iota .scVector L16 32 [0] h) (broadcast L16 0#32)) (r 0) z))))))) (ix1 l)
      = if hl : l.val < 8 then r ⟨l.val, hl⟩ (ix1 l) else z (ix1 l) := by
  rw [select_lane_step h 7 (by decide), select_lane_step h 6 (by decide), select_lane_step h 5 (by decide),
    select_lane_step h 4 (by decide), select_lane_step h 3 (by decide), select_lane_step h 2 (by decide),
    select_lane_step h 1 (by decide), select_lane_step h 0 (by decide)]
  obtain ⟨l, hl⟩ := l
  interval_cases l <;> rfl

end Cert.Proof.Lanes

end
-- ==== Proof.KI.RowLemmas.lean ====
/-
  The remaining reads of the SparseCore body's views, index by index: a sixteen-lane row stored into the `[4, 16]`
  row-sum scratch lands on its row and leaves the other rows; the row-sum scratch copied out through subcore `s`'s
  `[4, 1, 1, 16]` box of the `[4, 1, 16, 16]` array, squeezed, puts its `(ρ, l)` at `(ρ, 0, s, l)`; the pseudocount
  vector copied into its scratch and loaded back whole is itself, and its first lane taken out is its value at lane 0;
  and the row of row sums built by eight lane selections holds the specification's row.
-/
import proofs.«216181_g9861244912407_cont_9to1_m_1073_40_alg».proof.Proof.KI.ViewLemmas
import proofs.«216181_g9861244912407_cont_9to1_m_1073_40_alg».proof.Proof.KI.BoxLemmas
import proofs.«216181_g9861244912407_cont_9to1_m_1073_40_alg».proof.Proof.Lanes

noncomputable section

namespace Cert.Proof.KI

open Cert.KernelIdeal Cert.KernelIdeal.Gen
open Idealize.ShloMosaic Idealize.ShloMosaic.ValueIdx

variable {Val : EltTy → Type}

/-! ### A row of the row-sum scratch -/

section RsRow

variable {sig : RefSig} {κ : Kind} {sp : Space} {el : EltTy} (v : View sig κ sp S4x16 el) (g : v.ty.Contents Val)

/-- After a sixteen-lane row stored at row `ρ0`: that row reads the stored row, the others what was there. -/
theorem read_rsrow_write (o : Fin 2 → ℕ) (h : ∀ a, o a + S1x16.size a ≤ S4x16.size a) (ρ0 : ℕ) (eo : o = ![ρ0, 0])
    (w : S1x16.Idx → Val el) (L : List (View.Piece Val S4x16 el)) (ρ : Fin 4) (l : Fin 16) :
    v.read Val (v.writes Val g (⟨Rect.unit (s := S4x16) o S1x16.size h, w⟩ :: L)) (ix2 ρ l)
      = if ρ.val = ρ0 then w (ix2 (0 : Fin 1) l) else v.read Val (v.writes Val g L) (ix2 ρ l) := by
  by_cases hρ : ρ.val = ρ0
  · rw [if_pos hρ]
    have he : (Rect.unit (s := S4x16) o S1x16.size h).emb (ix2 (0 : Fin 1) l : S1x16.Idx) = (ix2 ρ l : S4x16.Idx) := by
      subst eo
      refine funext fun a => Fin.ext ?_
      rw [Rect.emb_apply]
      fin_cases a
      · show ρ0 + 1 * 0 = ρ.val; omega
      · show 0 + 1 * l.val = l.val; omega
    rw [← he]
    exact View.read_writes_cons_emb v g (Rect.unit (s := S4x16) o S1x16.size h) w L (ix2 (0 : Fin 1) l)
  · rw [if_neg hρ, View.writes_cons]
    refine View.read_slice_write_of_not_mem _ _ _ _ ?_
    rw [Rect.map_emb_univ, Rect.mem_set_unit]
    intro hall
    apply hρ
    subst eo
    have h0 := hall (0 : Fin 2)
    change ρ0 ≤ ρ.val ∧ ρ.val < ρ0 + 1 at h0
    omega

end RsRow

section Body

variable {F : FTy → Type} [FloatOps F]

/-- One row stored into the row-sum scratch. -/
theorem rs_row_write (g : S4x16.Idx → F .f32) (o : Fin 2 → ℕ) (h : ∀ a, o a + S1x16.size a ≤ S4x16.size a) (ρ0 : ℕ) (eo : o = ![ρ0, 0])
    (w : S1x16.Idx → F .f32) (ρ : Fin 4) (l : Fin 16) :
    (Memref.whole cc0_scratch3).view.writes (Elt F) g [⟨Rect.unit (s := S4x16) o S1x16.size h, w⟩] (ix2 ρ l)
      = if ρ.val = ρ0 then w (ix2 (0 : Fin 1) l) else g (ix2 ρ l) :=
  read_rsrow_write (Val := Elt F) (View.whole cc0_scratch3) g o h ρ0 eo w [] ρ l

/-- The two rows a trip stores: rows `2 k` and `2 k + 1`. -/
theorem rs_rows_write (g : S4x16.Idx → F .f32) (o1 o0 : Fin 2 → ℕ) (h1 : ∀ a, o1 a + S1x16.size a ≤ S4x16.size a)
    (h0 : ∀ a, o0 a + S1x16.size a ≤ S4x16.size a) (k : ℕ) (e0 : o0 = ![2 * k, 0]) (e1 : o1 = ![2 * k + 1, 0])
    (w1 w0 : S1x16.Idx → F .f32) (ρ : Fin 4) (l : Fin 16) :
    (Memref.whole cc0_scratch3).view.writes (Elt F) g [⟨Rect.unit (s := S4x16) o1 S1x16.size h1, w1⟩, ⟨Rect.unit (s := S4x16) o0 S1x16.size h0, w0⟩] (ix2 ρ l)
      = if ρ.val = 2 * k + 1 then w1 (ix2 (0 : Fin 1) l) else if ρ.val = 2 * k then w0 (ix2 (0 : Fin 1) l) else g (ix2 ρ l) := by
  have h := read_rsrow_write (Val := Elt F) (View.whole cc0_scratch3) g o1 h1 (2 * k + 1) e1 w1 [⟨Rect.unit (s := S4x16) o0 S1x16.size h0, w0⟩] ρ l
  rw [read_rsrow_write (Val := Elt F) (View.whole cc0_scratch3) g o0 h0 (2 * k) e0 w0 [] ρ l] at h
  exact h

/-! ### The row-sum copy out -/

/-- Squeezing the `[4, 1, 1, 16]` box: `(ρ, l)` is its `(ρ, 0, 0, l)`. -/
theorem squeeze_rsbox (hn : S4x16.numel = S4x1x1x16.numel) (ρ : Fin 4) (l : Fin 16) :
    Shape.reshapeEquiv hn (ix2 ρ l : S4x16.Idx) = (ix4 ρ (0 : Fin 1) (0 : Fin 1) l : S4x1x1x16.Idx) :=
  Shape.reshapeEquiv_eq_of_rowMajor hn (by
    rw [Shape.rowMajor_val_two, Shape.rowMajor_val_four]
    show ((ρ.val * 1 + 0) * 1 + 0) * 16 + l.val = ρ.val * 16 + l.val
    omega)

/-- Membership in subcore `s`'s rows of the row-sum array. -/
theorem mem_rsSet (s : Fin 16) (i : S4x1x16x16.Idx) (hi : i ∈ rsSet s) : (i 1).val = 0 ∧ (i 2).val = s.val := by
  have hm : i ∈ (rsRect s).set := hi
  rw [Rect.mem_set_unit] at hm
  have h1 := hm (1 : Fin 4); have h2 := hm (2 : Fin 4)
  change 0 ≤ (i 1).val ∧ (i 1).val < 0 + 1 at h1
  change s.val ≤ (i 2).val ∧ (i 2).val < s.val + 1 at h2
  omega

/-- The row-sum scratch copied out through subcore `s`'s squeezed box: the array's `(ρ, 0, s, l)` takes the scratch's `(ρ, l)`. -/
theorem rs_box_writes (o : Fin 4 → ℕ) (h : ∀ a, o a + S4x1x1x16.size a ≤ S4x1x16x16.size a) (s : Fin 16) (e : o = ![0, 0, s.val, 0])
    (fo : S4x1x16x16.Idx → F .f32) (w : S4x16.Idx → F .f32) (ρ : Fin 4) (l : Fin 16) :
    (((Memref.whole main_v6_1_scv : Memref sig .scVector .hbm S4x1x16x16 .f32).slice
        (Rect.unit (s := S4x1x16x16) o S4x1x1x16.size h) (fun _ => rfl)).squeeze S4x16 squeezes_S4x1x1x16_S4x16).view.writes (Elt F) fo
        [⟨Rect.whole S4x16, w⟩] (ix4 ρ (0 : Fin 1) s l)
      = w (ix2 ρ l) := by
  rw [View.writes_singleton]
  have hw := View.write_emb (Val := Elt F) (v := ((((View.whole main_v6_1_scv).slice (Rect.unit (s := S4x1x16x16) o S4x1x1x16.size h)).reshape S4x16
      squeezes_S4x1x1x16_S4x16.numel_eq).slice (Rect.whole S4x16))) fo w Finset.univ (ix2 ρ l)
  rw [if_pos (Finset.mem_univ _)] at hw
  have he2 : ((((View.whole main_v6_1_scv).slice (Rect.unit (s := S4x1x16x16) o S4x1x1x16.size h)).reshape S4x16
      squeezes_S4x1x1x16_S4x16.numel_eq).slice (Rect.whole S4x16)).emb (ix2 ρ l) = (ix4 ρ (0 : Fin 1) s l : S4x1x16x16.Idx) := by
    show (Rect.unit (s := S4x1x16x16) o S4x1x1x16.size h).emb (Shape.reshapeEquiv squeezes_S4x1x1x16_S4x16.numel_eq ((Rect.whole S4x16).emb (ix2 ρ l))) = _
    rw [Rect.emb_whole_apply, squeeze_rsbox]
    subst e
    refine funext fun a => Fin.ext ?_
    rw [Rect.emb_apply]
    fin_cases a <;> simp [Rect.unit] <;> rfl
  rw [he2] at hw
  exact hw

/-- The same at any index of subcore `s`'s rows. -/
theorem rs_box_at (o : Fin 4 → ℕ) (h : ∀ a, o a + S4x1x1x16.size a ≤ S4x1x16x16.size a) (s : Fin 16) (e : o = ![0, 0, s.val, 0])
    (fo : S4x1x16x16.Idx → F .f32) (w : S4x16.Idx → F .f32) (i : S4x1x16x16.Idx) (hi : i ∈ rsSet s) :
    (((Memref.whole main_v6_1_scv : Memref sig .scVector .hbm S4x1x16x16 .f32).slice
        (Rect.unit (s := S4x1x16x16) o S4x1x1x16.size h) (fun _ => rfl)).squeeze S4x16 squeezes_S4x1x1x16_S4x16).view.writes (Elt F) fo
        [⟨Rect.whole S4x16, w⟩] i
      = w (ix2 (i 0) (i 3)) := by
  obtain ⟨h1, h2⟩ := mem_rsSet s i hi
  have hi' : i = (ix4 (i 0) (0 : Fin 1) s (i 3) : S4x1x16x16.Idx) := by
    refine funext fun a => Fin.ext ?_
    fin_cases a
    · rfl
    · exact h1
    · exact h2
    · rfl
  conv_lhs => rw [hi']
  exact rs_box_writes o h s e fo w (i 0) (i 3)

/-! ### The pseudocount vector's scratch -/

theorem pc_copy_in (f0 p : S16.Idx → F .f32) :
    View.write (Elt F) (Memref.whole cc0_scratch2).view f0 (ReadAs.same.apply (View.read (Elt F) (Memref.whole main_v2_scv).view p)) Finset.univ = p := by
  show View.write (Elt F) (View.whole cc0_scratch2) f0 p Finset.univ = p
  exact View.write_whole_univ (Val := Elt F) cc0_scratch2 f0 p

theorem z1 : (![0] : Fin 1 → ℕ) = fun _ => 0 := by funext a; fin_cases a; rfl

theorem pc_load (p : S16.Idx → F .f32) (inb : ∀ a, (![0] : Fin 1 → ℕ) a + S16.size a ≤ S16.size a) :
    View.readAt (Elt F) (Memref.whole cc0_scratch2).view (Rect.unit (s := S16) ![0] S16.size inb).toLoadRect p = p :=
  View.ld_unit_zero (Val := Elt F) (S := S16) (e := .f32) z1 inb p

theorem pc_cast (p : S16.Idx → F .f32) (h : S16.ShapeCasts S16) : shapeCast S16 p h = p := shapeCast_self p h

/-- The pseudocount: the vector's first lane, as the kernel takes it out. -/
theorem pay364_eq (v1 : Vec F S16 .f32) : k0_pay364 v1 = v1 (ix1 (0 : Fin 16)) := by
  unfold k0_pay364
  rw [shapeCast_self]
  exact leafP v1 0 (by decide) _ _

/-! ### The row of row sums -/

/-- Eight lane selections from the zero vector: lane `l < 8` holds the `l`-th row sum, the upper lanes zero. -/
theorem selRs_chain (pc0 : F .f32) (a : Fin 8 → FVec F S16 .f32) (l : Fin 16) :
    (selRs (iota .scVector S16 32 [0] iota_S16_d0_w32_scVector) 7 (rsVOf pc0 (a 7))
      (selRs (iota .scVector S16 32 [0] iota_S16_d0_w32_scVector) 6 (rsVOf pc0 (a 6))
      (selRs (iota .scVector S16 32 [0] iota_S16_d0_w32_scVector) 5 (rsVOf pc0 (a 5))
      (selRs (iota .scVector S16 32 [0] iota_S16_d0_w32_scVector) 4 (rsVOf pc0 (a 4))
      (selRs (iota .scVector S16 32 [0] iota_S16_d0_w32_scVector) 3 (rsVOf pc0 (a 3))
      (selRs (iota .scVector S16 32 [0] iota_S16_d0_w32_scVector) 2 (rsVOf pc0 (a 2))
      (selRs (iota .scVector S16 32 [0] iota_S16_d0_w32_scVector) 1 (rsVOf pc0 (a 1))
      (selRs (iota .scVector S16 32 [0] iota_S16_d0_w32_scVector) 0 (rsVOf pc0 (a 0))
        (broadcast S16 (Scalar.ofBits .f32 0x00000000#32)))))))))) (ix1 l)
      = if h : l.val < 8 then rsOf pc0 (a ⟨l.val, h⟩) else Scalar.ofBits .f32 0x00000000#32 := by
  unfold selRs
  exact Lanes.select_lanes8 iota_S16_d0_w32_scVector (broadcast S16 (Scalar.ofBits .f32 0x00000000#32)) (fun k => rsVOf pc0 (a k)) l

/-- With the box's lane sums, that row is the specification's. -/
theorem rsRow_box (x : S4x32x128x128.Idx → F .f32) (p : S16.Idx → F .f32) (r : Fin 4) (s : Fin 16) (l : Fin 16) :
    (if h : l.val < 8 then rsOf (p (ix1 (0 : Fin 16))) (accB (boxOf x r s) ⟨l.val, h⟩ 32) else Scalar.ofBits .f32 0x00000000#32)
      = tRsRowF x p (ix4 r (0 : Fin 1) s l) := by
  unfold tRsRowF
  by_cases h : l.val < 8
  · rw [dif_pos h, dif_pos (show ((ix4 r (0 : Fin 1) s l : S4x1x16x16.Idx) 3).val < 8 from h), rsOf_box]
  · rw [dif_neg h, dif_neg (show ¬ ((ix4 r (0 : Fin 1) s l : S4x1x16x16.Idx) 3).val < 8 from h)]

end Body

end Cert.Proof.KI

end
-- ==== Proof.KI.BoxLemmasB.lean ====
/-
  The closing facts of a subcore's task, from the box lemmas: a buffer that holds the specification's values for the
  box, copied out through the box's view, leaves the specification's values on the tile's part of the output array; the
  row of row sums a buffer's eight groups leave is the specification's row.
-/
import proofs.«216181_g9861244912407_cont_9to1_m_1073_40_alg».proof.Proof.KI.BoxSpecB
import proofs.«216181_g9861244912407_cont_9to1_m_1073_40_alg».proof.Proof.KI.RowLemmas

noncomputable section

namespace Cert.Proof.KI

open Cert.KernelIdeal Cert.KernelIdeal.Gen
open Idealize.ShloMosaic Idealize.ShloMosaic.ValueIdx

variable {F : FTy → Type} [FloatOps F]

/-- An index of the tile's box, rebuilt from its coordinates. -/
theorem tile_idx (s : Fin 16) (r : Fin 4) (i : S4x32x128x128.Idx) (hi : i ∈ tileSet s r) :
    (ix4 r (i 1) (colOf s ⟨(i 2).val - 8 * s.val, by have := mem_tileSet s r i hi; omega⟩) (i 3) : S4x32x128x128.Idx) = i := by
  obtain ⟨h0, h2, h2'⟩ := mem_tileSet s r i hi
  refine funext fun a => Fin.ext ?_
  fin_cases a
  · exact h0.symm
  · rfl
  · show 8 * s.val + ((i 2).val - 8 * s.val) = (i 2).val; omega
  · rfl

/-- (O1) The first buffer, holding the specification's values for the box, copied out: the specification on the tile's part. -/
theorem outDone0 (o : Fin 4 → ℕ) (h : ∀ a, o a + S1x32x8x128.size a ≤ S4x32x128x128.size a) (r : Fin 4) (s : Fin 16)
    (e : o = ![r.val, 0, 8 * s.val, 0]) (fo : S4x32x128x128.Idx → F .f32) (g : S32x8x128.Idx → F .f32)
    (x : S4x32x128x128.Idx → F .f32) (p : S16.Idx → F .f32)
    (hg : ∀ (j : Fin 32) (k : Fin 8) (e' : Fin 128), g (ix3 j k e') = tOutF x p (ix4 r j (colOf s k) e'))
    (i : S4x32x128x128.Idx) (hi : i ∈ tileSet s r) :
    (((Memref.whole main_v6_0_scv : Memref sig .scVector .hbm S4x32x128x128 .f32).slice
        (Rect.unit (s := S4x32x128x128) o S1x32x8x128.size h) (fun _ => rfl)).squeeze S32x8x128 squeezes_S1x32x8x128_S32x8x128).view.writes (Elt F) fo
        [⟨Rect.whole S32x8x128, ReadAs.same.apply (View.read (Elt F) (Memref.whole cc0_scratch0).view g)⟩] i
      = tOutF x p i := by
  rw [out_box_at o h r s e fo (ReadAs.same.apply (View.read (Elt F) (Memref.whole cc0_scratch0).view g)) i hi]
  exact (hg (i 1) ⟨(i 2).val - 8 * s.val, by have := mem_tileSet s r i hi; omega⟩ (i 3)).trans (congrArg (tOutF x p) (tile_idx s r i hi))

/-- (O1) The second buffer likewise. -/
theorem outDone1 (o : Fin 4 → ℕ) (h : ∀ a, o a + S1x32x8x128.size a ≤ S4x32x128x128.size a) (r : Fin 4) (s : Fin 16)
    (e : o = ![r.val, 0, 8 * s.val, 0]) (fo : S4x32x128x128.Idx → F .f32) (g : S32x8x128.Idx → F .f32)
    (x : S4x32x128x128.Idx → F .f32) (p : S16.Idx → F .f32)
    (hg : ∀ (j : Fin 32) (k : Fin 8) (e' : Fin 128), g (ix3 j k e') = tOutF x p (ix4 r j (colOf s k) e'))
    (i : S4x32x128x128.Idx) (hi : i ∈ tileSet s r) :
    (((Memref.whole main_v6_0_scv : Memref sig .scVector .hbm S4x32x128x128 .f32).slice
        (Rect.unit (s := S4x32x128x128) o S1x32x8x128.size h) (fun _ => rfl)).squeeze S32x8x128 squeezes_S1x32x8x128_S32x8x128).view.writes (Elt F) fo
        [⟨Rect.whole S32x8x128, ReadAs.same.apply (View.read (Elt F) (Memref.whole cc0_scratch1).view g)⟩] i
      = tOutF x p i := by
  rw [out_box_at o h r s e fo (ReadAs.same.apply (View.read (Elt F) (Memref.whole cc0_scratch1).view g)) i hi]
  exact (hg (i 1) ⟨(i 2).val - 8 * s.val, by have := mem_tileSet s r i hi; omega⟩ (i 3)).trans (congrArg (tOutF x p) (tile_idx s r i hi))

/-- (R1) The row of row sums the box's eight groups leave is the specification's row. -/
theorem rowVec_box (x : S4x32x128x128.Idx → F .f32) (p : S16.Idx → F .f32) (r : Fin 4) (s : Fin 16) (v5 : IVec S16 32)
    (hv5 : v5 = iota .scVector S16 32 [0] iota_S16_d0_w32_scVector) (l : Fin 16) :
    rowVec (boxOf x r s) (p (ix1 (0 : Fin 16))) p v5 (ix1 l) = tRsRowF x p (ix4 r (0 : Fin 1) s l) := by
  subst hv5
  unfold rowVec
  have h0 : accB (blkB (boxOf x r s) (p (ix1 (0 : Fin 16))) p 0) 0 32 = accB (boxOf x r s) 0 32 := accB_blkB _ _ _ (0 : Fin 8) 32
  have h1 : accB (blkB (boxOf x r s) (p (ix1 (0 : Fin 16))) p 1) 1 32 = accB (boxOf x r s) 1 32 := accB_blkB _ _ _ (1 : Fin 8) 32
  have h2 : accB (blkB (boxOf x r s) (p (ix1 (0 : Fin 16))) p 2) 2 32 = accB (boxOf x r s) 2 32 := accB_blkB _ _ _ (2 : Fin 8) 32
  have h3 : accB (blkB (boxOf x r s) (p (ix1 (0 : Fin 16))) p 3) 3 32 = accB (boxOf x r s) 3 32 := accB_blkB _ _ _ (3 : Fin 8) 32
  have h4 : accB (blkB (boxOf x r s) (p (ix1 (0 : Fin 16))) p 4) 4 32 = accB (boxOf x r s) 4 32 := accB_blkB _ _ _ (4 : Fin 8) 32
  have h5 : accB (blkB (boxOf x r s) (p (ix1 (0 : Fin 16))) p 5) 5 32 = accB (boxOf x r s) 5 32 := accB_blkB _ _ _ (5 : Fin 8) 32
  have h6 : accB (blkB (boxOf x r s) (p (ix1 (0 : Fin 16))) p 6) 6 32 = accB (boxOf x r s) 6 32 := accB_blkB _ _ _ (6 : Fin 8) 32
  have h7 : accB (blkB (boxOf x r s) (p (ix1 (0 : Fin 16))) p 7) 7 32 = accB (boxOf x r s) 7 32 := accB_blkB _ _ _ (7 : Fin 8) 32
  rw [h0, h1, h2, h3, h4, h5, h6, h7]
  exact (selRs_chain (p (ix1 (0 : Fin 16))) (fun k => accB (boxOf x r s) k 32) l).trans (rsRow_box x p r s l)

end Cert.Proof.KI

end
-- ==== Proof.KI.RsLemmas.lean ====
/-
  The row-sum scratch and its copy out. Two rounds' rows stored through the scratch's rows 2k and 2k+1 leave it holding
  the first 2k+2 rounds' rows; the scratch copied out through row s of the row-sum array leaves, at every index of that
  row, the round's row at the index's lane.
-/
import proofs.«216181_g9861244912407_cont_9to1_m_1073_40_alg».proof.Proof.KI.BoxSpecB
import Idealize.ShloMosaic.Lib.WritesUnit
import Idealize.ShloMosaic.Lib.Pipeline.Value

noncomputable section

namespace Cert.Proof.KI

open Cert.KernelIdeal Cert.KernelIdeal.Gen
open Idealize.ShloMosaic Idealize.ShloMosaic.ValueIdx

variable {F : FTy → Type} [FloatOps F]

section Step

variable {sg : RefSig} {κ : Kind} {sp : Space} (v : View sg κ sp S4x16 .f32) (g : v.ty.Contents (Elt F))
  (k : ℕ) (a0 a1 : FVec F S16 .f32) (o0 o1 : Fin 2 → ℕ)
  (h0 : ∀ a, o0 a + S1x16.size a ≤ S4x16.size a) (h1 : ∀ a, o1 a + S1x16.size a ≤ S4x16.size a)
  (e0 : o0 = ![2 * k, 0]) (e1 : o1 = ![2 * k + 1, 0])

/-- A sixteen-lane vector stored as one row: lane l of the row is the vector's lane l. -/
theorem row_cast_apply (a : FVec F S16 .f32) (l : Fin 16) :
    shapeCast S1x16 a shapeCasts_S16_S1x16 (ix2 (0 : Fin 1) l) = a (ix1 l) :=
  shapeCast_apply a shapeCasts_S16_S1x16 (ix2 (0 : Fin 1) l) (ix1 l) (by
    rewrite [Shape.rowMajor_val_one, Shape.rowMajor_val_two]
    show l.val = 0 * 16 + l.val
    omega)

include e0 e1 in
/-- The scratch after the two stores, read at row ρ below 2k+2: row 2k+1 the second vector, row 2k the first, the
    rows below as they were. -/
theorem rs_step_read (ρ : Fin 4) (l : Fin 16) (hρ : ρ.val < 2 * k + 2) :
    v.read (Elt F) (v.writes (Elt F) g
        [⟨Rect.unit (s := S4x16) o1 S1x16.size h1, shapeCast S1x16 a1 shapeCasts_S16_S1x16⟩,
         ⟨Rect.unit (s := S4x16) o0 S1x16.size h0, shapeCast S1x16 a0 shapeCasts_S16_S1x16⟩]) (ix2 ρ l)
      = if ρ.val = 2 * k + 1 then a1 (ix1 l) else if ρ.val = 2 * k then a0 (ix1 l) else v.read (Elt F) g (ix2 ρ l) := by
  by_cases c1 : ρ.val = 2 * k + 1
  · rw [if_pos c1]
    rw [View.read_writes_cons_rows_of_mem v g h1 _ _ (ix2 ρ l) (ix2 (0 : Fin 1) l) e1
      (by show ρ.val = 2 * k + 1 + 0; omega) rfl]
    exact row_cast_apply a1 l
  · rw [if_neg c1]
    rw [View.read_writes_cons_rows_of_not_mem v g h1 _ _ (ix2 ρ l) e1 (W := 1) rfl
      (Or.inl (by show ρ.val < 2 * k + 1; omega))]
    by_cases c0 : ρ.val = 2 * k
    · rw [if_pos c0]
      rw [View.read_writes_cons_rows_of_mem v g h0 _ _ (ix2 ρ l) (ix2 (0 : Fin 1) l) e0
        (by show ρ.val = 2 * k + 0; omega) rfl]
      exact row_cast_apply a0 l
    · rw [if_neg c0]
      rw [View.read_writes_cons_rows_of_not_mem v g h0 _ _ (ix2 ρ l) e0 (W := 1) rfl
        (Or.inl (by show ρ.val < 2 * k; omega))]
      rfl

end Step

/-- Two more rounds' rows stored: the scratch holds the first 2k+2 rounds' rows. -/
theorem rs_step (frow : Fin 4 → Fin 16 → F .f32) (k : ℕ) (hk : k < 2) (g : S4x16.Idx → F .f32) (a0 a1 : FVec F S16 .f32)
    (o0 o1 : Fin 2 → ℕ) (h0 : ∀ a, o0 a + S1x16.size a ≤ S4x16.size a) (h1 : ∀ a, o1 a + S1x16.size a ≤ S4x16.size a)
    (e0 : o0 = ![2 * k, 0]) (e1 : o1 = ![2 * k + 1, 0]) (hg : RsOK frow (2 * k) g)
    (ha0 : ∀ l : Fin 16, a0 (ix1 l) = frow ⟨2 * k, by omega⟩ l) (ha1 : ∀ l : Fin 16, a1 (ix1 l) = frow ⟨2 * k + 1, by omega⟩ l) :
    RsOK frow (2 * k + 2) ((Memref.whole cc0_scratch3).view.writes (Elt F) g
      [⟨Rect.unit (s := S4x16) o1 S1x16.size h1, shapeCast S1x16 a1 shapeCasts_S16_S1x16⟩,
       ⟨Rect.unit (s := S4x16) o0 S1x16.size h0, shapeCast S1x16 a0 shapeCasts_S16_S1x16⟩]) := by
  intro ρ hρ l
  refine (rs_step_read (Memref.whole cc0_scratch3).view g k a0 a1 o0 o1 h0 h1 e0 e1 ρ l hρ).trans ?_
  by_cases c1 : ρ.val = 2 * k + 1
  · rw [if_pos c1, ha1 l]
    exact congrArg (fun r => frow r l) (Fin.ext c1.symm)
  · rw [if_neg c1]
    by_cases c0 : ρ.val = 2 * k
    · rw [if_pos c0, ha0 l]
      exact congrArg (fun r => frow r l) (Fin.ext c0.symm)
    · rw [if_neg c0]
      exact hg ρ (by omega) l

/-! ## The copy out through row s of the row-sum array -/

section Out

variable {Val : EltTy → Type}

/-- Squeezing the row's two unit axes: (ρ, l) is the row's (ρ, 0, 0, l). -/
theorem squeeze_row (hn : S4x16.numel = S4x1x1x16.numel) (ρ : Fin 4) (l : Fin 16) :
    Shape.reshapeEquiv hn (ix2 ρ l : S4x16.Idx) = (ix4 ρ (0 : Fin 1) (0 : Fin 1) l : S4x1x1x16.Idx) :=
  Shape.reshapeEquiv_eq_of_rowMajor hn (by
    rw [Shape.rowMajor_val_two, Shape.rowMajor_val_four]
    show ((ρ.val * 1 + 0) * 1 + 0) * 16 + l.val = ρ.val * 16 + l.val
    omega)

/-- The row at (0, 0, s, 0) places its (ρ, 0, 0, l) at (ρ, 0, s, l). -/
theorem row_emb (o : Fin 4 → ℕ) (h : ∀ a, o a + S4x1x1x16.size a ≤ S4x1x16x16.size a) (s : Fin 16)
    (eo : o = ![0, 0, s.val, 0]) (ρ : Fin 4) (l : Fin 16) :
    (Rect.unit (s := S4x1x16x16) o S4x1x1x16.size h).emb (ix4 ρ (0 : Fin 1) (0 : Fin 1) l : S4x1x1x16.Idx)
      = (ix4 ρ (0 : Fin 1) s l : S4x1x16x16.Idx) := by
  subst eo
  funext a
  apply Fin.ext
  rw [Rect.emb_apply]
  match a with
  | ⟨0, _⟩ => show 0 + 1 * ρ.val = ρ.val; omega
  | ⟨1, _⟩ => show 0 + 1 * 0 = 0; rfl
  | ⟨2, _⟩ => show s.val + 1 * 0 = s.val; omega
  | ⟨3, _⟩ => show 0 + 1 * l.val = l.val; omega

/-- The squeezed row's index (ρ, l) sits in the array where the view puts (ρ, 0, s, l). -/
theorem emb_row {sg : RefSig} {κ : Kind} {sp : Space} {el : EltTy} (v : View sg κ sp S4x1x16x16 el)
    (o : Fin 4 → ℕ) (h : ∀ a, o a + S4x1x1x16.size a ≤ S4x1x16x16.size a) (hn : S4x16.numel = S4x1x1x16.numel)
    (s : Fin 16) (eo : o = ![0, 0, s.val, 0]) (ρ : Fin 4) (l : Fin 16) :
    ((v.slice (Rect.unit (s := S4x1x16x16) o S4x1x1x16.size h)).reshape S4x16 hn).emb (ix2 ρ l)
      = v.emb (ix4 ρ (0 : Fin 1) s l) := by
  show v.emb ((Rect.unit (s := S4x1x16x16) o S4x1x1x16.size h).emb (Shape.reshapeEquiv hn (ix2 ρ l))) = _
  rw [squeeze_row hn ρ l, row_emb o h s eo ρ l]

/-- Membership in row s of the row-sum array, coordinate by coordinate. -/
theorem rsSet_coord2 (s : Fin 16) (i : S4x1x16x16.Idx) (hi : i ∈ rsSet s) : (i 2).val = s.val := by
  have hm : i ∈ (rsRect s).set := hi
  rw [LoadRect.mem_set] at hm
  obtain ⟨j2, hj2, e2⟩ := hm (2 : Fin 4)
  change j2 < 1 at hj2
  change (i 2).val = s.val + 1 * j2 at e2
  omega

end Out

/-- A copy out of the row-sum scratch through row s of the row-sum array puts the scratch's (ρ, l) at the array's
    (ρ, 0, s, l). -/
theorem rs_out_writes (o : Fin 4 → ℕ) (h : ∀ a, o a + S4x1x1x16.size a ≤ S4x1x16x16.size a) (s : Fin 16)
    (e : o = ![0, 0, s.val, 0]) (fo : S4x1x16x16.Idx → F .f32) (w : S4x16.Idx → F .f32) (ρ : Fin 4) (l : Fin 16) :
    (((Memref.whole main_v6_1_scv : Memref sig .scVector .hbm S4x1x16x16 .f32).slice
        (Rect.unit (s := S4x1x16x16) o S4x1x1x16.size h) (fun _ => rfl)).squeeze S4x16 squeezes_S4x1x1x16_S4x16).view.writes (Elt F) fo
        [⟨Rect.whole S4x16, w⟩] (ix4 ρ (0 : Fin 1) s l)
      = w (ix2 ρ l) := by
  have he := emb_row (View.whole main_v6_1_scv) o h squeezes_S4x1x1x16_S4x16.numel_eq s e ρ l
  rw [View.writes_singleton]
  have hw := View.write_emb (Val := Elt F) (v := ((((View.whole main_v6_1_scv).slice (Rect.unit (s := S4x1x16x16) o S4x1x1x16.size h)).reshape S4x16
      squeezes_S4x1x1x16_S4x16.numel_eq).slice (Rect.whole S4x16))) fo w Finset.univ (ix2 ρ l)
  rw [if_pos (Finset.mem_univ _)] at hw
  have he2 : ((((View.whole main_v6_1_scv).slice (Rect.unit (s := S4x1x16x16) o S4x1x1x16.size h)).reshape S4x16
      squeezes_S4x1x1x16_S4x16.numel_eq).slice (Rect.whole S4x16)).emb (ix2 ρ l)
      = (ix4 ρ (0 : Fin 1) s l : S4x1x16x16.Idx) := by
    show (((View.whole main_v6_1_scv).slice (Rect.unit (s := S4x1x16x16) o S4x1x1x16.size h)).reshape S4x16
      squeezes_S4x1x1x16_S4x16.numel_eq).emb ((Rect.whole S4x16).emb (ix2 ρ l)) = _
    rw [Rect.emb_whole_apply]; exact he
  rw [he2] at hw
  exact hw

/-- The copy out leaves, at every index of row s, the round's row at the index's lane. -/
theorem rs_out (frow : Fin 4 → Fin 16 → F .f32) (o : Fin 4 → ℕ) (h : ∀ a, o a + S4x1x1x16.size a ≤ S4x1x16x16.size a) (s : Fin 16)
    (e : o = ![0, 0, s.val, 0]) (g : S4x16.Idx → F .f32) (hg : RsOK frow 4 g) (fo : S4x1x16x16.Idx → F .f32)
    (i : S4x1x16x16.Idx) (hi : i ∈ rsSet s) :
    (((Memref.whole main_v6_1_scv : Memref sig .scVector .hbm S4x1x16x16 .f32).slice
        (Rect.unit (s := S4x1x16x16) o S4x1x1x16.size h) (fun _ => rfl)).squeeze S4x16 squeezes_S4x1x1x16_S4x16).view.writes (Elt F) fo
        [⟨Rect.whole S4x16, ReadAs.same.apply (View.read (Elt F) (Memref.whole cc0_scratch3).view g)⟩] i
      = frow (i 0) (i 3) := by
  have h2 := rsSet_coord2 s i hi
  have hi' : i = (ix4 (i 0) (0 : Fin 1) s (i 3) : S4x1x16x16.Idx) := by
    funext a
    apply Fin.ext
    match a with
    | ⟨0, _⟩ => rfl
    | ⟨1, _⟩ => show (i 1).val = 0; have h1 : (i 1).val < 1 := (i 1).isLt; omega
    | ⟨2, _⟩ => exact h2
    | ⟨3, _⟩ => rfl
  conv_lhs => rw [hi']
  refine (rs_out_writes o h s e fo _ (i 0) (i 3)).trans ?_
  exact hg (i 0) (i 0).isLt (i 3)

end Cert.Proof.KI

end
-- ==== Proof.KI.TripV.lean ====
/-
  One trip of the SparseCore kernel's round loop WITH THE VALUES, at a symbolic vector subcore: the invariant names what
  the scratch buffers, the output boxes and the row-sum scratch hold — a requested box lands as the box of the input, a
  box normalised column group by column group (a summing loop at the lane sums of the rows so far, a scaling loop at
  the rows scaled so far) is the kernel's output on it, and the two rows of the row-sum scratch a trip writes are the
  kernel's row sums of its two rounds.
-/
import proofs.«216181_g9861244912407_cont_9to1_m_1073_40_alg».proof.Proof.KI.Trip
import proofs.«216181_g9861244912407_cont_9to1_m_1073_40_alg».proof.Proof.KI.BoxSpecB
import proofs.«216181_g9861244912407_cont_9to1_m_1073_40_alg».proof.Proof.KI.BoxLemmas
import proofs.«216181_g9861244912407_cont_9to1_m_1073_40_alg».proof.Proof.KI.ScaleLemmas
import proofs.«216181_g9861244912407_cont_9to1_m_1073_40_alg».proof.Proof.KI.ViewLemmas
import proofs.«216181_g9861244912407_cont_9to1_m_1073_40_alg».proof.Proof.KI.BoxLemmasB
import proofs.«216181_g9861244912407_cont_9to1_m_1073_40_alg».proof.Proof.KI.RowLemmas
import proofs.«216181_g9861244912407_cont_9to1_m_1073_40_alg».proof.Proof.KI.RsLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ
open Idealize.ShloMosaic.ValueIdx
local notation "inW" => (Memref.whole Cert.KernelIdeal.main_v5_scv : Memref Cert.KernelIdeal.sig Kind.scVector Space.hbm Cert.KernelIdeal.S4x32x128x128 EltTy.f32)
local notation "pcW" => (Memref.whole Cert.KernelIdeal.main_v2_scv : Memref Cert.KernelIdeal.sig Kind.scVector Space.hbm Cert.KernelIdeal.S16 EltTy.f32)
local notation "outW" => (Memref.whole Cert.KernelIdeal.main_v6_0_scv : Memref Cert.KernelIdeal.sig Kind.scVector Space.hbm Cert.KernelIdeal.S4x32x128x128 EltTy.f32)
local notation "rsW" => (Memref.whole Cert.KernelIdeal.main_v6_1_scv : Memref Cert.KernelIdeal.sig Kind.scVector Space.hbm Cert.KernelIdeal.S4x1x16x16 EltTy.f32)
local notation "bA" => (Memref.whole Cert.KernelIdeal.cc0_scratch0 : Memref Cert.KernelIdeal.sig Kind.scVector Space.vmem Cert.KernelIdeal.S32x8x128 EltTy.f32)
local notation "bB" => (Memref.whole Cert.KernelIdeal.cc0_scratch1 : Memref Cert.KernelIdeal.sig Kind.scVector Space.vmem Cert.KernelIdeal.S32x8x128 EltTy.f32)
local notation "bPc" => (Memref.whole Cert.KernelIdeal.cc0_scratch2 : Memref Cert.KernelIdeal.sig Kind.scVector Space.vmem Cert.KernelIdeal.S16 EltTy.f32)
local notation "bRs" => (Memref.whole Cert.KernelIdeal.cc0_scratch3 : Memref Cert.KernelIdeal.sig Kind.scVector Space.vmem Cert.KernelIdeal.S4x16 EltTy.f32)

/-- The printed offsets of the inner loops' sixteen-lane pieces, in closed form. -/
macro "off_eqs" : tactic => `(tactic| (simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq]; rfl))

theorem lanes0_eq (o : Fin 3 → ℕ) (h : ∀ a, o a + S1x1x16.size a ≤ S32x8x128.size a) (f : S32x8x128.Idx → F .f32) (j : Fin 32) (kc v : Fin 8)
    (e : o = ![j.val, kc.val, 16 * v.val]) :
    shapeCast S16 (View.readAt (Elt F) (Memref.whole cc0_scratch0).view (Rect.unit (s := S32x8x128) o S1x1x16.size h).toLoadRect f) shapeCasts_S1x1x16_S16
      = lanesB f j kc v := by
  subst e; funext l; rw [load_lanes0]; rfl

theorem sum_yield0 (f : S32x8x128.Idx → F .f32) (kc : Fin 8) (acc : FVec F S16 .f32) (j : Fin 32)
    (o0 o1 o2 o3 o4 o5 o6 o7 : Fin 3 → ℕ) (h0 : ∀ a, o0 a + S1x1x16.size a ≤ S32x8x128.size a) (h1 : ∀ a, o1 a + S1x1x16.size a ≤ S32x8x128.size a)
    (h2 : ∀ a, o2 a + S1x1x16.size a ≤ S32x8x128.size a) (h3 : ∀ a, o3 a + S1x1x16.size a ≤ S32x8x128.size a)
    (h4 : ∀ a, o4 a + S1x1x16.size a ≤ S32x8x128.size a) (h5 : ∀ a, o5 a + S1x1x16.size a ≤ S32x8x128.size a)
    (h6 : ∀ a, o6 a + S1x1x16.size a ≤ S32x8x128.size a) (h7 : ∀ a, o7 a + S1x1x16.size a ≤ S32x8x128.size a)
    (e0 : o0 = ![j.val, kc.val, 16 * (0 : Fin 8).val]) (e1 : o1 = ![j.val, kc.val, 16 * (1 : Fin 8).val]) (e2 : o2 = ![j.val, kc.val, 16 * (2 : Fin 8).val])
    (e3 : o3 = ![j.val, kc.val, 16 * (3 : Fin 8).val]) (e4 : o4 = ![j.val, kc.val, 16 * (4 : Fin 8).val]) (e5 : o5 = ![j.val, kc.val, 16 * (5 : Fin 8).val])
    (e6 : o6 = ![j.val, kc.val, 16 * (6 : Fin 8).val]) (e7 : o7 = ![j.val, kc.val, 16 * (7 : Fin 8).val]) :
    addf (addf (addf (addf (addf (addf (addf (addf acc
      (shapeCast S16 (View.readAt (Elt F) (Memref.whole cc0_scratch0).view (Rect.unit (s := S32x8x128) o0 S1x1x16.size h0).toLoadRect f) shapeCasts_S1x1x16_S16))
      (shapeCast S16 (View.readAt (Elt F) (Memref.whole cc0_scratch0).view (Rect.unit (s := S32x8x128) o1 S1x1x16.size h1).toLoadRect f) shapeCasts_S1x1x16_S16))
      (shapeCast S16 (View.readAt (Elt F) (Memref.whole cc0_scratch0).view (Rect.unit (s := S32x8x128) o2 S1x1x16.size h2).toLoadRect f) shapeCasts_S1x1x16_S16))
      (shapeCast S16 (View.readAt (Elt F) (Memref.whole cc0_scratch0).view (Rect.unit (s := S32x8x128) o3 S1x1x16.size h3).toLoadRect f) shapeCasts_S1x1x16_S16))
      (shapeCast S16 (View.readAt (Elt F) (Memref.whole cc0_scratch0).view (Rect.unit (s := S32x8x128) o4 S1x1x16.size h4).toLoadRect f) shapeCasts_S1x1x16_S16))
      (shapeCast S16 (View.readAt (Elt F) (Memref.whole cc0_scratch0).view (Rect.unit (s := S32x8x128) o5 S1x1x16.size h5).toLoadRect f) shapeCasts_S1x1x16_S16))
      (shapeCast S16 (View.readAt (Elt F) (Memref.whole cc0_scratch0).view (Rect.unit (s := S32x8x128) o6 S1x1x16.size h6).toLoadRect f) shapeCasts_S1x1x16_S16))
      (shapeCast S16 (View.readAt (Elt F) (Memref.whole cc0_scratch0).view (Rect.unit (s := S32x8x128) o7 S1x1x16.size h7).toLoadRect f) shapeCasts_S1x1x16_S16)
      = sumB f kc acc j := by
  rw [lanes0_eq o0 h0 f j kc 0 e0, lanes0_eq o1 h1 f j kc 1 e1, lanes0_eq o2 h2 f j kc 2 e2, lanes0_eq o3 h3 f j kc 3 e3,
    lanes0_eq o4 h4 f j kc 4 e4, lanes0_eq o5 h5 f j kc 5 e5, lanes0_eq o6 h6 f j kc 6 e6, lanes0_eq o7 h7 f j kc 7 e7]
  rfl

theorem accB_succ (f : S32x8x128.Idx → F .f32) (kc : Fin 8) (n : ℕ) (h : n < 32) : accB f kc (n + 1) = sumB f kc (accB f kc n) ⟨n, h⟩ := by
  rw [accB, dif_pos h]
theorem scaleUpTo_succ (f : S32x8x128.Idx → F .f32) (kc : Fin 8) (rcp pr : FVec F S16 .f32) (n : ℕ) (h : n < 32) :
    scaleUpTo f kc rcp pr (n + 1) = scaleRow (scaleUpTo f kc rcp pr n) ⟨n, h⟩ kc rcp pr := by
  rw [scaleUpTo, dif_pos h]
theorem lanes1_eq (o : Fin 3 → ℕ) (h : ∀ a, o a + S1x1x16.size a ≤ S32x8x128.size a) (f : S32x8x128.Idx → F .f32) (j : Fin 32) (kc v : Fin 8)
    (e : o = ![j.val, kc.val, 16 * v.val]) :
    shapeCast S16 (View.readAt (Elt F) (Memref.whole cc0_scratch1).view (Rect.unit (s := S32x8x128) o S1x1x16.size h).toLoadRect f) shapeCasts_S1x1x16_S16
      = lanesB f j kc v := by
  subst e; funext l; rw [load_lanes1]; rfl

theorem sum_yield1 (f : S32x8x128.Idx → F .f32) (kc : Fin 8) (acc : FVec F S16 .f32) (j : Fin 32)
    (o0 o1 o2 o3 o4 o5 o6 o7 : Fin 3 → ℕ) (h0 : ∀ a, o0 a + S1x1x16.size a ≤ S32x8x128.size a) (h1 : ∀ a, o1 a + S1x1x16.size a ≤ S32x8x128.size a)
    (h2 : ∀ a, o2 a + S1x1x16.size a ≤ S32x8x128.size a) (h3 : ∀ a, o3 a + S1x1x16.size a ≤ S32x8x128.size a)
    (h4 : ∀ a, o4 a + S1x1x16.size a ≤ S32x8x128.size a) (h5 : ∀ a, o5 a + S1x1x16.size a ≤ S32x8x128.size a)
    (h6 : ∀ a, o6 a + S1x1x16.size a ≤ S32x8x128.size a) (h7 : ∀ a, o7 a + S1x1x16.size a ≤ S32x8x128.size a)
    (e0 : o0 = ![j.val, kc.val, 16 * (0 : Fin 8).val]) (e1 : o1 = ![j.val, kc.val, 16 * (1 : Fin 8).val]) (e2 : o2 = ![j.val, kc.val, 16 * (2 : Fin 8).val])
    (e3 : o3 = ![j.val, kc.val, 16 * (3 : Fin 8).val]) (e4 : o4 = ![j.val, kc.val, 16 * (4 : Fin 8).val]) (e5 : o5 = ![j.val, kc.val, 16 * (5 : Fin 8).val])
    (e6 : o6 = ![j.val, kc.val, 16 * (6 : Fin 8).val]) (e7 : o7 = ![j.val, kc.val, 16 * (7 : Fin 8).val]) :
    addf (addf (addf (addf (addf (addf (addf (addf acc
      (shapeCast S16 (View.readAt (Elt F) (Memref.whole cc0_scratch1).view (Rect.unit (s := S32x8x128) o0 S1x1x16.size h0).toLoadRect f) shapeCasts_S1x1x16_S16))
      (shapeCast S16 (View.readAt (Elt F) (Memref.whole cc0_scratch1).view (Rect.unit (s := S32x8x128) o1 S1x1x16.size h1).toLoadRect f) shapeCasts_S1x1x16_S16))
      (shapeCast S16 (View.readAt (Elt F) (Memref.whole cc0_scratch1).view (Rect.unit (s := S32x8x128) o2 S1x1x16.size h2).toLoadRect f) shapeCasts_S1x1x16_S16))
      (shapeCast S16 (View.readAt (Elt F) (Memref.whole cc0_scratch1).view (Rect.unit (s := S32x8x128) o3 S1x1x16.size h3).toLoadRect f) shapeCasts_S1x1x16_S16))
      (shapeCast S16 (View.readAt (Elt F) (Memref.whole cc0_scratch1).view (Rect.unit (s := S32x8x128) o4 S1x1x16.size h4).toLoadRect f) shapeCasts_S1x1x16_S16))
      (shapeCast S16 (View.readAt (Elt F) (Memref.whole cc0_scratch1).view (Rect.unit (s := S32x8x128) o5 S1x1x16.size h5).toLoadRect f) shapeCasts_S1x1x16_S16))
      (shapeCast S16 (View.readAt (Elt F) (Memref.whole cc0_scratch1).view (Rect.unit (s := S32x8x128) o6 S1x1x16.size h6).toLoadRect f) shapeCasts_S1x1x16_S16))
      (shapeCast S16 (View.readAt (Elt F) (Memref.whole cc0_scratch1).view (Rect.unit (s := S32x8x128) o7 S1x1x16.size h7).toLoadRect f) shapeCasts_S1x1x16_S16)
      = sumB f kc acc j := by
  rw [lanes1_eq o0 h0 f j kc 0 e0, lanes1_eq o1 h1 f j kc 1 e1, lanes1_eq o2 h2 f j kc 2 e2, lanes1_eq o3 h3 f j kc 3 e3,
    lanes1_eq o4 h4 f j kc 4 e4, lanes1_eq o5 h5 f j kc 5 e5, lanes1_eq o6 h6 f j kc 6 e6, lanes1_eq o7 h7 f j kc 7 e7]
  rfl

omit [FloatOps F] in
theorem off131_eq (k : Fin k0_t1_loop.trips) : k0_off131 k = ![2 * k.val, 0] := k0_off131_eq k
omit [FloatOps F] in
theorem off261_eq (k : Fin k0_t1_loop.trips) : k0_off261 k = ![2 * k.val + 1, 0] := k0_off261_eq k

section Tile
variable (vin : (d : Dev nD) → Buf (Elt F) (inLoc d)) (vpc : (d : Dev nD) → Buf (Elt F) (pcLoc d))
variable (d : Dev nD) (L : grid0.Coords)

/-! ## The results named -/

/-- The output array and the subcore's row of the row sums, as the kernel computes them. -/
abbrev foutT : Buf (Elt F) (outLoc d) := tOutF (vin d) (vpc d)
abbrev frowT (ρ : Fin 4) (l : Fin 16) : F .f32 := tRsRowF (vin d) (vpc d) (ix4 ρ (0 : Fin 1) (jL L) l)

/-- A copy of round `r`'s input box into a scratch buffer outstanding: it delivers the buffer at the box. -/
def FlInV0 (r : Fin 4) : sProp 𝕄 :=
  Transfers.Flight countersEmb (thrV d L) (SemLoc.dma (cc0_scratch4 : DmaSems sig S_).sem) (default : HIx 1) 1048576
    iprop(((Memref.whole cc0_scratch0).view.loc (thrV d L) ↦{fullShare} boxOf (vin d) r (jL L)) ∗ inLoc d ↦[tileSet (jL L) r]{fullShare} vin d)
def FlInV1 (r : Fin 4) : sProp 𝕄 :=
  Transfers.Flight countersEmb (thrV d L) (SemLoc.dma (cc0_scratch5 : DmaSems sig S_).sem) (default : HIx 1) 1048576
    iprop(((Memref.whole cc0_scratch1).view.loc (thrV d L) ↦{fullShare} boxOf (vin d) r (jL L)) ∗ inLoc d ↦[tileSet (jL L) r]{fullShare} vin d)

/-- Round `r`'s output box at its value. -/
def OutDone (r : Fin 4) : sProp 𝕄 := outLoc d ↦[tileSet (jL L) r]{fullShare} foutT vin vpc d
/-- Round `r`'s output box: at its value if the round is done, else at some contents. -/
def OutSt (c : Prop) [Decidable c] (r : Fin 4) : sProp 𝕄 :=
  if c then OutDone vin vpc d L r else iprop(∃ f, outLoc d ↦[tileSet (jL L) r]{fullShare} f)

/-- A copy out of a scratch buffer into round `r`'s output box outstanding: it delivers the box at its value. -/
def FlOutV0 (r : Fin 4) : sProp 𝕄 :=
  iprop(∃ fs, Transfers.Flight countersEmb (thrV d L) (SemLoc.dma (cc0_scratch6 : DmaSems sig S_).sem) (default : HIx 1) 1048576
    iprop(OutDone vin vpc d L r ∗ (Memref.whole cc0_scratch0).view.loc (thrV d L) ↦{fullShare} fs))
def FlOutV1 (r : Fin 4) : sProp 𝕄 :=
  iprop(∃ fs, Transfers.Flight countersEmb (thrV d L) (SemLoc.dma (cc0_scratch7 : DmaSems sig S_).sem) (default : HIx 1) 1048576
    iprop(OutDone vin vpc d L r ∗ (Memref.whole cc0_scratch1).view.loc (thrV d L) ↦{fullShare} fs))

def SharedV (O : CellTallies nD τ sig (HIx 1)) (W : Waits sig (HIx 1)) (fP : Buf (Elt F) ((thrV d L).loc cc0_scratch2)) (n : ℕ) : sProp 𝕄 :=
  iprop(Transfers.MayWaits (thrV d L) (none : HIx 1) O
    ∗ ((pcW).view.loc (thrV d L) ↦{shareTok fullShare 16 (jL L)} vpc d)
    ∗ ((thrV d L).loc cc0_scratch2 ↦{fullShare} fP)
    ∗ (∃ fR, ((thrV d L).loc cc0_scratch3 ↦{fullShare} fR) ∗ ⌜RsOK (frowT vin vpc d L) n fR⌝)
    ∗ ∃ W', ⌜∀ p ∈ W', p ∈ W ∨ p.2 = none⌝ ∗ owes (thrV d L) O W')

def PreV (k : Fin k0_t1_loop.trips) : sProp 𝕄 :=
  iprop(FlInV0 vin d L (r0 k) ∗ FlInV1 vin d L (r1 k)
    ∗ semVal (cellOf d L cc0_scratch6) 0 ∗ semVal (cellOf d L cc0_scratch7) 0
    ∗ (inLoc d ↦[tileSet (jL L) (r0 (oth k))]{fullShare} vin d) ∗ (inLoc d ↦[tileSet (jL L) (r1 (oth k))]{fullShare} vin d)
    ∗ (∃ f, outLoc d ↦[tileSet (jL L) (r0 k)]{fullShare} f) ∗ (∃ f, outLoc d ↦[tileSet (jL L) (r1 k)]{fullShare} f)
    ∗ OutSt vin vpc d L (k.val = 1) (r0 (oth k)) ∗ OutSt vin vpc d L (k.val = 1) (r1 (oth k)))

def PostV : sProp 𝕄 :=
  iprop(semVal (cellOf d L cc0_scratch4) 0 ∗ semVal (cellOf d L cc0_scratch5) 0
    ∗ FlOutV0 vin vpc d L 2 ∗ FlOutV1 vin vpc d L 3
    ∗ (inLoc d ↦[tileSet (jL L) 0]{fullShare} vin d) ∗ (inLoc d ↦[tileSet (jL L) 1]{fullShare} vin d)
    ∗ (inLoc d ↦[tileSet (jL L) 2]{fullShare} vin d) ∗ (inLoc d ↦[tileSet (jL L) 3]{fullShare} vin d)
    ∗ OutDone vin vpc d L 0 ∗ OutDone vin vpc d L 1)

def invV (O : CellTallies nD τ sig (HIx 1)) (W : Waits sig (HIx 1)) (fP : Buf (Elt F) ((thrV d L).loc cc0_scratch2)) (k : ℕ) (_ : Unit) : sProp 𝕄 :=
  iprop(SharedV vin vpc d L O W fP (2 * k) ∗ if h : k < k0_t1_loop.trips then PreV vin vpc d L ⟨k, h⟩ else PostV vin vpc d L)

theorem invV_enter (O : CellTallies nD τ sig (HIx 1)) (W : Waits sig (HIx 1)) (fP) (n : ℕ) (hn : n < k0_t1_loop.trips) (u : Unit) :
    invV vin vpc d L O W fP n u = iprop(SharedV vin vpc d L O W fP (2 * n) ∗ PreV vin vpc d L ⟨n, hn⟩) := by
  unfold invV; rw [dif_pos hn]
theorem invV_exit (O : CellTallies nD τ sig (HIx 1)) (W : Waits sig (HIx 1)) (fP) (n : ℕ) (hn : ¬ n < k0_t1_loop.trips) (u : Unit) :
    invV vin vpc d L O W fP n u = iprop(SharedV vin vpc d L O W fP (2 * n) ∗ PostV vin vpc d L) := by
  unfold invV; rw [dif_neg hn]

theorem OutSt_neg (c : Prop) [Decidable c] (hc : ¬ c) (r : Fin 4) :
    OutSt vin vpc d L c r = iprop(∃ f, outLoc d ↦[tileSet (jL L) r]{fullShare} f) := by
  unfold OutSt; rw [if_neg hc]
theorem OutSt_pos (c : Prop) [Decidable c] (hc : c) (r : Fin 4) : OutSt vin vpc d L c r = OutDone vin vpc d L r := by
  unfold OutSt; rw [if_pos hc]

/-- A landed copy in: the buffer holds the box. -/
theorem flInV0_intro (o : Fin 4 → ℕ) (h : ∀ a, o a + S1x32x8x128.size a ≤ S4x32x128x128.size a) (r : Fin 4)
    (e : o = ![r.val, 0, 8 * (jL L).val, 0]) (f0 : S32x8x128.Idx → F .f32) :
    (Transfers.Flight countersEmb (thrV d L) (SemLoc.dma (cc0_scratch4 : DmaSems sig S_).sem) (default : HIx 1) 1048576
      iprop(((Memref.whole cc0_scratch0).view.loc (thrV d L) ↦[(Memref.whole cc0_scratch0).view.set]{fullShare}
          (Memref.whole cc0_scratch0).view.writes (Elt F) f0 [⟨Rect.whole cc0_scratch0.ty.shape, ReadAs.same.apply (View.read (Elt F) (slc inW o h).view (vin d))⟩])
        ∗ (slc inW o h).view.loc (thrV d L) ↦[(slc inW o h).view.set]{fullShare} vin d) : sProp 𝕄) ⊢ FlInV0 vin d L r := by
  unfold FlInV0
  rw [pts_own, pts_in d L o h r e, whole_writes_whole,
    show (ReadAs.same.apply (View.read (Elt F) (slc inW o h).view (vin d)) : S32x8x128.Idx → F .f32) = boxOf (vin d) r (jL L) from
      funext fun i => in_box_read o h r (jL L) e (vin d) i]
theorem flInV1_intro (o : Fin 4 → ℕ) (h : ∀ a, o a + S1x32x8x128.size a ≤ S4x32x128x128.size a) (r : Fin 4)
    (e : o = ![r.val, 0, 8 * (jL L).val, 0]) (f0 : S32x8x128.Idx → F .f32) :
    (Transfers.Flight countersEmb (thrV d L) (SemLoc.dma (cc0_scratch5 : DmaSems sig S_).sem) (default : HIx 1) 1048576
      iprop(((Memref.whole cc0_scratch1).view.loc (thrV d L) ↦[(Memref.whole cc0_scratch1).view.set]{fullShare}
          (Memref.whole cc0_scratch1).view.writes (Elt F) f0 [⟨Rect.whole cc0_scratch1.ty.shape, ReadAs.same.apply (View.read (Elt F) (slc inW o h).view (vin d))⟩])
        ∗ (slc inW o h).view.loc (thrV d L) ↦[(slc inW o h).view.set]{fullShare} vin d) : sProp 𝕄) ⊢ FlInV1 vin d L r := by
  unfold FlInV1
  rw [pts_own, pts_in d L o h r e, whole_writes_whole,
    show (ReadAs.same.apply (View.read (Elt F) (slc inW o h).view (vin d)) : S32x8x128.Idx → F .f32) = boxOf (vin d) r (jL L) from
      funext fun i => in_box_read o h r (jL L) e (vin d) i]

/-- A copied-out box is the round's output box at its value, the buffer having held the normalised box. -/
theorem outDoneA (o : Fin 4 → ℕ) (h : ∀ a, o a + S1x32x8x128.size a ≤ S4x32x128x128.size a) (r : Fin 4)
    (e : o = ![r.val, 0, 8 * (jL L).val, 0]) (fo : Buf (Elt F) (outLoc d)) (g : S32x8x128.Idx → F .f32)
    (hg : ∀ j k e', g (ix3 j k e') = tOutF (vin d) (vpc d) (ix4 r j (colOf (jL L) k) e')) :
    ((slc outW o h).view.loc (thrV d L) ↦[(slc outW o h).view.set]{fullShare}
      (slc outW o h).view.writes (Elt F) fo [⟨Rect.whole S32x8x128, ReadAs.same.apply (View.read (Elt F) (Memref.whole cc0_scratch0).view g)⟩] : sProp 𝕄)
      ⊢ OutDone vin vpc d L r := by
  unfold OutDone
  rw [pts_out d L o h r e, pointsTo_congr (outDone0 o h r (jL L) e fo g (vin d) (vpc d) hg)]
theorem outDoneB (o : Fin 4 → ℕ) (h : ∀ a, o a + S1x32x8x128.size a ≤ S4x32x128x128.size a) (r : Fin 4)
    (e : o = ![r.val, 0, 8 * (jL L).val, 0]) (fo : Buf (Elt F) (outLoc d)) (g : S32x8x128.Idx → F .f32)
    (hg : ∀ j k e', g (ix3 j k e') = tOutF (vin d) (vpc d) (ix4 r j (colOf (jL L) k) e')) :
    ((slc outW o h).view.loc (thrV d L) ↦[(slc outW o h).view.set]{fullShare}
      (slc outW o h).view.writes (Elt F) fo [⟨Rect.whole S32x8x128, ReadAs.same.apply (View.read (Elt F) (Memref.whole cc0_scratch1).view g)⟩] : sProp 𝕄)
      ⊢ OutDone vin vpc d L r := by
  unfold OutDone
  rw [pts_out d L o h r e, pointsTo_congr (outDone1 o h r (jL L) e fo g (vin d) (vpc d) hg)]

/-- A copy out outstanding from the normalised box delivers the round's output box at its value. -/
theorem flOutV0_intro (o : Fin 4 → ℕ) (h : ∀ a, o a + S1x32x8x128.size a ≤ S4x32x128x128.size a) (r : Fin 4)
    (e : o = ![r.val, 0, 8 * (jL L).val, 0]) (fo : Buf (Elt F) (outLoc d)) (g : S32x8x128.Idx → F .f32)
    (hg : ∀ j k e', g (ix3 j k e') = tOutF (vin d) (vpc d) (ix4 r j (colOf (jL L) k) e')) :
    (Transfers.Flight countersEmb (thrV d L) (SemLoc.dma (cc0_scratch6 : DmaSems sig S_).sem) (default : HIx 1) 1048576
      iprop(((slc outW o h).view.loc (thrV d L) ↦[(slc outW o h).view.set]{fullShare}
          (slc outW o h).view.writes (Elt F) fo [⟨Rect.whole S32x8x128, ReadAs.same.apply (View.read (Elt F) (Memref.whole cc0_scratch0).view g)⟩])
        ∗ (Memref.whole cc0_scratch0).view.loc (thrV d L) ↦[(Memref.whole cc0_scratch0).view.set]{fullShare} g) : sProp 𝕄) ⊢ FlOutV0 vin vpc d L r := by
  unfold FlOutV0
  rw [pts_own]
  iintro H
  iexists g
  iapply (Transfers.Flight_mono (countersEmb : UEmb Counters 𝕄) (thrV d L) ?_) $$ H
  iintro ⟨Hd, Hs⟩
  isplitl [Hd]; · iapply (outDoneA vin vpc d L o h r e fo g hg); iexact Hd
  iexact Hs
theorem flOutV1_intro (o : Fin 4 → ℕ) (h : ∀ a, o a + S1x32x8x128.size a ≤ S4x32x128x128.size a) (r : Fin 4)
    (e : o = ![r.val, 0, 8 * (jL L).val, 0]) (fo : Buf (Elt F) (outLoc d)) (g : S32x8x128.Idx → F .f32)
    (hg : ∀ j k e', g (ix3 j k e') = tOutF (vin d) (vpc d) (ix4 r j (colOf (jL L) k) e')) :
    (Transfers.Flight countersEmb (thrV d L) (SemLoc.dma (cc0_scratch7 : DmaSems sig S_).sem) (default : HIx 1) 1048576
      iprop(((slc outW o h).view.loc (thrV d L) ↦[(slc outW o h).view.set]{fullShare}
          (slc outW o h).view.writes (Elt F) fo [⟨Rect.whole S32x8x128, ReadAs.same.apply (View.read (Elt F) (Memref.whole cc0_scratch1).view g)⟩])
        ∗ (Memref.whole cc0_scratch1).view.loc (thrV d L) ↦[(Memref.whole cc0_scratch1).view.set]{fullShare} g) : sProp 𝕄) ⊢ FlOutV1 vin vpc d L r := by
  unfold FlOutV1
  rw [pts_own]
  iintro H
  iexists g
  iapply (Transfers.Flight_mono (countersEmb : UEmb Counters 𝕄) (thrV d L) ?_) $$ H
  iintro ⟨Hd, Hs⟩
  isplitl [Hd]; · iapply (outDoneB vin vpc d L o h r e fo g hg); iexact Hd
  iexact Hs

/-- The row of the row sums copied out is the subcore's row at its value. -/
theorem rsDoneP (fo : Buf (Elt F) (rsLoc d)) (g : S4x16.Idx → F .f32) (hg : RsOK (frowT vin vpc d L) 4 g) :
    ((rsSl L).view.loc (thrV d L) ↦[(rsSl L).view.set]{fullShare}
      (rsSl L).view.writes (Elt F) fo [⟨Rect.whole S4x16, ReadAs.same.apply (View.read (Elt F) (Memref.whole cc0_scratch3).view g)⟩] : sProp 𝕄)
      ⊢ rsLoc d ↦[rsSet (jL L)]{fullShare} (tRsRowF (vin d) (vpc d) : Buf (Elt F) (rsLoc d)) := by
  have key : ∀ i ∈ rsSet (jL L), (rsSl L).view.writes (Elt F) fo [⟨Rect.whole S4x16, ReadAs.same.apply (View.read (Elt F) (Memref.whole cc0_scratch3).view g)⟩] i
      = (tRsRowF (vin d) (vpc d) : Buf (Elt F) (rsLoc d)) i := by
    intro i hi
    rw [rs_out (frowT vin vpc d L) _ _ (jL L) (off265_eq L) g hg fo i hi]
    obtain ⟨h1, h2⟩ := mem_rsSet (jL L) i hi
    have e1 : i 1 = (0 : Fin 1) := Fin.ext h1
    have e2 : i 2 = jL L := Fin.ext h2
    show tRsRowF (vin d) (vpc d) (ix4 (i 0) (0 : Fin 1) (jL L) (i 3)) = tRsRowF (vin d) (vpc d) i
    conv_rhs => rw [eq_ix4 i, e1, e2]
    rfl
  rw [pts_rs, pointsTo_congr key]

set_option hygiene false in
/-- One of the compute's counted loops over the first scratch buffer, held as `HA`: its invariant is the buffer at some contents. -/
macro "loopA" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩
  sl_exec))
set_option hygiene false in
/-- The last loop over the first buffer before it is copied out: the run resumes once the buffer is held by its own elements. -/
macro "loopA_last" : tactic => `(tactic| (
  sl_for (fun _ _ => iprop(∃ f, (bA).view.loc (thrV d L) ↦{fullShare} f)) $$ [HA]
  case region =>
    intro j acc
    iintro ⟨%f, HA⟩
    sl_exec
    sl_step
    iexists _; iexact HA
  · iexists _; iexact HA
  iintro %acc HI
  icases HI with ⟨%f, HA⟩))
set_option hygiene false in
/-- The same over the second scratch buffer, held as `HB`. -/
macro "loopB" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩
  sl_exec))
set_option hygiene false in
macro "loopB_last" : tactic => `(tactic| (
  sl_for (fun _ _ => iprop(∃ f, (bB).view.loc (thrV d L) ↦{fullShare} f)) $$ [HB]
  case region =>
    intro j acc
    iintro ⟨%f, HB⟩
    sl_exec
    sl_step
    iexists _; iexact HB
  · iexists _; iexact HB
  iintro %acc HI
  icases HI with ⟨%f, HB⟩))

set_option hygiene false in
/-- Column group `kc` of the first scratch buffer: its summing loop at the lane sums of the rows so far, its scaling loop at the rows scaled so far. -/
macro "blkA " kc:num : tactic => `(tactic| (
  sl_for (fun (j : ℕ) (acc : FVec F S16 .f32) => iprop(((bA).view.loc (thrV d L) ↦{fullShare} blkB fA0 (k0_pay364 v1) (shapeCast S16 (View.readAt (Elt F) (bPc).view (Rect.unit ![0] S16.size inb_S16_S16_0).toLoadRect fP) shapeCasts_S16_S16) $kc)
      ∗ ⌜acc = accB (blkB fA0 (k0_pay364 v1) (shapeCast S16 (View.readAt (Elt F) (bPc).view (Rect.unit ![0] S16.size inb_S16_S16_0).toLoadRect fP) shapeCasts_S16_S16) $kc) ⟨$kc, by decide⟩ j⌝)) $$ [HA]
  case region =>
    intro j acc
    iintro ⟨HA, %hacc⟩
    sl_exec
    sl_step
    isplitl [HA]; · iexact HA
    ipureintro
    have hj : j.val < 32 := j.isLt
    rw [accB_succ _ _ _ hj, ← hacc]
    exact sum_yield0 _ ⟨$kc, by decide⟩ acc ⟨j.val, hj⟩ _ _ _ _ _ _ _ _ _ _ _ _ _ _ _ _
      (by off_eqs) (by off_eqs) (by off_eqs) (by off_eqs) (by off_eqs) (by off_eqs) (by off_eqs) (by off_eqs)
  · isplitl [HA]; · iexact HA
    ipureintro; rfl
  iintro %acc HI
  icases HI with ⟨HA, %hacc⟩
  subst hacc
  sl_exec
  sl_for (fun (j : ℕ) (_ : PUnit) => iprop(∃ f', ((bA).view.loc (thrV d L) ↦{fullShare} f')
      ∗ ⌜f' = scaleUpTo (blkB fA0 (k0_pay364 v1) (shapeCast S16 (View.readAt (Elt F) (bPc).view (Rect.unit ![0] S16.size inb_S16_S16_0).toLoadRect fP) shapeCasts_S16_S16) $kc) ⟨$kc, by decide⟩
          (rcpOf (k0_pay364 v1) (accB (blkB fA0 (k0_pay364 v1) (shapeCast S16 (View.readAt (Elt F) (bPc).view (Rect.unit ![0] S16.size inb_S16_S16_0).toLoadRect fP) shapeCasts_S16_S16) $kc) ⟨$kc, by decide⟩ 32))
          (prOf (k0_pay364 v1) (accB (blkB fA0 (k0_pay364 v1) (shapeCast S16 (View.readAt (Elt F) (bPc).view (Rect.unit ![0] S16.size inb_S16_S16_0).toLoadRect fP) shapeCasts_S16_S16) $kc) ⟨$kc, by decide⟩ 32) (shapeCast S16 (View.readAt (Elt F) (bPc).view (Rect.unit ![0] S16.size inb_S16_S16_0).toLoadRect fP) shapeCasts_S16_S16)) j⌝)) $$ [HA]
  case region =>
    intro j acc
    iintro ⟨%f', HA, %hf'⟩
    sl_exec
    sl_step
    iexists _
    isplitl [HA]; · iexact HA
    ipureintro
    have hj : j.val < 32 := j.isLt
    rw [scaleUpTo_succ _ _ _ _ _ hj, ← hf']
    exact scale_trip0u f' ⟨j.val, hj⟩ ⟨$kc, by decide⟩ _ _ _ _ _ _ _ _ _ _ _ _ _ _ _ _ _ _
      (by off_eqs) (by off_eqs) (by off_eqs) (by off_eqs) (by off_eqs) (by off_eqs) (by off_eqs) (by off_eqs)
  · iexists _
    isplitl [HA]; · iexact HA
    ipureintro; rfl
  iintro %u HI
  icases HI with ⟨%f', HA, %hf'⟩
  subst hf'))

set_option hygiene false in
/-- Column group `kc` of the second scratch buffer: its summing loop at the lane sums of the rows so far, its scaling loop at the rows scaled so far. -/
macro "blkB' " kc:num : tactic => `(tactic| (
  sl_for (fun (j : ℕ) (acc : FVec F S16 .f32) => iprop(((bB).view.loc (thrV d L) ↦{fullShare} blkB fB0 (k0_pay364 v1) (shapeCast S16 (View.readAt (Elt F) (bPc).view (Rect.unit ![0] S16.size inb_S16_S16_0).toLoadRect fP) shapeCasts_S16_S16) $kc)
      ∗ ⌜acc = accB (blkB fB0 (k0_pay364 v1) (shapeCast S16 (View.readAt (Elt F) (bPc).view (Rect.unit ![0] S16.size inb_S16_S16_0).toLoadRect fP) shapeCasts_S16_S16) $kc) ⟨$kc, by decide⟩ j⌝)) $$ [HB]
  case region =>
    intro j acc
    iintro ⟨HB, %hacc⟩
    sl_exec
    sl_step
    isplitl [HB]; · iexact HB
    ipureintro
    have hj : j.val < 32 := j.isLt
    rw [accB_succ _ _ _ hj, ← hacc]
    exact sum_yield1 _ ⟨$kc, by decide⟩ acc ⟨j.val, hj⟩ _ _ _ _ _ _ _ _ _ _ _ _ _ _ _ _
      (by off_eqs) (by off_eqs) (by off_eqs) (by off_eqs) (by off_eqs) (by off_eqs) (by off_eqs) (by off_eqs)
  · isplitl [HB]; · iexact HB
    ipureintro; rfl
  iintro %acc HI
  icases HI with ⟨HB, %hacc⟩
  subst hacc
  sl_exec
  sl_for (fun (j : ℕ) (_ : PUnit) => iprop(∃ f', ((bB).view.loc (thrV d L) ↦{fullShare} f')
      ∗ ⌜f' = scaleUpTo (blkB fB0 (k0_pay364 v1) (shapeCast S16 (View.readAt (Elt F) (bPc).view (Rect.unit ![0] S16.size inb_S16_S16_0).toLoadRect fP) shapeCasts_S16_S16) $kc) ⟨$kc, by decide⟩
          (rcpOf (k0_pay364 v1) (accB (blkB fB0 (k0_pay364 v1) (shapeCast S16 (View.readAt (Elt F) (bPc).view (Rect.unit ![0] S16.size inb_S16_S16_0).toLoadRect fP) shapeCasts_S16_S16) $kc) ⟨$kc, by decide⟩ 32))
          (prOf (k0_pay364 v1) (accB (blkB fB0 (k0_pay364 v1) (shapeCast S16 (View.readAt (Elt F) (bPc).view (Rect.unit ![0] S16.size inb_S16_S16_0).toLoadRect fP) shapeCasts_S16_S16) $kc) ⟨$kc, by decide⟩ 32) (shapeCast S16 (View.readAt (Elt F) (bPc).view (Rect.unit ![0] S16.size inb_S16_S16_0).toLoadRect fP) shapeCasts_S16_S16)) j⌝)) $$ [HB]
  case region =>
    intro j acc
    iintro ⟨%f', HB, %hf'⟩
    sl_exec
    sl_step
    iexists _
    isplitl [HB]; · iexact HB
    ipureintro
    have hj : j.val < 32 := j.isLt
    rw [scaleUpTo_succ _ _ _ _ _ hj, ← hf']
    exact scale_trip1u f' ⟨j.val, hj⟩ ⟨$kc, by decide⟩ _ _ _ _ _ _ _ _ _ _ _ _ _ _ _ _ _ _
      (by off_eqs) (by off_eqs) (by off_eqs) (by off_eqs) (by off_eqs) (by off_eqs) (by off_eqs) (by off_eqs)
  · iexists _
    isplitl [HB]; · iexact HB
    ipureintro; rfl
  iintro %u HI
  icases HI with ⟨%f', HB, %hf'⟩
  subst hf'))

set_option maxHeartbeats 4000000 in
/-- One trip of the round loop with the values: the two boxes it normalises come out at the kernel's output values, the
    two rows of the row-sum scratch at the kernel's row sums. -/
theorem tripV (arg0 : BitVec 32) (v1 : Vec F S16 .f32) (v5 : IVec S16 32) (O : CellTallies nD τ sig (HIx 1)) (W : Waits sig (HIx 1))
    (fP : Buf (Elt F) ((thrV d L).loc cc0_scratch2))
    (hpc0 : k0_pay364 v1 = (vpc d) (ix1 (0 : Fin 16))) (hpcv : (shapeCast S16 (View.readAt (Elt F) (bPc).view (Rect.unit ![0] S16.size inb_S16_S16_0).toLoadRect fP) shapeCasts_S16_S16) = vpc d)
    (hv5 : v5 = iota .scVector S16 32 [0] iota_S16_d0_w32_scVector)
    (k : Fin k0_t1_loop.trips) :
    invV vin vpc d L O W fP k.val ⟨⟩
      ⊢ wp frame (wpE (defs₀ (F := F)) 𝒱₀ (thrV d L) none) Set.univ
          (k0_t1_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1 arg0 v1 v5 k ⟨⟩)
          fun _ => invV vin vpc d L O W fP (k.val + 1) ⟨⟩ := by
  have hgX : ∀ (r : Fin 4) j k' e', blkB (boxOf (vin d) r (jL L)) (k0_pay364 v1) (shapeCast S16 (View.readAt (Elt F) (bPc).view (Rect.unit ![0] S16.size inb_S16_S16_0).toLoadRect fP) shapeCasts_S16_S16) 8 (ix3 j k' e')
      = tOutF (vin d) (vpc d) (ix4 r j (colOf (jL L) k') e') := by
    intro r j k' e'; rw [hpc0, hpcv]; exact blkB_box (vin d) (vpc d) r (jL L) j k' e'
  have hrow : ∀ (r : Fin 4) (l : Fin 16), rowVec (boxOf (vin d) r (jL L)) (k0_pay364 v1) (shapeCast S16 (View.readAt (Elt F) (bPc).view (Rect.unit ![0] S16.size inb_S16_S16_0).toLoadRect fP) shapeCasts_S16_S16) v5 (ix1 l) = frowT vin vpc d L r l := by
    intro r l; rw [hpc0, hpcv]; exact rowVec_box (vin d) (vpc d) r (jL L) v5 hv5 l
  unfold k0_t1_body
  rw [invV_enter vin vpc d L O W fP k.val k.isLt]
  unfold SharedV PreV FlInV0 FlInV1
  iintro ⟨⟨Hmw, Hpc, HP, ⟨%fR, HR, %hfR⟩, %W', %hW', HO⟩, Hs4, Hs5, Hs6, Hs7, Hi2, Hi3, ⟨%fo0, Ho0⟩, ⟨%fo1, Ho1⟩, Ho2, Ho3⟩
  ihave HP' := (Entails.of_eq (pts_bPc (F := F) d L _).symm) $$ HP
  ihave HR' := (Entails.of_eq (pts_bRs (F := F) d L _).symm) $$ HR
  ihave Ho0' := (Entails.of_eq (pts_out (F := F) d L (k0_off2 L k) (k0_off2_inb L k) (r0 k) (off2_eq L k) _).symm) $$ Ho0
  ihave Ho1' := (Entails.of_eq (pts_out (F := F) d L (k0_off132 L k) (k0_off132_inb L k) (r1 k) (off132_eq L k) _).symm) $$ Ho1
  sl_exec
  generalize hfA0 : boxOf (vin d) (r0 k) (jL L) = fA0
  icases Hs4_dst with HA
  blkA 0
  sl_exec
  blkA 1
  sl_exec
  blkA 2
  sl_exec
  blkA 3
  sl_exec
  blkA 4
  sl_exec
  blkA 5
  sl_exec
  blkA 6
  sl_exec
  blkA 7
  ihave HA := (Entails.of_eq (pts_own (F := F) d L cc0_scratch0 _).symm) $$ HA
  sl_exec
  generalize hfB0 : boxOf (vin d) (r1 k) (jL L) = fB0
  icases Hs5_dst with HB
  blkB' 0
  sl_exec
  blkB' 1
  sl_exec
  blkB' 2
  sl_exec
  blkB' 3
  sl_exec
  blkB' 4
  sl_exec
  blkB' 5
  sl_exec
  blkB' 6
  sl_exec
  blkB' 7
  ihave HB := (Entails.of_eq (pts_own (F := F) d L cc0_scratch1 _).symm) $$ HB
  by_cases hc : k0_cond1 k = 1#1
  · -- the first trip
    ihave Hi2' := (Entails.of_eq (pts_in (F := F) d L (k0_off263 L k 2#32) (k0_off263_inb L k hc 1) (r0 (oth k)) (off263_eq L k hc) _).symm) $$ Hi2
    ihave Hi3' := (Entails.of_eq (pts_in (F := F) d L (k0_off264 L k) (k0_off264_inb L k hc) (r1 (oth k)) (off264_eq L k hc) _).symm) $$ Hi3
    sl_exec
    sl_step
    obtain rfl := cond_zero k hc
    subst hfA0 hfB0
    iapply (Entails.of_eq (invV_enter vin vpc d L O W fP 1 (by decide) ()).symm)
    unfold SharedV PreV
    isplitl [Hmw Hpc HP' HR' HO]
    · isplitl [Hmw]; · iexact Hmw
      isplitl [Hpc]; · iexact Hpc
      isplitl [HP']; · iapply (Entails.of_eq (pts_bPc (F := F) d L _)); iexact HP'
      isplitl [HR']
      · iexists _
        isplitl [HR']; · iapply (Entails.of_eq (pts_bRs (F := F) d L _)); iexact HR'
        ipureintro
        exact rs_step (frowT vin vpc d L) 0 (by decide) fR _ _ _ _ _ _ (off131_eq _) (off261_eq _) hfR (hrow 0) (hrow 1)
      iexists _; isplitr
      rotate_left
      · iexact HO
      ipureintro; exact owes_none (owes_none (owes_none (owes_none hW' _) _) _) _
    isplitl [Hs4]; · iapply (flInV0_intro vin d L _ _ 2 (off263_eq L ⟨0, by decide⟩ hc) _); iexact Hs4
    isplitl [Hs5]; · iapply (flInV1_intro vin d L _ _ 3 (off264_eq L ⟨0, by decide⟩ hc) _); iexact Hs5
    isplitl [Hs6]; · iexact Hs6
    isplitl [Hs7]; · iexact Hs7
    isplitl [Hs4_src]; · iexact Hs4_src
    isplitl [Hs5_src]; · iexact Hs5_src
    isplitl [Ho2]; · iapply (Entails.of_eq (OutSt_neg vin vpc d L _ (show ¬ ((⟨0, by decide⟩ : Fin k0_t1_loop.trips).val = 1) by decide) _)); iexact Ho2
    isplitl [Ho3]; · iapply (Entails.of_eq (OutSt_neg vin vpc d L _ (show ¬ ((⟨0, by decide⟩ : Fin k0_t1_loop.trips).val = 1) by decide) _)); iexact Ho3
    isplitl [Ho0']
    · iapply (Entails.of_eq (OutSt_pos vin vpc d L _ rfl _).symm)
      iapply (outDoneA vin vpc d L _ _ 0 (off2_eq L ⟨0, by decide⟩) _ _ (hgX 0)); iexact Ho0'
    iapply (Entails.of_eq (OutSt_pos vin vpc d L _ rfl _).symm)
    iapply (outDoneB vin vpc d L _ _ 1 (off132_eq L ⟨0, by decide⟩) _ _ (hgX 1)); iexact Ho1'
  · -- the last trip
    sl_exec
    sl_step
    obtain rfl := cond_one k hc
    subst hfA0 hfB0
    iapply (Entails.of_eq (invV_exit vin vpc d L O W fP 2 (by decide) ()).symm)
    unfold SharedV PostV
    isplitl [Hmw Hpc HP' HR' HO]
    · isplitl [Hmw]; · iexact Hmw
      isplitl [Hpc]; · iexact Hpc
      isplitl [HP']; · iapply (Entails.of_eq (pts_bPc (F := F) d L _)); iexact HP'
      isplitl [HR']
      · iexists _
        isplitl [HR']; · iapply (Entails.of_eq (pts_bRs (F := F) d L _)); iexact HR'
        ipureintro
        exact rs_step (frowT vin vpc d L) 1 (by decide) fR _ _ _ _ _ _ (off131_eq _) (off261_eq _) hfR (hrow 2) (hrow 3)
      iexists _; isplitr
      rotate_left
      · iexact HO
      ipureintro; exact owes_none (owes_none hW' _) _
    isplitl [Hs4]; · iexact Hs4
    isplitl [Hs5]; · iexact Hs5
    isplitl [Hs6]; · iapply (flOutV0_intro vin vpc d L _ _ 2 (off2_eq L ⟨1, by decide⟩) _ _ (hgX 2)); iexact Hs6
    isplitl [Hs7]; · iapply (flOutV1_intro vin vpc d L _ _ 3 (off132_eq L ⟨1, by decide⟩) _ _ (hgX 3)); iexact Hs7
    isplitl [Hi2]; · iexact Hi2
    isplitl [Hi3]; · iexact Hi3
    isplitl [Hs4_src]; · iexact Hs4_src
    isplitl [Hs5_src]; · iexact Hs5_src
    isplitl [Ho2]; · iapply (Entails.of_eq (OutSt_pos vin vpc d L _ rfl _)); iexact Ho2
    iapply (Entails.of_eq (OutSt_pos vin vpc d L _ rfl _)); iexact Ho3

end Tile

end Cert.Proof.KI

end
-- ==== Proof.KI.TileBodyV.lean ====
/-
  The SparseCore call's body obligation with its results named, proved: the task of a vector subcore hands its four
  output boxes back at the kernel's output values and its row of the row sums at the kernel's row sums — the pseudocount
  scratch holds the pseudocount vector after its fetch, the round loop runs by the invariant of TripV.lean, and the row of
  the row-sum scratch copied out at the end is the subcore's row. At the idealized instance this is the launch theorem's
  obligation at the payloads that name the results.
-/
import proofs.«216181_g9861244912407_cont_9to1_m_1073_40_alg».proof.Proof.KI.TileV
import proofs.«216181_g9861244912407_cont_9to1_m_1073_40_alg».proof.Proof.KI.TripV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ
open Idealize.ShloMosaic.ValueIdx
local notation "inW" => (Memref.whole Cert.KernelIdeal.main_v5_scv : Memref Cert.KernelIdeal.sig Kind.scVector Space.hbm Cert.KernelIdeal.S4x32x128x128 EltTy.f32)
local notation "pcW" => (Memref.whole Cert.KernelIdeal.main_v2_scv : Memref Cert.KernelIdeal.sig Kind.scVector Space.hbm Cert.KernelIdeal.S16 EltTy.f32)
local notation "outW" => (Memref.whole Cert.KernelIdeal.main_v6_0_scv : Memref Cert.KernelIdeal.sig Kind.scVector Space.hbm Cert.KernelIdeal.S4x32x128x128 EltTy.f32)
local notation "rsW" => (Memref.whole Cert.KernelIdeal.main_v6_1_scv : Memref Cert.KernelIdeal.sig Kind.scVector Space.hbm Cert.KernelIdeal.S4x1x16x16 EltTy.f32)
local notation "bA" => (Memref.whole Cert.KernelIdeal.cc0_scratch0 : Memref Cert.KernelIdeal.sig Kind.scVector Space.vmem Cert.KernelIdeal.S32x8x128 EltTy.f32)
local notation "bB" => (Memref.whole Cert.KernelIdeal.cc0_scratch1 : Memref Cert.KernelIdeal.sig Kind.scVector Space.vmem Cert.KernelIdeal.S32x8x128 EltTy.f32)
local notation "bPc" => (Memref.whole Cert.KernelIdeal.cc0_scratch2 : Memref Cert.KernelIdeal.sig Kind.scVector Space.vmem Cert.KernelIdeal.S16 EltTy.f32)
local notation "bRs" => (Memref.whole Cert.KernelIdeal.cc0_scratch3 : Memref Cert.KernelIdeal.sig Kind.scVector Space.vmem Cert.KernelIdeal.S4x16 EltTy.f32)

section Tile
variable (vin : (d : Dev nD) → Buf (Elt F) (inLoc d)) (vpc : (d : Dev nD) → Buf (Elt F) (pcLoc d))
variable (d : Dev nD) (L : grid0.Coords)

set_option maxHeartbeats 4000000 in
/-- The task with its results named: the output boxes at the kernel's output values, the row of the row sums at the kernel's row sums. -/
theorem tile_bodyV (hF : (K (F := F)).Facts) (O : CellTallies nD τ sig (HIx 1)) (W : Waits sig (HIx 1)) (hO : ∀ g, O g none = 0) :
    iprop(levAts (K (F := F)).L (K (F := F)).lev ∗ emp ∗ tileRes vin vpc d (jL L)
        ∗ scopedBufs (thrV d L) ∗ scopedSems0 (thrV d L) ∗ owes (thrV d L) O W)
      ⊢ wp frame (wpE (defs₀ (F := F)) 𝒱₀ (thrV d L) none) Set.univ
          (cc0__sc_body L inW (Memref.isWhole_whole _) pcW (Memref.isWhole_whole _) outW (Memref.isWhole_whole _) rsW (Memref.isWhole_whole _)
            bA (Memref.isWhole_whole _) bB (Memref.isWhole_whole _) bPc (Memref.isWhole_whole _) bRs (Memref.isWhole_whole _)
            cc0_scratch4 cc0_scratch5 cc0_scratch6 cc0_scratch7 cc0_scoped0 cc0_scoped1)
          fun _ => iprop(tileResF vin vpc d (jL L) ∗ scopedBufs (thrV d L) ∗ scopedSems0 (thrV d L)
            ∗ ∃ W', ⌜∀ p ∈ W', p ∈ W ∨ p.2 = none⌝ ∗ owes (thrV d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileRes tileResF fout frs
  rw [bigSep_fin4, bigSep_fin4, bigSep_fin4]
  iintro ⟨#Hlv, -, ⟨⟨Hin0, Hin1, Hin2, Hin3⟩, Hpc, ⟨Hout0, Hout1, Hout2, Hout3⟩, ⟨%frs0, Hrs⟩⟩,
    ⟨⟨%fA, HA⟩, ⟨%fB, HB⟩, ⟨%fP0, HP⟩, ⟨%fR0, HR⟩, Hbufs⟩, ⟨Hs4, Hs5, Hs6, Hs7, Hsc0, Hsc1, Hsems⟩, HO⟩
  ihave Hmw := ((K (F := F)).mayWaits_none (thr := thrV d L) hO) $$ Hlv
  ihave Hpc' := (Entails.of_eq (pts_pc (F := F) d L _ _).symm) $$ Hpc
  ihave HA' := (Entails.of_eq ((pts_own (F := F) d L cc0_scratch0 _).trans (pts_bA (F := F) d L _)).symm) $$ HA
  ihave HB' := (Entails.of_eq ((pts_own (F := F) d L cc0_scratch1 _).trans (pts_bB (F := F) d L _)).symm) $$ HB
  ihave HP' := (Entails.of_eq (pts_bPc (F := F) d L _).symm) $$ HP
  ihave Hi0 := (Entails.of_eq (pts_in (F := F) d L (k0_off1 L 0#32) (k0_off1_inb L 0) 0 (off1_eq L 0) _).symm) $$ Hin0
  ihave Hi1 := (Entails.of_eq (pts_in (F := F) d L (k0_off1 L 1#32) (k0_off1_inb L 1) 1 (off1_eq L 1) _).symm) $$ Hin1
  -- the pseudocount vector's fetch and the first two requests
  sl_exec
  -- the pseudocount scratch holds the pseudocount vector
  have hPc : (((bPc).view.loc (thrV d L) ↦{fullShare} View.write (Elt F) (bPc).view fP0 (tile_bodyV.sl.dma0 vpc d) Finset.univ : sProp 𝕄))
      = ((bPc).view.loc (thrV d L) ↦{fullShare} (vpc d : Buf (Elt F) ((bPc).view.loc (thrV d L)))) :=
    congrArg (fun g => ((bPc).view.loc (thrV d L) ↦{fullShare} g : sProp 𝕄)) (pc_copy_in (F := F) fP0 (vpc d))
  ihave HPc := (Entails.of_eq hPc) $$ HP'
  ihave HPc' := (Entails.of_eq (pts_bPc (F := F) d L _)) $$ HPc
  -- the round loop
  sl_for (invV vin vpc d L O W (vpc d)) $$ [Hmw Hpc' HPc' HR Hs4 Hs5 Hs6 Hs7 Hin2 Hin3 Hout0 Hout1 Hout2 Hout3 HO]
  case region =>
    intro k acc
    refine tripV vin vpc d L _ _ _ O W (vpc d) ?_ ?_ ?_ k
    · exact (pay364_eq _).trans ((congrFun (pc_load _ _) _).trans (congrFun (pc_copy_in fP0 (vpc d)) _))
    · rw [pc_load, pc_cast]
    · rfl
  · iapply (Entails.of_eq (invV_enter vin vpc d L O W (vpc d) 0 (by decide) ()).symm)
    unfold SharedV PreV
    isplitl [Hmw Hpc' HPc' HR HO]
    · isplitl [Hmw]; · iexact Hmw
      isplitl [Hpc']; · iexact Hpc'
      isplitl [HPc']; · iexact HPc'
      isplitl [HR]
      · iexists _
        isplitl [HR]; · iexact HR
        ipureintro; intro ρ hρ; exact absurd hρ (Nat.not_lt_zero _)
      iexists _; isplitr
      rotate_left
      · iexact HO
      ipureintro; exact owes_none (fun p hp => .inl hp) _
    isplitl [Hs4]; · iapply (flInV0_intro vin d L _ _ 0 (off1_eq L 0) _); iexact Hs4
    isplitl [Hs5]; · iapply (flInV1_intro vin d L _ _ 1 (off1_eq L 1) _); iexact Hs5
    isplitl [Hs6]; · iexact Hs6
    isplitl [Hs7]; · iexact Hs7
    isplitl [Hin2]; · iexact Hin2
    isplitl [Hin3]; · iexact Hin3
    isplitl [Hout0]; · iexact Hout0
    isplitl [Hout1]; · iexact Hout1
    isplitl [Hout2]; · iapply (Entails.of_eq (OutSt_neg vin vpc d L _ (show ¬ ((⟨0, Nat.zero_lt_two⟩ : Fin k0_t1_loop.trips).val = 1) by decide) _).symm); iexact Hout2
    iapply (Entails.of_eq (OutSt_neg vin vpc d L _ (show ¬ ((⟨0, Nat.zero_lt_two⟩ : Fin k0_t1_loop.trips).val = 1) by decide) _).symm); iexact Hout3
  iintro %u HI
  ihave HI' := (Entails.of_eq (invV_exit vin vpc d L O W (vpc d) _ (by decide) _)) $$ HI
  unfold SharedV PostV FlOutV0 FlOutV1 OutDone
  icases HI' with ⟨⟨Hmw, Hpc', HP, ⟨%fR', HR, %hfR⟩, %W', %hW', HO⟩, Hs4, Hs5, ⟨%fsA, Hs6⟩, ⟨%fsB, Hs7⟩, Hin0, Hin1, Hin2, Hin3, Hout0, Hout1⟩
  ihave HR' := (Entails.of_eq (pts_bRs (F := F) d L _).symm) $$ HR
  ihave Hrs' := (Entails.of_eq (pts_rs (F := F) d L _).symm) $$ Hrs
  -- the last two copies out awaited, the row of row sums written out and awaited
  sl_exec
  sl_step
  isplitl [Hin0 Hin1 Hin2 Hin3 Hpc' Hout0 Hout1 Hs6_dst Hs7_dst Hrs']
  · isplitl [Hin0 Hin1 Hin2 Hin3]
    · isplitl [Hin0]; · iexact Hin0
      isplitl [Hin1]; · iexact Hin1
      isplitl [Hin2]; · iexact Hin2
      iexact Hin3
    isplitl [Hpc']; · iexact Hpc'
    isplitl [Hout0 Hout1 Hs6_dst Hs7_dst]
    · isplitl [Hout0]; · iexact Hout0
      isplitl [Hout1]; · iexact Hout1
      isplitl [Hs6_dst]; · iexact Hs6_dst
      iexact Hs7_dst
    iapply (rsDoneP vin vpc d L _ _ hfR); iexact Hrs'
  isplitl [Hs6_src Hs7_src HP HR' Hbufs]
  · isplitl [Hs6_src]; · iexists _; iexact Hs6_src
    isplitl [Hs7_src]; · iexists _; iexact Hs7_src
    isplitl [HP]; · iexists _; iexact HP
    isplitl [HR']; · iexists _; iapply (Entails.of_eq (pts_bRs (F := F) d L _)); iexact HR'
    iexact Hbufs
  isplitl [Hs4 Hs5 Hs6 Hs7 Hsc0 Hsc1 Hsems]
  · isplitl [Hs4]; · iexact Hs4
    isplitl [Hs5]; · iexact Hs5
    isplitl [Hs6]; · iexact Hs6
    isplitl [Hs7]; · iexact Hs7
    isplitl [Hsc0]; · iexact Hsc0
    isplitl [Hsc1]; · iexact Hsc1
    iexact Hsems
  iexists _; isplitr
  rotate_left
  · iexact HO
  ipureintro; exact owes_none (owes_none (owes_none hW' _) _) _

end Tile

/-- The body obligation with the results named. -/
theorem bodyV : BodyV F := fun vin vpc d L O W hO => tile_bodyV vin vpc d L facts O W hO

/-- The launch theorem's obligation at the payloads that name the call's results. -/
theorem tileOblV (vin : (d : Dev nD) → Buf (Elt Ideal) (inLoc d)) (vpc : (d : Dev nD) → Buf (Elt Ideal) (pcLoc d)) :
    (K (F := Ideal)).TileObl (D (F := Ideal)) 𝒱 (PV vin vpc) v₀ 0 :=
  tileOblV_of_body (bodyV (F := Ideal)) vin vpc

end Cert.Proof.KI

end
-- ==== Proof.lean ====
/-
  The certificate's claim.  The three frames: the reference's is its run with the results forgotten; each kernel
  program's is the SparseCore launch theorem applied to the sixteen tiles' body obligation (a double-buffered stream
  of boxes through two scratch buffers, each box summed row by row and scaled in place), the split of the call's
  arrays into the tiles' boxes, and @main's host lines, SparseCore call and two TensorCore regions run in order.
  The idealization rewrote nothing, so its ledger's statement is trivial.  The value conjunct: both programs' results
  are, index by index, the canonical normalised counts and row sums — the reference's by reading its stages, the
  kernel's from the values the SparseCore call (every tile hands its boxes back at the values its body computes) and
  the two TensorCore regions leave in their arrays — under the precondition's finiteness, which makes the sum of the
  smoothed counts the counts' sum plus 4096 pseudocounts and the division a product with the reciprocal.
-/
import proofs.«216181_g9861244912407_cont_9to1_m_1073_40_alg».proof.Defs
import proofs.«216181_g9861244912407_cont_9to1_m_1073_40_alg».proof.Proof.Gen.Kernel
import proofs.«216181_g9861244912407_cont_9to1_m_1073_40_alg».proof.Proof.Gen.KernelIdeal
import proofs.«216181_g9861244912407_cont_9to1_m_1073_40_alg».proof.Proof.Gen.ReferenceIdeal
import proofs.«216181_g9861244912407_cont_9to1_m_1073_40_alg».proof.Proof.Gen.Pre_input_domain
import proofs.«216181_g9861244912407_cont_9to1_m_1073_40_alg».proof.Proof.RefFrame
import proofs.«216181_g9861244912407_cont_9to1_m_1073_40_alg».proof.Proof.KI.Frame
import proofs.«216181_g9861244912407_cont_9to1_m_1073_40_alg».proof.Proof.KB.Frame
import proofs.«216181_g9861244912407_cont_9to1_m_1073_40_alg».proof.Proof.KI.Algebraic
import proofs.«216181_g9861244912407_cont_9to1_m_1073_40_alg».proof.Proof.KI.TileBodyV

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.KB.frame_run, Cert.Proof.KI.frame_run, Cert.Proof.RefFrame.frame_ri, trivial,
  Cert.Proof.KI.algebraic_of_tile (fun vi vp => Cert.Proof.KI.tileOblV vi vp)⟩

end Cert.Proof

end
